-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16x512x64 : Shape := ⟨3, ![16, 512, 64]⟩
abbrev S16x512 : Shape := ⟨2, ![16, 512]⟩
abbrev S1024x128 : Shape := ⟨2, ![1024, 128]⟩
abbrev S512x192 : Shape := ⟨2, ![512, 192]⟩
abbrev S512x512 : Shape := ⟨2, ![512, 512]⟩
abbrev S512 : Shape := ⟨1, ![512]⟩
abbrev S_ : Shape := ⟨0, ![]⟩

class Facts : Prop where
  bcast_S_S16x512x64 : S_.BroadcastsInDim S16x512x64 (![] : Fin 0 → Fin S16x512x64.rank)
  reducesTo_S16x512x64_S_d0_1_2 : S16x512x64.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S512x192 : S_.BroadcastsInDim S512x192 (![] : Fin 0 → Fin S512x192.rank)
  reducesTo_S512x192_S_d0_1 : S512x192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S16x512 : S_.BroadcastsInDim S16x512 (![] : Fin 0 → Fin S16x512.rank)
  reducesTo_S16x512_S_d0_1 : S16x512.ReducesTo [0, 1] S_

variable [Facts]

def fn_part2 {F : FTy → Type} [FloatOps F] (main_v28 : IVec S_ 1) (main_v33 : IVec S16x512 1) : IVec S_ 1 :=
  let main_c_12 : IVec S_ 1 := constantI S_ 1 1#1
  let main_v34 : IVec S_ 1 := (fun x v => Host.reduce IntOp.andi x v reducesTo_S16x512_S_d0_1 h_S_) main_v33 main_c_12
  let main_v35 : IVec S_ 1 := andi main_v28 main_v34
  main_v35

def fn_part1 {F : FTy → Type} [FloatOps F] (main_arg1 : IVec S16x512 32) (main_arg5 : FVec F S512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_c_10 : IVec S_ 32 := constantI S_ 32 0#32
  let main_v29 : IVec S16x512 32 := broadcastInDim S16x512 ![] bcast_S_S16x512 main_c_10
  let main_v30 : IVec S16x512 1 := cmpi .sge main_arg1 main_v29
  let main_c_11 : IVec S_ 32 := constantI S_ 32 1023#32
  let main_v31 : IVec S16x512 32 := broadcastInDim S16x512 ![] bcast_S_S16x512 main_c_11
  let main_v32 : IVec S16x512 1 := cmpi .sle main_arg1 main_v31
  let main_v33 : IVec S16x512 1 := andi main_v30 main_v32
  fn_part2 (F := F) main_v28 main_v33

def fn {F : FTy → Type} [FloatOps F] (main_arg0 : FVec F S16x512x64 .f32) (main_arg1 : IVec S16x512 32) (main_arg2 : FVec F S1024x128 .f32) (main_arg3 : FVec F S512x192 .f32) (main_arg4 : FVec F S512x512 .f32) (main_arg5 : FVec F S512 .f32) (main_arg6 : FVec F S512 .f32) : IVec S_ 1 :=
  let main_v0 : FVec F S16x512x64 .f32 := Host.absf main_arg0
  let main_cst : FVec F S_ .f32 := constant S_ .f32 0x7F800000#32
  let main_v1 : FVec F S16x512x64 .f32 := broadcastInDim S16x512x64 ![] bcast_S_S16x512x64 main_cst
  let main_v2 : IVec S16x512x64 1 := cmpf .olt main_v0 main_v1
  let main_c : IVec S_ 1 := constantI S_ 1 1#1
  let main_v3 : IVec S_ 1 := (fun x v => Host.reduce IntOp.andi x v reducesTo_S16x512x64_S_d0_1_2 h_S_) main_v2 main_c
  let main_v4 : FVec F S1024x128 .f32 := Host.absf main_arg2
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S512x192 .f32 := Host.absf main_arg3
  let main_cst_2 : FVec F S_ .f32 := constant S_ .f32 0x7F800000#32
  let main_v10 : FVec F S512x192 .f32 := broadcastInDim S512x192 ![] bcast_S_S512x192 main_cst_2
  let main_v11 : IVec S512x192 1 := cmpf .olt main_v9 main_v10
  let main_c_3 : IVec S_ 1 := constantI S_ 1 1#1
  let main_v12 : IVec S_ 1 := (fun x v => Host.reduce IntOp.andi x v reducesTo_S512x192_S_d0_1 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg5 main_arg6 main_v13 main_v16
-- ==== Kernel.lean ====
abbrev S16x512x64 : Shape := ⟨3, ![16, 512, 64]⟩
abbrev S16x512 : Shape := ⟨2, ![16, 512]⟩
abbrev S1024x128 : Shape := ⟨2, ![1024, 128]⟩
abbrev S512x192 : Shape := ⟨2, ![512, 192]⟩
abbrev S512x512 : Shape := ⟨2, ![512, 512]⟩
abbrev S512 : Shape := ⟨1, ![512]⟩
abbrev S512x16x64 : Shape := ⟨3, ![512, 16, 64]⟩
abbrev S8192x64 : Shape := ⟨2, ![8192, 64]⟩
abbrev S512x16 : Shape := ⟨2, ![512, 16]⟩
abbrev S8192 : Shape := ⟨1, ![8192]⟩
abbrev S8192x128 : Shape := ⟨2, ![8192, 128]⟩
abbrev S256 : Shape := ⟨1, ![256]⟩
abbrev S256x128 : Shape := ⟨2, ![256, 128]⟩
abbrev S_ : Shape := ⟨0, ![]⟩
abbrev S1x512 : Shape := ⟨2, ![1, 512]⟩
abbrev S16x512x512 : Shape := ⟨3, ![16, 512, 512]⟩
abbrev S2048x64 : Shape := ⟨2, ![2048, 64]⟩
abbrev S2048x128 : Shape := ⟨2, ![2048, 128]⟩
abbrev S16x128x512 : Shape := ⟨3, ![16, 128, 512]⟩
abbrev S2x2048x512 : Shape := ⟨3, ![2, 2048, 512]⟩
abbrev S512x64 : Shape := ⟨2, ![512, 64]⟩
abbrev S2048x512 : Shape := ⟨2, ![2048, 512]⟩
abbrev S512x128 : Shape := ⟨2, ![512, 128]⟩
abbrev S1x2048x512 : Shape := ⟨3, ![1, 2048, 512]⟩
abbrev S256x256 : Shape := ⟨2, ![256, 256]⟩
abbrev S16x256 : Shape := ⟨2, ![16, 256]⟩
abbrev S1x16x512 : Shape := ⟨3, ![1, 16, 512]⟩
abbrev S16x1x256 : Shape := ⟨3, ![16, 1, 256]⟩

abbrev nBuf : Table → Nat
  | .hbm => 16
  | .local .tc .vmem => 12
  | .local .scVector .vmem => 2
  | _ => 0

abbrev bufTy : (tb : Table) → Fin (nBuf tb) → BufTy
  | .hbm, ⟨0, _⟩ => ⟨S16x512x64, .f32⟩
  | .hbm, ⟨1, _⟩ => ⟨S16x512, .i32⟩
  | .hbm, ⟨2, _⟩ => ⟨S1024x128, .f32⟩
  | .hbm, ⟨3, _⟩ => ⟨S512x192, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512x16x64, .f32⟩
  | .hbm, ⟨8, _⟩ => ⟨S8192x64, .f32⟩
  | .hbm, ⟨9, _⟩ => ⟨S512x16, .i32⟩
  | .hbm, ⟨10, _⟩ => ⟨S8192, .i32⟩
  | .hbm, ⟨11, _⟩ => ⟨S8192x128, .f32⟩
  | .hbm, ⟨12, _⟩ => ⟨S512x512, .f32⟩
  | .hbm, ⟨13, _⟩ => ⟨S1x512, .f32⟩
  | .hbm, ⟨14, _⟩ => ⟨S1x512, .f32⟩
  | .hbm, ⟨15, _⟩ => ⟨S16x512x512, .f32⟩
  | .local .tc .vmem, ⟨0, _⟩ => ⟨S2048x64, .f32⟩
  | .local .tc .vmem, ⟨1, _⟩ => ⟨S2048x64, .f32⟩
  | .local .tc .vmem, ⟨2, _⟩ => ⟨S2048x128, .f32⟩
  | .local .tc .vmem, ⟨3, _⟩ => ⟨S2048x128, .f32⟩
  | .local .tc .vmem, ⟨4, _⟩ => ⟨S512x192, .f32⟩
  | .local .tc .vmem, ⟨5, _⟩ => ⟨S512x512, .f32⟩
  | .local .tc .vmem, ⟨6, _⟩ => ⟨S1x512, .f32⟩
  | .local .tc .vmem, ⟨7, _⟩ => ⟨S1x512, .f32⟩
  | .local .tc .vmem, ⟨8, _⟩ => ⟨S16x128x512, .f32⟩
  | .local .tc .vmem, ⟨9, _⟩ => ⟨S16x128x512, .f32⟩
  | .local .tc .vmem, ⟨10, _⟩ => ⟨S16x512, .f32⟩
  | .local .tc .vmem, ⟨11, _⟩ => ⟨S2x2048x512, .f32⟩
  | .local .scVector .vmem, ⟨0, _⟩ => ⟨S256, .i32⟩
  | .local .scVector .vmem, ⟨1, _⟩ => ⟨S256x128, .f32⟩
  | _, _ => ⟨S16x512x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_arg2_scv : Ref sig .scVector := ⟨.hbm, 2, rfl⟩
abbrev main_v3_scv : Ref sig .scVector := ⟨.hbm, 10, rfl⟩
abbrev main_v4_scv : Ref sig .scVector := ⟨.hbm, 11, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg6_1 : Ref sig .tc := ⟨.vmem, 9, rfl⟩
abbrev cc1_scratch0 : Ref sig .tc := ⟨.vmem, 10, rfl⟩
abbrev cc1_scratch1 : Ref sig .tc := ⟨.vmem, 11, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_3_r1 : BitVec 32 := 0#32
  ![v2.toNat, 0]
abbrev grid1 : Pipeline.Grid := ⟨1, ![5], ![false]⟩

def k1_cond2 (i : grid1.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k1_off1 (i : grid1.Coords) : Fin 3 → Nat :=
  let arg0 : BitVec 32 := BitVec.ofNat 32 (i 0).val
  let c2_i32 : BitVec 32 := 2#32
  let c0_i32_15 : BitVec 32 := 0#32
  let v26 : BitVec 1 := Scalar.cmpi .eq c2_i32 c0_i32_15
  let c1_i32 : BitVec 32 := 1#32
  let v27 : BitVec 32 := Scalar.select v26 c1_i32 c2_i32
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v36 : Index := Scalar.indexCast v35
  let c0_19 : Index := 0#32
  let c0_20 : Index := 0#32
  ![v36.toNat, 0, 0]
def k1_cond3 (i : grid1.Coords) : BitVec 1 :=
  let arg0 : BitVec 32 := BitVec.ofNat 32 (i 0).val
  let c0_i32_2 : BitVec 32 := 0#32
  let v6 : BitVec 1 := Scalar.cmpi .sgt arg0 c0_i32_2
  let v7 : BitVec 32 := Scalar.extui v6
  let c0_i32_3 : BitVec 32 := 0#32
  let v8 : BitVec 1 := Scalar.cmpi .ne v7 c0_i32_3
  v8

def k1_off2 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v30 : Index := Scalar.indexCast v27
  let c0_19 : Index := 0#32
  let c0_20 : Index := 0#32
  ![v30.toNat, 0, 0]
def k1_off3 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v51 : Index := Scalar.indexCast v27
  let c16 : Index := 16#32
  let c0_30 : Index := 0#32
  ![v51.toNat, 16, 0]
def k1_off4 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v72 : Index := Scalar.indexCast v27
  let c32 : Index := 32#32
  let c0_40 : Index := 0#32
  ![v72.toNat, 32, 0]
def k1_off5 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v93 : Index := Scalar.indexCast v27
  let c48 : Index := 48#32
  let c0_50 : Index := 0#32
  ![v93.toNat, 48, 0]
def k1_off6 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v114 : Index := Scalar.indexCast v27
  let c64 : Index := 64#32
  let c0_60 : Index := 0#32
  ![v114.toNat, 64, 0]
def k1_off7 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v135 : Index := Scalar.indexCast v27
  let c80 : Index := 80#32
  let c0_70 : Index := 0#32
  ![v135.toNat, 80, 0]
def k1_off8 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v156 : Index := Scalar.indexCast v27
  let c96 : Index := 96#32
  let c0_80 : Index := 0#32
  ![v156.toNat, 96, 0]
def k1_off9 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v177 : Index := Scalar.indexCast v27
  let c112 : Index := 112#32
  let c0_90 : Index := 0#32
  ![v177.toNat, 112, 0]
def k1_off10 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v198 : Index := Scalar.indexCast v27
  let c128 : Index := 128#32
  let c0_100 : Index := 0#32
  ![v198.toNat, 128, 0]
def k1_off11 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v219 : Index := Scalar.indexCast v27
  let c144 : Index := 144#32
  let c0_110 : Index := 0#32
  ![v219.toNat, 144, 0]
def k1_off12 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v240 : Index := Scalar.indexCast v27
  let c160 : Index := 160#32
  let c0_120 : Index := 0#32
  ![v240.toNat, 160, 0]
def k1_off13 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v261 : Index := Scalar.indexCast v27
  let c176 : Index := 176#32
  let c0_130 : Index := 0#32
  ![v261.toNat, 176, 0]
def k1_off14 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v282 : Index := Scalar.indexCast v27
  let c192 : Index := 192#32
  let c0_140 : Index := 0#32
  ![v282.toNat, 192, 0]
def k1_off15 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v303 : Index := Scalar.indexCast v27
  let c208 : Index := 208#32
  let c0_150 : Index := 0#32
  ![v303.toNat, 208, 0]
def k1_off16 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v324 : Index := Scalar.indexCast v27
  let c224 : Index := 224#32
  let c0_160 : Index := 0#32
  ![v324.toNat, 224, 0]
def k1_off17 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v345 : Index := Scalar.indexCast v27
  let c240 : Index := 240#32
  let c0_170 : Index := 0#32
  ![v345.toNat, 240, 0]
def k1_off18 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v366 : Index := Scalar.indexCast v27
  let c256_180 : Index := 256#32
  let c0_181 : Index := 0#32
  ![v366.toNat, 256, 0]
def k1_off19 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v387 : Index := Scalar.indexCast v27
  let c272 : Index := 272#32
  let c0_192 : Index := 0#32
  ![v387.toNat, 272, 0]
def k1_off20 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v408 : Index := Scalar.indexCast v27
  let c288 : Index := 288#32
  let c0_202 : Index := 0#32
  ![v408.toNat, 288, 0]
def k1_off21 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v429 : Index := Scalar.indexCast v27
  let c304 : Index := 304#32
  let c0_212 : Index := 0#32
  ![v429.toNat, 304, 0]
def k1_off22 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v450 : Index := Scalar.indexCast v27
  let c320 : Index := 320#32
  let c0_222 : Index := 0#32
  ![v450.toNat, 320, 0]
def k1_off23 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v471 : Index := Scalar.indexCast v27
  let c336 : Index := 336#32
  let c0_232 : Index := 0#32
  ![v471.toNat, 336, 0]
def k1_off24 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v492 : Index := Scalar.indexCast v27
  let c352 : Index := 352#32
  let c0_242 : Index := 0#32
  ![v492.toNat, 352, 0]
def k1_off25 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v513 : Index := Scalar.indexCast v27
  let c368 : Index := 368#32
  let c0_252 : Index := 0#32
  ![v513.toNat, 368, 0]
def k1_off26 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v534 : Index := Scalar.indexCast v27
  let c384 : Index := 384#32
  let c0_262 : Index := 0#32
  ![v534.toNat, 384, 0]
def k1_off27 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v555 : Index := Scalar.indexCast v27
  let c400 : Index := 400#32
  let c0_272 : Index := 0#32
  ![v555.toNat, 400, 0]
def k1_off28 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v576 : Index := Scalar.indexCast v27
  let c416 : Index := 416#32
  let c0_282 : Index := 0#32
  ![v576.toNat, 416, 0]
def k1_off29 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v597 : Index := Scalar.indexCast v27
  let c432 : Index := 432#32
  let c0_292 : Index := 0#32
  ![v597.toNat, 432, 0]
def k1_off30 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v618 : Index := Scalar.indexCast v27
  let c448 : Index := 448#32
  let c0_302 : Index := 0#32
  ![v618.toNat, 448, 0]
def k1_off31 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v639 : Index := Scalar.indexCast v27
  let c464 : Index := 464#32
  let c0_312 : Index := 0#32
  ![v639.toNat, 464, 0]
def k1_off32 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v660 : Index := Scalar.indexCast v27
  let c480 : Index := 480#32
  let c0_322 : Index := 0#32
  ![v660.toNat, 480, 0]
def k1_off33 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v681 : Index := Scalar.indexCast v27
  let c496 : Index := 496#32
  let c0_332 : Index := 0#32
  ![v681.toNat, 496, 0]
def k1_off34 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v702 : Index := Scalar.indexCast v27
  let c512 : Index := 512#32
  let c0_342 : Index := 0#32
  ![v702.toNat, 512, 0]
def k1_off35 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v723 : Index := Scalar.indexCast v27
  let c528 : Index := 528#32
  let c0_353 : Index := 0#32
  ![v723.toNat, 528, 0]
def k1_off36 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v744 : Index := Scalar.indexCast v27
  let c544 : Index := 544#32
  let c0_363 : Index := 0#32
  ![v744.toNat, 544, 0]
def k1_off37 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v765 : Index := Scalar.indexCast v27
  let c560 : Index := 560#32
  let c0_373 : Index := 0#32
  ![v765.toNat, 560, 0]
def k1_off38 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v786 : Index := Scalar.indexCast v27
  let c576 : Index := 576#32
  let c0_383 : Index := 0#32
  ![v786.toNat, 576, 0]
def k1_off39 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v807 : Index := Scalar.indexCast v27
  let c592 : Index := 592#32
  let c0_393 : Index := 0#32
  ![v807.toNat, 592, 0]
def k1_off40 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v828 : Index := Scalar.indexCast v27
  let c608 : Index := 608#32
  let c0_403 : Index := 0#32
  ![v828.toNat, 608, 0]
def k1_off41 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v849 : Index := Scalar.indexCast v27
  let c624 : Index := 624#32
  let c0_413 : Index := 0#32
  ![v849.toNat, 624, 0]
def k1_off42 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v870 : Index := Scalar.indexCast v27
  let c640 : Index := 640#32
  let c0_423 : Index := 0#32
  ![v870.toNat, 640, 0]
def k1_off43 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v891 : Index := Scalar.indexCast v27
  let c656 : Index := 656#32
  let c0_433 : Index := 0#32
  ![v891.toNat, 656, 0]
def k1_off44 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v912 : Index := Scalar.indexCast v27
  let c672 : Index := 672#32
  let c0_443 : Index := 0#32
  ![v912.toNat, 672, 0]
def k1_off45 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v933 : Index := Scalar.indexCast v27
  let c688 : Index := 688#32
  let c0_453 : Index := 0#32
  ![v933.toNat, 688, 0]
def k1_off46 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v954 : Index := Scalar.indexCast v27
  let c704 : Index := 704#32
  let c0_463 : Index := 0#32
  ![v954.toNat, 704, 0]
def k1_off47 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v975 : Index := Scalar.indexCast v27
  let c720 : Index := 720#32
  let c0_473 : Index := 0#32
  ![v975.toNat, 720, 0]
def k1_off48 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v996 : Index := Scalar.indexCast v27
  let c736 : Index := 736#32
  let c0_483 : Index := 0#32
  ![v996.toNat, 736, 0]
def k1_off49 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1017 : Index := Scalar.indexCast v27
  let c752 : Index := 752#32
  let c0_493 : Index := 0#32
  ![v1017.toNat, 752, 0]
def k1_off50 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1038 : Index := Scalar.indexCast v27
  let c768 : Index := 768#32
  let c0_503 : Index := 0#32
  ![v1038.toNat, 768, 0]
def k1_off51 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1059 : Index := Scalar.indexCast v27
  let c784 : Index := 784#32
  let c0_514 : Index := 0#32
  ![v1059.toNat, 784, 0]
def k1_off52 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1080 : Index := Scalar.indexCast v27
  let c800 : Index := 800#32
  let c0_524 : Index := 0#32
  ![v1080.toNat, 800, 0]
def k1_off53 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1101 : Index := Scalar.indexCast v27
  let c816 : Index := 816#32
  let c0_534 : Index := 0#32
  ![v1101.toNat, 816, 0]
def k1_off54 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1122 : Index := Scalar.indexCast v27
  let c832 : Index := 832#32
  let c0_544 : Index := 0#32
  ![v1122.toNat, 832, 0]
def k1_off55 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1143 : Index := Scalar.indexCast v27
  let c848 : Index := 848#32
  let c0_554 : Index := 0#32
  ![v1143.toNat, 848, 0]
def k1_off56 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1164 : Index := Scalar.indexCast v27
  let c864 : Index := 864#32
  let c0_564 : Index := 0#32
  ![v1164.toNat, 864, 0]
def k1_off57 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1185 : Index := Scalar.indexCast v27
  let c880 : Index := 880#32
  let c0_574 : Index := 0#32
  ![v1185.toNat, 880, 0]
def k1_off58 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1206 : Index := Scalar.indexCast v27
  let c896 : Index := 896#32
  let c0_584 : Index := 0#32
  ![v1206.toNat, 896, 0]
def k1_off59 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1227 : Index := Scalar.indexCast v27
  let c912 : Index := 912#32
  let c0_594 : Index := 0#32
  ![v1227.toNat, 912, 0]
def k1_off60 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1248 : Index := Scalar.indexCast v27
  let c928 : Index := 928#32
  let c0_604 : Index := 0#32
  ![v1248.toNat, 928, 0]
def k1_off61 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1269 : Index := Scalar.indexCast v27
  let c944 : Index := 944#32
  let c0_614 : Index := 0#32
  ![v1269.toNat, 944, 0]
def k1_off62 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1290 : Index := Scalar.indexCast v27
  let c960 : Index := 960#32
  let c0_624 : Index := 0#32
  ![v1290.toNat, 960, 0]
def k1_off63 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1311 : Index := Scalar.indexCast v27
  let c976 : Index := 976#32
  let c0_634 : Index := 0#32
  ![v1311.toNat, 976, 0]
def k1_off64 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1332 : Index := Scalar.indexCast v27
  let c992 : Index := 992#32
  let c0_644 : Index := 0#32
  ![v1332.toNat, 992, 0]
def k1_off65 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1353 : Index := Scalar.indexCast v27
  let c1008 : Index := 1008#32
  let c0_654 : Index := 0#32
  ![v1353.toNat, 1008, 0]
def k1_off66 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1374 : Index := Scalar.indexCast v27
  let c1024 : Index := 1024#32
  let c0_664 : Index := 0#32
  ![v1374.toNat, 1024, 0]
def k1_off67 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1395 : Index := Scalar.indexCast v27
  let c1040 : Index := 1040#32
  let c0_675 : Index := 0#32
  ![v1395.toNat, 1040, 0]
def k1_off68 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1416 : Index := Scalar.indexCast v27
  let c1056 : Index := 1056#32
  let c0_685 : Index := 0#32
  ![v1416.toNat, 1056, 0]
def k1_off69 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1437 : Index := Scalar.indexCast v27
  let c1072 : Index := 1072#32
  let c0_695 : Index := 0#32
  ![v1437.toNat, 1072, 0]
def k1_off70 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1458 : Index := Scalar.indexCast v27
  let c1088 : Index := 1088#32
  let c0_705 : Index := 0#32
  ![v1458.toNat, 1088, 0]
def k1_off71 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1479 : Index := Scalar.indexCast v27
  let c1104 : Index := 1104#32
  let c0_715 : Index := 0#32
  ![v1479.toNat, 1104, 0]
def k1_off72 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1500 : Index := Scalar.indexCast v27
  let c1120 : Index := 1120#32
  let c0_725 : Index := 0#32
  ![v1500.toNat, 1120, 0]
def k1_off73 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1521 : Index := Scalar.indexCast v27
  let c1136 : Index := 1136#32
  let c0_735 : Index := 0#32
  ![v1521.toNat, 1136, 0]
def k1_off74 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1542 : Index := Scalar.indexCast v27
  let c1152 : Index := 1152#32
  let c0_745 : Index := 0#32
  ![v1542.toNat, 1152, 0]
def k1_off75 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1563 : Index := Scalar.indexCast v27
  let c1168 : Index := 1168#32
  let c0_755 : Index := 0#32
  ![v1563.toNat, 1168, 0]
def k1_off76 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1584 : Index := Scalar.indexCast v27
  let c1184 : Index := 1184#32
  let c0_765 : Index := 0#32
  ![v1584.toNat, 1184, 0]
def k1_off77 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1605 : Index := Scalar.indexCast v27
  let c1200 : Index := 1200#32
  let c0_775 : Index := 0#32
  ![v1605.toNat, 1200, 0]
def k1_off78 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1626 : Index := Scalar.indexCast v27
  let c1216 : Index := 1216#32
  let c0_785 : Index := 0#32
  ![v1626.toNat, 1216, 0]
def k1_off79 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1647 : Index := Scalar.indexCast v27
  let c1232 : Index := 1232#32
  let c0_795 : Index := 0#32
  ![v1647.toNat, 1232, 0]
def k1_off80 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1668 : Index := Scalar.indexCast v27
  let c1248 : Index := 1248#32
  let c0_805 : Index := 0#32
  ![v1668.toNat, 1248, 0]
def k1_off81 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1689 : Index := Scalar.indexCast v27
  let c1264 : Index := 1264#32
  let c0_815 : Index := 0#32
  ![v1689.toNat, 1264, 0]
def k1_off82 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1710 : Index := Scalar.indexCast v27
  let c1280 : Index := 1280#32
  let c0_825 : Index := 0#32
  ![v1710.toNat, 1280, 0]
def k1_off83 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1731 : Index := Scalar.indexCast v27
  let c1296 : Index := 1296#32
  let c0_836 : Index := 0#32
  ![v1731.toNat, 1296, 0]
def k1_off84 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1752 : Index := Scalar.indexCast v27
  let c1312 : Index := 1312#32
  let c0_846 : Index := 0#32
  ![v1752.toNat, 1312, 0]
def k1_off85 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1773 : Index := Scalar.indexCast v27
  let c1328 : Index := 1328#32
  let c0_856 : Index := 0#32
  ![v1773.toNat, 1328, 0]
def k1_off86 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1794 : Index := Scalar.indexCast v27
  let c1344 : Index := 1344#32
  let c0_866 : Index := 0#32
  ![v1794.toNat, 1344, 0]
def k1_off87 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1815 : Index := Scalar.indexCast v27
  let c1360 : Index := 1360#32
  let c0_876 : Index := 0#32
  ![v1815.toNat, 1360, 0]
def k1_off88 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1836 : Index := Scalar.indexCast v27
  let c1376 : Index := 1376#32
  let c0_886 : Index := 0#32
  ![v1836.toNat, 1376, 0]
def k1_off89 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1857 : Index := Scalar.indexCast v27
  let c1392 : Index := 1392#32
  let c0_896 : Index := 0#32
  ![v1857.toNat, 1392, 0]
def k1_off90 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1878 : Index := Scalar.indexCast v27
  let c1408 : Index := 1408#32
  let c0_906 : Index := 0#32
  ![v1878.toNat, 1408, 0]
def k1_off91 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1899 : Index := Scalar.indexCast v27
  let c1424 : Index := 1424#32
  let c0_916 : Index := 0#32
  ![v1899.toNat, 1424, 0]
def k1_off92 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1920 : Index := Scalar.indexCast v27
  let c1440 : Index := 1440#32
  let c0_926 : Index := 0#32
  ![v1920.toNat, 1440, 0]
def k1_off93 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1941 : Index := Scalar.indexCast v27
  let c1456 : Index := 1456#32
  let c0_936 : Index := 0#32
  ![v1941.toNat, 1456, 0]
def k1_off94 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1962 : Index := Scalar.indexCast v27
  let c1472 : Index := 1472#32
  let c0_946 : Index := 0#32
  ![v1962.toNat, 1472, 0]
def k1_off95 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v1983 : Index := Scalar.indexCast v27
  let c1488 : Index := 1488#32
  let c0_956 : Index := 0#32
  ![v1983.toNat, 1488, 0]
def k1_off96 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2004 : Index := Scalar.indexCast v27
  let c1504 : Index := 1504#32
  let c0_966 : Index := 0#32
  ![v2004.toNat, 1504, 0]
def k1_off97 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2025 : Index := Scalar.indexCast v27
  let c1520 : Index := 1520#32
  let c0_976 : Index := 0#32
  ![v2025.toNat, 1520, 0]
def k1_off98 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2046 : Index := Scalar.indexCast v27
  let c1536 : Index := 1536#32
  let c0_986 : Index := 0#32
  ![v2046.toNat, 1536, 0]
def k1_off99 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2067 : Index := Scalar.indexCast v27
  let c1552 : Index := 1552#32
  let c0_997 : Index := 0#32
  ![v2067.toNat, 1552, 0]
def k1_off100 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2088 : Index := Scalar.indexCast v27
  let c1568 : Index := 1568#32
  let c0_1007 : Index := 0#32
  ![v2088.toNat, 1568, 0]
def k1_off101 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2109 : Index := Scalar.indexCast v27
  let c1584 : Index := 1584#32
  let c0_1017 : Index := 0#32
  ![v2109.toNat, 1584, 0]
def k1_off102 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2130 : Index := Scalar.indexCast v27
  let c1600 : Index := 1600#32
  let c0_1027 : Index := 0#32
  ![v2130.toNat, 1600, 0]
def k1_off103 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2151 : Index := Scalar.indexCast v27
  let c1616 : Index := 1616#32
  let c0_1037 : Index := 0#32
  ![v2151.toNat, 1616, 0]
def k1_off104 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2172 : Index := Scalar.indexCast v27
  let c1632 : Index := 1632#32
  let c0_1047 : Index := 0#32
  ![v2172.toNat, 1632, 0]
def k1_off105 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2193 : Index := Scalar.indexCast v27
  let c1648 : Index := 1648#32
  let c0_1057 : Index := 0#32
  ![v2193.toNat, 1648, 0]
def k1_off106 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2214 : Index := Scalar.indexCast v27
  let c1664 : Index := 1664#32
  let c0_1067 : Index := 0#32
  ![v2214.toNat, 1664, 0]
def k1_off107 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2235 : Index := Scalar.indexCast v27
  let c1680 : Index := 1680#32
  let c0_1077 : Index := 0#32
  ![v2235.toNat, 1680, 0]
def k1_off108 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2256 : Index := Scalar.indexCast v27
  let c1696 : Index := 1696#32
  let c0_1087 : Index := 0#32
  ![v2256.toNat, 1696, 0]
def k1_off109 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2277 : Index := Scalar.indexCast v27
  let c1712 : Index := 1712#32
  let c0_1097 : Index := 0#32
  ![v2277.toNat, 1712, 0]
def k1_off110 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2298 : Index := Scalar.indexCast v27
  let c1728 : Index := 1728#32
  let c0_1107 : Index := 0#32
  ![v2298.toNat, 1728, 0]
def k1_off111 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2319 : Index := Scalar.indexCast v27
  let c1744 : Index := 1744#32
  let c0_1117 : Index := 0#32
  ![v2319.toNat, 1744, 0]
def k1_off112 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2340 : Index := Scalar.indexCast v27
  let c1760 : Index := 1760#32
  let c0_1127 : Index := 0#32
  ![v2340.toNat, 1760, 0]
def k1_off113 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2361 : Index := Scalar.indexCast v27
  let c1776 : Index := 1776#32
  let c0_1137 : Index := 0#32
  ![v2361.toNat, 1776, 0]
def k1_off114 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2382 : Index := Scalar.indexCast v27
  let c1792 : Index := 1792#32
  let c0_1147 : Index := 0#32
  ![v2382.toNat, 1792, 0]
def k1_off115 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2403 : Index := Scalar.indexCast v27
  let c1808 : Index := 1808#32
  let c0_1158 : Index := 0#32
  ![v2403.toNat, 1808, 0]
def k1_off116 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2424 : Index := Scalar.indexCast v27
  let c1824 : Index := 1824#32
  let c0_1168 : Index := 0#32
  ![v2424.toNat, 1824, 0]
def k1_off117 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2445 : Index := Scalar.indexCast v27
  let c1840 : Index := 1840#32
  let c0_1178 : Index := 0#32
  ![v2445.toNat, 1840, 0]
def k1_off118 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2466 : Index := Scalar.indexCast v27
  let c1856 : Index := 1856#32
  let c0_1188 : Index := 0#32
  ![v2466.toNat, 1856, 0]
def k1_off119 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2487 : Index := Scalar.indexCast v27
  let c1872 : Index := 1872#32
  let c0_1198 : Index := 0#32
  ![v2487.toNat, 1872, 0]
def k1_off120 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2508 : Index := Scalar.indexCast v27
  let c1888 : Index := 1888#32
  let c0_1208 : Index := 0#32
  ![v2508.toNat, 1888, 0]
def k1_off121 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2529 : Index := Scalar.indexCast v27
  let c1904 : Index := 1904#32
  let c0_1218 : Index := 0#32
  ![v2529.toNat, 1904, 0]
def k1_off122 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2550 : Index := Scalar.indexCast v27
  let c1920 : Index := 1920#32
  let c0_1228 : Index := 0#32
  ![v2550.toNat, 1920, 0]
def k1_off123 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2571 : Index := Scalar.indexCast v27
  let c1936 : Index := 1936#32
  let c0_1238 : Index := 0#32
  ![v2571.toNat, 1936, 0]
def k1_off124 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2592 : Index := Scalar.indexCast v27
  let c1952 : Index := 1952#32
  let c0_1248 : Index := 0#32
  ![v2592.toNat, 1952, 0]
def k1_off125 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2613 : Index := Scalar.indexCast v27
  let c1968 : Index := 1968#32
  let c0_1258 : Index := 0#32
  ![v2613.toNat, 1968, 0]
def k1_off126 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2634 : Index := Scalar.indexCast v27
  let c1984 : Index := 1984#32
  let c0_1268 : Index := 0#32
  ![v2634.toNat, 1984, 0]
def k1_off127 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2655 : Index := Scalar.indexCast v27
  let c2000 : Index := 2000#32
  let c0_1278 : Index := 0#32
  ![v2655.toNat, 2000, 0]
def k1_off128 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2676 : Index := Scalar.indexCast v27
  let c2016 : Index := 2016#32
  let c0_1288 : Index := 0#32
  ![v2676.toNat, 2016, 0]
def k1_off129 (i : grid1.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_10 : BitVec 32 := 0#32
  let v18 : BitVec 1 := Scalar.cmpi .eq c2_i32 c0_i32_10
  let c1_i32_11 : BitVec 32 := 1#32
  let v19 : BitVec 32 := Scalar.select v18 c1_i32_11 c2_i32
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v2697 : Index := Scalar.indexCast v27
  let c2032 : Index := 2032#32
  let c0_1298 : Index := 0#32
  ![v2697.toNat, 2032, 0]
def cc1_transform_0 (i : grid1.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S16x128x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16x512x64_S512x16x64_1_0_2 : S16x512x64.Transposes [1, 0, 2] S512x16x64
  shapeCasts_S512x16x64_S8192x64 : S512x16x64.ShapeCasts S8192x64
  transposes_S16x512_S512x16_1_0 : S16x512.Transposes [1, 0] S512x16
  shapeCasts_S512x16_S8192 : S512x16.ShapeCasts S8192
  inb_S1024x128_S1024x128_0_0 : ∀ a, (![0, 0] : Fin 2 → Nat) a + S1024x128.size a ≤ S1024x128.size a
  gathers_S1024x128_S256x128 : S1024x128.Gathers 0 S256x128
  transposes_S512x512_S512x512_1_0 : S512x512.Transposes [1, 0] S512x512
  shapeCasts_S512_S1x512 : S512.ShapeCasts S1x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S512x192_S512x64_0_0 : ∀ a, (![0, 0] : Fin 2 → Nat) a + S512x64.size a ≤ S512x192.size a
  h_S512x64 : 0 < S512x64.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S512x192_S512x128_0_64 : ∀ a, (![0, 64] : Fin 2 → Nat) a + S512x128.size a ≤ S512x192.size a
  h_S512x128 : 0 < S512x128.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  h_S1x2048x512 : 0 < S1x2048x512.numel
  shapeCasts_S1x2048x512_S2048x512 : S1x2048x512.ShapeCasts S2048x512
  shapeCasts_S2048x512_S1x2048x512 : S2048x512.ShapeCasts S1x2048x512
  inb_S512x512_S256x256_0_0 : ∀ a, (![0, 0] : Fin 2 → Nat) a + S256x256.size a ≤ S512x512.size a
  h_S256x256 : 0 < S256x256.numel
  shapeCasts_S256x256_S256x256 : S256x256.ShapeCasts S256x256
  inb_S512x512_S256x256_256_0 : ∀ a, (![256, 0] : Fin 2 → Nat) a + S256x256.size a ≤ S512x512.size a
  inb_S512x512_S256x256_0_256 : ∀ a, (![0, 256] : Fin 2 → Nat) a + S256x256.size a ≤ S512x512.size a
  inb_S512x512_S256x256_256_256 : ∀ a, (![256, 256] : Fin 2 → Nat) a + S256x256.size a ≤ S512x512.size a
  inb_S16x512_S16x256_0_0 : ∀ a, (![0, 0] : Fin 2 → Nat) a + S16x256.size a ≤ S16x512.size a
  h_S16x256 : 0 < S16x256.numel
  inb_S16x512_S16x256_0_256 : ∀ a, (![0, 256] : Fin 2 → Nat) a + S16x256.size a ≤ S16x512.size a
  h_S1x16x512 : 0 < S1x16x512.numel
  shapeCasts_S1x16x512_S16x512 : S1x16x512.ShapeCasts S16x512
  slices_S16x512_o0_0_S16x256 : S16x512.Slices ![0, 0] S16x256
  slices_S16x512_o0_256_S16x256 : S16x512.Slices ![0, 256] S16x256
  inb_S16x128x512_S16x1x256_0_0_0 : ∀ a, (![0, 0, 0] : Fin 3 → Nat) a + S16x1x256.size a ≤ S16x128x512.size a
  h_S16x1x256 : 0 < S16x1x256.numel
  shapeCasts_S16x1x256_S16x256 : S16x1x256.ShapeCasts S16x256
  shapeCasts_S16x256_S16x1x256 : S16x256.ShapeCasts S16x1x256
  inb_S16x128x512_S16x1x256_0_0_256 : ∀ a, (![0, 0, 256] : Fin 3 → Nat) a + S16x1x256.size a ≤ S16x128x512.size a
  inb_S16x128x512_S16x1x256_0_1_0 : ∀ a, (![0, 1, 0] : Fin 3 → Nat) a + S16x1x256.size a ≤ S16x128x512.size a
  inb_S16x128x512_S16x1x256_0_1_256 : ∀ a, (![0, 1, 256] : Fin 3 → Nat) a + S16x1x256.size a ≤ S16x128x512.size a
  inb_S16x128x512_S16x1x256_0_2_0 : ∀ a, (![0, 2, 0] : Fin 3 → Nat) a + S16x1x256.size a ≤ S16x128x512.size a
  inb_S16x128x512_S16x1x256_0_2_256 : ∀ a, (![0, 2, 256] : Fin 3 → Nat) a + S16x1x256.size a ≤ S16x128x512.size a
  inb_S16x128x512_S16x1x256_0_3_0 : ∀ a, (![0, 3, 0] : Fin 3 → Nat) a + S16x1x256.size a ≤ S16x128x512.size a
  inb_S16x128x512_S16x1x256_0_3_256 : ∀ a, (![0, 3, 256] : Fin 3 → Nat) a + S16x1x256.size a ≤ S16x128x512.size a
  inb_S16x128x512_S16x1x256_0_4_0 : ∀ a, (![0, 4, 0] : Fin 3 → Nat) a + S16x1x256.size a ≤ S16x128x512.size a
  inb_S16x128x512_S16x1x256_0_4_256 : ∀ a, (![0, 4, 256] : Fin 3 → Nat) a + S16x1x256.size a ≤ S16x128x512.size a
  inb_S16x128x512_S16x1x256_0_5_0 : ∀ a, (![0, 5, 0] : Fin 3 → Nat) a + S16x1x256.size a ≤ S16x128x512.size a
  inb_S16x128x512_S16x1x256_0_5_256 : ∀ a, (![0, 5, 256] : Fin 3 → Nat) a + S16x1x256.size a ≤ S16x128x512.size a
  inb_S16x128x512_S16x1x256_0_6_0 : ∀ a, (![0, 6, 0] : Fin 3 → Nat) a + S16x1x256.size a ≤ S16x128x512.size a
  inb_S16x128x512_S16x1x256_0_6_256 : ∀ a, (![0, 6, 256] : Fin 3 → Nat) a + S16x1x256.size a ≤ S16x128x512.size a
  inb_S16x128x512_S16x1x256_0_7_0 : ∀ a, (![0, 7, 0] : Fin 3 → Nat) a + S16x1x256.size a ≤ S16x128x512.size a
  inb_S16x128x512_S16x1x256_0_7_256 : ∀ a, (![0, 7, 256] : Fin 3 → Nat) a + S16x1x256.size a ≤ S16x128x512.size a
  inb_S16x128x512_S16x1x256_0_8_0 : ∀ a, (![0, 8, 0] : Fin 3 → Nat) a + S16x1x256.size a ≤ S16x128x512.size a
  inb_S16x128x512_S16x1x256_0_8_256 : ∀ a, (![0, 8, 256] : Fin 3 → Nat) a + S16x1x256.size a ≤ S16x128x512.size a
  inb_S16x128x512_S16x1x256_0_9_0 : ∀ a, (![0, 9, 0] : Fin 3 → Nat) a + S16x1x256.size a ≤ S16x128x512.size a
  inb_S16x128x512_S16x1x256_0_9_256 : ∀ a, (![0, 9, 256] : Fin 3 → Nat) a + S16x1x256.size a ≤ S16x128x512.size a
  inb_S16x128x512_S16x1x256_0_10_0 : ∀ a, (![0, 10, 0] : Fin 3 → Nat) a + S16x1x256.size a ≤ S16x128x512.size a
  inb_S16x128x512_S16x1x256_0_10_256 : ∀ a, (![0, 10, 256] : Fin 3 → Nat) a + S16x1x256.size a ≤ S16x128x512.size a
  inb_S16x128x512_S16x1x256_0_11_0 : ∀ a, (![0, 11, 0] : Fin 3 → Nat) a + S16x1x256.size a ≤ S16x128x512.size a
  inb_S16x128x512_S16x1x256_0_11_256 : ∀ a, (![0, 11, 256] : Fin 3 → Nat) a + S16x1x256.size a ≤ S16x128x512.size a
  inb_S16x128x512_S16x1x256_0_12_0 : ∀ a, (![0, 12, 0] : Fin 3 → Nat) a + S16x1x256.size a ≤ S16x128x512.size a
  inb_S16x128x512_S16x1x256_0_12_256 : ∀ a, (![0, 12, 256] : Fin 3 → Nat) a + S16x1x256.size a ≤ S16x128x512.size a
  inb_S16x128x512_S16x1x256_0_13_0 : ∀ a, (![0, 13, 0] : Fin 3 → Nat) a + S16x1x256.size a ≤ S16x128x512.size a
  inb_S16x128x512_S16x1x256_0_13_256 : ∀ a, (![0, 13, 256] : Fin 3 → Nat) a + S16x1x256.size a ≤ S16x128x512.size a
  inb_S16x128x512_S16x1x256_0_14_0 : ∀ a, (![0, 14, 0] : Fin 3 → Nat) a + S16x1x256.size a ≤ S16x128x512.size a
  inb_S16x128x512_S16x1x256_0_14_256 : ∀ a, (![0, 14, 256] : Fin 3 → Nat) a + S16x1x256.size a ≤ S16x128x512.size a
  inb_S16x128x512_S16x1x256_0_15_0 : ∀ a, (![0, 15, 0] : Fin 3 → Nat) a + S16x1x256.size a ≤ S16x128x512.size a
  inb_S16x128x512_S16x1x256_0_15_256 : ∀ a, (![0, 15, 256] : Fin 3 → Nat) a + S16x1x256.size a ≤ S16x128x512.size a
  inb_S16x128x512_S16x1x256_0_16_0 : ∀ a, (![0, 16, 0] : Fin 3 → Nat) a + S16x1x256.size a ≤ S16x128x512.size a
  inb_S16x128x512_S16x1x256_0_16_256 : ∀ a, (![0, 16, 256] : Fin 3 → Nat) a + S16x1x256.size a ≤ S16x128x512.size a
  inb_S16x128x512_S16x1x256_0_17_0 : ∀ a, (![0, 17, 0] : Fin 3 → Nat) a + S16x1x256.size a ≤ S16x128x512.size a
  inb_S16x128x512_S16x1x256_0_17_256 : ∀ a, (![0, 17, 256] : Fin 3 → Nat) a + S16x1x256.size a ≤ S16x128x512.size a
  inb_S16x128x512_S16x1x256_0_18_0 : ∀ a, (![0, 18, 0] : Fin 3 → Nat) a + S16x1x256.size a ≤ S16x128x512.size a
  inb_S16x128x512_S16x1x256_0_18_256 : ∀ a, (![0, 18, 256] : Fin 3 → Nat) a + S16x1x256.size a ≤ S16x128x512.size a
  inb_S16x128x512_S16x1x256_0_19_0 : ∀ a, (![0, 19, 0] : Fin 3 → Nat) a + S16x1x256.size a ≤ S16x128x512.size a
  inb_S16x128x512_S16x1x256_0_19_256 : ∀ a, (![0, 19, 256] : Fin 3 → Nat) a + S16x1x256.size a ≤ S16x128x512.size a
  inb_S16x128x512_S16x1x256_0_20_0 : ∀ a, (![0, 20, 0] : Fin 3 → Nat) a + S16x1x256.size a ≤ S16x128x512.size a
  inb_S16x128x512_S16x1x256_0_20_256 : ∀ a, (![0, 20, 256] : Fin 3 → Nat) a + S16x1x256.size a ≤ S16x128x512.size a
  inb_S16x128x512_S16x1x256_0_21_0 : ∀ a, (![0, 21, 0] : Fin 3 → Nat) a + S16x1x256.size a ≤ S16x128x512.size a
  inb_S16x128x512_S16x1x256_0_21_256 : ∀ a, (![0, 21, 256] : Fin 3 → Nat) a + S16x1x256.size a ≤ S16x128x512.size a
  inb_S16x128x512_S16x1x256_0_22_0 : ∀ a, (![0, 22, 0] : Fin 3 → Nat) a + S16x1x256.size a ≤ S16x128x512.size a
  inb_S16x128x512_S16x1x256_0_22_256 : ∀ a, (![0, 22, 256] : Fin 3 → Nat) a + S16x1x256.size a ≤ S16x128x512.size a
  inb_S16x128x512_S16x1x256_0_23_0 : ∀ a, (![0, 23, 0] : Fin 3 → Nat) a + S16x1x256.size a ≤ S16x128x512.size a
  inb_S16x128x512_S16x1x256_0_23_256 : ∀ a, (![0, 23, 256] : Fin 3 → Nat) a + S16x1x256.size a ≤ S16x128x512.size a
  inb_S16x128x512_S16x1x256_0_24_0 : ∀ a, (![0, 24, 0] : Fin 3 → Nat) a + S16x1x256.size a ≤ S16x128x512.size a
  inb_S16x128x512_S16x1x256_0_24_256 : ∀ a, (![0, 24, 256] : Fin 3 → Nat) a + S16x1x256.size a ≤ S16x128x512.size a
  inb_S16x128x512_S16x1x256_0_25_0 : ∀ a, (![0, 25, 0] : Fin 3 → Nat) a + S16x1x256.size a ≤ S16x128x512.size a
  inb_S16x128x512_S16x1x256_0_25_256 : ∀ a, (![0, 25, 256] : Fin 3 → Nat) a + S16x1x256.size a ≤ S16x128x512.size a
  inb_S16x128x512_S16x1x256_0_26_0 : ∀ a, (![0, 26, 0] : Fin 3 → Nat) a + S16x1x256.size a ≤ S16x128x512.size a
  inb_S16x128x512_S16x1x256_0_26_256 : ∀ a, (![0, 26, 256] : Fin 3 → Nat) a + S16x1x256.size a ≤ S16x128x512.size a
  inb_S16x128x512_S16x1x256_0_27_0 : ∀ a, (![0, 27, 0] : Fin 3 → Nat) a + S16x1x256.size a ≤ S16x128x512.size a
  inb_S16x128x512_S16x1x256_0_27_256 : ∀ a, (![0, 27, 256] : Fin 3 → Nat) a + S16x1x256.size a ≤ S16x128x512.size a
  inb_S16x128x512_S16x1x256_0_28_0 : ∀ a, (![0, 28, 0] : Fin 3 → Nat) a + S16x1x256.size a ≤ S16x128x512.size a
  inb_S16x128x512_S16x1x256_0_28_256 : ∀ a, (![0, 28, 256] : Fin 3 → Nat) a + S16x1x256.size a ≤ S16x128x512.size a
  inb_S16x128x512_S16x1x256_0_29_0 : ∀ a, (![0, 29, 0] : Fin 3 → Nat) a + S16x1x256.size a ≤ S16x128x512.size a
  inb_S16x128x512_S16x1x256_0_29_256 : ∀ a, (![0, 29, 256] : Fin 3 → Nat) a + S16x1x256.size a ≤ S16x128x512.size a
  inb_S16x128x512_S16x1x256_0_30_0 : ∀ a, (![0, 30, 0] : Fin 3 → Nat) a + S16x1x256.size a ≤ S16x128x512.size a
  inb_S16x128x512_S16x1x256_0_30_256 : ∀ a, (![0, 30, 256] : Fin 3 → Nat) a + S16x1x256.size a ≤ S16x128x512.size a
  inb_S16x128x512_S16x1x256_0_31_0 : ∀ a, (![0, 31, 0] : Fin 3 → Nat) a + S16x1x256.size a ≤ S16x128x512.size a
  inb_S16x128x512_S16x1x256_0_31_256 : ∀ a, (![0, 31, 256] : Fin 3 → Nat) a + S16x1x256.size a ≤ S16x128x512.size a
  inb_S16x128x512_S16x1x256_0_32_0 : ∀ a, (![0, 32, 0] : Fin 3 → Nat) a + S16x1x256.size a ≤ S16x128x512.size a
  inb_S16x128x512_S16x1x256_0_32_256 : ∀ a, (![0, 32, 256] : Fin 3 → Nat) a + S16x1x256.size a ≤ S16x128x512.size a
  inb_S16x128x512_S16x1x256_0_33_0 : ∀ a, (![0, 33, 0] : Fin 3 → Nat) a + S16x1x256.size a ≤ S16x128x512.size a
  inb_S16x128x512_S16x1x256_0_33_256 : ∀ a, (![0, 33, 256] : Fin 3 → Nat) a + S16x1x256.size a ≤ S16x128x512.size a
  inb_S16x128x512_S16x1x256_0_34_0 : ∀ a, (![0, 34, 0] : Fin 3 → Nat) a + S16x1x256.size a ≤ S16x128x512.size a
  inb_S16x128x512_S16x1x256_0_34_256 : ∀ a, (![0, 34, 256] : Fin 3 → Nat) a + S16x1x256.size a ≤ S16x128x512.size a
  inb_S16x128x512_S16x1x256_0_35_0 : ∀ a, (![0, 35, 0] : Fin 3 → Nat) a + S16x1x256.size a ≤ S16x128x512.size a
  inb_S16x128x512_S16x1x256_0_35_256 : ∀ a, (![0, 35, 256] : Fin 3 → Nat) a + S16x1x256.size a ≤ S16x128x512.size a
  inb_S16x128x512_S16x1x256_0_36_0 : ∀ a, (![0, 36, 0] : Fin 3 → Nat) a + S16x1x256.size a ≤ S16x128x512.size a
  inb_S16x128x512_S16x1x256_0_36_256 : ∀ a, (![0, 36, 256] : Fin 3 → Nat) a + S16x1x256.size a ≤ S16x128x512.size a
  inb_S16x128x512_S16x1x256_0_37_0 : ∀ a, (![0, 37, 0] : Fin 3 → Nat) a + S16x1x256.size a ≤ S16x128x512.size a
  inb_S16x128x512_S16x1x256_0_37_256 : ∀ a, (![0, 37, 256] : Fin 3 → Nat) a + S16x1x256.size a ≤ S16x128x512.size a
  inb_S16x128x512_S16x1x256_0_38_0 : ∀ a, (![0, 38, 0] : Fin 3 → Nat) a + S16x1x256.size a ≤ S16x128x512.size a
  inb_S16x128x512_S16x1x256_0_38_256 : ∀ a, (![0, 38, 256] : Fin 3 → Nat) a + S16x1x256.size a ≤ S16x128x512.size a
  inb_S16x128x512_S16x1x256_0_39_0 : ∀ a, (![0, 39, 0] : Fin 3 → Nat) a + S16x1x256.size a ≤ S16x128x512.size a
  inb_S16x128x512_S16x1x256_0_39_256 : ∀ a, (![0, 39, 256] : Fin 3 → Nat) a + S16x1x256.size a ≤ S16x128x512.size a
  inb_S16x128x512_S16x1x256_0_40_0 : ∀ a, (![0, 40, 0] : Fin 3 → Nat) a + S16x1x256.size a ≤ S16x128x512.size a
  inb_S16x128x512_S16x1x256_0_40_256 : ∀ a, (![0, 40, 256] : Fin 3 → Nat) a + S16x1x256.size a ≤ S16x128x512.size a
  inb_S16x128x512_S16x1x256_0_41_0 : ∀ a, (![0, 41, 0] : Fin 3 → Nat) a + S16x1x256.size a ≤ S16x128x512.size a
  inb_S16x128x512_S16x1x256_0_41_256 : ∀ a, (![0, 41, 256] : Fin 3 → Nat) a + S16x1x256.size a ≤ S16x128x512.size a
  inb_S16x128x512_S16x1x256_0_42_0 : ∀ a, (![0, 42, 0] : Fin 3 → Nat) a + S16x1x256.size a ≤ S16x128x512.size a
  inb_S16x128x512_S16x1x256_0_42_256 : ∀ a, (![0, 42, 256] : Fin 3 → Nat) a + S16x1x256.size a ≤ S16x128x512.size a
  inb_S16x128x512_S16x1x256_0_43_0 : ∀ a, (![0, 43, 0] : Fin 3 → Nat) a + S16x1x256.size a ≤ S16x128x512.size a
  inb_S16x128x512_S16x1x256_0_43_256 : ∀ a, (![0, 43, 256] : Fin 3 → Nat) a + S16x1x256.size a ≤ S16x128x512.size a
  inb_S16x128x512_S16x1x256_0_44_0 : ∀ a, (![0, 44, 0] : Fin 3 → Nat) a + S16x1x256.size a ≤ S16x128x512.size a
  inb_S16x128x512_S16x1x256_0_44_256 : ∀ a, (![0, 44, 256] : Fin 3 → Nat) a + S16x1x256.size a ≤ S16x128x512.size a
  inb_S16x128x512_S16x1x256_0_45_0 : ∀ a, (![0, 45, 0] : Fin 3 → Nat) a + S16x1x256.size a ≤ S16x128x512.size a
  inb_S16x128x512_S16x1x256_0_45_256 : ∀ a, (![0, 45, 256] : Fin 3 → Nat) a + S16x1x256.size a ≤ S16x128x512.size a
  inb_S16x128x512_S16x1x256_0_46_0 : ∀ a, (![0, 46, 0] : Fin 3 → Nat) a + S16x1x256.size a ≤ S16x128x512.size a
  inb_S16x128x512_S16x1x256_0_46_256 : ∀ a, (![0, 46, 256] : Fin 3 → Nat) a + S16x1x256.size a ≤ S16x128x512.size a
  inb_S16x128x512_S16x1x256_0_47_0 : ∀ a, (![0, 47, 0] : Fin 3 → Nat) a + S16x1x256.size a ≤ S16x128x512.size a
  inb_S16x128x512_S16x1x256_0_47_256 : ∀ a, (![0, 47, 256] : Fin 3 → Nat) a + S16x1x256.size a ≤ S16x128x512.size a
  inb_S16x128x512_S16x1x256_0_48_0 : ∀ a, (![0, 48, 0] : Fin 3 → Nat) a + S16x1x256.size a ≤ S16x128x512.size a
  inb_S16x128x512_S16x1x256_0_48_256 : ∀ a, (![0, 48, 256] : Fin 3 → Nat) a + S16x1x256.size a ≤ S16x128x512.size a
  inb_S16x128x512_S16x1x256_0_49_0 : ∀ a, (![0, 49, 0] : Fin 3 → Nat) a + S16x1x256.size a ≤ S16x128x512.size a
  inb_S16x128x512_S16x1x256_0_49_256 : ∀ a, (![0, 49, 256] : Fin 3 → Nat) a + S16x1x256.size a ≤ S16x128x512.size a
  inb_S16x128x512_S16x1x256_0_50_0 : ∀ a, (![0, 50, 0] : Fin 3 → Nat) a + S16x1x256.size a ≤ S16x128x512.size a
  inb_S16x128x512_S16x1x256_0_50_256 : ∀ a, (![0, 50, 256] : Fin 3 → Nat) a + S16x1x256.size a ≤ S16x128x512.size a
  inb_S16x128x512_S16x1x256_0_51_0 : ∀ a, (![0, 51, 0] : Fin 3 → Nat) a + S16x1x256.size a ≤ S16x128x512.size a
  inb_S16x128x512_S16x1x256_0_51_256 : ∀ a, (![0, 51, 256] : Fin 3 → Nat) a + S16x1x256.size a ≤ S16x128x512.size a
  inb_S16x128x512_S16x1x256_0_52_0 : ∀ a, (![0, 52, 0] : Fin 3 → Nat) a + S16x1x256.size a ≤ S16x128x512.size a
  inb_S16x128x512_S16x1x256_0_52_256 : ∀ a, (![0, 52, 256] : Fin 3 → Nat) a + S16x1x256.size a ≤ S16x128x512.size a
  inb_S16x128x512_S16x1x256_0_53_0 : ∀ a, (![0, 53, 0] : Fin 3 → Nat) a + S16x1x256.size a ≤ S16x128x512.size a
  inb_S16x128x512_S16x1x256_0_53_256 : ∀ a, (![0, 53, 256] : Fin 3 → Nat) a + S16x1x256.size a ≤ S16x128x512.size a
  inb_S16x128x512_S16x1x256_0_54_0 : ∀ a, (![0, 54, 0] : Fin 3 → Nat) a + S16x1x256.size a ≤ S16x128x512.size a
  inb_S16x128x512_S16x1x256_0_54_256 : ∀ a, (![0, 54, 256] : Fin 3 → Nat) a + S16x1x256.size a ≤ S16x128x512.size a
  inb_S16x128x512_S16x1x256_0_55_0 : ∀ a, (![0, 55, 0] : Fin 3 → Nat) a + S16x1x256.size a ≤ S16x128x512.size a
  inb_S16x128x512_S16x1x256_0_55_256 : ∀ a, (![0, 55, 256] : Fin 3 → Nat) a + S16x1x256.size a ≤ S16x128x512.size a
  inb_S16x128x512_S16x1x256_0_56_0 : ∀ a, (![0, 56, 0] : Fin 3 → Nat) a + S16x1x256.size a ≤ S16x128x512.size a
  inb_S16x128x512_S16x1x256_0_56_256 : ∀ a, (![0, 56, 256] : Fin 3 → Nat) a + S16x1x256.size a ≤ S16x128x512.size a
  inb_S16x128x512_S16x1x256_0_57_0 : ∀ a, (![0, 57, 0] : Fin 3 → Nat) a + S16x1x256.size a ≤ S16x128x512.size a
  inb_S16x128x512_S16x1x256_0_57_256 : ∀ a, (![0, 57, 256] : Fin 3 → Nat) a + S16x1x256.size a ≤ S16x128x512.size a
  inb_S16x128x512_S16x1x256_0_58_0 : ∀ a, (![0, 58, 0] : Fin 3 → Nat) a + S16x1x256.size a ≤ S16x128x512.size a
  inb_S16x128x512_S16x1x256_0_58_256 : ∀ a, (![0, 58, 256] : Fin 3 → Nat) a + S16x1x256.size a ≤ S16x128x512.size a
  inb_S16x128x512_S16x1x256_0_59_0 : ∀ a, (![0, 59, 0] : Fin 3 → Nat) a + S16x1x256.size a ≤ S16x128x512.size a
  inb_S16x128x512_S16x1x256_0_59_256 : ∀ a, (![0, 59, 256] : Fin 3 → Nat) a + S16x1x256.size a ≤ S16x128x512.size a
  inb_S16x128x512_S16x1x256_0_60_0 : ∀ a, (![0, 60, 0] : Fin 3 → Nat) a + S16x1x256.size a ≤ S16x128x512.size a
  inb_S16x128x512_S16x1x256_0_60_256 : ∀ a, (![0, 60, 256] : Fin 3 → Nat) a + S16x1x256.size a ≤ S16x128x512.size a
  inb_S16x128x512_S16x1x256_0_61_0 : ∀ a, (![0, 61, 0] : Fin 3 → Nat) a + S16x1x256.size a ≤ S16x128x512.size a
  inb_S16x128x512_S16x1x256_0_61_256 : ∀ a, (![0, 61, 256] : Fin 3 → Nat) a + S16x1x256.size a ≤ S16x128x512.size a
  inb_S16x128x512_S16x1x256_0_62_0 : ∀ a, (![0, 62, 0] : Fin 3 → Nat) a + S16x1x256.size a ≤ S16x128x512.size a
  inb_S16x128x512_S16x1x256_0_62_256 : ∀ a, (![0, 62, 256] : Fin 3 → Nat) a + S16x1x256.size a ≤ S16x128x512.size a
  inb_S16x128x512_S16x1x256_0_63_0 : ∀ a, (![0, 63, 0] : Fin 3 → Nat) a + S16x1x256.size a ≤ S16x128x512.size a
  inb_S16x128x512_S16x1x256_0_63_256 : ∀ a, (![0, 63, 256] : Fin 3 → Nat) a + S16x1x256.size a ≤ S16x128x512.size a
  inb_S16x128x512_S16x1x256_0_64_0 : ∀ a, (![0, 64, 0] : Fin 3 → Nat) a + S16x1x256.size a ≤ S16x128x512.size a
  inb_S16x128x512_S16x1x256_0_64_256 : ∀ a, (![0, 64, 256] : Fin 3 → Nat) a + S16x1x256.size a ≤ S16x128x512.size a
  inb_S16x128x512_S16x1x256_0_65_0 : ∀ a, (![0, 65, 0] : Fin 3 → Nat) a + S16x1x256.size a ≤ S16x128x512.size a
  inb_S16x128x512_S16x1x256_0_65_256 : ∀ a, (![0, 65, 256] : Fin 3 → Nat) a + S16x1x256.size a ≤ S16x128x512.size a
  inb_S16x128x512_S16x1x256_0_66_0 : ∀ a, (![0, 66, 0] : Fin 3 → Nat) a + S16x1x256.size a ≤ S16x128x512.size a
  inb_S16x128x512_S16x1x256_0_66_256 : ∀ a, (![0, 66, 256] : Fin 3 → Nat) a + S16x1x256.size a ≤ S16x128x512.size a
  inb_S16x128x512_S16x1x256_0_67_0 : ∀ a, (![0, 67, 0] : Fin 3 → Nat) a + S16x1x256.size a ≤ S16x128x512.size a
  inb_S16x128x512_S16x1x256_0_67_256 : ∀ a, (![0, 67, 256] : Fin 3 → Nat) a + S16x1x256.size a ≤ S16x128x512.size a
  inb_S16x128x512_S16x1x256_0_68_0 : ∀ a, (![0, 68, 0] : Fin 3 → Nat) a + S16x1x256.size a ≤ S16x128x512.size a
  inb_S16x128x512_S16x1x256_0_68_256 : ∀ a, (![0, 68, 256] : Fin 3 → Nat) a + S16x1x256.size a ≤ S16x128x512.size a
  inb_S16x128x512_S16x1x256_0_69_0 : ∀ a, (![0, 69, 0] : Fin 3 → Nat) a + S16x1x256.size a ≤ S16x128x512.size a
  inb_S16x128x512_S16x1x256_0_69_256 : ∀ a, (![0, 69, 256] : Fin 3 → Nat) a + S16x1x256.size a ≤ S16x128x512.size a
  inb_S16x128x512_S16x1x256_0_70_0 : ∀ a, (![0, 70, 0] : Fin 3 → Nat) a + S16x1x256.size a ≤ S16x128x512.size a
  inb_S16x128x512_S16x1x256_0_70_256 : ∀ a, (![0, 70, 256] : Fin 3 → Nat) a + S16x1x256.size a ≤ S16x128x512.size a
  inb_S16x128x512_S16x1x256_0_71_0 : ∀ a, (![0, 71, 0] : Fin 3 → Nat) a + S16x1x256.size a ≤ S16x128x512.size a
  inb_S16x128x512_S16x1x256_0_71_256 : ∀ a, (![0, 71, 256] : Fin 3 → Nat) a + S16x1x256.size a ≤ S16x128x512.size a
  inb_S16x128x512_S16x1x256_0_72_0 : ∀ a, (![0, 72, 0] : Fin 3 → Nat) a + S16x1x256.size a ≤ S16x128x512.size a
  inb_S16x128x512_S16x1x256_0_72_256 : ∀ a, (![0, 72, 256] : Fin 3 → Nat) a + S16x1x256.size a ≤ S16x128x512.size a
  inb_S16x128x512_S16x1x256_0_73_0 : ∀ a, (![0, 73, 0] : Fin 3 → Nat) a + S16x1x256.size a ≤ S16x128x512.size a
  inb_S16x128x512_S16x1x256_0_73_256 : ∀ a, (![0, 73, 256] : Fin 3 → Nat) a + S16x1x256.size a ≤ S16x128x512.size a
  inb_S16x128x512_S16x1x256_0_74_0 : ∀ a, (![0, 74, 0] : Fin 3 → Nat) a + S16x1x256.size a ≤ S16x128x512.size a
  inb_S16x128x512_S16x1x256_0_74_256 : ∀ a, (![0, 74, 256] : Fin 3 → Nat) a + S16x1x256.size a ≤ S16x128x512.size a
  inb_S16x128x512_S16x1x256_0_75_0 : ∀ a, (![0, 75, 0] : Fin 3 → Nat) a + S16x1x256.size a ≤ S16x128x512.size a
  inb_S16x128x512_S16x1x256_0_75_256 : ∀ a, (![0, 75, 256] : Fin 3 → Nat) a + S16x1x256.size a ≤ S16x128x512.size a
  inb_S16x128x512_S16x1x256_0_76_0 : ∀ a, (![0, 76, 0] : Fin 3 → Nat) a + S16x1x256.size a ≤ S16x128x512.size a
  inb_S16x128x512_S16x1x256_0_76_256 : ∀ a, (![0, 76, 256] : Fin 3 → Nat) a + S16x1x256.size a ≤ S16x128x512.size a
  inb_S16x128x512_S16x1x256_0_77_0 : ∀ a, (![0, 77, 0] : Fin 3 → Nat) a + S16x1x256.size a ≤ S16x128x512.size a
  inb_S16x128x512_S16x1x256_0_77_256 : ∀ a, (![0, 77, 256] : Fin 3 → Nat) a + S16x1x256.size a ≤ S16x128x512.size a
  inb_S16x128x512_S16x1x256_0_78_0 : ∀ a, (![0, 78, 0] : Fin 3 → Nat) a + S16x1x256.size a ≤ S16x128x512.size a
  inb_S16x128x512_S16x1x256_0_78_256 : ∀ a, (![0, 78, 256] : Fin 3 → Nat) a + S16x1x256.size a ≤ S16x128x512.size a
  inb_S16x128x512_S16x1x256_0_79_0 : ∀ a, (![0, 79, 0] : Fin 3 → Nat) a + S16x1x256.size a ≤ S16x128x512.size a
  inb_S16x128x512_S16x1x256_0_79_256 : ∀ a, (![0, 79, 256] : Fin 3 → Nat) a + S16x1x256.size a ≤ S16x128x512.size a
  inb_S16x128x512_S16x1x256_0_80_0 : ∀ a, (![0, 80, 0] : Fin 3 → Nat) a + S16x1x256.size a ≤ S16x128x512.size a
  inb_S16x128x512_S16x1x256_0_80_256 : ∀ a, (![0, 80, 256] : Fin 3 → Nat) a + S16x1x256.size a ≤ S16x128x512.size a
  inb_S16x128x512_S16x1x256_0_81_0 : ∀ a, (![0, 81, 0] : Fin 3 → Nat) a + S16x1x256.size a ≤ S16x128x512.size a
  inb_S16x128x512_S16x1x256_0_81_256 : ∀ a, (![0, 81, 256] : Fin 3 → Nat) a + S16x1x256.size a ≤ S16x128x512.size a
  inb_S16x128x512_S16x1x256_0_82_0 : ∀ a, (![0, 82, 0] : Fin 3 → Nat) a + S16x1x256.size a ≤ S16x128x512.size a
  inb_S16x128x512_S16x1x256_0_82_256 : ∀ a, (![0, 82, 256] : Fin 3 → Nat) a + S16x1x256.size a ≤ S16x128x512.size a
  inb_S16x128x512_S16x1x256_0_83_0 : ∀ a, (![0, 83, 0] : Fin 3 → Nat) a + S16x1x256.size a ≤ S16x128x512.size a
  inb_S16x128x512_S16x1x256_0_83_256 : ∀ a, (![0, 83, 256] : Fin 3 → Nat) a + S16x1x256.size a ≤ S16x128x512.size a
  inb_S16x128x512_S16x1x256_0_84_0 : ∀ a, (![0, 84, 0] : Fin 3 → Nat) a + S16x1x256.size a ≤ S16x128x512.size a
  inb_S16x128x512_S16x1x256_0_84_256 : ∀ a, (![0, 84, 256] : Fin 3 → Nat) a + S16x1x256.size a ≤ S16x128x512.size a
  inb_S16x128x512_S16x1x256_0_85_0 : ∀ a, (![0, 85, 0] : Fin 3 → Nat) a + S16x1x256.size a ≤ S16x128x512.size a
  inb_S16x128x512_S16x1x256_0_85_256 : ∀ a, (![0, 85, 256] : Fin 3 → Nat) a + S16x1x256.size a ≤ S16x128x512.size a
  inb_S16x128x512_S16x1x256_0_86_0 : ∀ a, (![0, 86, 0] : Fin 3 → Nat) a + S16x1x256.size a ≤ S16x128x512.size a
  inb_S16x128x512_S16x1x256_0_86_256 : ∀ a, (![0, 86, 256] : Fin 3 → Nat) a + S16x1x256.size a ≤ S16x128x512.size a
  inb_S16x128x512_S16x1x256_0_87_0 : ∀ a, (![0, 87, 0] : Fin 3 → Nat) a + S16x1x256.size a ≤ S16x128x512.size a
  inb_S16x128x512_S16x1x256_0_87_256 : ∀ a, (![0, 87, 256] : Fin 3 → Nat) a + S16x1x256.size a ≤ S16x128x512.size a
  inb_S16x128x512_S16x1x256_0_88_0 : ∀ a, (![0, 88, 0] : Fin 3 → Nat) a + S16x1x256.size a ≤ S16x128x512.size a
  inb_S16x128x512_S16x1x256_0_88_256 : ∀ a, (![0, 88, 256] : Fin 3 → Nat) a + S16x1x256.size a ≤ S16x128x512.size a
  inb_S16x128x512_S16x1x256_0_89_0 : ∀ a, (![0, 89, 0] : Fin 3 → Nat) a + S16x1x256.size a ≤ S16x128x512.size a
  inb_S16x128x512_S16x1x256_0_89_256 : ∀ a, (![0, 89, 256] : Fin 3 → Nat) a + S16x1x256.size a ≤ S16x128x512.size a
  inb_S16x128x512_S16x1x256_0_90_0 : ∀ a, (![0, 90, 0] : Fin 3 → Nat) a + S16x1x256.size a ≤ S16x128x512.size a
  inb_S16x128x512_S16x1x256_0_90_256 : ∀ a, (![0, 90, 256] : Fin 3 → Nat) a + S16x1x256.size a ≤ S16x128x512.size a
  inb_S16x128x512_S16x1x256_0_91_0 : ∀ a, (![0, 91, 0] : Fin 3 → Nat) a + S16x1x256.size a ≤ S16x128x512.size a
  inb_S16x128x512_S16x1x256_0_91_256 : ∀ a, (![0, 91, 256] : Fin 3 → Nat) a + S16x1x256.size a ≤ S16x128x512.size a
  inb_S16x128x512_S16x1x256_0_92_0 : ∀ a, (![0, 92, 0] : Fin 3 → Nat) a + S16x1x256.size a ≤ S16x128x512.size a
  inb_S16x128x512_S16x1x256_0_92_256 : ∀ a, (![0, 92, 256] : Fin 3 → Nat) a + S16x1x256.size a ≤ S16x128x512.size a
  inb_S16x128x512_S16x1x256_0_93_0 : ∀ a, (![0, 93, 0] : Fin 3 → Nat) a + S16x1x256.size a ≤ S16x128x512.size a
  inb_S16x128x512_S16x1x256_0_93_256 : ∀ a, (![0, 93, 256] : Fin 3 → Nat) a + S16x1x256.size a ≤ S16x128x512.size a
  inb_S16x128x512_S16x1x256_0_94_0 : ∀ a, (![0, 94, 0] : Fin 3 → Nat) a + S16x1x256.size a ≤ S16x128x512.size a
  inb_S16x128x512_S16x1x256_0_94_256 : ∀ a, (![0, 94, 256] : Fin 3 → Nat) a + S16x1x256.size a ≤ S16x128x512.size a
  inb_S16x128x512_S16x1x256_0_95_0 : ∀ a, (![0, 95, 0] : Fin 3 → Nat) a + S16x1x256.size a ≤ S16x128x512.size a
  inb_S16x128x512_S16x1x256_0_95_256 : ∀ a, (![0, 95, 256] : Fin 3 → Nat) a + S16x1x256.size a ≤ S16x128x512.size a
  inb_S16x128x512_S16x1x256_0_96_0 : ∀ a, (![0, 96, 0] : Fin 3 → Nat) a + S16x1x256.size a ≤ S16x128x512.size a
  inb_S16x128x512_S16x1x256_0_96_256 : ∀ a, (![0, 96, 256] : Fin 3 → Nat) a + S16x1x256.size a ≤ S16x128x512.size a
  inb_S16x128x512_S16x1x256_0_97_0 : ∀ a, (![0, 97, 0] : Fin 3 → Nat) a + S16x1x256.size a ≤ S16x128x512.size a
  inb_S16x128x512_S16x1x256_0_97_256 : ∀ a, (![0, 97, 256] : Fin 3 → Nat) a + S16x1x256.size a ≤ S16x128x512.size a
  inb_S16x128x512_S16x1x256_0_98_0 : ∀ a, (![0, 98, 0] : Fin 3 → Nat) a + S16x1x256.size a ≤ S16x128x512.size a
  inb_S16x128x512_S16x1x256_0_98_256 : ∀ a, (![0, 98, 256] : Fin 3 → Nat) a + S16x1x256.size a ≤ S16x128x512.size a
  inb_S16x128x512_S16x1x256_0_99_0 : ∀ a, (![0, 99, 0] : Fin 3 → Nat) a + S16x1x256.size a ≤ S16x128x512.size a
  inb_S16x128x512_S16x1x256_0_99_256 : ∀ a, (![0, 99, 256] : Fin 3 → Nat) a + S16x1x256.size a ≤ S16x128x512.size a
  inb_S16x128x512_S16x1x256_0_100_0 : ∀ a, (![0, 100, 0] : Fin 3 → Nat) a + S16x1x256.size a ≤ S16x128x512.size a
  inb_S16x128x512_S16x1x256_0_100_256 : ∀ a, (![0, 100, 256] : Fin 3 → Nat) a + S16x1x256.size a ≤ S16x128x512.size a
  inb_S16x128x512_S16x1x256_0_101_0 : ∀ a, (![0, 101, 0] : Fin 3 → Nat) a + S16x1x256.size a ≤ S16x128x512.size a
  inb_S16x128x512_S16x1x256_0_101_256 : ∀ a, (![0, 101, 256] : Fin 3 → Nat) a + S16x1x256.size a ≤ S16x128x512.size a
  inb_S16x128x512_S16x1x256_0_102_0 : ∀ a, (![0, 102, 0] : Fin 3 → Nat) a + S16x1x256.size a ≤ S16x128x512.size a
  inb_S16x128x512_S16x1x256_0_102_256 : ∀ a, (![0, 102, 256] : Fin 3 → Nat) a + S16x1x256.size a ≤ S16x128x512.size a
  inb_S16x128x512_S16x1x256_0_103_0 : ∀ a, (![0, 103, 0] : Fin 3 → Nat) a + S16x1x256.size a ≤ S16x128x512.size a
  inb_S16x128x512_S16x1x256_0_103_256 : ∀ a, (![0, 103, 256] : Fin 3 → Nat) a + S16x1x256.size a ≤ S16x128x512.size a
  inb_S16x128x512_S16x1x256_0_104_0 : ∀ a, (![0, 104, 0] : Fin 3 → Nat) a + S16x1x256.size a ≤ S16x128x512.size a
  inb_S16x128x512_S16x1x256_0_104_256 : ∀ a, (![0, 104, 256] : Fin 3 → Nat) a + S16x1x256.size a ≤ S16x128x512.size a
  inb_S16x128x512_S16x1x256_0_105_0 : ∀ a, (![0, 105, 0] : Fin 3 → Nat) a + S16x1x256.size a ≤ S16x128x512.size a
  inb_S16x128x512_S16x1x256_0_105_256 : ∀ a, (![0, 105, 256] : Fin 3 → Nat) a + S16x1x256.size a ≤ S16x128x512.size a
  inb_S16x128x512_S16x1x256_0_106_0 : ∀ a, (![0, 106, 0] : Fin 3 → Nat) a + S16x1x256.size a ≤ S16x128x512.size a
  inb_S16x128x512_S16x1x256_0_106_256 : ∀ a, (![0, 106, 256] : Fin 3 → Nat) a + S16x1x256.size a ≤ S16x128x512.size a
  inb_S16x128x512_S16x1x256_0_107_0 : ∀ a, (![0, 107, 0] : Fin 3 → Nat) a + S16x1x256.size a ≤ S16x128x512.size a
  inb_S16x128x512_S16x1x256_0_107_256 : ∀ a, (![0, 107, 256] : Fin 3 → Nat) a + S16x1x256.size a ≤ S16x128x512.size a
  inb_S16x128x512_S16x1x256_0_108_0 : ∀ a, (![0, 108, 0] : Fin 3 → Nat) a + S16x1x256.size a ≤ S16x128x512.size a
  inb_S16x128x512_S16x1x256_0_108_256 : ∀ a, (![0, 108, 256] : Fin 3 → Nat) a + S16x1x256.size a ≤ S16x128x512.size a
  inb_S16x128x512_S16x1x256_0_109_0 : ∀ a, (![0, 109, 0] : Fin 3 → Nat) a + S16x1x256.size a ≤ S16x128x512.size a
  inb_S16x128x512_S16x1x256_0_109_256 : ∀ a, (![0, 109, 256] : Fin 3 → Nat) a + S16x1x256.size a ≤ S16x128x512.size a
  inb_S16x128x512_S16x1x256_0_110_0 : ∀ a, (![0, 110, 0] : Fin 3 → Nat) a + S16x1x256.size a ≤ S16x128x512.size a
  inb_S16x128x512_S16x1x256_0_110_256 : ∀ a, (![0, 110, 256] : Fin 3 → Nat) a + S16x1x256.size a ≤ S16x128x512.size a
  inb_S16x128x512_S16x1x256_0_111_0 : ∀ a, (![0, 111, 0] : Fin 3 → Nat) a + S16x1x256.size a ≤ S16x128x512.size a
  inb_S16x128x512_S16x1x256_0_111_256 : ∀ a, (![0, 111, 256] : Fin 3 → Nat) a + S16x1x256.size a ≤ S16x128x512.size a
  inb_S16x128x512_S16x1x256_0_112_0 : ∀ a, (![0, 112, 0] : Fin 3 → Nat) a + S16x1x256.size a ≤ S16x128x512.size a
  inb_S16x128x512_S16x1x256_0_112_256 : ∀ a, (![0, 112, 256] : Fin 3 → Nat) a + S16x1x256.size a ≤ S16x128x512.size a
  inb_S16x128x512_S16x1x256_0_113_0 : ∀ a, (![0, 113, 0] : Fin 3 → Nat) a + S16x1x256.size a ≤ S16x128x512.size a
  inb_S16x128x512_S16x1x256_0_113_256 : ∀ a, (![0, 113, 256] : Fin 3 → Nat) a + S16x1x256.size a ≤ S16x128x512.size a
  inb_S16x128x512_S16x1x256_0_114_0 : ∀ a, (![0, 114, 0] : Fin 3 → Nat) a + S16x1x256.size a ≤ S16x128x512.size a
  inb_S16x128x512_S16x1x256_0_114_256 : ∀ a, (![0, 114, 256] : Fin 3 → Nat) a + S16x1x256.size a ≤ S16x128x512.size a
  inb_S16x128x512_S16x1x256_0_115_0 : ∀ a, (![0, 115, 0] : Fin 3 → Nat) a + S16x1x256.size a ≤ S16x128x512.size a
  inb_S16x128x512_S16x1x256_0_115_256 : ∀ a, (![0, 115, 256] : Fin 3 → Nat) a + S16x1x256.size a ≤ S16x128x512.size a
  inb_S16x128x512_S16x1x256_0_116_0 : ∀ a, (![0, 116, 0] : Fin 3 → Nat) a + S16x1x256.size a ≤ S16x128x512.size a
  inb_S16x128x512_S16x1x256_0_116_256 : ∀ a, (![0, 116, 256] : Fin 3 → Nat) a + S16x1x256.size a ≤ S16x128x512.size a
  inb_S16x128x512_S16x1x256_0_117_0 : ∀ a, (![0, 117, 0] : Fin 3 → Nat) a + S16x1x256.size a ≤ S16x128x512.size a
  inb_S16x128x512_S16x1x256_0_117_256 : ∀ a, (![0, 117, 256] : Fin 3 → Nat) a + S16x1x256.size a ≤ S16x128x512.size a
  inb_S16x128x512_S16x1x256_0_118_0 : ∀ a, (![0, 118, 0] : Fin 3 → Nat) a + S16x1x256.size a ≤ S16x128x512.size a
  inb_S16x128x512_S16x1x256_0_118_256 : ∀ a, (![0, 118, 256] : Fin 3 → Nat) a + S16x1x256.size a ≤ S16x128x512.size a
  inb_S16x128x512_S16x1x256_0_119_0 : ∀ a, (![0, 119, 0] : Fin 3 → Nat) a + S16x1x256.size a ≤ S16x128x512.size a
  inb_S16x128x512_S16x1x256_0_119_256 : ∀ a, (![0, 119, 256] : Fin 3 → Nat) a + S16x1x256.size a ≤ S16x128x512.size a
  inb_S16x128x512_S16x1x256_0_120_0 : ∀ a, (![0, 120, 0] : Fin 3 → Nat) a + S16x1x256.size a ≤ S16x128x512.size a
  inb_S16x128x512_S16x1x256_0_120_256 : ∀ a, (![0, 120, 256] : Fin 3 → Nat) a + S16x1x256.size a ≤ S16x128x512.size a
  inb_S16x128x512_S16x1x256_0_121_0 : ∀ a, (![0, 121, 0] : Fin 3 → Nat) a + S16x1x256.size a ≤ S16x128x512.size a
  inb_S16x128x512_S16x1x256_0_121_256 : ∀ a, (![0, 121, 256] : Fin 3 → Nat) a + S16x1x256.size a ≤ S16x128x512.size a
  inb_S16x128x512_S16x1x256_0_122_0 : ∀ a, (![0, 122, 0] : Fin 3 → Nat) a + S16x1x256.size a ≤ S16x128x512.size a
  inb_S16x128x512_S16x1x256_0_122_256 : ∀ a, (![0, 122, 256] : Fin 3 → Nat) a + S16x1x256.size a ≤ S16x128x512.size a
  inb_S16x128x512_S16x1x256_0_123_0 : ∀ a, (![0, 123, 0] : Fin 3 → Nat) a + S16x1x256.size a ≤ S16x128x512.size a
  inb_S16x128x512_S16x1x256_0_123_256 : ∀ a, (![0, 123, 256] : Fin 3 → Nat) a + S16x1x256.size a ≤ S16x128x512.size a
  inb_S16x128x512_S16x1x256_0_124_0 : ∀ a, (![0, 124, 0] : Fin 3 → Nat) a + S16x1x256.size a ≤ S16x128x512.size a
  inb_S16x128x512_S16x1x256_0_124_256 : ∀ a, (![0, 124, 256] : Fin 3 → Nat) a + S16x1x256.size a ≤ S16x128x512.size a
  inb_S16x128x512_S16x1x256_0_125_0 : ∀ a, (![0, 125, 0] : Fin 3 → Nat) a + S16x1x256.size a ≤ S16x128x512.size a
  inb_S16x128x512_S16x1x256_0_125_256 : ∀ a, (![0, 125, 256] : Fin 3 → Nat) a + S16x1x256.size a ≤ S16x128x512.size a
  inb_S16x128x512_S16x1x256_0_126_0 : ∀ a, (![0, 126, 0] : Fin 3 → Nat) a + S16x1x256.size a ≤ S16x128x512.size a
  inb_S16x128x512_S16x1x256_0_126_256 : ∀ a, (![0, 126, 256] : Fin 3 → Nat) a + S16x1x256.size a ≤ S16x128x512.size a
  inb_S16x128x512_S16x1x256_0_127_0 : ∀ a, (![0, 127, 0] : Fin 3 → Nat) a + S16x1x256.size a ≤ S16x128x512.size a
  inb_S16x128x512_S16x1x256_0_127_256 : ∀ a, (![0, 127, 256] : Fin 3 → Nat) a + S16x1x256.size a ≤ S16x128x512.size a
  shapeCasts_S16x256_S16x256 : S16x256.ShapeCasts S16x256
  dot_S2048x64_S512x64_S2048x512_1_1_0_0_n_n_wf : DotDims.WF S2048x64 S512x64 S2048x512 [1] [1] [0] [0] [] []
  dot_S2048x128_S512x128_S2048x512_1_1_0_0_n_n_wf : DotDims.WF S2048x128 S512x128 S2048x512 [1] [1] [0] [0] [] []
  dot_S16x256_S256x256_S16x256_1_0_0_1_n_n_wf : DotDims.WF S16x256 S256x256 S16x256 [1] [0] [0] [1] [] []
  hcc0_scratch2 : 0 + S_.numel ≤ 13
  hcc0_scoped0 : 1 + S_.numel ≤ 13
  hcc0_scoped1 : 2 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S256.size a ≤ S8192.size a
  k0_off2_inb : ∀ i : grid0.Coords, ∀ a, (k0_off2 i) a + S256x128.size a ≤ S8192x128.size a
  hrank1 : 0 < grid1.rank
  k1_off1_inb : ∀ i : grid1.Coords, ∀ (k1_h2 : k1_cond2 i = 1#1), ∀ a, (k1_off1 i) a + S1x2048x512.size a ≤ S2x2048x512.size a
  k1_off2_inb : ∀ i : grid1.Coords, ∀ (k1_h3 : k1_cond3 i = 1#1), ∀ a, (k1_off2 i) a + S1x16x512.size a ≤ S2x2048x512.size a
  k1_off3_inb : ∀ i : grid1.Coords, ∀ (k1_h3 : k1_cond3 i = 1#1), ∀ a, (k1_off3 i) a + S1x16x512.size a ≤ S2x2048x512.size a
  k1_off4_inb : ∀ i : grid1.Coords, ∀ (k1_h3 : k1_cond3 i = 1#1), ∀ a, (k1_off4 i) a + S1x16x512.size a ≤ S2x2048x512.size a
  k1_off5_inb : ∀ i : grid1.Coords, ∀ (k1_h3 : k1_cond3 i = 1#1), ∀ a, (k1_off5 i) a + S1x16x512.size a ≤ S2x2048x512.size a
  k1_off6_inb : ∀ i : grid1.Coords, ∀ (k1_h3 : k1_cond3 i = 1#1), ∀ a, (k1_off6 i) a + S1x16x512.size a ≤ S2x2048x512.size a
  k1_off7_inb : ∀ i : grid1.Coords, ∀ (k1_h3 : k1_cond3 i = 1#1), ∀ a, (k1_off7 i) a + S1x16x512.size a ≤ S2x2048x512.size a
  k1_off8_inb : ∀ i : grid1.Coords, ∀ (k1_h3 : k1_cond3 i = 1#1), ∀ a, (k1_off8 i) a + S1x16x512.size a ≤ S2x2048x512.size a
  k1_off9_inb : ∀ i : grid1.Coords, ∀ (k1_h3 : k1_cond3 i = 1#1), ∀ a, (k1_off9 i) a + S1x16x512.size a ≤ S2x2048x512.size a
  k1_off10_inb : ∀ i : grid1.Coords, ∀ (k1_h3 : k1_cond3 i = 1#1), ∀ a, (k1_off10 i) a + S1x16x512.size a ≤ S2x2048x512.size a
  k1_off11_inb : ∀ i : grid1.Coords, ∀ (k1_h3 : k1_cond3 i = 1#1), ∀ a, (k1_off11 i) a + S1x16x512.size a ≤ S2x2048x512.size a
  k1_off12_inb : ∀ i : grid1.Coords, ∀ (k1_h3 : k1_cond3 i = 1#1), ∀ a, (k1_off12 i) a + S1x16x512.size a ≤ S2x2048x512.size a
  k1_off13_inb : ∀ i : grid1.Coords, ∀ (k1_h3 : k1_cond3 i = 1#1), ∀ a, (k1_off13 i) a + S1x16x512.size a ≤ S2x2048x512.size a
  k1_off14_inb : ∀ i : grid1.Coords, ∀ (k1_h3 : k1_cond3 i = 1#1), ∀ a, (k1_off14 i) a + S1x16x512.size a ≤ S2x2048x512.size a
  k1_off15_inb : ∀ i : grid1.Coords, ∀ (k1_h3 : k1_cond3 i = 1#1), ∀ a, (k1_off15 i) a + S1x16x512.size a ≤ S2x2048x512.size a
  k1_off16_inb : ∀ i : grid1.Coords, ∀ (k1_h3 : k1_cond3 i = 1#1), ∀ a, (k1_off16 i) a + S1x16x512.size a ≤ S2x2048x512.size a
  k1_off17_inb : ∀ i : grid1.Coords, ∀ (k1_h3 : k1_cond3 i = 1#1), ∀ a, (k1_off17 i) a + S1x16x512.size a ≤ S2x2048x512.size a
  k1_off18_inb : ∀ i : grid1.Coords, ∀ (k1_h3 : k1_cond3 i = 1#1), ∀ a, (k1_off18 i) a + S1x16x512.size a ≤ S2x2048x512.size a
  k1_off19_inb : ∀ i : grid1.Coords, ∀ (k1_h3 : k1_cond3 i = 1#1), ∀ a, (k1_off19 i) a + S1x16x512.size a ≤ S2x2048x512.size a
  k1_off20_inb : ∀ i : grid1.Coords, ∀ (k1_h3 : k1_cond3 i = 1#1), ∀ a, (k1_off20 i) a + S1x16x512.size a ≤ S2x2048x512.size a
  k1_off21_inb : ∀ i : grid1.Coords, ∀ (k1_h3 : k1_cond3 i = 1#1), ∀ a, (k1_off21 i) a + S1x16x512.size a ≤ S2x2048x512.size a
  k1_off22_inb : ∀ i : grid1.Coords, ∀ (k1_h3 : k1_cond3 i = 1#1), ∀ a, (k1_off22 i) a + S1x16x512.size a ≤ S2x2048x512.size a
  k1_off23_inb : ∀ i : grid1.Coords, ∀ (k1_h3 : k1_cond3 i = 1#1), ∀ a, (k1_off23 i) a + S1x16x512.size a ≤ S2x2048x512.size a
  k1_off24_inb : ∀ i : grid1.Coords, ∀ (k1_h3 : k1_cond3 i = 1#1), ∀ a, (k1_off24 i) a + S1x16x512.size a ≤ S2x2048x512.size a
  k1_off25_inb : ∀ i : grid1.Coords, ∀ (k1_h3 : k1_cond3 i = 1#1), ∀ a, (k1_off25 i) a + S1x16x512.size a ≤ S2x2048x512.size a
  k1_off26_inb : ∀ i : grid1.Coords, ∀ (k1_h3 : k1_cond3 i = 1#1), ∀ a, (k1_off26 i) a + S1x16x512.size a ≤ S2x2048x512.size a
  k1_off27_inb : ∀ i : grid1.Coords, ∀ (k1_h3 : k1_cond3 i = 1#1), ∀ a, (k1_off27 i) a + S1x16x512.size a ≤ S2x2048x512.size a
  k1_off28_inb : ∀ i : grid1.Coords, ∀ (k1_h3 : k1_cond3 i = 1#1), ∀ a, (k1_off28 i) a + S1x16x512.size a ≤ S2x2048x512.size a
  k1_off29_inb : ∀ i : grid1.Coords, ∀ (k1_h3 : k1_cond3 i = 1#1), ∀ a, (k1_off29 i) a + S1x16x512.size a ≤ S2x2048x512.size a
  k1_off30_inb : ∀ i : grid1.Coords, ∀ (k1_h3 : k1_cond3 i = 1#1), ∀ a, (k1_off30 i) a + S1x16x512.size a ≤ S2x2048x512.size a
  k1_off31_inb : ∀ i : grid1.Coords, ∀ (k1_h3 : k1_cond3 i = 1#1), ∀ a, (k1_off31 i) a + S1x16x512.size a ≤ S2x2048x512.size a
  k1_off32_inb : ∀ i : grid1.Coords, ∀ (k1_h3 : k1_cond3 i = 1#1), ∀ a, (k1_off32 i) a + S1x16x512.size a ≤ S2x2048x512.size a
  k1_off33_inb : ∀ i : grid1.Coords, ∀ (k1_h3 : k1_cond3 i = 1#1), ∀ a, (k1_off33 i) a + S1x16x512.size a ≤ S2x2048x512.size a
  k1_off34_inb : ∀ i : grid1.Coords, ∀ (k1_h3 : k1_cond3 i = 1#1), ∀ a, (k1_off34 i) a + S1x16x512.size a ≤ S2x2048x512.size a
  k1_off35_inb : ∀ i : grid1.Coords, ∀ (k1_h3 : k1_cond3 i = 1#1), ∀ a, (k1_off35 i) a + S1x16x512.size a ≤ S2x2048x512.size a
  k1_off36_inb : ∀ i : grid1.Coords, ∀ (k1_h3 : k1_cond3 i = 1#1), ∀ a, (k1_off36 i) a + S1x16x512.size a ≤ S2x2048x512.size a
  k1_off37_inb : ∀ i : grid1.Coords, ∀ (k1_h3 : k1_cond3 i = 1#1), ∀ a, (k1_off37 i) a + S1x16x512.size a ≤ S2x2048x512.size a
  k1_off38_inb : ∀ i : grid1.Coords, ∀ (k1_h3 : k1_cond3 i = 1#1), ∀ a, (k1_off38 i) a + S1x16x512.size a ≤ S2x2048x512.size a
  k1_off39_inb : ∀ i : grid1.Coords, ∀ (k1_h3 : k1_cond3 i = 1#1), ∀ a, (k1_off39 i) a + S1x16x512.size a ≤ S2x2048x512.size a
  k1_off40_inb : ∀ i : grid1.Coords, ∀ (k1_h3 : k1_cond3 i = 1#1), ∀ a, (k1_off40 i) a + S1x16x512.size a ≤ S2x2048x512.size a
  k1_off41_inb : ∀ i : grid1.Coords, ∀ (k1_h3 : k1_cond3 i = 1#1), ∀ a, (k1_off41 i) a + S1x16x512.size a ≤ S2x2048x512.size a
  k1_off42_inb : ∀ i : grid1.Coords, ∀ (k1_h3 : k1_cond3 i = 1#1), ∀ a, (k1_off42 i) a + S1x16x512.size a ≤ S2x2048x512.size a
  k1_off43_inb : ∀ i : grid1.Coords, ∀ (k1_h3 : k1_cond3 i = 1#1), ∀ a, (k1_off43 i) a + S1x16x512.size a ≤ S2x2048x512.size a
  k1_off44_inb : ∀ i : grid1.Coords, ∀ (k1_h3 : k1_cond3 i = 1#1), ∀ a, (k1_off44 i) a + S1x16x512.size a ≤ S2x2048x512.size a
  k1_off45_inb : ∀ i : grid1.Coords, ∀ (k1_h3 : k1_cond3 i = 1#1), ∀ a, (k1_off45 i) a + S1x16x512.size a ≤ S2x2048x512.size a
  k1_off46_inb : ∀ i : grid1.Coords, ∀ (k1_h3 : k1_cond3 i = 1#1), ∀ a, (k1_off46 i) a + S1x16x512.size a ≤ S2x2048x512.size a
  k1_off47_inb : ∀ i : grid1.Coords, ∀ (k1_h3 : k1_cond3 i = 1#1), ∀ a, (k1_off47 i) a + S1x16x512.size a ≤ S2x2048x512.size a
  k1_off48_inb : ∀ i : grid1.Coords, ∀ (k1_h3 : k1_cond3 i = 1#1), ∀ a, (k1_off48 i) a + S1x16x512.size a ≤ S2x2048x512.size a
  k1_off49_inb : ∀ i : grid1.Coords, ∀ (k1_h3 : k1_cond3 i = 1#1), ∀ a, (k1_off49 i) a + S1x16x512.size a ≤ S2x2048x512.size a
  k1_off50_inb : ∀ i : grid1.Coords, ∀ (k1_h3 : k1_cond3 i = 1#1), ∀ a, (k1_off50 i) a + S1x16x512.size a ≤ S2x2048x512.size a
  k1_off51_inb : ∀ i : grid1.Coords, ∀ (k1_h3 : k1_cond3 i = 1#1), ∀ a, (k1_off51 i) a + S1x16x512.size a ≤ S2x2048x512.size a
  k1_off52_inb : ∀ i : grid1.Coords, ∀ (k1_h3 : k1_cond3 i = 1#1), ∀ a, (k1_off52 i) a + S1x16x512.size a ≤ S2x2048x512.size a
  k1_off53_inb : ∀ i : grid1.Coords, ∀ (k1_h3 : k1_cond3 i = 1#1), ∀ a, (k1_off53 i) a + S1x16x512.size a ≤ S2x2048x512.size a
  k1_off54_inb : ∀ i : grid1.Coords, ∀ (k1_h3 : k1_cond3 i = 1#1), ∀ a, (k1_off54 i) a + S1x16x512.size a ≤ S2x2048x512.size a
  k1_off55_inb : ∀ i : grid1.Coords, ∀ (k1_h3 : k1_cond3 i = 1#1), ∀ a, (k1_off55 i) a + S1x16x512.size a ≤ S2x2048x512.size a
  k1_off56_inb : ∀ i : grid1.Coords, ∀ (k1_h3 : k1_cond3 i = 1#1), ∀ a, (k1_off56 i) a + S1x16x512.size a ≤ S2x2048x512.size a
  k1_off57_inb : ∀ i : grid1.Coords, ∀ (k1_h3 : k1_cond3 i = 1#1), ∀ a, (k1_off57 i) a + S1x16x512.size a ≤ S2x2048x512.size a
  k1_off58_inb : ∀ i : grid1.Coords, ∀ (k1_h3 : k1_cond3 i = 1#1), ∀ a, (k1_off58 i) a + S1x16x512.size a ≤ S2x2048x512.size a
  k1_off59_inb : ∀ i : grid1.Coords, ∀ (k1_h3 : k1_cond3 i = 1#1), ∀ a, (k1_off59 i) a + S1x16x512.size a ≤ S2x2048x512.size a
  k1_off60_inb : ∀ i : grid1.Coords, ∀ (k1_h3 : k1_cond3 i = 1#1), ∀ a, (k1_off60 i) a + S1x16x512.size a ≤ S2x2048x512.size a
  k1_off61_inb : ∀ i : grid1.Coords, ∀ (k1_h3 : k1_cond3 i = 1#1), ∀ a, (k1_off61 i) a + S1x16x512.size a ≤ S2x2048x512.size a
  k1_off62_inb : ∀ i : grid1.Coords, ∀ (k1_h3 : k1_cond3 i = 1#1), ∀ a, (k1_off62 i) a + S1x16x512.size a ≤ S2x2048x512.size a
  k1_off63_inb : ∀ i : grid1.Coords, ∀ (k1_h3 : k1_cond3 i = 1#1), ∀ a, (k1_off63 i) a + S1x16x512.size a ≤ S2x2048x512.size a
  k1_off64_inb : ∀ i : grid1.Coords, ∀ (k1_h3 : k1_cond3 i = 1#1), ∀ a, (k1_off64 i) a + S1x16x512.size a ≤ S2x2048x512.size a
  k1_off65_inb : ∀ i : grid1.Coords, ∀ (k1_h3 : k1_cond3 i = 1#1), ∀ a, (k1_off65 i) a + S1x16x512.size a ≤ S2x2048x512.size a
  k1_off66_inb : ∀ i : grid1.Coords, ∀ (k1_h3 : k1_cond3 i = 1#1), ∀ a, (k1_off66 i) a + S1x16x512.size a ≤ S2x2048x512.size a
  k1_off67_inb : ∀ i : grid1.Coords, ∀ (k1_h3 : k1_cond3 i = 1#1), ∀ a, (k1_off67 i) a + S1x16x512.size a ≤ S2x2048x512.size a
  k1_off68_inb : ∀ i : grid1.Coords, ∀ (k1_h3 : k1_cond3 i = 1#1), ∀ a, (k1_off68 i) a + S1x16x512.size a ≤ S2x2048x512.size a
  k1_off69_inb : ∀ i : grid1.Coords, ∀ (k1_h3 : k1_cond3 i = 1#1), ∀ a, (k1_off69 i) a + S1x16x512.size a ≤ S2x2048x512.size a
  k1_off70_inb : ∀ i : grid1.Coords, ∀ (k1_h3 : k1_cond3 i = 1#1), ∀ a, (k1_off70 i) a + S1x16x512.size a ≤ S2x2048x512.size a
  k1_off71_inb : ∀ i : grid1.Coords, ∀ (k1_h3 : k1_cond3 i = 1#1), ∀ a, (k1_off71 i) a + S1x16x512.size a ≤ S2x2048x512.size a
  k1_off72_inb : ∀ i : grid1.Coords, ∀ (k1_h3 : k1_cond3 i = 1#1), ∀ a, (k1_off72 i) a + S1x16x512.size a ≤ S2x2048x512.size a
  k1_off73_inb : ∀ i : grid1.Coords, ∀ (k1_h3 : k1_cond3 i = 1#1), ∀ a, (k1_off73 i) a + S1x16x512.size a ≤ S2x2048x512.size a
  k1_off74_inb : ∀ i : grid1.Coords, ∀ (k1_h3 : k1_cond3 i = 1#1), ∀ a, (k1_off74 i) a + S1x16x512.size a ≤ S2x2048x512.size a
  k1_off75_inb : ∀ i : grid1.Coords, ∀ (k1_h3 : k1_cond3 i = 1#1), ∀ a, (k1_off75 i) a + S1x16x512.size a ≤ S2x2048x512.size a
  k1_off76_inb : ∀ i : grid1.Coords, ∀ (k1_h3 : k1_cond3 i = 1#1), ∀ a, (k1_off76 i) a + S1x16x512.size a ≤ S2x2048x512.size a
  k1_off77_inb : ∀ i : grid1.Coords, ∀ (k1_h3 : k1_cond3 i = 1#1), ∀ a, (k1_off77 i) a + S1x16x512.size a ≤ S2x2048x512.size a
  k1_off78_inb : ∀ i : grid1.Coords, ∀ (k1_h3 : k1_cond3 i = 1#1), ∀ a, (k1_off78 i) a + S1x16x512.size a ≤ S2x2048x512.size a
  k1_off79_inb : ∀ i : grid1.Coords, ∀ (k1_h3 : k1_cond3 i = 1#1), ∀ a, (k1_off79 i) a + S1x16x512.size a ≤ S2x2048x512.size a
  k1_off80_inb : ∀ i : grid1.Coords, ∀ (k1_h3 : k1_cond3 i = 1#1), ∀ a, (k1_off80 i) a + S1x16x512.size a ≤ S2x2048x512.size a
  k1_off81_inb : ∀ i : grid1.Coords, ∀ (k1_h3 : k1_cond3 i = 1#1), ∀ a, (k1_off81 i) a + S1x16x512.size a ≤ S2x2048x512.size a
  k1_off82_inb : ∀ i : grid1.Coords, ∀ (k1_h3 : k1_cond3 i = 1#1), ∀ a, (k1_off82 i) a + S1x16x512.size a ≤ S2x2048x512.size a
  k1_off83_inb : ∀ i : grid1.Coords, ∀ (k1_h3 : k1_cond3 i = 1#1), ∀ a, (k1_off83 i) a + S1x16x512.size a ≤ S2x2048x512.size a
  k1_off84_inb : ∀ i : grid1.Coords, ∀ (k1_h3 : k1_cond3 i = 1#1), ∀ a, (k1_off84 i) a + S1x16x512.size a ≤ S2x2048x512.size a
  k1_off85_inb : ∀ i : grid1.Coords, ∀ (k1_h3 : k1_cond3 i = 1#1), ∀ a, (k1_off85 i) a + S1x16x512.size a ≤ S2x2048x512.size a
  k1_off86_inb : ∀ i : grid1.Coords, ∀ (k1_h3 : k1_cond3 i = 1#1), ∀ a, (k1_off86 i) a + S1x16x512.size a ≤ S2x2048x512.size a
  k1_off87_inb : ∀ i : grid1.Coords, ∀ (k1_h3 : k1_cond3 i = 1#1), ∀ a, (k1_off87 i) a + S1x16x512.size a ≤ S2x2048x512.size a
  k1_off88_inb : ∀ i : grid1.Coords, ∀ (k1_h3 : k1_cond3 i = 1#1), ∀ a, (k1_off88 i) a + S1x16x512.size a ≤ S2x2048x512.size a
  k1_off89_inb : ∀ i : grid1.Coords, ∀ (k1_h3 : k1_cond3 i = 1#1), ∀ a, (k1_off89 i) a + S1x16x512.size a ≤ S2x2048x512.size a
  k1_off90_inb : ∀ i : grid1.Coords, ∀ (k1_h3 : k1_cond3 i = 1#1), ∀ a, (k1_off90 i) a + S1x16x512.size a ≤ S2x2048x512.size a
  k1_off91_inb : ∀ i : grid1.Coords, ∀ (k1_h3 : k1_cond3 i = 1#1), ∀ a, (k1_off91 i) a + S1x16x512.size a ≤ S2x2048x512.size a
  k1_off92_inb : ∀ i : grid1.Coords, ∀ (k1_h3 : k1_cond3 i = 1#1), ∀ a, (k1_off92 i) a + S1x16x512.size a ≤ S2x2048x512.size a
  k1_off93_inb : ∀ i : grid1.Coords, ∀ (k1_h3 : k1_cond3 i = 1#1), ∀ a, (k1_off93 i) a + S1x16x512.size a ≤ S2x2048x512.size a
  k1_off94_inb : ∀ i : grid1.Coords, ∀ (k1_h3 : k1_cond3 i = 1#1), ∀ a, (k1_off94 i) a + S1x16x512.size a ≤ S2x2048x512.size a
  k1_off95_inb : ∀ i : grid1.Coords, ∀ (k1_h3 : k1_cond3 i = 1#1), ∀ a, (k1_off95 i) a + S1x16x512.size a ≤ S2x2048x512.size a
  k1_off96_inb : ∀ i : grid1.Coords, ∀ (k1_h3 : k1_cond3 i = 1#1), ∀ a, (k1_off96 i) a + S1x16x512.size a ≤ S2x2048x512.size a
  k1_off97_inb : ∀ i : grid1.Coords, ∀ (k1_h3 : k1_cond3 i = 1#1), ∀ a, (k1_off97 i) a + S1x16x512.size a ≤ S2x2048x512.size a
  k1_off98_inb : ∀ i : grid1.Coords, ∀ (k1_h3 : k1_cond3 i = 1#1), ∀ a, (k1_off98 i) a + S1x16x512.size a ≤ S2x2048x512.size a
  k1_off99_inb : ∀ i : grid1.Coords, ∀ (k1_h3 : k1_cond3 i = 1#1), ∀ a, (k1_off99 i) a + S1x16x512.size a ≤ S2x2048x512.size a
  k1_off100_inb : ∀ i : grid1.Coords, ∀ (k1_h3 : k1_cond3 i = 1#1), ∀ a, (k1_off100 i) a + S1x16x512.size a ≤ S2x2048x512.size a
  k1_off101_inb : ∀ i : grid1.Coords, ∀ (k1_h3 : k1_cond3 i = 1#1), ∀ a, (k1_off101 i) a + S1x16x512.size a ≤ S2x2048x512.size a
  k1_off102_inb : ∀ i : grid1.Coords, ∀ (k1_h3 : k1_cond3 i = 1#1), ∀ a, (k1_off102 i) a + S1x16x512.size a ≤ S2x2048x512.size a
  k1_off103_inb : ∀ i : grid1.Coords, ∀ (k1_h3 : k1_cond3 i = 1#1), ∀ a, (k1_off103 i) a + S1x16x512.size a ≤ S2x2048x512.size a
  k1_off104_inb : ∀ i : grid1.Coords, ∀ (k1_h3 : k1_cond3 i = 1#1), ∀ a, (k1_off104 i) a + S1x16x512.size a ≤ S2x2048x512.size a
  k1_off105_inb : ∀ i : grid1.Coords, ∀ (k1_h3 : k1_cond3 i = 1#1), ∀ a, (k1_off105 i) a + S1x16x512.size a ≤ S2x2048x512.size a
  k1_off106_inb : ∀ i : grid1.Coords, ∀ (k1_h3 : k1_cond3 i = 1#1), ∀ a, (k1_off106 i) a + S1x16x512.size a ≤ S2x2048x512.size a
  k1_off107_inb : ∀ i : grid1.Coords, ∀ (k1_h3 : k1_cond3 i = 1#1), ∀ a, (k1_off107 i) a + S1x16x512.size a ≤ S2x2048x512.size a
  k1_off108_inb : ∀ i : grid1.Coords, ∀ (k1_h3 : k1_cond3 i = 1#1), ∀ a, (k1_off108 i) a + S1x16x512.size a ≤ S2x2048x512.size a
  k1_off109_inb : ∀ i : grid1.Coords, ∀ (k1_h3 : k1_cond3 i = 1#1), ∀ a, (k1_off109 i) a + S1x16x512.size a ≤ S2x2048x512.size a
  k1_off110_inb : ∀ i : grid1.Coords, ∀ (k1_h3 : k1_cond3 i = 1#1), ∀ a, (k1_off110 i) a + S1x16x512.size a ≤ S2x2048x512.size a
  k1_off111_inb : ∀ i : grid1.Coords, ∀ (k1_h3 : k1_cond3 i = 1#1), ∀ a, (k1_off111 i) a + S1x16x512.size a ≤ S2x2048x512.size a
  k1_off112_inb : ∀ i : grid1.Coords, ∀ (k1_h3 : k1_cond3 i = 1#1), ∀ a, (k1_off112 i) a + S1x16x512.size a ≤ S2x2048x512.size a
  k1_off113_inb : ∀ i : grid1.Coords, ∀ (k1_h3 : k1_cond3 i = 1#1), ∀ a, (k1_off113 i) a + S1x16x512.size a ≤ S2x2048x512.size a
  k1_off114_inb : ∀ i : grid1.Coords, ∀ (k1_h3 : k1_cond3 i = 1#1), ∀ a, (k1_off114 i) a + S1x16x512.size a ≤ S2x2048x512.size a
  k1_off115_inb : ∀ i : grid1.Coords, ∀ (k1_h3 : k1_cond3 i = 1#1), ∀ a, (k1_off115 i) a + S1x16x512.size a ≤ S2x2048x512.size a
  k1_off116_inb : ∀ i : grid1.Coords, ∀ (k1_h3 : k1_cond3 i = 1#1), ∀ a, (k1_off116 i) a + S1x16x512.size a ≤ S2x2048x512.size a
  k1_off117_inb : ∀ i : grid1.Coords, ∀ (k1_h3 : k1_cond3 i = 1#1), ∀ a, (k1_off117 i) a + S1x16x512.size a ≤ S2x2048x512.size a
  k1_off118_inb : ∀ i : grid1.Coords, ∀ (k1_h3 : k1_cond3 i = 1#1), ∀ a, (k1_off118 i) a + S1x16x512.size a ≤ S2x2048x512.size a
  k1_off119_inb : ∀ i : grid1.Coords, ∀ (k1_h3 : k1_cond3 i = 1#1), ∀ a, (k1_off119 i) a + S1x16x512.size a ≤ S2x2048x512.size a
  k1_off120_inb : ∀ i : grid1.Coords, ∀ (k1_h3 : k1_cond3 i = 1#1), ∀ a, (k1_off120 i) a + S1x16x512.size a ≤ S2x2048x512.size a
  k1_off121_inb : ∀ i : grid1.Coords, ∀ (k1_h3 : k1_cond3 i = 1#1), ∀ a, (k1_off121 i) a + S1x16x512.size a ≤ S2x2048x512.size a
  k1_off122_inb : ∀ i : grid1.Coords, ∀ (k1_h3 : k1_cond3 i = 1#1), ∀ a, (k1_off122 i) a + S1x16x512.size a ≤ S2x2048x512.size a
  k1_off123_inb : ∀ i : grid1.Coords, ∀ (k1_h3 : k1_cond3 i = 1#1), ∀ a, (k1_off123 i) a + S1x16x512.size a ≤ S2x2048x512.size a
  k1_off124_inb : ∀ i : grid1.Coords, ∀ (k1_h3 : k1_cond3 i = 1#1), ∀ a, (k1_off124 i) a + S1x16x512.size a ≤ S2x2048x512.size a
  k1_off125_inb : ∀ i : grid1.Coords, ∀ (k1_h3 : k1_cond3 i = 1#1), ∀ a, (k1_off125 i) a + S1x16x512.size a ≤ S2x2048x512.size a
  k1_off126_inb : ∀ i : grid1.Coords, ∀ (k1_h3 : k1_cond3 i = 1#1), ∀ a, (k1_off126 i) a + S1x16x512.size a ≤ S2x2048x512.size a
  k1_off127_inb : ∀ i : grid1.Coords, ∀ (k1_h3 : k1_cond3 i = 1#1), ∀ a, (k1_off127 i) a + S1x16x512.size a ≤ S2x2048x512.size a
  k1_off128_inb : ∀ i : grid1.Coords, ∀ (k1_h3 : k1_cond3 i = 1#1), ∀ a, (k1_off128 i) a + S1x16x512.size a ≤ S2x2048x512.size a
  k1_off129_inb : ∀ i : grid1.Coords, ∀ (k1_h3 : k1_cond3 i = 1#1), ∀ a, (k1_off129 i) a + S1x16x512.size a ≤ S2x2048x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S8192x64.size a
  hwx1_0 : ∀ i : grid1.Coords, EltTy.bits .f32 = 32 ∨ (Rect.block (s := S8192x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x192.size a ≤ S512x192.size a
  hwx1_2 : ∀ i : grid1.Coords, EltTy.bits .f32 = 32 ∨ (Rect.block (s := S512x192) S512x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S16x128x512.size a ≤ S16x512x512.size a
  hwx1_6 : ∀ i : grid1.Coords, EltTy.bits .f32 = 32 ∨ (Rect.block (s := S16x512x512) S16x128x512.size (cc1_transform_6 i) (hinb1_6 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf
def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf

abbrev win1_0 : Pipeline.Window sig grid1 :=
  Pipeline.Window.ofSpec (Memref.whole main_v1) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S16x128x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond3 i == 1#1) | ⟨_ + 7, h⟩ => absurd h (Nat.not_lt.2 (Nat.le_add_left _ _))

class Facts : Prop extends Facts₀ where

variable [Facts]
-- ==== ReferenceIdeal.lean ====
abbrev S16x512x64 : Shape := ⟨3, ![16, 512, 64]⟩
abbrev S16x512 : Shape := ⟨2, ![16, 512]⟩
abbrev S1024x128 : Shape := ⟨2, ![1024, 128]⟩
abbrev S512x192 : Shape := ⟨2, ![512, 192]⟩
abbrev S512x512 : Shape := ⟨2, ![512, 512]⟩
abbrev S512 : Shape := ⟨1, ![512]⟩
abbrev S_ : Shape := ⟨0, ![]⟩
abbrev S16x512x1 : Shape := ⟨3, ![16, 512, 1]⟩
abbrev S1 : Shape := ⟨1, ![1]⟩
abbrev S1x1x1 : Shape := ⟨3, ![1, 1, 1]⟩
abbrev S16x512x128 : Shape := ⟨3, ![16, 512, 128]⟩
abbrev S16x512x192 : Shape := ⟨3, ![16, 512, 192]⟩
abbrev S512x16x192 : Shape := ⟨3, ![512, 16, 192]⟩
abbrev S512x16x512 : Shape := ⟨3, ![512, 16, 512]⟩
abbrev S1x16x192 : Shape := ⟨3, ![1, 16, 192]⟩
abbrev S16x192 : Shape := ⟨2, ![16, 192]⟩
abbrev S192x512 : Shape := ⟨2, ![192, 512]⟩
abbrev S1x512 : Shape := ⟨2, ![1, 512]⟩
abbrev S1x16x512 : Shape := ⟨3, ![1, 16, 512]⟩
abbrev S16x512x512 : Shape := ⟨3, ![16, 512, 512]⟩

abbrev nBuf : Space → Nat
  | .hbm => 70
  | .vmem => 0
  | .smem => 0
  | _ => 0

abbrev bufTy : (tb : Table) → Fin (tcTables nBuf tb) → BufTy
  | .hbm, ⟨0, _⟩ => ⟨S16x512x64, .f32⟩
  | .hbm, ⟨1, _⟩ => ⟨S16x512, .i32⟩
  | .hbm, ⟨2, _⟩ => ⟨S1024x128, .f32⟩
  | .hbm, ⟨3, _⟩ => ⟨S512x192, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S_, .i32⟩
  | .hbm, ⟨8, _⟩ => ⟨S16x512, .i32⟩
  | .hbm, ⟨9, _⟩ => ⟨S16x512, .i1⟩
  | .hbm, ⟨10, _⟩ => ⟨S_, .i32⟩
  | .hbm, ⟨11, _⟩ => ⟨S16x512, .i32⟩
  | .hbm, ⟨12, _⟩ => ⟨S16x512, .i32⟩
  | .hbm, ⟨13, _⟩ => ⟨S16x512, .i32⟩
  | .hbm, ⟨14, _⟩ => ⟨S16x512x1, .i32⟩
  | .hbm, ⟨15, _⟩ => ⟨S1, .i32⟩
  | .hbm, ⟨16, _⟩ => ⟨S_, .i32⟩
  | .hbm, ⟨17, _⟩ => ⟨S16x512x1, .i32⟩
  | .hbm, ⟨18, _⟩ => ⟨S16x512x1, .i1⟩
  | .hbm, ⟨19, _⟩ => ⟨S1x1x1, .i32⟩
  | .hbm, ⟨20, _⟩ => ⟨S16x512x1, .i32⟩
  | .hbm, ⟨21, _⟩ => ⟨S16x512x1, .i1⟩
  | .hbm, ⟨22, _⟩ => ⟨S16x512x1, .i1⟩
  | .hbm, ⟨23, _⟩ => ⟨S_, .i1⟩
  | .hbm, ⟨24, _⟩ => ⟨S16x512, .i1⟩
  | .hbm, ⟨25, _⟩ => ⟨S16x512x128, .f32⟩
  | .hbm, ⟨26, _⟩ => ⟨S16x512x128, .i1⟩
  | .hbm, ⟨27, _⟩ => ⟨S_, .f32⟩
  | .hbm, ⟨28, _⟩ => ⟨S16x512x128, .f32⟩
  | .hbm, ⟨29, _⟩ => ⟨S16x512x128, .f32⟩
  | .hbm, ⟨30, _⟩ => ⟨S16x512x192, .f32⟩
  | .hbm, ⟨31, _⟩ => ⟨S_, .f32⟩
  | .hbm, ⟨32, _⟩ => ⟨S16x512, .f32⟩
  | .hbm, ⟨33, _⟩ => ⟨S512x16x192, .f32⟩
  | .hbm, ⟨34, _⟩ => ⟨S_, .f32⟩
  | .hbm, ⟨35, _⟩ => ⟨S512x16x512, .f32⟩
  | .hbm, ⟨36, _⟩ => ⟨S_, .i32⟩
  | .hbm, ⟨37, _⟩ => ⟨S512x16x192, .f32⟩
  | .hbm, ⟨38, _⟩ => ⟨S512x192, .f32⟩
  | .hbm, ⟨39, _⟩ => ⟨S512, .f32⟩
  | .hbm, ⟨40, _⟩ => ⟨S512x512, .f32⟩
  | .hbm, ⟨41, _⟩ => ⟨S512, .f32⟩
  | .hbm, ⟨42, _⟩ => ⟨S_, .i32⟩
  | .hbm, ⟨43, _⟩ => ⟨S16x512, .f32⟩
  | .hbm, ⟨44, _⟩ => ⟨S512x16x512, .f32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S1x16x192, .f32⟩
  | .hbm, ⟨50, _⟩ => ⟨S16x192, .f32⟩
  | .hbm, ⟨51, _⟩ => ⟨S192x512, .f32⟩
  | .hbm, ⟨52, _⟩ => ⟨S16x512, .f32⟩
  | .hbm, ⟨53, _⟩ => ⟨S1x512, .f32⟩
  | .hbm, ⟨54, _⟩ => ⟨S16x512, .f32⟩
  | .hbm, ⟨55, _⟩ => ⟨S16x512, .f32⟩
  | .hbm, ⟨56, _⟩ => ⟨S512x512, .f32⟩
  | .hbm, ⟨57, _⟩ => ⟨S16x512, .f32⟩
  | .hbm, ⟨58, _⟩ => ⟨S16x512, .f32⟩
  | .hbm, ⟨59, _⟩ => ⟨S1x512, .f32⟩
  | .hbm, ⟨60, _⟩ => ⟨S16x512, .f32⟩
  | .hbm, ⟨61, _⟩ => ⟨S16x512, .f32⟩
  | .hbm, ⟨62, _⟩ => ⟨S16x512, .f32⟩
  | .hbm, ⟨63, _⟩ => ⟨S1x16x512, .f32⟩
  | .hbm, ⟨64, _⟩ => ⟨S_, .i32⟩
  | .hbm, ⟨65, _⟩ => ⟨S_, .i32⟩
  | .hbm, ⟨66, _⟩ => ⟨S512x16x512, .f32⟩
  | .hbm, ⟨67, _⟩ => ⟨S_, .i32⟩
  | .hbm, ⟨68, _⟩ => ⟨S_, .i32⟩
  | .hbm, ⟨69, _⟩ => ⟨S16x512x512, .f32⟩
  | _, _ => ⟨S16x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_cst : Ref sig .tc := ⟨.hbm, 31, rfl⟩
abbrev main_v2 : Ref sig .tc := ⟨.hbm, 32, rfl⟩
abbrev main_v3 : Ref sig .tc := ⟨.hbm, 33, rfl⟩
abbrev main_cst_0 : Ref sig .tc := ⟨.hbm, 34, rfl⟩
abbrev main_v4 : Ref sig .tc := ⟨.hbm, 35, rfl⟩
abbrev main_c : Ref sig .tc := ⟨.hbm, 36, rfl⟩
abbrev main_v5_0 : Ref sig .tc := ⟨.hbm, 37, rfl⟩
abbrev main_v5_1 : Ref sig .tc := ⟨.hbm, 38, rfl⟩
abbrev main_v5_2 : Ref sig .tc := ⟨.hbm, 39, rfl⟩
abbrev main_v5_3 : Ref sig .tc := ⟨.hbm, 40, rfl⟩
abbrev main_v5_4 : Ref sig .tc := ⟨.hbm, 41, rfl⟩
abbrev main_v5_5 : Ref sig .tc := ⟨.hbm, 42, rfl⟩
abbrev main_v5_6 : Ref sig .tc := ⟨.hbm, 43, rfl⟩
abbrev main_v5_7 : Ref sig .tc := ⟨.hbm, 44, rfl⟩
abbrev main_while0c_c_8 : Ref sig .tc := ⟨.hbm, 45, rfl⟩
abbrev main_while0c_v7 : Ref sig .tc := ⟨.hbm, 46, rfl⟩
abbrev main_while0b_call1_c : Ref sig .tc := ⟨.hbm, 47, rfl⟩
abbrev main_while0b_call1_c_0 : Ref sig .tc := ⟨.hbm, 48, rfl⟩
abbrev main_while0b_call1_v0 : Ref sig .tc := ⟨.hbm, 49, rfl⟩
abbrev main_while0b_v7 : Ref sig .tc := ⟨.hbm, 50, rfl⟩
abbrev main_while0b_call2_v0 : Ref sig .tc := ⟨.hbm, 51, rfl⟩
abbrev main_while0b_call2_v1 : Ref sig .tc := ⟨.hbm, 52, rfl⟩
abbrev main_while0b_call2_v2 : Ref sig .tc := ⟨.hbm, 53, rfl⟩
abbrev main_while0b_call2_v3 : Ref sig .tc := ⟨.hbm, 54, rfl⟩
abbrev main_while0b_call2_v4 : Ref sig .tc := ⟨.hbm, 55, rfl⟩
abbrev main_while0b_call2_v5 : Ref sig .tc := ⟨.hbm, 56, rfl⟩
abbrev main_while0b_call2_v6 : Ref sig .tc := ⟨.hbm, 57, rfl⟩
abbrev main_while0b_call2_v7 : Ref sig .tc := ⟨.hbm, 58, rfl⟩
abbrev main_while0b_call2_v8 : Ref sig .tc := ⟨.hbm, 59, rfl⟩
abbrev main_while0b_call2_v9 : Ref sig .tc := ⟨.hbm, 60, rfl⟩
abbrev main_while0b_call2_v10 : Ref sig .tc := ⟨.hbm, 61, rfl⟩
abbrev main_while0b_v8_0 : Ref sig .tc := ⟨.hbm, 62, rfl⟩
abbrev main_while0b_call3_v0 : Ref sig .tc := ⟨.hbm, 63, rfl⟩
abbrev main_while0b_call3_c : Ref sig .tc := ⟨.hbm, 64, rfl⟩
abbrev main_while0b_call3_c_0 : Ref sig .tc := ⟨.hbm, 65, rfl⟩
abbrev main_while0b_v9 : Ref sig .tc := ⟨.hbm, 66, rfl⟩
abbrev main_while0b_c_8 : Ref sig .tc := ⟨.hbm, 67, rfl⟩
abbrev main_while0b_v10 : Ref sig .tc := ⟨.hbm, 68, rfl⟩
abbrev main_v6 : Ref sig .tc := ⟨.hbm, 69, rfl⟩

abbrev nD : Nat := 1
abbrev τ : Topo := Topo.v7x

variable {F : FTy → Type} [FloatOps F]

abbrev main_while0_count : Scf.Loop 32 := ⟨0#32, 512#32, 1#32⟩

class Facts₀ : Prop where
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S_S16x512x1 : S_.BroadcastsInDim S16x512x1 (![] : Fin 0 → Fin S16x512x1.rank)
  bcast_S1_S1x1x1_2 : S1.BroadcastsInDim S1x1x1 (![2] : Fin 1 → Fin S1x1x1.rank)
  bcast_S1x1x1_S16x512x1_0_1_2 : S1x1x1.BroadcastsInDim S16x512x1 (![0, 1, 2] : Fin 3 → Fin S16x512x1.rank)
  reducesTo_S16x512x1_S16x512_d2 : S16x512x1.ReducesTo [2] S16x512
  h_S_ : 0 < S_.numel
  bcast_S16x512_S16x512x128_0_1 : S16x512.BroadcastsInDim S16x512x128 (![0, 1] : Fin 2 → Fin S16x512x128.rank)
  bcast_S_S16x512x128 : S_.BroadcastsInDim S16x512x128 (![] : Fin 0 → Fin S16x512x128.rank)
  concatenates_S16x512x64_S16x512x128_S16x512x192_d2 : Shape.Concatenates [S16x512x64, S16x512x128] S16x512x192 2
  transposes_S16x512x192_S512x16x192_1_0_2 : S16x512x192.Transposes [1, 0, 2] S512x16x192
  bcast_S_S512x16x512 : S_.BroadcastsInDim S512x16x512 (![] : Fin 0 → Fin S512x16x512.rank)
  sliceFits_S512x16x192_S1x16x192 : S512x16x192.Slices (fun _ => 0) S1x16x192
  shapeCasts_S1x16x192_S16x192 : S1x16x192.ShapeCasts S16x192
  transposes_S512x192_S192x512_1_0 : S512x192.Transposes [1, 0] S192x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  transposes_S512x512_S512x512_1_0 : S512x512.Transposes [1, 0] S512x512
  bcast_S16x512_S1x16x512_1_2 : S16x512.BroadcastsInDim S1x16x512 (![1, 2] : Fin 2 → Fin S1x16x512.rank)
  updateFits_S512x16x512_S1x16x512 : S512x16x512.Slices (fun _ => 0) S1x16x512
  transposes_S512x16x512_S16x512x512_1_0_2 : S512x16x512.Transposes [1, 0, 2] S16x512x512
  gather_S1024x128_S16x512x1_S16x512x128_2_0_n_n_0_2_1128_wf : GatherDims.WF S1024x128 S16x512x1 S16x512x128 [2] [0] [] [0] [] 2 ![1, 128]
  dot_S16x192_S192x512_S16x512_1_0_0_1_n_n_wf : DotDims.WF S16x192 S192x512 S16x512 [1] [0] [0] [1] [] []
  dot_S16x512_S512x512_S16x512_1_0_0_1_n_n_wf : DotDims.WF S16x512 S512x512 S16x512 [1] [0] [0] [1] [] []
  main_while0_ok : main_while0_count.OK

variable [Facts₀]

def gather_S1024x128_S16x512x1_S16x512x128_2_0_n_n_0_2_1128 : GatherDims S1024x128 S16x512x1 S16x512x128 where
  offsetDims := [2]
  collapsedSliceDims := [0]
  operandBatchingDims := []
  startIndicesBatchingDims := []
  startIndexMap := [0]
  indexVectorDim := 2
  sliceSizes := ![1, 128]
  wf := gather_S1024x128_S16x512x1_S16x512x128_2_0_n_n_0_2_1128_wf
def dot_S16x192_S192x512_S16x512_1_0_0_1_n_n : DotDims S16x192 S192x512 S16x512 where
  lhsContracting := [1]
  rhsContracting := [0]
  lhsNonContracting := [0]
  rhsNonContracting := [1]
  lhsBatch := []
  rhsBatch := []
  wf := dot_S16x192_S192x512_S16x512_1_0_0_1_n_n_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf

class Facts : Prop extends Facts₀ where

variable [Facts]
-- ==== Proof.Ref.lean ====
/-
  The reference's frame and the idealization's ledger.
  The reference is a host program: an embedding lookup, a concatenation, and one counted loop of 512 trips, each
  trip one step of the recurrence h ← tanh(x_t·W_ihᵀ + b_ih + h·W_hhᵀ + b_hh). Its run — every weakly fair execution
  ends, the result at the step iterated 512 times from the loop's entry, every argument unchanged — is the imported
  run; the frame is that run with the result's value dropped.
  The ideal pass rewrote nothing in the kernel, so there is nothing to preserve: the idealized kernel is the
  kernel's own text read over the extended reals.
-/
import proofs.«213871_g15814069584205_fold_wed_c4_299_27_alg».proof.Defs
import proofs.«213871_g15814069584205_fold_wed_c4_299_27_alg».proof.Proof.RefRun

noncomputable section

namespace Cert.Proof.Ref

open Idealize.ShloMosaic Idealize.ShloMosaic.TcCoe Idealize.SL.Sem

/-- Every weakly fair execution of the reference ends, faults nowhere, and leaves its seven arguments as it found them. -/
theorem frame_ri [Cert.ReferenceIdeal.Facts] [Cert.Pre_input_domain.Facts] : Cert.frame_ReferenceIdeal := fun m ρ _ =>
  (θ_run Cert.ReferenceIdeal.defs _ _).mono (fun _ h c => (h c).2) (Cert.ReferenceIdeal.Value.run (F := Ideal) m ρ)

/-- The ledger of rewrites is empty. -/
theorem preserves : Cert.preserves_Kernel_KernelIdeal := trivial

end Cert.Proof.Ref

end
-- ==== Proof.Spec.lean ====
/-
  The function both programs compute, over the extended reals.
  With x_t[b] the 192 numbers actions[b, t, ·] followed by emb[state_indices[b, t], ·], the hidden state is
      h₀ = 0,   h_{t+1}[b, j] = tanh( Σ_k x_t[b, k]·W_ih[j, k] + b_ih[j] + b_hh[j] + Σ_k h_t[b, k]·W_hh[j, k] ),
  and the result is out[b, t, j] = h_{t+1}[b, j]. The first sum is written as its two stretches, the 64 action columns
  and the 128 embedding columns, because that is how either program meets it; every other grouping of these sums is equal
  to this one, addition of extended reals being commutative and associative (no product is moved across a sum).
  An index word is read modulo 1024 so that the function is total; under the precondition it is the word itself.
-/
import Idealize.ShloMosaic.PureOps.Ideal
import Idealize.ShloMosaic.Lib.ValueIdx

noncomputable section

namespace Cert.Proof.Spec

open Idealize.ShloMosaic Idealize.ShloMosaic.ValueIdx

abbrev SAct : Shape := ⟨3, ![16, 512, 64]⟩
abbrev SIdx : Shape := ⟨2, ![16, 512]⟩
abbrev SEmb : Shape := ⟨2, ![1024, 128]⟩
abbrev SWih : Shape := ⟨2, ![512, 192]⟩
abbrev SWhh : Shape := ⟨2, ![512, 512]⟩
abbrev SB : Shape := ⟨1, ![512]⟩
abbrev SOut : Shape := ⟨3, ![16, 512, 512]⟩

/-- The arguments: actions, state_indices, emb, W_ih, W_hh, b_ih, b_hh. -/
structure Args where
  act : SAct.Idx → EReal
  idx : SIdx.Idx → BitVec 32
  emb : SEmb.Idx → EReal
  wih : SWih.Idx → EReal
  whh : SWhh.Idx → EReal
  bih : SB.Idx → EReal
  bhh : SB.Idx → EReal

variable (a : Args)

/-- The table row that batch entry `b` looks up at time `t`. -/
def row (b : Fin 16) (t : Fin 512) : Fin 1024 := ⟨(a.idx (ix2 b t)).toNat % 1024, Nat.mod_lt _ (by decide)⟩

/-- The input's share of the pre-activation at time `t`: actions against the first 64 columns of W_ih, the looked-up
    embedding row against the other 128, and the two biases. It does not depend on the hidden state. -/
def proj (t : Fin 512) (b : Fin 16) (j : Fin 512) : EReal :=
  (∑ k : Fin 64, a.act (ix3 b t k) * a.wih (ix2 j (Fin.castLE (by decide) k)))
    + (∑ k : Fin 128, a.emb (ix2 (row a b t) k) * a.wih (ix2 j (Fin.natAdd 64 k)))
    + a.bih (ix1 j) + a.bhh (ix1 j)

/-- The hidden state's share: the state against row `j` of W_hh. -/
def rec (h : Fin 16 → Fin 512 → EReal) (b : Fin 16) (j : Fin 512) : EReal :=
  ∑ k : Fin 512, h b k * a.whh (ix2 j k)

/-- The hidden state before time step `t` (after `t` steps). -/
def hid : ℕ → Fin 16 → Fin 512 → EReal
  | 0 => fun _ _ => 0
  | t + 1 => fun b j => if ht : t < 512 then Ideal.tanh (proj a ⟨t, ht⟩ b j + rec a (hid t) b j) else hid t b j

theorem hid_succ (t : Fin 512) (b : Fin 16) (j : Fin 512) :
    hid a (t.val + 1) b j = Ideal.tanh (proj a t b j + rec a (hid a t.val) b j) := by
  show (if ht : t.val < 512 then _ else _) = _
  rw [dif_pos t.isLt]

/-- The result: at batch entry `b`, time `t`, the hidden state after step `t`. -/
def out : SOut.Idx → EReal := fun x => hid a ((x 1).val + 1) (x 0) (x 2)

end Cert.Proof.Spec

end
-- ==== Proof.RefTake.lean ====
/-
  The reference's input, as a function of the arguments and read at an index.
  The lookup emb[idx] is written with a wrap of negative index words (w + 1024 when w < 0), a range test
  0 ≤ w ≤ 1023 on the wrapped word, a gather that clamps its start index into [0, 1023], and a select that puts a
  fill value where the range test fails. When every index word is below 1024 (read unsigned) the word is nonnegative
  read signed, so the wrap leaves it, the range test holds everywhere, the clamp leaves it, and the fill is never
  selected: the lookup at (b, t, k) is emb[idx[b, t], k]. The loop's input is the concatenation of the actions
  and the lookup along the last axis, transposed to time-major: at (t, b, k) it is actions[b, t, k] for k < 64 and
  emb[idx[b, t], k - 64] for 64 ≤ k.
-/
import proofs.«213871_g15814069584205_fold_wed_c4_299_27_alg».proof.Proof.Gen.ReferenceIdeal
import Idealize.ShloMosaic.Lib.ValueIdx
import Idealize.ShloMosaic.Lib.ValueLayout
import Idealize.ShloMosaic.Lib.Pipeline.Value
import Idealize.ShloMosaic.Lib.ReduceAll
import Idealize.ShloMosaic.PureOps.Ideal.Laws

noncomputable section

namespace Cert.Proof.RefTake

open Idealize.ShloMosaic Idealize.ShloMosaic.ValueIdx
open Cert.ReferenceIdeal Cert.ReferenceIdeal.Gen

/-! ## The terms -/

/-- The index words after the wrap of negative words. -/
def wrapIdx (idx : IVec S16x512 32) : IVec S16x512 32 :=
  select (cmpi .slt idx (broadcastInDim S16x512 ![] bcast_S_S16x512 (constantI S_ 32 0#32)))
    (addi idx (broadcastInDim S16x512 ![] bcast_S_S16x512 (constantI S_ 32 1024#32))) idx

/-- The gather's start indices: the wrapped words with a trailing unit axis. -/
def startIdx (idx : IVec S16x512 32) : IVec S16x512x1 32 :=
  broadcastInDim S16x512x1 ![0, 1] bcast_S16x512_S16x512x1_0_1 (wrapIdx idx)

/-- The range test 0 ≤ w ≤ 1023 on the start indices, reduced over the unit axis. -/
def inRange (idx : IVec S16x512 32) : IVec S16x512 1 :=
  Host.reduce IntOp.andi
    (andi (cmpi .sge (startIdx idx) (broadcastInDim S16x512x1 ![] bcast_S_S16x512x1 (constantI S_ 32 0#32)))
      (cmpi .sle (startIdx idx) (broadcastInDim S16x512x1 ![0, 1, 2] bcast_S1x1x1_S16x512x1_0_1_2
        (broadcastInDim S1x1x1 ![2] bcast_S1_S1x1x1_2 (constantI S1 32 1023#32)))))
    (constantI S_ 1 1#1) reducesTo_S16x512x1_S16x512_d2 h_S_

/-- The lookup: the gathered rows where the range test holds, the fill elsewhere. -/
def takeV (idx : IVec S16x512 32) (emb : FVec Ideal S1024x128 .f32) : FVec Ideal S16x512x128 .f32 :=
  select (broadcastInDim S16x512x128 ![0, 1] bcast_S16x512_S16x512x128_0_1 (inRange idx))
    (Host.gather gather_S1024x128_S16x512x1_S16x512x128_2_0_n_n_0_2_1128 emb (startIdx idx))
    (broadcastInDim S16x512x128 ![] bcast_S_S16x512x128 (constant (F := Ideal) S_ .f32 0x7FC00000#32))

/-- The loop's input, time-major: actions and lookup side by side. -/
def xin (act : FVec Ideal S16x512x64 .f32) (idx : IVec S16x512 32) (emb : FVec Ideal S1024x128 .f32) :
    FVec Ideal S512x16x192 .f32 :=
  transpose S512x16x192 [1, 0, 2]
    (concatenate S16x512x192 2 [⟨S16x512x64, act⟩, ⟨S16x512x128, takeV idx emb⟩]
      concatenates_S16x512x64_S16x512x128_S16x512x192_d2)
    transposes_S16x512x192_S512x16x192_1_0_2

/-! ## A word below 1024 -/

theorem toInt_of_lt (w : BitVec 32) (h : w.toNat < 1024) : w.toInt = (w.toNat : Int) :=
  BitVec.toInt_eq_toNat_of_lt (by omega)

theorem slt_zero (w : BitVec 32) (h : w.toNat < 1024) : IntOp.cmpi .slt w 0#32 = 0#1 := by
  apply eq_zero_of_ne_one
  rw [IntOp.cmpi_slt, toInt_of_lt w h, show (0#32 : BitVec 32).toInt = 0 from by decide]
  omega

theorem sge_zero (w : BitVec 32) (h : w.toNat < 1024) : IntOp.cmpi .sge w 0#32 = 1#1 := by
  rw [IntOp.cmpi_sge, toInt_of_lt w h, show (0#32 : BitVec 32).toInt = 0 from by decide]
  omega

theorem sle_1023 (w : BitVec 32) (h : w.toNat < 1024) : IntOp.cmpi .sle w 1023#32 = 1#1 := by
  rw [IntOp.cmpi_sle, toInt_of_lt w h, show (1023#32 : BitVec 32).toInt = 1023 from by decide]
  omega

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-! ## The lookup read at an index -/

variable (idx : IVec S16x512 32) (hidx : ∀ x, (idx x).toNat < 1024)
include hidx

theorem wrapIdx_eq : wrapIdx idx = idx := by
  funext x
  show Scalar.select (IntOp.cmpi .slt (idx x) 0#32) _ (idx x) = idx x
  rw [slt_zero _ (hidx x), select_zero]

theorem startIdx_apply (i : S16x512x1.Idx) : startIdx idx i = idx (ix2 (i 0) (i 1)) := by
  unfold startIdx
  rw [wrapIdx_eq idx hidx]
  exact broadcastInDim_apply _ _ _ _ _ fun a => by fin_cases a <;> rfl

theorem inRange_apply (y : S16x512.Idx) : inRange idx y = 1#1 := by
  unfold inRange
  rw [Host.reduce_eq_foldl]
  refine foldl_andi_one _ (fun i => ?_) _
  show IntOp.andi (IntOp.cmpi .sge (startIdx idx i) 0#32) (IntOp.cmpi .sle (startIdx idx i) 1023#32) = 1#1
  rw [startIdx_apply idx hidx, sge_zero _ (hidx _), sle_1023 _ (hidx _)]
  decide

/-- The gather at (b, t, k): row idx[b, t] of the table, column k. Axis 0 of the table is collapsed and takes the
    clamped start index, which is the word itself; axis 1 takes the result's offset coordinate k. -/
theorem gather_apply (emb : FVec Ideal S1024x128 .f32) (b : Fin 16) (t : Fin 512) (k : Fin 128) :
    Host.gather gather_S1024x128_S16x512x1_S16x512x128_2_0_n_n_0_2_1128 emb (startIdx idx) (ix3 b t k)
      = emb (ix2 ⟨(idx (ix2 b t)).toNat, hidx _⟩ k) := by
  unfold Host.gather
  congr 1
  funext a
  refine Fin.ext ?_
  show gather_S1024x128_S16x512x1_S16x512x128_2_0_n_n_0_2_1128.start (ix3 b t k) (startIdx idx) a
    + gather_S1024x128_S16x512x1_S16x512x128_2_0_n_n_0_2_1128.batchCoord (ix3 b t k) a
    + gather_S1024x128_S16x512x1_S16x512x128_2_0_n_n_0_2_1128.offCoord (ix3 b t k) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin S1024x128.rank) ∈
      gather_S1024x128_S16x512x1_S16x512x128_2_0_n_n_0_2_1128.startIndexMap from List.mem_singleton.mpr rfl)]
    rw [startIdx_apply idx hidx]
    show min (idx (ix2 b t)).toInt.toNat 1023 = (idx (ix2 b t)).toNat
    have := hidx (ix2 b t)
    rw [toInt_of_lt _ this, Int.toNat_natCast]
    omega
  | ⟨1, _⟩ =>
    unfold GatherDims.start
    rw [dif_neg (show ¬ ((⟨1, by decide⟩ : Fin S1024x128.rank) ∈
      gather_S1024x128_S16x512x1_S16x512x128_2_0_n_n_0_2_1128.startIndexMap) from by decide), Nat.zero_add]
    unfold GatherDims.offCoord
    rw [dif_pos ((GatherDims.mem_sKept _ _).2
      ⟨fun h => absurd (congrArg Fin.val (List.mem_singleton.1 h)) (by decide : ¬ (1 : ℕ) = 0), List.not_mem_nil⟩)]
    rfl

/-- The lookup at (b, t, k) is the table's row idx[b, t] at column k. -/
theorem takeV_apply (emb : FVec Ideal S1024x128 .f32) (b : Fin 16) (t : Fin 512) (k : Fin 128) :
    takeV idx emb (ix3 b t k) = emb (ix2 ⟨(idx (ix2 b t)).toNat, hidx _⟩ k) := by
  have h1 : broadcastInDim S16x512x128 ![0, 1] bcast_S16x512_S16x512x128_0_1 (inRange idx) (ix3 b t k) = 1#1 := by
    unfold broadcastInDim
    exact inRange_apply idx hidx _
  show Scalar.select (broadcastInDim S16x512x128 ![0, 1] bcast_S16x512_S16x512x128_0_1 (inRange idx) (ix3 b t k))
    (Host.gather gather_S1024x128_S16x512x1_S16x512x128_2_0_n_n_0_2_1128 emb (startIdx idx) (ix3 b t k)) _ = _
  rw [h1, select_one, gather_apply idx hidx]

omit hidx in
/-- The loop's input at (t, b, k), k among the first 64 columns: the action. -/
theorem xin_act (act : FVec Ideal S16x512x64 .f32) (emb : FVec Ideal S1024x128 .f32) (t : Fin 512) (b : Fin 16) (k : Fin 64) :
    xin act idx emb (ix3 t b (Fin.castLE (by decide) k)) = act (ix3 b t k) := by
  unfold xin
  rw [transpose_apply _ _ _ _ (ix3 b t (Fin.castLE (by decide) k))
    fun c => match c with | ⟨0, _⟩ => rfl | ⟨1, _⟩ => rfl | ⟨2, _⟩ => rfl]
  exact concatenate_pair_apply_left (t := S16x512x192) (s₁ := S16x512x64) (s₂ := S16x512x128) 2 act (takeV idx emb)
    concatenates_S16x512x64_S16x512x128_S16x512x192_d2 (ix3 b t (Fin.castLE (by decide) k)) rfl (ix3 b t k)
    fun c => match c with | ⟨0, _⟩ => rfl | ⟨1, _⟩ => rfl | ⟨2, _⟩ => rfl

/-- The loop's input at (t, b, 64 + k): the table's row idx[b, t] at column k. -/
theorem xin_emb (act : FVec Ideal S16x512x64 .f32) (emb : FVec Ideal S1024x128 .f32) (t : Fin 512) (b : Fin 16) (k : Fin 128) :
    xin act idx emb (ix3 t b (Fin.natAdd 64 k)) = emb (ix2 ⟨(idx (ix2 b t)).toNat, hidx _⟩ k) := by
  unfold xin
  rw [transpose_apply _ _ _ _ (ix3 b t (Fin.natAdd 64 k))
    fun c => match c with | ⟨0, _⟩ => rfl | ⟨1, _⟩ => rfl | ⟨2, _⟩ => rfl]
  rw [concatenate_pair_apply_right (t := S16x512x192) (s₁ := S16x512x64) (s₂ := S16x512x128) 2 act (takeV idx emb)
    concatenates_S16x512x64_S16x512x128_S16x512x192_d2 (ix3 b t (Fin.natAdd 64 k)) rfl rfl (ix3 b t k)
    (fun c => match c with | ⟨0, _⟩ => fun _ => rfl | ⟨1, _⟩ => fun _ => rfl | ⟨2, _⟩ => fun h => absurd rfl h)
    (by show k.val + 64 = 64 + k.val; omega)]
  exact takeV_apply idx hidx emb b t k

end Cert.Proof.RefTake

end
-- ==== Proof.RefStep.lean ====
/-
  One trip of the reference's loop, as functions of the carried arrays and read at an index.
  With the counter at n < 512 the trip slices row n of the time-major input x (the slice's start is clamped into the
  array, and n is inside), and makes the new hidden state
      h'[b, j] = tanh( ((Σ_k x[n, b, k]·W_ih[j, k] + b_ih[j]) + Σ_k h[b, k]·W_hh[j, k]) + b_hh[j] ),
  each dot_general with one contracted axis being a plain sum over that axis at the extended reals, the transposes of
  the weights only renaming the index. The output buffer takes h' as its row n and keeps its other rows.
-/
import proofs.«213871_g15814069584205_fold_wed_c4_299_27_alg».proof.Proof.Gen.ReferenceIdeal
import Idealize.ShloMosaic.Lib.ValueIdx
import Idealize.ShloMosaic.Lib.ValueLayout
import Idealize.ShloMosaic.Lib.Pipeline.Value
import Idealize.ShloMosaic.Lib.DynamicIndex
import Idealize.ShloMosaic.PureOps.Ideal.Laws

noncomputable section

namespace Cert.Proof.RefStep

open Idealize.ShloMosaic Idealize.ShloMosaic.ValueIdx
open Cert.ReferenceIdeal Cert.ReferenceIdeal.Gen

/-! ## The terms -/

/-- The start indices of the trip's slice and update: the counter on the time axis, 0 on the others. -/
def startAt (ctr : IVec S_ 32) : Fin 3 → Int :=
  fun k => ((![ctr, constantI S_ 32 0#32, constantI S_ 32 0#32] : Fin 3 → IVec S_ 32) k (Shape.Idx.first h_S_)).toInt

/-- Row `ctr` of the time-major input, as a 16 × 192 array. -/
def rowV (x : FVec Ideal S512x16x192 .f32) (ctr : IVec S_ 32) : FVec Ideal S16x192 .f32 :=
  shapeCast S16x192 (Host.dynamicSlice S1x16x192 x (startAt ctr) sliceFits_S512x16x192_S1x16x192) shapeCasts_S1x16x192_S16x192

/-- A bias broadcast over the batch. -/
def biasV (v : FVec Ideal S512 .f32) : FVec Ideal S16x512 .f32 :=
  broadcastInDim S16x512 ![0, 1] bcast_S1x512_S16x512_0_1 (broadcastInDim S1x512 ![1] bcast_S512_S1x512_1 v)

/-- One trip's new hidden state. -/
def stepV (x : FVec Ideal S512x16x192 .f32) (ctr : IVec S_ 32) (wih : FVec Ideal S512x192 .f32) (bih : FVec Ideal S512 .f32)
    (whh : FVec Ideal S512x512 .f32) (bhh : FVec Ideal S512 .f32) (h : FVec Ideal S16x512 .f32) : FVec Ideal S16x512 .f32 :=
  Host.tanh (addf (addf (addf
    (Host.dotGeneral dot_S16x192_S192x512_S16x512_1_0_0_1_n_n none (rowV x ctr)
      (transpose S192x512 [1, 0] wih transposes_S512x192_S192x512_1_0))
    (biasV bih))
    (Host.dotGeneral dot_S16x512_S512x512_S16x512_1_0_0_1_n_n none h
      (transpose S512x512 [1, 0] whh transposes_S512x512_S512x512_1_0)))
    (biasV bhh))

/-- One trip's new output buffer: the new hidden state written as the counter's row. -/
def outV (o : FVec Ideal S512x16x512 .f32) (r : FVec Ideal S16x512 .f32) (ctr : IVec S_ 32) : FVec Ideal S512x16x512 .f32 :=
  Host.dynamicUpdateSlice o (broadcastInDim S1x16x512 ![1, 2] bcast_S16x512_S1x16x512_1_2 r) (startAt ctr)
    updateFits_S512x16x512_S1x16x512

/-! ## The counter at a number -/

/-- The offsets (n, 0, 0). -/
def offAt (n : Nat) : Fin 3 → Nat := fun a => match a with | ⟨0, _⟩ => n | ⟨1, _⟩ => 0 | ⟨2, _⟩ => 0

theorem startAt_eq (n : Nat) (hn : n < 512) (a : Fin 3) : startAt (fun _ => BitVec.ofNat 32 n) a = (offAt n a : Int) :=
  match a with
  | ⟨0, _⟩ => toInt_ofNat_of_lt (by omega)
  | ⟨1, _⟩ => show (0#32 : BitVec 32).toInt = ((0 : Nat) : Int) from by decide
  | ⟨2, _⟩ => show (0#32 : BitVec 32).toInt = ((0 : Nat) : Int) from by decide

theorem slices_in (n : Nat) (hn : n < 512) : S512x16x192.Slices (offAt n) S1x16x192 :=
  ⟨sliceFits_S512x16x192_S1x16x192.1, fun a => match a with
    | ⟨0, _⟩ => by show n + 1 ≤ 512; omega
    | ⟨1, _⟩ => by show 0 + 16 ≤ 16; omega
    | ⟨2, _⟩ => by show 0 + 192 ≤ 192; omega⟩

theorem slices_out (n : Nat) (hn : n < 512) : S512x16x512.Slices (offAt n) S1x16x512 :=
  ⟨updateFits_S512x16x512_S1x16x512.1, fun a => match a with
    | ⟨0, _⟩ => by show n + 1 ≤ 512; omega
    | ⟨1, _⟩ => by show 0 + 16 ≤ 16; omega
    | ⟨2, _⟩ => by show 0 + 512 ≤ 512; omega⟩

/-! ## The pieces read at an index -/

/-- The sliced row at (b, k) is the input at (n, b, k). -/
theorem rowV_apply (x : FVec Ideal S512x16x192 .f32) (n : Nat) (hn : n < 512) (b : Fin 16) (k : Fin 192) :
    rowV x (fun _ => BitVec.ofNat 32 n) (ix2 b k) = x (ix3 ⟨n, hn⟩ b k) := by
  unfold rowV
  rw [shapeCast_1ab_ab_apply,
    Host.dynamicSlice_eq_extractStridedSlice S1x16x192 x _ (offAt n) sliceFits_S512x16x192_S1x16x192 (slices_in n hn)
      (startAt_eq n hn)]
  unfold extractStridedSlice
  refine congrArg x (funext fun a => Fin.ext ?_)
  match a with
  | ⟨0, _⟩ => show n + 0 = n; omega
  | ⟨1, _⟩ => show 0 + b.val = b.val; omega
  | ⟨2, _⟩ => show 0 + k.val = k.val; omega

/-- A bias broadcast over the batch, at (b, j), is the bias at j. -/
theorem biasV_apply (v : FVec Ideal S512 .f32) (b : Fin 16) (j : Fin 512) : biasV v (ix2 b j) = v (ix1 j) := by
  unfold biasV
  rw [broadcastInDim_apply _ _ _ (ix2 b j) (ix2 (0 : Fin 1) j) fun a => by fin_cases a <;> rfl,
    broadcastInDim_apply _ _ _ (ix2 (0 : Fin 1) j) (ix1 j) fun a => by fin_cases a; rfl]

/-- The input's dot_general at (b, j): the sum over the 192 columns. -/
theorem dot192_apply (l : FVec Ideal S16x192 .f32) (r : FVec Ideal S192x512 .f32) (b : Fin 16) (j : Fin 512) :
    Host.dotGeneral dot_S16x192_S192x512_S16x512_1_0_0_1_n_n none l r (ix2 b j) = ∑ k : Fin 192, l (ix2 b k) * r (ix2 k j) := by
  simp only [Host.dotGeneral]
  rw [Ideal.dotGeneral_apply, ← Equiv.sum_comp (contrEquiv1 dot_S16x192_S192x512_S16x512_1_0_0_1_n_n 192 rfl rfl).symm]
  refine Finset.sum_congr rfl fun k _ => ?_
  have hl : dot_S16x192_S192x512_S16x512_1_0_0_1_n_n.lhsIdx (ix2 b j)
      ((contrEquiv1 dot_S16x192_S192x512_S16x512_1_0_0_1_n_n 192 rfl rfl).symm k) = ix2 b k := by
    funext a; refine Fin.ext ?_
    match a with
    | ⟨0, _⟩ => rfl
    | ⟨1, _⟩ =>
      exact (DotDims.lhsIdx_val_of_single _ (cl := ⟨1, by decide⟩) rfl _ _).trans (contrEquiv1_symm_val _ 192 rfl rfl k)
  have hr : dot_S16x192_S192x512_S16x512_1_0_0_1_n_n.rhsIdx (ix2 b j)
      ((contrEquiv1 dot_S16x192_S192x512_S16x512_1_0_0_1_n_n 192 rfl rfl).symm k) = ix2 k j := by
    funext a; refine Fin.ext ?_
    match a with
    | ⟨0, _⟩ =>
      exact (DotDims.rhsIdx_val_of_single _ (cr := ⟨0, by decide⟩) rfl _ _).trans (contrEquiv1_symm_val _ 192 rfl rfl k)
    | ⟨1, _⟩ => rfl
  rw [hl, hr]

/-- The hidden state's dot_general at (b, j): the sum over the 512 columns. -/
theorem dot512_apply (l : FVec Ideal S16x512 .f32) (r : FVec Ideal S512x512 .f32) (b : Fin 16) (j : Fin 512) :
    Host.dotGeneral dot_S16x512_S512x512_S16x512_1_0_0_1_n_n none l r (ix2 b j) = ∑ k : Fin 512, l (ix2 b k) * r (ix2 k j) := by
  simp only [Host.dotGeneral]
  rw [Ideal.dotGeneral_apply, ← Equiv.sum_comp (contrEquiv1 dot_S16x512_S512x512_S16x512_1_0_0_1_n_n 512 rfl rfl).symm]
  refine Finset.sum_congr rfl fun k _ => ?_
  have hl : dot_S16x512_S512x512_S16x512_1_0_0_1_n_n.lhsIdx (ix2 b j)
      ((contrEquiv1 dot_S16x512_S512x512_S16x512_1_0_0_1_n_n 512 rfl rfl).symm k) = ix2 b k := by
    funext a; refine Fin.ext ?_
    match a with
    | ⟨0, _⟩ => rfl
    | ⟨1, _⟩ =>
      exact (DotDims.lhsIdx_val_of_single _ (cl := ⟨1, by decide⟩) rfl _ _).trans (contrEquiv1_symm_val _ 512 rfl rfl k)
  have hr : dot_S16x512_S512x512_S16x512_1_0_0_1_n_n.rhsIdx (ix2 b j)
      ((contrEquiv1 dot_S16x512_S512x512_S16x512_1_0_0_1_n_n 512 rfl rfl).symm k) = ix2 k j := by
    funext a; refine Fin.ext ?_
    match a with
    | ⟨0, _⟩ =>
      exact (DotDims.rhsIdx_val_of_single _ (cr := ⟨0, by decide⟩) rfl _ _).trans (contrEquiv1_symm_val _ 512 rfl rfl k)
    | ⟨1, _⟩ => rfl
  rw [hl, hr]

/-- ONE TRIP'S HIDDEN STATE at (b, j), the counter at n. -/
theorem stepV_apply (x : FVec Ideal S512x16x192 .f32) (n : Nat) (hn : n < 512) (wih : FVec Ideal S512x192 .f32)
    (bih : FVec Ideal S512 .f32) (whh : FVec Ideal S512x512 .f32) (bhh : FVec Ideal S512 .f32) (h : FVec Ideal S16x512 .f32)
    (b : Fin 16) (j : Fin 512) :
    stepV x (fun _ => BitVec.ofNat 32 n) wih bih whh bhh h (ix2 b j)
      = Ideal.tanh ((∑ k : Fin 192, x (ix3 ⟨n, hn⟩ b k) * wih (ix2 j k)) + bih (ix1 j)
          + (∑ k : Fin 512, h (ix2 b k) * whh (ix2 j k)) + bhh (ix1 j)) := by
  unfold stepV
  rw [show ∀ v : FVec Ideal S16x512 .f32, Host.tanh v (ix2 b j) = Ideal.tanh (v (ix2 b j)) from fun _ => rfl,
    addf_apply, addf_apply, addf_apply, dot192_apply, dot512_apply, biasV_apply, biasV_apply]
  have e1 : ∀ k : Fin 192, transpose S192x512 [1, 0] wih transposes_S512x192_S192x512_1_0 (ix2 k j) = wih (ix2 j k) :=
    fun k => transpose_ix2_apply wih _ k j
  have e2 : ∀ k : Fin 512, transpose S512x512 [1, 0] whh transposes_S512x512_S512x512_1_0 (ix2 k j) = whh (ix2 j k) :=
    fun k => transpose_ix2_apply whh _ k j
  simp only [rowV_apply x n hn, e1, e2]

theorem clamp_out (n : Nat) (hn : n < 512) (a : Fin 3) :
    (min (max (startAt (fun _ => BitVec.ofNat 32 n) a) 0)
      ((S512x16x512.size a - S1x16x512.size (a.cast updateFits_S512x16x512_S1x16x512.1.symm) : Nat) : Int)).toNat = offAt n a := by
  have := (slices_out n hn).2 a
  rw [startAt_eq n hn a]
  omega

/-- The new output buffer at row n is the new hidden state. -/
theorem outV_apply_eq (o : FVec Ideal S512x16x512 .f32) (r : FVec Ideal S16x512 .f32) (n : Nat) (hn : n < 512)
    (b : Fin 16) (j : Fin 512) : outV o r (fun _ => BitVec.ofNat 32 n) (ix3 ⟨n, hn⟩ b j) = r (ix2 b j) := by
  unfold outV
  rw [Host.dynamicUpdateSlice_eq_updateSlice o _ _ updateFits_S512x16x512_S1x16x512 (offAt n) (clamp_out n hn) (slices_out n hn)]
  unfold updateSlice
  rw [dif_pos (fun a => match a with
    | ⟨0, _⟩ => (show n ≤ n ∧ n < n + 1 from ⟨Nat.le_refl _, Nat.lt_succ_self _⟩)
    | ⟨1, _⟩ => (show 0 ≤ b.val ∧ b.val < 0 + 16 from ⟨Nat.zero_le _, by have := b.isLt; omega⟩)
    | ⟨2, _⟩ => (show 0 ≤ j.val ∧ j.val < 0 + 512 from ⟨Nat.zero_le _, by have := j.isLt; omega⟩))]
  exact broadcastInDim_apply _ _ _ _ (ix2 b j) fun a => match a with
    | ⟨0, _⟩ => rfl
    | ⟨1, _⟩ => rfl

/-- The new output buffer at another row is the old one. -/
theorem outV_apply_ne (o : FVec Ideal S512x16x512 .f32) (r : FVec Ideal S16x512 .f32) (n : Nat) (hn : n < 512)
    (t : Fin 512) (ht : t.val ≠ n) (b : Fin 16) (j : Fin 512) :
    outV o r (fun _ => BitVec.ofNat 32 n) (ix3 t b j) = o (ix3 t b j) := by
  unfold outV
  rw [Host.dynamicUpdateSlice_eq_updateSlice o _ _ updateFits_S512x16x512_S1x16x512 (offAt n) (clamp_out n hn) (slices_out n hn)]
  unfold updateSlice
  rw [dif_neg fun hin => ht (by
    have h0 := hin ⟨0, Nat.succ_pos 2⟩
    have h1 : n ≤ t.val ∧ t.val < n + 1 := h0
    omega)]

end Cert.Proof.RefStep

end
-- ==== Proof.RefEntry.lean ====
/-
  The carried arrays at the loop's entry, as functions of the arguments: the time-major input (actions and the
  looked-up embedding rows side by side), the weights and biases as given, the counter 0, the hidden state and the
  output buffer both zero.
-/
import proofs.«213871_g15814069584205_fold_wed_c4_299_27_alg».proof.Proof.RefRun
import proofs.«213871_g15814069584205_fold_wed_c4_299_27_alg».proof.Proof.RefTake

noncomputable section

namespace Cert.Proof.RefEntry

open Cert.ReferenceIdeal Cert.ReferenceIdeal.Gen Cert.ReferenceIdeal.Value
open Idealize.ShloMosaic Idealize.ShloMosaic.TcCoe Idealize.ShloMosaic.Tactic
open Idealize.SL Idealize.SL.Sem
open Idealize.ShloMosaic.StableHlo

variable (m : (ℓ : Loc nD τ sig) → Buf (Elt Ideal) ℓ) (c : Dev nD)

set_option maxRecDepth 100000 in
set_option maxHeartbeats 4000000 in
/-- The input: actions and lookup side by side, time-major. -/
theorem entry_v5_0 : entryContents (preI (F := Ideal)) m c (Proc.devRef .tc main_v5_0)
    = RefTake.xin (m ((c.tc : Thread nD τ).loc main_arg0)) (m ((c.tc : Thread nD τ).loc main_arg1))
        (m ((c.tc : Thread nD τ).loc main_arg2)) := by
  simp only [entryContents, afterL_cons, afterL_nil]
  after_results
  rfl

set_option maxRecDepth 100000 in
theorem entry_v5_1 : entryContents (preI (F := Ideal)) m c (Proc.devRef .tc main_v5_1) = m ((c.tc : Thread nD τ).loc main_arg3) := by
  simp only [entryContents, afterL_cons, afterL_nil]
  after_results
  rfl

set_option maxRecDepth 100000 in
theorem entry_v5_2 : entryContents (preI (F := Ideal)) m c (Proc.devRef .tc main_v5_2) = m ((c.tc : Thread nD τ).loc main_arg5) := by
  simp only [entryContents, afterL_cons, afterL_nil]
  after_results
  rfl

set_option maxRecDepth 100000 in
theorem entry_v5_3 : entryContents (preI (F := Ideal)) m c (Proc.devRef .tc main_v5_3) = m ((c.tc : Thread nD τ).loc main_arg4) := by
  simp only [entryContents, afterL_cons, afterL_nil]
  after_results
  rfl

set_option maxRecDepth 100000 in
theorem entry_v5_4 : entryContents (preI (F := Ideal)) m c (Proc.devRef .tc main_v5_4) = m ((c.tc : Thread nD τ).loc main_arg6) := by
  simp only [entryContents, afterL_cons, afterL_nil]
  after_results
  rfl

/-- The counter starts at 0. -/
theorem entry_v5_5 : entryContents (preI (F := Ideal)) m c (Proc.devRef .tc main_v5_5) = fun _ => BitVec.ofNat 32 0 :=
  ctr_entry m c

set_option maxRecDepth 100000 in
/-- The hidden state starts at zero. -/
theorem entry_v5_6 : entryContents (preI (F := Ideal)) m c (Proc.devRef .tc main_v5_6)
    = broadcastInDim S16x512 ![] bcast_S_S16x512 (constant (F := Ideal) S_ .f32 0x00000000#32) := by
  simp only [entryContents, afterL_cons, afterL_nil]
  after_results
  rfl

set_option maxRecDepth 100000 in
/-- The output buffer starts at zero. -/
theorem entry_v5_7 : entryContents (preI (F := Ideal)) m c (Proc.devRef .tc main_v5_7)
    = broadcastInDim S512x16x512 ![] bcast_S_S512x16x512 (constant (F := Ideal) S_ .f32 0x00000000#32) := by
  simp only [entryContents, afterL_cons, afterL_nil]
  after_results
  rfl

end Cert.Proof.RefEntry

end
-- ==== Proof.RefValue.lean ====
/-
  The reference computes the specification. At the loop's entry the carried arrays are functions of the arguments
  (the time-major input x[t, b, ·] = actions[b, t, ·] followed by emb[idx[b, t], ·]; the weights and biases; the counter 0;
  the hidden state and the output buffer zero). By induction on the number k ≤ 512 of trips run: the counter is k, the
  hidden state is the specification's state after k steps, and rows t < k of the output buffer hold the state after
  t + 1 steps. One trip: the pre-activation is
      ((Σ_{k<192} x[n, b, k]·W_ih[j, k] + b_ih[j]) + Σ_k h[b, k]·W_hh[j, k]) + b_hh[j],
  its first sum splits at column 64 into the actions' and the embedding's stretches, and moving b_hh before the
  hidden state's sum is commutativity and associativity of addition of extended reals (no product is moved across
  a sum). The result is the output buffer after 512 trips, transposed from time-major to batch-major.
-/
import proofs.«213871_g15814069584205_fold_wed_c4_299_27_alg».proof.Proof.RefRun
import proofs.«213871_g15814069584205_fold_wed_c4_299_27_alg».proof.Proof.Spec
import proofs.«213871_g15814069584205_fold_wed_c4_299_27_alg».proof.Proof.RefTake
import proofs.«213871_g15814069584205_fold_wed_c4_299_27_alg».proof.Proof.RefStep
import proofs.«213871_g15814069584205_fold_wed_c4_299_27_alg».proof.Proof.RefEntry

noncomputable section

namespace Cert.Proof.RefValue

open Cert.ReferenceIdeal Cert.ReferenceIdeal.Gen Cert.ReferenceIdeal.Value
open Idealize.ShloMosaic Idealize.ShloMosaic.TcCoe Idealize.ShloMosaic.ValueIdx
open Idealize.SL Idealize.SL.Sem
open Idealize.ShloMosaic.StableHlo
open Cert.Proof

variable (m : (ℓ : Loc nD τ sig) → Buf (Elt Ideal) ℓ) (c : Dev nD)

/-- The specification's arguments, read off the launch memory. -/
def argsR : Spec.Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6)⟩

/-! ## One trip, as the pure functions -/

theorem res_eq (V0 : Valuation τ sig (Elt Ideal)) : res_main_while0b_v8_0 V0
    = RefStep.stepV (V0 (Proc.devRef .tc main_v5_0)) (V0 (Proc.devRef .tc main_v5_5)) (V0 (Proc.devRef .tc main_v5_1))
        (V0 (Proc.devRef .tc main_v5_2)) (V0 (Proc.devRef .tc main_v5_3)) (V0 (Proc.devRef .tc main_v5_4))
        (V0 (Proc.devRef .tc main_v5_6)) := rfl

theorem step7_eq (V0 : Valuation τ sig (Elt Ideal)) : step_main_v5_7 V0
    = RefStep.outV (V0 (Proc.devRef .tc main_v5_7)) (res_main_while0b_v8_0 V0) (V0 (Proc.devRef .tc main_v5_5)) := rfl

/-! ## The buffers a trip leaves, and the counter -/

theorem iter_v5_0 : ∀ k, ((STEP (F := Ideal))^[k] (entryContents preI m c)) (Proc.devRef .tc main_v5_0)
    = entryContents preI m c (Proc.devRef .tc main_v5_0)
  | 0 => rfl
  | k + 1 => by rw [Function.iterate_succ_apply', STEP_main_v5_0]; exact iter_v5_0 k
theorem iter_v5_1 : ∀ k, ((STEP (F := Ideal))^[k] (entryContents preI m c)) (Proc.devRef .tc main_v5_1)
    = entryContents preI m c (Proc.devRef .tc main_v5_1)
  | 0 => rfl
  | k + 1 => by rw [Function.iterate_succ_apply', STEP_main_v5_1]; exact iter_v5_1 k
theorem iter_v5_2 : ∀ k, ((STEP (F := Ideal))^[k] (entryContents preI m c)) (Proc.devRef .tc main_v5_2)
    = entryContents preI m c (Proc.devRef .tc main_v5_2)
  | 0 => rfl
  | k + 1 => by rw [Function.iterate_succ_apply', STEP_main_v5_2]; exact iter_v5_2 k
theorem iter_v5_3 : ∀ k, ((STEP (F := Ideal))^[k] (entryContents preI m c)) (Proc.devRef .tc main_v5_3)
    = entryContents preI m c (Proc.devRef .tc main_v5_3)
  | 0 => rfl
  | k + 1 => by rw [Function.iterate_succ_apply', STEP_main_v5_3]; exact iter_v5_3 k
theorem iter_v5_4 : ∀ k, ((STEP (F := Ideal))^[k] (entryContents preI m c)) (Proc.devRef .tc main_v5_4)
    = entryContents preI m c (Proc.devRef .tc main_v5_4)
  | 0 => rfl
  | k + 1 => by rw [Function.iterate_succ_apply', STEP_main_v5_4]; exact iter_v5_4 k

/-- After k trips the counter is k. -/
theorem iter_ctr : ∀ k, ((STEP (F := Ideal))^[k] (entryContents preI m c)) (Proc.devRef .tc main_v5_5)
    = fun _ => BitVec.ofNat 32 k
  | 0 => RefEntry.entry_v5_5 m c
  | k + 1 => by
    rw [Function.iterate_succ_apply', STEP_main_v5_5]
    unfold step_main_v5_5
    rw [iter_ctr k]
    funext i
    show BitVec.ofNat 32 k + BitVec.ofNat 32 1 = BitVec.ofNat 32 (k + 1)
    rw [BitVec.ofNat_add]

/-! ## One step against the specification -/

/-- With the hidden state the specification's after k steps, one trip at counter k makes the state after k + 1. -/
theorem step_hid (hidx : ∀ x, ((argsR m c).idx x).toNat < 1024) (k : Nat) (hk : k < 512) (h : FVec Ideal S16x512 .f32)
    (hh : ∀ b j, h (ix2 b j) = Spec.hid (argsR m c) k b j) (b : Fin 16) (j : Fin 512) :
    RefStep.stepV (RefTake.xin (argsR m c).act (argsR m c).idx (argsR m c).emb) (fun _ => BitVec.ofNat 32 k)
      (argsR m c).wih (argsR m c).bih (argsR m c).whh (argsR m c).bhh h (ix2 b j) = Spec.hid (argsR m c) (k + 1) b j := by
  refine Eq.trans ?_ (Spec.hid_succ (argsR m c) ⟨k, hk⟩ b j).symm
  rw [RefStep.stepV_apply _ k hk]
  congr 1
  unfold Spec.proj Spec.rec
  have hx : (∑ kk : Fin 192, RefTake.xin (argsR m c).act (argsR m c).idx (argsR m c).emb (ix3 ⟨k, hk⟩ b kk)
        * (argsR m c).wih (ix2 j kk))
      = (∑ kk : Fin 64, (argsR m c).act (ix3 b ⟨k, hk⟩ kk) * (argsR m c).wih (ix2 j (Fin.castLE (by decide) kk)))
        + ∑ kk : Fin 128, (argsR m c).emb (ix2 (Spec.row (argsR m c) b ⟨k, hk⟩) kk)
            * (argsR m c).wih (ix2 j (Fin.natAdd 64 kk)) := by
    rw [show (∑ kk : Fin 192, RefTake.xin (argsR m c).act (argsR m c).idx (argsR m c).emb (ix3 ⟨k, hk⟩ b kk)
          * (argsR m c).wih (ix2 j kk))
        = ∑ kk : Fin (64 + 128), RefTake.xin (argsR m c).act (argsR m c).idx (argsR m c).emb (ix3 ⟨k, hk⟩ b kk)
          * (argsR m c).wih (ix2 j kk) from rfl, Fin.sum_univ_add]
    congr 1
    · refine Finset.sum_congr rfl fun kk _ => ?_
      rw [← RefTake.xin_act (argsR m c).idx (argsR m c).act (argsR m c).emb ⟨k, hk⟩ b kk]
      rfl
    · refine Finset.sum_congr rfl fun kk _ => ?_
      rw [RefTake.xin_emb (argsR m c).idx hidx (argsR m c).act (argsR m c).emb ⟨k, hk⟩ b kk]
      have hrow : (⟨((argsR m c).idx (ix2 b ⟨k, hk⟩)).toNat, hidx _⟩ : Fin 1024) = Spec.row (argsR m c) b ⟨k, hk⟩ :=
        Fin.ext (Nat.mod_eq_of_lt (hidx _)).symm
      rw [hrow]
  have hr : (∑ kk : Fin 512, h (ix2 b kk) * (argsR m c).whh (ix2 j kk))
      = ∑ kk : Fin 512, Spec.hid (argsR m c) k b kk * (argsR m c).whh (ix2 j kk) :=
    Finset.sum_congr rfl fun kk _ => by rw [hh b kk]
  rw [hx, hr]
  exact add_right_comm _ _ _

/-! ## The invariant -/

/-- After k ≤ 512 trips: the hidden state is the specification's after k steps, and row t < k of the output buffer
    holds the state after t + 1 steps. -/
theorem inv (hidx : ∀ x, ((argsR m c).idx x).toNat < 1024) : ∀ k, k ≤ 512 →
    (∀ (b : Fin 16) (j : Fin 512), ((STEP (F := Ideal))^[k] (entryContents preI m c)) (Proc.devRef .tc main_v5_6) (ix2 b j)
        = Spec.hid (argsR m c) k b j)
    ∧ (∀ (t : Fin 512) (b : Fin 16) (j : Fin 512), t.val < k →
        ((STEP (F := Ideal))^[k] (entryContents preI m c)) (Proc.devRef .tc main_v5_7) (ix3 t b j)
          = Spec.hid (argsR m c) (t.val + 1) b j)
  | 0, _ => ⟨fun b j => by
      show entryContents preI m c (Proc.devRef .tc main_v5_6) (ix2 b j) = _
      rw [RefEntry.entry_v5_6]
      exact Ideal.ofBits_zero_f32, fun t b j h => absurd h (Nat.not_lt_zero _)⟩
  | k + 1, hk1 => by
    have hk : k < 512 := hk1
    obtain ⟨ih6, ih7⟩ := inv hidx k (Nat.le_of_lt hk)
    -- the trip's new hidden state is the specification's next state
    have hres : ∀ (b : Fin 16) (j : Fin 512),
        res_main_while0b_v8_0 ((STEP (F := Ideal))^[k] (entryContents preI m c)) (ix2 b j) = Spec.hid (argsR m c) (k + 1) b j := by
      intro b j
      rw [res_eq, iter_v5_0 m c, iter_ctr m c, iter_v5_1 m c, iter_v5_2 m c, iter_v5_3 m c, iter_v5_4 m c,
        RefEntry.entry_v5_0, RefEntry.entry_v5_1, RefEntry.entry_v5_2, RefEntry.entry_v5_3, RefEntry.entry_v5_4]
      exact step_hid m c hidx k hk _ ih6 b j
    refine ⟨fun b j => ?_, fun t b j ht => ?_⟩
    · rw [Function.iterate_succ_apply', STEP_main_v5_6]
      exact hres b j
    · rw [Function.iterate_succ_apply', STEP_main_v5_7, step7_eq, iter_ctr m c]
      by_cases htk : t.val = k
      · obtain rfl : t = ⟨k, hk⟩ := Fin.ext htk
        exact (RefStep.outV_apply_eq _ _ k hk b j).trans (hres b j)
      · exact (RefStep.outV_apply_ne _ _ k hk t htk b j).trans (ih7 t b j (by omega))

/-! ## The result -/

/-- The result at (b, t, j): the output buffer's row t after all 512 trips, which is the state after t + 1 steps. -/
theorem ref_eq_spec_apply (hidx : ∀ x, (m ((c.tc : Thread nD τ).loc main_arg1) x).toNat < 1024) (x : Spec.SOut.Idx) :
    out_main_v6 ((STEP (F := Ideal))^[512] (entryContents preI m c)) x = Spec.out (argsR m c) x := by
  unfold out_main_v6
  exact (transpose_apply (s := S512x16x512) (t := S16x512x512) [1, 0, 2] _ transposes_S512x16x512_S16x512x512_1_0_2 x
    (ix3 (x 1) (x 0) (x 2)) fun b => match b with | ⟨0, _⟩ => rfl | ⟨1, _⟩ => rfl | ⟨2, _⟩ => rfl).trans
    ((inv m c hidx 512 (Nat.le_refl _)).2 (x 1) (x 0) (x 2) (x 1).isLt)

/-- THE REFERENCE'S RESULT IS THE SPECIFICATION'S, under the index range. -/
theorem ref_eq_spec (hidx : ∀ x, (m ((c.tc : Thread nD τ).loc main_arg1) x).toNat < 1024) :
    out_main_v6 ((STEP (F := Ideal))^[512] (entryContents preI m c)) = Spec.out (argsR m c) :=
  funext fun x => ref_eq_spec_apply m c hidx x

end Cert.Proof.RefValue

end
-- ==== Proof.PreIdx.lean ====
/-
  The precondition's integer range, read back. The precondition is a conjunction of seven reductions by
  `and` over whole arrays; its last conjunct says of every index word w that 0 ≤ w and w ≤ 1023, both read signed.
  A 32-bit word that is nonnegative when read signed is its own unsigned value, so w, read unsigned, is below 1024.
-/
import proofs.«213871_g15814069584205_fold_wed_c4_299_27_alg».proof.Pre_input_domain
import Idealize.ShloMosaic.Lib.ReduceAll

noncomputable section

namespace Cert.Proof.PreIdx

open Idealize.ShloMosaic Cert.Pre_input_domain

/-- The shape with no axes has one index. -/
instance : Subsingleton S_.Idx := ⟨fun a b => funext fun d => d.elim0⟩

/-- A word between 0 and 1023, read signed, is below 1024 read unsigned. -/
theorem toNat_lt_of_signed (w : BitVec 32) (h0 : (0#32 : BitVec 32).toInt ≤ w.toInt)
    (h1 : w.toInt ≤ (1023#32 : BitVec 32).toInt) : w.toNat < 1024 := by
  have e0 : (0#32 : BitVec 32).toInt = 0 := by decide
  have e1 : (1023#32 : BitVec 32).toInt = 1023 := by decide
  rw [e0] at h0
  rw [e1] at h1
  have hw := w.isLt
  rw [BitVec.toInt_eq_toNat_cond] at h0 h1
  split at h0 <;> omega

/-- Under the precondition every index word is below 1024. -/
theorem idx_lt_of_pre {F : FTy → Type} [FloatOps F] [Cert.Pre_input_domain.Facts]
    (a0 : FVec F S16x512x64 .f32) (a1 : IVec S16x512 32) (a2 : FVec F S1024x128 .f32) (a3 : FVec F S512x192 .f32)
    (a4 : FVec F S512x512 .f32) (a5 : FVec F S512 .f32) (a6 : FVec F S512 .f32)
    (h : Cert.Pre_input_domain.fn (F := F) a0 a1 a2 a3 a4 a5 a6 = fun _ => 1#1) :
    ∀ x : S16x512.Idx, (a1 x).toNat < 1024 := by
  intro x
  have e := congrFun h (fun d => d.elim0)
  dsimp only [Cert.Pre_input_domain.fn, Cert.Pre_input_domain.fn_part1, Cert.Pre_input_domain.fn_part2] at e
  -- the outermost `and`: the first six reductions on the left, the index range's reduction on the right
  have e2 := (IntOp.andi_eq_one.1 e).2
  have e3 := Host.reduce_andi_all _ _ _ _ _ e2 x
  obtain ⟨hge, hle⟩ := IntOp.andi_eq_one.1 e3
  exact toNat_lt_of_signed (a1 x) (IntOp.cmpi_sge.1 hge) (IntOp.cmpi_sle.1 hle)

end Cert.Proof.PreIdx

end
-- ==== Proof.IdealTile.lean ====
/-
  The SparseCore call of the idealized kernel: a row gather. The table `emb` (1024 rows of 128 words) stays whole in
  HBM; the flattened, time-major index list (8192 words: entry 16·t + b is `state_indices[b, t]`) and the result
  (8192 rows of 128 words) are cut into 32 blocks of 256 consecutive rows, and the vector subcore `s` of
  SparseCore `c` owns block 2·s + c. Its task: copy its 256 indices into its index scratch, gather the 256 table
  rows they name into its row scratch by one indexed copy, copy the row scratch onto its block of the result. Each
  of the three copies is issued and waited for on a semaphore of its own before the next begins, so no copy's
  source or destination is touched while it is pending. The gather needs every index to name a row of the table:
  that is the precondition's range 0 ≤ state_indices ≤ 1023 read through the transpose and the flattening.
  Afterwards the block holds, row by row, the table row its index names.
-/
import proofs.«213871_g15814069584205_fold_wed_c4_299_27_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«213871_g15814069584205_fold_wed_c4_299_27_alg».proof.Proof.Gen.KernelIdeal
import proofs.«213871_g15814069584205_fold_wed_c4_299_27_alg».proof.Proof.Gen.KernelIdeal.Skeleton
import proofs.«213871_g15814069584205_fold_wed_c4_299_27_alg».proof.Proof.Gen.KernelIdeal.Launch

noncomputable section

namespace Cert.Proof.IdealTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the TensorCore pipeline's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

variable (m : (ℓ : Loc nD τ sig) → Buf (Elt F) ℓ)

/-! ## The arrays and one tile's blocks -/

-- the kernel's five operands: the table, the index list, the result array, the index scratch, the row scratch
local notation "tblW" => (Memref.whole Cert.KernelIdeal.main_arg2_scv : Memref Cert.KernelIdeal.sig Kind.scVector Space.hbm Cert.KernelIdeal.S1024x128 EltTy.f32)
local notation "idxW" => (Memref.whole Cert.KernelIdeal.main_v3_scv : Memref Cert.KernelIdeal.sig Kind.scVector Space.hbm Cert.KernelIdeal.S8192 EltTy.i32)
local notation "outW" => (Memref.whole Cert.KernelIdeal.main_v4_scv : Memref Cert.KernelIdeal.sig Kind.scVector Space.hbm Cert.KernelIdeal.S8192x128 EltTy.f32)
local notation "sIdx" => (Memref.whole Cert.KernelIdeal.cc0_scratch0 : Memref Cert.KernelIdeal.sig Kind.scVector Space.vmem Cert.KernelIdeal.S256 EltTy.i32)
local notation "sRows" => (Memref.whole Cert.KernelIdeal.cc0_scratch1 : Memref Cert.KernelIdeal.sig Kind.scVector Space.vmem Cert.KernelIdeal.S256x128 EltTy.f32)

abbrev tblLoc (d : Dev nD) : Loc nD τ sig := (SparseCore.T d).loc main_arg2
abbrev idxLoc (d : Dev nD) : Loc nD τ sig := (SparseCore.T d).loc main_v3
abbrev outLoc (d : Dev nD) : Loc nD τ sig := (SparseCore.T d).loc main_v4

/-- The index block of the tile at grid coordinates `L`: 256 consecutive entries from 512·s + 256·c. -/
abbrev idxBlk (L : grid0.Coords) : Memref sig .scVector .hbm S256 .i32 :=
  (idxW).slice (Rect.unit (s := S8192) (k0_off1 L) S256.size (k0_off1_inb L)) (fun _ => rfl)
/-- Its block of the result: the same 256 rows, all 128 columns. -/
abbrev outBlk (L : grid0.Coords) : Memref sig .scVector .hbm S256x128 .f32 :=
  (outW).slice (Rect.unit (s := S8192x128) (k0_off2 L) S256x128.size (k0_off2_inb L)) (fun _ => rfl)

abbrev cV (L : grid0.Coords) : Fin τ.nSC := (L 0).castLE hcore0
abbrev jV (L : grid0.Coords) : Fin τ.nSub := (L 1).castLE hsub0

variable [FloatOps F]

section Body

variable (d : Dev nD) (L : grid0.Coords)

/-- Every entry of every tile's index block names a row of the table (the table has 1024 rows). -/
def IdxOK (fi : Buf (Elt F) (idxLoc d)) : Prop :=
  ∀ (L : grid0.Coords) (x : S256.Idx), ((idxBlk L).view.read (Elt F) fi x).toNat < 1024

/-- What the tile at `L` leaves in its block of the result, read through the block: at row `r`, column `j` of the
    block, the table's row named by entry `r` of the tile's index block, at column `j`. -/
def tileOut (ft : Buf (Elt F) (tblLoc d)) (fi : Buf (Elt F) (idxLoc d)) (h : IdxOK d fi) : S256x128.Idx → Elt F .f32 :=
  SparseCore.gatherPayload gathers_S1024x128_S256x128
    (((tblW).slice (Rect.unit (s := S1024x128) ![0, 0] S1024x128.size inb_S1024x128_S1024x128_0_0) (fun _ => rfl)).view.read (Elt F) ft)
    (SparseCore.rows ((idxBlk L).view.read (Elt F) fi) rfl (h L))

/-- Contents of the result array that are right on the block of the tile at `L`. -/
def BlockOK (ft : Buf (Elt F) (tblLoc d)) (fi : Buf (Elt F) (idxLoc d)) (h : IdxOK d fi) (f : Buf (Elt F) (outLoc d)) : Prop :=
  (outBlk L).view.read (Elt F) f = tileOut d L ft fi h

omit [FloatOps F] in
/-- The rows a list names depend on the list only. -/
theorem rows_congr {o z : ℕ} {si : Shape} {i₁ i₂ : si.Idx → Elt F .i32} (e : i₁ = i₂) (hn : si.numel = o)
    (h₁ : ∀ x, (i₁ x).toNat < z) (h₂ : ∀ x, (i₂ x).toNat < z) :
    SparseCore.rows (F := F) i₁ hn h₁ = SparseCore.rows i₂ hn h₂ := by
  subst e; rfl

omit [FloatOps F] in
/-- A view read back after ONE write through its whole rectangle is the written payload, whatever it held. -/
theorem read_writes_whole {κ : Kind} {sp : Space} {s : Shape} {e : EltTy} (v : View sig κ sp s e) (f : v.ty.Contents (Elt F))
    (w : (Rect.whole s).shape.Idx → Elt F e) : v.read (Elt F) (v.writes (Elt F) f [⟨Rect.whole s, w⟩]) = w := by
  funext y
  have h := View.read_writes_cons_emb v f (Rect.whole s) w [] y
  rwa [Rect.emb_whole_apply] at h

/-- One tile's task: from shares of the table and of its index block, its block of the result, its scratch and its
    semaphores at zero, the three copies run and every wait returns; the block ends at the gathered rows. -/
theorem tile_body (q qi : PosShare TreeShare) (fi : Buf (Elt F) (idxLoc d)) (ft : Buf (Elt F) (tblLoc d)) (fo : Buf (Elt F) (outLoc d))
    (fs0 : Buf (Elt F) ((V d (cV L) (jV L)).loc cc0_scratch0)) (fs1 : Buf (Elt F) ((V d (cV L) (jV L)).loc cc0_scratch1))
    (O : CellTallies nD τ sig (HIx 1)) (W : Waits sig (HIx 1)) (hO : ∀ g, O g none = 0) (hOK : IdxOK d fi) :
    iprop((levAts (K (F := F)).L (K (F := F)).lev : sProp 𝕄)
        ∗ ((tblW).view.loc (V d (cV L) (jV L)) ↦{q} ft)
        ∗ ((idxBlk L).view.loc (V d (cV L) (jV L)) ↦[(idxBlk L).view.set]{qi} fi)
        ∗ ((outBlk L).view.loc (V d (cV L) (jV L)) ↦[(outBlk L).view.set]{fullShare} fo)
        ∗ ((sIdx).view.loc (V d (cV L) (jV L)) ↦{fullShare} fs0)
        ∗ ((sRows).view.loc (V d (cV L) (jV L)) ↦{fullShare} fs1)
        ∗ semVal (V d (cV L) (jV L), SemLoc.dma cc0_scratch2.sem) 0
        ∗ semVal (V d (cV L) (jV L), SemLoc.dma cc0_scoped0.sem) 0
        ∗ semVal (V d (cV L) (jV L), SemLoc.dma cc0_scoped1.sem) 0
        ∗ owes (V d (cV L) (jV L)) O W)
      ⊢ wp frame (wpE (defs₀ (F := F)) 𝒱₀ (V d (cV L) (jV L)) none) Set.univ
          (cc0__sc_gather L tblW (Memref.isWhole_whole _) idxW (Memref.isWhole_whole _) outW (Memref.isWhole_whole _)
            sIdx (Memref.isWhole_whole _) sRows (Memref.isWhole_whole _) cc0_scratch2 cc0_scoped0 cc0_scoped1)
          fun _ => iprop(((tblW).view.loc (V d (cV L) (jV L)) ↦{q} ft)
            ∗ ((idxBlk L).view.loc (V d (cV L) (jV L)) ↦[(idxBlk L).view.set]{qi} fi)
            ∗ (∃ f, ⌜BlockOK d L ft fi hOK f⌝ ∗ (outBlk L).view.loc (V d (cV L) (jV L)) ↦[(outBlk L).view.set]{fullShare} f)
            ∗ (∃ g, (sIdx).view.loc (V d (cV L) (jV L)) ↦{fullShare} g)
            ∗ (∃ g, (sRows).view.loc (V d (cV L) (jV L)) ↦{fullShare} g)
            ∗ semVal (V d (cV L) (jV L), SemLoc.dma cc0_scratch2.sem) 0
            ∗ semVal (V d (cV L) (jV L), SemLoc.dma cc0_scoped0.sem) 0
            ∗ semVal (V d (cV L) (jV L), SemLoc.dma cc0_scoped1.sem) 0
            ∗ ∃ W', ⌜∀ p ∈ W', p ∈ W ∨ p.2 = none⌝ ∗ owes (V d (cV L) (jV L)) O W') := by
  -- the index scratch after the first copy holds the tile's index block, whatever it held before
  have hin : ∀ (g : Buf (Elt F) ((V d (cV L) (jV L)).loc cc0_scratch0)) (x : S256.Idx),
      ((sIdx).view.read (Elt F) (View.write (Elt F) (sIdx).view g (ReadAs.same.apply ((idxBlk L).view.read (Elt F) fi)) Finset.univ) x).toNat < 1024 := by
    intro g x; rw [View.read_write_univ]; exact hOK L x
  rw [cc0__sc_gather_eq_skeleton]; unfold cc0__sc_gather_skel
  iintro ⟨#Hlv, Ht, Hi, Ho, Hs0, Hs1, Hc2, Hc0, Hc1, HO⟩
  ihave Hmw := ((K (F := F)).mayWaits_none (thr := V d (cV L) (jV L)) hO) $$ Hlv
  sl_exec
  sl_step
  isplitl [Ht]; · iexact Ht
  isplitl [Hi]; · iexact Hi
  isplitl [Ho]
  · iexists _; isplitr
    rotate_left
    · iexact Ho
    · ipureintro
      -- the block reads back the copy's payload: the row scratch, which holds the gather's payload
      unfold BlockOK tileOut
      funext y
      refine (congrFun (read_writes_whole (outBlk L).view fo _) y).trans ?_
      -- what was copied out is the row scratch, read whole; it holds the gather's payload
      unfold tile_body.sl.dma0_1
      refine (congrFun (read_writes_whole (sRows).view fs1 _) y).trans ?_
      -- the list the gather served is the index scratch after the first copy: the tile's index block
      unfold tile_body.sl.gather1 tile_body.sl.dma0
      exact congrFun (congrArg _ (rows_congr (View.read_write_univ _ _) _ _ _)) y
  isplitl [Hs0]; · iexists _; iexact Hs0
  isplitl [Hs1]; · iexists _; iexact Hs1
  isplitl [Hc2]; · iexact Hc2
  isplitl [Hc0]; · iexact Hc0
  isplitl [Hc1]; · iexact Hc1
  iexists _; isplitr
  rotate_left
  · iexact HO
  · ipureintro; intro p hp
    simp only [Finset.mem_insert] at hp
    rcases hp with hp | hp | hp | hp
    · exact .inr (hp ▸ rfl)
    · exact .inr (hp ▸ rfl)
    · exact .inr (hp ▸ rfl)
    · exact .inl hp

end Body

end Cert.Proof.IdealTile

end
-- ==== Proof.IdealLaunch.lean ====
/-
  The SparseCore call's operands, cut for its 32 tasks, and the launch of the whole program.
  The flattened index list (8192 words) and the gathered array (8192 rows of 128 words) are each the disjoint union of 32
  blocks of 256 consecutive rows: the block of vector subcore `s` of SparseCore `c` starts at row 512·s + 256·c. The
  table is read by every task and is handed out in read shares, one per SparseCore and within it one per task.
-/
import proofs.«213871_g15814069584205_fold_wed_c4_299_27_alg».proof.Proof.IdealTile

noncomputable section

namespace Cert.Proof.IdealLaunch

open Cert.KernelIdeal Cert.KernelIdeal.Gen Cert.Proof.IdealTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The 32 blocks -/

/-- The grid coordinates of vector subcore `s` of SparseCore `c`. -/
def coordsV (c : Fin 2) (s : Fin 16) : grid0.Coords :=
  fun | 0 => c | 1 => s | ⟨_ + 2, h⟩ => absurd h (Nat.not_lt.2 (Nat.le_add_left _ _))

/-- The rows of the index list in the block of the task at `L`; -/
abbrev iSet (L : grid0.Coords) : Finset S8192.Idx := (idxBlk L).view.set
/-- the elements of the gathered array in its block. -/
abbrev oSet (L : grid0.Coords) : Finset S8192x128.Idx := (outBlk L).view.set

theorem iSet_eq (L : grid0.Coords) : iSet L = (Rect.unit (s := S8192) (k0_off1 L) S256.size (k0_off1_inb L)).set := by
  show ((View.whole (main_v3_scv : Ref sig .scVector)).slice _).set = _
  rw [View.set_slice]; exact Finset.map_refl
theorem oSet_eq (L : grid0.Coords) : oSet L = (Rect.unit (s := S8192x128) (k0_off2 L) S256x128.size (k0_off2_inb L)).set := by
  show ((View.whole (main_v4_scv : Ref sig .scVector)).slice _).set = _
  rw [View.set_slice]; exact Finset.map_refl

/-- Row `y` of the index list lies in the block of (c, s) exactly when 512·s + 256·c ≤ y < 512·s + 256·c + 256. -/
theorem mem_iSet (c : Fin 2) (s : Fin 16) (y : S8192.Idx) :
    y ∈ iSet (coordsV c s) ↔ 512 * s.val + 256 * c.val ≤ (y 0).val ∧ (y 0).val < 512 * s.val + 256 * c.val + 256 := by
  rw [iSet_eq, Rect.mem_set_unit, k0_off1_eq]
  constructor
  · intro h; have h0 := h 0; simpa [coordsV] using h0
  · intro h a; match a with | 0 => simpa [coordsV] using h

/-- The same for the gathered array: the row decides, every column belongs. -/
theorem mem_oSet (c : Fin 2) (s : Fin 16) (y : S8192x128.Idx) :
    y ∈ oSet (coordsV c s) ↔ 512 * s.val + 256 * c.val ≤ (y 0).val ∧ (y 0).val < 512 * s.val + 256 * c.val + 256 := by
  rw [oSet_eq, Rect.mem_set_unit, k0_off2_eq]
  constructor
  · intro h; have h0 := h 0; simpa [coordsV] using h0
  · intro h a
    match a with
    | 0 => simpa [coordsV] using h
    | 1 => have h1 : (y 1).val < 128 := (y 1).isLt; simp [coordsV]; omega

/-- Two different tasks' blocks share no row. -/
theorem iSet_disjoint : ∀ p ∈ (Finset.univ : Finset (Fin 2 × Fin 16)), ∀ p' ∈ (Finset.univ : Finset (Fin 2 × Fin 16)), p ≠ p' →
    Disjoint (iSet (coordsV p.1 p.2)) (iSet (coordsV p'.1 p'.2)) := by
  rintro ⟨c, s⟩ - ⟨c', s'⟩ - hne
  rw [Finset.disjoint_left]
  intro y hy hy'
  rw [mem_iSet] at hy hy'
  dsimp only at hy hy'
  apply hne
  have hc := c.isLt; have hc' := c'.isLt
  have : s.val = s'.val ∧ c.val = c'.val := by omega
  exact Prod.ext (Fin.ext this.2) (Fin.ext this.1)

theorem oSet_disjoint : ∀ p ∈ (Finset.univ : Finset (Fin 2 × Fin 16)), ∀ p' ∈ (Finset.univ : Finset (Fin 2 × Fin 16)), p ≠ p' →
    Disjoint (oSet (coordsV p.1 p.2)) (oSet (coordsV p'.1 p'.2)) := by
  rintro ⟨c, s⟩ - ⟨c', s'⟩ - hne
  rw [Finset.disjoint_left]
  intro y hy hy'
  rw [mem_oSet] at hy hy'
  dsimp only at hy hy'
  apply hne
  have hc := c.isLt; have hc' := c'.isLt
  have : s.val = s'.val ∧ c.val = c'.val := by omega
  exact Prod.ext (Fin.ext this.2) (Fin.ext this.1)

/-- Every row lies in some task's block: row y in that of s = y / 512, c = (y mod 512) / 256. -/
theorem iSet_cover : (Finset.univ : Finset (Fin 2 × Fin 16)).biUnion (fun p => iSet (coordsV p.1 p.2)) = Finset.univ := by
  ext y
  simp only [Finset.mem_biUnion, Finset.mem_univ, true_and, iff_true]
  have hy : (y 0).val < 8192 := (y 0).isLt
  refine ⟨(⟨((y 0).val % 512) / 256, by omega⟩, ⟨(y 0).val / 512, by omega⟩), ?_⟩
  rw [mem_iSet]; constructor <;> dsimp only <;> omega

theorem oSet_cover : (Finset.univ : Finset (Fin 2 × Fin 16)).biUnion (fun p => oSet (coordsV p.1 p.2)) = Finset.univ := by
  ext y
  simp only [Finset.mem_biUnion, Finset.mem_univ, true_and, iff_true]
  have hy : (y 0).val < 8192 := (y 0).isLt
  refine ⟨(⟨((y 0).val % 512) / 256, by omega⟩, ⟨(y 0).val / 512, by omega⟩), ?_⟩
  rw [mem_oSet]; constructor <;> dsimp only <;> omega

/-! ## @main's host operations before the call, and what they leave -/

variable (m : (ℓ : Loc nD τ sig) → Buf (Elt F) ℓ)

section Ops
variable [FloatOps F]

/-- actions, time-major; -/
abbrev opA0 : HloOp τ sig (Elt F) := StableHlo.unary main_arg0 main_v0 ((transpose S512x16x64 [1, 0, 2] · transposes_S16x512x64_S512x16x64_1_0_2) : (⟨S16x512x64, .f32⟩ : BufTy).Contents (Elt F) → (⟨S512x16x64, .f32⟩ : BufTy).Contents (Elt F))
/-- flattened to 8192 rows of 64; -/
abbrev opA1 : HloOp τ sig (Elt F) := StableHlo.reshape main_v0 main_v1 rfl shapeCasts_S512x16x64_S8192x64
/-- state_indices, time-major; -/
abbrev opI0 : HloOp τ sig (Elt F) := StableHlo.unary main_arg1 main_v2 ((transpose S512x16 [1, 0] · transposes_S16x512_S512x16_1_0) : (⟨S16x512, .i32⟩ : BufTy).Contents (Elt F) → (⟨S512x16, .i32⟩ : BufTy).Contents (Elt F))
/-- flattened to the list of 8192 indices: entry 16·t + b is state_indices[b, t]. -/
abbrev opI1 : HloOp τ sig (Elt F) := StableHlo.reshape main_v2 main_v3 rfl shapeCasts_S512x16_S8192

/-- The four operations before the SparseCore call. -/
abbrev opsPre : List (HloOp τ sig (Elt F)) := [opA0, opA1, opI0, opI1]

/-- The TensorCore's arrays when the SparseCore call is made. -/
def Vpre (d : Dev nD) : Valuation τ sig (Elt F) := StableHlo.after opsPre (fun b => m (d, b))

/-- The index list the call is given. -/
def idxV (d : Dev nD) : Buf (Elt F) (idxLoc d) := Vpre m d (Proc.devRef .tc main_v3)

end Ops

/-! ## What the handshakes carry -/

theorem nCore_zero : (K (F := F)).nCore 0 = 2 := rfl
theorem nSub_zero : (K (F := F)).nSub 0 = 16 := rfl

section Pay
variable [FloatOps F]

/-- SparseCore `c`'s read share of the table, and task (c, i)'s share of that. -/
abbrev qCore (c : Fin 2) : PosShare TreeShare := pieceOf fullShare 2 (by decide) c
abbrev qTile (c : Fin 2) (i : Fin 16) : PosShare TreeShare := pieceOf (qCore c) 16 (by decide) i

abbrev tblCore (d : Dev nD) (c : Fin 2) : sProp 𝕄 := tblLoc d ↦{qCore c} m (tblLoc d)
abbrev tblTile (d : Dev nD) (c : Fin 2) (i : Fin 16) : sProp 𝕄 := tblLoc d ↦{qTile c i} m (tblLoc d)
abbrev idxB (d : Dev nD) (c : Fin 2) (i : Fin 16) : sProp 𝕄 := idxLoc d ↦[iSet (coordsV c i)]{fullShare} idxV m d
abbrev outB (d : Dev nD) (c : Fin 2) (i : Fin 16) (f : Buf (Elt F) (outLoc d)) : sProp 𝕄 := outLoc d ↦[oSet (coordsV c i)]{fullShare} f

variable (hOK : ∀ d : Dev nD, IdxOK d (idxV m d))

/-- A block of the gathered array at contents right for its task. -/
abbrev outDone (d : Dev nD) (c : Fin 2) (i : Fin 16) : sProp 𝕄 :=
  iprop(∃ f, ⌜BlockOK d (coordsV c i) (m (tblLoc d)) (idxV m d) (hOK d) f⌝ ∗ outB d c i f)

/-- The one call hands SparseCore `c` its share of the table and its 16 tasks' blocks of the index list and of the
    result; each task gets its share and its two blocks; back come the same, the result's blocks at the gathered rows. -/
def P : (K (F := F)).Pay (nD := nD) (Val := Elt F) (Name := ℕ) (U := UU) where
  st := fun q d c => match q with
    | 0 => iprop(tblCore m d (Fin.cast nCore_zero c) ∗ (bigSep Finset.univ fun i : Fin 16 => idxB m d (Fin.cast nCore_zero c) i)
        ∗ bigSep Finset.univ fun i : Fin 16 => outB d (Fin.cast nCore_zero c) i (m (outLoc d)))
  dn := fun q d c => match q with
    | 0 => iprop(tblCore m d (Fin.cast nCore_zero c) ∗ (bigSep Finset.univ fun i : Fin 16 => idxB m d (Fin.cast nCore_zero c) i)
        ∗ bigSep Finset.univ fun i : Fin 16 => outDone m hOK d (Fin.cast nCore_zero c) i)
  go := fun q d c i => match q with
    | 0 => iprop(tblTile m d (Fin.cast nCore_zero c) (Fin.cast nSub_zero i) ∗ idxB m d (Fin.cast nCore_zero c) (Fin.cast nSub_zero i)
        ∗ outB d (Fin.cast nCore_zero c) (Fin.cast nSub_zero i) (m (outLoc d)))
  td := fun q d c i => match q with
    | 0 => iprop(tblTile m d (Fin.cast nCore_zero c) (Fin.cast nSub_zero i) ∗ idxB m d (Fin.cast nCore_zero c) (Fin.cast nSub_zero i)
        ∗ outDone m hOK d (Fin.cast nCore_zero c) (Fin.cast nSub_zero i))
  x := fun _ _ => iprop(emp)

instance P_storable : (P (F := F) m hOK).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Pay

/-! ## The launch theorem's side conditions -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## One task, from the vector subcore's scoped storage -/

section Task

variable (d : Dev nD) (L : grid0.Coords)

abbrev cellG (c : Fin τ.nSC) (i : Fin τ.nSub) : GSem nD τ sig := (V d c i, .dma cc0_scratch2.sem)
abbrev cellA (c : Fin τ.nSC) (i : Fin τ.nSub) : GSem nD τ sig := (V d c i, .dma cc0_scoped0.sem)
abbrev cellB (c : Fin τ.nSC) (i : Fin τ.nSub) : GSem nD τ sig := (V d c i, .dma cc0_scoped1.sem)

/-- The subcore's own semaphores at zero: the gather's, the two copies', and the rest. -/
theorem ownSems0_V :
    (ownSems0 (V d (cV L) (jV L)) : sProp 𝕄)
      = iprop(semVal (cellG d (cV L) (jV L)) 0 ∗ semVal (cellA d (cV L) (jV L)) 0 ∗ semVal (cellB d (cV L) (jV L)) 0
          ∗ bigSep ((((ownCells (V d (cV L) (jV L))).erase (cellG d (cV L) (jV L))).erase (cellA d (cV L) (jV L))).erase (cellB d (cV L) (jV L)))
              fun g => semVal g 0) := by
  unfold SparseCore.Cfg.ownSems0
  rw [SparseCore.bigSep_erase' ((mem_ownCells (g := cellG d (cV L) (jV L))).mpr ⟨rfl, by
      show (SemLoc.dma cc0_scratch2.sem : SemLoc sig).isScoped .scVector = true; decide⟩),
    SparseCore.bigSep_erase' (Finset.mem_erase.mpr ⟨by simp [cellG, cellA]; decide, (mem_ownCells (g := cellA d (cV L) (jV L))).mpr ⟨rfl, by
      show (SemLoc.dma cc0_scoped0.sem : SemLoc sig).isScoped .scVector = true; decide⟩⟩),
    SparseCore.bigSep_erase' (Finset.mem_erase.mpr ⟨by simp [cellA, cellB]; decide, Finset.mem_erase.mpr ⟨by simp [cellG, cellB]; decide,
      (mem_ownCells (g := cellB d (cV L) (jV L))).mpr ⟨rfl, by show (SemLoc.dma cc0_scoped1.sem : SemLoc sig).isScoped .scVector = true; decide⟩⟩⟩)]

/-- The subcore's own buffers: the index scratch, the row scratch, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

local notation "tblW" => (Memref.whole Cert.KernelIdeal.main_arg2_scv : Memref Cert.KernelIdeal.sig Kind.scVector Space.hbm Cert.KernelIdeal.S1024x128 EltTy.f32)
local notation "idxW" => (Memref.whole Cert.KernelIdeal.main_v3_scv : Memref Cert.KernelIdeal.sig Kind.scVector Space.hbm Cert.KernelIdeal.S8192 EltTy.i32)
local notation "outW" => (Memref.whole Cert.KernelIdeal.main_v4_scv : Memref Cert.KernelIdeal.sig Kind.scVector Space.hbm Cert.KernelIdeal.S8192x128 EltTy.f32)
local notation "sIdx" => (Memref.whole Cert.KernelIdeal.cc0_scratch0 : Memref Cert.KernelIdeal.sig Kind.scVector Space.vmem Cert.KernelIdeal.S256 EltTy.i32)
local notation "sRows" => (Memref.whole Cert.KernelIdeal.cc0_scratch1 : Memref Cert.KernelIdeal.sig Kind.scVector Space.vmem Cert.KernelIdeal.S256x128 EltTy.f32)

/-- The task of the tile at `L`, from its shares of the table and the index list, its block of the result and its scoped
    storage, to the block at the gathered rows and the storage back. -/
theorem tile_task (q : PosShare TreeShare) (fi : Buf (Elt F) (idxLoc d)) (ft : Buf (Elt F) (tblLoc d)) (fo : Buf (Elt F) (outLoc d))
    (O : CellTallies nD τ sig (HIx 1)) (W : Waits sig (HIx 1)) (hO : ∀ g, O g none = 0) (hOK : IdxOK d fi) :
    iprop((levAts (K (F := F)).L (K (F := F)).lev : sProp 𝕄) ∗ emp
        ∗ ((tblLoc d ↦{q} ft) ∗ (idxLoc d ↦[iSet L]{fullShare} fi) ∗ (outLoc d ↦[oSet L]{fullShare} fo))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L tblW (Memref.isWhole_whole _) idxW (Memref.isWhole_whole _) outW (Memref.isWhole_whole _)
            sIdx (Memref.isWhole_whole _) sRows (Memref.isWhole_whole _) cc0_scratch2 cc0_scoped0 cc0_scoped1)
          fun _ => iprop(((tblLoc d ↦{q} ft) ∗ (idxLoc d ↦[iSet L]{fullShare} fi) ∗ (∃ f, ⌜BlockOK d L ft fi hOK f⌝ ∗ outLoc d ↦[oSet L]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L), ownSems0_V, ownBufs_V]
  iintro ⟨#Hlv, -, ⟨Ht, Hi, Ho⟩, ⟨⟨%fs0, Hs0⟩, ⟨%fs1, Hs1⟩, Hbufs⟩, ⟨Hc2, Hc0, Hc1, Hsems⟩, HO⟩
  iapply (wp_wand_r frame _ _)
  isplitl [Ht Hi Ho Hs0 Hs1 Hc2 Hc0 Hc1 HO]
  · iapply (tile_body d L q fullShare fi ft fo fs0 fs1 O W hO hOK)
    isplitr; · iexact Hlv
    isplitl [Ht]; · iexact Ht
    isplitl [Hi]; · iexact Hi
    isplitl [Ho]; · iexact Ho
    isplitl [Hs0]; · iexact Hs0
    isplitl [Hs1]; · iexact Hs1
    isplitl [Hc2]; · iexact Hc2
    isplitl [Hc0]; · iexact Hc0
    isplitl [Hc1]; · iexact Hc1
    iexact HO
  iintro %_ ⟨Ht, Hi, Ho, Hs0, Hs1, Hc2, Hc0, Hc1, HO⟩
  isplitl [Ht Hi Ho]
  · isplitl [Ht]; · iexact Ht
    isplitl [Hi]; · iexact Hi
    iexact Ho
  isplitl [Hs0 Hs1 Hbufs]
  · isplitl [Hs0]; · iexact Hs0
    isplitl [Hs1]; · iexact Hs1
    iexact Hbufs
  isplitl [Hc2 Hc0 Hc1 Hsems]
  · isplitl [Hc2]; · iexact Hc2
    isplitl [Hc0]; · iexact Hc0
    isplitl [Hc1]; · iexact Hc1
    iexact Hsems
  iexact HO

end Task

/-! ## The launch theorem's obligations for the call -/

section Obl

variable [FloatOps F]
variable (hOK : ∀ d : Dev nD, IdxOK d (idxV m d))

local notation "tblW" => (Memref.whole Cert.KernelIdeal.main_arg2_scv : Memref Cert.KernelIdeal.sig Kind.scVector Space.hbm Cert.KernelIdeal.S1024x128 EltTy.f32)
local notation "idxW" => (Memref.whole Cert.KernelIdeal.main_v3_scv : Memref Cert.KernelIdeal.sig Kind.scVector Space.hbm Cert.KernelIdeal.S8192 EltTy.i32)
local notation "outW" => (Memref.whole Cert.KernelIdeal.main_v4_scv : Memref Cert.KernelIdeal.sig Kind.scVector Space.hbm Cert.KernelIdeal.S8192x128 EltTy.f32)
local notation "sIdx" => (Memref.whole Cert.KernelIdeal.cc0_scratch0 : Memref Cert.KernelIdeal.sig Kind.scVector Space.vmem Cert.KernelIdeal.S256 EltTy.i32)
local notation "sRows" => (Memref.whole Cert.KernelIdeal.cc0_scratch1 : Memref Cert.KernelIdeal.sig Kind.scVector Space.vmem Cert.KernelIdeal.S256x128 EltTy.f32)

/-- The body table's row for a vector subcore: the kernel at the subcore's grid coordinates. -/
theorem defs₀_vector (c : Fin τ.nSC) (s : Fin τ.nSub) :
    defs₀ (F := F) (.scVector c s) 0 ()
      = SparseCore.onTile hcore0 hsub0 (fun c s => cc0__sc_gather (coordsV c s)
          tblW (Memref.isWhole_whole _) idxW (Memref.isWhole_whole _) outW (Memref.isWhole_whole _)
          sIdx (Memref.isWhole_whole _) sRows (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each of the 32 tasks meets its obligation: it is the task proved above, at the subcore's coordinates. -/
theorem tileObl : (K (F := F)).TileObl (D (F := F)) 𝒱 (P m hOK) v₀ 0 := by
  intro d c i O W hO _ _
  simp only [show (P m hOK).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task d (coordsV ⟨_, hc.1⟩ ⟨_, hc.2⟩) _ (idxV m d) (m (tblLoc d)) (m (outLoc d)) O W hO (hOK d)).trans
    (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands split among its 16 tasks — the table's share cut in 16, each block to its task — and the
    results come back the same way. -/
theorem vecSplit : (K (F := F)).VecSplit' (P m hOK) 0 := by
  intro d c
  show iprop(tblCore m d (Fin.cast nCore_zero c) ∗ (bigSep Finset.univ fun i : Fin 16 => idxB m d (Fin.cast nCore_zero c) i)
        ∗ bigSep Finset.univ fun i : Fin 16 => outB d (Fin.cast nCore_zero c) i (m (outLoc d)))
    ⊢ |={Set.univ}=> iprop(
      (bigSep Finset.univ fun i : Fin ((K (F := F)).nSub 0) =>
        iprop(tblTile m d (Fin.cast nCore_zero c) (Fin.cast nSub_zero i) ∗ idxB m d (Fin.cast nCore_zero c) (Fin.cast nSub_zero i)
          ∗ outB d (Fin.cast nCore_zero c) (Fin.cast nSub_zero i) (m (outLoc d))))
      ∗ ((bigSep Finset.univ fun i : Fin ((K (F := F)).nSub 0) =>
          iprop(tblTile m d (Fin.cast nCore_zero c) (Fin.cast nSub_zero i) ∗ idxB m d (Fin.cast nCore_zero c) (Fin.cast nSub_zero i)
            ∗ outDone m hOK d (Fin.cast nCore_zero c) (Fin.cast nSub_zero i)))
          -∗ iprop(tblCore m d (Fin.cast nCore_zero c) ∗ (bigSep Finset.univ fun i : Fin 16 => idxB m d (Fin.cast nCore_zero c) i)
            ∗ bigSep Finset.univ fun i : Fin 16 => outDone m hOK d (Fin.cast nCore_zero c) i)))
  rw [bigSep_tasks (F := F) (fun i => iprop(tblTile m d (Fin.cast nCore_zero c) i ∗ idxB m d (Fin.cast nCore_zero c) i ∗ outB d (Fin.cast nCore_zero c) i (m (outLoc d)))),
    bigSep_tasks (F := F) (fun i => iprop(tblTile m d (Fin.cast nCore_zero c) i ∗ idxB m d (Fin.cast nCore_zero c) i ∗ outDone m hOK d (Fin.cast nCore_zero c) i)),
    bigSep_sep', bigSep_sep', bigSep_sep', bigSep_sep']
  unfold tblCore tblTile qTile
  rw [pointsTo_piecesOf (Finset.univ) (m (tblLoc d)) (by decide : 0 < 16) (qCore (Fin.cast nCore_zero c))]
  iintro H; imodintro
  isplitl [H]; · iexact H
  iintro H; iexact H

end Obl

/-! ## What @main hands the call and takes back: the three arrays whole -/

section Call

variable [FloatOps F]
variable (hOK : ∀ d : Dev nD, IdxOK d (idxV m d))

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- The index list whole is its 32 blocks; -/
theorem idx_blocks (d : Dev nD) (f : Buf (Elt F) (idxLoc d)) :
    (idxLoc d ↦{fullShare} f : sProp 𝕄)
      = bigSep Finset.univ fun c : Fin 2 => bigSep Finset.univ fun i : Fin 16 => idxLoc d ↦[iSet (coordsV c i)]{fullShare} f := by
  rw [← bigSep_univ_prod (fun p : Fin 2 × Fin 16 => (idxLoc d ↦[iSet (coordsV p.1 p.2)]{fullShare} f : sProp 𝕄)),
    ← pointsTo_biUnion Finset.univ (ℓ := idxLoc d) (fun p : Fin 2 × Fin 16 => iSet (coordsV p.1 p.2)) iSet_disjoint, iSet_cover]; try rfl
omit [FloatOps F] in
/-- the gathered array whole its 32 blocks. -/
theorem out_blocks (d : Dev nD) (f : Buf (Elt F) (outLoc d)) :
    (outLoc d ↦{fullShare} f : sProp 𝕄)
      = bigSep Finset.univ fun c : Fin 2 => bigSep Finset.univ fun i : Fin 16 => outLoc d ↦[oSet (coordsV c i)]{fullShare} f := by
  rw [← bigSep_univ_prod (fun p : Fin 2 × Fin 16 => (outLoc d ↦[oSet (coordsV p.1 p.2)]{fullShare} f : sProp 𝕄)),
    ← pointsTo_biUnion Finset.univ (ℓ := outLoc d) (fun p : Fin 2 × Fin 16 => oSet (coordsV p.1 p.2)) oSet_disjoint, oSet_cover]; try rfl

/-- Contents of the gathered array that are right on every task's block. -/
def AllOK (d : Dev nD) (f : Buf (Elt F) (outLoc d)) : Prop :=
  ∀ (c : Fin 2) (i : Fin 16), BlockOK d (coordsV c i) (m (tblLoc d)) (idxV m d) (hOK d) f

/-- What the call takes for the two SparseCores: the table, the index list and the result array, whole. -/
theorem st0_eq (d : Dev nD) :
    (bigSep Finset.univ fun c : Fin ((K (F := F)).nCore 0) => (P m hOK).st 0 d c)
      = iprop((tblLoc d ↦{fullShare} m (tblLoc d)) ∗ (idxLoc d ↦{fullShare} idxV m d) ∗ (outLoc d ↦{fullShare} m (outLoc d))) := by
  show (bigSep Finset.univ fun c : Fin ((K (F := F)).nCore 0) =>
      iprop(tblCore m d (Fin.cast nCore_zero c) ∗ (bigSep Finset.univ fun i : Fin 16 => idxB m d (Fin.cast nCore_zero c) i)
        ∗ bigSep Finset.univ fun i : Fin 16 => outB d (Fin.cast nCore_zero c) i (m (outLoc d)))) = _
  rw [bigSep_cores (F := F) (fun c => iprop(tblCore m d c ∗ (bigSep Finset.univ fun i : Fin 16 => idxB m d c i)
        ∗ bigSep Finset.univ fun i : Fin 16 => outB d c i (m (outLoc d)))),
    bigSep_sep', bigSep_sep', idx_blocks, out_blocks,
    pointsTo_piecesOf (Finset.univ) (m (tblLoc d)) (by decide : 0 < 2) fullShare]

/-- What it hands back: the table and the index list as they were, the result array at contents right on every block. -/
theorem dn0_elim (d : Dev nD) :
    (bigSep Finset.univ fun c : Fin ((K (F := F)).nCore 0) => (P m hOK).dn 0 d c)
      ⊢ iprop((tblLoc d ↦{fullShare} m (tblLoc d)) ∗ (idxLoc d ↦{fullShare} idxV m d)
          ∗ ∃ f, ⌜AllOK m hOK d f⌝ ∗ outLoc d ↦{fullShare} f) := by
  show (bigSep Finset.univ fun c : Fin ((K (F := F)).nCore 0) =>
      iprop(tblCore m d (Fin.cast nCore_zero c) ∗ (bigSep Finset.univ fun i : Fin 16 => idxB m d (Fin.cast nCore_zero c) i)
        ∗ bigSep Finset.univ fun i : Fin 16 => outDone m hOK d (Fin.cast nCore_zero c) i)) ⊢ _
  rw [bigSep_cores (F := F) (fun c => iprop(tblCore m d c ∗ (bigSep Finset.univ fun i : Fin 16 => idxB m d c i)
        ∗ bigSep Finset.univ fun i : Fin 16 => outDone m hOK d c i)),
    bigSep_sep', bigSep_sep', ← idx_blocks, ← pointsTo_piecesOf (Finset.univ) (m (tblLoc d)) (by decide : 0 < 2) fullShare,
    ← bigSep_univ_prod (fun p : Fin 2 × Fin 16 => outDone m hOK d p.1 p.2)]
  iintro ⟨Ht, Hi, Ho⟩
  isplitl [Ht]; · iexact Ht
  isplitl [Hi]; · iexact Hi
  -- the 32 blocks, each at contents of its own, are one array's
  ihave Ho1 := (bigSep_exists_pi Finset.univ (fun (p : Fin 2 × Fin 16) (f : Buf (Elt F) (outLoc d)) =>
      iprop(⌜BlockOK d (coordsV p.1 p.2) (m (tblLoc d)) (idxV m d) (hOK d) f⌝ ∗ outB d p.1 p.2 f))) $$ Ho
  icases Ho1 with ⟨%fs, Ho1⟩
  ihave Ho2 := (bigSep_pure_sep Finset.univ (fun p : Fin 2 × Fin 16 => BlockOK d (coordsV p.1 p.2) (m (tblLoc d)) (idxV m d) (hOK d) (fs p))
      (fun p => outB d p.1 p.2 (fs p))) $$ Ho1
  icases Ho2 with ⟨%hfs, Ho2⟩
  ihave Ho3 := (pointsTo_biUnion_join Finset.univ (fun p : Fin 2 × Fin 16 => oSet (coordsV p.1 p.2)) fs (fs (0, 0)) oSet_disjoint) $$ Ho2
  icases Ho3 with ⟨%g, %hg, Hg⟩
  rw [oSet_cover]
  iexists g; isplitr
  · ipureintro
    intro c i
    have h1 := hfs (c, i) (Finset.mem_univ _)
    unfold BlockOK at h1 ⊢
    rw [← h1]
    exact View.read_congr (fun y hy => hg (c, i) (Finset.mem_univ _) y hy)
  · iexact Hg

end Call

/-! ## The launch element -/

section Elem

/-- The handshakes' rounds: the left component; -/
abbrev EH : Emb UH (MT nD τ sig (HIx 1) (Elt F) ℕ UU ℕ) := embL
/-- the TensorCore pipeline's staging cells' rounds: the left of the right component, the transfers' counters being the
    component beside it. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP embR; infer_instance

/-- The launch element: the handshake cells' rounds, the pipeline's staging cells' rounds, no transfer in flight. -/
def u₀ : UU := (initOf (K (F := F)).hsCells (K (F := F)).hsToks, (initOf (Pipeline.cells cfgs cellOf_inj) (Pipeline.launchToks cfgs cellOf_inj), 1))

/-- What @main's proof starts from on core `d` beyond the launch's own deal: the pipeline's cells' ghost state and its
    duty tokens. -/
abbrev G (d : Dev nD) : sProp 𝕄 := iprop(Pipeline.cellsGhost cfgs (EP (F := F)) 0 d ∗ Pipeline.toksInit cfgs (EP (F := F)) 0 d)

theorem bigSep_emp' {I : Type} (s : Finset I) : (bigSep s fun _ => iprop(emp)) = (iprop(emp) : sProp 𝕄) := bigSep_emp_const s

theorem bigSep_fin1 (Φ : Fin 1 → sProp 𝕄) : bigSep Finset.univ Φ = Φ 0 := by
  rw [show (Finset.univ : Finset (Fin 1)) = {0} by decide, bigSep_singleton]

variable [FloatOps F] (hOK : ∀ d : Dev nD, IdxOK d (idxV m d))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m hOK).x q thr) := by
  unfold u₀
  have hG : (bigSep Finset.univ fun d : Dev nD => G (F := F) d)
      = iprop((bigSep Finset.univ fun c : Dev nD => bigSep Finset.univ fun p => Pipeline.cellsGhost cfgs (EP (F := F)) p c)
          ∗ (bigSep Finset.univ fun c : Dev nD => bigSep Finset.univ fun p => (Pipeline.toksInit cfgs (EP (F := F)) p c : sProp 𝕄))) := by
    rw [bigSep_sep', bigSep_congr fun d _ => bigSep_fin1 (F := F) (fun p => Pipeline.cellsGhost cfgs (EP (F := F)) p d),
      bigSep_congr fun d _ => bigSep_fin1 (F := F) (fun p => Pipeline.toksInit cfgs (EP (F := F)) p d)]
  rw [hG]
  iintro Hu
  ihave H := (ownU_pair _ _) $$ Hu
  icases H with ⟨HH, HR⟩
  ihave HR' := (own_pair_emb (embR (nD := nD) (τ := τ) (sig := sig) (Ix := HIx 1) (Val := Elt F) (Name := ℕ) (A := UH) (B := UP × Counters) (Lvl := ℕ)) _ _) $$ HR
  icases HR' with ⟨HP, -⟩
  ihave HP := (Entails.of_eq (show (BI.own (((Emb.inl : Emb UP (UP × Counters)).trans embR) (initOf (Pipeline.cells cfgs cellOf_inj) (Pipeline.launchToks cfgs cellOf_inj))) : sProp 𝕄)
      = BI.own (EP (F := F) (initOf (Pipeline.cells cfgs cellOf_inj) (Pipeline.launchToks cfgs cellOf_inj))) from rfl)) $$ HP
  imod (Pipeline.fund_ghost (cfgs := cfgs) (ER := EP (F := F)) (hinj := cellOf_inj)) $$ HP with ⟨Hg, Ht⟩
  imodintro
  isplitl [HH]; · iexact HH
  isplitl [Hg Ht]
  · isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Elem

end Cert.Proof.IdealLaunch

end
-- ==== Proof.IdealMain.lean ====
/-
  @main on the TensorCore, and the program's run.
  @main makes the time-major copies of the actions and of the index list (a transpose and a flattening each), starts the
  SparseCore call and waits for it, makes W_hhᵀ and the two biases as 1×512 arrays, and enters the recurrence's kernel
  region. Between two of these steps the TensorCore holds every array of @main whole, at contents named step by step;
  the region's contract is stated once (`RegionSpec`) and used here as a hypothesis.
-/
import proofs.«213871_g15814069584205_fold_wed_c4_299_27_alg».proof.Proof.IdealLaunch
import Idealize.ShloMosaic.Lib.Pipeline.Frame
import Idealize.ShloMosaic.Lib.Pipeline.Regions

noncomputable section

namespace Cert.Proof.IdealMain

open Cert.KernelIdeal Cert.KernelIdeal.Gen Cert.Proof.IdealTile Cert.Proof.IdealLaunch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- Every array of @main: the TensorCore's unscoped buffers. -/
abbrev UC : Finset (DevRef τ sig) := Pipeline.ucRefs τ sig

section Ops
variable [FloatOps F]

/-- W_hh transposed; -/
abbrev opW : HloOp τ sig (Elt F) := StableHlo.unary main_arg4 main_v5 ((transpose S512x512 [1, 0] · transposes_S512x512_S512x512_1_0) : (⟨S512x512, .f32⟩ : BufTy).Contents (Elt F) → (⟨S512x512, .f32⟩ : BufTy).Contents (Elt F))
/-- the two biases as 1×512 arrays. -/
abbrev opB0 : HloOp τ sig (Elt F) := StableHlo.reshape main_arg5 main_v6 rfl shapeCasts_S512_S1x512
abbrev opB1 : HloOp τ sig (Elt F) := StableHlo.reshape main_arg6 main_v7 rfl shapeCasts_S512_S1x512
abbrev opsMid : List (HloOp τ sig (Elt F)) := [opW, opB0, opB1]

theorem hA0 : (opA0 (F := F)).bufs ⊆ UC := Pipeline.sub_ucRefs _ (StableHlo.unary_bufs_sub ..)
theorem hA1 : (opA1 (F := F)).bufs ⊆ UC := Pipeline.sub_ucRefs _ (StableHlo.reshape_bufs_sub ..)
theorem hI0 : (opI0 (F := F)).bufs ⊆ UC := Pipeline.sub_ucRefs _ (StableHlo.unary_bufs_sub ..)
theorem hI1 : (opI1 (F := F)).bufs ⊆ UC := Pipeline.sub_ucRefs _ (StableHlo.reshape_bufs_sub ..)
theorem hW : (opW (F := F)).bufs ⊆ UC := Pipeline.sub_ucRefs _ (StableHlo.unary_bufs_sub ..)
theorem hB0 : (opB0 (F := F)).bufs ⊆ UC := Pipeline.sub_ucRefs _ (StableHlo.reshape_bufs_sub ..)
theorem hB1 : (opB1 (F := F)).bufs ⊆ UC := Pipeline.sub_ucRefs _ (StableHlo.reshape_bufs_sub ..)

/-- The arrays at launch, -/
abbrev V0 (d : Dev nD) : Valuation τ sig (Elt F) := fun b => m (d, b)
/-- after the call, the gathered array at `f`, -/
def Vcall (d : Dev nD) (f : Buf (Elt F) (outLoc d)) : Valuation τ sig (Elt F) := Function.update (Vpre m d) (Proc.devRef .tc main_v4) f
/-- when the kernel region is entered, -/
def Vmid (d : Dev nD) (f : Buf (Elt F) (outLoc d)) : Valuation τ sig (Elt F) := StableHlo.after opsMid (Vcall m d f)
/-- and after it, the result at `o`. -/
def Vend (d : Dev nD) (f : Buf (Elt F) (outLoc d)) (o : Buf (Elt F) ((SparseCore.T d : Thread nD τ).loc main_v8)) : Valuation τ sig (Elt F) :=
  Function.update (Vmid m d f) (Proc.devRef .tc main_v8) o

end Ops

/-! ## The call's three arrays among all of @main's -/

section CallSet
variable [FloatOps F]

abbrev tbl' : DevRef τ sig := Proc.devRef .tc (main_arg2 : Ref sig .tc)
abbrev idx' : DevRef τ sig := Proc.devRef .tc (main_v3 : Ref sig .tc)
abbrev out' : DevRef τ sig := Proc.devRef .tc (main_v4 : Ref sig .tc)
abbrev T3 : Finset (DevRef τ sig) := {tbl', idx', out'}

theorem T3_sub : T3 ⊆ UC := by decide

omit [FloatOps F] in
theorem held_T3 (d : Dev nD) (W : Valuation τ sig (Elt F)) :
    (held (SparseCore.T d) T3 W : sProp 𝕄) = iprop((tblLoc d ↦{fullShare} W tbl') ∗ (idxLoc d ↦{fullShare} W idx') ∗ (outLoc d ↦{fullShare} W out')) := by
  unfold held T3
  rw [SparseCore.bigSep_insert' (by decide), SparseCore.bigSep_insert' (by decide), bigSep_singleton]

theorem Vpre_eq (d : Dev nD) : Vpre m d = (opI1 (F := F)).result ((opI0 (F := F)).result ((opA1 (F := F)).result ((opA0 (F := F)).result (V0 m d)))) := rfl

/-- The operations before the call write neither the table nor the result array. -/
theorem Vpre_keep (d : Dev nD) (r : Ref sig .tc) (h0 : r ≠ main_v0) (h1 : r ≠ main_v1) (h2 : r ≠ main_v2) (h3 : r ≠ main_v3) :
    Vpre m d (Proc.devRef .tc r) = m (d, Proc.devRef .tc r) := by
  have e3 : (Proc.devRef .tc r : DevRef τ sig) ∉ (opI1 (F := F)).writes := by
    rw [StableHlo.reshape_writes, Finset.mem_singleton]; exact StableHlo.devRef_ne_of_ne h3
  have e2 : (Proc.devRef .tc r : DevRef τ sig) ∉ (opI0 (F := F)).writes := by
    rw [StableHlo.unary_writes, Finset.mem_singleton]; exact StableHlo.devRef_ne_of_ne h2
  have e1 : (Proc.devRef .tc r : DevRef τ sig) ∉ (opA1 (F := F)).writes := by
    rw [StableHlo.reshape_writes, Finset.mem_singleton]; exact StableHlo.devRef_ne_of_ne h1
  have e0 : (Proc.devRef .tc r : DevRef τ sig) ∉ (opA0 (F := F)).writes := by
    rw [StableHlo.unary_writes, Finset.mem_singleton]; exact StableHlo.devRef_ne_of_ne h0
  rw [Vpre_eq, HloOp.result_of_not_mem _ _ e3, HloOp.result_of_not_mem _ _ e2, HloOp.result_of_not_mem _ _ e1, HloOp.result_of_not_mem _ _ e0]
theorem Vpre_tbl (d : Dev nD) : Vpre m d tbl' = m (tblLoc d) := Vpre_keep m d main_arg2 (by decide) (by decide) (by decide) (by decide)
theorem Vpre_out (d : Dev nD) : Vpre m d out' = m (outLoc d) := Vpre_keep m d main_v4 (by decide) (by decide) (by decide) (by decide)

/-- Every array whole before the call: the call's three, and the others. -/
theorem call_split (d : Dev nD) :
    (held (SparseCore.T d) UC (Vpre m d) : sProp 𝕄)
      = iprop(((tblLoc d ↦{fullShare} m (tblLoc d)) ∗ (idxLoc d ↦{fullShare} idxV m d) ∗ (outLoc d ↦{fullShare} m (outLoc d)))
          ∗ held (SparseCore.T d) (UC \ T3) (Vpre m d)) := by
  rw [held_sub_split (SparseCore.T d) T3_sub (Vpre m d), held_T3, Vpre_tbl, Vpre_out]; rfl

/-- and after it, the result array at `f`. -/
theorem call_join (d : Dev nD) (f : Buf (Elt F) (outLoc d)) :
    (held (SparseCore.T d) UC (Vcall m d f) : sProp 𝕄)
      = iprop(((tblLoc d ↦{fullShare} m (tblLoc d)) ∗ (idxLoc d ↦{fullShare} idxV m d) ∗ (outLoc d ↦{fullShare} f))
          ∗ held (SparseCore.T d) (UC \ T3) (Vpre m d)) := by
  rw [held_sub_split (SparseCore.T d) T3_sub (Vcall m d f), held_T3,
    held_congr (SparseCore.T d) (V := Vcall m d f) (V' := Vpre m d) (S := UC \ T3) (fun b hb => by
      unfold Vcall
      exact Function.update_of_ne (fun e => (Finset.mem_sdiff.mp hb).2 (by rw [e]; decide)) _ _)]
  unfold Vcall
  rw [Function.update_of_ne (show tbl' ≠ out' by decide), Function.update_of_ne (show idx' ≠ out' by decide), Function.update_self, Vpre_tbl]; rfl

end CallSet

/-! ## The TensorCore's handshake state after the last call -/

section TcSt
variable [FloatOps F]
variable (hOK : ∀ d : Dev nD, IdxOK d (idxV m d))

/-- Everything of the TensorCore's state after call 0 but what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After the one call the TensorCore owes nothing more. -/
theorem tcSt_one (d : Dev nD) :
    ((K (F := F)).tcSt EH d 1 : sProp 𝕄)
      = iprop((∃ W, ⌜(K (F := F)).WBelow (SparseCore.T d) W 8⌝ ∗ owes (SparseCore.T d) 0 W) ∗ tcRest (F := F) d) := by
  unfold SparseCore.Cfg.tcSt tcRest
  rw [(K (F := F)).Otc_end d (Nat.le_refl 1)]

end TcSt

section Main
variable [FloatOps F]
variable (hOK : ∀ d : Dev nD, IdxOK d (idxV m d))

/-- The kernel region's contract: entered with every array whole at `Vmid`, the gathered array right on every block, the
    core owing nothing, it ends with the result array at `OUT` of the gathered array and everything else as it was. -/
def RegionSpec (OUT : (d : Dev nD) → Buf (Elt F) (outLoc d) → Buf (Elt F) ((SparseCore.T d : Thread nD τ).loc main_v8)) : Prop :=
  ∀ (d : Dev nD) (f : Buf (Elt F) (outLoc d)) (_ : AllOK m hOK d f) (W₀ : Waits sig (HIx 1)),
    iprop(boundary (SparseCore.T d) ∗ (held (SparseCore.T d) UC (Vmid m d f) : sProp 𝕄) ∗ owes (SparseCore.T d) 0 W₀ ∗ levAts (K (F := F)).L (K (F := F)).lev ∗ G (F := F) d)
      ⊢ wp frame (wpE (D (F := F)) 𝒱 (SparseCore.T d) none) Set.univ
          (Prog.op (.customCall (Pipeline.entry (0 : Fin 1)) ()) fun _ => .ret PUnit.unit)
          fun _ => iprop(boundary (SparseCore.T d) ∗ (held (SparseCore.T d) UC (Vend m d f (OUT d f)) : sProp 𝕄)
            ∗ ∃ W', ⌜∀ p ∈ W', p ∈ W₀ ∨ p.2 = none⌝ ∗ owes (SparseCore.T d) 0 W')

variable (OUT : (d : Dev nD) → Buf (Elt F) (outLoc d) → Buf (Elt F) ((SparseCore.T d : Thread nD τ).loc main_v8))

/-- What @main leaves the claim: every array whole, the result at `OUT` of a gathered array right on every block. -/
def FIN (d : Dev nD) : sProp 𝕄 := iprop(∃ f, ⌜AllOK m hOK d f⌝ ∗ held (SparseCore.T d) UC (Vend m d f (OUT d f)))

theorem hmain (hR : RegionSpec m hOK OUT) (κ : GSem nD τ sig → ℕ) (d : Dev nD) :
    iprop((K (F := F)).ctx EH (P m hOK) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m hOK OUT d) := by
  unfold SparseCore.Cfg.tcRes
  rw [show (unscopedBufs d (fun b => m ((SparseCore.T d).loc b)) : sProp 𝕄) = held (SparseCore.T d) UC (V0 m d) from
    Pipeline.unscopedBufs_held (Ix := HIx 1) (Name := ℕ) (U := UU) (Lvl := ℕ) d (V0 m d)]
  simp only [main, wp_bind, wp_pure]
  iintro ⟨#Hctx, Hst, ⟨Hb, Hheld, -, -⟩, HG⟩
  iapply (wp_hlo_within 𝒱 (SparseCore.T d) none Set.univ (op := opA0) (S := UC) hA0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opA1) (S := UC) hA1) $$ [Hb Hheld]
  · isplitl [Hb]; · iexact Hb
    iexact Hheld
  iintro ⟨Hb, Hheld⟩
  rw [wp_ret]; imodintro
  iapply (wp_hlo_within 𝒱 (SparseCore.T d) none Set.univ (op := opI0) (S := UC) hI0) $$ [Hb Hheld]
  · isplitl [Hb]; · iexact Hb
    iexact Hheld
  iintro ⟨Hb, Hheld⟩
  rw [wp_ret]; imodintro
  iapply (wp_hlo_within 𝒱 (SparseCore.T d) none Set.univ (op := opI1) (S := UC) hI1) $$ [Hb Hheld]
  · isplitl [Hb]; · iexact Hb
    iexact Hheld
  iintro ⟨Hb, Hheld⟩
  rw [wp_ret]; imodintro
  -- the SparseCore call: the table, the index list and the result array go out whole and come back
  ihave Hheld := (Entails.of_eq (congrArg (fun V => (held (SparseCore.T d) UC V : sProp 𝕄)) (Vpre_eq m d).symm)) $$ Hheld
  ihave Hh := (Entails.of_eq (call_split m d)) $$ Hheld
  icases Hh with ⟨⟨Ht, Hi, Ho⟩, Hrest⟩
  iapply ((K (F := F)).wp_run (D (F := F)) 𝒱 (EH := EH) (P := P m hOK) κ d 0) $$ [Hst Ht Hi Ho Hb Hrest HG]
  isplitr; · iexact Hctx
  isplitl [Hst]; · iexact Hst
  isplitl [Ht Hi Ho]
  · rw [st0_eq]
    isplitl [Ht]; · iexact Ht
    isplitl [Hi]; · iexact Hi
    iexact Ho
  iintro ⟨Hst, Hdn⟩
  ihave Hdn' := (dn0_elim m hOK d) $$ Hdn
  icases Hdn' with ⟨Ht, Hi, %f, %hf, Ho⟩
  ihave Hheld := (Entails.of_eq (call_join m d f).symm) $$ [Ht Hi Ho Hrest]
  · isplitl [Ht Hi Ho]
    · isplitl [Ht]; · iexact Ht
      isplitl [Hi]; · iexact Hi
      iexact Ho
    iexact Hrest
  -- W_hh transposed, the biases reshaped
  iapply (wp_hlo_within 𝒱 (SparseCore.T d) none Set.univ (op := opW) (S := UC) hW (V := Vcall m d f)) $$ [Hb Hheld]
  · isplitl [Hb]; · iexact Hb
    iexact Hheld
  iintro ⟨Hb, Hheld⟩
  rw [wp_ret]; imodintro
  iapply (wp_hlo_within 𝒱 (SparseCore.T d) none Set.univ (op := opB0) (S := UC) hB0) $$ [Hb Hheld]
  · isplitl [Hb]; · iexact Hb
    iexact Hheld
  iintro ⟨Hb, Hheld⟩
  rw [wp_ret]; imodintro
  iapply (wp_hlo_within 𝒱 (SparseCore.T d) none Set.univ (op := opB1) (S := UC) hB1) $$ [Hb Hheld]
  · isplitl [Hb]; · iexact Hb
    iexact Hheld
  iintro ⟨Hb, Hheld⟩
  rw [wp_ret]; imodintro
  -- the kernel region
  ihave Hst := (Entails.of_eq (show ((K (F := F)).tcSt EH d ((0 : Fin 1).val + 1) : sProp 𝕄) = (K (F := F)).tcSt EH d 1 from rfl)) $$ Hst
  ihave Hst := (Entails.of_eq (tcSt_one (F := F) d)) $$ Hst
  icases Hst with ⟨⟨%W₀, %hW₀, HO⟩, Hrest⟩
  ihave Hheld := (Entails.of_eq (show (held (SparseCore.T d) UC ((opB1 (F := F)).result ((opB0 (F := F)).result ((opW (F := F)).result (Vcall m d f)))) : sProp 𝕄)
      = held (SparseCore.T d) UC (Vmid m d f) from rfl)) $$ Hheld
  ihave #Hlev := ((K (F := F)).ctx_levAts κ) $$ Hctx
  iapply ((K (F := F)).wp_liftProg (D (F := F)) 𝒱 (SparseCore.T d) Set.univ none
    (Prog.op (.customCall (Pipeline.entry (0 : Fin 1)) ()) fun _ => .ret PUnit.unit) _)
  iapply (wp_wand_r frame _ _)
  isplitl [Hb Hheld HO HG]
  · iapply (hR d f hf W₀)
    isplitl [Hb]; · iexact Hb
    isplitl [Hheld]; · iexact Hheld
    isplitl [HO]; · iexact HO
    isplitr; · iexact Hlev
    iexact HG
  iintro %_ ⟨Hb, Hheld, %W', %hW', HO⟩
  imodintro
  isplitl [HO Hrest]
  · iapply (Entails.of_eq (tcSt_one (F := F) d).symm)
    isplitl [HO]
    · iexists W'; isplitr
      · ipureintro; intro p hp
        rcases hW' p hp with h | h
        · exact hW₀ p h
        · show (K (F := F)).lev (SparseCore.T d, p.1) p.2 ≤ 8
          rw [h]; exact Nat.zero_le _
      · iexact HO
    · iexact Hrest
  · unfold FIN
    iexists f; isplitr
    · ipureintro; exact hf
    · iexact Hheld

end Main

/-! ## The program's run -/

section Run
variable [FloatOps F]
variable (hOK : ∀ d : Dev nD, IdxOK d (idxV m d))
variable (OUT : (d : Dev nD) → Buf (Elt F) (outLoc d) → Buf (Elt F) ((SparseCore.T d : Thread nD τ).loc main_v8))

/-- No step of @main writes an array other than the nine it makes. -/
theorem Vend_keep (d : Dev nD) (f : Buf (Elt F) (outLoc d)) (o : Buf (Elt F) ((SparseCore.T d : Thread nD τ).loc main_v8)) (r : Ref sig .tc)
    (h0 : r ≠ main_v0) (h1 : r ≠ main_v1) (h2 : r ≠ main_v2) (h3 : r ≠ main_v3) (h4 : r ≠ main_v4) (h5 : r ≠ main_v5) (h6 : r ≠ main_v6)
    (h7 : r ≠ main_v7) (h8 : r ≠ main_v8) : Vend m d f o (Proc.devRef .tc r) = m (d, Proc.devRef .tc r) := by
  have e7 : (Proc.devRef .tc r : DevRef τ sig) ∉ (opB1 (F := F)).writes := by
    rw [StableHlo.reshape_writes, Finset.mem_singleton]; exact StableHlo.devRef_ne_of_ne h7
  have e6 : (Proc.devRef .tc r : DevRef τ sig) ∉ (opB0 (F := F)).writes := by
    rw [StableHlo.reshape_writes, Finset.mem_singleton]; exact StableHlo.devRef_ne_of_ne h6
  have e5 : (Proc.devRef .tc r : DevRef τ sig) ∉ (opW (F := F)).writes := by
    rw [StableHlo.unary_writes, Finset.mem_singleton]; exact StableHlo.devRef_ne_of_ne h5
  unfold Vend
  rw [Function.update_of_ne (StableHlo.devRef_ne_of_ne h8)]
  show (opB1 (F := F)).result ((opB0 (F := F)).result ((opW (F := F)).result (Vcall m d f))) (Proc.devRef .tc r) = _
  rw [HloOp.result_of_not_mem _ _ e7, HloOp.result_of_not_mem _ _ e6, HloOp.result_of_not_mem _ _ e5]
  unfold Vcall
  rw [Function.update_of_ne (StableHlo.devRef_ne_of_ne h4)]
  exact Vpre_keep m d r h0 h1 h2 h3

/-- What the end state says on device `d`: every array of @main at its last named contents, for a gathered array right
    on every block. -/
def fq (d : Dev nD) (s' : Phys nD τ sig (Elt F)) : Prop :=
  ∃ f, AllOK m hOK d f ∧ ∀ b ∈ UC, s'.mem.mem (d, b) = Vend m d f (OUT d f) b

theorem hfin (d : Dev nD) (s' : Phys nD τ sig (Elt F)) : iprop(FIN m hOK OUT d ∗ SI s') ⊢ (⌜fq m hOK OUT d s'⌝ : sProp 𝕄) := by
  unfold FIN StableHlo.held
  iintro ⟨⟨%f, %hf, Hh⟩, HSI⟩
  ihave Hr := (pointsTo_read_all UC (fun b => ((SparseCore.T d : Thread nD τ).1, b)) (Vend m d f (OUT d f)) s') $$ [Hh HSI]
  · isplitl [Hh] <;> iassumption
  icases Hr with ⟨%h, -⟩
  ipureintro; exact ⟨f, hf, h⟩

/-- The run's post: on every device the result array at `OUT` of a gathered array right on every block, and the seven
    arguments as launched. -/
def QC : PUnit × MemSt nD τ sig (Elt F) → Prop := fun r => ∀ c : Dev nD,
  (∃ f, AllOK m hOK c f ∧ r.2.mem ((c.tc : Thread nD τ).loc main_v8) = OUT c f)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)

theorem QC_of_fq (s' : Phys nD τ sig (Elt F)) (h : ∀ d, fq m hOK OUT d s') : QC m hOK OUT (⟨⟩, s'.mem) := by
  intro c
  obtain ⟨f, hf, hb⟩ := h c
  have hm : ∀ r : Ref sig .tc, (Proc.devRef .tc r : DevRef τ sig).isScoped = false → s'.mem.mem (c, Proc.devRef .tc r) = Vend m c f (OUT c f) (Proc.devRef .tc r) :=
    fun r hr => hb _ (Finset.mem_filter.mpr ⟨StableHlo.devRef_mem_tcRefs r, by rw [hr]; exact Bool.false_ne_true⟩)
  refine ⟨⟨f, hf, (hm main_v8 rfl).trans (by unfold Vend; exact Function.update_self _ _ _)⟩, ?_, ?_, ?_, ?_, ?_, ?_, ?_⟩
  · exact (hm main_arg0 rfl).trans (Vend_keep m c f _ main_arg0 (by decide) (by decide) (by decide) (by decide) (by decide) (by decide) (by decide) (by decide) (by decide))
  · exact (hm main_arg1 rfl).trans (Vend_keep m c f _ main_arg1 (by decide) (by decide) (by decide) (by decide) (by decide) (by decide) (by decide) (by decide) (by decide))
  · exact (hm main_arg2 rfl).trans (Vend_keep m c f _ main_arg2 (by decide) (by decide) (by decide) (by decide) (by decide) (by decide) (by decide) (by decide) (by decide))
  · exact (hm main_arg3 rfl).trans (Vend_keep m c f _ main_arg3 (by decide) (by decide) (by decide) (by decide) (by decide) (by decide) (by decide) (by decide) (by decide))
  · exact (hm main_arg4 rfl).trans (Vend_keep m c f _ main_arg4 (by decide) (by decide) (by decide) (by decide) (by decide) (by decide) (by decide) (by decide) (by decide))
  · exact (hm main_arg5 rfl).trans (Vend_keep m c f _ main_arg5 (by decide) (by decide) (by decide) (by decide) (by decide) (by decide) (by decide) (by decide) (by decide))
  · exact (hm main_arg6 rfl).trans (Vend_keep m c f _ main_arg6 (by decide) (by decide) (by decide) (by decide) (by decide) (by decide) (by decide) (by decide) (by decide))

/-- THE RUN: given the region's contract, every weakly fair execution of the program's 35 threads ends, faulting nowhere,
    with the result array at `OUT` of the gathered rows and the arguments unchanged. -/
theorem run_main [∀ e, Nonempty (Elt F e)] (hR : RegionSpec m hOK OUT) :
    θ_run (Cert.KernelIdeal.defs (F := F)) (Cert.KernelIdeal.threads (F := F)) ⟨m, fun _ => 0, ρ⟩ (QC m hOK OUT) :=
  SparseCore.Cfg.θ_run_sc (K := K (F := F)) (D := D (F := F)) (𝒱 := 𝒱) (EH := EH) (P := P m hOK) facts v₀
    (fun q hq => match q with | 0 => nomatch hq)
    (fun q _ => match q with | 0 => tileObl m hOK)
    (fun q _ => match q with | 0 => SparseCore.Cfg.VecSplit.of_plain (vecSplit m hOK))
    m ρ main (fun d => G (F := F) d) (FIN m hOK OUT) (u₀ (F := F)) (sep_elim_left.trans (hu₀ m hOK)) (hmain m ρ hOK OUT hR)
    (fq m hOK OUT) (hfin m hOK OUT) (QC m hOK OUT) (QC_of_fq m hOK OUT)

end Run

/-! ## The precondition's range, at the index list -/

section Range
variable [FloatOps F]

/-- The index list is state_indices transposed and flattened, so each of its entries is an entry of state_indices: if
    those all name table rows, so do the list's. -/
theorem idxOK_of_range (h : ∀ (d : Dev nD) (x : S16x512.Idx), (m ((SparseCore.T d : Thread nD τ).loc main_arg1) x).toNat < 1024) :
    ∀ d : Dev nD, IdxOK d (idxV m d) := by
  intro d L x
  have e : idxV m d = fun i => shapeCast S8192 (transpose S512x16 [1, 0] (m ((SparseCore.T d : Thread nD τ).loc main_arg1)) transposes_S16x512_S512x16_1_0)
      shapeCasts_S512x16_S8192 i := by
    unfold idxV Vpre; after_results; rfl
  show (idxV m d ((idxBlk L).view.emb x)).toNat < 1024
  rw [e]
  exact h d _

end Range

end Cert.Proof.IdealMain

end
-- ==== Proof.IdealRegionOffsets.lean ====
import proofs.«213871_g15814069584205_fold_wed_c4_299_27_alg».proof.Proof.Gen.KernelIdeal.Launch
import proofs.«213871_g15814069584205_fold_wed_c4_299_27_alg».proof.Proof.Gen.KernelIdeal.Skeleton
import proofs.«213871_g15814069584205_fold_wed_c4_299_27_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.Proof.IdealRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The row offsets of the recurrence's reads and of the projection's store, in closed form: the slot is the
    parity of the point (store) or of the point before (reads), the row is sixteen times the step. Stated per
    parity, so that every rectangle of a run is a literal one. -/

/-- The first conditional's word: the grid coordinate is zero. -/
abbrev cond1 (i : grid1.Coords) : Prop :=
  (Scalar.cmpi .ne (Scalar.extui (Scalar.cmpi .eq (BitVec.ofNat 32 (i 0).val) 0#32)) 0#32) = 1#1

/-- Either projection slot lies in the two-slot buffer. -/
theorem inb_slot0 : ∀ a, (![0, 0, 0] : Fin 3 → Nat) a + S1x2048x512.size a ≤ S2x2048x512.size a := by decide
theorem inb_slot1 : ∀ a, (![1, 0, 0] : Fin 3 → Nat) a + S1x2048x512.size a ≤ S2x2048x512.size a := by decide

/-- The parity of a grid point: it names the projection slot the point writes; the other one is the slot it reads. -/
class Par (i : grid1.Coords) (p : ℕ) : Prop where
  eq : (i 0).val % 2 = p

theorem k1_off1_even : ∀ i : grid1.Coords, (i 0).val % 2 = 0 → k1_off1 i = ![0, 0, 0] := by decide +kernel
theorem k1_off1_odd : ∀ i : grid1.Coords, (i 0).val % 2 = 1 → k1_off1 i = ![1, 0, 0] := by decide +kernel
instance closedOff_k1_off1_even (i : grid1.Coords) [h : Par i 0] : ClosedOff (k1_off1 i) := ⟨![0, 0, 0], k1_off1_even i h.eq⟩
instance closedOff_k1_off1_odd (i : grid1.Coords) [h : Par i 1] : ClosedOff (k1_off1 i) := ⟨![1, 0, 0], k1_off1_odd i h.eq⟩
theorem k1_off2_even : ∀ i : grid1.Coords, (i 0).val % 2 = 0 → k1_off2 i = ![1, 0, 0] := by decide +kernel
theorem k1_off2_odd : ∀ i : grid1.Coords, (i 0).val % 2 = 1 → k1_off2 i = ![0, 0, 0] := by decide +kernel
instance closedOff_k1_off2_even (i : grid1.Coords) [h : Par i 0] : ClosedOff (k1_off2 i) := ⟨![1, 0, 0], k1_off2_even i h.eq⟩
instance closedOff_k1_off2_odd (i : grid1.Coords) [h : Par i 1] : ClosedOff (k1_off2 i) := ⟨![0, 0, 0], k1_off2_odd i h.eq⟩
theorem k1_off3_even : ∀ i : grid1.Coords, (i 0).val % 2 = 0 → k1_off3 i = ![1, 16, 0] := by decide +kernel
theorem k1_off3_odd : ∀ i : grid1.Coords, (i 0).val % 2 = 1 → k1_off3 i = ![0, 16, 0] := by decide +kernel
instance closedOff_k1_off3_even (i : grid1.Coords) [h : Par i 0] : ClosedOff (k1_off3 i) := ⟨![1, 16, 0], k1_off3_even i h.eq⟩
instance closedOff_k1_off3_odd (i : grid1.Coords) [h : Par i 1] : ClosedOff (k1_off3 i) := ⟨![0, 16, 0], k1_off3_odd i h.eq⟩
theorem k1_off4_even : ∀ i : grid1.Coords, (i 0).val % 2 = 0 → k1_off4 i = ![1, 32, 0] := by decide +kernel
theorem k1_off4_odd : ∀ i : grid1.Coords, (i 0).val % 2 = 1 → k1_off4 i = ![0, 32, 0] := by decide +kernel
instance closedOff_k1_off4_even (i : grid1.Coords) [h : Par i 0] : ClosedOff (k1_off4 i) := ⟨![1, 32, 0], k1_off4_even i h.eq⟩
instance closedOff_k1_off4_odd (i : grid1.Coords) [h : Par i 1] : ClosedOff (k1_off4 i) := ⟨![0, 32, 0], k1_off4_odd i h.eq⟩
theorem k1_off5_even : ∀ i : grid1.Coords, (i 0).val % 2 = 0 → k1_off5 i = ![1, 48, 0] := by decide +kernel
theorem k1_off5_odd : ∀ i : grid1.Coords, (i 0).val % 2 = 1 → k1_off5 i = ![0, 48, 0] := by decide +kernel
instance closedOff_k1_off5_even (i : grid1.Coords) [h : Par i 0] : ClosedOff (k1_off5 i) := ⟨![1, 48, 0], k1_off5_even i h.eq⟩
instance closedOff_k1_off5_odd (i : grid1.Coords) [h : Par i 1] : ClosedOff (k1_off5 i) := ⟨![0, 48, 0], k1_off5_odd i h.eq⟩
theorem k1_off6_even : ∀ i : grid1.Coords, (i 0).val % 2 = 0 → k1_off6 i = ![1, 64, 0] := by decide +kernel
theorem k1_off6_odd : ∀ i : grid1.Coords, (i 0).val % 2 = 1 → k1_off6 i = ![0, 64, 0] := by decide +kernel
instance closedOff_k1_off6_even (i : grid1.Coords) [h : Par i 0] : ClosedOff (k1_off6 i) := ⟨![1, 64, 0], k1_off6_even i h.eq⟩
instance closedOff_k1_off6_odd (i : grid1.Coords) [h : Par i 1] : ClosedOff (k1_off6 i) := ⟨![0, 64, 0], k1_off6_odd i h.eq⟩
theorem k1_off7_even : ∀ i : grid1.Coords, (i 0).val % 2 = 0 → k1_off7 i = ![1, 80, 0] := by decide +kernel
theorem k1_off7_odd : ∀ i : grid1.Coords, (i 0).val % 2 = 1 → k1_off7 i = ![0, 80, 0] := by decide +kernel
instance closedOff_k1_off7_even (i : grid1.Coords) [h : Par i 0] : ClosedOff (k1_off7 i) := ⟨![1, 80, 0], k1_off7_even i h.eq⟩
instance closedOff_k1_off7_odd (i : grid1.Coords) [h : Par i 1] : ClosedOff (k1_off7 i) := ⟨![0, 80, 0], k1_off7_odd i h.eq⟩
theorem k1_off8_even : ∀ i : grid1.Coords, (i 0).val % 2 = 0 → k1_off8 i = ![1, 96, 0] := by decide +kernel
theorem k1_off8_odd : ∀ i : grid1.Coords, (i 0).val % 2 = 1 → k1_off8 i = ![0, 96, 0] := by decide +kernel
instance closedOff_k1_off8_even (i : grid1.Coords) [h : Par i 0] : ClosedOff (k1_off8 i) := ⟨![1, 96, 0], k1_off8_even i h.eq⟩
instance closedOff_k1_off8_odd (i : grid1.Coords) [h : Par i 1] : ClosedOff (k1_off8 i) := ⟨![0, 96, 0], k1_off8_odd i h.eq⟩
theorem k1_off9_even : ∀ i : grid1.Coords, (i 0).val % 2 = 0 → k1_off9 i = ![1, 112, 0] := by decide +kernel
theorem k1_off9_odd : ∀ i : grid1.Coords, (i 0).val % 2 = 1 → k1_off9 i = ![0, 112, 0] := by decide +kernel
instance closedOff_k1_off9_even (i : grid1.Coords) [h : Par i 0] : ClosedOff (k1_off9 i) := ⟨![1, 112, 0], k1_off9_even i h.eq⟩
instance closedOff_k1_off9_odd (i : grid1.Coords) [h : Par i 1] : ClosedOff (k1_off9 i) := ⟨![0, 112, 0], k1_off9_odd i h.eq⟩
theorem k1_off10_even : ∀ i : grid1.Coords, (i 0).val % 2 = 0 → k1_off10 i = ![1, 128, 0] := by decide +kernel
theorem k1_off10_odd : ∀ i : grid1.Coords, (i 0).val % 2 = 1 → k1_off10 i = ![0, 128, 0] := by decide +kernel
instance closedOff_k1_off10_even (i : grid1.Coords) [h : Par i 0] : ClosedOff (k1_off10 i) := ⟨![1, 128, 0], k1_off10_even i h.eq⟩
instance closedOff_k1_off10_odd (i : grid1.Coords) [h : Par i 1] : ClosedOff (k1_off10 i) := ⟨![0, 128, 0], k1_off10_odd i h.eq⟩
theorem k1_off11_even : ∀ i : grid1.Coords, (i 0).val % 2 = 0 → k1_off11 i = ![1, 144, 0] := by decide +kernel
theorem k1_off11_odd : ∀ i : grid1.Coords, (i 0).val % 2 = 1 → k1_off11 i = ![0, 144, 0] := by decide +kernel
instance closedOff_k1_off11_even (i : grid1.Coords) [h : Par i 0] : ClosedOff (k1_off11 i) := ⟨![1, 144, 0], k1_off11_even i h.eq⟩
instance closedOff_k1_off11_odd (i : grid1.Coords) [h : Par i 1] : ClosedOff (k1_off11 i) := ⟨![0, 144, 0], k1_off11_odd i h.eq⟩
theorem k1_off12_even : ∀ i : grid1.Coords, (i 0).val % 2 = 0 → k1_off12 i = ![1, 160, 0] := by decide +kernel
theorem k1_off12_odd : ∀ i : grid1.Coords, (i 0).val % 2 = 1 → k1_off12 i = ![0, 160, 0] := by decide +kernel
instance closedOff_k1_off12_even (i : grid1.Coords) [h : Par i 0] : ClosedOff (k1_off12 i) := ⟨![1, 160, 0], k1_off12_even i h.eq⟩
instance closedOff_k1_off12_odd (i : grid1.Coords) [h : Par i 1] : ClosedOff (k1_off12 i) := ⟨![0, 160, 0], k1_off12_odd i h.eq⟩
theorem k1_off13_even : ∀ i : grid1.Coords, (i 0).val % 2 = 0 → k1_off13 i = ![1, 176, 0] := by decide +kernel
theorem k1_off13_odd : ∀ i : grid1.Coords, (i 0).val % 2 = 1 → k1_off13 i = ![0, 176, 0] := by decide +kernel
instance closedOff_k1_off13_even (i : grid1.Coords) [h : Par i 0] : ClosedOff (k1_off13 i) := ⟨![1, 176, 0], k1_off13_even i h.eq⟩
instance closedOff_k1_off13_odd (i : grid1.Coords) [h : Par i 1] : ClosedOff (k1_off13 i) := ⟨![0, 176, 0], k1_off13_odd i h.eq⟩
theorem k1_off14_even : ∀ i : grid1.Coords, (i 0).val % 2 = 0 → k1_off14 i = ![1, 192, 0] := by decide +kernel
theorem k1_off14_odd : ∀ i : grid1.Coords, (i 0).val % 2 = 1 → k1_off14 i = ![0, 192, 0] := by decide +kernel
instance closedOff_k1_off14_even (i : grid1.Coords) [h : Par i 0] : ClosedOff (k1_off14 i) := ⟨![1, 192, 0], k1_off14_even i h.eq⟩
instance closedOff_k1_off14_odd (i : grid1.Coords) [h : Par i 1] : ClosedOff (k1_off14 i) := ⟨![0, 192, 0], k1_off14_odd i h.eq⟩
theorem k1_off15_even : ∀ i : grid1.Coords, (i 0).val % 2 = 0 → k1_off15 i = ![1, 208, 0] := by decide +kernel
theorem k1_off15_odd : ∀ i : grid1.Coords, (i 0).val % 2 = 1 → k1_off15 i = ![0, 208, 0] := by decide +kernel
instance closedOff_k1_off15_even (i : grid1.Coords) [h : Par i 0] : ClosedOff (k1_off15 i) := ⟨![1, 208, 0], k1_off15_even i h.eq⟩
instance closedOff_k1_off15_odd (i : grid1.Coords) [h : Par i 1] : ClosedOff (k1_off15 i) := ⟨![0, 208, 0], k1_off15_odd i h.eq⟩
theorem k1_off16_even : ∀ i : grid1.Coords, (i 0).val % 2 = 0 → k1_off16 i = ![1, 224, 0] := by decide +kernel
theorem k1_off16_odd : ∀ i : grid1.Coords, (i 0).val % 2 = 1 → k1_off16 i = ![0, 224, 0] := by decide +kernel
instance closedOff_k1_off16_even (i : grid1.Coords) [h : Par i 0] : ClosedOff (k1_off16 i) := ⟨![1, 224, 0], k1_off16_even i h.eq⟩
instance closedOff_k1_off16_odd (i : grid1.Coords) [h : Par i 1] : ClosedOff (k1_off16 i) := ⟨![0, 224, 0], k1_off16_odd i h.eq⟩
theorem k1_off17_even : ∀ i : grid1.Coords, (i 0).val % 2 = 0 → k1_off17 i = ![1, 240, 0] := by decide +kernel
theorem k1_off17_odd : ∀ i : grid1.Coords, (i 0).val % 2 = 1 → k1_off17 i = ![0, 240, 0] := by decide +kernel
instance closedOff_k1_off17_even (i : grid1.Coords) [h : Par i 0] : ClosedOff (k1_off17 i) := ⟨![1, 240, 0], k1_off17_even i h.eq⟩
instance closedOff_k1_off17_odd (i : grid1.Coords) [h : Par i 1] : ClosedOff (k1_off17 i) := ⟨![0, 240, 0], k1_off17_odd i h.eq⟩
theorem k1_off18_even : ∀ i : grid1.Coords, (i 0).val % 2 = 0 → k1_off18 i = ![1, 256, 0] := by decide +kernel
theorem k1_off18_odd : ∀ i : grid1.Coords, (i 0).val % 2 = 1 → k1_off18 i = ![0, 256, 0] := by decide +kernel
instance closedOff_k1_off18_even (i : grid1.Coords) [h : Par i 0] : ClosedOff (k1_off18 i) := ⟨![1, 256, 0], k1_off18_even i h.eq⟩
instance closedOff_k1_off18_odd (i : grid1.Coords) [h : Par i 1] : ClosedOff (k1_off18 i) := ⟨![0, 256, 0], k1_off18_odd i h.eq⟩
theorem k1_off19_even : ∀ i : grid1.Coords, (i 0).val % 2 = 0 → k1_off19 i = ![1, 272, 0] := by decide +kernel
theorem k1_off19_odd : ∀ i : grid1.Coords, (i 0).val % 2 = 1 → k1_off19 i = ![0, 272, 0] := by decide +kernel
instance closedOff_k1_off19_even (i : grid1.Coords) [h : Par i 0] : ClosedOff (k1_off19 i) := ⟨![1, 272, 0], k1_off19_even i h.eq⟩
instance closedOff_k1_off19_odd (i : grid1.Coords) [h : Par i 1] : ClosedOff (k1_off19 i) := ⟨![0, 272, 0], k1_off19_odd i h.eq⟩
theorem k1_off20_even : ∀ i : grid1.Coords, (i 0).val % 2 = 0 → k1_off20 i = ![1, 288, 0] := by decide +kernel
theorem k1_off20_odd : ∀ i : grid1.Coords, (i 0).val % 2 = 1 → k1_off20 i = ![0, 288, 0] := by decide +kernel
instance closedOff_k1_off20_even (i : grid1.Coords) [h : Par i 0] : ClosedOff (k1_off20 i) := ⟨![1, 288, 0], k1_off20_even i h.eq⟩
instance closedOff_k1_off20_odd (i : grid1.Coords) [h : Par i 1] : ClosedOff (k1_off20 i) := ⟨![0, 288, 0], k1_off20_odd i h.eq⟩
theorem k1_off21_even : ∀ i : grid1.Coords, (i 0).val % 2 = 0 → k1_off21 i = ![1, 304, 0] := by decide +kernel
theorem k1_off21_odd : ∀ i : grid1.Coords, (i 0).val % 2 = 1 → k1_off21 i = ![0, 304, 0] := by decide +kernel
instance closedOff_k1_off21_even (i : grid1.Coords) [h : Par i 0] : ClosedOff (k1_off21 i) := ⟨![1, 304, 0], k1_off21_even i h.eq⟩
instance closedOff_k1_off21_odd (i : grid1.Coords) [h : Par i 1] : ClosedOff (k1_off21 i) := ⟨![0, 304, 0], k1_off21_odd i h.eq⟩
theorem k1_off22_even : ∀ i : grid1.Coords, (i 0).val % 2 = 0 → k1_off22 i = ![1, 320, 0] := by decide +kernel
theorem k1_off22_odd : ∀ i : grid1.Coords, (i 0).val % 2 = 1 → k1_off22 i = ![0, 320, 0] := by decide +kernel
instance closedOff_k1_off22_even (i : grid1.Coords) [h : Par i 0] : ClosedOff (k1_off22 i) := ⟨![1, 320, 0], k1_off22_even i h.eq⟩
instance closedOff_k1_off22_odd (i : grid1.Coords) [h : Par i 1] : ClosedOff (k1_off22 i) := ⟨![0, 320, 0], k1_off22_odd i h.eq⟩
theorem k1_off23_even : ∀ i : grid1.Coords, (i 0).val % 2 = 0 → k1_off23 i = ![1, 336, 0] := by decide +kernel
theorem k1_off23_odd : ∀ i : grid1.Coords, (i 0).val % 2 = 1 → k1_off23 i = ![0, 336, 0] := by decide +kernel
instance closedOff_k1_off23_even (i : grid1.Coords) [h : Par i 0] : ClosedOff (k1_off23 i) := ⟨![1, 336, 0], k1_off23_even i h.eq⟩
instance closedOff_k1_off23_odd (i : grid1.Coords) [h : Par i 1] : ClosedOff (k1_off23 i) := ⟨![0, 336, 0], k1_off23_odd i h.eq⟩
theorem k1_off24_even : ∀ i : grid1.Coords, (i 0).val % 2 = 0 → k1_off24 i = ![1, 352, 0] := by decide +kernel
theorem k1_off24_odd : ∀ i : grid1.Coords, (i 0).val % 2 = 1 → k1_off24 i = ![0, 352, 0] := by decide +kernel
instance closedOff_k1_off24_even (i : grid1.Coords) [h : Par i 0] : ClosedOff (k1_off24 i) := ⟨![1, 352, 0], k1_off24_even i h.eq⟩
instance closedOff_k1_off24_odd (i : grid1.Coords) [h : Par i 1] : ClosedOff (k1_off24 i) := ⟨![0, 352, 0], k1_off24_odd i h.eq⟩
theorem k1_off25_even : ∀ i : grid1.Coords, (i 0).val % 2 = 0 → k1_off25 i = ![1, 368, 0] := by decide +kernel
theorem k1_off25_odd : ∀ i : grid1.Coords, (i 0).val % 2 = 1 → k1_off25 i = ![0, 368, 0] := by decide +kernel
instance closedOff_k1_off25_even (i : grid1.Coords) [h : Par i 0] : ClosedOff (k1_off25 i) := ⟨![1, 368, 0], k1_off25_even i h.eq⟩
instance closedOff_k1_off25_odd (i : grid1.Coords) [h : Par i 1] : ClosedOff (k1_off25 i) := ⟨![0, 368, 0], k1_off25_odd i h.eq⟩
theorem k1_off26_even : ∀ i : grid1.Coords, (i 0).val % 2 = 0 → k1_off26 i = ![1, 384, 0] := by decide +kernel
theorem k1_off26_odd : ∀ i : grid1.Coords, (i 0).val % 2 = 1 → k1_off26 i = ![0, 384, 0] := by decide +kernel
instance closedOff_k1_off26_even (i : grid1.Coords) [h : Par i 0] : ClosedOff (k1_off26 i) := ⟨![1, 384, 0], k1_off26_even i h.eq⟩
instance closedOff_k1_off26_odd (i : grid1.Coords) [h : Par i 1] : ClosedOff (k1_off26 i) := ⟨![0, 384, 0], k1_off26_odd i h.eq⟩
theorem k1_off27_even : ∀ i : grid1.Coords, (i 0).val % 2 = 0 → k1_off27 i = ![1, 400, 0] := by decide +kernel
theorem k1_off27_odd : ∀ i : grid1.Coords, (i 0).val % 2 = 1 → k1_off27 i = ![0, 400, 0] := by decide +kernel
instance closedOff_k1_off27_even (i : grid1.Coords) [h : Par i 0] : ClosedOff (k1_off27 i) := ⟨![1, 400, 0], k1_off27_even i h.eq⟩
instance closedOff_k1_off27_odd (i : grid1.Coords) [h : Par i 1] : ClosedOff (k1_off27 i) := ⟨![0, 400, 0], k1_off27_odd i h.eq⟩
theorem k1_off28_even : ∀ i : grid1.Coords, (i 0).val % 2 = 0 → k1_off28 i = ![1, 416, 0] := by decide +kernel
theorem k1_off28_odd : ∀ i : grid1.Coords, (i 0).val % 2 = 1 → k1_off28 i = ![0, 416, 0] := by decide +kernel
instance closedOff_k1_off28_even (i : grid1.Coords) [h : Par i 0] : ClosedOff (k1_off28 i) := ⟨![1, 416, 0], k1_off28_even i h.eq⟩
instance closedOff_k1_off28_odd (i : grid1.Coords) [h : Par i 1] : ClosedOff (k1_off28 i) := ⟨![0, 416, 0], k1_off28_odd i h.eq⟩
theorem k1_off29_even : ∀ i : grid1.Coords, (i 0).val % 2 = 0 → k1_off29 i = ![1, 432, 0] := by decide +kernel
theorem k1_off29_odd : ∀ i : grid1.Coords, (i 0).val % 2 = 1 → k1_off29 i = ![0, 432, 0] := by decide +kernel
instance closedOff_k1_off29_even (i : grid1.Coords) [h : Par i 0] : ClosedOff (k1_off29 i) := ⟨![1, 432, 0], k1_off29_even i h.eq⟩
instance closedOff_k1_off29_odd (i : grid1.Coords) [h : Par i 1] : ClosedOff (k1_off29 i) := ⟨![0, 432, 0], k1_off29_odd i h.eq⟩
theorem k1_off30_even : ∀ i : grid1.Coords, (i 0).val % 2 = 0 → k1_off30 i = ![1, 448, 0] := by decide +kernel
theorem k1_off30_odd : ∀ i : grid1.Coords, (i 0).val % 2 = 1 → k1_off30 i = ![0, 448, 0] := by decide +kernel
instance closedOff_k1_off30_even (i : grid1.Coords) [h : Par i 0] : ClosedOff (k1_off30 i) := ⟨![1, 448, 0], k1_off30_even i h.eq⟩
instance closedOff_k1_off30_odd (i : grid1.Coords) [h : Par i 1] : ClosedOff (k1_off30 i) := ⟨![0, 448, 0], k1_off30_odd i h.eq⟩
theorem k1_off31_even : ∀ i : grid1.Coords, (i 0).val % 2 = 0 → k1_off31 i = ![1, 464, 0] := by decide +kernel
theorem k1_off31_odd : ∀ i : grid1.Coords, (i 0).val % 2 = 1 → k1_off31 i = ![0, 464, 0] := by decide +kernel
instance closedOff_k1_off31_even (i : grid1.Coords) [h : Par i 0] : ClosedOff (k1_off31 i) := ⟨![1, 464, 0], k1_off31_even i h.eq⟩
instance closedOff_k1_off31_odd (i : grid1.Coords) [h : Par i 1] : ClosedOff (k1_off31 i) := ⟨![0, 464, 0], k1_off31_odd i h.eq⟩
theorem k1_off32_even : ∀ i : grid1.Coords, (i 0).val % 2 = 0 → k1_off32 i = ![1, 480, 0] := by decide +kernel
theorem k1_off32_odd : ∀ i : grid1.Coords, (i 0).val % 2 = 1 → k1_off32 i = ![0, 480, 0] := by decide +kernel
instance closedOff_k1_off32_even (i : grid1.Coords) [h : Par i 0] : ClosedOff (k1_off32 i) := ⟨![1, 480, 0], k1_off32_even i h.eq⟩
instance closedOff_k1_off32_odd (i : grid1.Coords) [h : Par i 1] : ClosedOff (k1_off32 i) := ⟨![0, 480, 0], k1_off32_odd i h.eq⟩
theorem k1_off33_even : ∀ i : grid1.Coords, (i 0).val % 2 = 0 → k1_off33 i = ![1, 496, 0] := by decide +kernel
theorem k1_off33_odd : ∀ i : grid1.Coords, (i 0).val % 2 = 1 → k1_off33 i = ![0, 496, 0] := by decide +kernel
instance closedOff_k1_off33_even (i : grid1.Coords) [h : Par i 0] : ClosedOff (k1_off33 i) := ⟨![1, 496, 0], k1_off33_even i h.eq⟩
instance closedOff_k1_off33_odd (i : grid1.Coords) [h : Par i 1] : ClosedOff (k1_off33 i) := ⟨![0, 496, 0], k1_off33_odd i h.eq⟩
theorem k1_off34_even : ∀ i : grid1.Coords, (i 0).val % 2 = 0 → k1_off34 i = ![1, 512, 0] := by decide +kernel
theorem k1_off34_odd : ∀ i : grid1.Coords, (i 0).val % 2 = 1 → k1_off34 i = ![0, 512, 0] := by decide +kernel
instance closedOff_k1_off34_even (i : grid1.Coords) [h : Par i 0] : ClosedOff (k1_off34 i) := ⟨![1, 512, 0], k1_off34_even i h.eq⟩
instance closedOff_k1_off34_odd (i : grid1.Coords) [h : Par i 1] : ClosedOff (k1_off34 i) := ⟨![0, 512, 0], k1_off34_odd i h.eq⟩
theorem k1_off35_even : ∀ i : grid1.Coords, (i 0).val % 2 = 0 → k1_off35 i = ![1, 528, 0] := by decide +kernel
theorem k1_off35_odd : ∀ i : grid1.Coords, (i 0).val % 2 = 1 → k1_off35 i = ![0, 528, 0] := by decide +kernel
instance closedOff_k1_off35_even (i : grid1.Coords) [h : Par i 0] : ClosedOff (k1_off35 i) := ⟨![1, 528, 0], k1_off35_even i h.eq⟩
instance closedOff_k1_off35_odd (i : grid1.Coords) [h : Par i 1] : ClosedOff (k1_off35 i) := ⟨![0, 528, 0], k1_off35_odd i h.eq⟩
theorem k1_off36_even : ∀ i : grid1.Coords, (i 0).val % 2 = 0 → k1_off36 i = ![1, 544, 0] := by decide +kernel
theorem k1_off36_odd : ∀ i : grid1.Coords, (i 0).val % 2 = 1 → k1_off36 i = ![0, 544, 0] := by decide +kernel
instance closedOff_k1_off36_even (i : grid1.Coords) [h : Par i 0] : ClosedOff (k1_off36 i) := ⟨![1, 544, 0], k1_off36_even i h.eq⟩
instance closedOff_k1_off36_odd (i : grid1.Coords) [h : Par i 1] : ClosedOff (k1_off36 i) := ⟨![0, 544, 0], k1_off36_odd i h.eq⟩
theorem k1_off37_even : ∀ i : grid1.Coords, (i 0).val % 2 = 0 → k1_off37 i = ![1, 560, 0] := by decide +kernel
theorem k1_off37_odd : ∀ i : grid1.Coords, (i 0).val % 2 = 1 → k1_off37 i = ![0, 560, 0] := by decide +kernel
instance closedOff_k1_off37_even (i : grid1.Coords) [h : Par i 0] : ClosedOff (k1_off37 i) := ⟨![1, 560, 0], k1_off37_even i h.eq⟩
instance closedOff_k1_off37_odd (i : grid1.Coords) [h : Par i 1] : ClosedOff (k1_off37 i) := ⟨![0, 560, 0], k1_off37_odd i h.eq⟩
theorem k1_off38_even : ∀ i : grid1.Coords, (i 0).val % 2 = 0 → k1_off38 i = ![1, 576, 0] := by decide +kernel
theorem k1_off38_odd : ∀ i : grid1.Coords, (i 0).val % 2 = 1 → k1_off38 i = ![0, 576, 0] := by decide +kernel
instance closedOff_k1_off38_even (i : grid1.Coords) [h : Par i 0] : ClosedOff (k1_off38 i) := ⟨![1, 576, 0], k1_off38_even i h.eq⟩
instance closedOff_k1_off38_odd (i : grid1.Coords) [h : Par i 1] : ClosedOff (k1_off38 i) := ⟨![0, 576, 0], k1_off38_odd i h.eq⟩
theorem k1_off39_even : ∀ i : grid1.Coords, (i 0).val % 2 = 0 → k1_off39 i = ![1, 592, 0] := by decide +kernel
theorem k1_off39_odd : ∀ i : grid1.Coords, (i 0).val % 2 = 1 → k1_off39 i = ![0, 592, 0] := by decide +kernel
instance closedOff_k1_off39_even (i : grid1.Coords) [h : Par i 0] : ClosedOff (k1_off39 i) := ⟨![1, 592, 0], k1_off39_even i h.eq⟩
instance closedOff_k1_off39_odd (i : grid1.Coords) [h : Par i 1] : ClosedOff (k1_off39 i) := ⟨![0, 592, 0], k1_off39_odd i h.eq⟩
theorem k1_off40_even : ∀ i : grid1.Coords, (i 0).val % 2 = 0 → k1_off40 i = ![1, 608, 0] := by decide +kernel
theorem k1_off40_odd : ∀ i : grid1.Coords, (i 0).val % 2 = 1 → k1_off40 i = ![0, 608, 0] := by decide +kernel
instance closedOff_k1_off40_even (i : grid1.Coords) [h : Par i 0] : ClosedOff (k1_off40 i) := ⟨![1, 608, 0], k1_off40_even i h.eq⟩
instance closedOff_k1_off40_odd (i : grid1.Coords) [h : Par i 1] : ClosedOff (k1_off40 i) := ⟨![0, 608, 0], k1_off40_odd i h.eq⟩
theorem k1_off41_even : ∀ i : grid1.Coords, (i 0).val % 2 = 0 → k1_off41 i = ![1, 624, 0] := by decide +kernel
theorem k1_off41_odd : ∀ i : grid1.Coords, (i 0).val % 2 = 1 → k1_off41 i = ![0, 624, 0] := by decide +kernel
instance closedOff_k1_off41_even (i : grid1.Coords) [h : Par i 0] : ClosedOff (k1_off41 i) := ⟨![1, 624, 0], k1_off41_even i h.eq⟩
instance closedOff_k1_off41_odd (i : grid1.Coords) [h : Par i 1] : ClosedOff (k1_off41 i) := ⟨![0, 624, 0], k1_off41_odd i h.eq⟩
theorem k1_off42_even : ∀ i : grid1.Coords, (i 0).val % 2 = 0 → k1_off42 i = ![1, 640, 0] := by decide +kernel
theorem k1_off42_odd : ∀ i : grid1.Coords, (i 0).val % 2 = 1 → k1_off42 i = ![0, 640, 0] := by decide +kernel
instance closedOff_k1_off42_even (i : grid1.Coords) [h : Par i 0] : ClosedOff (k1_off42 i) := ⟨![1, 640, 0], k1_off42_even i h.eq⟩
instance closedOff_k1_off42_odd (i : grid1.Coords) [h : Par i 1] : ClosedOff (k1_off42 i) := ⟨![0, 640, 0], k1_off42_odd i h.eq⟩
theorem k1_off43_even : ∀ i : grid1.Coords, (i 0).val % 2 = 0 → k1_off43 i = ![1, 656, 0] := by decide +kernel
theorem k1_off43_odd : ∀ i : grid1.Coords, (i 0).val % 2 = 1 → k1_off43 i = ![0, 656, 0] := by decide +kernel
instance closedOff_k1_off43_even (i : grid1.Coords) [h : Par i 0] : ClosedOff (k1_off43 i) := ⟨![1, 656, 0], k1_off43_even i h.eq⟩
instance closedOff_k1_off43_odd (i : grid1.Coords) [h : Par i 1] : ClosedOff (k1_off43 i) := ⟨![0, 656, 0], k1_off43_odd i h.eq⟩
theorem k1_off44_even : ∀ i : grid1.Coords, (i 0).val % 2 = 0 → k1_off44 i = ![1, 672, 0] := by decide +kernel
theorem k1_off44_odd : ∀ i : grid1.Coords, (i 0).val % 2 = 1 → k1_off44 i = ![0, 672, 0] := by decide +kernel
instance closedOff_k1_off44_even (i : grid1.Coords) [h : Par i 0] : ClosedOff (k1_off44 i) := ⟨![1, 672, 0], k1_off44_even i h.eq⟩
instance closedOff_k1_off44_odd (i : grid1.Coords) [h : Par i 1] : ClosedOff (k1_off44 i) := ⟨![0, 672, 0], k1_off44_odd i h.eq⟩
theorem k1_off45_even : ∀ i : grid1.Coords, (i 0).val % 2 = 0 → k1_off45 i = ![1, 688, 0] := by decide +kernel
theorem k1_off45_odd : ∀ i : grid1.Coords, (i 0).val % 2 = 1 → k1_off45 i = ![0, 688, 0] := by decide +kernel
instance closedOff_k1_off45_even (i : grid1.Coords) [h : Par i 0] : ClosedOff (k1_off45 i) := ⟨![1, 688, 0], k1_off45_even i h.eq⟩
instance closedOff_k1_off45_odd (i : grid1.Coords) [h : Par i 1] : ClosedOff (k1_off45 i) := ⟨![0, 688, 0], k1_off45_odd i h.eq⟩
theorem k1_off46_even : ∀ i : grid1.Coords, (i 0).val % 2 = 0 → k1_off46 i = ![1, 704, 0] := by decide +kernel
theorem k1_off46_odd : ∀ i : grid1.Coords, (i 0).val % 2 = 1 → k1_off46 i = ![0, 704, 0] := by decide +kernel
instance closedOff_k1_off46_even (i : grid1.Coords) [h : Par i 0] : ClosedOff (k1_off46 i) := ⟨![1, 704, 0], k1_off46_even i h.eq⟩
instance closedOff_k1_off46_odd (i : grid1.Coords) [h : Par i 1] : ClosedOff (k1_off46 i) := ⟨![0, 704, 0], k1_off46_odd i h.eq⟩
theorem k1_off47_even : ∀ i : grid1.Coords, (i 0).val % 2 = 0 → k1_off47 i = ![1, 720, 0] := by decide +kernel
theorem k1_off47_odd : ∀ i : grid1.Coords, (i 0).val % 2 = 1 → k1_off47 i = ![0, 720, 0] := by decide +kernel
instance closedOff_k1_off47_even (i : grid1.Coords) [h : Par i 0] : ClosedOff (k1_off47 i) := ⟨![1, 720, 0], k1_off47_even i h.eq⟩
instance closedOff_k1_off47_odd (i : grid1.Coords) [h : Par i 1] : ClosedOff (k1_off47 i) := ⟨![0, 720, 0], k1_off47_odd i h.eq⟩
theorem k1_off48_even : ∀ i : grid1.Coords, (i 0).val % 2 = 0 → k1_off48 i = ![1, 736, 0] := by decide +kernel
theorem k1_off48_odd : ∀ i : grid1.Coords, (i 0).val % 2 = 1 → k1_off48 i = ![0, 736, 0] := by decide +kernel
instance closedOff_k1_off48_even (i : grid1.Coords) [h : Par i 0] : ClosedOff (k1_off48 i) := ⟨![1, 736, 0], k1_off48_even i h.eq⟩
instance closedOff_k1_off48_odd (i : grid1.Coords) [h : Par i 1] : ClosedOff (k1_off48 i) := ⟨![0, 736, 0], k1_off48_odd i h.eq⟩
theorem k1_off49_even : ∀ i : grid1.Coords, (i 0).val % 2 = 0 → k1_off49 i = ![1, 752, 0] := by decide +kernel
theorem k1_off49_odd : ∀ i : grid1.Coords, (i 0).val % 2 = 1 → k1_off49 i = ![0, 752, 0] := by decide +kernel
instance closedOff_k1_off49_even (i : grid1.Coords) [h : Par i 0] : ClosedOff (k1_off49 i) := ⟨![1, 752, 0], k1_off49_even i h.eq⟩
instance closedOff_k1_off49_odd (i : grid1.Coords) [h : Par i 1] : ClosedOff (k1_off49 i) := ⟨![0, 752, 0], k1_off49_odd i h.eq⟩
theorem k1_off50_even : ∀ i : grid1.Coords, (i 0).val % 2 = 0 → k1_off50 i = ![1, 768, 0] := by decide +kernel
theorem k1_off50_odd : ∀ i : grid1.Coords, (i 0).val % 2 = 1 → k1_off50 i = ![0, 768, 0] := by decide +kernel
instance closedOff_k1_off50_even (i : grid1.Coords) [h : Par i 0] : ClosedOff (k1_off50 i) := ⟨![1, 768, 0], k1_off50_even i h.eq⟩
instance closedOff_k1_off50_odd (i : grid1.Coords) [h : Par i 1] : ClosedOff (k1_off50 i) := ⟨![0, 768, 0], k1_off50_odd i h.eq⟩
theorem k1_off51_even : ∀ i : grid1.Coords, (i 0).val % 2 = 0 → k1_off51 i = ![1, 784, 0] := by decide +kernel
theorem k1_off51_odd : ∀ i : grid1.Coords, (i 0).val % 2 = 1 → k1_off51 i = ![0, 784, 0] := by decide +kernel
instance closedOff_k1_off51_even (i : grid1.Coords) [h : Par i 0] : ClosedOff (k1_off51 i) := ⟨![1, 784, 0], k1_off51_even i h.eq⟩
instance closedOff_k1_off51_odd (i : grid1.Coords) [h : Par i 1] : ClosedOff (k1_off51 i) := ⟨![0, 784, 0], k1_off51_odd i h.eq⟩
theorem k1_off52_even : ∀ i : grid1.Coords, (i 0).val % 2 = 0 → k1_off52 i = ![1, 800, 0] := by decide +kernel
theorem k1_off52_odd : ∀ i : grid1.Coords, (i 0).val % 2 = 1 → k1_off52 i = ![0, 800, 0] := by decide +kernel
instance closedOff_k1_off52_even (i : grid1.Coords) [h : Par i 0] : ClosedOff (k1_off52 i) := ⟨![1, 800, 0], k1_off52_even i h.eq⟩
instance closedOff_k1_off52_odd (i : grid1.Coords) [h : Par i 1] : ClosedOff (k1_off52 i) := ⟨![0, 800, 0], k1_off52_odd i h.eq⟩
theorem k1_off53_even : ∀ i : grid1.Coords, (i 0).val % 2 = 0 → k1_off53 i = ![1, 816, 0] := by decide +kernel
theorem k1_off53_odd : ∀ i : grid1.Coords, (i 0).val % 2 = 1 → k1_off53 i = ![0, 816, 0] := by decide +kernel
instance closedOff_k1_off53_even (i : grid1.Coords) [h : Par i 0] : ClosedOff (k1_off53 i) := ⟨![1, 816, 0], k1_off53_even i h.eq⟩
instance closedOff_k1_off53_odd (i : grid1.Coords) [h : Par i 1] : ClosedOff (k1_off53 i) := ⟨![0, 816, 0], k1_off53_odd i h.eq⟩
theorem k1_off54_even : ∀ i : grid1.Coords, (i 0).val % 2 = 0 → k1_off54 i = ![1, 832, 0] := by decide +kernel
theorem k1_off54_odd : ∀ i : grid1.Coords, (i 0).val % 2 = 1 → k1_off54 i = ![0, 832, 0] := by decide +kernel
instance closedOff_k1_off54_even (i : grid1.Coords) [h : Par i 0] : ClosedOff (k1_off54 i) := ⟨![1, 832, 0], k1_off54_even i h.eq⟩
instance closedOff_k1_off54_odd (i : grid1.Coords) [h : Par i 1] : ClosedOff (k1_off54 i) := ⟨![0, 832, 0], k1_off54_odd i h.eq⟩
theorem k1_off55_even : ∀ i : grid1.Coords, (i 0).val % 2 = 0 → k1_off55 i = ![1, 848, 0] := by decide +kernel
theorem k1_off55_odd : ∀ i : grid1.Coords, (i 0).val % 2 = 1 → k1_off55 i = ![0, 848, 0] := by decide +kernel
instance closedOff_k1_off55_even (i : grid1.Coords) [h : Par i 0] : ClosedOff (k1_off55 i) := ⟨![1, 848, 0], k1_off55_even i h.eq⟩
instance closedOff_k1_off55_odd (i : grid1.Coords) [h : Par i 1] : ClosedOff (k1_off55 i) := ⟨![0, 848, 0], k1_off55_odd i h.eq⟩
theorem k1_off56_even : ∀ i : grid1.Coords, (i 0).val % 2 = 0 → k1_off56 i = ![1, 864, 0] := by decide +kernel
theorem k1_off56_odd : ∀ i : grid1.Coords, (i 0).val % 2 = 1 → k1_off56 i = ![0, 864, 0] := by decide +kernel
instance closedOff_k1_off56_even (i : grid1.Coords) [h : Par i 0] : ClosedOff (k1_off56 i) := ⟨![1, 864, 0], k1_off56_even i h.eq⟩
instance closedOff_k1_off56_odd (i : grid1.Coords) [h : Par i 1] : ClosedOff (k1_off56 i) := ⟨![0, 864, 0], k1_off56_odd i h.eq⟩
theorem k1_off57_even : ∀ i : grid1.Coords, (i 0).val % 2 = 0 → k1_off57 i = ![1, 880, 0] := by decide +kernel
theorem k1_off57_odd : ∀ i : grid1.Coords, (i 0).val % 2 = 1 → k1_off57 i = ![0, 880, 0] := by decide +kernel
instance closedOff_k1_off57_even (i : grid1.Coords) [h : Par i 0] : ClosedOff (k1_off57 i) := ⟨![1, 880, 0], k1_off57_even i h.eq⟩
instance closedOff_k1_off57_odd (i : grid1.Coords) [h : Par i 1] : ClosedOff (k1_off57 i) := ⟨![0, 880, 0], k1_off57_odd i h.eq⟩
theorem k1_off58_even : ∀ i : grid1.Coords, (i 0).val % 2 = 0 → k1_off58 i = ![1, 896, 0] := by decide +kernel
theorem k1_off58_odd : ∀ i : grid1.Coords, (i 0).val % 2 = 1 → k1_off58 i = ![0, 896, 0] := by decide +kernel
instance closedOff_k1_off58_even (i : grid1.Coords) [h : Par i 0] : ClosedOff (k1_off58 i) := ⟨![1, 896, 0], k1_off58_even i h.eq⟩
instance closedOff_k1_off58_odd (i : grid1.Coords) [h : Par i 1] : ClosedOff (k1_off58 i) := ⟨![0, 896, 0], k1_off58_odd i h.eq⟩
theorem k1_off59_even : ∀ i : grid1.Coords, (i 0).val % 2 = 0 → k1_off59 i = ![1, 912, 0] := by decide +kernel
theorem k1_off59_odd : ∀ i : grid1.Coords, (i 0).val % 2 = 1 → k1_off59 i = ![0, 912, 0] := by decide +kernel
instance closedOff_k1_off59_even (i : grid1.Coords) [h : Par i 0] : ClosedOff (k1_off59 i) := ⟨![1, 912, 0], k1_off59_even i h.eq⟩
instance closedOff_k1_off59_odd (i : grid1.Coords) [h : Par i 1] : ClosedOff (k1_off59 i) := ⟨![0, 912, 0], k1_off59_odd i h.eq⟩
theorem k1_off60_even : ∀ i : grid1.Coords, (i 0).val % 2 = 0 → k1_off60 i = ![1, 928, 0] := by decide +kernel
theorem k1_off60_odd : ∀ i : grid1.Coords, (i 0).val % 2 = 1 → k1_off60 i = ![0, 928, 0] := by decide +kernel
instance closedOff_k1_off60_even (i : grid1.Coords) [h : Par i 0] : ClosedOff (k1_off60 i) := ⟨![1, 928, 0], k1_off60_even i h.eq⟩
instance closedOff_k1_off60_odd (i : grid1.Coords) [h : Par i 1] : ClosedOff (k1_off60 i) := ⟨![0, 928, 0], k1_off60_odd i h.eq⟩
theorem k1_off61_even : ∀ i : grid1.Coords, (i 0).val % 2 = 0 → k1_off61 i = ![1, 944, 0] := by decide +kernel
theorem k1_off61_odd : ∀ i : grid1.Coords, (i 0).val % 2 = 1 → k1_off61 i = ![0, 944, 0] := by decide +kernel
instance closedOff_k1_off61_even (i : grid1.Coords) [h : Par i 0] : ClosedOff (k1_off61 i) := ⟨![1, 944, 0], k1_off61_even i h.eq⟩
instance closedOff_k1_off61_odd (i : grid1.Coords) [h : Par i 1] : ClosedOff (k1_off61 i) := ⟨![0, 944, 0], k1_off61_odd i h.eq⟩
theorem k1_off62_even : ∀ i : grid1.Coords, (i 0).val % 2 = 0 → k1_off62 i = ![1, 960, 0] := by decide +kernel
theorem k1_off62_odd : ∀ i : grid1.Coords, (i 0).val % 2 = 1 → k1_off62 i = ![0, 960, 0] := by decide +kernel
instance closedOff_k1_off62_even (i : grid1.Coords) [h : Par i 0] : ClosedOff (k1_off62 i) := ⟨![1, 960, 0], k1_off62_even i h.eq⟩
instance closedOff_k1_off62_odd (i : grid1.Coords) [h : Par i 1] : ClosedOff (k1_off62 i) := ⟨![0, 960, 0], k1_off62_odd i h.eq⟩
theorem k1_off63_even : ∀ i : grid1.Coords, (i 0).val % 2 = 0 → k1_off63 i = ![1, 976, 0] := by decide +kernel
theorem k1_off63_odd : ∀ i : grid1.Coords, (i 0).val % 2 = 1 → k1_off63 i = ![0, 976, 0] := by decide +kernel
instance closedOff_k1_off63_even (i : grid1.Coords) [h : Par i 0] : ClosedOff (k1_off63 i) := ⟨![1, 976, 0], k1_off63_even i h.eq⟩
instance closedOff_k1_off63_odd (i : grid1.Coords) [h : Par i 1] : ClosedOff (k1_off63 i) := ⟨![0, 976, 0], k1_off63_odd i h.eq⟩
theorem k1_off64_even : ∀ i : grid1.Coords, (i 0).val % 2 = 0 → k1_off64 i = ![1, 992, 0] := by decide +kernel
theorem k1_off64_odd : ∀ i : grid1.Coords, (i 0).val % 2 = 1 → k1_off64 i = ![0, 992, 0] := by decide +kernel
instance closedOff_k1_off64_even (i : grid1.Coords) [h : Par i 0] : ClosedOff (k1_off64 i) := ⟨![1, 992, 0], k1_off64_even i h.eq⟩
instance closedOff_k1_off64_odd (i : grid1.Coords) [h : Par i 1] : ClosedOff (k1_off64 i) := ⟨![0, 992, 0], k1_off64_odd i h.eq⟩
theorem k1_off65_even : ∀ i : grid1.Coords, (i 0).val % 2 = 0 → k1_off65 i = ![1, 1008, 0] := by decide +kernel
theorem k1_off65_odd : ∀ i : grid1.Coords, (i 0).val % 2 = 1 → k1_off65 i = ![0, 1008, 0] := by decide +kernel
instance closedOff_k1_off65_even (i : grid1.Coords) [h : Par i 0] : ClosedOff (k1_off65 i) := ⟨![1, 1008, 0], k1_off65_even i h.eq⟩
instance closedOff_k1_off65_odd (i : grid1.Coords) [h : Par i 1] : ClosedOff (k1_off65 i) := ⟨![0, 1008, 0], k1_off65_odd i h.eq⟩
theorem k1_off66_even : ∀ i : grid1.Coords, (i 0).val % 2 = 0 → k1_off66 i = ![1, 1024, 0] := by decide +kernel
theorem k1_off66_odd : ∀ i : grid1.Coords, (i 0).val % 2 = 1 → k1_off66 i = ![0, 1024, 0] := by decide +kernel
instance closedOff_k1_off66_even (i : grid1.Coords) [h : Par i 0] : ClosedOff (k1_off66 i) := ⟨![1, 1024, 0], k1_off66_even i h.eq⟩
instance closedOff_k1_off66_odd (i : grid1.Coords) [h : Par i 1] : ClosedOff (k1_off66 i) := ⟨![0, 1024, 0], k1_off66_odd i h.eq⟩
theorem k1_off67_even : ∀ i : grid1.Coords, (i 0).val % 2 = 0 → k1_off67 i = ![1, 1040, 0] := by decide +kernel
theorem k1_off67_odd : ∀ i : grid1.Coords, (i 0).val % 2 = 1 → k1_off67 i = ![0, 1040, 0] := by decide +kernel
instance closedOff_k1_off67_even (i : grid1.Coords) [h : Par i 0] : ClosedOff (k1_off67 i) := ⟨![1, 1040, 0], k1_off67_even i h.eq⟩
instance closedOff_k1_off67_odd (i : grid1.Coords) [h : Par i 1] : ClosedOff (k1_off67 i) := ⟨![0, 1040, 0], k1_off67_odd i h.eq⟩
theorem k1_off68_even : ∀ i : grid1.Coords, (i 0).val % 2 = 0 → k1_off68 i = ![1, 1056, 0] := by decide +kernel
theorem k1_off68_odd : ∀ i : grid1.Coords, (i 0).val % 2 = 1 → k1_off68 i = ![0, 1056, 0] := by decide +kernel
instance closedOff_k1_off68_even (i : grid1.Coords) [h : Par i 0] : ClosedOff (k1_off68 i) := ⟨![1, 1056, 0], k1_off68_even i h.eq⟩
instance closedOff_k1_off68_odd (i : grid1.Coords) [h : Par i 1] : ClosedOff (k1_off68 i) := ⟨![0, 1056, 0], k1_off68_odd i h.eq⟩
theorem k1_off69_even : ∀ i : grid1.Coords, (i 0).val % 2 = 0 → k1_off69 i = ![1, 1072, 0] := by decide +kernel
theorem k1_off69_odd : ∀ i : grid1.Coords, (i 0).val % 2 = 1 → k1_off69 i = ![0, 1072, 0] := by decide +kernel
instance closedOff_k1_off69_even (i : grid1.Coords) [h : Par i 0] : ClosedOff (k1_off69 i) := ⟨![1, 1072, 0], k1_off69_even i h.eq⟩
instance closedOff_k1_off69_odd (i : grid1.Coords) [h : Par i 1] : ClosedOff (k1_off69 i) := ⟨![0, 1072, 0], k1_off69_odd i h.eq⟩
theorem k1_off70_even : ∀ i : grid1.Coords, (i 0).val % 2 = 0 → k1_off70 i = ![1, 1088, 0] := by decide +kernel
theorem k1_off70_odd : ∀ i : grid1.Coords, (i 0).val % 2 = 1 → k1_off70 i = ![0, 1088, 0] := by decide +kernel
instance closedOff_k1_off70_even (i : grid1.Coords) [h : Par i 0] : ClosedOff (k1_off70 i) := ⟨![1, 1088, 0], k1_off70_even i h.eq⟩
instance closedOff_k1_off70_odd (i : grid1.Coords) [h : Par i 1] : ClosedOff (k1_off70 i) := ⟨![0, 1088, 0], k1_off70_odd i h.eq⟩
theorem k1_off71_even : ∀ i : grid1.Coords, (i 0).val % 2 = 0 → k1_off71 i = ![1, 1104, 0] := by decide +kernel
theorem k1_off71_odd : ∀ i : grid1.Coords, (i 0).val % 2 = 1 → k1_off71 i = ![0, 1104, 0] := by decide +kernel
instance closedOff_k1_off71_even (i : grid1.Coords) [h : Par i 0] : ClosedOff (k1_off71 i) := ⟨![1, 1104, 0], k1_off71_even i h.eq⟩
instance closedOff_k1_off71_odd (i : grid1.Coords) [h : Par i 1] : ClosedOff (k1_off71 i) := ⟨![0, 1104, 0], k1_off71_odd i h.eq⟩
theorem k1_off72_even : ∀ i : grid1.Coords, (i 0).val % 2 = 0 → k1_off72 i = ![1, 1120, 0] := by decide +kernel
theorem k1_off72_odd : ∀ i : grid1.Coords, (i 0).val % 2 = 1 → k1_off72 i = ![0, 1120, 0] := by decide +kernel
instance closedOff_k1_off72_even (i : grid1.Coords) [h : Par i 0] : ClosedOff (k1_off72 i) := ⟨![1, 1120, 0], k1_off72_even i h.eq⟩
instance closedOff_k1_off72_odd (i : grid1.Coords) [h : Par i 1] : ClosedOff (k1_off72 i) := ⟨![0, 1120, 0], k1_off72_odd i h.eq⟩
theorem k1_off73_even : ∀ i : grid1.Coords, (i 0).val % 2 = 0 → k1_off73 i = ![1, 1136, 0] := by decide +kernel
theorem k1_off73_odd : ∀ i : grid1.Coords, (i 0).val % 2 = 1 → k1_off73 i = ![0, 1136, 0] := by decide +kernel
instance closedOff_k1_off73_even (i : grid1.Coords) [h : Par i 0] : ClosedOff (k1_off73 i) := ⟨![1, 1136, 0], k1_off73_even i h.eq⟩
instance closedOff_k1_off73_odd (i : grid1.Coords) [h : Par i 1] : ClosedOff (k1_off73 i) := ⟨![0, 1136, 0], k1_off73_odd i h.eq⟩
theorem k1_off74_even : ∀ i : grid1.Coords, (i 0).val % 2 = 0 → k1_off74 i = ![1, 1152, 0] := by decide +kernel
theorem k1_off74_odd : ∀ i : grid1.Coords, (i 0).val % 2 = 1 → k1_off74 i = ![0, 1152, 0] := by decide +kernel
instance closedOff_k1_off74_even (i : grid1.Coords) [h : Par i 0] : ClosedOff (k1_off74 i) := ⟨![1, 1152, 0], k1_off74_even i h.eq⟩
instance closedOff_k1_off74_odd (i : grid1.Coords) [h : Par i 1] : ClosedOff (k1_off74 i) := ⟨![0, 1152, 0], k1_off74_odd i h.eq⟩
theorem k1_off75_even : ∀ i : grid1.Coords, (i 0).val % 2 = 0 → k1_off75 i = ![1, 1168, 0] := by decide +kernel
theorem k1_off75_odd : ∀ i : grid1.Coords, (i 0).val % 2 = 1 → k1_off75 i = ![0, 1168, 0] := by decide +kernel
instance closedOff_k1_off75_even (i : grid1.Coords) [h : Par i 0] : ClosedOff (k1_off75 i) := ⟨![1, 1168, 0], k1_off75_even i h.eq⟩
instance closedOff_k1_off75_odd (i : grid1.Coords) [h : Par i 1] : ClosedOff (k1_off75 i) := ⟨![0, 1168, 0], k1_off75_odd i h.eq⟩
theorem k1_off76_even : ∀ i : grid1.Coords, (i 0).val % 2 = 0 → k1_off76 i = ![1, 1184, 0] := by decide +kernel
theorem k1_off76_odd : ∀ i : grid1.Coords, (i 0).val % 2 = 1 → k1_off76 i = ![0, 1184, 0] := by decide +kernel
instance closedOff_k1_off76_even (i : grid1.Coords) [h : Par i 0] : ClosedOff (k1_off76 i) := ⟨![1, 1184, 0], k1_off76_even i h.eq⟩
instance closedOff_k1_off76_odd (i : grid1.Coords) [h : Par i 1] : ClosedOff (k1_off76 i) := ⟨![0, 1184, 0], k1_off76_odd i h.eq⟩
theorem k1_off77_even : ∀ i : grid1.Coords, (i 0).val % 2 = 0 → k1_off77 i = ![1, 1200, 0] := by decide +kernel
theorem k1_off77_odd : ∀ i : grid1.Coords, (i 0).val % 2 = 1 → k1_off77 i = ![0, 1200, 0] := by decide +kernel
instance closedOff_k1_off77_even (i : grid1.Coords) [h : Par i 0] : ClosedOff (k1_off77 i) := ⟨![1, 1200, 0], k1_off77_even i h.eq⟩
instance closedOff_k1_off77_odd (i : grid1.Coords) [h : Par i 1] : ClosedOff (k1_off77 i) := ⟨![0, 1200, 0], k1_off77_odd i h.eq⟩
theorem k1_off78_even : ∀ i : grid1.Coords, (i 0).val % 2 = 0 → k1_off78 i = ![1, 1216, 0] := by decide +kernel
theorem k1_off78_odd : ∀ i : grid1.Coords, (i 0).val % 2 = 1 → k1_off78 i = ![0, 1216, 0] := by decide +kernel
instance closedOff_k1_off78_even (i : grid1.Coords) [h : Par i 0] : ClosedOff (k1_off78 i) := ⟨![1, 1216, 0], k1_off78_even i h.eq⟩
instance closedOff_k1_off78_odd (i : grid1.Coords) [h : Par i 1] : ClosedOff (k1_off78 i) := ⟨![0, 1216, 0], k1_off78_odd i h.eq⟩
theorem k1_off79_even : ∀ i : grid1.Coords, (i 0).val % 2 = 0 → k1_off79 i = ![1, 1232, 0] := by decide +kernel
theorem k1_off79_odd : ∀ i : grid1.Coords, (i 0).val % 2 = 1 → k1_off79 i = ![0, 1232, 0] := by decide +kernel
instance closedOff_k1_off79_even (i : grid1.Coords) [h : Par i 0] : ClosedOff (k1_off79 i) := ⟨![1, 1232, 0], k1_off79_even i h.eq⟩
instance closedOff_k1_off79_odd (i : grid1.Coords) [h : Par i 1] : ClosedOff (k1_off79 i) := ⟨![0, 1232, 0], k1_off79_odd i h.eq⟩
theorem k1_off80_even : ∀ i : grid1.Coords, (i 0).val % 2 = 0 → k1_off80 i = ![1, 1248, 0] := by decide +kernel
theorem k1_off80_odd : ∀ i : grid1.Coords, (i 0).val % 2 = 1 → k1_off80 i = ![0, 1248, 0] := by decide +kernel
instance closedOff_k1_off80_even (i : grid1.Coords) [h : Par i 0] : ClosedOff (k1_off80 i) := ⟨![1, 1248, 0], k1_off80_even i h.eq⟩
instance closedOff_k1_off80_odd (i : grid1.Coords) [h : Par i 1] : ClosedOff (k1_off80 i) := ⟨![0, 1248, 0], k1_off80_odd i h.eq⟩
theorem k1_off81_even : ∀ i : grid1.Coords, (i 0).val % 2 = 0 → k1_off81 i = ![1, 1264, 0] := by decide +kernel
theorem k1_off81_odd : ∀ i : grid1.Coords, (i 0).val % 2 = 1 → k1_off81 i = ![0, 1264, 0] := by decide +kernel
instance closedOff_k1_off81_even (i : grid1.Coords) [h : Par i 0] : ClosedOff (k1_off81 i) := ⟨![1, 1264, 0], k1_off81_even i h.eq⟩
instance closedOff_k1_off81_odd (i : grid1.Coords) [h : Par i 1] : ClosedOff (k1_off81 i) := ⟨![0, 1264, 0], k1_off81_odd i h.eq⟩
theorem k1_off82_even : ∀ i : grid1.Coords, (i 0).val % 2 = 0 → k1_off82 i = ![1, 1280, 0] := by decide +kernel
theorem k1_off82_odd : ∀ i : grid1.Coords, (i 0).val % 2 = 1 → k1_off82 i = ![0, 1280, 0] := by decide +kernel
instance closedOff_k1_off82_even (i : grid1.Coords) [h : Par i 0] : ClosedOff (k1_off82 i) := ⟨![1, 1280, 0], k1_off82_even i h.eq⟩
instance closedOff_k1_off82_odd (i : grid1.Coords) [h : Par i 1] : ClosedOff (k1_off82 i) := ⟨![0, 1280, 0], k1_off82_odd i h.eq⟩
theorem k1_off83_even : ∀ i : grid1.Coords, (i 0).val % 2 = 0 → k1_off83 i = ![1, 1296, 0] := by decide +kernel
theorem k1_off83_odd : ∀ i : grid1.Coords, (i 0).val % 2 = 1 → k1_off83 i = ![0, 1296, 0] := by decide +kernel
instance closedOff_k1_off83_even (i : grid1.Coords) [h : Par i 0] : ClosedOff (k1_off83 i) := ⟨![1, 1296, 0], k1_off83_even i h.eq⟩
instance closedOff_k1_off83_odd (i : grid1.Coords) [h : Par i 1] : ClosedOff (k1_off83 i) := ⟨![0, 1296, 0], k1_off83_odd i h.eq⟩
theorem k1_off84_even : ∀ i : grid1.Coords, (i 0).val % 2 = 0 → k1_off84 i = ![1, 1312, 0] := by decide +kernel
theorem k1_off84_odd : ∀ i : grid1.Coords, (i 0).val % 2 = 1 → k1_off84 i = ![0, 1312, 0] := by decide +kernel
instance closedOff_k1_off84_even (i : grid1.Coords) [h : Par i 0] : ClosedOff (k1_off84 i) := ⟨![1, 1312, 0], k1_off84_even i h.eq⟩
instance closedOff_k1_off84_odd (i : grid1.Coords) [h : Par i 1] : ClosedOff (k1_off84 i) := ⟨![0, 1312, 0], k1_off84_odd i h.eq⟩
theorem k1_off85_even : ∀ i : grid1.Coords, (i 0).val % 2 = 0 → k1_off85 i = ![1, 1328, 0] := by decide +kernel
theorem k1_off85_odd : ∀ i : grid1.Coords, (i 0).val % 2 = 1 → k1_off85 i = ![0, 1328, 0] := by decide +kernel
instance closedOff_k1_off85_even (i : grid1.Coords) [h : Par i 0] : ClosedOff (k1_off85 i) := ⟨![1, 1328, 0], k1_off85_even i h.eq⟩
instance closedOff_k1_off85_odd (i : grid1.Coords) [h : Par i 1] : ClosedOff (k1_off85 i) := ⟨![0, 1328, 0], k1_off85_odd i h.eq⟩
theorem k1_off86_even : ∀ i : grid1.Coords, (i 0).val % 2 = 0 → k1_off86 i = ![1, 1344, 0] := by decide +kernel
theorem k1_off86_odd : ∀ i : grid1.Coords, (i 0).val % 2 = 1 → k1_off86 i = ![0, 1344, 0] := by decide +kernel
instance closedOff_k1_off86_even (i : grid1.Coords) [h : Par i 0] : ClosedOff (k1_off86 i) := ⟨![1, 1344, 0], k1_off86_even i h.eq⟩
instance closedOff_k1_off86_odd (i : grid1.Coords) [h : Par i 1] : ClosedOff (k1_off86 i) := ⟨![0, 1344, 0], k1_off86_odd i h.eq⟩
theorem k1_off87_even : ∀ i : grid1.Coords, (i 0).val % 2 = 0 → k1_off87 i = ![1, 1360, 0] := by decide +kernel
theorem k1_off87_odd : ∀ i : grid1.Coords, (i 0).val % 2 = 1 → k1_off87 i = ![0, 1360, 0] := by decide +kernel
instance closedOff_k1_off87_even (i : grid1.Coords) [h : Par i 0] : ClosedOff (k1_off87 i) := ⟨![1, 1360, 0], k1_off87_even i h.eq⟩
instance closedOff_k1_off87_odd (i : grid1.Coords) [h : Par i 1] : ClosedOff (k1_off87 i) := ⟨![0, 1360, 0], k1_off87_odd i h.eq⟩
theorem k1_off88_even : ∀ i : grid1.Coords, (i 0).val % 2 = 0 → k1_off88 i = ![1, 1376, 0] := by decide +kernel
theorem k1_off88_odd : ∀ i : grid1.Coords, (i 0).val % 2 = 1 → k1_off88 i = ![0, 1376, 0] := by decide +kernel
instance closedOff_k1_off88_even (i : grid1.Coords) [h : Par i 0] : ClosedOff (k1_off88 i) := ⟨![1, 1376, 0], k1_off88_even i h.eq⟩
instance closedOff_k1_off88_odd (i : grid1.Coords) [h : Par i 1] : ClosedOff (k1_off88 i) := ⟨![0, 1376, 0], k1_off88_odd i h.eq⟩
theorem k1_off89_even : ∀ i : grid1.Coords, (i 0).val % 2 = 0 → k1_off89 i = ![1, 1392, 0] := by decide +kernel
theorem k1_off89_odd : ∀ i : grid1.Coords, (i 0).val % 2 = 1 → k1_off89 i = ![0, 1392, 0] := by decide +kernel
instance closedOff_k1_off89_even (i : grid1.Coords) [h : Par i 0] : ClosedOff (k1_off89 i) := ⟨![1, 1392, 0], k1_off89_even i h.eq⟩
instance closedOff_k1_off89_odd (i : grid1.Coords) [h : Par i 1] : ClosedOff (k1_off89 i) := ⟨![0, 1392, 0], k1_off89_odd i h.eq⟩
theorem k1_off90_even : ∀ i : grid1.Coords, (i 0).val % 2 = 0 → k1_off90 i = ![1, 1408, 0] := by decide +kernel
theorem k1_off90_odd : ∀ i : grid1.Coords, (i 0).val % 2 = 1 → k1_off90 i = ![0, 1408, 0] := by decide +kernel
instance closedOff_k1_off90_even (i : grid1.Coords) [h : Par i 0] : ClosedOff (k1_off90 i) := ⟨![1, 1408, 0], k1_off90_even i h.eq⟩
instance closedOff_k1_off90_odd (i : grid1.Coords) [h : Par i 1] : ClosedOff (k1_off90 i) := ⟨![0, 1408, 0], k1_off90_odd i h.eq⟩
theorem k1_off91_even : ∀ i : grid1.Coords, (i 0).val % 2 = 0 → k1_off91 i = ![1, 1424, 0] := by decide +kernel
theorem k1_off91_odd : ∀ i : grid1.Coords, (i 0).val % 2 = 1 → k1_off91 i = ![0, 1424, 0] := by decide +kernel
instance closedOff_k1_off91_even (i : grid1.Coords) [h : Par i 0] : ClosedOff (k1_off91 i) := ⟨![1, 1424, 0], k1_off91_even i h.eq⟩
instance closedOff_k1_off91_odd (i : grid1.Coords) [h : Par i 1] : ClosedOff (k1_off91 i) := ⟨![0, 1424, 0], k1_off91_odd i h.eq⟩
theorem k1_off92_even : ∀ i : grid1.Coords, (i 0).val % 2 = 0 → k1_off92 i = ![1, 1440, 0] := by decide +kernel
theorem k1_off92_odd : ∀ i : grid1.Coords, (i 0).val % 2 = 1 → k1_off92 i = ![0, 1440, 0] := by decide +kernel
instance closedOff_k1_off92_even (i : grid1.Coords) [h : Par i 0] : ClosedOff (k1_off92 i) := ⟨![1, 1440, 0], k1_off92_even i h.eq⟩
instance closedOff_k1_off92_odd (i : grid1.Coords) [h : Par i 1] : ClosedOff (k1_off92 i) := ⟨![0, 1440, 0], k1_off92_odd i h.eq⟩
theorem k1_off93_even : ∀ i : grid1.Coords, (i 0).val % 2 = 0 → k1_off93 i = ![1, 1456, 0] := by decide +kernel
theorem k1_off93_odd : ∀ i : grid1.Coords, (i 0).val % 2 = 1 → k1_off93 i = ![0, 1456, 0] := by decide +kernel
instance closedOff_k1_off93_even (i : grid1.Coords) [h : Par i 0] : ClosedOff (k1_off93 i) := ⟨![1, 1456, 0], k1_off93_even i h.eq⟩
instance closedOff_k1_off93_odd (i : grid1.Coords) [h : Par i 1] : ClosedOff (k1_off93 i) := ⟨![0, 1456, 0], k1_off93_odd i h.eq⟩
theorem k1_off94_even : ∀ i : grid1.Coords, (i 0).val % 2 = 0 → k1_off94 i = ![1, 1472, 0] := by decide +kernel
theorem k1_off94_odd : ∀ i : grid1.Coords, (i 0).val % 2 = 1 → k1_off94 i = ![0, 1472, 0] := by decide +kernel
instance closedOff_k1_off94_even (i : grid1.Coords) [h : Par i 0] : ClosedOff (k1_off94 i) := ⟨![1, 1472, 0], k1_off94_even i h.eq⟩
instance closedOff_k1_off94_odd (i : grid1.Coords) [h : Par i 1] : ClosedOff (k1_off94 i) := ⟨![0, 1472, 0], k1_off94_odd i h.eq⟩
theorem k1_off95_even : ∀ i : grid1.Coords, (i 0).val % 2 = 0 → k1_off95 i = ![1, 1488, 0] := by decide +kernel
theorem k1_off95_odd : ∀ i : grid1.Coords, (i 0).val % 2 = 1 → k1_off95 i = ![0, 1488, 0] := by decide +kernel
instance closedOff_k1_off95_even (i : grid1.Coords) [h : Par i 0] : ClosedOff (k1_off95 i) := ⟨![1, 1488, 0], k1_off95_even i h.eq⟩
instance closedOff_k1_off95_odd (i : grid1.Coords) [h : Par i 1] : ClosedOff (k1_off95 i) := ⟨![0, 1488, 0], k1_off95_odd i h.eq⟩
theorem k1_off96_even : ∀ i : grid1.Coords, (i 0).val % 2 = 0 → k1_off96 i = ![1, 1504, 0] := by decide +kernel
theorem k1_off96_odd : ∀ i : grid1.Coords, (i 0).val % 2 = 1 → k1_off96 i = ![0, 1504, 0] := by decide +kernel
instance closedOff_k1_off96_even (i : grid1.Coords) [h : Par i 0] : ClosedOff (k1_off96 i) := ⟨![1, 1504, 0], k1_off96_even i h.eq⟩
instance closedOff_k1_off96_odd (i : grid1.Coords) [h : Par i 1] : ClosedOff (k1_off96 i) := ⟨![0, 1504, 0], k1_off96_odd i h.eq⟩
theorem k1_off97_even : ∀ i : grid1.Coords, (i 0).val % 2 = 0 → k1_off97 i = ![1, 1520, 0] := by decide +kernel
theorem k1_off97_odd : ∀ i : grid1.Coords, (i 0).val % 2 = 1 → k1_off97 i = ![0, 1520, 0] := by decide +kernel
instance closedOff_k1_off97_even (i : grid1.Coords) [h : Par i 0] : ClosedOff (k1_off97 i) := ⟨![1, 1520, 0], k1_off97_even i h.eq⟩
instance closedOff_k1_off97_odd (i : grid1.Coords) [h : Par i 1] : ClosedOff (k1_off97 i) := ⟨![0, 1520, 0], k1_off97_odd i h.eq⟩
theorem k1_off98_even : ∀ i : grid1.Coords, (i 0).val % 2 = 0 → k1_off98 i = ![1, 1536, 0] := by decide +kernel
theorem k1_off98_odd : ∀ i : grid1.Coords, (i 0).val % 2 = 1 → k1_off98 i = ![0, 1536, 0] := by decide +kernel
instance closedOff_k1_off98_even (i : grid1.Coords) [h : Par i 0] : ClosedOff (k1_off98 i) := ⟨![1, 1536, 0], k1_off98_even i h.eq⟩
instance closedOff_k1_off98_odd (i : grid1.Coords) [h : Par i 1] : ClosedOff (k1_off98 i) := ⟨![0, 1536, 0], k1_off98_odd i h.eq⟩
theorem k1_off99_even : ∀ i : grid1.Coords, (i 0).val % 2 = 0 → k1_off99 i = ![1, 1552, 0] := by decide +kernel
theorem k1_off99_odd : ∀ i : grid1.Coords, (i 0).val % 2 = 1 → k1_off99 i = ![0, 1552, 0] := by decide +kernel
instance closedOff_k1_off99_even (i : grid1.Coords) [h : Par i 0] : ClosedOff (k1_off99 i) := ⟨![1, 1552, 0], k1_off99_even i h.eq⟩
instance closedOff_k1_off99_odd (i : grid1.Coords) [h : Par i 1] : ClosedOff (k1_off99 i) := ⟨![0, 1552, 0], k1_off99_odd i h.eq⟩
theorem k1_off100_even : ∀ i : grid1.Coords, (i 0).val % 2 = 0 → k1_off100 i = ![1, 1568, 0] := by decide +kernel
theorem k1_off100_odd : ∀ i : grid1.Coords, (i 0).val % 2 = 1 → k1_off100 i = ![0, 1568, 0] := by decide +kernel
instance closedOff_k1_off100_even (i : grid1.Coords) [h : Par i 0] : ClosedOff (k1_off100 i) := ⟨![1, 1568, 0], k1_off100_even i h.eq⟩
instance closedOff_k1_off100_odd (i : grid1.Coords) [h : Par i 1] : ClosedOff (k1_off100 i) := ⟨![0, 1568, 0], k1_off100_odd i h.eq⟩
theorem k1_off101_even : ∀ i : grid1.Coords, (i 0).val % 2 = 0 → k1_off101 i = ![1, 1584, 0] := by decide +kernel
theorem k1_off101_odd : ∀ i : grid1.Coords, (i 0).val % 2 = 1 → k1_off101 i = ![0, 1584, 0] := by decide +kernel
instance closedOff_k1_off101_even (i : grid1.Coords) [h : Par i 0] : ClosedOff (k1_off101 i) := ⟨![1, 1584, 0], k1_off101_even i h.eq⟩
instance closedOff_k1_off101_odd (i : grid1.Coords) [h : Par i 1] : ClosedOff (k1_off101 i) := ⟨![0, 1584, 0], k1_off101_odd i h.eq⟩
theorem k1_off102_even : ∀ i : grid1.Coords, (i 0).val % 2 = 0 → k1_off102 i = ![1, 1600, 0] := by decide +kernel
theorem k1_off102_odd : ∀ i : grid1.Coords, (i 0).val % 2 = 1 → k1_off102 i = ![0, 1600, 0] := by decide +kernel
instance closedOff_k1_off102_even (i : grid1.Coords) [h : Par i 0] : ClosedOff (k1_off102 i) := ⟨![1, 1600, 0], k1_off102_even i h.eq⟩
instance closedOff_k1_off102_odd (i : grid1.Coords) [h : Par i 1] : ClosedOff (k1_off102 i) := ⟨![0, 1600, 0], k1_off102_odd i h.eq⟩
theorem k1_off103_even : ∀ i : grid1.Coords, (i 0).val % 2 = 0 → k1_off103 i = ![1, 1616, 0] := by decide +kernel
theorem k1_off103_odd : ∀ i : grid1.Coords, (i 0).val % 2 = 1 → k1_off103 i = ![0, 1616, 0] := by decide +kernel
instance closedOff_k1_off103_even (i : grid1.Coords) [h : Par i 0] : ClosedOff (k1_off103 i) := ⟨![1, 1616, 0], k1_off103_even i h.eq⟩
instance closedOff_k1_off103_odd (i : grid1.Coords) [h : Par i 1] : ClosedOff (k1_off103 i) := ⟨![0, 1616, 0], k1_off103_odd i h.eq⟩
theorem k1_off104_even : ∀ i : grid1.Coords, (i 0).val % 2 = 0 → k1_off104 i = ![1, 1632, 0] := by decide +kernel
theorem k1_off104_odd : ∀ i : grid1.Coords, (i 0).val % 2 = 1 → k1_off104 i = ![0, 1632, 0] := by decide +kernel
instance closedOff_k1_off104_even (i : grid1.Coords) [h : Par i 0] : ClosedOff (k1_off104 i) := ⟨![1, 1632, 0], k1_off104_even i h.eq⟩
instance closedOff_k1_off104_odd (i : grid1.Coords) [h : Par i 1] : ClosedOff (k1_off104 i) := ⟨![0, 1632, 0], k1_off104_odd i h.eq⟩
theorem k1_off105_even : ∀ i : grid1.Coords, (i 0).val % 2 = 0 → k1_off105 i = ![1, 1648, 0] := by decide +kernel
theorem k1_off105_odd : ∀ i : grid1.Coords, (i 0).val % 2 = 1 → k1_off105 i = ![0, 1648, 0] := by decide +kernel
instance closedOff_k1_off105_even (i : grid1.Coords) [h : Par i 0] : ClosedOff (k1_off105 i) := ⟨![1, 1648, 0], k1_off105_even i h.eq⟩
instance closedOff_k1_off105_odd (i : grid1.Coords) [h : Par i 1] : ClosedOff (k1_off105 i) := ⟨![0, 1648, 0], k1_off105_odd i h.eq⟩
theorem k1_off106_even : ∀ i : grid1.Coords, (i 0).val % 2 = 0 → k1_off106 i = ![1, 1664, 0] := by decide +kernel
theorem k1_off106_odd : ∀ i : grid1.Coords, (i 0).val % 2 = 1 → k1_off106 i = ![0, 1664, 0] := by decide +kernel
instance closedOff_k1_off106_even (i : grid1.Coords) [h : Par i 0] : ClosedOff (k1_off106 i) := ⟨![1, 1664, 0], k1_off106_even i h.eq⟩
instance closedOff_k1_off106_odd (i : grid1.Coords) [h : Par i 1] : ClosedOff (k1_off106 i) := ⟨![0, 1664, 0], k1_off106_odd i h.eq⟩
theorem k1_off107_even : ∀ i : grid1.Coords, (i 0).val % 2 = 0 → k1_off107 i = ![1, 1680, 0] := by decide +kernel
theorem k1_off107_odd : ∀ i : grid1.Coords, (i 0).val % 2 = 1 → k1_off107 i = ![0, 1680, 0] := by decide +kernel
instance closedOff_k1_off107_even (i : grid1.Coords) [h : Par i 0] : ClosedOff (k1_off107 i) := ⟨![1, 1680, 0], k1_off107_even i h.eq⟩
instance closedOff_k1_off107_odd (i : grid1.Coords) [h : Par i 1] : ClosedOff (k1_off107 i) := ⟨![0, 1680, 0], k1_off107_odd i h.eq⟩
theorem k1_off108_even : ∀ i : grid1.Coords, (i 0).val % 2 = 0 → k1_off108 i = ![1, 1696, 0] := by decide +kernel
theorem k1_off108_odd : ∀ i : grid1.Coords, (i 0).val % 2 = 1 → k1_off108 i = ![0, 1696, 0] := by decide +kernel
instance closedOff_k1_off108_even (i : grid1.Coords) [h : Par i 0] : ClosedOff (k1_off108 i) := ⟨![1, 1696, 0], k1_off108_even i h.eq⟩
instance closedOff_k1_off108_odd (i : grid1.Coords) [h : Par i 1] : ClosedOff (k1_off108 i) := ⟨![0, 1696, 0], k1_off108_odd i h.eq⟩
theorem k1_off109_even : ∀ i : grid1.Coords, (i 0).val % 2 = 0 → k1_off109 i = ![1, 1712, 0] := by decide +kernel
theorem k1_off109_odd : ∀ i : grid1.Coords, (i 0).val % 2 = 1 → k1_off109 i = ![0, 1712, 0] := by decide +kernel
instance closedOff_k1_off109_even (i : grid1.Coords) [h : Par i 0] : ClosedOff (k1_off109 i) := ⟨![1, 1712, 0], k1_off109_even i h.eq⟩
instance closedOff_k1_off109_odd (i : grid1.Coords) [h : Par i 1] : ClosedOff (k1_off109 i) := ⟨![0, 1712, 0], k1_off109_odd i h.eq⟩
theorem k1_off110_even : ∀ i : grid1.Coords, (i 0).val % 2 = 0 → k1_off110 i = ![1, 1728, 0] := by decide +kernel
theorem k1_off110_odd : ∀ i : grid1.Coords, (i 0).val % 2 = 1 → k1_off110 i = ![0, 1728, 0] := by decide +kernel
instance closedOff_k1_off110_even (i : grid1.Coords) [h : Par i 0] : ClosedOff (k1_off110 i) := ⟨![1, 1728, 0], k1_off110_even i h.eq⟩
instance closedOff_k1_off110_odd (i : grid1.Coords) [h : Par i 1] : ClosedOff (k1_off110 i) := ⟨![0, 1728, 0], k1_off110_odd i h.eq⟩
theorem k1_off111_even : ∀ i : grid1.Coords, (i 0).val % 2 = 0 → k1_off111 i = ![1, 1744, 0] := by decide +kernel
theorem k1_off111_odd : ∀ i : grid1.Coords, (i 0).val % 2 = 1 → k1_off111 i = ![0, 1744, 0] := by decide +kernel
instance closedOff_k1_off111_even (i : grid1.Coords) [h : Par i 0] : ClosedOff (k1_off111 i) := ⟨![1, 1744, 0], k1_off111_even i h.eq⟩
instance closedOff_k1_off111_odd (i : grid1.Coords) [h : Par i 1] : ClosedOff (k1_off111 i) := ⟨![0, 1744, 0], k1_off111_odd i h.eq⟩
theorem k1_off112_even : ∀ i : grid1.Coords, (i 0).val % 2 = 0 → k1_off112 i = ![1, 1760, 0] := by decide +kernel
theorem k1_off112_odd : ∀ i : grid1.Coords, (i 0).val % 2 = 1 → k1_off112 i = ![0, 1760, 0] := by decide +kernel
instance closedOff_k1_off112_even (i : grid1.Coords) [h : Par i 0] : ClosedOff (k1_off112 i) := ⟨![1, 1760, 0], k1_off112_even i h.eq⟩
instance closedOff_k1_off112_odd (i : grid1.Coords) [h : Par i 1] : ClosedOff (k1_off112 i) := ⟨![0, 1760, 0], k1_off112_odd i h.eq⟩
theorem k1_off113_even : ∀ i : grid1.Coords, (i 0).val % 2 = 0 → k1_off113 i = ![1, 1776, 0] := by decide +kernel
theorem k1_off113_odd : ∀ i : grid1.Coords, (i 0).val % 2 = 1 → k1_off113 i = ![0, 1776, 0] := by decide +kernel
instance closedOff_k1_off113_even (i : grid1.Coords) [h : Par i 0] : ClosedOff (k1_off113 i) := ⟨![1, 1776, 0], k1_off113_even i h.eq⟩
instance closedOff_k1_off113_odd (i : grid1.Coords) [h : Par i 1] : ClosedOff (k1_off113 i) := ⟨![0, 1776, 0], k1_off113_odd i h.eq⟩
theorem k1_off114_even : ∀ i : grid1.Coords, (i 0).val % 2 = 0 → k1_off114 i = ![1, 1792, 0] := by decide +kernel
theorem k1_off114_odd : ∀ i : grid1.Coords, (i 0).val % 2 = 1 → k1_off114 i = ![0, 1792, 0] := by decide +kernel
instance closedOff_k1_off114_even (i : grid1.Coords) [h : Par i 0] : ClosedOff (k1_off114 i) := ⟨![1, 1792, 0], k1_off114_even i h.eq⟩
instance closedOff_k1_off114_odd (i : grid1.Coords) [h : Par i 1] : ClosedOff (k1_off114 i) := ⟨![0, 1792, 0], k1_off114_odd i h.eq⟩
theorem k1_off115_even : ∀ i : grid1.Coords, (i 0).val % 2 = 0 → k1_off115 i = ![1, 1808, 0] := by decide +kernel
theorem k1_off115_odd : ∀ i : grid1.Coords, (i 0).val % 2 = 1 → k1_off115 i = ![0, 1808, 0] := by decide +kernel
instance closedOff_k1_off115_even (i : grid1.Coords) [h : Par i 0] : ClosedOff (k1_off115 i) := ⟨![1, 1808, 0], k1_off115_even i h.eq⟩
instance closedOff_k1_off115_odd (i : grid1.Coords) [h : Par i 1] : ClosedOff (k1_off115 i) := ⟨![0, 1808, 0], k1_off115_odd i h.eq⟩
theorem k1_off116_even : ∀ i : grid1.Coords, (i 0).val % 2 = 0 → k1_off116 i = ![1, 1824, 0] := by decide +kernel
theorem k1_off116_odd : ∀ i : grid1.Coords, (i 0).val % 2 = 1 → k1_off116 i = ![0, 1824, 0] := by decide +kernel
instance closedOff_k1_off116_even (i : grid1.Coords) [h : Par i 0] : ClosedOff (k1_off116 i) := ⟨![1, 1824, 0], k1_off116_even i h.eq⟩
instance closedOff_k1_off116_odd (i : grid1.Coords) [h : Par i 1] : ClosedOff (k1_off116 i) := ⟨![0, 1824, 0], k1_off116_odd i h.eq⟩
theorem k1_off117_even : ∀ i : grid1.Coords, (i 0).val % 2 = 0 → k1_off117 i = ![1, 1840, 0] := by decide +kernel
theorem k1_off117_odd : ∀ i : grid1.Coords, (i 0).val % 2 = 1 → k1_off117 i = ![0, 1840, 0] := by decide +kernel
instance closedOff_k1_off117_even (i : grid1.Coords) [h : Par i 0] : ClosedOff (k1_off117 i) := ⟨![1, 1840, 0], k1_off117_even i h.eq⟩
instance closedOff_k1_off117_odd (i : grid1.Coords) [h : Par i 1] : ClosedOff (k1_off117 i) := ⟨![0, 1840, 0], k1_off117_odd i h.eq⟩
theorem k1_off118_even : ∀ i : grid1.Coords, (i 0).val % 2 = 0 → k1_off118 i = ![1, 1856, 0] := by decide +kernel
theorem k1_off118_odd : ∀ i : grid1.Coords, (i 0).val % 2 = 1 → k1_off118 i = ![0, 1856, 0] := by decide +kernel
instance closedOff_k1_off118_even (i : grid1.Coords) [h : Par i 0] : ClosedOff (k1_off118 i) := ⟨![1, 1856, 0], k1_off118_even i h.eq⟩
instance closedOff_k1_off118_odd (i : grid1.Coords) [h : Par i 1] : ClosedOff (k1_off118 i) := ⟨![0, 1856, 0], k1_off118_odd i h.eq⟩
theorem k1_off119_even : ∀ i : grid1.Coords, (i 0).val % 2 = 0 → k1_off119 i = ![1, 1872, 0] := by decide +kernel
theorem k1_off119_odd : ∀ i : grid1.Coords, (i 0).val % 2 = 1 → k1_off119 i = ![0, 1872, 0] := by decide +kernel
instance closedOff_k1_off119_even (i : grid1.Coords) [h : Par i 0] : ClosedOff (k1_off119 i) := ⟨![1, 1872, 0], k1_off119_even i h.eq⟩
instance closedOff_k1_off119_odd (i : grid1.Coords) [h : Par i 1] : ClosedOff (k1_off119 i) := ⟨![0, 1872, 0], k1_off119_odd i h.eq⟩
theorem k1_off120_even : ∀ i : grid1.Coords, (i 0).val % 2 = 0 → k1_off120 i = ![1, 1888, 0] := by decide +kernel
theorem k1_off120_odd : ∀ i : grid1.Coords, (i 0).val % 2 = 1 → k1_off120 i = ![0, 1888, 0] := by decide +kernel
instance closedOff_k1_off120_even (i : grid1.Coords) [h : Par i 0] : ClosedOff (k1_off120 i) := ⟨![1, 1888, 0], k1_off120_even i h.eq⟩
instance closedOff_k1_off120_odd (i : grid1.Coords) [h : Par i 1] : ClosedOff (k1_off120 i) := ⟨![0, 1888, 0], k1_off120_odd i h.eq⟩
theorem k1_off121_even : ∀ i : grid1.Coords, (i 0).val % 2 = 0 → k1_off121 i = ![1, 1904, 0] := by decide +kernel
theorem k1_off121_odd : ∀ i : grid1.Coords, (i 0).val % 2 = 1 → k1_off121 i = ![0, 1904, 0] := by decide +kernel
instance closedOff_k1_off121_even (i : grid1.Coords) [h : Par i 0] : ClosedOff (k1_off121 i) := ⟨![1, 1904, 0], k1_off121_even i h.eq⟩
instance closedOff_k1_off121_odd (i : grid1.Coords) [h : Par i 1] : ClosedOff (k1_off121 i) := ⟨![0, 1904, 0], k1_off121_odd i h.eq⟩
theorem k1_off122_even : ∀ i : grid1.Coords, (i 0).val % 2 = 0 → k1_off122 i = ![1, 1920, 0] := by decide +kernel
theorem k1_off122_odd : ∀ i : grid1.Coords, (i 0).val % 2 = 1 → k1_off122 i = ![0, 1920, 0] := by decide +kernel
instance closedOff_k1_off122_even (i : grid1.Coords) [h : Par i 0] : ClosedOff (k1_off122 i) := ⟨![1, 1920, 0], k1_off122_even i h.eq⟩
instance closedOff_k1_off122_odd (i : grid1.Coords) [h : Par i 1] : ClosedOff (k1_off122 i) := ⟨![0, 1920, 0], k1_off122_odd i h.eq⟩
theorem k1_off123_even : ∀ i : grid1.Coords, (i 0).val % 2 = 0 → k1_off123 i = ![1, 1936, 0] := by decide +kernel
theorem k1_off123_odd : ∀ i : grid1.Coords, (i 0).val % 2 = 1 → k1_off123 i = ![0, 1936, 0] := by decide +kernel
instance closedOff_k1_off123_even (i : grid1.Coords) [h : Par i 0] : ClosedOff (k1_off123 i) := ⟨![1, 1936, 0], k1_off123_even i h.eq⟩
instance closedOff_k1_off123_odd (i : grid1.Coords) [h : Par i 1] : ClosedOff (k1_off123 i) := ⟨![0, 1936, 0], k1_off123_odd i h.eq⟩
theorem k1_off124_even : ∀ i : grid1.Coords, (i 0).val % 2 = 0 → k1_off124 i = ![1, 1952, 0] := by decide +kernel
theorem k1_off124_odd : ∀ i : grid1.Coords, (i 0).val % 2 = 1 → k1_off124 i = ![0, 1952, 0] := by decide +kernel
instance closedOff_k1_off124_even (i : grid1.Coords) [h : Par i 0] : ClosedOff (k1_off124 i) := ⟨![1, 1952, 0], k1_off124_even i h.eq⟩
instance closedOff_k1_off124_odd (i : grid1.Coords) [h : Par i 1] : ClosedOff (k1_off124 i) := ⟨![0, 1952, 0], k1_off124_odd i h.eq⟩
theorem k1_off125_even : ∀ i : grid1.Coords, (i 0).val % 2 = 0 → k1_off125 i = ![1, 1968, 0] := by decide +kernel
theorem k1_off125_odd : ∀ i : grid1.Coords, (i 0).val % 2 = 1 → k1_off125 i = ![0, 1968, 0] := by decide +kernel
instance closedOff_k1_off125_even (i : grid1.Coords) [h : Par i 0] : ClosedOff (k1_off125 i) := ⟨![1, 1968, 0], k1_off125_even i h.eq⟩
instance closedOff_k1_off125_odd (i : grid1.Coords) [h : Par i 1] : ClosedOff (k1_off125 i) := ⟨![0, 1968, 0], k1_off125_odd i h.eq⟩
theorem k1_off126_even : ∀ i : grid1.Coords, (i 0).val % 2 = 0 → k1_off126 i = ![1, 1984, 0] := by decide +kernel
theorem k1_off126_odd : ∀ i : grid1.Coords, (i 0).val % 2 = 1 → k1_off126 i = ![0, 1984, 0] := by decide +kernel
instance closedOff_k1_off126_even (i : grid1.Coords) [h : Par i 0] : ClosedOff (k1_off126 i) := ⟨![1, 1984, 0], k1_off126_even i h.eq⟩
instance closedOff_k1_off126_odd (i : grid1.Coords) [h : Par i 1] : ClosedOff (k1_off126 i) := ⟨![0, 1984, 0], k1_off126_odd i h.eq⟩
theorem k1_off127_even : ∀ i : grid1.Coords, (i 0).val % 2 = 0 → k1_off127 i = ![1, 2000, 0] := by decide +kernel
theorem k1_off127_odd : ∀ i : grid1.Coords, (i 0).val % 2 = 1 → k1_off127 i = ![0, 2000, 0] := by decide +kernel
instance closedOff_k1_off127_even (i : grid1.Coords) [h : Par i 0] : ClosedOff (k1_off127 i) := ⟨![1, 2000, 0], k1_off127_even i h.eq⟩
instance closedOff_k1_off127_odd (i : grid1.Coords) [h : Par i 1] : ClosedOff (k1_off127 i) := ⟨![0, 2000, 0], k1_off127_odd i h.eq⟩
theorem k1_off128_even : ∀ i : grid1.Coords, (i 0).val % 2 = 0 → k1_off128 i = ![1, 2016, 0] := by decide +kernel
theorem k1_off128_odd : ∀ i : grid1.Coords, (i 0).val % 2 = 1 → k1_off128 i = ![0, 2016, 0] := by decide +kernel
instance closedOff_k1_off128_even (i : grid1.Coords) [h : Par i 0] : ClosedOff (k1_off128 i) := ⟨![1, 2016, 0], k1_off128_even i h.eq⟩
instance closedOff_k1_off128_odd (i : grid1.Coords) [h : Par i 1] : ClosedOff (k1_off128 i) := ⟨![0, 2016, 0], k1_off128_odd i h.eq⟩
theorem k1_off129_even : ∀ i : grid1.Coords, (i 0).val % 2 = 0 → k1_off129 i = ![1, 2032, 0] := by decide +kernel
theorem k1_off129_odd : ∀ i : grid1.Coords, (i 0).val % 2 = 1 → k1_off129 i = ![0, 2032, 0] := by decide +kernel
instance closedOff_k1_off129_even (i : grid1.Coords) [h : Par i 0] : ClosedOff (k1_off129 i) := ⟨![1, 2032, 0], k1_off129_even i h.eq⟩
instance closedOff_k1_off129_odd (i : grid1.Coords) [h : Par i 1] : ClosedOff (k1_off129 i) := ⟨![0, 2032, 0], k1_off129_odd i h.eq⟩

end Cert.Proof.IdealRegion

end
-- ==== Proof.IdealRegionRunA.lean ====
import proofs.«213871_g15814069584205_fold_wed_c4_299_27_alg».proof.Proof.IdealRegionOffsets
import Idealize.ShloMosaic.Lib.Pipeline.FrameBody
import Idealize.ShloMosaic.Lib.Ring
import Idealize.ShloMosaic.Lib.Tactic

set_option maxRecDepth 16384

noncomputable section

namespace Cert.Proof.IdealRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The body at the first grid point: the hidden state is set to zero and the first chunk's input projection is
    stored in the slot of the point's parity; the recurrence is not run. -/

set_option maxHeartbeats 1000000 in
/-- What the body leaves at an even point where the first two conditionals hold and the third does not: the pieces
    the hidden-state buffer and the projection buffer end with (last first), with the proof that from the six input
    blocks at their contents and the output block and the two carried buffers at anything the body runs to its
    return, the inputs as they were, the output block untouched, the two carried buffers with their pieces written. -/
noncomputable def runA (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole)
    (hc1 : cond1 i) (hc2 : k1_cond2 i = 1#1) (hc3 : ¬ k1_cond3 i = 1#1)
    (x1 : Vec F S2048x64 .f32) (x2 : Vec F S2048x128 .f32) (x3 : Vec F S512x192 .f32) (x4 : Vec F S512x512 .f32)
    (x5 : Vec F S1x512 .f32) (x6 : Vec F S1x512 .f32) :
    { W : List (View.Piece (Elt F) S16x512 .f32) × List (View.Piece (Elt F) S2x2048x512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
                ∗ (∃ d, owns (c : Thread nD τ) arg7 fullShare d)
                ∗ (∃ f, arg8.view.loc (c : Thread nD τ) ↦[arg8.view.set]{fullShare} arg8.view.writes (Elt F) f W.1)
                ∗ (∃ f, arg9.view.loc (c : Thread nD τ) ↦[arg9.view.set]{fullShare} arg9.view.writes (Elt F) f W.2)) -∗ K ⟨⟩))
          ⊢ wp frame (wpE (defs₀ (F := F)) Variants.none c none) E (cc1__rnn_kernel i arg1 harg1 arg2 harg2 arg3 harg3 arg4 harg4 arg5 harg5 arg6 harg6 arg7 harg7 arg8 harg8 arg9 harg9) K } := by
  refine ⟨⟨?_, ?_⟩, fun E K => ?run⟩
  case run =>
    simp only [cc1__rnn_kernel_eq_skeleton]; unfold cc1__rnn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexists f7; isplitr; · ipureintro; rfl
      iexact H7
    isplitl [H8]; · iexists _; iexact H8
    iexists _; iexact H9

end Cert.Proof.IdealRegion

end
-- ==== Proof.IdealRegionRunC.lean ====
import proofs.«213871_g15814069584205_fold_wed_c4_299_27_alg».proof.Proof.IdealRegionRunA
import Idealize.ShloMosaic.Lib.Pipeline.FrameBody
import Idealize.ShloMosaic.Lib.Ring
import Idealize.ShloMosaic.Lib.Tactic

set_option maxRecDepth 16384

noncomputable section

namespace Cert.Proof.IdealRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The body at the last grid point (an even one): nothing is projected; the recurrence runs its 128 steps on the
    projection the point before left in slot 1 and on the hidden state, writes the output block and the new hidden state. -/

set_option maxHeartbeats 4000000 in
noncomputable def runC (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole)
    (hc1 : ¬ cond1 i) (hc2 : ¬ k1_cond2 i = 1#1) (hc3 : k1_cond3 i = 1#1)
    (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) :
    { W : List (View.Piece (Elt F) S16x128x512 .f32) × List (View.Piece (Elt F) S16x512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare x8
            ∗ (∃ f, arg9.view.loc (c : Thread nD τ) ↦[arg9.view.set]{fullShare} arg9.view.writes (Elt F) f [⟨Rect.unit ![1, 0, 0] S1x2048x512.size inb_slot1, P⟩])
            ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f W.1)
                ∗ (∃ f, arg8.view.loc (c : Thread nD τ) ↦[arg8.view.set]{fullShare} arg8.view.writes (Elt F) f W.2)
                ∗ (∃ f, arg9.view.loc (c : Thread nD τ) ↦[arg9.view.set]{fullShare} arg9.view.writes (Elt F) f [⟨Rect.unit ![1, 0, 0] S1x2048x512.size inb_slot1, P⟩])) -∗ K ⟨⟩))
          ⊢ wp frame (wpE (defs₀ (F := F)) Variants.none c none) E (cc1__rnn_kernel i arg1 harg1 arg2 harg2 arg3 harg3 arg4 harg4 arg5 harg5 arg6 harg6 arg7 harg7 arg8 harg8 arg9 harg9) K } := by
  refine ⟨⟨?_, ?_⟩, fun E K => ?run⟩
  case run =>
    simp only [cc1__rnn_kernel_eq_skeleton]; unfold cc1__rnn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg8.eq_unread hf8
    sl_exec_parts (disch := first | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.Proof.IdealRegion

end
-- ==== Proof.IdealRegionRunBo.lean ====
import proofs.«213871_g15814069584205_fold_wed_c4_299_27_alg».proof.Proof.IdealRegionRunC
import Idealize.ShloMosaic.Lib.Pipeline.FrameBody
import Idealize.ShloMosaic.Lib.Ring
import Idealize.ShloMosaic.Lib.Tactic

set_option maxRecDepth 16384

noncomputable section

namespace Cert.Proof.IdealRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The body at an odd inner grid point: the point's chunk is projected into slot 1, then the recurrence runs its
    128 steps on the projection the point before left in slot 0 and on the hidden state. -/

set_option maxHeartbeats 4000000 in
noncomputable def runBo (c : Dev nD) (i : grid1.Coords) [Par i 1] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole)
    (hc1 : ¬ cond1 i) (hc2 : k1_cond2 i = 1#1) (hc3 : k1_cond3 i = 1#1)
    (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) :
    { W : List (View.Piece (Elt F) S16x128x512 .f32) × List (View.Piece (Elt F) S16x512 .f32) × List (View.Piece (Elt F) S2x2048x512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare x8
            ∗ (∃ f, arg9.view.loc (c : Thread nD τ) ↦[arg9.view.set]{fullShare} arg9.view.writes (Elt F) f [⟨Rect.unit ![0, 0, 0] S1x2048x512.size inb_slot0, P⟩])
            ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f W.1)
                ∗ (∃ f, arg8.view.loc (c : Thread nD τ) ↦[arg8.view.set]{fullShare} arg8.view.writes (Elt F) f W.2.1)
                ∗ (∃ f, arg9.view.loc (c : Thread nD τ) ↦[arg9.view.set]{fullShare} arg9.view.writes (Elt F) f W.2.2)) -∗ K ⟨⟩))
          ⊢ wp frame (wpE (defs₀ (F := F)) Variants.none c none) E (cc1__rnn_kernel i arg1 harg1 arg2 harg2 arg3 harg3 arg4 harg4 arg5 harg5 arg6 harg6 arg7 harg7 arg8 harg8 arg9 harg9) K } := by
  refine ⟨⟨?_, ?_, ?_⟩, fun E K => ?run⟩
  case run =>
    simp only [cc1__rnn_kernel_eq_skeleton]; unfold cc1__rnn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg8.eq_unread hf8
    sl_exec_parts (disch := first | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.Proof.IdealRegion

end
-- ==== Proof.IdealRegionRunBe.lean ====
import proofs.«213871_g15814069584205_fold_wed_c4_299_27_alg».proof.Proof.IdealRegionRunBo
import Idealize.ShloMosaic.Lib.Pipeline.FrameBody
import Idealize.ShloMosaic.Lib.Ring
import Idealize.ShloMosaic.Lib.Tactic

set_option maxRecDepth 16384

noncomputable section

namespace Cert.Proof.IdealRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The body at an even inner grid point: the point's chunk is projected into slot 0, then the recurrence runs its
    128 steps on the projection the point before left in slot 1 and on the hidden state. -/

set_option maxHeartbeats 4000000 in
noncomputable def runBe (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole)
    (hc1 : ¬ cond1 i) (hc2 : k1_cond2 i = 1#1) (hc3 : k1_cond3 i = 1#1)
    (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) :
    { W : List (View.Piece (Elt F) S16x128x512 .f32) × List (View.Piece (Elt F) S16x512 .f32) × List (View.Piece (Elt F) S2x2048x512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare x8
            ∗ (∃ f, arg9.view.loc (c : Thread nD τ) ↦[arg9.view.set]{fullShare} arg9.view.writes (Elt F) f [⟨Rect.unit ![1, 0, 0] S1x2048x512.size inb_slot1, P⟩])
            ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f W.1)
                ∗ (∃ f, arg8.view.loc (c : Thread nD τ) ↦[arg8.view.set]{fullShare} arg8.view.writes (Elt F) f W.2.1)
                ∗ (∃ f, arg9.view.loc (c : Thread nD τ) ↦[arg9.view.set]{fullShare} arg9.view.writes (Elt F) f W.2.2)) -∗ K ⟨⟩))
          ⊢ wp frame (wpE (defs₀ (F := F)) Variants.none c none) E (cc1__rnn_kernel i arg1 harg1 arg2 harg2 arg3 harg3 arg4 harg4 arg5 harg5 arg6 harg6 arg7 harg7 arg8 harg8 arg9 harg9) K } := by
  refine ⟨⟨?_, ?_, ?_⟩, fun E K => ?run⟩
  case run =>
    simp only [cc1__rnn_kernel_eq_skeleton]; unfold cc1__rnn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg8.eq_unread hf8
    sl_exec_parts (disch := first | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.Proof.IdealRegion

end
-- ==== Proof.IdealRegionDat.lean ====
import proofs.«213871_g15814069584205_fold_wed_c4_299_27_alg».proof.Proof.IdealRegionRunBe
import Idealize.ShloMosaic.Lib.Pipeline.FrameBody
import Idealize.ShloMosaic.Lib.Ring
import Idealize.ShloMosaic.Lib.Tactic

set_option maxRecDepth 16384

noncomputable section

namespace Cert.Proof.IdealRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The proof data of the recurrent kernel's pipeline: what each grid point leaves, as VALUES carried from point to
    point — the projection of the chunk fetched at a point, the hidden state after it, the output block it writes —,
    each the pieces the body's stores leave at that point, read back; and the pipeline's data over them. -/

variable (A : (c : Dev nD) → (w : Fin cfg1.W) → Buf (Elt F) ((cfg1.win w).arr.view.loc (c.tc : Thread nD τ)))

/-! ## The conditions and the parity over the grid -/

/-- The first conditional holds at the first point only, -/
theorem hcond1 : ∀ t : Fin cfg1.N, cond1 (grid1.coords t) ↔ t.val = 0 :=
  (by decide +kernel : ∀ t : Fin grid1.N, cond1 (grid1.coords t) ↔ t.val = 0)
/-- the second at every point but the last, -/
theorem hcond2 : ∀ t : Fin cfg1.N, k1_cond2 (grid1.coords t) = 1#1 ↔ t.val < 4 :=
  (by decide +kernel : ∀ t : Fin grid1.N, k1_cond2 (grid1.coords t) = 1#1 ↔ t.val < 4)
/-- the third at every point but the first. -/
theorem hcond3 : ∀ t : Fin cfg1.N, k1_cond3 (grid1.coords t) = 1#1 ↔ 0 < t.val :=
  (by decide +kernel : ∀ t : Fin grid1.N, k1_cond3 (grid1.coords t) = 1#1 ↔ 0 < t.val)
/-- The grid coordinate is the point's number. -/
theorem hpar : ∀ t : Fin cfg1.N, ((grid1.coords t) 0).val % 2 = t.val % 2 :=
  (by decide +kernel : ∀ t : Fin grid1.N, ((grid1.coords t) 0).val % 2 = t.val % 2)

/-! ## The memrefs the body is called with at a point -/

abbrev ms0 (t : Fin cfg1.N) : Memref sig .tc .vmem S2048x64 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x192 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x512 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x512 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x512 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S16x128x512 .f32 := win1_6.stage (cfg1.slots t 6)
abbrev hs6 (t : Fin cfg1.N) : (ms6 t).IsWhole := hstage1_6 ((cfg1.slots t 6).cast nbuf1_6)
/-- The hidden state's buffer and the two-slot projection buffer, whole. -/
abbrev mh : Memref sig .tc .vmem S16x512 .f32 := Memref.whole cc1_scratch0
abbrev hmh : (mh).IsWhole := Memref.isWhole_whole _
abbrev mz : Memref sig .tc .vmem S2x2048x512 .f32 := Memref.whole cc1_scratch1
abbrev hmz : (mz).IsWhole := Memref.isWhole_whole _

/-! ## The windows' blocks -/

/-- Window `w`'s block at point `t`, read off its array at entry. -/
def iblk (c : Dev nD) (w : Fin cfg1.W) (t : Fin cfg1.N) : ((cfg1.win w).xblock (cfg1.grid.coords t)).Idx → Elt F (cfg1.win w).elt :=
  ((cfg1.win w).blk t).view.read (Elt F) (A c w)

/-! ## The values carried from point to point -/

/-- The projection of one chunk: the two input blocks against the two column ranges of the input weights, plus the
    two biases — the payload of the projection's store, over what the body loads. -/
def zOf (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole)
    (arg5 : Memref sig .tc .vmem S1x512 .f32) (harg5 : arg5.IsWhole) (arg6 : Memref sig .tc .vmem S1x512 .f32) (harg6 : arg6.IsWhole)
    (x1 : Vec F S2048x64 .f32) (x2 : Vec F S2048x128 .f32) (x3 : Vec F S512x192 .f32) (x5 : Vec F S1x512 .f32) (x6 : Vec F S1x512 .f32) :
    Vec F S1x2048x512 .f32 :=
  k1_pay2
    (View.readAt (Elt F) arg1.view (Rect.unit (s := S2048x64) ![0, 0] S2048x64.size inb_S2048x64_S2048x64_0_0).toLoadRect (harg1.unread x1))
    (View.readAt (Elt F) arg3.view (Rect.unit (s := S512x192) ![0, 0] S512x64.size inb_S512x192_S512x64_0_0).toLoadRect (harg3.unread x3))
    (View.readAt (Elt F) arg2.view (Rect.unit (s := S2048x128) ![0, 0] S2048x128.size inb_S2048x128_S2048x128_0_0).toLoadRect (harg2.unread x2))
    (View.readAt (Elt F) arg3.view (Rect.unit (s := S512x192) ![0, 64] S512x128.size inb_S512x192_S512x128_0_64).toLoadRect (harg3.unread x3))
    (View.readAt (Elt F) arg5.view (Rect.unit (s := S1x512) ![0, 0] S1x512.size inb_S1x512_S1x512_0_0).toLoadRect (harg5.unread x5))
    (View.readAt (Elt F) arg6.view (Rect.unit (s := S1x512) ![0, 0] S1x512.size inb_S1x512_S1x512_0_0).toLoadRect (harg6.unread x6))

/-- The projection of the chunk fetched at point `t` (points 0 to 3 project; the last point's is never stored). -/
def Zat (c : Dev nD) (t : Fin cfg1.N) : Vec F S1x2048x512 .f32 :=
  zOf (ms0 t) (hs0 t) (ms1 t) (hs1 t) (ms2 t) (hs2 t) (ms4 t) (hs4 t) (ms5 t) (hs5 t)
    (iblk A c 0 t) (iblk A c 1 t) (iblk A c 2 t) (iblk A c 4 t) (iblk A c 5 t)

section
variable (Ix U Lvl)

/-- The pieces the first point leaves in the hidden state's buffer. -/
def WA (c : Dev nD) (h0 : 0 < cfg1.N) : List (View.Piece (Elt F) S16x512 .f32) :=
  (@runA F _ Ix _ U _ Lvl _ c (grid1.coords ⟨0, h0⟩) ⟨(hpar ⟨0, h0⟩).trans (Nat.zero_mod 2)⟩ (ms0 ⟨0, h0⟩) (hs0 ⟨0, h0⟩) (ms1 ⟨0, h0⟩) (hs1 ⟨0, h0⟩) (ms2 ⟨0, h0⟩) (hs2 ⟨0, h0⟩) (ms3 ⟨0, h0⟩) (hs3 ⟨0, h0⟩) (ms4 ⟨0, h0⟩) (hs4 ⟨0, h0⟩) (ms5 ⟨0, h0⟩) (hs5 ⟨0, h0⟩) (ms6 ⟨0, h0⟩) (hs6 ⟨0, h0⟩) mh hmh mz hmz
    ((hcond1 ⟨0, h0⟩).mpr rfl) ((hcond2 ⟨0, h0⟩).mpr (Nat.zero_lt_succ 3)) (fun h => absurd ((hcond3 ⟨0, h0⟩).mp h) (Nat.lt_irrefl 0))
    (iblk A c 0 ⟨0, h0⟩) (iblk A c 1 ⟨0, h0⟩) (iblk A c 2 ⟨0, h0⟩) (iblk A c 3 ⟨0, h0⟩) (iblk A c 4 ⟨0, h0⟩) (iblk A c 5 ⟨0, h0⟩)).1.1

/-- The pieces the recurrence at point `n + 1` leaves in the output block and in the hidden state's buffer, from the
    hidden state `x8` and the projection `P` the point before left: the last point's case (nothing projected), an
    odd inner point's (it reads slot 0), an even inner point's (it reads slot 1). -/
def W3 (c : Dev nD) (n : ℕ) (hn : n + 1 < cfg1.N) (x8 : Vec F S16x512 .f32) (P : Vec F S1x2048x512 .f32) :
    List (View.Piece (Elt F) S16x128x512 .f32) × List (View.Piece (Elt F) S16x512 .f32) :=
  if h4 : n + 1 = 4 then
    (@runC F _ Ix _ U _ Lvl _ c (grid1.coords ⟨n + 1, hn⟩) ⟨(hpar ⟨n + 1, hn⟩).trans (by show (n + 1) % 2 = 0; omega)⟩ (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) mh hmh mz hmz
      (fun h => absurd ((hcond1 ⟨n + 1, hn⟩).mp h) (Nat.succ_ne_zero n))
      (fun h => absurd ((hcond2 ⟨n + 1, hn⟩).mp h) (by show ¬ n + 1 < 4; omega))
      ((hcond3 ⟨n + 1, hn⟩).mpr (Nat.succ_pos n))
      (iblk A c 0 ⟨n + 1, hn⟩) (iblk A c 1 ⟨n + 1, hn⟩) (iblk A c 2 ⟨n + 1, hn⟩) (iblk A c 3 ⟨n + 1, hn⟩) (iblk A c 4 ⟨n + 1, hn⟩) (iblk A c 5 ⟨n + 1, hn⟩) x8 P).1
  else if ho : (n + 1) % 2 = 1 then
    let r := (@runBo F _ Ix _ U _ Lvl _ c (grid1.coords ⟨n + 1, hn⟩) ⟨(hpar ⟨n + 1, hn⟩).trans ho⟩ (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) mh hmh mz hmz
      (fun h => absurd ((hcond1 ⟨n + 1, hn⟩).mp h) (Nat.succ_ne_zero n))
      ((hcond2 ⟨n + 1, hn⟩).mpr (by show n + 1 < 4; have := lt_of_lt_of_eq hn N_1; omega))
      ((hcond3 ⟨n + 1, hn⟩).mpr (Nat.succ_pos n))
      (iblk A c 0 ⟨n + 1, hn⟩) (iblk A c 1 ⟨n + 1, hn⟩) (iblk A c 2 ⟨n + 1, hn⟩) (iblk A c 3 ⟨n + 1, hn⟩) (iblk A c 4 ⟨n + 1, hn⟩) (iblk A c 5 ⟨n + 1, hn⟩) x8 P).1
    (r.1, r.2.1)
  else
    let r := (@runBe F _ Ix _ U _ Lvl _ c (grid1.coords ⟨n + 1, hn⟩) ⟨(hpar ⟨n + 1, hn⟩).trans (by show (n + 1) % 2 = 0; omega)⟩ (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) mh hmh mz hmz
      (fun h => absurd ((hcond1 ⟨n + 1, hn⟩).mp h) (Nat.succ_ne_zero n))
      ((hcond2 ⟨n + 1, hn⟩).mpr (by show n + 1 < 4; have := lt_of_lt_of_eq hn N_1; omega))
      ((hcond3 ⟨n + 1, hn⟩).mpr (Nat.succ_pos n))
      (iblk A c 0 ⟨n + 1, hn⟩) (iblk A c 1 ⟨n + 1, hn⟩) (iblk A c 2 ⟨n + 1, hn⟩) (iblk A c 3 ⟨n + 1, hn⟩) (iblk A c 4 ⟨n + 1, hn⟩) (iblk A c 5 ⟨n + 1, hn⟩) x8 P).1
    (r.1, r.2.1)

/-- The hidden state after the body at point `n`: zero after the first point, then what the recurrence's last step
    stores — its pieces read back. -/
def Hat (c : Dev nD) : (n : ℕ) → n < cfg1.N → Vec F S16x512 .f32
  | 0, hn => mh.view.read (Elt F) (mh.view.writes (Elt F) mh.view.junk (WA Ix U Lvl A c hn))
  | n + 1, hn => mh.view.read (Elt F) (mh.view.writes (Elt F) mh.view.junk
      (W3 Ix U Lvl A c n hn (Hat c n (Nat.lt_of_succ_lt hn)) (Zat A c ⟨n, Nat.lt_of_succ_lt hn⟩)).2)

/-- The output block the body at point `n` leaves: from the second point on the 128 steps' states, the recurrence's
    256 pieces read back; the first point stores none (the window is idle there: anything). -/
def Oat (c : Dev nD) : (n : ℕ) → n < cfg1.N → Vec F S16x128x512 .f32
  | 0, hn => (ms6 ⟨0, hn⟩).view.read (Elt F) (ms6 ⟨0, hn⟩).view.junk
  | n + 1, hn => (ms6 ⟨n + 1, hn⟩).view.read (Elt F) ((ms6 ⟨n + 1, hn⟩).view.writes (Elt F) (ms6 ⟨n + 1, hn⟩).view.junk
      (W3 Ix U Lvl A c n hn (Hat Ix U Lvl A c n (Nat.lt_of_succ_lt hn)) (Zat A c ⟨n, Nat.lt_of_succ_lt hn⟩)).1)

end

/-! ## The pipeline's proof data -/

section
variable (Ix U Lvl)

/-- The invariant between points, by the number of points done: before the first point the two carried buffers hold
    anything; after point `k` the hidden state's buffer holds `Hat k` and the projection buffer holds, in the slot of
    `k`'s parity, the projection of the chunk fetched at `k` (whatever the other slot holds) — after the last point,
    which projects nothing, still the fourth chunk's. -/
def ΦN (c : Dev nD) : ℕ → sProp 𝕄
  | 0 => iprop((∃ d, owns (c : Thread nD τ) mh fullShare d) ∗ (∃ d, owns (c : Thread nD τ) mz fullShare d))
  | 1 => iprop(owns (c : Thread nD τ) mh fullShare (Hat Ix U Lvl A c 0 t1_0.isLt)
      ∗ (∃ f, mz.view.loc (c : Thread nD τ) ↦[mz.view.set]{fullShare} mz.view.writes (Elt F) f [⟨Rect.unit ![0, 0, 0] S1x2048x512.size inb_slot0, Zat A c t1_0⟩]))
  | 2 => iprop(owns (c : Thread nD τ) mh fullShare (Hat Ix U Lvl A c 1 t1_1.isLt)
      ∗ (∃ f, mz.view.loc (c : Thread nD τ) ↦[mz.view.set]{fullShare} mz.view.writes (Elt F) f [⟨Rect.unit ![1, 0, 0] S1x2048x512.size inb_slot1, Zat A c t1_1⟩]))
  | 3 => iprop(owns (c : Thread nD τ) mh fullShare (Hat Ix U Lvl A c 2 t1_2.isLt)
      ∗ (∃ f, mz.view.loc (c : Thread nD τ) ↦[mz.view.set]{fullShare} mz.view.writes (Elt F) f [⟨Rect.unit ![0, 0, 0] S1x2048x512.size inb_slot0, Zat A c t1_2⟩]))
  | 4 => iprop(owns (c : Thread nD τ) mh fullShare (Hat Ix U Lvl A c 3 t1_3.isLt)
      ∗ (∃ f, mz.view.loc (c : Thread nD τ) ↦[mz.view.set]{fullShare} mz.view.writes (Elt F) f [⟨Rect.unit ![1, 0, 0] S1x2048x512.size inb_slot1, Zat A c t1_3⟩]))
  | _ + 5 => iprop(owns (c : Thread nD τ) mh fullShare (Hat Ix U Lvl A c 4 t1_4.isLt)
      ∗ (∃ f, mz.view.loc (c : Thread nD τ) ↦[mz.view.set]{fullShare} mz.view.writes (Elt F) f [⟨Rect.unit ![1, 0, 0] S1x2048x512.size inb_slot1, Zat A c t1_3⟩]))

end

/-- The proof data of the one pipeline on core `c`: the arrays as the region finds them (`A`); after the body at
    point `t` each input's buffer at its block and the output's at `Oat t`; the invariant `ΦN`; nothing owed; the
    recorded waits within `B0` throughout (the body waits for nothing); the shares `q`. -/
def dats (q : Fin cfg1.W → PosShare TreeShare) (B0 : Set (SemLoc sig × Ix)) (p : Fin 1) (c : Dev nD) :
    Dat τ (Elt F) Ix ℕ U Lvl (cfgs p) c where
  A w := A c w
  after w t := match w with
    | ⟨0, _⟩ => iblk A c 0 t
    | ⟨1, _⟩ => iblk A c 1 t
    | ⟨2, _⟩ => iblk A c 2 t
    | ⟨3, _⟩ => iblk A c 3 t
    | ⟨4, _⟩ => iblk A c 4 t
    | ⟨5, _⟩ => iblk A c 5 t
    | ⟨6, _⟩ => Oat Ix U Lvl A c t.val t.isLt
  Φ t := ΦN Ix U Lvl A c t.val
  q := q
  owed _ := 0
  recorded _ := B0

variable (q : Fin cfg1.W → PosShare TreeShare) (B0 : Set (SemLoc sig × Ix))

theorem A_eq (c : Dev nD) (w : Fin cfg1.W) : (dats (U := U) (Lvl := Lvl) A q B0 0 c).A w = A c w := by dsimp only [dats]

/-- What the body leaves, window by window. -/
theorem after1_0 (c : Dev nD) (t : Fin cfg1.N) : (dats (U := U) (Lvl := Lvl) A q B0 0 c).after 0 t = iblk A c 0 t := by dsimp only [dats]
theorem after1_1 (c : Dev nD) (t : Fin cfg1.N) : (dats (U := U) (Lvl := Lvl) A q B0 0 c).after 1 t = iblk A c 1 t := by dsimp only [dats]
theorem after1_2 (c : Dev nD) (t : Fin cfg1.N) : (dats (U := U) (Lvl := Lvl) A q B0 0 c).after 2 t = iblk A c 2 t := by dsimp only [dats]
theorem after1_3 (c : Dev nD) (t : Fin cfg1.N) : (dats (U := U) (Lvl := Lvl) A q B0 0 c).after 3 t = iblk A c 3 t := by dsimp only [dats]
theorem after1_4 (c : Dev nD) (t : Fin cfg1.N) : (dats (U := U) (Lvl := Lvl) A q B0 0 c).after 4 t = iblk A c 4 t := by dsimp only [dats]
theorem after1_5 (c : Dev nD) (t : Fin cfg1.N) : (dats (U := U) (Lvl := Lvl) A q B0 0 c).after 5 t = iblk A c 5 t := by dsimp only [dats]
theorem after1_6 (c : Dev nD) (t : Fin cfg1.N) : (dats (U := U) (Lvl := Lvl) A q B0 0 c).after 6 t = Oat Ix U Lvl A c t.val t.isLt := by dsimp only [dats]

/-- The invariant, by the number of points done. -/
theorem Φ_eq (c : Dev nD) (t : Fin (cfg1.N + 1)) : (dats (U := U) (Lvl := Lvl) A q B0 0 c).Φ t = ΦN Ix U Lvl A c t.val := by dsimp only [dats]

/-- Each input's current staging buffer holds its block at every point, fetched there or not: the body leaves the
    block in place, the window is never idle and its blocks tile the array. -/
theorem before1_0 (c : Dev nD) (t : Fin cfg1.N) (d) : (dats (U := U) (Lvl := Lvl) A q B0 0 c).before 0 t d = iblk A c 0 t :=
  ((dats (U := U) (Lvl := Lvl) A q B0 0 c).before_in_eq_fetched 0 rfl (fun _ => rfl) (fun _ _ _ => rfl)
      (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats (U := U) (Lvl := Lvl) A q B0 0 c).before 1 t d = iblk A c 1 t :=
  ((dats (U := U) (Lvl := Lvl) A q B0 0 c).before_in_eq_fetched 1 rfl (fun _ => rfl) (fun _ _ _ => rfl)
      (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dats (U := U) (Lvl := Lvl) A q B0 0 c).before 2 t d = iblk A c 2 t :=
  ((dats (U := U) (Lvl := Lvl) A q B0 0 c).before_in_eq_fetched 2 rfl (fun _ => rfl) (fun _ _ _ => rfl)
      (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dats (U := U) (Lvl := Lvl) A q B0 0 c).before 3 t d = iblk A c 3 t :=
  ((dats (U := U) (Lvl := Lvl) A q B0 0 c).before_in_eq_fetched 3 rfl (fun _ => rfl) (fun _ _ _ => rfl)
      (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (dats (U := U) (Lvl := Lvl) A q B0 0 c).before 4 t d = iblk A c 4 t :=
  ((dats (U := U) (Lvl := Lvl) A q B0 0 c).before_in_eq_fetched 4 rfl (fun _ => rfl) (fun _ _ _ => rfl)
      (fun t => by rw [after1_4]; unfold Dat.blockOf iblk; rw [A_eq]; try rfl) t d).trans
    (by unfold Dat.fetched Dat.blockOf iblk; rw [A_eq]; try rfl)
theorem before1_5 (c : Dev nD) (t : Fin cfg1.N) (d) : (dats (U := U) (Lvl := Lvl) A q B0 0 c).before 5 t d = iblk A c 5 t :=
  ((dats (U := U) (Lvl := Lvl) A q B0 0 c).before_in_eq_fetched 5 rfl (fun _ => rfl) (fun _ _ _ => rfl)
      (fun t => by rw [after1_5]; unfold Dat.blockOf iblk; rw [A_eq]; try rfl) t d).trans
    (by unfold Dat.fetched Dat.blockOf iblk; rw [A_eq]; try rfl)

end Cert.Proof.IdealRegion

end
-- ==== Proof.IdealRegionSeg.lean ====
/-
  The recurrence's kernel region, as the launch theorem's @main meets it.
  The region is entered with every array of @main whole. Seven of them are the pipeline's windows' arrays (the time-major
  actions, the gathered embeddings, W_ih, W_hhᵀ, the two biases as 1×512 rows, and the result); the others bypass it. The
  two buffers the kernel carries from grid point to grid point (the hidden state, the two slots of projected inputs) are
  the core's scoped buffers no window stages: they enter the pipeline's invariant at any contents and leave it the same
  way. The core owes nothing throughout, and the waits recorded are those the core came with and the pipeline's own, at the
  index that sits below everything. At the exit the result array holds what the proof data says the four write-backs leave.
-/
import proofs.«213871_g15814069584205_fold_wed_c4_299_27_alg».proof.Proof.IdealMain
import proofs.«213871_g15814069584205_fold_wed_c4_299_27_alg».proof.Proof.IdealRegionDat
import Idealize.ShloMosaic.Lib.Pipeline.Regions

noncomputable section

namespace Cert.Proof.IdealRegionSeg

open Cert.KernelIdeal Cert.KernelIdeal.Gen Cert.Proof.IdealTile Cert.Proof.IdealLaunch Cert.Proof.IdealMain

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat RegionSeg)

variable {F : FTy → Type} [FloatOps F]

local notation "𝕄" => MT nD τ sig (HIx 1) (Elt F) ℕ UU ℕ

variable (m : (ℓ : Loc nD τ sig) → Buf (Elt F) ℓ)

/-- The pipeline has no prefetched table. -/
abbrev adm : (p : Fin 1) → (pcfgs (F := F) p).Adm := fun p => (cfgs p).toPCfg_adm

/-- A buffer held whole through its whole view is the buffer held. -/
theorem pts_whole (c : Thread nD τ) (b : Ref sig c.2.kind) (q : PosShare TreeShare) (g : Buf (Elt F) (c.loc b)) :
    ((Memref.whole b).view.loc c ↦[(Memref.whole b).view.set]{q} g : sProp 𝕄) = (c.loc b ↦{q} g) := by
  simp only [Memref.view_whole, View.set_whole]

/-- There is one device. -/
theorem dev_eq (c d : Dev nD) : c = d := Subsingleton.elim c d

section Rec

variable (d : Dev nD) (f : Buf (Elt F) (outLoc d)) (W₀ : Waits sig (HIx 1))

/-- The gathered array, on the one core. -/
def fAt (c : Dev nD) : Buf (Elt F) (outLoc c) := (dev_eq d c) ▸ f

/-- Every array of @main as the region finds it on core `c`. -/
abbrev Vw (c : Dev nD) : (b : Ref sig .tc) → Buf (Elt F) ((c.tc : Thread nD τ).loc b) :=
  fun b => Vmid m c (fAt d f c) (Proc.devRef .tc b)

/-- The windows' arrays among them. -/
abbrev Aw (c : Dev nD) (w : Fin cfg1.W) : Buf (Elt F) ((cfg1.win w).arr.view.loc (c.tc : Thread nD τ)) :=
  Vw m d f c (Pipeline.arrRef spec1 w)

/-- The waits the core may have recorded: those it came with, and any at the lowest index. -/
abbrev B0 : Set (SemLoc sig × HIx 1) := {p | p ∈ W₀ ∨ p.2 = none}

/-- The pipeline's proof data over these arrays. -/
abbrev pd : (p : Fin 1) → (c : Dev nD) → Dat τ (Elt F) (HIx 1) ℕ UU ℕ (cfgs p) c :=
  Cert.Proof.IdealRegion.dats (Ix := HIx 1) (U := UU) (Lvl := ℕ) (Aw m d f) (fun _ => fullShare) (B0 W₀)

/-- What the region leaves in the result array. -/
def OUTc (c : Dev nD) : Buf (Elt F) ((cfg1.win 6).arr.view.loc (c.tc : Thread nD τ)) := (pd m d f W₀ 0 c).arrAt 6 cfg1.N

/-- The arrays after the region, every one: the windows' at the proof data's final contents, the others as they were. -/
abbrev Ve (c : Dev nD) : (b : Ref sig .tc) → Buf (Elt F) ((c.tc : Thread nD τ).loc b) :=
  fun b => Vend m c (fAt d f c) (OUTc m d f W₀ c) (Proc.devRef .tc b)

/-- An input window's array leaves the region as it entered; the result's is `OUTc`. -/
theorem arrAt_end (c : Dev nD) (w : Fin cfg1.W) : (pd m d f W₀ 0 c).arrAt w cfg1.N = Ve m d f W₀ c (Pipeline.arrRef spec1 w) := by
  have hne : ∀ r : Ref sig .tc, r ≠ main_v8 → Ve m d f W₀ c r = Vw m d f c r := fun r hr => by
    show Vend m c (fAt d f c) _ (Proc.devRef .tc r) = _
    unfold Vend; exact Function.update_of_ne (StableHlo.devRef_ne_of_ne hr) _ _
  match w with
  | ⟨0, _⟩ => exact ((pd m d f W₀ 0 c).arrAt_in 0 rfl _).trans (hne main_v1 (by decide)).symm
  | ⟨1, _⟩ => exact ((pd m d f W₀ 0 c).arrAt_in 1 rfl _).trans (hne main_v4 (by decide)).symm
  | ⟨2, _⟩ => exact ((pd m d f W₀ 0 c).arrAt_in 2 rfl _).trans (hne main_arg3 (by decide)).symm
  | ⟨3, _⟩ => exact ((pd m d f W₀ 0 c).arrAt_in 3 rfl _).trans (hne main_v5 (by decide)).symm
  | ⟨4, _⟩ => exact ((pd m d f W₀ 0 c).arrAt_in 4 rfl _).trans (hne main_v6 (by decide)).symm
  | ⟨5, _⟩ => exact ((pd m d f W₀ 0 c).arrAt_in 5 rfl _).trans (hne main_v7 (by decide)).symm
  | ⟨6, _⟩ =>
    show OUTc m d f W₀ c = Vend m c (fAt d f c) (OUTc m d f W₀ c) (Proc.devRef .tc main_v8)
    unfold Vend; rw [Function.update_self]

/-- The arrays that bypass the region are none of them the result array. -/
theorem rest_end (c : Dev nD) :
    (Pipeline.unscopedRest (Ix := HIx 1) (Name := ℕ) (U := UU) (Lvl := ℕ) spec1 c (Vw m d f c) : sProp 𝕄)
      = Pipeline.unscopedRest spec1 c (Ve m d f W₀ c) := by
  unfold Pipeline.unscopedRest
  refine bigSep_congr fun b hb => ?_
  have hb8 : b ≠ main_v8 := fun e => (Finset.mem_sdiff.mp hb).2 (Finset.mem_image.mpr ⟨6, Finset.mem_univ _, e.symm ▸ rfl⟩)
  have : Ve m d f W₀ c b = Vw m d f c b := by
    show Vend m c (fAt d f c) _ (Proc.devRef .tc b) = _
    unfold Vend; exact Function.update_of_ne (StableHlo.devRef_ne_of_ne hb8) _ _
  rw [this]

set_option maxHeartbeats 2000000 in
/-- Every array held after the region. -/
theorem exit_held (c : Dev nD) :
    iprop(((pd m d f W₀ 0 c).arrays fun w => (pd m d f W₀ 0 c).arrAt w cfg1.N) ∗ Pipeline.unscopedRest spec1 c (Vw m d f c))
      ⊢ (held (c.tc : Thread nD τ) UC (Vend m c (fAt d f c) (OUTc m d f W₀ c)) : sProp 𝕄) := by
  have e1 := Pipeline.unscopedBufs_held (Ix := HIx 1) (Name := ℕ) (U := UU) (Lvl := ℕ) c (Vend m c (fAt d f c) (OUTc m d f W₀ c))
  have e2 := Pipeline.unscopedBufs_split (Ix := HIx 1) (Name := ℕ) (U := UU) (Lvl := ℕ) (Pipeline.pin (pcfgs (F := F)) adm) 0
    launch1.win.arr_unscoped launch1.win.arr_inj c (Ve m d f W₀ c)
  have e3 := Pipeline.arrays_eq (Pipeline.pin (pcfgs (F := F)) adm) (pd m d f W₀) 0 c launch1.arr_whole ((pd m d f W₀ 0 c).share_full fun _ => rfl)
    (fun w => (pd m d f W₀ 0 c).arrAt w cfg1.N)
  rw [← e1, e2, e3, rest_end m d f W₀ c]
  exact sep_mono (Entails.of_eq (bigSep_congr fun w _ => by rw [arrAt_end m d f W₀ c w])) .rfl

variable (hbody : ∀ c : Dev nD, Pipeline.BodyObligationLoose (pd m d f W₀ 0 c) (defs₀ (F := F)) Variants.none (none : HIx 1) Set.univ)

/-- THE REGION: the seven windows' arrays into the pipeline, the other arrays bypassing, the two carried buffers into its
    invariant, the core owing nothing. -/
def reg : Pipeline.RegionSeg (pcfgs (F := F)) adm (pd m d f W₀) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := hbody c
  hwaits c := by
    exact BI.Entails.trans (fun _ _ => trivial) (Pipeline.cellsWaits_of_owed_zero (Pipeline.pin (pcfgs (F := F)) adm) (pd m d f W₀) (none : HIx 1) 0 c (fun _ => rfl))
  pre c := iprop((held (c.tc : Thread nD τ) UC (fun b => Vmid m c (fAt d f c) b) : sProp 𝕄) ∗ owes (c.tc : Thread nD τ) 0 W₀)
  post c := iprop((held (c.tc : Thread nD τ) UC (Vend m c (fAt d f c) (OUTc m d f W₀ c)) : sProp 𝕄)
    ∗ ∃ W', ⌜∀ p ∈ W', p ∈ W₀ ∨ p.2 = none⌝ ∗ owes (c.tc : Thread nD τ) 0 W')
  X _ := iprop(emp)
  Y _ := iprop(emp)
  Z c := Pipeline.unscopedRest (Ix := HIx 1) (Name := ℕ) (U := UU) (Lvl := ℕ) spec1 c (Vw m d f c)
  hentry c := by
    rw [Pipeline.ownSems0_none]
    have hsplit := Pipeline.arrays_of_unscopedBufs (pcfgs (F := F)) adm (pd m d f W₀) launch1.win launch1.arr_whole c
      ((pd m d f W₀ 0 c).share_full fun _ => rfl) (Vw m d f c) fun _ => rfl
    iintro ⟨⟨Hh, HO⟩, -, -⟩
    ihave Hub := (Entails.of_eq (Pipeline.unscopedBufs_held (Ix := HIx 1) (Name := ℕ) (U := UU) (Lvl := ℕ) c (fun b => Vmid m c (fAt d f c) b)).symm) $$ Hh
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W₀; isplitr; · ipureintro; exact fun p hp => Or.inl (Or.inl hp)
      iexact HO
    isplitr; · iempintro
    iexact Hr
  hin c := by
    rw [Cert.Proof.IdealRegion.Φ_eq, scopedRest1_eq]
    show _ ⊢ Cert.Proof.IdealRegion.ΦN (HIx 1) UU ℕ (Aw m d f) c 0
    unfold Cert.Proof.IdealRegion.ΦN
    iintro ⟨-, -, ⟨%a, Ha⟩, ⟨%b, Hb⟩⟩
    isplitl [Ha]
    · iexists a; iapply (Entails.of_eq (owns_whole (c.tc : Thread nD τ) cc1_scratch0 fullShare a).symm); iexact Ha
    · iexists b; iapply (Entails.of_eq (owns_whole (c.tc : Thread nD τ) cc1_scratch1 fullShare b).symm); iexact Hb
  hout c := by
    rw [Cert.Proof.IdealRegion.Φ_eq, Pipeline.ownSems0_none, scopedRest1_eq]
    show Cert.Proof.IdealRegion.ΦN (HIx 1) UU ℕ (Aw m d f) c 5 ⊢ _
    unfold Cert.Proof.IdealRegion.ΦN
    iintro ⟨Hh, ⟨%g, Hz⟩⟩
    isplitr; · iempintro
    isplitr; · iempintro
    isplitl [Hh]
    · iexists _; iapply (Entails.of_eq (owns_whole (c.tc : Thread nD τ) cc1_scratch0 fullShare _)); iexact Hh
    · iexists _; iapply (Entails.of_eq (pts_whole (c.tc : Thread nD τ) cc1_scratch1 fullShare _)); iexact Hz
  hexit c := by
    iintro ⟨Ha, HO, -, Hr⟩
    imodintro
    isplitl [Ha Hr]
    · iapply (exit_held m d f W₀ c)
      isplitl [Ha]; · iexact Ha
      iexact Hr
    unfold Pipeline.Dat.owesAt Pipeline.owesWithin
    icases HO with ⟨%W, %hW, HO⟩
    iexists W; isplitr
    · ipureintro; intro p hp
      rcases hW (Finset.mem_coe.mpr hp) with h | ⟨w, s, h⟩
      · exact h
      · exact Or.inr (h ▸ rfl)
    iexact HO

/-- At the device the gathered array was given on, it is that array. -/
theorem fAt_self : fAt d f d = f := rfl

/-- What the region leaves does not depend on the bound on the recorded waits. -/
theorem OUTc_indep (c : Dev nD) : OUTc m d f W₀ c = OUTc m d f ∅ c := rfl

theorem reg_pre_self :
    (reg m d f W₀ hbody).pre d = iprop((held (SparseCore.T d) UC (Vmid m d f) : sProp 𝕄) ∗ owes (SparseCore.T d) 0 W₀) := rfl

theorem reg_post_self :
    (reg m d f W₀ hbody).post d = iprop((held (SparseCore.T d) UC (Vend m d f (OUTc m d f ∅ d)) : sProp 𝕄)
      ∗ ∃ W', ⌜∀ p ∈ W', p ∈ W₀ ∨ p.2 = none⌝ ∗ owes (SparseCore.T d) 0 W') := rfl

end Rec

/-! ## The contract -/

section Spec

variable (hOK : ∀ d : Dev nD, IdxOK d (idxV m d))

/-- What the region leaves in the result array, of the gathered array it found. -/
def OUT (d : Dev nD) (f : Buf (Elt F) (outLoc d)) : Buf (Elt F) ((SparseCore.T d : Thread nD τ).loc main_v8) := OUTc m d f ∅ d

/-- THE REGION'S CONTRACT: entered as @main reaches it, the kernel region runs to its end and leaves every array as it
    was but the result, which it leaves at `OUT`. -/
theorem regionSpec [∀ e, Nonempty (Elt F e)]
    (hbody : ∀ (d : Dev nD) (f : Buf (Elt F) (outLoc d)) (W₀ : Waits sig (HIx 1)) (c : Dev nD),
      Pipeline.BodyObligationLoose (pd m d f W₀ 0 c) (defs₀ (F := F)) Variants.none (none : HIx 1) Set.univ) :
    RegionSpec m hOK (OUT m) := by
  intro d f _ W₀
  iintro ⟨Hb, Hheld, HO, #Hlev, ⟨Hg, Ht⟩⟩
  iapply (Pipeline.RegionSeg.wp (pcfgs (F := F)) adm (pd m d f W₀) (none : HIx 1) cellOf_inj (EP (F := F)) defs₀ 𝒱₀
    (K (F := F)).L (K (F := F)).lev (reg m d f W₀ (hbody d f W₀)) d none (fun u hu => by cases hu) (fun _ => .ret PUnit.unit) _)
  isplitr
  · iintro ⟨Hb, Hpost⟩
    rw [wp_ret]; imodintro
    isplitl [Hb]; · iexact Hb
    iapply (Entails.of_eq (reg_post_self m d f W₀ (hbody d f W₀)))
    iexact Hpost
  isplitl [Hb]; · iexact Hb
  isplitl [Hheld HO]
  · iapply (Entails.of_eq (reg_pre_self m d f W₀ (hbody d f W₀)).symm)
    isplitl [Hheld]; · iexact Hheld
    iexact HO
  isplitr; · iexact Hlev
  isplitl [Hg]; · iexact Hg
  iexact Ht

end Spec

end Cert.Proof.IdealRegionSeg

end
-- ==== Proof.IdealGather.lean ====
/-
  The gathered array, read at an index.
  The index list is state_indices made time-major and flattened: entry 16·t + b is state_indices[b, t]. Row r of the
  gathered array belongs to the block of the task (c, s) with s = r / 512 and c = (r mod 512) / 256, at local row
  r mod 256; a result array right on that block holds there the table row named by entry r of the index list. So
  row 16·t + b of the gathered array is the table row state_indices[b, t].
-/
import proofs.«213871_g15814069584205_fold_wed_c4_299_27_alg».proof.Proof.IdealMain
import Idealize.ShloMosaic.Lib.ValueIdx
import Idealize.ShloMosaic.Lib.Pipeline.Value

noncomputable section

namespace Cert.Proof.IdealGather

open Cert.KernelIdeal Cert.KernelIdeal.Gen Cert.Proof.IdealTile Cert.Proof.IdealLaunch Cert.Proof.IdealMain

open Idealize.ShloMosaic Idealize.ShloMosaic.ValueIdx
open Idealize.ShloMosaic.SparseCore (S V T)
open Idealize.SL Idealize.SL.Sem

variable {F : FTy → Type} [FloatOps F]
variable (m : (ℓ : Loc nD τ sig) → Buf (Elt F) ℓ)

/-- state_indices as launched. -/
abbrev stIdx (d : Dev nD) : S16x512.Idx → Elt F .i32 := m ((SparseCore.T d : Thread nD τ).loc main_arg1)

/-- Entry 16·t + b of the index list is state_indices[b, t]. -/
theorem idxV_apply (d : Dev nD) (t : Fin 512) (b : Fin 16) :
    idxV m d (ix1 ⟨16 * t.val + b.val, by omega⟩) = stIdx m d (ix2 b t) := by
  have e : idxV m d = fun i => shapeCast S8192 (transpose S512x16 [1, 0] (stIdx m d) transposes_S16x512_S512x16_1_0)
      shapeCasts_S512x16_S8192 i := by
    unfold idxV Vpre; after_results; rfl
  rw [e]
  show shapeCast S8192 (transpose S512x16 [1, 0] (stIdx m d) transposes_S16x512_S512x16_1_0) shapeCasts_S512x16_S8192 (ix1 ⟨16 * t.val + b.val, by omega⟩) = _
  rw [shapeCast_apply _ _ _ (ix2 t b) (by rw [Shape.rowMajor_val_two, Shape.rowMajor_val_one]; show t.val * 16 + b.val = 16 * t.val + b.val; omega)]
  exact transpose_apply _ _ _ _ (ix2 b t) (fun a => by match a with | ⟨0, _⟩ => rfl | ⟨1, _⟩ => rfl)

variable (h : ∀ (d : Dev nD) (x : S16x512.Idx), (m ((SparseCore.T d : Thread nD τ).loc main_arg1) x).toNat < 1024)

/-- The block that holds row r, and r's place in it. -/
theorem row_split (r : Fin 8192) : ∃ (c : Fin 2) (s : Fin 16) (x0 : Fin 256), r.val = 512 * s.val + 256 * c.val + x0.val :=
  ⟨⟨(r.val % 512) / 256, by omega⟩, ⟨r.val / 512, by have := r.isLt; omega⟩, ⟨r.val % 256, by omega⟩, by dsimp only; omega⟩

/-- Place (x0, j) of the block of task (c, s) is element (512·s + 256·c + x0, j) of the gathered array. -/
theorem outBlk_emb (c : Fin 2) (s : Fin 16) (x0 : Fin 256) (j : Fin 128) (r : Fin 8192) (hr : r.val = 512 * s.val + 256 * c.val + x0.val) :
    (outBlk (coordsV c s)).view.emb (ix2 x0 j) = (ix2 r j : S8192x128.Idx) := by
  funext a
  apply Fin.ext
  show ((Rect.unit (s := S8192x128) (k0_off2 (coordsV c s)) S256x128.size (k0_off2_inb (coordsV c s))).emb (ix2 x0 j) a).val = _
  rw [Rect.emb_apply]
  simp only [Rect.off_unit, Rect.stride_unit, Nat.one_mul, k0_off2_eq]
  match a with
  | ⟨0, _⟩ => show 512 * s.val + 256 * c.val + x0.val = r.val; omega
  | ⟨1, _⟩ => show 0 + j.val = j.val; omega

/-- Place x0 of that task's index block is entry 512·s + 256·c + x0 of the index list. -/
theorem idxBlk_emb (c : Fin 2) (s : Fin 16) (x0 : Fin 256) (r : Fin 8192) (hr : r.val = 512 * s.val + 256 * c.val + x0.val) :
    (idxBlk (coordsV c s)).view.emb (ix1 x0) = (ix1 r : S8192.Idx) := by
  funext a
  apply Fin.ext
  show ((Rect.unit (s := S8192) (k0_off1 (coordsV c s)) S256.size (k0_off1_inb (coordsV c s))).emb (ix1 x0) a).val = _
  rw [Rect.emb_apply]
  simp only [Rect.off_unit, Rect.stride_unit, Nat.one_mul, k0_off1_eq]
  match a with
  | ⟨0, _⟩ => show 512 * s.val + 256 * c.val + x0.val = r.val; omega

/-- Row 16·t + b of a result array right on every block is the table row state_indices[b, t]. -/
theorem gathered_apply (d : Dev nD) (f : Buf (Elt F) (outLoc d)) (hf : AllOK m (idxOK_of_range m h) d f)
    (t : Fin 512) (b : Fin 16) (j : Fin 128) :
    f (ix2 (⟨16 * t.val + b.val, by omega⟩ : Fin 8192) j) = m (tblLoc d) (ix2 (⟨(stIdx m d (ix2 b t)).toNat, h d _⟩ : Fin 1024) j) := by
  obtain ⟨c, s, x0, hr⟩ := row_split (⟨16 * t.val + b.val, by omega⟩ : Fin 8192)
  have h1 := congrFun (hf c s) (ix2 x0 j)
  have hl : (outBlk (coordsV c s)).view.read (Elt F) f (ix2 x0 j) = f (ix2 (⟨16 * t.val + b.val, by omega⟩ : Fin 8192) j) := by
    rw [View.read_apply, outBlk_emb c s x0 j _ hr]; rfl
  rw [← hl, h1]
  unfold tileOut SparseCore.gatherPayload
  rw [View.read_apply]
  refine Eq.trans (cast_eq _ _) (congrArg (m (tblLoc d)) ?_)
  funext a
  apply Fin.ext
  show ((Rect.unit (s := S1024x128) ![0, 0] S1024x128.size inb_S1024x128_S1024x128_0_0).emb _ a).val = _
  rw [Rect.emb_apply]
  simp only [Rect.off_unit, Rect.stride_unit, Nat.one_mul]
  match a with
  | ⟨0, _⟩ =>
    show 0 + (gathers_S1024x128_S256x128.idx _ (ix2 x0 j) gathers_S1024x128_S256x128.axis).val = (stIdx m d (ix2 b t)).toNat
    rw [Shape.Gathers.idx_axis, Nat.zero_add]
    have hx : ∀ hc, S256.rowMajor.symm ((ix2 x0 j gathers_S1024x128_S256x128.axis').cast hc) = (ix1 x0 : S256.Idx) := fun hc =>
      (Equiv.symm_apply_eq _).mpr (Fin.ext (by rw [Shape.rowMajor_val_one]; rfl))
    show ((idxBlk (coordsV c s)).view.read (Elt F) (idxV m d) (S256.rowMajor.symm _)).toNat = _
    rw [hx, View.read_apply, idxBlk_emb c s x0 _ hr]
    exact congrArg BitVec.toNat ((cast_eq _ _).trans (idxV_apply m d t b))
  | ⟨1, _⟩ =>
    show 0 + (gathers_S1024x128_S256x128.idx _ (ix2 x0 j) ⟨1, by decide⟩).val = j.val
    rw [Shape.Gathers.idx_of_ne _ _ _ _ (by decide), Nat.zero_add]; rfl

end Cert.Proof.IdealGather

end
-- ==== Proof.IdealArrays.lean ====
/-
  The arrays the kernel region finds, read at an index.
  @main's host operations make them from the arguments: the time-major actions (row 16·t + b is actions[b, t, ·]), W_hh
  transposed, the two biases as 1×512 rows; W_ih is passed as it is, and the gathered embeddings are the SparseCore call's
  result.
-/
import proofs.«213871_g15814069584205_fold_wed_c4_299_27_alg».proof.Proof.IdealGather

noncomputable section

namespace Cert.Proof.IdealArrays

open Cert.KernelIdeal Cert.KernelIdeal.Gen Cert.Proof.IdealTile Cert.Proof.IdealLaunch Cert.Proof.IdealMain Cert.Proof.IdealGather

open Idealize.ShloMosaic Idealize.ShloMosaic.ValueIdx
open Idealize.ShloMosaic.SparseCore (S V T)
open Idealize.SL Idealize.SL.Sem
open Idealize.ShloMosaic.StableHlo

variable {F : FTy → Type} [FloatOps F]
variable (m : (ℓ : Loc nD τ sig) → Buf (Elt F) ℓ)

/-- The arguments as launched. -/
abbrev act (d : Dev nD) : S16x512x64.Idx → Elt F .f32 := m ((SparseCore.T d : Thread nD τ).loc main_arg0)
abbrev wih (d : Dev nD) : S512x192.Idx → Elt F .f32 := m ((SparseCore.T d : Thread nD τ).loc main_arg3)
abbrev whh (d : Dev nD) : S512x512.Idx → Elt F .f32 := m ((SparseCore.T d : Thread nD τ).loc main_arg4)
abbrev bih (d : Dev nD) : S512.Idx → Elt F .f32 := m ((SparseCore.T d : Thread nD τ).loc main_arg5)
abbrev bhh (d : Dev nD) : S512.Idx → Elt F .f32 := m ((SparseCore.T d : Thread nD τ).loc main_arg6)

variable (d : Dev nD) (f : Buf (Elt F) (outLoc d))

/-- Each operation's result at its own buffer is its function's value, at any other what was there. -/
local macro "results" : tactic => `(tactic| repeat (first
  | rw [StableHlo.unary_result] | rw [StableHlo.reshape_result]
  | (rw [StableHlo.unary_result_ne]; rotate_left; decide)
  | (rw [StableHlo.reshape_result_ne]; rotate_left; decide)))

/-- What the region finds in each of its seven arrays, as terms of the arguments. -/
theorem Vmid_v1 : Vmid m d f (Proc.devRef .tc main_v1)
    = fun i => shapeCast S8192x64 (transpose S512x16x64 [1, 0, 2] (act m d) transposes_S16x512x64_S512x16x64_1_0_2) shapeCasts_S512x16x64_S8192x64 i := by
  unfold Vmid Vcall Vpre
  after_results
  rw [Function.update_of_ne (StableHlo.devRef_ne_of_ne (by decide))]
  results
  try rfl

theorem Vmid_v4 : Vmid m d f (Proc.devRef .tc main_v4) = f := by
  unfold Vmid Vcall
  after_results
  rw [Function.update_self]

theorem Vmid_arg3 : Vmid m d f (Proc.devRef .tc main_arg3) = wih m d := by
  unfold Vmid Vcall Vpre
  after_results
  rw [Function.update_of_ne (StableHlo.devRef_ne_of_ne (by decide))]
  results
  try rfl

theorem Vmid_v5 : Vmid m d f (Proc.devRef .tc main_v5) = fun i => transpose S512x512 [1, 0] (whh m d) transposes_S512x512_S512x512_1_0 i := by
  unfold Vmid Vcall Vpre
  after_results
  rw [Function.update_of_ne (StableHlo.devRef_ne_of_ne (by decide))]
  results
  try rfl

theorem Vmid_v6 : Vmid m d f (Proc.devRef .tc main_v6) = fun i => shapeCast S1x512 (bih m d) shapeCasts_S512_S1x512 i := by
  unfold Vmid Vcall Vpre
  after_results
  rw [Function.update_of_ne (StableHlo.devRef_ne_of_ne (by decide))]
  results
  try rfl

theorem Vmid_v7 : Vmid m d f (Proc.devRef .tc main_v7) = fun i => shapeCast S1x512 (bhh m d) shapeCasts_S512_S1x512 i := by
  unfold Vmid Vcall Vpre
  after_results
  rw [Function.update_of_ne (StableHlo.devRef_ne_of_ne (by decide))]
  results
  try rfl

/-! ## Read at an index -/

/-- Row 16·t + b of the time-major actions is actions[b, t, ·]. -/
theorem v1_apply (t : Fin 512) (b : Fin 16) (k : Fin 64) :
    Vmid m d f (Proc.devRef .tc main_v1) (ix2 (⟨16 * t.val + b.val, by omega⟩ : Fin 8192) k) = act m d (ix3 b t k) := by
  rw [Vmid_v1]
  show shapeCast S8192x64 (transpose S512x16x64 [1, 0, 2] (act m d) transposes_S16x512x64_S512x16x64_1_0_2) shapeCasts_S512x16x64_S8192x64 _ = _
  rw [shapeCast_apply _ _ _ (ix3 t b k) (by rw [Shape.rowMajor_val_three, Shape.rowMajor_val_two]; show (t.val * 16 + b.val) * 64 + k.val = (16 * t.val + b.val) * 64 + k.val; omega)]
  exact transpose_apply _ _ _ _ (ix3 b t k) (fun a => by match a with | ⟨0, _⟩ => rfl | ⟨1, _⟩ => rfl | ⟨2, _⟩ => rfl)

/-- W_hh transposed. -/
theorem v5_apply (k j : Fin 512) : Vmid m d f (Proc.devRef .tc main_v5) (ix2 k j) = whh m d (ix2 j k) := by
  rw [Vmid_v5]
  exact transpose_apply _ _ _ _ (ix2 j k) (fun a => by match a with | ⟨0, _⟩ => rfl | ⟨1, _⟩ => rfl)

/-- The biases as rows. -/
theorem v6_apply (j : Fin 512) : Vmid m d f (Proc.devRef .tc main_v6) (ix2 (0 : Fin 1) j) = bih m d (ix1 j) := by
  rw [Vmid_v6]
  exact shapeCast_apply _ _ _ (ix1 j) (by rw [Shape.rowMajor_val_one, Shape.rowMajor_val_two]; show j.val = 0 * 512 + j.val; omega)
theorem v7_apply (j : Fin 512) : Vmid m d f (Proc.devRef .tc main_v7) (ix2 (0 : Fin 1) j) = bhh m d (ix1 j) := by
  rw [Vmid_v7]
  exact shapeCast_apply _ _ _ (ix1 j) (by rw [Shape.rowMajor_val_one, Shape.rowMajor_val_two]; show j.val = 0 * 512 + j.val; omega)

end Cert.Proof.IdealArrays

end
-- ==== Proof.IdealFinal.lean ====
/-
  The kernel's result is the specification.
  The result array is written back block by block: grid point n + 1 writes the output block holding the 128 time steps
  128·n … 128·n + 127, every batch entry and hidden unit; the four blocks tile the array. The block written at point
  n + 1 holds, at step s, the hidden state after step 128·n + s + 1. So the array ends as the specification's result.
-/
import proofs.«213871_g15814069584205_fold_wed_c4_299_27_alg».proof.Proof.IdealRegionSeg
import proofs.«213871_g15814069584205_fold_wed_c4_299_27_alg».proof.Proof.IdealArrays
import proofs.«213871_g15814069584205_fold_wed_c4_299_27_alg».proof.Proof.Spec
import Idealize.ShloMosaic.Lib.Pipeline.Value

noncomputable section

namespace Cert.Proof.IdealFinal

open Cert.KernelIdeal Cert.KernelIdeal.Gen Cert.Proof.IdealTile Cert.Proof.IdealLaunch Cert.Proof.IdealMain Cert.Proof.IdealRegionSeg

open Idealize.ShloMosaic Idealize.ShloMosaic.ValueIdx Idealize.ShloMosaic.TcCoe
open Idealize.ShloMosaic.SparseCore.Cfg (HIx)
open Idealize.SL Idealize.SL.Sem
open Idealize.ShloMosaic.Pipeline (Dat)

variable (m : (ℓ : Loc nD τ sig) → Buf (Elt Ideal) ℓ)

/-- The arguments on device `d`, as the specification takes them. -/
def argsK (d : Dev nD) : Cert.Proof.Spec.Args :=
  ⟨m ((SparseCore.T d : Thread nD τ).loc main_arg0), m ((SparseCore.T d : Thread nD τ).loc main_arg1), m ((SparseCore.T d : Thread nD τ).loc main_arg2),
   m ((SparseCore.T d : Thread nD τ).loc main_arg3), m ((SparseCore.T d : Thread nD τ).loc main_arg4), m ((SparseCore.T d : Thread nD τ).loc main_arg5),
   m ((SparseCore.T d : Thread nD τ).loc main_arg6)⟩

/-- The result window is written back at every point but the first, -/
theorem flush6 : ∀ t : Fin cfg1.N, (cfg1.win 6).flush t = true ↔ 0 < t.val :=
  (by decide +kernel : ∀ t : Fin grid1.N, win1_6.flush t = true ↔ 0 < t.val)
/-- at the block of the point before: all 16 batch entries, time steps 128·(t − 1) …, all 512 hidden units. -/
theorem index6 : ∀ t : Fin cfg1.N, win1_6.index t = ![0, t.val - 1, 0] :=
  (by decide +kernel : ∀ t : Fin grid1.N, win1_6.index t = ![0, t.val - 1, 0])

/-- An index of the result array is in point `t`'s block iff each coordinate is in the block's range. -/
theorem mem_blk6 (t : Fin cfg1.N) (i : S16x512x512.Idx) :
    i ∈ ((cfg1.win 6).blk t).view.set ↔ ∀ a : Fin 3, win1_6.index t a * S16x128x512.size a ≤ (i a).val ∧ (i a).val < win1_6.index t a * S16x128x512.size a + S16x128x512.size a := by
  show i ∈ ((View.whole main_v8).slice (win1_6.rect t)).set ↔ _
  rw [View.set_slice_whole, Rect.mem_set_unit]
  exact Iff.rfl

/-- Every index of the result array lies in the block of a point that writes back. -/
theorem cover6 (i : S16x512x512.Idx) : ∃ t : Fin cfg1.N, (cfg1.win 6).flush t = true ∧ i ∈ ((cfg1.win 6).blk t).view.set := by
  have h1 : (i 1).val < 512 := (i 1).isLt
  have h0 : (i 0).val < 16 := (i 0).isLt
  have h2 : (i 2).val < 512 := (i 2).isLt
  refine ⟨⟨(i 1).val / 128 + 1, by have e : cfg1.N = 5 := N_1; omega⟩, (flush6 _).mpr (Nat.succ_pos _), ?_⟩
  rw [mem_blk6, index6]
  intro a
  match a with
  | ⟨0, _⟩ => show 0 * 16 ≤ (i 0).val ∧ (i 0).val < 0 * 16 + 16; omega
  | ⟨1, _⟩ => show ((i 1).val / 128 + 1 - 1) * 128 ≤ (i 1).val ∧ (i 1).val < ((i 1).val / 128 + 1 - 1) * 128 + 128; omega
  | ⟨2, _⟩ => show 0 * 512 ≤ (i 2).val ∧ (i 2).val < 0 * 512 + 512; omega

section
variable (h : ∀ (d : Dev nD) (x : S16x512.Idx), (m ((SparseCore.T d : Thread nD τ).loc main_arg1) x).toNat < 1024)
variable (d : Dev nD) (f : Buf (Elt Ideal) (outLoc d))

/-- The specification's result, as contents of the result array. -/
def G : Buf (Elt Ideal) ((cfg1.win 6).arr.view.loc (d.tc : Thread nD τ)) := fun x => Cert.Proof.Spec.out (argsK m d) x

/-- GIVEN that the block written at point n + 1 holds the hidden states after steps 128·n + 1 … 128·n + 128, the result
    array ends as the specification's result. -/
theorem out_eq_spec
    (hO : ∀ (n : ℕ) (hn : n + 1 < cfg1.N) (b : Fin 16) (s : Fin 128) (j : Fin 512),
      Cert.Proof.IdealRegion.Oat (HIx 1) UU ℕ (Aw m d f) d (n + 1) hn (ix3 b s j) = Cert.Proof.Spec.hid (argsK m d) (128 * n + s.val + 1) b j) :
    OUT m d f = G m d := by
  unfold OUT OUTc
  refine (pd m d f ∅ 0 d).arrAt_eq_of_cover 6 (G m d) (fun t hf => ?_) cover6
  show (cfg1.win 6).cut (grid1.coords t) ((pd m d f ∅ 0 d).after 6 t) = _
  rw [Cert.Proof.IdealRegion.after1_6]
  have ht : 0 < t.val := (flush6 t).mp hf
  obtain ⟨tv, htv⟩ := t
  obtain ⟨n, rfl⟩ : ∃ n, tv = n + 1 := ⟨tv - 1, by simp only at ht; omega⟩
  funext y
  obtain ⟨b, s, j, rfl⟩ : ∃ (b : Fin 16) (s : Fin 128) (j : Fin 512), y = ix3 b s j := ⟨y 0, y 1, y 2, eq_ix3 y⟩
  have hN : n + 1 < 5 := lt_of_lt_of_eq htv N_1
  -- where the block puts step s
  have he : ((cfg1.win 6).blk ⟨n + 1, htv⟩).view.emb (ix3 b s j) = (ix3 b (⟨128 * n + s.val, by omega⟩ : Fin 512) j : S16x512x512.Idx) := by
    funext a
    apply Fin.ext
    match a with
    | ⟨0, _⟩ => show win1_6.index ⟨n + 1, htv⟩ (0 : Fin 3) * 16 + 1 * b.val = b.val; rw [index6]; show 0 * 16 + 1 * b.val = b.val; omega
    | ⟨1, _⟩ => show win1_6.index ⟨n + 1, htv⟩ (1 : Fin 3) * 128 + 1 * s.val = 128 * n + s.val; rw [index6]; show (n + 1 - 1) * 128 + 1 * s.val = 128 * n + s.val; omega
    | ⟨2, _⟩ => show win1_6.index ⟨n + 1, htv⟩ (2 : Fin 3) * 512 + 1 * j.val = j.val; rw [index6]; show 0 * 512 + 1 * j.val = j.val; omega
  show Cert.Proof.IdealRegion.Oat (HIx 1) UU ℕ (Aw m d f) d (n + 1) htv (ix3 b s j) = _
  rw [hO n htv b s j, View.read_apply, he]
  exact (cast_eq _ _).symm

end

end Cert.Proof.IdealFinal

end
-- ==== Proof.IdealRegionBody.lean ====
import proofs.«213871_g15814069584205_fold_wed_c4_299_27_alg».proof.Proof.IdealRegionDat
import Idealize.ShloMosaic.Lib.Pipeline.FrameBody
import Idealize.ShloMosaic.Lib.Ring
import Idealize.ShloMosaic.Lib.Tactic

set_option maxRecDepth 16384

noncomputable section

namespace Cert.Proof.IdealRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The body obligation of the recurrent kernel's pipeline: at each of the five grid points the body, run from the
    invariant and the windows' current buffers, leaves the next invariant and the buffers at what the proof data says. -/

variable (A : (c : Dev nD) → (w : Fin cfg1.W) → Buf (Elt F) ((cfg1.win w).arr.view.loc (c.tc : Thread nD τ)))
variable (q : Fin cfg1.W → PosShare TreeShare) (B0 : Set (SemLoc sig × Ix))

/-! ## What the body's stores leave: covers, and the projection buffer's pieces -/

section
variable (Ix U Lvl)

/-- The first point's one store of the hidden state covers its buffer. -/
theorem coverA_h (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : cond1 i) (hc2 : k1_cond2 i = 1#1) (hc3 : ¬ k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (y : S16x512.Idx) :
    ∃ pc ∈ (runA (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6).1.1, y ∈ pc.1.set :=
  View.cover_of_tiledL (runA (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6).1.1 S16x512.size (by sl_kernel_rfl) y

/-- The recurrence's 256 half-row stores tile the output block; its two half stores tile the hidden state. -/
theorem coverC_o (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : ¬ k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) (y : S16x128x512.Idx) :
    ∃ pc ∈ (runC (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.1, y ∈ pc.1.set :=
  View.cover_of_tiledL (runC (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.1 S16x1x256.size (by sl_kernel_rfl) y
theorem coverC_h (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : ¬ k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) (y : S16x512.Idx) :
    ∃ pc ∈ (runC (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2, y ∈ pc.1.set :=
  View.cover_of_tiledL (runC (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2 S16x256.size (by sl_kernel_rfl) y
theorem coverBo_o (c : Dev nD) (i : grid1.Coords) [Par i 1] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) (y : S16x128x512.Idx) :
    ∃ pc ∈ (runBo (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.1, y ∈ pc.1.set :=
  View.cover_of_tiledL (runBo (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.1 S16x1x256.size (by sl_kernel_rfl) y
theorem coverBo_h (c : Dev nD) (i : grid1.Coords) [Par i 1] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) (y : S16x512.Idx) :
    ∃ pc ∈ (runBo (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.1, y ∈ pc.1.set :=
  View.cover_of_tiledL (runBo (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.1 S16x256.size (by sl_kernel_rfl) y
theorem coverBe_o (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) (y : S16x128x512.Idx) :
    ∃ pc ∈ (runBe (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.1, y ∈ pc.1.set :=
  View.cover_of_tiledL (runBe (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.1 S16x1x256.size (by sl_kernel_rfl) y
theorem coverBe_h (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) (y : S16x512.Idx) :
    ∃ pc ∈ (runBe (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.1, y ∈ pc.1.set :=
  View.cover_of_tiledL (runBe (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.1 S16x256.size (by sl_kernel_rfl) y

/-- The projection buffer's pieces after the first point: the point's projection, at the store's rectangle; -/
theorem runA_z (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : cond1 i) (hc2 : k1_cond2 i = 1#1) (hc3 : ¬ k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) :
    (runA (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6).1.2 = [⟨Rect.unit (s := S2x2048x512) (k1_off1 i) S1x2048x512.size (k1_off1_inb i hc2), (zOf arg1 harg1 arg2 harg2 arg3 harg3 arg5 harg5 arg6 harg6 x1 x2 x3 x5 x6)⟩] := rfl
/-- after an inner point: the point's projection on top of the one it read. -/
theorem runBo_z (c : Dev nD) (i : grid1.Coords) [Par i 1] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) :
    (runBo (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.2 = [⟨Rect.unit (s := S2x2048x512) (k1_off1 i) S1x2048x512.size (k1_off1_inb i hc2), (zOf arg1 harg1 arg2 harg2 arg3 harg3 arg5 harg5 arg6 harg6 x1 x2 x3 x5 x6)⟩,
      ⟨Rect.unit (s := S2x2048x512) ![0, 0, 0] S1x2048x512.size inb_slot0, P⟩] := rfl
theorem runBe_z (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) :
    (runBe (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.2 = [⟨Rect.unit (s := S2x2048x512) (k1_off1 i) S1x2048x512.size (k1_off1_inb i hc2), (zOf arg1 harg1 arg2 harg2 arg3 harg3 arg5 harg5 arg6 harg6 x1 x2 x3 x5 x6)⟩,
      ⟨Rect.unit (s := S2x2048x512) ![1, 0, 0] S1x2048x512.size inb_slot1, P⟩] := rfl

end

/-! ## The body in each control case, as a triple over values: what the covered buffers read back, the projection buffer at literal slots -/

section
variable (Ix U Lvl)

theorem specA (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : cond1 i) (hc2 : k1_cond2 i = 1#1) (hc3 : ¬ k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (E : Set ℕ) (K : PUnit → sProp 𝕄) :
    iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d)
            ∗ owns (c : Thread nD τ) arg8 fullShare (arg8.view.read (Elt F) (arg8.view.writes (Elt F) arg8.view.junk (runA (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6).1.1))
            ∗ (∃ f, arg9.view.loc (c : Thread nD τ) ↦[arg9.view.set]{fullShare} arg9.view.writes (Elt F) f [⟨Rect.unit (s := S2x2048x512) ![0, 0, 0] S1x2048x512.size inb_slot0, (zOf arg1 harg1 arg2 harg2 arg3 harg3 arg5 harg5 arg6 harg6 x1 x2 x3 x5 x6)⟩])) -∗ K ⟨⟩))
      ⊢ wp frame (wpE (defs₀ (F := F)) Variants.none c none) E (cc1__rnn_kernel i arg1 harg1 arg2 harg2 arg3 harg3 arg4 harg4 arg5 harg5 arg6 harg6 arg7 harg7 arg8 harg8 arg9 harg9) K := by
  have h2 := (runA (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6).2 E K
  have hz : (runA (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6).1.2 = [⟨Rect.unit (s := S2x2048x512) ![0, 0, 0] S1x2048x512.size inb_slot0, (zOf arg1 harg1 arg2 harg2 arg3 harg3 arg5 harg5 arg6 harg6 x1 x2 x3 x5 x6)⟩] :=
    (runA_z Ix U Lvl c i arg1 harg1 arg2 harg2 arg3 harg3 arg4 harg4 arg5 harg5 arg6 harg6 arg7 harg7 arg8 harg8 arg9 harg9 hc1 hc2 hc3 x1 x2 x3 x4 x5 x6).trans (View.Piece.cons_unit_congr (k1_off1_even i (Par.eq (i := i) (p := 0))) _ _ _)
  rw [hz] at h2
  iintro ⟨H1, H2, H3, H4, H5, H6, H7, H8, H9, Hk⟩
  iapply h2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, ⟨%f8, H8⟩, H9⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverA_h Ix U Lvl c i arg1 harg1 arg2 harg2 arg3 harg3 arg4 harg4 arg5 harg5 arg6 harg6 arg7 harg7 arg8 harg8 arg9 harg9 hc1 hc2 hc3 x1 x2 x3 x4 x5 x6)
  iexact H9

theorem specC (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : ¬ k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) (E : Set ℕ) (K : PUnit → sProp 𝕄) :
    iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
        ∗ (∃ d, owns (c : Thread nD τ) arg7 fullShare d) ∗ owns (c : Thread nD τ) arg8 fullShare x8
        ∗ (∃ f, arg9.view.loc (c : Thread nD τ) ↦[arg9.view.set]{fullShare} arg9.view.writes (Elt F) f [⟨Rect.unit (s := S2x2048x512) ![1, 0, 0] S1x2048x512.size inb_slot1, P⟩])
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (arg7.view.read (Elt F) (arg7.view.writes (Elt F) arg7.view.junk (runC (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.1))
            ∗ owns (c : Thread nD τ) arg8 fullShare (arg8.view.read (Elt F) (arg8.view.writes (Elt F) arg8.view.junk (runC (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2))
            ∗ (∃ f, arg9.view.loc (c : Thread nD τ) ↦[arg9.view.set]{fullShare} arg9.view.writes (Elt F) f [⟨Rect.unit (s := S2x2048x512) ![1, 0, 0] S1x2048x512.size inb_slot1, P⟩])) -∗ K ⟨⟩))
      ⊢ wp frame (wpE (defs₀ (F := F)) Variants.none c none) E (cc1__rnn_kernel i arg1 harg1 arg2 harg2 arg3 harg3 arg4 harg4 arg5 harg5 arg6 harg6 arg7 harg7 arg8 harg8 arg9 harg9) K := by
  have h2 := (runC (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).2 E K
  iintro ⟨H1, H2, H3, H4, H5, H6, H7, H8, H9, Hk⟩
  iapply h2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, ⟨%f7, H7⟩, ⟨%f8, H8⟩, H9⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverC_o Ix U Lvl c i arg1 harg1 arg2 harg2 arg3 harg3 arg4 harg4 arg5 harg5 arg6 harg6 arg7 harg7 arg8 harg8 arg9 harg9 hc1 hc2 hc3 x1 x2 x3 x4 x5 x6 x8 P)
  isplitl [H8]
  · unfold owns; iexists _; isplitr
    swap; · iexact H8
    ipureintro; exact View.read_writes_of_cover _ _ _ _ _ (coverC_h Ix U Lvl c i arg1 harg1 arg2 harg2 arg3 harg3 arg4 harg4 arg5 harg5 arg6 harg6 arg7 harg7 arg8 harg8 arg9 harg9 hc1 hc2 hc3 x1 x2 x3 x4 x5 x6 x8 P)
  iexact H9

theorem specBo (c : Dev nD) (i : grid1.Coords) [Par i 1] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) (E : Set ℕ) (K : PUnit → sProp 𝕄) :
    iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
        ∗ (∃ d, owns (c : Thread nD τ) arg7 fullShare d) ∗ owns (c : Thread nD τ) arg8 fullShare x8
        ∗ (∃ f, arg9.view.loc (c : Thread nD τ) ↦[arg9.view.set]{fullShare} arg9.view.writes (Elt F) f [⟨Rect.unit (s := S2x2048x512) ![0, 0, 0] S1x2048x512.size inb_slot0, P⟩])
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (arg7.view.read (Elt F) (arg7.view.writes (Elt F) arg7.view.junk (runBo (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.1))
            ∗ owns (c : Thread nD τ) arg8 fullShare (arg8.view.read (Elt F) (arg8.view.writes (Elt F) arg8.view.junk (runBo (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.1))
            ∗ (∃ f, arg9.view.loc (c : Thread nD τ) ↦[arg9.view.set]{fullShare} arg9.view.writes (Elt F) f [⟨Rect.unit (s := S2x2048x512) ![1, 0, 0] S1x2048x512.size inb_slot1, (zOf arg1 harg1 arg2 harg2 arg3 harg3 arg5 harg5 arg6 harg6 x1 x2 x3 x5 x6)⟩])) -∗ K ⟨⟩))
      ⊢ wp frame (wpE (defs₀ (F := F)) Variants.none c none) E (cc1__rnn_kernel i arg1 harg1 arg2 harg2 arg3 harg3 arg4 harg4 arg5 harg5 arg6 harg6 arg7 harg7 arg8 harg8 arg9 harg9) K := by
  have h2 := (runBo (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).2 E K
  have hz : (runBo (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.2 = [⟨Rect.unit (s := S2x2048x512) ![1, 0, 0] S1x2048x512.size inb_slot1, (zOf arg1 harg1 arg2 harg2 arg3 harg3 arg5 harg5 arg6 harg6 x1 x2 x3 x5 x6)⟩, ⟨Rect.unit (s := S2x2048x512) ![0, 0, 0] S1x2048x512.size inb_slot0, P⟩] :=
    (runBo_z Ix U Lvl c i arg1 harg1 arg2 harg2 arg3 harg3 arg4 harg4 arg5 harg5 arg6 harg6 arg7 harg7 arg8 harg8 arg9 harg9 hc1 hc2 hc3 x1 x2 x3 x4 x5 x6 x8 P).trans (View.Piece.cons_unit_congr (k1_off1_odd i (Par.eq (i := i) (p := 1))) _ _ _)
  rw [hz] at h2
  iintro ⟨H1, H2, H3, H4, H5, H6, H7, H8, H9, Hk⟩
  iapply h2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, ⟨%f7, H7⟩, ⟨%f8, H8⟩, ⟨%f9, H9⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverBo_o Ix U Lvl c i arg1 harg1 arg2 harg2 arg3 harg3 arg4 harg4 arg5 harg5 arg6 harg6 arg7 harg7 arg8 harg8 arg9 harg9 hc1 hc2 hc3 x1 x2 x3 x4 x5 x6 x8 P)
  isplitl [H8]
  · unfold owns; iexists _; isplitr
    swap; · iexact H8
    ipureintro; exact View.read_writes_of_cover _ _ _ _ _ (coverBo_h Ix U Lvl c i arg1 harg1 arg2 harg2 arg3 harg3 arg4 harg4 arg5 harg5 arg6 harg6 arg7 harg7 arg8 harg8 arg9 harg9 hc1 hc2 hc3 x1 x2 x3 x4 x5 x6 x8 P)
  iexists (arg9.view.writes (Elt F) f9 [⟨Rect.unit (s := S2x2048x512) ![0, 0, 0] S1x2048x512.size inb_slot0, P⟩])
  simp only [View.writes_cons, View.writes_nil]
  iexact H9

theorem specBe (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) (E : Set ℕ) (K : PUnit → sProp 𝕄) :
    iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
        ∗ (∃ d, owns (c : Thread nD τ) arg7 fullShare d) ∗ owns (c : Thread nD τ) arg8 fullShare x8
        ∗ (∃ f, arg9.view.loc (c : Thread nD τ) ↦[arg9.view.set]{fullShare} arg9.view.writes (Elt F) f [⟨Rect.unit (s := S2x2048x512) ![1, 0, 0] S1x2048x512.size inb_slot1, P⟩])
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (arg7.view.read (Elt F) (arg7.view.writes (Elt F) arg7.view.junk (runBe (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.1))
            ∗ owns (c : Thread nD τ) arg8 fullShare (arg8.view.read (Elt F) (arg8.view.writes (Elt F) arg8.view.junk (runBe (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.1))
            ∗ (∃ f, arg9.view.loc (c : Thread nD τ) ↦[arg9.view.set]{fullShare} arg9.view.writes (Elt F) f [⟨Rect.unit (s := S2x2048x512) ![0, 0, 0] S1x2048x512.size inb_slot0, (zOf arg1 harg1 arg2 harg2 arg3 harg3 arg5 harg5 arg6 harg6 x1 x2 x3 x5 x6)⟩])) -∗ K ⟨⟩))
      ⊢ wp frame (wpE (defs₀ (F := F)) Variants.none c none) E (cc1__rnn_kernel i arg1 harg1 arg2 harg2 arg3 harg3 arg4 harg4 arg5 harg5 arg6 harg6 arg7 harg7 arg8 harg8 arg9 harg9) K := by
  have h2 := (runBe (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).2 E K
  have hz : (runBe (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.2 = [⟨Rect.unit (s := S2x2048x512) ![0, 0, 0] S1x2048x512.size inb_slot0, (zOf arg1 harg1 arg2 harg2 arg3 harg3 arg5 harg5 arg6 harg6 x1 x2 x3 x5 x6)⟩, ⟨Rect.unit (s := S2x2048x512) ![1, 0, 0] S1x2048x512.size inb_slot1, P⟩] :=
    (runBe_z Ix U Lvl c i arg1 harg1 arg2 harg2 arg3 harg3 arg4 harg4 arg5 harg5 arg6 harg6 arg7 harg7 arg8 harg8 arg9 harg9 hc1 hc2 hc3 x1 x2 x3 x4 x5 x6 x8 P).trans (View.Piece.cons_unit_congr (k1_off1_even i (Par.eq (i := i) (p := 0))) _ _ _)
  rw [hz] at h2
  iintro ⟨H1, H2, H3, H4, H5, H6, H7, H8, H9, Hk⟩
  iapply h2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, ⟨%f7, H7⟩, ⟨%f8, H8⟩, ⟨%f9, H9⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverBe_o Ix U Lvl c i arg1 harg1 arg2 harg2 arg3 harg3 arg4 harg4 arg5 harg5 arg6 harg6 arg7 harg7 arg8 harg8 arg9 harg9 hc1 hc2 hc3 x1 x2 x3 x4 x5 x6 x8 P)
  isplitl [H8]
  · unfold owns; iexists _; isplitr
    swap; · iexact H8
    ipureintro; exact View.read_writes_of_cover _ _ _ _ _ (coverBe_h Ix U Lvl c i arg1 harg1 arg2 harg2 arg3 harg3 arg4 harg4 arg5 harg5 arg6 harg6 arg7 harg7 arg8 harg8 arg9 harg9 hc1 hc2 hc3 x1 x2 x3 x4 x5 x6 x8 P)
  iexists (arg9.view.writes (Elt F) f9 [⟨Rect.unit (s := S2x2048x512) ![1, 0, 0] S1x2048x512.size inb_slot1, P⟩])
  simp only [View.writes_cons, View.writes_nil]
  iexact H9

end

/-! ## The carried values at each point, as the pieces the body leaves there -/

section
variable (Ix U Lvl)
theorem Hat_0 (c : Dev nD) : Hat Ix U Lvl A c 0 t1_0.isLt = mh.view.read (Elt F) (mh.view.writes (Elt F) mh.view.junk (@runA F _ Ix _ U _ Lvl _ c (grid1.coords t1_0) ⟨(hpar t1_0).trans (by decide)⟩ (ms0 t1_0) (hs0 t1_0) (ms1 t1_0) (hs1 t1_0) (ms2 t1_0) (hs2 t1_0) (ms3 t1_0) (hs3 t1_0) (ms4 t1_0) (hs4 t1_0) (ms5 t1_0) (hs5 t1_0) (ms6 t1_0) (hs6 t1_0) mh hmh mz hmz ((hcond1 t1_0).mpr (by decide)) ((hcond2 t1_0).mpr (by decide)) (fun h => absurd ((hcond3 t1_0).mp h) (by decide)) (iblk A c 0 t1_0) (iblk A c 1 t1_0) (iblk A c 2 t1_0) (iblk A c 3 t1_0) (iblk A c 4 t1_0) (iblk A c 5 t1_0)).1.1) := rfl
theorem Hat_1 (c : Dev nD) : Hat Ix U Lvl A c 1 t1_1.isLt = mh.view.read (Elt F) (mh.view.writes (Elt F) mh.view.junk (@runBo F _ Ix _ U _ Lvl _ c (grid1.coords t1_1) ⟨(hpar t1_1).trans (by decide)⟩ (ms0 t1_1) (hs0 t1_1) (ms1 t1_1) (hs1 t1_1) (ms2 t1_1) (hs2 t1_1) (ms3 t1_1) (hs3 t1_1) (ms4 t1_1) (hs4 t1_1) (ms5 t1_1) (hs5 t1_1) (ms6 t1_1) (hs6 t1_1) mh hmh mz hmz (fun h => absurd ((hcond1 t1_1).mp h) (by decide)) ((hcond2 t1_1).mpr (by decide)) ((hcond3 t1_1).mpr (by decide)) (iblk A c 0 t1_1) (iblk A c 1 t1_1) (iblk A c 2 t1_1) (iblk A c 3 t1_1) (iblk A c 4 t1_1) (iblk A c 5 t1_1) (Hat Ix U Lvl A c 0 t1_0.isLt) (Zat A c t1_0)).1.2.1) := rfl
theorem Hat_2 (c : Dev nD) : Hat Ix U Lvl A c 2 t1_2.isLt = mh.view.read (Elt F) (mh.view.writes (Elt F) mh.view.junk (@runBe F _ Ix _ U _ Lvl _ c (grid1.coords t1_2) ⟨(hpar t1_2).trans (by decide)⟩ (ms0 t1_2) (hs0 t1_2) (ms1 t1_2) (hs1 t1_2) (ms2 t1_2) (hs2 t1_2) (ms3 t1_2) (hs3 t1_2) (ms4 t1_2) (hs4 t1_2) (ms5 t1_2) (hs5 t1_2) (ms6 t1_2) (hs6 t1_2) mh hmh mz hmz (fun h => absurd ((hcond1 t1_2).mp h) (by decide)) ((hcond2 t1_2).mpr (by decide)) ((hcond3 t1_2).mpr (by decide)) (iblk A c 0 t1_2) (iblk A c 1 t1_2) (iblk A c 2 t1_2) (iblk A c 3 t1_2) (iblk A c 4 t1_2) (iblk A c 5 t1_2) (Hat Ix U Lvl A c 1 t1_1.isLt) (Zat A c t1_1)).1.2.1) := rfl
theorem Hat_3 (c : Dev nD) : Hat Ix U Lvl A c 3 t1_3.isLt = mh.view.read (Elt F) (mh.view.writes (Elt F) mh.view.junk (@runBo F _ Ix _ U _ Lvl _ c (grid1.coords t1_3) ⟨(hpar t1_3).trans (by decide)⟩ (ms0 t1_3) (hs0 t1_3) (ms1 t1_3) (hs1 t1_3) (ms2 t1_3) (hs2 t1_3) (ms3 t1_3) (hs3 t1_3) (ms4 t1_3) (hs4 t1_3) (ms5 t1_3) (hs5 t1_3) (ms6 t1_3) (hs6 t1_3) mh hmh mz hmz (fun h => absurd ((hcond1 t1_3).mp h) (by decide)) ((hcond2 t1_3).mpr (by decide)) ((hcond3 t1_3).mpr (by decide)) (iblk A c 0 t1_3) (iblk A c 1 t1_3) (iblk A c 2 t1_3) (iblk A c 3 t1_3) (iblk A c 4 t1_3) (iblk A c 5 t1_3) (Hat Ix U Lvl A c 2 t1_2.isLt) (Zat A c t1_2)).1.2.1) := rfl
theorem Hat_4 (c : Dev nD) : Hat Ix U Lvl A c 4 t1_4.isLt = mh.view.read (Elt F) (mh.view.writes (Elt F) mh.view.junk (@runC F _ Ix _ U _ Lvl _ c (grid1.coords t1_4) ⟨(hpar t1_4).trans (by decide)⟩ (ms0 t1_4) (hs0 t1_4) (ms1 t1_4) (hs1 t1_4) (ms2 t1_4) (hs2 t1_4) (ms3 t1_4) (hs3 t1_4) (ms4 t1_4) (hs4 t1_4) (ms5 t1_4) (hs5 t1_4) (ms6 t1_4) (hs6 t1_4) mh hmh mz hmz (fun h => absurd ((hcond1 t1_4).mp h) (by decide)) (fun h => absurd ((hcond2 t1_4).mp h) (by decide)) ((hcond3 t1_4).mpr (by decide)) (iblk A c 0 t1_4) (iblk A c 1 t1_4) (iblk A c 2 t1_4) (iblk A c 3 t1_4) (iblk A c 4 t1_4) (iblk A c 5 t1_4) (Hat Ix U Lvl A c 3 t1_3.isLt) (Zat A c t1_3)).1.2) := rfl
theorem Oat_1 (c : Dev nD) : Oat Ix U Lvl A c t1_1.val t1_1.isLt = (ms6 t1_1).view.read (Elt F) ((ms6 t1_1).view.writes (Elt F) (ms6 t1_1).view.junk (@runBo F _ Ix _ U _ Lvl _ c (grid1.coords t1_1) ⟨(hpar t1_1).trans (by decide)⟩ (ms0 t1_1) (hs0 t1_1) (ms1 t1_1) (hs1 t1_1) (ms2 t1_1) (hs2 t1_1) (ms3 t1_1) (hs3 t1_1) (ms4 t1_1) (hs4 t1_1) (ms5 t1_1) (hs5 t1_1) (ms6 t1_1) (hs6 t1_1) mh hmh mz hmz (fun h => absurd ((hcond1 t1_1).mp h) (by decide)) ((hcond2 t1_1).mpr (by decide)) ((hcond3 t1_1).mpr (by decide)) (iblk A c 0 t1_1) (iblk A c 1 t1_1) (iblk A c 2 t1_1) (iblk A c 3 t1_1) (iblk A c 4 t1_1) (iblk A c 5 t1_1) (Hat Ix U Lvl A c 0 t1_0.isLt) (Zat A c t1_0)).1.1) := rfl
theorem Oat_2 (c : Dev nD) : Oat Ix U Lvl A c t1_2.val t1_2.isLt = (ms6 t1_2).view.read (Elt F) ((ms6 t1_2).view.writes (Elt F) (ms6 t1_2).view.junk (@runBe F _ Ix _ U _ Lvl _ c (grid1.coords t1_2) ⟨(hpar t1_2).trans (by decide)⟩ (ms0 t1_2) (hs0 t1_2) (ms1 t1_2) (hs1 t1_2) (ms2 t1_2) (hs2 t1_2) (ms3 t1_2) (hs3 t1_2) (ms4 t1_2) (hs4 t1_2) (ms5 t1_2) (hs5 t1_2) (ms6 t1_2) (hs6 t1_2) mh hmh mz hmz (fun h => absurd ((hcond1 t1_2).mp h) (by decide)) ((hcond2 t1_2).mpr (by decide)) ((hcond3 t1_2).mpr (by decide)) (iblk A c 0 t1_2) (iblk A c 1 t1_2) (iblk A c 2 t1_2) (iblk A c 3 t1_2) (iblk A c 4 t1_2) (iblk A c 5 t1_2) (Hat Ix U Lvl A c 1 t1_1.isLt) (Zat A c t1_1)).1.1) := rfl
theorem Oat_3 (c : Dev nD) : Oat Ix U Lvl A c t1_3.val t1_3.isLt = (ms6 t1_3).view.read (Elt F) ((ms6 t1_3).view.writes (Elt F) (ms6 t1_3).view.junk (@runBo F _ Ix _ U _ Lvl _ c (grid1.coords t1_3) ⟨(hpar t1_3).trans (by decide)⟩ (ms0 t1_3) (hs0 t1_3) (ms1 t1_3) (hs1 t1_3) (ms2 t1_3) (hs2 t1_3) (ms3 t1_3) (hs3 t1_3) (ms4 t1_3) (hs4 t1_3) (ms5 t1_3) (hs5 t1_3) (ms6 t1_3) (hs6 t1_3) mh hmh mz hmz (fun h => absurd ((hcond1 t1_3).mp h) (by decide)) ((hcond2 t1_3).mpr (by decide)) ((hcond3 t1_3).mpr (by decide)) (iblk A c 0 t1_3) (iblk A c 1 t1_3) (iblk A c 2 t1_3) (iblk A c 3 t1_3) (iblk A c 4 t1_3) (iblk A c 5 t1_3) (Hat Ix U Lvl A c 2 t1_2.isLt) (Zat A c t1_2)).1.1) := rfl
theorem Oat_4 (c : Dev nD) : Oat Ix U Lvl A c t1_4.val t1_4.isLt = (ms6 t1_4).view.read (Elt F) ((ms6 t1_4).view.writes (Elt F) (ms6 t1_4).view.junk (@runC F _ Ix _ U _ Lvl _ c (grid1.coords t1_4) ⟨(hpar t1_4).trans (by decide)⟩ (ms0 t1_4) (hs0 t1_4) (ms1 t1_4) (hs1 t1_4) (ms2 t1_4) (hs2 t1_4) (ms3 t1_4) (hs3 t1_4) (ms4 t1_4) (hs4 t1_4) (ms5 t1_4) (hs5 t1_4) (ms6 t1_4) (hs6 t1_4) mh hmh mz hmz (fun h => absurd ((hcond1 t1_4).mp h) (by decide)) (fun h => absurd ((hcond2 t1_4).mp h) (by decide)) ((hcond3 t1_4).mpr (by decide)) (iblk A c 0 t1_4) (iblk A c 1 t1_4) (iblk A c 2 t1_4) (iblk A c 3 t1_4) (iblk A c 4 t1_4) (iblk A c 5 t1_4) (Hat Ix U Lvl A c 3 t1_3.isLt) (Zat A c t1_3)).1.1) := rfl

end

/-! ## The body obligation -/

/-- At the first point the output window's buffer, fetched by nothing, holds what it held. -/
theorem before1_6_first (c : Dev nD) (d) : (dats (U := U) (Lvl := Lvl) A q B0 0 c).before 6 t1_0 d = d := by
  unfold Dat.before
  rw [if_neg (by rw [show ((cfgs 0).win 6).fetch t1_0 = false from by decide +kernel]; exact Bool.false_ne_true), if_pos (show (t1_0 : Fin grid1.N).val = 0 from rfl)]

set_option maxHeartbeats 1600000 in
/-- The body at every point: the inputs' current buffers hold their blocks; the point's control case is known (the
    first point, an odd or even inner point, the last point) and that case's triple applies, the carried buffers at what
    the invariant says; what the body leaves is the next invariant — the new hidden state read back from its covering
    pieces, the point's projection on top of the one just read — and the output block's covering pieces read back;
    the core owes nothing throughout. -/
theorem body_obligation (c : Dev nD) (ι : Ix) :
    Pipeline.BodyObligationLoose (dats (U := U) (Lvl := Lvl) A q B0 0 c) (defs₀ (F := F)) Variants.none ι Set.univ := fun t => by
  rw [bigSep_W1, bigSep_W1]
  rcases fin_N1 t with rfl | rfl | rfl | rfl | rfl
  · simp only [before1_0, before1_1, before1_2, before1_3, before1_4, before1_5, after1_0, after1_1, after1_2, after1_3, after1_4, after1_5, after1_6, Φ_eq, show idle1 6 (grid1.coords t1_0) = true from by decide +kernel, show (win1 6).flush t1_0 = false from by decide +kernel]
    rw [show ((t1_0 : Fin cfg1.N).castSucc).val = 0 from rfl, show ((t1_0 : Fin cfg1.N).succ).val = 1 from rfl,
      show (dats (U := U) (Lvl := Lvl) A q B0 0 c).owesAt ι (t1_0 : Fin cfg1.N).succ = (dats (U := U) (Lvl := Lvl) A q B0 0 c).owesAt ι (t1_0 : Fin cfg1.N).castSucc from rfl]
    simp only [ΦN, before1_6_first]
    rw [Hat_0]
    iintro ⟨⟨⟨%dh, Hh⟩, ⟨%dz, Hz⟩⟩, Ho, ⟨%d0, H0⟩, ⟨%d1, H1⟩, ⟨%d2, H2⟩, ⟨%d3, H3⟩, ⟨%d4, H4⟩, ⟨%d5, H5⟩, ⟨%d6, H6⟩⟩
    iapply (@specA F _ Ix _ U _ Lvl _ c (grid1.coords t1_0) ⟨(hpar t1_0).trans (by decide)⟩ (ms0 t1_0) (hs0 t1_0) (ms1 t1_0) (hs1 t1_0) (ms2 t1_0) (hs2 t1_0) (ms3 t1_0) (hs3 t1_0) (ms4 t1_0) (hs4 t1_0) (ms5 t1_0) (hs5 t1_0) (ms6 t1_0) (hs6 t1_0) mh hmh mz hmz ((hcond1 t1_0).mpr (by decide)) ((hcond2 t1_0).mpr (by decide)) (fun h => absurd ((hcond3 t1_0).mp h) (by decide)) (iblk A c 0 t1_0) (iblk A c 1 t1_0) (iblk A c 2 t1_0) (iblk A c 3 t1_0) (iblk A c 4 t1_0) (iblk A c 5 t1_0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Hh]; · iexists _; iexact Hh
    isplitl [Hz]; · iexists _; iexact Hz
    iintro ⟨H0, H1, H2, H3, H4, H5, H6, H8, H9⟩
    isplitl [H8 H9]
    · isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before1_0, before1_1, before1_2, before1_3, before1_4, before1_5, after1_0, after1_1, after1_2, after1_3, after1_4, after1_5, after1_6, Φ_eq, show idle1 6 (grid1.coords t1_1) = false from by decide +kernel]
    rw [show ((t1_1 : Fin cfg1.N).castSucc).val = 1 from rfl, show ((t1_1 : Fin cfg1.N).succ).val = 2 from rfl,
      show (dats (U := U) (Lvl := Lvl) A q B0 0 c).owesAt ι (t1_1 : Fin cfg1.N).succ = (dats (U := U) (Lvl := Lvl) A q B0 0 c).owesAt ι (t1_1 : Fin cfg1.N).castSucc from rfl]
    simp only [ΦN]
    rw [Hat_1, Oat_1]
    iintro ⟨⟨Hh, Hz⟩, Ho, ⟨%d0, H0⟩, ⟨%d1, H1⟩, ⟨%d2, H2⟩, ⟨%d3, H3⟩, ⟨%d4, H4⟩, ⟨%d5, H5⟩, ⟨%d6, H6⟩⟩
    iapply (@specBo F _ Ix _ U _ Lvl _ c (grid1.coords t1_1) ⟨(hpar t1_1).trans (by decide)⟩ (ms0 t1_1) (hs0 t1_1) (ms1 t1_1) (hs1 t1_1) (ms2 t1_1) (hs2 t1_1) (ms3 t1_1) (hs3 t1_1) (ms4 t1_1) (hs4 t1_1) (ms5 t1_1) (hs5 t1_1) (ms6 t1_1) (hs6 t1_1) mh hmh mz hmz (fun h => absurd ((hcond1 t1_1).mp h) (by decide)) ((hcond2 t1_1).mpr (by decide)) ((hcond3 t1_1).mpr (by decide)) (iblk A c 0 t1_1) (iblk A c 1 t1_1) (iblk A c 2 t1_1) (iblk A c 3 t1_1) (iblk A c 4 t1_1) (iblk A c 5 t1_1) (Hat Ix U Lvl A c 0 t1_0.isLt) (Zat A c t1_0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Hh]; · iexact Hh
    isplitl [Hz]; · iexact Hz
    iintro ⟨H0, H1, H2, H3, H4, H5, H7, H8, H9⟩
    isplitl [H8 H9]
    · isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H7
  · simp only [before1_0, before1_1, before1_2, before1_3, before1_4, before1_5, after1_0, after1_1, after1_2, after1_3, after1_4, after1_5, after1_6, Φ_eq, show idle1 6 (grid1.coords t1_2) = false from by decide +kernel]
    rw [show ((t1_2 : Fin cfg1.N).castSucc).val = 2 from rfl, show ((t1_2 : Fin cfg1.N).succ).val = 3 from rfl,
      show (dats (U := U) (Lvl := Lvl) A q B0 0 c).owesAt ι (t1_2 : Fin cfg1.N).succ = (dats (U := U) (Lvl := Lvl) A q B0 0 c).owesAt ι (t1_2 : Fin cfg1.N).castSucc from rfl]
    simp only [ΦN]
    rw [Hat_2, Oat_2]
    iintro ⟨⟨Hh, Hz⟩, Ho, ⟨%d0, H0⟩, ⟨%d1, H1⟩, ⟨%d2, H2⟩, ⟨%d3, H3⟩, ⟨%d4, H4⟩, ⟨%d5, H5⟩, ⟨%d6, H6⟩⟩
    iapply (@specBe F _ Ix _ U _ Lvl _ c (grid1.coords t1_2) ⟨(hpar t1_2).trans (by decide)⟩ (ms0 t1_2) (hs0 t1_2) (ms1 t1_2) (hs1 t1_2) (ms2 t1_2) (hs2 t1_2) (ms3 t1_2) (hs3 t1_2) (ms4 t1_2) (hs4 t1_2) (ms5 t1_2) (hs5 t1_2) (ms6 t1_2) (hs6 t1_2) mh hmh mz hmz (fun h => absurd ((hcond1 t1_2).mp h) (by decide)) ((hcond2 t1_2).mpr (by decide)) ((hcond3 t1_2).mpr (by decide)) (iblk A c 0 t1_2) (iblk A c 1 t1_2) (iblk A c 2 t1_2) (iblk A c 3 t1_2) (iblk A c 4 t1_2) (iblk A c 5 t1_2) (Hat Ix U Lvl A c 1 t1_1.isLt) (Zat A c t1_1) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Hh]; · iexact Hh
    isplitl [Hz]; · iexact Hz
    iintro ⟨H0, H1, H2, H3, H4, H5, H7, H8, H9⟩
    isplitl [H8 H9]
    · isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H7
  · simp only [before1_0, before1_1, before1_2, before1_3, before1_4, before1_5, after1_0, after1_1, after1_2, after1_3, after1_4, after1_5, after1_6, Φ_eq, show idle1 6 (grid1.coords t1_3) = false from by decide +kernel]
    rw [show ((t1_3 : Fin cfg1.N).castSucc).val = 3 from rfl, show ((t1_3 : Fin cfg1.N).succ).val = 4 from rfl,
      show (dats (U := U) (Lvl := Lvl) A q B0 0 c).owesAt ι (t1_3 : Fin cfg1.N).succ = (dats (U := U) (Lvl := Lvl) A q B0 0 c).owesAt ι (t1_3 : Fin cfg1.N).castSucc from rfl]
    simp only [ΦN]
    rw [Hat_3, Oat_3]
    iintro ⟨⟨Hh, Hz⟩, Ho, ⟨%d0, H0⟩, ⟨%d1, H1⟩, ⟨%d2, H2⟩, ⟨%d3, H3⟩, ⟨%d4, H4⟩, ⟨%d5, H5⟩, ⟨%d6, H6⟩⟩
    iapply (@specBo F _ Ix _ U _ Lvl _ c (grid1.coords t1_3) ⟨(hpar t1_3).trans (by decide)⟩ (ms0 t1_3) (hs0 t1_3) (ms1 t1_3) (hs1 t1_3) (ms2 t1_3) (hs2 t1_3) (ms3 t1_3) (hs3 t1_3) (ms4 t1_3) (hs4 t1_3) (ms5 t1_3) (hs5 t1_3) (ms6 t1_3) (hs6 t1_3) mh hmh mz hmz (fun h => absurd ((hcond1 t1_3).mp h) (by decide)) ((hcond2 t1_3).mpr (by decide)) ((hcond3 t1_3).mpr (by decide)) (iblk A c 0 t1_3) (iblk A c 1 t1_3) (iblk A c 2 t1_3) (iblk A c 3 t1_3) (iblk A c 4 t1_3) (iblk A c 5 t1_3) (Hat Ix U Lvl A c 2 t1_2.isLt) (Zat A c t1_2) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Hh]; · iexact Hh
    isplitl [Hz]; · iexact Hz
    iintro ⟨H0, H1, H2, H3, H4, H5, H7, H8, H9⟩
    isplitl [H8 H9]
    · isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H7
  · simp only [before1_0, before1_1, before1_2, before1_3, before1_4, before1_5, after1_0, after1_1, after1_2, after1_3, after1_4, after1_5, after1_6, Φ_eq, show idle1 6 (grid1.coords t1_4) = false from by decide +kernel]
    rw [show ((t1_4 : Fin cfg1.N).castSucc).val = 4 from rfl, show ((t1_4 : Fin cfg1.N).succ).val = 5 from rfl,
      show (dats (U := U) (Lvl := Lvl) A q B0 0 c).owesAt ι (t1_4 : Fin cfg1.N).succ = (dats (U := U) (Lvl := Lvl) A q B0 0 c).owesAt ι (t1_4 : Fin cfg1.N).castSucc from rfl]
    simp only [ΦN]
    rw [Hat_4, Oat_4]
    iintro ⟨⟨Hh, Hz⟩, Ho, ⟨%d0, H0⟩, ⟨%d1, H1⟩, ⟨%d2, H2⟩, ⟨%d3, H3⟩, ⟨%d4, H4⟩, ⟨%d5, H5⟩, ⟨%d6, H6⟩⟩
    iapply (@specC F _ Ix _ U _ Lvl _ c (grid1.coords t1_4) ⟨(hpar t1_4).trans (by decide)⟩ (ms0 t1_4) (hs0 t1_4) (ms1 t1_4) (hs1 t1_4) (ms2 t1_4) (hs2 t1_4) (ms3 t1_4) (hs3 t1_4) (ms4 t1_4) (hs4 t1_4) (ms5 t1_4) (hs5 t1_4) (ms6 t1_4) (hs6 t1_4) mh hmh mz hmz (fun h => absurd ((hcond1 t1_4).mp h) (by decide)) (fun h => absurd ((hcond2 t1_4).mp h) (by decide)) ((hcond3 t1_4).mpr (by decide)) (iblk A c 0 t1_4) (iblk A c 1 t1_4) (iblk A c 2 t1_4) (iblk A c 3 t1_4) (iblk A c 4 t1_4) (iblk A c 5 t1_4) (Hat Ix U Lvl A c 3 t1_3.isLt) (Zat A c t1_3) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Hh]; · iexact Hh
    isplitl [Hz]; · iexact Hz
    iintro ⟨H0, H1, H2, H3, H4, H5, H7, H8, H9⟩
    isplitl [H8 H9]
    · isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H7

end Cert.Proof.IdealRegion

end
-- ==== Proof.IdealClaims.lean ====
/-
  The idealized kernel's run and frame.
  Under the precondition every entry of state_indices names a row of the table, so the SparseCore call's gathers are all
  in range; the kernel region's body meets its obligation at every grid point; so the program's 35 threads run to the end
  from any memory satisfying the precondition, the arguments unchanged and the result array at what the region leaves.
-/
import proofs.«213871_g15814069584205_fold_wed_c4_299_27_alg».proof.Defs
import proofs.«213871_g15814069584205_fold_wed_c4_299_27_alg».proof.Proof.PreIdx
import proofs.«213871_g15814069584205_fold_wed_c4_299_27_alg».proof.Proof.IdealFinal
import proofs.«213871_g15814069584205_fold_wed_c4_299_27_alg».proof.Proof.IdealRegionBody
import proofs.«213871_g15814069584205_fold_wed_c4_299_27_alg».proof.Proof.Gen.Pre_input_domain

noncomputable section

namespace Cert.Proof.IdealClaims

open Cert.KernelIdeal Cert.KernelIdeal.Gen Cert.Proof.IdealTile Cert.Proof.IdealLaunch Cert.Proof.IdealMain Cert.Proof.IdealRegionSeg

open Idealize.ShloMosaic Idealize.ShloMosaic.TcCoe
open Idealize.ShloMosaic.SparseCore.Cfg (HIx)
open Idealize.SL Idealize.SL.RA Idealize.SL.BI Idealize.SL.Sem

variable {F : FTy → Type} [FloatOps F] [∀ e, Nonempty (Elt F e)]
variable (m : (ℓ : Loc nD τ sig) → Buf (Elt F) ℓ) (ρ : Dev nD → PrngReg)

/-- The precondition holds of the argument arrays on every device. -/
def Pre : Prop := ∀ c : Dev nD,
  Cert.Pre_input_domain.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    = (fun _ => 1#1)

/-- Under it every entry of state_indices names a row of the table. -/
theorem range (hpre : Pre m) : ∀ (d : Dev nD) (x : S16x512.Idx), (m ((SparseCore.T d : Thread nD τ).loc main_arg1) x).toNat < 1024 :=
  fun d x => Cert.Proof.PreIdx.idx_lt_of_pre _ _ _ _ _ _ _ (hpre d) x

/-- The kernel region's body meets its obligation at every grid point, whatever arrays the region finds. -/
theorem hbody (d : Dev nD) (f : Buf (Elt F) (outLoc d)) (W₀ : Waits sig (HIx 1)) (c : Dev nD) :
    Pipeline.BodyObligationLoose (pd m d f W₀ 0 c) (defs₀ (F := F)) Variants.none (none : HIx 1) Set.univ :=
  Cert.Proof.IdealRegion.body_obligation (Aw m d f) (fun _ => fullShare) (B0 W₀) c none

/-- THE RUN of the program from a memory satisfying the precondition. -/
theorem run (hpre : Pre m) :
    θ_run (Cert.KernelIdeal.defs (F := F)) (Cert.KernelIdeal.threads (F := F)) ⟨m, fun _ => 0, ρ⟩ (QC m (idxOK_of_range m (range m hpre)) (OUT m)) :=
  run_main m ρ (idxOK_of_range m (range m hpre)) (OUT m) (regionSpec m (idxOK_of_range m (range m hpre)) (hbody m))

end Cert.Proof.IdealClaims

end
-- ==== Proof.IdealValueLemmas.lean ====
/-
  The kernel's arithmetic at the extended reals, read at an index.
  A matmul with one contracted axis is, at an output index, its accumulator there plus the plain sum of the
  products over that axis. The projection adds two such sums (the 64 action columns and the 128 embedding columns, each
  against the rows of its weight block) and the two biases, each bias one row broadcast over all rows. One recurrence
  half-step adds, to the projected row's half z, the two products of the previous state's halves with the weight
  blocks, and takes tanh. The hidden state's sum over 512 columns is the sum over its two halves of 256, so a step in
  this two-half form is the specification's step: only commutativity and associativity of addition are used.
-/
import proofs.«213871_g15814069584205_fold_wed_c4_299_27_alg».proof.Proof.Gen.KernelIdeal.Skeleton
import proofs.«213871_g15814069584205_fold_wed_c4_299_27_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Proof.IdealValue

open Idealize.ShloMosaic Idealize.ShloMosaic.ValueIdx
open Cert.KernelIdeal Cert.KernelIdeal.Gen

/-! ## The matmuls at an index -/

/-- Rows against rows over 64 columns: at (p, j), the accumulator plus Σ_k l[p, k]·r[j, k]. -/
theorem mm64_acc_apply (l : FVec Ideal S2048x64 .f32) (r : FVec Ideal S512x64 .f32) (acc : FVec Ideal S2048x512 .f32)
    (p : Fin 2048) (j : Fin 512) :
    matmul dot_S2048x64_S512x64_S2048x512_1_1_0_0_n_n none l r acc (ix2 p j)
      = acc (ix2 p j) + ∑ k : Fin 64, l (ix2 p k) * r (ix2 j k) := by
  simp only [matmul]
  rw [Ideal.matmul_apply, ← Equiv.sum_comp (contrEquiv1 dot_S2048x64_S512x64_S2048x512_1_1_0_0_n_n 64 rfl rfl).symm]
  congr 1
  refine Finset.sum_congr rfl fun k _ => ?_
  have hl : dot_S2048x64_S512x64_S2048x512_1_1_0_0_n_n.lhsIdx (ix2 p j)
      ((contrEquiv1 dot_S2048x64_S512x64_S2048x512_1_1_0_0_n_n 64 rfl rfl).symm k) = ix2 p k := by
    funext a; refine Fin.ext ?_
    match a with
    | ⟨0, _⟩ => rfl
    | ⟨1, _⟩ =>
      exact (DotDims.lhsIdx_val_of_single _ (cl := ⟨1, by decide⟩) rfl _ _).trans (contrEquiv1_symm_val _ 64 rfl rfl k)
  have hr : dot_S2048x64_S512x64_S2048x512_1_1_0_0_n_n.rhsIdx (ix2 p j)
      ((contrEquiv1 dot_S2048x64_S512x64_S2048x512_1_1_0_0_n_n 64 rfl rfl).symm k) = ix2 j k := by
    funext a; refine Fin.ext ?_
    match a with
    | ⟨0, _⟩ => rfl
    | ⟨1, _⟩ =>
      exact (DotDims.rhsIdx_val_of_single _ (cr := ⟨1, by decide⟩) rfl _ _).trans (contrEquiv1_symm_val _ 64 rfl rfl k)
  rw [hl, hr]

/-- Rows against rows over 128 columns. -/
theorem mm128_acc_apply (l : FVec Ideal S2048x128 .f32) (r : FVec Ideal S512x128 .f32) (acc : FVec Ideal S2048x512 .f32)
    (p : Fin 2048) (j : Fin 512) :
    matmul dot_S2048x128_S512x128_S2048x512_1_1_0_0_n_n none l r acc (ix2 p j)
      = acc (ix2 p j) + ∑ k : Fin 128, l (ix2 p k) * r (ix2 j k) := by
  simp only [matmul]
  rw [Ideal.matmul_apply, ← Equiv.sum_comp (contrEquiv1 dot_S2048x128_S512x128_S2048x512_1_1_0_0_n_n 128 rfl rfl).symm]
  congr 1
  refine Finset.sum_congr rfl fun k _ => ?_
  have hl : dot_S2048x128_S512x128_S2048x512_1_1_0_0_n_n.lhsIdx (ix2 p j)
      ((contrEquiv1 dot_S2048x128_S512x128_S2048x512_1_1_0_0_n_n 128 rfl rfl).symm k) = ix2 p k := by
    funext a; refine Fin.ext ?_
    match a with
    | ⟨0, _⟩ => rfl
    | ⟨1, _⟩ =>
      exact (DotDims.lhsIdx_val_of_single _ (cl := ⟨1, by decide⟩) rfl _ _).trans (contrEquiv1_symm_val _ 128 rfl rfl k)
  have hr : dot_S2048x128_S512x128_S2048x512_1_1_0_0_n_n.rhsIdx (ix2 p j)
      ((contrEquiv1 dot_S2048x128_S512x128_S2048x512_1_1_0_0_n_n 128 rfl rfl).symm k) = ix2 j k := by
    funext a; refine Fin.ext ?_
    match a with
    | ⟨0, _⟩ => rfl
    | ⟨1, _⟩ =>
      exact (DotDims.rhsIdx_val_of_single _ (cr := ⟨1, by decide⟩) rfl _ _).trans (contrEquiv1_symm_val _ 128 rfl rfl k)
  rw [hl, hr]

/-- Rows against columns over 256: at (b, j), the accumulator plus Σ_k l[b, k]·w[k, j]. -/
theorem mm256_acc_apply (l : FVec Ideal S16x256 .f32) (w : FVec Ideal S256x256 .f32) (acc : FVec Ideal S16x256 .f32)
    (b : Fin 16) (j : Fin 256) :
    matmul dot_S16x256_S256x256_S16x256_1_0_0_1_n_n none l w acc (ix2 b j)
      = acc (ix2 b j) + ∑ k : Fin 256, l (ix2 b k) * w (ix2 k j) := by
  simp only [matmul]
  rw [Ideal.matmul_apply, ← Equiv.sum_comp (contrEquiv1 dot_S16x256_S256x256_S16x256_1_0_0_1_n_n 256 rfl rfl).symm]
  congr 1
  refine Finset.sum_congr rfl fun k _ => ?_
  have hl : dot_S16x256_S256x256_S16x256_1_0_0_1_n_n.lhsIdx (ix2 b j)
      ((contrEquiv1 dot_S16x256_S256x256_S16x256_1_0_0_1_n_n 256 rfl rfl).symm k) = ix2 b k := by
    funext a; refine Fin.ext ?_
    match a with
    | ⟨0, _⟩ => rfl
    | ⟨1, _⟩ =>
      exact (DotDims.lhsIdx_val_of_single _ (cl := ⟨1, by decide⟩) rfl _ _).trans (contrEquiv1_symm_val _ 256 rfl rfl k)
  have hr : dot_S16x256_S256x256_S16x256_1_0_0_1_n_n.rhsIdx (ix2 b j)
      ((contrEquiv1 dot_S16x256_S256x256_S16x256_1_0_0_1_n_n 256 rfl rfl).symm k) = ix2 k j := by
    funext a; refine Fin.ext ?_
    match a with
    | ⟨0, _⟩ =>
      exact (DotDims.rhsIdx_val_of_single _ (cr := ⟨0, by decide⟩) rfl _ _).trans (contrEquiv1_symm_val _ 256 rfl rfl k)
    | ⟨1, _⟩ => rfl
  rw [hl, hr]

/-- The zero array is 0 at every index. -/
theorem zero_apply {s : Shape} (i : s.Idx) : constant (F := Ideal) s .f32 0x00000000#32 i = 0 :=
  Ideal.ofBits_zero_f32

/-- Into the zero accumulator: just the sum. -/
theorem mm64_apply (l : FVec Ideal S2048x64 .f32) (r : FVec Ideal S512x64 .f32) (p : Fin 2048) (j : Fin 512) :
    matmul dot_S2048x64_S512x64_S2048x512_1_1_0_0_n_n none l r (constant (F := Ideal) S2048x512 .f32 0x00000000#32) (ix2 p j)
      = ∑ k : Fin 64, l (ix2 p k) * r (ix2 j k) := by
  rw [mm64_acc_apply, zero_apply, zero_add]

theorem mm128_apply (l : FVec Ideal S2048x128 .f32) (r : FVec Ideal S512x128 .f32) (p : Fin 2048) (j : Fin 512) :
    matmul dot_S2048x128_S512x128_S2048x512_1_1_0_0_n_n none l r (constant (F := Ideal) S2048x512 .f32 0x00000000#32) (ix2 p j)
      = ∑ k : Fin 128, l (ix2 p k) * r (ix2 j k) := by
  rw [mm128_acc_apply, zero_apply, zero_add]

theorem mm256_apply (l : FVec Ideal S16x256 .f32) (w : FVec Ideal S256x256 .f32) (b : Fin 16) (j : Fin 256) :
    matmul dot_S16x256_S256x256_S16x256_1_0_0_1_n_n none l w (constant (F := Ideal) S16x256 .f32 0x00000000#32) (ix2 b j)
      = ∑ k : Fin 256, l (ix2 b k) * w (ix2 k j) := by
  rw [mm256_acc_apply, zero_apply, zero_add]

/-! ## The projection at an index -/

/-- THE PROJECTION at row r, column j: the two sums and the two biases. -/
theorem proj_apply (v9 : Vec Ideal S2048x64 .f32) (v11 : Vec Ideal S512x64 .f32) (v13 : Vec Ideal S2048x128 .f32)
    (v15 : Vec Ideal S512x128 .f32) (v18 : Vec Ideal S1x512 .f32) (v22 : Vec Ideal S1x512 .f32) (r : Fin 2048) (j : Fin 512) :
    k1_pay2 (F := Ideal) v9 v11 v13 v15 v18 v22 (ix3 (0 : Fin 1) r j)
      = ((∑ k : Fin 64, v9 (ix2 r k) * v11 (ix2 j k)) + (∑ k : Fin 128, v13 (ix2 r k) * v15 (ix2 j k))
          + v18 (ix2 (0 : Fin 1) j)) + v22 (ix2 (0 : Fin 1) j) := by
  dsimp only [k1_pay2]
  rw [shapeCast_ab_1ab_apply, addf_apply, addf_apply, addf_apply, broadcastTo_1b_ab_apply, broadcastTo_1b_ab_apply,
    shapeCast_self, shapeCast_self, shapeCast_self, shapeCast_self, mm64_apply, mm128_apply]

/-! ## One recurrence half-step at an index -/

/-- tanh, elementwise. -/
theorem tanh_apply {s : Shape} (v : FVec Ideal s .f32) (i : s.Idx) : tanh v i = Ideal.tanh (v i) := rfl

/-- A half-step with the two products added to z in turn: tanh((z + ha·w0) + hb·w1). -/
theorem half_apply (w0 w1 : FVec Ideal S256x256 .f32) (ha hb z : FVec Ideal S16x256 .f32) (b : Fin 16) (j : Fin 256) :
    tanh (addf (addf z (matmul dot_S16x256_S256x256_S16x256_1_0_0_1_n_n none ha w0 (constant (F := Ideal) S16x256 .f32 0x00000000#32)))
      (matmul dot_S16x256_S256x256_S16x256_1_0_0_1_n_n none hb w1 (constant (F := Ideal) S16x256 .f32 0x00000000#32))) (ix2 b j)
      = Ideal.tanh ((z (ix2 b j) + ∑ k : Fin 256, ha (ix2 b k) * w0 (ix2 k j)) + ∑ k : Fin 256, hb (ix2 b k) * w1 (ix2 k j)) := by
  rw [tanh_apply, addf_apply, addf_apply, mm256_apply, mm256_apply]

/-- A half-step whose first sum z + ha·w0 was made before (u is z, v is the first product): tanh((u + v) + hb·w1). -/
theorem half_apply' (w1 : FVec Ideal S256x256 .f32) (hb u v : FVec Ideal S16x256 .f32) (b : Fin 16) (j : Fin 256) :
    tanh (addf (addf u v)
      (matmul dot_S16x256_S256x256_S16x256_1_0_0_1_n_n none hb w1 (constant (F := Ideal) S16x256 .f32 0x00000000#32))) (ix2 b j)
      = Ideal.tanh ((u (ix2 b j) + v (ix2 b j)) + ∑ k : Fin 256, hb (ix2 b k) * w1 (ix2 k j)) := by
  rw [tanh_apply, addf_apply, addf_apply, mm256_apply]

/-- A half-step whose first sum s = z + ha·w0 is one array and whose accumulator is given as a zero array. -/
theorem half_apply'' (w1 : FVec Ideal S256x256 .f32) (hb s cst : FVec Ideal S16x256 .f32)
    (hc : cst = constant (F := Ideal) S16x256 .f32 0x00000000#32) (b : Fin 16) (j : Fin 256) :
    tanh (addf s (matmul dot_S16x256_S256x256_S16x256_1_0_0_1_n_n none hb w1 cst)) (ix2 b j)
      = Ideal.tanh (s (ix2 b j) + ∑ k : Fin 256, hb (ix2 b k) * w1 (ix2 k j)) := by
  subst hc
  rw [tanh_apply, addf_apply, mm256_apply]

/-! ## The projected row's halves, and the casts around them -/

/-- A [1, 16, 512] row block cast to [16, 512], at (b, j). -/
theorem row_cast_apply (v : Vec Ideal S1x16x512 .f32) (b : Fin 16) (j : Fin 512) :
    shapeCast S16x512 v shapeCasts_S1x16x512_S16x512 (ix2 b j) = v (ix3 (0 : Fin 1) b j) :=
  shapeCast_1ab_ab_apply v _ b j

/-- The first half of a [16, 512] row: columns 0 … 255. -/
theorem half0_apply (x : FVec Ideal S16x512 .f32) (b : Fin 16) (j : Fin 256) :
    extractStridedSlice S16x256 ![0, 0] x slices_S16x512_o0_0_S16x256 (ix2 b j) = x (ix2 b ⟨j.val, by omega⟩) :=
  slice2_axis1_apply 0 x _ b j ⟨j.val, by omega⟩ (Nat.zero_add _).symm

/-- The second half of a [16, 512] row: columns 256 … 511. -/
theorem half1_apply (x : FVec Ideal S16x512 .f32) (b : Fin 16) (j : Fin 256) :
    extractStridedSlice S16x256 ![0, 256] x slices_S16x512_o0_256_S16x256 (ix2 b j) = x (ix2 b ⟨256 + j.val, by omega⟩) :=
  slice2_axis1_apply 256 x _ b j ⟨256 + j.val, by omega⟩ rfl

/-! ## The bridge to the specification -/

/-- The hidden state's sum over 512 columns is the sum over its two halves. -/
theorem rec_split (a : Spec.Args) (h : Fin 16 → Fin 512 → EReal) (b : Fin 16) (j : Fin 512) :
    Spec.rec a h b j = (∑ k : Fin 256, h b ⟨k.val, by omega⟩ * a.whh (ix2 j ⟨k.val, by omega⟩))
      + ∑ k : Fin 256, h b ⟨256 + k.val, by omega⟩ * a.whh (ix2 j ⟨256 + k.val, by omega⟩) := by
  unfold Spec.rec
  rw [show (∑ k : Fin 512, h b k * a.whh (ix2 j k)) = ∑ k : Fin (256 + 256), h b k * a.whh (ix2 j k) from rfl,
    Fin.sum_univ_add]
  rfl

/-- ONE FULL STEP in the two-half form is the specification's step. -/
theorem step_eq (a : Spec.Args) (t : Fin 512) (b : Fin 16) (j : Fin 512) (hprev : Fin 16 → Fin 512 → EReal)
    (e : hprev = Spec.hid a t.val) :
    Ideal.tanh ((Spec.proj a t b j + ∑ k : Fin 256, hprev b ⟨k.val, by omega⟩ * a.whh (ix2 j ⟨k.val, by omega⟩))
        + ∑ k : Fin 256, hprev b ⟨256 + k.val, by omega⟩ * a.whh (ix2 j ⟨256 + k.val, by omega⟩))
      = Spec.hid a (t.val + 1) b j := by
  subst e
  rw [Spec.hid_succ, rec_split, add_assoc]

end Cert.Proof.IdealValue

end
-- ==== Proof.IdealValueModel.lean ====
/-
  The recurrence in the two-half form, on coordinates, and its agreement with the specification.
  K 0 = h0 and K (s+1) [b, j] = tanh((z_s[b, j] + Σ_{k<256} K s [b, k]·w[k, j]) + Σ_{k<256} K s [b, 256+k]·w[256+k, j]).
  When w[k, j] is the hidden weight at (j, k), z_s is the specification's projection at time t0 + s and h0 its state
  after t0 steps, K s is its state after t0 + s steps: induction on s, one step being the split of the sum over 512
  columns into its halves and the regrouping of the additions.
-/
import proofs.«213871_g15814069584205_fold_wed_c4_299_27_alg».proof.Proof.IdealValueLemmas

noncomputable section

namespace Cert.Proof.IdealValue

open Idealize.ShloMosaic Idealize.ShloMosaic.ValueIdx

/-- One step in the two-half form. -/
def kstep (w : Fin 512 → Fin 512 → EReal) (z h : Fin 16 → Fin 512 → EReal) (b : Fin 16) (j : Fin 512) : EReal :=
  Ideal.tanh ((z b j + ∑ k : Fin 256, h b ⟨k.val, by omega⟩ * w ⟨k.val, by omega⟩ j)
    + ∑ k : Fin 256, h b ⟨256 + k.val, by omega⟩ * w ⟨256 + k.val, by omega⟩ j)

/-- The state after s steps from h0, the s-th step taking the projected row z s. -/
def K (w : Fin 512 → Fin 512 → EReal) (z : ℕ → Fin 16 → Fin 512 → EReal) (h0 : Fin 16 → Fin 512 → EReal) :
    ℕ → Fin 16 → Fin 512 → EReal
  | 0 => h0
  | s + 1 => kstep w (z s) (K w z h0 s)

theorem K_succ (w : Fin 512 → Fin 512 → EReal) (z : ℕ → Fin 16 → Fin 512 → EReal) (h0 : Fin 16 → Fin 512 → EReal) (s : ℕ) :
    K w z h0 (s + 1) = kstep w (z s) (K w z h0 s) := rfl

/-- THE MODEL IS THE SPECIFICATION from time t0 on. -/
theorem K_eq_hid (a : Spec.Args) (w : Fin 512 → Fin 512 → EReal) (hw : ∀ k j, w k j = a.whh (ix2 j k)) (t0 : ℕ)
    (z : ℕ → Fin 16 → Fin 512 → EReal) (h0 : Fin 16 → Fin 512 → EReal) (hh : h0 = Spec.hid a t0)
    (hz : ∀ s (hs : t0 + s < 512), z s = Spec.proj a ⟨t0 + s, hs⟩) :
    ∀ s, t0 + s ≤ 512 → K w z h0 s = Spec.hid a (t0 + s)
  | 0, _ => hh
  | s + 1, h1 => by
    have hlt : t0 + s < 512 := h1
    have ih := K_eq_hid a w hw t0 z h0 hh hz s (Nat.le_of_lt hlt)
    funext b j
    rw [K_succ, ih, hz s hlt]
    unfold kstep
    simp only [hw]
    exact step_eq a ⟨t0 + s, hlt⟩ b j _ rfl

end Cert.Proof.IdealValue

end
-- ==== Proof.IdealValueRun.lean ====
/-
  The arrays of the recurrence against the two-half model.
  The weight array is w[k, j], the hidden state h[b, j], and the projection slot z_s[b, j] = P[16·s + b, j]
  (the slot holds one chunk time-major, sixteen batch rows per step). One step has two intermediate values: the
  partial sum, which is the projected value plus the first product Σ_{k<256} h[b, k]·w[k, j]; and the pre-activation,
  which is the partial sum plus the second product Σ_{k<256} h[b, 256+k]·w[256+k, j]. The next state is tanh of the
  pre-activation. A 256 × 256 block of the weight array at offsets (r0, c0) is w[r0 + k, c0 + j]; a half of the
  hidden state's array is h[b, c0 + j]; a 16-row block of the slot at row offset 16·s is z_s.
-/
import proofs.«213871_g15814069584205_fold_wed_c4_299_27_alg».proof.Proof.IdealValueModel
import Idealize.ShloMosaic.Lib.WholeRead
import Idealize.ShloMosaic.Lib.Writes

noncomputable section

namespace Cert.Proof.IdealValue

open Idealize.ShloMosaic Idealize.ShloMosaic.ValueIdx
open Cert.KernelIdeal Cert.KernelIdeal.Gen

/-! ## The arrays on coordinates -/

def wOf (x4 : Vec Ideal S512x512 .f32) : Fin 512 → Fin 512 → EReal := fun k j => x4 (ix2 k j)
def hOf (x8 : Vec Ideal S16x512 .f32) : Fin 16 → Fin 512 → EReal := fun b j => x8 (ix2 b j)
/-- Step s's projected rows: rows 16·s … 16·s + 15 of the slot (read modulo the slot's 2048 rows, so that it is total). -/
def zOf (P : Vec Ideal S1x2048x512 .f32) : ℕ → Fin 16 → Fin 512 → EReal :=
  fun s b j => P (ix3 (0 : Fin 1) ⟨(16 * s + b.val) % 2048, Nat.mod_lt _ (by decide)⟩ j)

theorem zOf_eq (P : Vec Ideal S1x2048x512 .f32) (s : ℕ) (hs : s < 128) (b : Fin 16) (j : Fin 512) (h : 16 * s + b.val < 2048) :
    P (ix3 (0 : Fin 1) ⟨16 * s + b.val, h⟩ j) = zOf P s b j := by
  unfold zOf
  congr 2
  exact Fin.ext (Nat.mod_eq_of_lt h).symm

/-- The model over the arrays. -/
def Km (x4 : Vec Ideal S512x512 .f32) (P : Vec Ideal S1x2048x512 .f32) (x8 : Vec Ideal S16x512 .f32) :
    ℕ → Fin 16 → Fin 512 → EReal := K (wOf x4) (zOf P) (hOf x8)

/-! ## The partial sum and the pre-activation of a step -/

def kpart (w : Fin 512 → Fin 512 → EReal) (z h : Fin 16 → Fin 512 → EReal) (b : Fin 16) (j : Fin 512) : EReal :=
  z b j + ∑ k : Fin 256, h b ⟨k.val, by omega⟩ * w ⟨k.val, by omega⟩ j
def kpre (w : Fin 512 → Fin 512 → EReal) (z h : Fin 16 → Fin 512 → EReal) (b : Fin 16) (j : Fin 512) : EReal :=
  kpart w z h b j + ∑ k : Fin 256, h b ⟨256 + k.val, by omega⟩ * w ⟨256 + k.val, by omega⟩ j

variable (x4 : Vec Ideal S512x512 .f32) (P : Vec Ideal S1x2048x512 .f32) (x8 : Vec Ideal S16x512 .f32)

theorem Km_zero (b : Fin 16) (j : Fin 512) : x8 (ix2 b j) = Km x4 P x8 0 b j := rfl

theorem foldPart (s : ℕ) (b : Fin 16) (j : Fin 512) :
    zOf P s b j + ∑ k : Fin 256, Km x4 P x8 s b ⟨k.val, by omega⟩ * wOf x4 ⟨k.val, by omega⟩ j
      = kpart (wOf x4) (zOf P s) (Km x4 P x8 s) b j := rfl
theorem foldPre (s : ℕ) (b : Fin 16) (j : Fin 512) :
    kpart (wOf x4) (zOf P s) (Km x4 P x8 s) b j
        + ∑ k : Fin 256, Km x4 P x8 s b ⟨256 + k.val, by omega⟩ * wOf x4 ⟨256 + k.val, by omega⟩ j
      = kpre (wOf x4) (zOf P s) (Km x4 P x8 s) b j := rfl
theorem foldStep (s : ℕ) (b : Fin 16) (j : Fin 512) :
    Ideal.tanh (kpre (wOf x4) (zOf P s) (Km x4 P x8 s) b j) = Km x4 P x8 (s + 1) b j := rfl

/-! ## The reads -/

section Reads
variable {sigma : RefSig}

/-- A 256 × 256 block of the weight array, through the whole buffer. -/
theorem blk_read {m : Memref sig .tc .vmem S512x512 .f32} (h : m.IsWhole) (r0 c0 : ℕ)
    (inb : ∀ a, (![r0, c0] : Fin 2 → ℕ) a + S256x256.size a ≤ S512x512.size a) (k j : Fin 256)
    (hr : r0 + k.val < 512) (hc : c0 + j.val < 512) :
    View.readAt (Elt Ideal) m.view (Rect.unit (s := S512x512) ![r0, c0] S256x256.size inb).toLoadRect (h.unread x4) (ix2 k j)
      = wOf x4 ⟨r0 + k.val, hr⟩ ⟨c0 + j.val, hc⟩ := by
  rw [h.readAt_unread]
  unfold wOf
  refine congrArg x4 (funext fun a => Fin.ext ?_)
  match a with
  | ⟨0, _⟩ => show r0 + 1 * k.val = r0 + k.val; omega
  | ⟨1, _⟩ => show c0 + 1 * j.val = c0 + j.val; omega

/-- A half of the hidden state's array, through the whole buffer. -/
theorem half_read {m : Memref sig .tc .vmem S16x512 .f32} (h : m.IsWhole) (c0 : ℕ)
    (inb : ∀ a, (![0, c0] : Fin 2 → ℕ) a + S16x256.size a ≤ S16x512.size a) (b : Fin 16) (j : Fin 256)
    (hc : c0 + j.val < 512) :
    View.readAt (Elt Ideal) m.view (Rect.unit (s := S16x512) ![0, c0] S16x256.size inb).toLoadRect (h.unread x8) (ix2 b j)
      = Km x4 P x8 0 b ⟨c0 + j.val, hc⟩ := by
  rw [h.readAt_unread]
  show x8 _ = x8 _
  refine congrArg x8 (funext fun a => Fin.ext ?_)
  match a with
  | ⟨0, _⟩ => show 0 + 1 * b.val = b.val; omega
  | ⟨1, _⟩ => show c0 + 1 * j.val = c0 + j.val; omega

/-- A 16-row block of the projection slot q at row offset 16·s, read after the slot's one write. -/
theorem row_read {m : Memref sig .tc .vmem S2x2048x512 .f32} (q : ℕ)
    (inbq : ∀ a, (![q, 0, 0] : Fin 3 → ℕ) a + (![1, 2048, 512] : Fin 3 → ℕ) a ≤ S2x2048x512.size a)
    (off : Fin 3 → ℕ) (inb : ∀ a, off a + S1x16x512.size a ≤ S2x2048x512.size a) (s : ℕ) (hs : s < 128)
    (ho : off = ![q, 16 * s, 0]) (b : Fin 16) (j : Fin 512) :
    m.view.readCov [⟨Rect.unit (s := S2x2048x512) ![q, 0, 0] ![1, 2048, 512] inbq, P⟩]
      (Rect.unit (s := S2x2048x512) off S1x16x512.size inb).toLoadRect (ix3 (0 : Fin 1) b j) = zOf P s b j := by
  subst ho
  have hb := b.isLt
  rw [← zOf_eq P s hs b j (by omega)]
  show m.view.read (Elt Ideal) (m.view.writes (Elt Ideal) m.view.junk
    [⟨Rect.unit (s := S2x2048x512) ![q, 0, 0] ![1, 2048, 512] inbq, P⟩]) _ = _
  have e : (Rect.unit (s := S2x2048x512) ![q, 16 * s, 0] S1x16x512.size inb).toLoadRect.idx (ix3 (0 : Fin 1) b j)
      = (Rect.unit (s := S2x2048x512) ![q, 0, 0] ![1, 2048, 512] inbq).emb (ix3 (0 : Fin 1) ⟨16 * s + b.val, by omega⟩ j) := by
    funext a; refine Fin.ext ?_
    match a with
    | ⟨0, _⟩ => rfl
    | ⟨1, _⟩ => show 16 * s + 1 * b.val = 0 + 1 * (16 * s + b.val); omega
    | ⟨2, _⟩ => rfl
  rw [e, View.read_writes_cons_emb]

/-- The four blocks with their indices written out. -/
theorem blk00 {m : Memref sig .tc .vmem S512x512 .f32} (h : m.IsWhole)
    (inb : ∀ a, (![0, 0] : Fin 2 → ℕ) a + S256x256.size a ≤ S512x512.size a) (k j : Fin 256) :
    View.readAt (Elt Ideal) m.view (Rect.unit (s := S512x512) ![0, 0] S256x256.size inb).toLoadRect (h.unread x4) (ix2 k j)
      = wOf x4 ⟨k.val, by omega⟩ ⟨j.val, by omega⟩ := by
  rw [h.readAt_unread]; unfold wOf
  refine congrArg x4 (funext fun a => Fin.ext ?_)
  match a with
  | ⟨0, _⟩ => show 0 + 1 * k.val = k.val; omega
  | ⟨1, _⟩ => show 0 + 1 * j.val = j.val; omega
theorem blk10 {m : Memref sig .tc .vmem S512x512 .f32} (h : m.IsWhole)
    (inb : ∀ a, (![256, 0] : Fin 2 → ℕ) a + S256x256.size a ≤ S512x512.size a) (k j : Fin 256) :
    View.readAt (Elt Ideal) m.view (Rect.unit (s := S512x512) ![256, 0] S256x256.size inb).toLoadRect (h.unread x4) (ix2 k j)
      = wOf x4 ⟨256 + k.val, by omega⟩ ⟨j.val, by omega⟩ := by
  rw [h.readAt_unread]; unfold wOf
  refine congrArg x4 (funext fun a => Fin.ext ?_)
  match a with
  | ⟨0, _⟩ => show 256 + 1 * k.val = 256 + k.val; omega
  | ⟨1, _⟩ => show 0 + 1 * j.val = j.val; omega
theorem blk01 {m : Memref sig .tc .vmem S512x512 .f32} (h : m.IsWhole)
    (inb : ∀ a, (![0, 256] : Fin 2 → ℕ) a + S256x256.size a ≤ S512x512.size a) (k j : Fin 256) :
    View.readAt (Elt Ideal) m.view (Rect.unit (s := S512x512) ![0, 256] S256x256.size inb).toLoadRect (h.unread x4) (ix2 k j)
      = wOf x4 ⟨k.val, by omega⟩ ⟨256 + j.val, by omega⟩ := by
  rw [h.readAt_unread]; unfold wOf
  refine congrArg x4 (funext fun a => Fin.ext ?_)
  match a with
  | ⟨0, _⟩ => show 0 + 1 * k.val = k.val; omega
  | ⟨1, _⟩ => show 256 + 1 * j.val = 256 + j.val; omega
theorem blk11 {m : Memref sig .tc .vmem S512x512 .f32} (h : m.IsWhole)
    (inb : ∀ a, (![256, 256] : Fin 2 → ℕ) a + S256x256.size a ≤ S512x512.size a) (k j : Fin 256) :
    View.readAt (Elt Ideal) m.view (Rect.unit (s := S512x512) ![256, 256] S256x256.size inb).toLoadRect (h.unread x4) (ix2 k j)
      = wOf x4 ⟨256 + k.val, by omega⟩ ⟨256 + j.val, by omega⟩ := by
  rw [h.readAt_unread]; unfold wOf
  refine congrArg x4 (funext fun a => Fin.ext ?_)
  match a with
  | ⟨0, _⟩ => show 256 + 1 * k.val = 256 + k.val; omega
  | ⟨1, _⟩ => show 256 + 1 * j.val = 256 + j.val; omega

/-- The hidden state's two halves with their indices written out. -/
theorem hid0_read {m : Memref sig .tc .vmem S16x512 .f32} (h : m.IsWhole)
    (inb : ∀ a, (![0, 0] : Fin 2 → ℕ) a + S16x256.size a ≤ S16x512.size a) (b : Fin 16) (j : Fin 256) :
    View.readAt (Elt Ideal) m.view (Rect.unit (s := S16x512) ![0, 0] S16x256.size inb).toLoadRect (h.unread x8) (ix2 b j)
      = Km x4 P x8 0 b ⟨j.val, by omega⟩ := by
  rw [h.readAt_unread]
  show x8 _ = x8 _
  refine congrArg x8 (funext fun a => Fin.ext ?_)
  match a with
  | ⟨0, _⟩ => show 0 + 1 * b.val = b.val; omega
  | ⟨1, _⟩ => show 0 + 1 * j.val = j.val; omega
theorem hid1_read {m : Memref sig .tc .vmem S16x512 .f32} (h : m.IsWhole)
    (inb : ∀ a, (![0, 256] : Fin 2 → ℕ) a + S16x256.size a ≤ S16x512.size a) (b : Fin 16) (j : Fin 256) :
    View.readAt (Elt Ideal) m.view (Rect.unit (s := S16x512) ![0, 256] S16x256.size inb).toLoadRect (h.unread x8) (ix2 b j)
      = Km x4 P x8 0 b ⟨256 + j.val, by omega⟩ := by
  rw [h.readAt_unread]
  show x8 _ = x8 _
  refine congrArg x8 (funext fun a => Fin.ext ?_)
  match a with
  | ⟨0, _⟩ => show 0 + 1 * b.val = b.val; omega
  | ⟨1, _⟩ => show 256 + 1 * j.val = 256 + j.val; omega

end Reads

/-! ## The stored pieces against the target arrays -/

/-- A [16, 256] half cast to [16, 1, 256], at (b, 0, j). -/
theorem cast_out_apply (v : FVec Ideal S16x256 .f32) (x : S16x1x256.Idx) :
    shapeCast S16x1x256 v shapeCasts_S16x256_S16x1x256 x = v (ix2 (x 0) (x 2)) :=
  shapeCast_apply v _ x (ix2 (x 0) (x 2)) (by
    have h1 : (x 1).val = 0 := by
      have h := (x 1).isLt
      change (x 1).val < 1 at h
      omega
    rw [Shape.rowMajor_val_two, Shape.rowMajor_val_three]
    show (x 0).val * 256 + (x 2).val = ((x 0).val * 1 + (x 1).val) * 256 + (x 2).val
    rw [h1]; omega)

/-- The output block the model fills: row s holds the state after s + 1 steps. -/
def Gout : S16x128x512.Idx → EReal := fun y => Km x4 P x8 ((y 1).val + 1) (y 0) (y 2)
/-- The hidden state the model leaves after the chunk's 128 steps. -/
def Ghid : S16x512.Idx → EReal := fun y => Km x4 P x8 128 (y 0) (y 1)

/-- A first-half piece of row s agrees with the target on its rectangle. -/
theorem pieceA_ok (s : ℕ) (inb : ∀ a, (![0, s, 0] : Fin 3 → ℕ) a + S16x1x256.size a ≤ S16x128x512.size a)
    (v : FVec Ideal S16x256 .f32)
    (hv : ∀ (b : Fin 16) (j : Fin 256), v (ix2 b j) = Km x4 P x8 (s + 1) b ⟨j.val, by omega⟩)
    (x : (Rect.unit (s := S16x128x512) ![0, s, 0] S16x1x256.size inb).shape.Idx) :
    shapeCast S16x1x256 v shapeCasts_S16x256_S16x1x256 x
      = Gout x4 P x8 ((Rect.unit (s := S16x128x512) ![0, s, 0] S16x1x256.size inb).emb x) := by
  have h1 : (x 1).val = 0 := by
    have h := (x 1).isLt
    change (x 1).val < 1 at h
    omega
  refine (cast_out_apply v x).trans ((hv (x 0) (x 2)).trans ?_)
  unfold Gout
  have e1 : (((Rect.unit (s := S16x128x512) ![0, s, 0] S16x1x256.size inb).emb x) 1).val + 1 = s + 1 := by
    show s + 1 * (x 1).val + 1 = s + 1; rw [h1]
  have e0 : ((Rect.unit (s := S16x128x512) ![0, s, 0] S16x1x256.size inb).emb x) 0 = x 0 :=
    Fin.ext (by show 0 + 1 * (x 0).val = (x 0).val; omega)
  have e2 : ((Rect.unit (s := S16x128x512) ![0, s, 0] S16x1x256.size inb).emb x) 2 = ⟨(x 2).val, by have := (x 2).isLt; change (x 2).val < 256 at this; show (x 2).val < 512; omega⟩ :=
    Fin.ext (by show 0 + 1 * (x 2).val = (x 2).val; omega)
  rw [e1, e0, e2]
  rfl

/-- A second-half piece of row s agrees with the target on its rectangle. -/
theorem pieceB_ok (s : ℕ) (inb : ∀ a, (![0, s, 256] : Fin 3 → ℕ) a + S16x1x256.size a ≤ S16x128x512.size a)
    (v : FVec Ideal S16x256 .f32)
    (hv : ∀ (b : Fin 16) (j : Fin 256), v (ix2 b j) = Km x4 P x8 (s + 1) b ⟨256 + j.val, by omega⟩)
    (x : (Rect.unit (s := S16x128x512) ![0, s, 256] S16x1x256.size inb).shape.Idx) :
    shapeCast S16x1x256 v shapeCasts_S16x256_S16x1x256 x
      = Gout x4 P x8 ((Rect.unit (s := S16x128x512) ![0, s, 256] S16x1x256.size inb).emb x) := by
  have h1 : (x 1).val = 0 := by
    have h := (x 1).isLt
    change (x 1).val < 1 at h
    omega
  refine (cast_out_apply v x).trans ((hv (x 0) (x 2)).trans ?_)
  unfold Gout
  have e1 : (((Rect.unit (s := S16x128x512) ![0, s, 256] S16x1x256.size inb).emb x) 1).val + 1 = s + 1 := by
    show s + 1 * (x 1).val + 1 = s + 1; rw [h1]
  have e0 : ((Rect.unit (s := S16x128x512) ![0, s, 256] S16x1x256.size inb).emb x) 0 = x 0 :=
    Fin.ext (by show 0 + 1 * (x 0).val = (x 0).val; omega)
  have e2 : ((Rect.unit (s := S16x128x512) ![0, s, 256] S16x1x256.size inb).emb x) 2 = ⟨256 + (x 2).val, by have := (x 2).isLt; change (x 2).val < 256 at this; show 256 + (x 2).val < 512; omega⟩ :=
    Fin.ext (by show 256 + 1 * (x 2).val = 256 + (x 2).val; omega)
  rw [e1, e0, e2]
  rfl

end Cert.Proof.IdealValue

end
-- ==== Proof.IdealValueCover.lean ====
/-
  The 256 rectangles of one chunk's output block cover it. Rectangle k (k < 256) is the row k / 2 of the
  [16, 128, 512] block restricted to columns 256·(k mod 2) … 256·(k mod 2) + 255, over all 16 batch entries. An index
  (b, s, j) lies in rectangle 2·s + j / 256. A list of pieces whose rectangles are these, in whatever order the list has
  them, therefore covers every index; and after the writes of such a list, an index reads the one function the
  pieces' payloads all agree with.
-/
import proofs.«213871_g15814069584205_fold_wed_c4_299_27_alg».proof.Proof.Gen.KernelIdeal
import Idealize.ShloMosaic.Lib.Writes
import Idealize.ShloMosaic.Lib.ValueIdx

noncomputable section

namespace Cert.Proof.IdealValue

open Idealize.ShloMosaic Idealize.ShloMosaic.ValueIdx
open Cert.KernelIdeal

/-- Rectangle k of the output block: row (k / 2), columns from 256·(k mod 2), all batch entries. -/
def rectK (k : ℕ) : Rect S16x128x512 :=
  Rect.unit ![0, (k / 2) % 128, 256 * (k % 2)] S16x1x256.size fun a =>
    match a with
    | ⟨0, _⟩ => by show 0 + 16 ≤ 16; omega
    | ⟨1, _⟩ => by show (k / 2) % 128 + 1 ≤ 128; omega
    | ⟨2, _⟩ => by show 256 * (k % 2) + 256 ≤ 512; omega

/-- The index (b, s, j) lies in rectangle 2·s + j / 256. -/
theorem mem_rectK (y : S16x128x512.Idx) : y ∈ (rectK (2 * (y 1).val + (y 2).val / 256)).set := by
  unfold rectK
  rw [Rect.mem_set_unit]
  have h0 : (y 0).val < 16 := (y 0).isLt
  have h1 : (y 1).val < 128 := (y 1).isLt
  have h2 : (y 2).val < 512 := (y 2).isLt
  intro a
  match a with
  | ⟨0, _⟩ => exact ⟨Nat.zero_le _, by show (y 0).val < 0 + 16; omega⟩
  | ⟨1, _⟩ =>
    show (2 * (y 1).val + (y 2).val / 256) / 2 % 128 ≤ (y 1).val ∧ (y 1).val < (2 * (y 1).val + (y 2).val / 256) / 2 % 128 + 1
    omega
  | ⟨2, _⟩ =>
    show 256 * ((2 * (y 1).val + (y 2).val / 256) % 2) ≤ (y 2).val
      ∧ (y 2).val < 256 * ((2 * (y 1).val + (y 2).val / 256) % 2) + 256
    omega

variable {Val : EltTy → Type}

/-- A list of pieces over the 256 rectangles covers the block. -/
theorem cover256 (L : List (View.Piece Val S16x128x512 .f32))
    (hL : L.map (fun p => p.1) = (List.range 256).reverse.map rectK) (y : S16x128x512.Idx) :
    ∃ p ∈ L, y ∈ p.1.set := by
  have h1 : (y 1).val < 128 := (y 1).isLt
  have h2 : (y 2).val < 512 := (y 2).isLt
  have hk : 2 * (y 1).val + (y 2).val / 256 < 256 := by omega
  have hm : rectK (2 * (y 1).val + (y 2).val / 256) ∈ L.map (fun p => p.1) := by
    rw [hL]
    exact List.mem_map.2 ⟨_, List.mem_reverse.2 (List.mem_range.2 hk), rfl⟩
  obtain ⟨p, hp, e⟩ := List.mem_map.1 hm
  exact ⟨p, hp, by rw [e]; exact mem_rectK y⟩

/-- AFTER THE WRITES of such a list whose payloads all agree with G, every index reads G. -/
theorem read_writes256 {sig : RefSig} {κ : Kind} {sp : Space} (v : View sig κ sp S16x128x512 .f32) (f : v.ty.Contents Val)
    (G : S16x128x512.Idx → Val .f32) (L : List (View.Piece Val S16x128x512 .f32))
    (hL : L.map (fun p => p.1) = (List.range 256).reverse.map rectK)
    (hG : ∀ p ∈ L, ∀ x : p.1.shape.Idx, p.2 x = G (p.1.emb x)) (y : S16x128x512.Idx) :
    v.read Val (v.writes Val f L) y = G y :=
  View.read_writes_apply_of_pieces v f G L hG y (cover256 L hL y)

end Cert.Proof.IdealValue

end
-- ==== Proof.IdealValuePieces.lean ====
/-
  The pieces a run stores, against the target arrays.
  A stored half cast to [16, 1, 256] is read at (b, 0, j); if it holds the state after s + 1 steps at columns
  j (first half) or 256 + j (second half), the piece agrees with the target output block on its rectangle in row s.
  The hidden state's buffer takes the two halves after the last step, through the rectangles of columns 0 … 255 and
  256 … 511, which together cover it.
-/
import proofs.«213871_g15814069584205_fold_wed_c4_299_27_alg».proof.Proof.IdealValueRun
import proofs.«213871_g15814069584205_fold_wed_c4_299_27_alg».proof.Proof.IdealValueCover

noncomputable section

namespace Cert.Proof.IdealValue

open Idealize.ShloMosaic Idealize.ShloMosaic.ValueIdx
open Cert.KernelIdeal Cert.KernelIdeal.Gen

variable (x4 : Vec Ideal S512x512 .f32) (P : Vec Ideal S1x2048x512 .f32) (x8 : Vec Ideal S16x512 .f32)

/-- A half cast to [16, 1, 256], at (b, 0, j). -/
theorem cast_out_ix3 (v : FVec Ideal S16x256 .f32) (b : Fin 16) (j : Fin 256) :
    shapeCast S16x1x256 v shapeCasts_S16x256_S16x1x256 (ix3 b (0 : Fin 1) j) = v (ix2 b j) :=
  cast_out_apply v (ix3 b (0 : Fin 1) j)

/-- An index of the [16, 1, 256] shape is (x 0, 0, x 2). -/
theorem idx_out_eq (x : S16x1x256.Idx) : x = ix3 (x 0) (0 : Fin 1) (x 2) := by
  funext a
  match a with
  | ⟨0, _⟩ => rfl
  | ⟨1, _⟩ =>
    refine Fin.ext ?_
    have h := (x 1).isLt
    change (x 1).val < 1 at h
    show (x 1).val = 0
    omega
  | ⟨2, _⟩ => rfl

/-- A first-half piece of row s, given by its payload read at (b, 0, j). -/
theorem pieceA_ok' (s : ℕ) (inb : ∀ a, (![0, s, 0] : Fin 3 → ℕ) a + S16x1x256.size a ≤ S16x128x512.size a)
    (w : S16x1x256.Idx → EReal)
    (hw : ∀ (b : Fin 16) (j : Fin 256), w (ix3 b (0 : Fin 1) j) = Km x4 P x8 (s + 1) b ⟨j.val, by omega⟩)
    (x : (Rect.unit (s := S16x128x512) ![0, s, 0] S16x1x256.size inb).shape.Idx) :
    w x = Gout x4 P x8 ((Rect.unit (s := S16x128x512) ![0, s, 0] S16x1x256.size inb).emb x) := by
  have e := pieceA_ok x4 P x8 s inb (fun y => w (ix3 (y 0) (0 : Fin 1) (y 1))) (fun b j => hw b j) x
  rw [cast_out_apply] at e
  refine Eq.trans ?_ e
  exact congrArg w (idx_out_eq x)

/-- A second-half piece of row s, given by its payload read at (b, 0, j). -/
theorem pieceB_ok' (s : ℕ) (inb : ∀ a, (![0, s, 256] : Fin 3 → ℕ) a + S16x1x256.size a ≤ S16x128x512.size a)
    (w : S16x1x256.Idx → EReal)
    (hw : ∀ (b : Fin 16) (j : Fin 256), w (ix3 b (0 : Fin 1) j) = Km x4 P x8 (s + 1) b ⟨256 + j.val, by omega⟩)
    (x : (Rect.unit (s := S16x128x512) ![0, s, 256] S16x1x256.size inb).shape.Idx) :
    w x = Gout x4 P x8 ((Rect.unit (s := S16x128x512) ![0, s, 256] S16x1x256.size inb).emb x) := by
  have e := pieceB_ok x4 P x8 s inb (fun y => w (ix3 (y 0) (0 : Fin 1) (y 1))) (fun b j => hw b j) x
  rw [cast_out_apply] at e
  refine Eq.trans ?_ e
  exact congrArg w (idx_out_eq x)

/-! ## The hidden state's buffer -/

/-- A first-half piece of the hidden state's buffer. -/
theorem hidA_ok (inb : ∀ a, (![0, 0] : Fin 2 → ℕ) a + S16x256.size a ≤ S16x512.size a) (w : S16x256.Idx → EReal)
    (hw : ∀ (b : Fin 16) (j : Fin 256), w (ix2 b j) = Km x4 P x8 128 b ⟨j.val, by omega⟩)
    (x : (Rect.unit (s := S16x512) ![0, 0] S16x256.size inb).shape.Idx) :
    w x = Ghid x4 P x8 ((Rect.unit (s := S16x512) ![0, 0] S16x256.size inb).emb x) := by
  have ex : x = ix2 (x 0) (x 1) := eq_ix2 x
  unfold Ghid
  have e0 : ((Rect.unit (s := S16x512) ![0, 0] S16x256.size inb).emb x) 0 = x 0 :=
    Fin.ext (by show 0 + 1 * (x 0).val = (x 0).val; omega)
  have e1 : ((Rect.unit (s := S16x512) ![0, 0] S16x256.size inb).emb x) 1 = ⟨(x 1).val, by have := (x 1).isLt; change (x 1).val < 256 at this; show (x 1).val < 512; omega⟩ :=
    Fin.ext (by show 0 + 1 * (x 1).val = (x 1).val; omega)
  rw [e0, e1]
  exact (congrArg w ex).trans (hw (x 0) (x 1))

/-- A second-half piece of the hidden state's buffer. -/
theorem hidB_ok (inb : ∀ a, (![0, 256] : Fin 2 → ℕ) a + S16x256.size a ≤ S16x512.size a) (w : S16x256.Idx → EReal)
    (hw : ∀ (b : Fin 16) (j : Fin 256), w (ix2 b j) = Km x4 P x8 128 b ⟨256 + j.val, by omega⟩)
    (x : (Rect.unit (s := S16x512) ![0, 256] S16x256.size inb).shape.Idx) :
    w x = Ghid x4 P x8 ((Rect.unit (s := S16x512) ![0, 256] S16x256.size inb).emb x) := by
  have ex : x = ix2 (x 0) (x 1) := eq_ix2 x
  unfold Ghid
  have e0 : ((Rect.unit (s := S16x512) ![0, 256] S16x256.size inb).emb x) 0 = x 0 :=
    Fin.ext (by show 0 + 1 * (x 0).val = (x 0).val; omega)
  have e1 : ((Rect.unit (s := S16x512) ![0, 256] S16x256.size inb).emb x) 1 = ⟨256 + (x 1).val, by have := (x 1).isLt; change (x 1).val < 256 at this; show 256 + (x 1).val < 512; omega⟩ :=
    Fin.ext (by show 256 + 1 * (x 1).val = 256 + (x 1).val; omega)
  rw [e0, e1]
  exact (congrArg w ex).trans (hw (x 0) (x 1))

/-- The two halves' rectangles cover the hidden state's buffer. -/
theorem cover2 {Val : EltTy → Type} (inbB : ∀ a, (![0, 256] : Fin 2 → ℕ) a + S16x256.size a ≤ S16x512.size a)
    (inbA : ∀ a, (![0, 0] : Fin 2 → ℕ) a + S16x256.size a ≤ S16x512.size a)
    (pB : (Rect.unit (s := S16x512) ![0, 256] S16x256.size inbB).shape.Idx → Val .f32)
    (pA : (Rect.unit (s := S16x512) ![0, 0] S16x256.size inbA).shape.Idx → Val .f32) (y : S16x512.Idx) :
    ∃ p ∈ ([⟨Rect.unit (s := S16x512) ![0, 256] S16x256.size inbB, pB⟩, ⟨Rect.unit (s := S16x512) ![0, 0] S16x256.size inbA, pA⟩]
      : List (View.Piece Val S16x512 .f32)), y ∈ p.1.set := by
  have h0 : (y 0).val < 16 := (y 0).isLt
  have h1 : (y 1).val < 512 := (y 1).isLt
  by_cases hlt : (y 1).val < 256
  · refine ⟨_, List.mem_cons_of_mem _ List.mem_cons_self, ?_⟩
    rw [Rect.mem_set_unit]
    intro a
    match a with
    | ⟨0, _⟩ => exact ⟨Nat.zero_le _, by show (y 0).val < 0 + 16; omega⟩
    | ⟨1, _⟩ => exact ⟨Nat.zero_le _, by show (y 1).val < 0 + 256; omega⟩
  · refine ⟨_, List.mem_cons_self, ?_⟩
    rw [Rect.mem_set_unit]
    intro a
    match a with
    | ⟨0, _⟩ => exact ⟨Nat.zero_le _, by show (y 0).val < 0 + 16; omega⟩
    | ⟨1, _⟩ => exact ⟨by show 256 ≤ (y 1).val; omega, by show (y 1).val < 256 + 256; omega⟩

/-! ## A row block read after two writes -/

/-- A 16-row block of slot q, read after a write of the other slot q' and then the slot's own write: the other
    slot's write does not touch it. -/
theorem row_read2 {m : Memref sig .tc .vmem S2x2048x512 .f32} (q q' : ℕ) (hq : q' ≠ q)
    (inbq : ∀ a, (![q, 0, 0] : Fin 3 → ℕ) a + (![1, 2048, 512] : Fin 3 → ℕ) a ≤ S2x2048x512.size a)
    (off1 : Fin 3 → ℕ) (inb1 : ∀ a, off1 a + S1x2048x512.size a ≤ S2x2048x512.size a) (ho1 : off1 = ![q', 0, 0])
    (Z : (Rect.unit (s := S2x2048x512) off1 S1x2048x512.size inb1).shape.Idx → EReal)
    (off : Fin 3 → ℕ) (inb : ∀ a, off a + S1x16x512.size a ≤ S2x2048x512.size a) (s : ℕ) (hs : s < 128)
    (ho : off = ![q, 16 * s, 0]) (b : Fin 16) (j : Fin 512) :
    m.view.readCov [⟨Rect.unit (s := S2x2048x512) off1 S1x2048x512.size inb1, Z⟩,
        ⟨Rect.unit (s := S2x2048x512) ![q, 0, 0] ![1, 2048, 512] inbq, P⟩]
      (Rect.unit (s := S2x2048x512) off S1x16x512.size inb).toLoadRect (ix3 (0 : Fin 1) b j) = zOf P s b j := by
  subst ho ho1
  have hb := b.isLt
  rw [← zOf_eq P s hs b j (by omega)]
  show m.view.read (Elt Ideal) (m.view.writes (Elt Ideal) m.view.junk
    [⟨Rect.unit (s := S2x2048x512) ![q', 0, 0] S1x2048x512.size inb1, Z⟩,
      ⟨Rect.unit (s := S2x2048x512) ![q, 0, 0] ![1, 2048, 512] inbq, P⟩]) _ = _
  have e : (Rect.unit (s := S2x2048x512) ![q, 16 * s, 0] S1x16x512.size inb).toLoadRect.idx (ix3 (0 : Fin 1) b j)
      = (Rect.unit (s := S2x2048x512) ![q, 0, 0] ![1, 2048, 512] inbq).emb (ix3 (0 : Fin 1) ⟨16 * s + b.val, by omega⟩ j) := by
    funext a; refine Fin.ext ?_
    match a with
    | ⟨0, _⟩ => rfl
    | ⟨1, _⟩ => show 16 * s + 1 * b.val = 0 + 1 * (16 * s + b.val); omega
    | ⟨2, _⟩ => rfl
  rw [e]
  refine View.read_writes_of_unique m.view m.view.junk
    (⟨Rect.unit (s := S2x2048x512) ![q, 0, 0] ![1, 2048, 512] inbq, P⟩ : View.Piece (Elt Ideal) S2x2048x512 .f32)
    (ix3 (0 : Fin 1) ⟨16 * s + b.val, by omega⟩ j) _ (List.mem_cons_of_mem _ List.mem_cons_self) fun p hp hmem => ?_
  rcases List.mem_cons.1 hp with rfl | h
  · exfalso
    rw [Rect.mem_set_unit] at hmem
    have h0 := hmem ⟨0, Nat.succ_pos 2⟩
    have h1 : q' ≤ q + 1 * 0 ∧ q + 1 * 0 < q' + 1 := h0
    omega
  · exact List.mem_singleton.1 h

end Cert.Proof.IdealValue

end
-- ==== Proof.IdealValue.lean ====
/-
  The recurrent kernel's carried values are the specification's hidden states. Each grid point after the first runs
  128 steps of the recurrence on the hidden state the point before left and on the projection the point before
  stored; the output block and the hidden state's buffer it leaves hold the two-half model over those arrays. The
  model is the specification's recursion when the weight array is the hidden weights transposed, the projection slot
  holds the specification's projection of the chunk, and the hidden state is the specification's state at the chunk's
  start. The first point leaves zero, the specification's state after no step; point n leaves the state after 128·n.
-/
import proofs.«213871_g15814069584205_fold_wed_c4_299_27_alg».proof.Proof.IdealRegionBody
import proofs.«213871_g15814069584205_fold_wed_c4_299_27_alg».proof.Proof.IdealValueStepsC
import proofs.«213871_g15814069584205_fold_wed_c4_299_27_alg».proof.Proof.IdealValueStepsBe
import proofs.«213871_g15814069584205_fold_wed_c4_299_27_alg».proof.Proof.IdealValueStepsBo

set_option maxRecDepth 100000

noncomputable section

namespace Cert.Proof.IdealValue

open Cert.Proof.IdealRegion Cert.KernelIdeal Cert.KernelIdeal.Gen
open Idealize.ShloMosaic Idealize.ShloMosaic.ValueIdx Idealize.ShloMosaic.TcCoe
open Idealize.SL Idealize.SL.RA Idealize.SL.Sem

/-- The model is the specification over a chunk, the projections given for the chunk's steps only. -/
theorem K_eq_hid_upto (a : Spec.Args) (w : Fin 512 → Fin 512 → EReal) (hw : ∀ k j, w k j = a.whh (ix2 j k)) (t0 : ℕ)
    (z : ℕ → Fin 16 → Fin 512 → EReal) (h0 : Fin 16 → Fin 512 → EReal) (hh : h0 = Spec.hid a t0) (N : ℕ)
    (hz : ∀ s (hsN : s < N) (hs : t0 + s < 512), z s = Spec.proj a ⟨t0 + s, hs⟩) :
    ∀ s, s ≤ N → t0 + s ≤ 512 → K w z h0 s = Spec.hid a (t0 + s)
  | 0, _, _ => hh
  | s + 1, hN, h1 => by
    have hlt : t0 + s < 512 := h1
    have ih := K_eq_hid_upto a w hw t0 z h0 hh N hz s (Nat.le_of_lt hN) (Nat.le_of_lt hlt)
    funext b j
    rw [K_succ, ih, hz s hN hlt]
    unfold kstep
    simp only [hw]
    exact step_eq a ⟨t0 + s, hlt⟩ b j _ rfl

/-- One chunk: with the weights, the chunk's projections and the state at its start the specification's, the two
    target arrays are the specification's states. -/
theorem chunk_spec (a : Spec.Args) (x4 : Vec Ideal S512x512 .f32) (P : Vec Ideal S1x2048x512 .f32) (x8 : Vec Ideal S16x512 .f32)
    (t0 : ℕ) (ht0 : t0 + 128 ≤ 512) (hw : ∀ k j, wOf x4 k j = a.whh (ix2 j k))
    (hh : ∀ (b : Fin 16) (j : Fin 512), x8 (ix2 b j) = Spec.hid a t0 b j)
    (hz : ∀ s (hs : s < 128) (h : t0 + s < 512) (b : Fin 16) (j : Fin 512), zOf P s b j = Spec.proj a ⟨t0 + s, h⟩ b j) :
    (∀ (b : Fin 16) (s : Fin 128) (j : Fin 512), Gout x4 P x8 (ix3 b s j) = Spec.hid a (t0 + s.val + 1) b j)
      ∧ (∀ (b : Fin 16) (j : Fin 512), Ghid x4 P x8 (ix2 b j) = Spec.hid a (t0 + 128) b j) := by
  have key : ∀ s, s ≤ 128 → K (wOf x4) (zOf P) (hOf x8) s = Spec.hid a (t0 + s) := fun s hs =>
    K_eq_hid_upto a (wOf x4) hw t0 (zOf P) (hOf x8) (funext fun b => funext fun j => hh b j) 128
      (fun s hsN h => funext fun b => funext fun j => hz s hsN h b j) s hs (by omega)
  refine ⟨fun b s j => ?_, fun b j => ?_⟩
  · show K (wOf x4) (zOf P) (hOf x8) (s.val + 1) b j = _
    rw [key (s.val + 1) (by have := s.isLt; omega)]
    rfl
  · show K (wOf x4) (zOf P) (hOf x8) 128 b j = _
    rw [key 128 (Nat.le_refl _)]

section Points

variable (Ix : Type) [DecidableEq Ix] (U : Type) [URA U] (Lvl : Type) [Preorder Lvl]
variable (A : (c : Dev nD) → (w : Fin cfg1.W) → Buf (Elt Ideal) ((cfg1.win w).arr.view.loc (c.tc : Thread nD τ))) (c : Dev nD)
variable (a : Spec.Args)
variable (hZ : ∀ (n : ℕ) (hn : n < cfg1.N) (s : ℕ) (hs : s < 128) (h : 128 * n + s < 512) (b : Fin 16) (j : Fin 512),
  zOf (Zat A c ⟨n, hn⟩) s b j = Spec.proj a ⟨128 * n + s, h⟩ b j)
variable (hW : ∀ (t : Fin cfg1.N) (k j : Fin 512), wOf (iblk A c 3 t) k j = a.whh (ix2 j k))
variable (hH0 : ∀ (b : Fin 16) (j : Fin 512), Hat Ix U Lvl A c 0 Gen.t1_0.isLt (ix2 b j) = 0)
include hZ hW hH0

/-- The first point leaves the zero state. -/
theorem pt0 : ∀ (b : Fin 16) (j : Fin 512), Hat Ix U Lvl A c 0 Gen.t1_0.isLt (ix2 b j) = Spec.hid a 0 b j :=
  fun b j => hH0 b j

/-- Point 1: the output block holds the states after steps 0 + 1 … 0 + 128, the hidden state's buffer the state after 128. -/
theorem pt1 : (∀ (b : Fin 16) (s : Fin 128) (j : Fin 512), Oat Ix U Lvl A c 1 Gen.t1_1.isLt (ix3 b s j) = Spec.hid a (0 + s.val + 1) b j)
    ∧ (∀ (b : Fin 16) (j : Fin 512), Hat Ix U Lvl A c 1 Gen.t1_1.isLt (ix2 b j) = Spec.hid a 128 b j) := by
  have cs := chunk_spec a (iblk A c 3 Gen.t1_1) (Zat A c Gen.t1_0) (Hat Ix U Lvl A c 0 Gen.t1_0.isLt) 0 (by decide)
    (hW Gen.t1_1) (pt0 Ix U Lvl A c a hZ hW hH0) (fun s hs h b j => hZ 0 Gen.t1_0.isLt s hs h b j)
  refine ⟨fun b s j => ?_, fun b j => ?_⟩
  · refine (congrFun (Oat_1 Ix U Lvl A c) (ix3 b s j)).trans ?_
    refine (@runBo_out _ _ _ _ _ _ _ (grid1.coords Gen.t1_1) ⟨(hpar Gen.t1_1).trans (by decide)⟩ _ _ _ _ _ _ _ _ _ _ _ _ _ _ _ _ _ _ _ _ _ _ _ _ _ _ _ _ _ _ _).trans ?_
    exact cs.1 b s j
  · refine (congrFun (Hat_1 Ix U Lvl A c) (ix2 b j)).trans ?_
    refine (@runBo_hid _ _ _ _ _ _ _ (grid1.coords Gen.t1_1) ⟨(hpar Gen.t1_1).trans (by decide)⟩ _ _ _ _ _ _ _ _ _ _ _ _ _ _ _ _ _ _ _ _ _ _ _ _ _ _ _ _ _ _ _).trans ?_
    exact cs.2 b j

/-- Point 2: the output block holds the states after steps 128 + 1 … 128 + 128, the hidden state's buffer the state after 256. -/
theorem pt2 : (∀ (b : Fin 16) (s : Fin 128) (j : Fin 512), Oat Ix U Lvl A c 2 Gen.t1_2.isLt (ix3 b s j) = Spec.hid a (128 + s.val + 1) b j)
    ∧ (∀ (b : Fin 16) (j : Fin 512), Hat Ix U Lvl A c 2 Gen.t1_2.isLt (ix2 b j) = Spec.hid a 256 b j) := by
  have cs := chunk_spec a (iblk A c 3 Gen.t1_2) (Zat A c Gen.t1_1) (Hat Ix U Lvl A c 1 Gen.t1_1.isLt) 128 (by decide)
    (hW Gen.t1_2) (pt1 Ix U Lvl A c a hZ hW hH0).2 (fun s hs h b j => hZ 1 Gen.t1_1.isLt s hs h b j)
  refine ⟨fun b s j => ?_, fun b j => ?_⟩
  · refine (congrFun (Oat_2 Ix U Lvl A c) (ix3 b s j)).trans ?_
    refine (@runBe_out _ _ _ _ _ _ _ (grid1.coords Gen.t1_2) ⟨(hpar Gen.t1_2).trans (by decide)⟩ _ _ _ _ _ _ _ _ _ _ _ _ _ _ _ _ _ _ _ _ _ _ _ _ _ _ _ _ _ _ _).trans ?_
    exact cs.1 b s j
  · refine (congrFun (Hat_2 Ix U Lvl A c) (ix2 b j)).trans ?_
    refine (@runBe_hid _ _ _ _ _ _ _ (grid1.coords Gen.t1_2) ⟨(hpar Gen.t1_2).trans (by decide)⟩ _ _ _ _ _ _ _ _ _ _ _ _ _ _ _ _ _ _ _ _ _ _ _ _ _ _ _ _ _ _ _).trans ?_
    exact cs.2 b j

/-- Point 3: the output block holds the states after steps 256 + 1 … 256 + 128, the hidden state's buffer the state after 384. -/
theorem pt3 : (∀ (b : Fin 16) (s : Fin 128) (j : Fin 512), Oat Ix U Lvl A c 3 Gen.t1_3.isLt (ix3 b s j) = Spec.hid a (256 + s.val + 1) b j)
    ∧ (∀ (b : Fin 16) (j : Fin 512), Hat Ix U Lvl A c 3 Gen.t1_3.isLt (ix2 b j) = Spec.hid a 384 b j) := by
  have cs := chunk_spec a (iblk A c 3 Gen.t1_3) (Zat A c Gen.t1_2) (Hat Ix U Lvl A c 2 Gen.t1_2.isLt) 256 (by decide)
    (hW Gen.t1_3) (pt2 Ix U Lvl A c a hZ hW hH0).2 (fun s hs h b j => hZ 2 Gen.t1_2.isLt s hs h b j)
  refine ⟨fun b s j => ?_, fun b j => ?_⟩
  · refine (congrFun (Oat_3 Ix U Lvl A c) (ix3 b s j)).trans ?_
    refine (@runBo_out _ _ _ _ _ _ _ (grid1.coords Gen.t1_3) ⟨(hpar Gen.t1_3).trans (by decide)⟩ _ _ _ _ _ _ _ _ _ _ _ _ _ _ _ _ _ _ _ _ _ _ _ _ _ _ _ _ _ _ _).trans ?_
    exact cs.1 b s j
  · refine (congrFun (Hat_3 Ix U Lvl A c) (ix2 b j)).trans ?_
    refine (@runBo_hid _ _ _ _ _ _ _ (grid1.coords Gen.t1_3) ⟨(hpar Gen.t1_3).trans (by decide)⟩ _ _ _ _ _ _ _ _ _ _ _ _ _ _ _ _ _ _ _ _ _ _ _ _ _ _ _ _ _ _ _).trans ?_
    exact cs.2 b j

/-- Point 4: the output block holds the states after steps 384 + 1 … 384 + 128, the hidden state's buffer the state after 512. -/
theorem pt4 : (∀ (b : Fin 16) (s : Fin 128) (j : Fin 512), Oat Ix U Lvl A c 4 Gen.t1_4.isLt (ix3 b s j) = Spec.hid a (384 + s.val + 1) b j)
    ∧ (∀ (b : Fin 16) (j : Fin 512), Hat Ix U Lvl A c 4 Gen.t1_4.isLt (ix2 b j) = Spec.hid a 512 b j) := by
  have cs := chunk_spec a (iblk A c 3 Gen.t1_4) (Zat A c Gen.t1_3) (Hat Ix U Lvl A c 3 Gen.t1_3.isLt) 384 (by decide)
    (hW Gen.t1_4) (pt3 Ix U Lvl A c a hZ hW hH0).2 (fun s hs h b j => hZ 3 Gen.t1_3.isLt s hs h b j)
  refine ⟨fun b s j => ?_, fun b j => ?_⟩
  · refine (congrFun (Oat_4 Ix U Lvl A c) (ix3 b s j)).trans ?_
    refine (@runC_out _ _ _ _ _ _ _ (grid1.coords Gen.t1_4) ⟨(hpar Gen.t1_4).trans (by decide)⟩ _ _ _ _ _ _ _ _ _ _ _ _ _ _ _ _ _ _ _ _ _ _ _ _ _ _ _ _ _ _ _).trans ?_
    exact cs.1 b s j
  · refine (congrFun (Hat_4 Ix U Lvl A c) (ix2 b j)).trans ?_
    refine (@runC_hid _ _ _ _ _ _ _ (grid1.coords Gen.t1_4) ⟨(hpar Gen.t1_4).trans (by decide)⟩ _ _ _ _ _ _ _ _ _ _ _ _ _ _ _ _ _ _ _ _ _ _ _ _ _ _ _ _ _ _ _).trans ?_
    exact cs.2 b j

/-- THE HIDDEN STATE after the body at point n is the specification's state after 128·n steps. -/
theorem Hat_eq : ∀ (n : ℕ) (hn : n < cfg1.N) (b : Fin 16) (j : Fin 512),
    Hat Ix U Lvl A c n hn (ix2 b j) = Spec.hid a (128 * n) b j
  | 0, _, b, j => pt0 Ix U Lvl A c a hZ hW hH0 b j
  | 1, _, b, j => (pt1 Ix U Lvl A c a hZ hW hH0).2 b j
  | 2, _, b, j => (pt2 Ix U Lvl A c a hZ hW hH0).2 b j
  | 3, _, b, j => (pt3 Ix U Lvl A c a hZ hW hH0).2 b j
  | 4, _, b, j => (pt4 Ix U Lvl A c a hZ hW hH0).2 b j
  | n + 5, hn, _, _ => absurd hn (by show ¬ n + 5 < 5; omega)

/-- THE OUTPUT BLOCK the body at point n + 1 leaves: row s is the specification's state after 128·n + s + 1 steps. -/
theorem Oat_eq : ∀ (n : ℕ) (hn : n + 1 < cfg1.N) (b : Fin 16) (s : Fin 128) (j : Fin 512),
    Oat Ix U Lvl A c (n + 1) hn (ix3 b s j) = Spec.hid a (128 * n + s.val + 1) b j
  | 0, _, b, s, j => (pt1 Ix U Lvl A c a hZ hW hH0).1 b s j
  | 1, _, b, s, j => (pt2 Ix U Lvl A c a hZ hW hH0).1 b s j
  | 2, _, b, s, j => (pt3 Ix U Lvl A c a hZ hW hH0).1 b s j
  | 3, _, b, s, j => (pt4 Ix U Lvl A c a hZ hW hH0).1 b s j
  | n + 4, hn, _, _, _ => absurd hn (by show ¬ n + 4 + 1 < 5; omega)

end Points

end Cert.Proof.IdealValue

end
-- ==== Proof.IdealValueBlocks.lean ====
import proofs.«213871_g15814069584205_fold_wed_c4_299_27_alg».proof.Proof.IdealRegionBody
import Idealize.ShloMosaic.Lib.ValueIdx
import Idealize.ShloMosaic.PureOps.Ideal.Laws
import Idealize.ShloMosaic.Lib.Pipeline.FrameBody
import Idealize.ShloMosaic.Lib.Ring
import Idealize.ShloMosaic.Lib.Tactic

set_option maxRecDepth 16384

noncomputable section

namespace Cert.Proof.IdealRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable {Ix : Type} [DecidableEq Ix] {U : Type} [URA U] {Lvl : Type} [Preorder Lvl]

local notation "𝕄" => MT nD τ sig Ix (Elt F) ℕ U Lvl

/-! The windows' blocks read at an index — the two streamed inputs' block at a point is the rows of the point's chunk
    (the last point re-reads the fourth chunk), the weights' and the biases' blocks are their arrays — and the hidden
    state after the first point, which is zero. -/

variable (A : (c : Dev nD) → (w : Fin cfg1.W) → Buf (Elt F) ((cfg1.win w).arr.view.loc (c.tc : Thread nD τ)))

/-! ## The block index of each input window over the grid -/

theorem index1_0 : ∀ t : Fin cfg1.N, win1_0.index t 0 = min t.val 3 ∧ win1_0.index t 1 = 0 :=
  (by decide +kernel : ∀ t : Fin grid1.N, win1_0.index t 0 = min t.val 3 ∧ win1_0.index t 1 = 0)
theorem index1_1 : ∀ t : Fin cfg1.N, win1_1.index t 0 = min t.val 3 ∧ win1_1.index t 1 = 0 :=
  (by decide +kernel : ∀ t : Fin grid1.N, win1_1.index t 0 = min t.val 3 ∧ win1_1.index t 1 = 0)
theorem index1_2 : ∀ t : Fin cfg1.N, win1_2.index t 0 = 0 ∧ win1_2.index t 1 = 0 :=
  (by decide +kernel : ∀ t : Fin grid1.N, win1_2.index t 0 = 0 ∧ win1_2.index t 1 = 0)
theorem index1_3 : ∀ t : Fin cfg1.N, win1_3.index t 0 = 0 ∧ win1_3.index t 1 = 0 :=
  (by decide +kernel : ∀ t : Fin grid1.N, win1_3.index t 0 = 0 ∧ win1_3.index t 1 = 0)
theorem index1_4 : ∀ t : Fin cfg1.N, win1_4.index t 0 = 0 ∧ win1_4.index t 1 = 0 :=
  (by decide +kernel : ∀ t : Fin grid1.N, win1_4.index t 0 = 0 ∧ win1_4.index t 1 = 0)
theorem index1_5 : ∀ t : Fin cfg1.N, win1_5.index t 0 = 0 ∧ win1_5.index t 1 = 0 :=
  (by decide +kernel : ∀ t : Fin grid1.N, win1_5.index t 0 = 0 ∧ win1_5.index t 1 = 0)

/-! ## The blocks at an index -/

/-- The actions block at point `t`: rows `2048 · min t 3 …` of the time-major array. -/
theorem iblk0_apply (c : Dev nD) (t : Fin cfg1.N) (r : Fin 2048) (k : Fin 64) :
    iblk A c 0 t (ix2 r k) = A c 0 (ix2 ⟨2048 * min t.val 3 + r.val, by have := r.isLt; omega⟩ k) := by
  have hi := index1_0 t
  unfold iblk
  rw [View.read_apply]
  show A c 0 _ = A c 0 _
  congr 1
  funext a
  apply Fin.ext
  match a with
  | ⟨0, _⟩ => show win1_0.index t 0 * 2048 + 1 * r.val = 2048 * min t.val 3 + r.val; rw [hi.1]; omega
  | ⟨1, _⟩ => show win1_0.index t 1 * 64 + 1 * k.val = k.val; rw [hi.2]; omega

/-- The embeddings block at point `t`: the same rows of the gathered array. -/
theorem iblk1_apply (c : Dev nD) (t : Fin cfg1.N) (r : Fin 2048) (k : Fin 128) :
    iblk A c 1 t (ix2 r k) = A c 1 (ix2 ⟨2048 * min t.val 3 + r.val, by have := r.isLt; omega⟩ k) := by
  have hi := index1_1 t
  unfold iblk
  rw [View.read_apply]
  show A c 1 _ = A c 1 _
  congr 1
  funext a
  apply Fin.ext
  match a with
  | ⟨0, _⟩ => show win1_1.index t 0 * 2048 + 1 * r.val = 2048 * min t.val 3 + r.val; rw [hi.1]; omega
  | ⟨1, _⟩ => show win1_1.index t 1 * 128 + 1 * k.val = k.val; rw [hi.2]; omega

/-- The input weights, the recurrent weights and the two biases: each block is its whole array. -/
theorem iblk2_apply (c : Dev nD) (t : Fin cfg1.N) (j : Fin 512) (k : Fin 192) :
    iblk A c 2 t (ix2 j k) = A c 2 (ix2 j k) := by
  have hi := index1_2 t
  unfold iblk
  rw [View.read_apply]
  show A c 2 _ = A c 2 _
  congr 1
  funext a
  apply Fin.ext
  match a with
  | ⟨0, _⟩ => show win1_2.index t 0 * 512 + 1 * j.val = j.val; rw [hi.1]; omega
  | ⟨1, _⟩ => show win1_2.index t 1 * 192 + 1 * k.val = k.val; rw [hi.2]; omega

theorem iblk3_apply (c : Dev nD) (t : Fin cfg1.N) (k : Fin 512) (j : Fin 512) :
    iblk A c 3 t (ix2 k j) = A c 3 (ix2 k j) := by
  have hi := index1_3 t
  unfold iblk
  rw [View.read_apply]
  show A c 3 _ = A c 3 _
  congr 1
  funext a
  apply Fin.ext
  match a with
  | ⟨0, _⟩ => show win1_3.index t 0 * 512 + 1 * k.val = k.val; rw [hi.1]; omega
  | ⟨1, _⟩ => show win1_3.index t 1 * 512 + 1 * j.val = j.val; rw [hi.2]; omega

theorem iblk4_apply (c : Dev nD) (t : Fin cfg1.N) (j : Fin 512) :
    iblk A c 4 t (ix2 (0 : Fin 1) j) = A c 4 (ix2 (0 : Fin 1) j) := by
  have hi := index1_4 t
  unfold iblk
  rw [View.read_apply]
  show A c 4 _ = A c 4 _
  congr 1
  funext a
  apply Fin.ext
  match a with
  | ⟨0, _⟩ => show win1_4.index t 0 * 1 + 1 * (0 : Fin 1).val = (0 : Fin 1).val; rw [hi.1]; rfl
  | ⟨1, _⟩ => show win1_4.index t 1 * 512 + 1 * j.val = j.val; rw [hi.2]; omega

theorem iblk5_apply (c : Dev nD) (t : Fin cfg1.N) (j : Fin 512) :
    iblk A c 5 t (ix2 (0 : Fin 1) j) = A c 5 (ix2 (0 : Fin 1) j) := by
  have hi := index1_5 t
  unfold iblk
  rw [View.read_apply]
  show A c 5 _ = A c 5 _
  congr 1
  funext a
  apply Fin.ext
  match a with
  | ⟨0, _⟩ => show win1_5.index t 0 * 1 + 1 * (0 : Fin 1).val = (0 : Fin 1).val; rw [hi.1]; rfl
  | ⟨1, _⟩ => show win1_5.index t 1 * 512 + 1 * j.val = j.val; rw [hi.2]; omega

/-! ## The hidden state after the first point -/

section
variable (Ix U Lvl)

/-- The first point's one store into the hidden state: the zero array, over the whole buffer. -/
theorem runA_h (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : cond1 i) (hc2 : k1_cond2 i = 1#1) (hc3 : ¬ k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) :
    (runA (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6).1.1 = [⟨Rect.unit (s := S16x512) ![0, 0] S16x512.size inb_S16x512_S16x512_0_0, k1_pay1⟩] := rfl

/-- The hidden state after the first point is zero, at the extended reals: the one covering store's payload is the
    zero splat. -/
theorem Hat0_apply (A : (c : Dev nD) → (w : Fin cfg1.W) → Buf (Elt Ideal) ((cfg1.win w).arr.view.loc (c.tc : Thread nD τ)))
    (c : Dev nD) (b : Fin 16) (j : Fin 512) :
    Hat (F := Ideal) Ix U Lvl A c 0 t1_0.isLt (ix2 b j) = 0 := by
  rw [Hat_0, runA_h]
  have he : (Rect.unit (s := S16x512) ![0, 0] S16x512.size inb_S16x512_S16x512_0_0).emb (ix2 b j) = ix2 b j := by
    funext a; apply Fin.ext
    match a with
    | ⟨0, _⟩ => show 0 + 1 * b.val = b.val; omega
    | ⟨1, _⟩ => show 0 + 1 * j.val = j.val; omega
  have h := View.read_writes_cons_emb (Val := Elt Ideal) mh.view mh.view.junk
    (Rect.unit (s := S16x512) ![0, 0] S16x512.size inb_S16x512_S16x512_0_0) (k1_pay1 (F := Ideal)) [] (ix2 b j)
  rw [he] at h
  exact h.trans Ideal.ofBits_zero_f32

end

end Cert.Proof.IdealRegion

end
-- ==== Proof.IdealValueEntry.lean ====
/-
  The projected inputs are the specification's.
  Point n of the grid fetches block n of the time-major actions and of the gathered embeddings (2048 rows each: the 128
  time steps 128·n … 128·n + 127 of all 16 batch entries) and stores their projection: row 16·s + b of it is
  x_t[b]·W_ihᵀ + b_ih + b_hh at t = 128·n + s, the 192-long sum as its 64 action columns and its 128 embedding columns.
-/
import proofs.«213871_g15814069584205_fold_wed_c4_299_27_alg».proof.Proof.IdealFinal
import proofs.«213871_g15814069584205_fold_wed_c4_299_27_alg».proof.Proof.IdealRegionBody
import proofs.«213871_g15814069584205_fold_wed_c4_299_27_alg».proof.Proof.IdealValueRun
import proofs.«213871_g15814069584205_fold_wed_c4_299_27_alg».proof.Proof.IdealValueBlocks

noncomputable section

namespace Cert.Proof.IdealValue

open Cert.KernelIdeal Cert.KernelIdeal.Gen Cert.Proof.IdealTile Cert.Proof.IdealLaunch Cert.Proof.IdealMain Cert.Proof.IdealRegionSeg
open Cert.Proof.IdealFinal Cert.Proof.IdealGather Cert.Proof.IdealArrays Cert.Proof.IdealRegion

open Idealize.ShloMosaic Idealize.ShloMosaic.ValueIdx Idealize.ShloMosaic.TcCoe
open Idealize.ShloMosaic.SparseCore.Cfg (HIx)
open Idealize.SL Idealize.SL.Sem

/-! ## The body's loads of the staged blocks -/

section Leaf

/-- A staged block loaded whole is the block. -/
theorem ld_2048x64 {mm : Memref sig .tc .vmem S2048x64 .f32} (hm : mm.IsWhole) (x : Vec Ideal S2048x64 .f32)
    (inb : ∀ a, (![0, 0] : Fin 2 → ℕ) a + S2048x64.size a ≤ S2048x64.size a) (r : Fin 2048) (k : Fin 64) :
    View.readAt (Elt Ideal) mm.view (Rect.unit (s := S2048x64) ![0, 0] S2048x64.size inb).toLoadRect (hm.unread x) (ix2 r k) = x (ix2 r k) := by
  rw [hm.readAt_unread]
  refine congrArg x (funext fun a => Fin.ext ?_)
  match a with
  | ⟨0, _⟩ => show 0 + 1 * r.val = r.val; omega
  | ⟨1, _⟩ => show 0 + 1 * k.val = k.val; omega
theorem ld_2048x128 {mm : Memref sig .tc .vmem S2048x128 .f32} (hm : mm.IsWhole) (x : Vec Ideal S2048x128 .f32)
    (inb : ∀ a, (![0, 0] : Fin 2 → ℕ) a + S2048x128.size a ≤ S2048x128.size a) (r : Fin 2048) (k : Fin 128) :
    View.readAt (Elt Ideal) mm.view (Rect.unit (s := S2048x128) ![0, 0] S2048x128.size inb).toLoadRect (hm.unread x) (ix2 r k) = x (ix2 r k) := by
  rw [hm.readAt_unread]
  refine congrArg x (funext fun a => Fin.ext ?_)
  match a with
  | ⟨0, _⟩ => show 0 + 1 * r.val = r.val; omega
  | ⟨1, _⟩ => show 0 + 1 * k.val = k.val; omega
theorem ld_1x512 {mm : Memref sig .tc .vmem S1x512 .f32} (hm : mm.IsWhole) (x : Vec Ideal S1x512 .f32)
    (inb : ∀ a, (![0, 0] : Fin 2 → ℕ) a + S1x512.size a ≤ S1x512.size a) (j : Fin 512) :
    View.readAt (Elt Ideal) mm.view (Rect.unit (s := S1x512) ![0, 0] S1x512.size inb).toLoadRect (hm.unread x) (ix2 (0 : Fin 1) j) = x (ix2 0 j) := by
  rw [hm.readAt_unread]
  refine congrArg x (funext fun a => Fin.ext ?_)
  match a with
  | ⟨0, _⟩ => rfl
  | ⟨1, _⟩ => show 0 + 1 * j.val = j.val; omega
/-- The first 64 columns of the staged W_ih, -/
theorem ld_wih0 {mm : Memref sig .tc .vmem S512x192 .f32} (hm : mm.IsWhole) (x : Vec Ideal S512x192 .f32)
    (inb : ∀ a, (![0, 0] : Fin 2 → ℕ) a + S512x64.size a ≤ S512x192.size a) (j : Fin 512) (k : Fin 64) :
    View.readAt (Elt Ideal) mm.view (Rect.unit (s := S512x192) ![0, 0] S512x64.size inb).toLoadRect (hm.unread x) (ix2 j k)
      = x (ix2 j (Fin.castLE (by decide) k)) := by
  rw [hm.readAt_unread]
  refine congrArg x (funext fun a => Fin.ext ?_)
  match a with
  | ⟨0, _⟩ => show 0 + 1 * j.val = j.val; omega
  | ⟨1, _⟩ => show 0 + 1 * k.val = k.val; omega
/-- and its other 128. -/
theorem ld_wih1 {mm : Memref sig .tc .vmem S512x192 .f32} (hm : mm.IsWhole) (x : Vec Ideal S512x192 .f32)
    (inb : ∀ a, (![0, 64] : Fin 2 → ℕ) a + S512x128.size a ≤ S512x192.size a) (j : Fin 512) (k : Fin 128) :
    View.readAt (Elt Ideal) mm.view (Rect.unit (s := S512x192) ![0, 64] S512x128.size inb).toLoadRect (hm.unread x) (ix2 j k)
      = x (ix2 j (Fin.natAdd 64 k)) := by
  rw [hm.readAt_unread]
  refine congrArg x (funext fun a => Fin.ext ?_)
  match a with
  | ⟨0, _⟩ => show 0 + 1 * j.val = j.val; omega
  | ⟨1, _⟩ => show 64 + 1 * k.val = 64 + k.val; omega

end Leaf

variable (m : (ℓ : Loc nD τ sig) → Buf (Elt Ideal) ℓ)
variable (h : ∀ (d : Dev nD) (x : S16x512.Idx), (m ((SparseCore.T d : Thread nD τ).loc main_arg1) x).toNat < 1024)
variable (d : Dev nD) (f : Buf (Elt Ideal) (outLoc d)) (hf : AllOK m (idxOK_of_range m h) d f)

/-! ## The windows' arrays on the device, in the specification's terms -/

/-- Row 2048·n + 16·s + b of the time-major actions is actions[b, 128·n + s, ·]. -/
theorem aw0 (n : ℕ) (hn : n < 4) (s : ℕ) (hs : s < 128) (b : Fin 16) (k : Fin 64) (p : 2048 * min n 3 + (16 * s + b.val) < 8192) :
    Aw m d f d 0 (ix2 (⟨2048 * min n 3 + (16 * s + b.val), p⟩ : Fin 8192) k) = (argsK m d).act (ix3 b (⟨128 * n + s, by omega⟩ : Fin 512) k) := by
  have hb := b.isLt
  refine Eq.trans (congrArg (fun r : Fin 8192 => Vmid m d f (Proc.devRef .tc main_v1) (ix2 r k)) (Fin.ext ?_)) (v1_apply m d f ⟨128 * n + s, by omega⟩ b k)
  show 2048 * min n 3 + (16 * s + b.val) = 16 * (128 * n + s) + b.val
  rw [Nat.min_eq_left (by omega : n ≤ 3)]; omega

include h hf in
/-- The same row of the gathered embeddings is the table row state_indices[b, 128·n + s] names. -/
theorem aw1 (n : ℕ) (hn : n < 4) (s : ℕ) (hs : s < 128) (b : Fin 16) (k : Fin 128) (p : 2048 * min n 3 + (16 * s + b.val) < 8192) :
    Aw m d f d 1 (ix2 (⟨2048 * min n 3 + (16 * s + b.val), p⟩ : Fin 8192) k)
      = (argsK m d).emb (ix2 (Cert.Proof.Spec.row (argsK m d) b (⟨128 * n + s, by omega⟩ : Fin 512)) k) := by
  have hb := b.isLt
  have e4 : Aw m d f d 1 = f := Vmid_v4 m d f
  rw [e4]
  have hg := gathered_apply m h d f hf ⟨128 * n + s, by omega⟩ b k
  refine Eq.trans (congrArg (fun r : Fin 8192 => f (ix2 r k)) (Fin.ext ?_)) (hg.trans ?_)
  · show 2048 * min n 3 + (16 * s + b.val) = 16 * (128 * n + s) + b.val
    rw [Nat.min_eq_left (by omega : n ≤ 3)]; omega
  · refine congrArg (fun r : Fin 1024 => m (tblLoc d) (ix2 r k)) (Fin.ext ?_)
    exact (Nat.mod_eq_of_lt (h d _)).symm

theorem aw2 : Aw m d f d 2 = (argsK m d).wih := Vmid_arg3 m d f
theorem aw3 (k j : Fin 512) : Aw m d f d 3 (ix2 k j) = (argsK m d).whh (ix2 j k) := v5_apply m d f k j
theorem aw4 (j : Fin 512) : Aw m d f d 4 (ix2 (0 : Fin 1) j) = (argsK m d).bih (ix1 j) := v6_apply m d f j
theorem aw5 (j : Fin 512) : Aw m d f d 5 (ix2 (0 : Fin 1) j) = (argsK m d).bhh (ix1 j) := v7_apply m d f j

/-! ## The three facts the recurrence's induction starts from -/

include h hf in
/-- (Z) The projection stored at point n, at row 16·s + b, is the specification's input share at time 128·n + s. -/
theorem Z_fact (n : ℕ) (hn : n < 4) (s : ℕ) (hs : s < 128) (b : Fin 16) (j : Fin 512) :
    zOf (Zat (Aw m d f) d ⟨n, by have e : cfg1.N = 5 := N_1; omega⟩) s b j = Cert.Proof.Spec.proj (argsK m d) ⟨128 * n + s, by omega⟩ b j := by
  have hb := b.isLt
  rw [← zOf_eq _ s hs b j (by omega)]
  unfold Zat Cert.Proof.IdealRegion.zOf
  rw [proj_apply]
  unfold Cert.Proof.Spec.proj
  refine congrArg₂ (· + ·) (congrArg₂ (· + ·) (congrArg₂ (· + ·) (Finset.sum_congr rfl fun k _ => ?_) (Finset.sum_congr rfl fun k _ => ?_)) ?_) ?_
  · rw [ld_2048x64, ld_wih0, iblk0_apply, iblk2_apply, aw2]
    exact congrArg (· * _) (aw0 m d f n hn s hs b k _)
  · rw [ld_2048x128, ld_wih1, iblk1_apply, iblk2_apply, aw2]
    exact congrArg (· * _) (aw1 m h d f hf n hn s hs b k _)
  · rw [ld_1x512, iblk4_apply]; exact aw4 m d f j
  · rw [ld_1x512, iblk5_apply]; exact aw5 m d f j

/-- (W) The staged recurrent weights, at every point, are W_hh transposed. -/
theorem W_fact (t : Fin cfg1.N) (k j : Fin 512) : wOf (iblk (Aw m d f) d 3 t) k j = (argsK m d).whh (ix2 j k) := by
  unfold wOf; rw [iblk3_apply]; exact aw3 m d f k j

/-- (H0) The hidden state after the first point is zero. -/
theorem H0_fact (b : Fin 16) (j : Fin 512) : Hat (F := Ideal) (HIx 1) UU ℕ (Aw m d f) d 0 t1_0.isLt (ix2 b j) = 0 :=
  Hat0_apply (HIx 1) UU ℕ (Aw m d f) d b j

end Cert.Proof.IdealValue

end
-- ==== Proof.BitsTile.lean ====
/-
  The SparseCore call of the kernel as printed (read at any float instance; used at the word-level one): a row gather. The table `emb` (1024 rows of 128 words) stays whole in
  HBM; the flattened, time-major index list (8192 words: entry 16·t + b is `state_indices[b, t]`) and the result
  (8192 rows of 128 words) are cut into 32 blocks of 256 consecutive rows, and the vector subcore `s` of
  SparseCore `c` owns block 2·s + c. Its task: copy its 256 indices into its index scratch, gather the 256 table
  rows they name into its row scratch by one indexed copy, copy the row scratch onto its block of the result. Each
  of the three copies is issued and waited for on a semaphore of its own before the next begins, so no copy's
  source or destination is touched while it is pending. The gather needs every index to name a row of the table:
  that is the precondition's range 0 ≤ state_indices ≤ 1023 read through the transpose and the flattening.
  Afterwards the block holds, row by row, the table row its index names.
-/
import proofs.«213871_g15814069584205_fold_wed_c4_299_27_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«213871_g15814069584205_fold_wed_c4_299_27_alg».proof.Proof.Gen.Kernel
import proofs.«213871_g15814069584205_fold_wed_c4_299_27_alg».proof.Proof.Gen.Kernel.Skeleton
import proofs.«213871_g15814069584205_fold_wed_c4_299_27_alg».proof.Proof.Gen.Kernel.Launch

noncomputable section

namespace Cert.Proof.BitsTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the TensorCore pipeline's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

variable (m : (ℓ : Loc nD τ sig) → Buf (Elt F) ℓ)

/-! ## The arrays and one tile's blocks -/

-- the kernel's five operands: the table, the index list, the result array, the index scratch, the row scratch
local notation "tblW" => (Memref.whole Cert.Kernel.main_arg2_scv : Memref Cert.Kernel.sig Kind.scVector Space.hbm Cert.Kernel.S1024x128 EltTy.f32)
local notation "idxW" => (Memref.whole Cert.Kernel.main_v3_scv : Memref Cert.Kernel.sig Kind.scVector Space.hbm Cert.Kernel.S8192 EltTy.i32)
local notation "outW" => (Memref.whole Cert.Kernel.main_v4_scv : Memref Cert.Kernel.sig Kind.scVector Space.hbm Cert.Kernel.S8192x128 EltTy.f32)
local notation "sIdx" => (Memref.whole Cert.Kernel.cc0_scratch0 : Memref Cert.Kernel.sig Kind.scVector Space.vmem Cert.Kernel.S256 EltTy.i32)
local notation "sRows" => (Memref.whole Cert.Kernel.cc0_scratch1 : Memref Cert.Kernel.sig Kind.scVector Space.vmem Cert.Kernel.S256x128 EltTy.f32)

abbrev tblLoc (d : Dev nD) : Loc nD τ sig := (SparseCore.T d).loc main_arg2
abbrev idxLoc (d : Dev nD) : Loc nD τ sig := (SparseCore.T d).loc main_v3
abbrev outLoc (d : Dev nD) : Loc nD τ sig := (SparseCore.T d).loc main_v4

/-- The index block of the tile at grid coordinates `L`: 256 consecutive entries from 512·s + 256·c. -/
abbrev idxBlk (L : grid0.Coords) : Memref sig .scVector .hbm S256 .i32 :=
  (idxW).slice (Rect.unit (s := S8192) (k0_off1 L) S256.size (k0_off1_inb L)) (fun _ => rfl)
/-- Its block of the result: the same 256 rows, all 128 columns. -/
abbrev outBlk (L : grid0.Coords) : Memref sig .scVector .hbm S256x128 .f32 :=
  (outW).slice (Rect.unit (s := S8192x128) (k0_off2 L) S256x128.size (k0_off2_inb L)) (fun _ => rfl)

abbrev cV (L : grid0.Coords) : Fin τ.nSC := (L 0).castLE hcore0
abbrev jV (L : grid0.Coords) : Fin τ.nSub := (L 1).castLE hsub0

variable [FloatOps F]

section Body

variable (d : Dev nD) (L : grid0.Coords)

/-- Every entry of every tile's index block names a row of the table (the table has 1024 rows). -/
def IdxOK (fi : Buf (Elt F) (idxLoc d)) : Prop :=
  ∀ (L : grid0.Coords) (x : S256.Idx), ((idxBlk L).view.read (Elt F) fi x).toNat < 1024

/-- What the tile at `L` leaves in its block of the result, read through the block: at row `r`, column `j` of the
    block, the table's row named by entry `r` of the tile's index block, at column `j`. -/
def tileOut (ft : Buf (Elt F) (tblLoc d)) (fi : Buf (Elt F) (idxLoc d)) (h : IdxOK d fi) : S256x128.Idx → Elt F .f32 :=
  SparseCore.gatherPayload gathers_S1024x128_S256x128
    (((tblW).slice (Rect.unit (s := S1024x128) ![0, 0] S1024x128.size inb_S1024x128_S1024x128_0_0) (fun _ => rfl)).view.read (Elt F) ft)
    (SparseCore.rows ((idxBlk L).view.read (Elt F) fi) rfl (h L))

/-- Contents of the result array that are right on the block of the tile at `L`. -/
def BlockOK (ft : Buf (Elt F) (tblLoc d)) (fi : Buf (Elt F) (idxLoc d)) (h : IdxOK d fi) (f : Buf (Elt F) (outLoc d)) : Prop :=
  (outBlk L).view.read (Elt F) f = tileOut d L ft fi h

omit [FloatOps F] in
/-- The rows a list names depend on the list only. -/
theorem rows_congr {o z : ℕ} {si : Shape} {i₁ i₂ : si.Idx → Elt F .i32} (e : i₁ = i₂) (hn : si.numel = o)
    (h₁ : ∀ x, (i₁ x).toNat < z) (h₂ : ∀ x, (i₂ x).toNat < z) :
    SparseCore.rows (F := F) i₁ hn h₁ = SparseCore.rows i₂ hn h₂ := by
  subst e; rfl

omit [FloatOps F] in
/-- A view read back after ONE write through its whole rectangle is the written payload, whatever it held. -/
theorem read_writes_whole {κ : Kind} {sp : Space} {s : Shape} {e : EltTy} (v : View sig κ sp s e) (f : v.ty.Contents (Elt F))
    (w : (Rect.whole s).shape.Idx → Elt F e) : v.read (Elt F) (v.writes (Elt F) f [⟨Rect.whole s, w⟩]) = w := by
  funext y
  have h := View.read_writes_cons_emb v f (Rect.whole s) w [] y
  rwa [Rect.emb_whole_apply] at h

/-- One tile's task: from shares of the table and of its index block, its block of the result, its scratch and its
    semaphores at zero, the three copies run and every wait returns; the block ends at the gathered rows. -/
theorem tile_body (q qi : PosShare TreeShare) (fi : Buf (Elt F) (idxLoc d)) (ft : Buf (Elt F) (tblLoc d)) (fo : Buf (Elt F) (outLoc d))
    (fs0 : Buf (Elt F) ((V d (cV L) (jV L)).loc cc0_scratch0)) (fs1 : Buf (Elt F) ((V d (cV L) (jV L)).loc cc0_scratch1))
    (O : CellTallies nD τ sig (HIx 1)) (W : Waits sig (HIx 1)) (hO : ∀ g, O g none = 0) (hOK : IdxOK d fi) :
    iprop((levAts (K (F := F)).L (K (F := F)).lev : sProp 𝕄)
        ∗ ((tblW).view.loc (V d (cV L) (jV L)) ↦{q} ft)
        ∗ ((idxBlk L).view.loc (V d (cV L) (jV L)) ↦[(idxBlk L).view.set]{qi} fi)
        ∗ ((outBlk L).view.loc (V d (cV L) (jV L)) ↦[(outBlk L).view.set]{fullShare} fo)
        ∗ ((sIdx).view.loc (V d (cV L) (jV L)) ↦{fullShare} fs0)
        ∗ ((sRows).view.loc (V d (cV L) (jV L)) ↦{fullShare} fs1)
        ∗ semVal (V d (cV L) (jV L), SemLoc.dma cc0_scratch2.sem) 0
        ∗ semVal (V d (cV L) (jV L), SemLoc.dma cc0_scoped0.sem) 0
        ∗ semVal (V d (cV L) (jV L), SemLoc.dma cc0_scoped1.sem) 0
        ∗ owes (V d (cV L) (jV L)) O W)
      ⊢ wp frame (wpE (defs₀ (F := F)) 𝒱₀ (V d (cV L) (jV L)) none) Set.univ
          (cc0__sc_gather L tblW (Memref.isWhole_whole _) idxW (Memref.isWhole_whole _) outW (Memref.isWhole_whole _)
            sIdx (Memref.isWhole_whole _) sRows (Memref.isWhole_whole _) cc0_scratch2 cc0_scoped0 cc0_scoped1)
          fun _ => iprop(((tblW).view.loc (V d (cV L) (jV L)) ↦{q} ft)
            ∗ ((idxBlk L).view.loc (V d (cV L) (jV L)) ↦[(idxBlk L).view.set]{qi} fi)
            ∗ (∃ f, ⌜BlockOK d L ft fi hOK f⌝ ∗ (outBlk L).view.loc (V d (cV L) (jV L)) ↦[(outBlk L).view.set]{fullShare} f)
            ∗ (∃ g, (sIdx).view.loc (V d (cV L) (jV L)) ↦{fullShare} g)
            ∗ (∃ g, (sRows).view.loc (V d (cV L) (jV L)) ↦{fullShare} g)
            ∗ semVal (V d (cV L) (jV L), SemLoc.dma cc0_scratch2.sem) 0
            ∗ semVal (V d (cV L) (jV L), SemLoc.dma cc0_scoped0.sem) 0
            ∗ semVal (V d (cV L) (jV L), SemLoc.dma cc0_scoped1.sem) 0
            ∗ ∃ W', ⌜∀ p ∈ W', p ∈ W ∨ p.2 = none⌝ ∗ owes (V d (cV L) (jV L)) O W') := by
  -- the index scratch after the first copy holds the tile's index block, whatever it held before
  have hin : ∀ (g : Buf (Elt F) ((V d (cV L) (jV L)).loc cc0_scratch0)) (x : S256.Idx),
      ((sIdx).view.read (Elt F) (View.write (Elt F) (sIdx).view g (ReadAs.same.apply ((idxBlk L).view.read (Elt F) fi)) Finset.univ) x).toNat < 1024 := by
    intro g x; rw [View.read_write_univ]; exact hOK L x
  rw [cc0__sc_gather_eq_skeleton]; unfold cc0__sc_gather_skel
  iintro ⟨#Hlv, Ht, Hi, Ho, Hs0, Hs1, Hc2, Hc0, Hc1, HO⟩
  ihave Hmw := ((K (F := F)).mayWaits_none (thr := V d (cV L) (jV L)) hO) $$ Hlv
  sl_exec
  sl_step
  isplitl [Ht]; · iexact Ht
  isplitl [Hi]; · iexact Hi
  isplitl [Ho]
  · iexists _; isplitr
    rotate_left
    · iexact Ho
    · ipureintro
      -- the block reads back the copy's payload: the row scratch, which holds the gather's payload
      unfold BlockOK tileOut
      funext y
      refine (congrFun (read_writes_whole (outBlk L).view fo _) y).trans ?_
      -- what was copied out is the row scratch, read whole; it holds the gather's payload
      unfold tile_body.sl.dma0_1
      refine (congrFun (read_writes_whole (sRows).view fs1 _) y).trans ?_
      -- the list the gather served is the index scratch after the first copy: the tile's index block
      unfold tile_body.sl.gather1 tile_body.sl.dma0
      exact congrFun (congrArg _ (rows_congr (View.read_write_univ _ _) _ _ _)) y
  isplitl [Hs0]; · iexists _; iexact Hs0
  isplitl [Hs1]; · iexists _; iexact Hs1
  isplitl [Hc2]; · iexact Hc2
  isplitl [Hc0]; · iexact Hc0
  isplitl [Hc1]; · iexact Hc1
  iexists _; isplitr
  rotate_left
  · iexact HO
  · ipureintro; intro p hp
    simp only [Finset.mem_insert] at hp
    rcases hp with hp | hp | hp | hp
    · exact .inr (hp ▸ rfl)
    · exact .inr (hp ▸ rfl)
    · exact .inr (hp ▸ rfl)
    · exact .inl hp

end Body

end Cert.Proof.BitsTile

end
-- ==== Proof.BitsLaunch.lean ====
/-
  The SparseCore call's operands, cut for its 32 tasks, and the launch of the whole program.
  The flattened index list (8192 words) and the gathered array (8192 rows of 128 words) are each the disjoint union of 32
  blocks of 256 consecutive rows: the block of vector subcore `s` of SparseCore `c` starts at row 512·s + 256·c. The
  table is read by every task and is handed out in read shares, one per SparseCore and within it one per task.
-/
import proofs.«213871_g15814069584205_fold_wed_c4_299_27_alg».proof.Proof.BitsTile

noncomputable section

namespace Cert.Proof.BitsLaunch

open Cert.Kernel Cert.Kernel.Gen Cert.Proof.BitsTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The 32 blocks -/

/-- The grid coordinates of vector subcore `s` of SparseCore `c`. -/
def coordsV (c : Fin 2) (s : Fin 16) : grid0.Coords :=
  fun | 0 => c | 1 => s | ⟨_ + 2, h⟩ => absurd h (Nat.not_lt.2 (Nat.le_add_left _ _))

/-- The rows of the index list in the block of the task at `L`; -/
abbrev iSet (L : grid0.Coords) : Finset S8192.Idx := (idxBlk L).view.set
/-- the elements of the gathered array in its block. -/
abbrev oSet (L : grid0.Coords) : Finset S8192x128.Idx := (outBlk L).view.set

theorem iSet_eq (L : grid0.Coords) : iSet L = (Rect.unit (s := S8192) (k0_off1 L) S256.size (k0_off1_inb L)).set := by
  show ((View.whole (main_v3_scv : Ref sig .scVector)).slice _).set = _
  rw [View.set_slice]; exact Finset.map_refl
theorem oSet_eq (L : grid0.Coords) : oSet L = (Rect.unit (s := S8192x128) (k0_off2 L) S256x128.size (k0_off2_inb L)).set := by
  show ((View.whole (main_v4_scv : Ref sig .scVector)).slice _).set = _
  rw [View.set_slice]; exact Finset.map_refl

/-- Row `y` of the index list lies in the block of (c, s) exactly when 512·s + 256·c ≤ y < 512·s + 256·c + 256. -/
theorem mem_iSet (c : Fin 2) (s : Fin 16) (y : S8192.Idx) :
    y ∈ iSet (coordsV c s) ↔ 512 * s.val + 256 * c.val ≤ (y 0).val ∧ (y 0).val < 512 * s.val + 256 * c.val + 256 := by
  rw [iSet_eq, Rect.mem_set_unit, k0_off1_eq]
  constructor
  · intro h; have h0 := h 0; simpa [coordsV] using h0
  · intro h a; match a with | 0 => simpa [coordsV] using h

/-- The same for the gathered array: the row decides, every column belongs. -/
theorem mem_oSet (c : Fin 2) (s : Fin 16) (y : S8192x128.Idx) :
    y ∈ oSet (coordsV c s) ↔ 512 * s.val + 256 * c.val ≤ (y 0).val ∧ (y 0).val < 512 * s.val + 256 * c.val + 256 := by
  rw [oSet_eq, Rect.mem_set_unit, k0_off2_eq]
  constructor
  · intro h; have h0 := h 0; simpa [coordsV] using h0
  · intro h a
    match a with
    | 0 => simpa [coordsV] using h
    | 1 => have h1 : (y 1).val < 128 := (y 1).isLt; simp [coordsV]; omega

/-- Two different tasks' blocks share no row. -/
theorem iSet_disjoint : ∀ p ∈ (Finset.univ : Finset (Fin 2 × Fin 16)), ∀ p' ∈ (Finset.univ : Finset (Fin 2 × Fin 16)), p ≠ p' →
    Disjoint (iSet (coordsV p.1 p.2)) (iSet (coordsV p'.1 p'.2)) := by
  rintro ⟨c, s⟩ - ⟨c', s'⟩ - hne
  rw [Finset.disjoint_left]
  intro y hy hy'
  rw [mem_iSet] at hy hy'
  dsimp only at hy hy'
  apply hne
  have hc := c.isLt; have hc' := c'.isLt
  have : s.val = s'.val ∧ c.val = c'.val := by omega
  exact Prod.ext (Fin.ext this.2) (Fin.ext this.1)

theorem oSet_disjoint : ∀ p ∈ (Finset.univ : Finset (Fin 2 × Fin 16)), ∀ p' ∈ (Finset.univ : Finset (Fin 2 × Fin 16)), p ≠ p' →
    Disjoint (oSet (coordsV p.1 p.2)) (oSet (coordsV p'.1 p'.2)) := by
  rintro ⟨c, s⟩ - ⟨c', s'⟩ - hne
  rw [Finset.disjoint_left]
  intro y hy hy'
  rw [mem_oSet] at hy hy'
  dsimp only at hy hy'
  apply hne
  have hc := c.isLt; have hc' := c'.isLt
  have : s.val = s'.val ∧ c.val = c'.val := by omega
  exact Prod.ext (Fin.ext this.2) (Fin.ext this.1)

/-- Every row lies in some task's block: row y in that of s = y / 512, c = (y mod 512) / 256. -/
theorem iSet_cover : (Finset.univ : Finset (Fin 2 × Fin 16)).biUnion (fun p => iSet (coordsV p.1 p.2)) = Finset.univ := by
  ext y
  simp only [Finset.mem_biUnion, Finset.mem_univ, true_and, iff_true]
  have hy : (y 0).val < 8192 := (y 0).isLt
  refine ⟨(⟨((y 0).val % 512) / 256, by omega⟩, ⟨(y 0).val / 512, by omega⟩), ?_⟩
  rw [mem_iSet]; constructor <;> dsimp only <;> omega

theorem oSet_cover : (Finset.univ : Finset (Fin 2 × Fin 16)).biUnion (fun p => oSet (coordsV p.1 p.2)) = Finset.univ := by
  ext y
  simp only [Finset.mem_biUnion, Finset.mem_univ, true_and, iff_true]
  have hy : (y 0).val < 8192 := (y 0).isLt
  refine ⟨(⟨((y 0).val % 512) / 256, by omega⟩, ⟨(y 0).val / 512, by omega⟩), ?_⟩
  rw [mem_oSet]; constructor <;> dsimp only <;> omega

/-! ## @main's host operations before the call, and what they leave -/

variable (m : (ℓ : Loc nD τ sig) → Buf (Elt F) ℓ)

section Ops
variable [FloatOps F]

/-- actions, time-major; -/
abbrev opA0 : HloOp τ sig (Elt F) := StableHlo.unary main_arg0 main_v0 ((transpose S512x16x64 [1, 0, 2] · transposes_S16x512x64_S512x16x64_1_0_2) : (⟨S16x512x64, .f32⟩ : BufTy).Contents (Elt F) → (⟨S512x16x64, .f32⟩ : BufTy).Contents (Elt F))
/-- flattened to 8192 rows of 64; -/
abbrev opA1 : HloOp τ sig (Elt F) := StableHlo.reshape main_v0 main_v1 rfl shapeCasts_S512x16x64_S8192x64
/-- state_indices, time-major; -/
abbrev opI0 : HloOp τ sig (Elt F) := StableHlo.unary main_arg1 main_v2 ((transpose S512x16 [1, 0] · transposes_S16x512_S512x16_1_0) : (⟨S16x512, .i32⟩ : BufTy).Contents (Elt F) → (⟨S512x16, .i32⟩ : BufTy).Contents (Elt F))
/-- flattened to the list of 8192 indices: entry 16·t + b is state_indices[b, t]. -/
abbrev opI1 : HloOp τ sig (Elt F) := StableHlo.reshape main_v2 main_v3 rfl shapeCasts_S512x16_S8192

/-- The four operations before the SparseCore call. -/
abbrev opsPre : List (HloOp τ sig (Elt F)) := [opA0, opA1, opI0, opI1]

/-- The TensorCore's arrays when the SparseCore call is made. -/
def Vpre (d : Dev nD) : Valuation τ sig (Elt F) := StableHlo.after opsPre (fun b => m (d, b))

/-- The index list the call is given. -/
def idxV (d : Dev nD) : Buf (Elt F) (idxLoc d) := Vpre m d (Proc.devRef .tc main_v3)

end Ops

/-! ## What the handshakes carry -/

theorem nCore_zero : (K (F := F)).nCore 0 = 2 := rfl
theorem nSub_zero : (K (F := F)).nSub 0 = 16 := rfl

section Pay
variable [FloatOps F]

/-- SparseCore `c`'s read share of the table, and task (c, i)'s share of that. -/
abbrev qCore (c : Fin 2) : PosShare TreeShare := pieceOf fullShare 2 (by decide) c
abbrev qTile (c : Fin 2) (i : Fin 16) : PosShare TreeShare := pieceOf (qCore c) 16 (by decide) i

abbrev tblCore (d : Dev nD) (c : Fin 2) : sProp 𝕄 := tblLoc d ↦{qCore c} m (tblLoc d)
abbrev tblTile (d : Dev nD) (c : Fin 2) (i : Fin 16) : sProp 𝕄 := tblLoc d ↦{qTile c i} m (tblLoc d)
abbrev idxB (d : Dev nD) (c : Fin 2) (i : Fin 16) : sProp 𝕄 := idxLoc d ↦[iSet (coordsV c i)]{fullShare} idxV m d
abbrev outB (d : Dev nD) (c : Fin 2) (i : Fin 16) (f : Buf (Elt F) (outLoc d)) : sProp 𝕄 := outLoc d ↦[oSet (coordsV c i)]{fullShare} f

variable (hOK : ∀ d : Dev nD, IdxOK d (idxV m d))

/-- A block of the gathered array at contents right for its task. -/
abbrev outDone (d : Dev nD) (c : Fin 2) (i : Fin 16) : sProp 𝕄 :=
  iprop(∃ f, ⌜BlockOK d (coordsV c i) (m (tblLoc d)) (idxV m d) (hOK d) f⌝ ∗ outB d c i f)

/-- The one call hands SparseCore `c` its share of the table and its 16 tasks' blocks of the index list and of the
    result; each task gets its share and its two blocks; back come the same, the result's blocks at the gathered rows. -/
def P : (K (F := F)).Pay (nD := nD) (Val := Elt F) (Name := ℕ) (U := UU) where
  st := fun q d c => match q with
    | 0 => iprop(tblCore m d (Fin.cast nCore_zero c) ∗ (bigSep Finset.univ fun i : Fin 16 => idxB m d (Fin.cast nCore_zero c) i)
        ∗ bigSep Finset.univ fun i : Fin 16 => outB d (Fin.cast nCore_zero c) i (m (outLoc d)))
  dn := fun q d c => match q with
    | 0 => iprop(tblCore m d (Fin.cast nCore_zero c) ∗ (bigSep Finset.univ fun i : Fin 16 => idxB m d (Fin.cast nCore_zero c) i)
        ∗ bigSep Finset.univ fun i : Fin 16 => outDone m hOK d (Fin.cast nCore_zero c) i)
  go := fun q d c i => match q with
    | 0 => iprop(tblTile m d (Fin.cast nCore_zero c) (Fin.cast nSub_zero i) ∗ idxB m d (Fin.cast nCore_zero c) (Fin.cast nSub_zero i)
        ∗ outB d (Fin.cast nCore_zero c) (Fin.cast nSub_zero i) (m (outLoc d)))
  td := fun q d c i => match q with
    | 0 => iprop(tblTile m d (Fin.cast nCore_zero c) (Fin.cast nSub_zero i) ∗ idxB m d (Fin.cast nCore_zero c) (Fin.cast nSub_zero i)
        ∗ outDone m hOK d (Fin.cast nCore_zero c) (Fin.cast nSub_zero i))
  x := fun _ _ => iprop(emp)

instance P_storable : (P (F := F) m hOK).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Pay

/-! ## The launch theorem's side conditions -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## One task, from the vector subcore's scoped storage -/

section Task

variable (d : Dev nD) (L : grid0.Coords)

abbrev cellG (c : Fin τ.nSC) (i : Fin τ.nSub) : GSem nD τ sig := (V d c i, .dma cc0_scratch2.sem)
abbrev cellA (c : Fin τ.nSC) (i : Fin τ.nSub) : GSem nD τ sig := (V d c i, .dma cc0_scoped0.sem)
abbrev cellB (c : Fin τ.nSC) (i : Fin τ.nSub) : GSem nD τ sig := (V d c i, .dma cc0_scoped1.sem)

/-- The subcore's own semaphores at zero: the gather's, the two copies', and the rest. -/
theorem ownSems0_V :
    (ownSems0 (V d (cV L) (jV L)) : sProp 𝕄)
      = iprop(semVal (cellG d (cV L) (jV L)) 0 ∗ semVal (cellA d (cV L) (jV L)) 0 ∗ semVal (cellB d (cV L) (jV L)) 0
          ∗ bigSep ((((ownCells (V d (cV L) (jV L))).erase (cellG d (cV L) (jV L))).erase (cellA d (cV L) (jV L))).erase (cellB d (cV L) (jV L)))
              fun g => semVal g 0) := by
  unfold SparseCore.Cfg.ownSems0
  rw [SparseCore.bigSep_erase' ((mem_ownCells (g := cellG d (cV L) (jV L))).mpr ⟨rfl, by
      show (SemLoc.dma cc0_scratch2.sem : SemLoc sig).isScoped .scVector = true; decide⟩),
    SparseCore.bigSep_erase' (Finset.mem_erase.mpr ⟨by simp [cellG, cellA]; decide, (mem_ownCells (g := cellA d (cV L) (jV L))).mpr ⟨rfl, by
      show (SemLoc.dma cc0_scoped0.sem : SemLoc sig).isScoped .scVector = true; decide⟩⟩),
    SparseCore.bigSep_erase' (Finset.mem_erase.mpr ⟨by simp [cellA, cellB]; decide, Finset.mem_erase.mpr ⟨by simp [cellG, cellB]; decide,
      (mem_ownCells (g := cellB d (cV L) (jV L))).mpr ⟨rfl, by show (SemLoc.dma cc0_scoped1.sem : SemLoc sig).isScoped .scVector = true; decide⟩⟩⟩)]

/-- The subcore's own buffers: the index scratch, the row scratch, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

local notation "tblW" => (Memref.whole Cert.Kernel.main_arg2_scv : Memref Cert.Kernel.sig Kind.scVector Space.hbm Cert.Kernel.S1024x128 EltTy.f32)
local notation "idxW" => (Memref.whole Cert.Kernel.main_v3_scv : Memref Cert.Kernel.sig Kind.scVector Space.hbm Cert.Kernel.S8192 EltTy.i32)
local notation "outW" => (Memref.whole Cert.Kernel.main_v4_scv : Memref Cert.Kernel.sig Kind.scVector Space.hbm Cert.Kernel.S8192x128 EltTy.f32)
local notation "sIdx" => (Memref.whole Cert.Kernel.cc0_scratch0 : Memref Cert.Kernel.sig Kind.scVector Space.vmem Cert.Kernel.S256 EltTy.i32)
local notation "sRows" => (Memref.whole Cert.Kernel.cc0_scratch1 : Memref Cert.Kernel.sig Kind.scVector Space.vmem Cert.Kernel.S256x128 EltTy.f32)

/-- The task of the tile at `L`, from its shares of the table and the index list, its block of the result and its scoped
    storage, to the block at the gathered rows and the storage back. -/
theorem tile_task (q : PosShare TreeShare) (fi : Buf (Elt F) (idxLoc d)) (ft : Buf (Elt F) (tblLoc d)) (fo : Buf (Elt F) (outLoc d))
    (O : CellTallies nD τ sig (HIx 1)) (W : Waits sig (HIx 1)) (hO : ∀ g, O g none = 0) (hOK : IdxOK d fi) :
    iprop((levAts (K (F := F)).L (K (F := F)).lev : sProp 𝕄) ∗ emp
        ∗ ((tblLoc d ↦{q} ft) ∗ (idxLoc d ↦[iSet L]{fullShare} fi) ∗ (outLoc d ↦[oSet L]{fullShare} fo))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L tblW (Memref.isWhole_whole _) idxW (Memref.isWhole_whole _) outW (Memref.isWhole_whole _)
            sIdx (Memref.isWhole_whole _) sRows (Memref.isWhole_whole _) cc0_scratch2 cc0_scoped0 cc0_scoped1)
          fun _ => iprop(((tblLoc d ↦{q} ft) ∗ (idxLoc d ↦[iSet L]{fullShare} fi) ∗ (∃ f, ⌜BlockOK d L ft fi hOK f⌝ ∗ outLoc d ↦[oSet L]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L), ownSems0_V, ownBufs_V]
  iintro ⟨#Hlv, -, ⟨Ht, Hi, Ho⟩, ⟨⟨%fs0, Hs0⟩, ⟨%fs1, Hs1⟩, Hbufs⟩, ⟨Hc2, Hc0, Hc1, Hsems⟩, HO⟩
  iapply (wp_wand_r frame _ _)
  isplitl [Ht Hi Ho Hs0 Hs1 Hc2 Hc0 Hc1 HO]
  · iapply (tile_body d L q fullShare fi ft fo fs0 fs1 O W hO hOK)
    isplitr; · iexact Hlv
    isplitl [Ht]; · iexact Ht
    isplitl [Hi]; · iexact Hi
    isplitl [Ho]; · iexact Ho
    isplitl [Hs0]; · iexact Hs0
    isplitl [Hs1]; · iexact Hs1
    isplitl [Hc2]; · iexact Hc2
    isplitl [Hc0]; · iexact Hc0
    isplitl [Hc1]; · iexact Hc1
    iexact HO
  iintro %_ ⟨Ht, Hi, Ho, Hs0, Hs1, Hc2, Hc0, Hc1, HO⟩
  isplitl [Ht Hi Ho]
  · isplitl [Ht]; · iexact Ht
    isplitl [Hi]; · iexact Hi
    iexact Ho
  isplitl [Hs0 Hs1 Hbufs]
  · isplitl [Hs0]; · iexact Hs0
    isplitl [Hs1]; · iexact Hs1
    iexact Hbufs
  isplitl [Hc2 Hc0 Hc1 Hsems]
  · isplitl [Hc2]; · iexact Hc2
    isplitl [Hc0]; · iexact Hc0
    isplitl [Hc1]; · iexact Hc1
    iexact Hsems
  iexact HO

end Task

/-! ## The launch theorem's obligations for the call -/

section Obl

variable [FloatOps F]
variable (hOK : ∀ d : Dev nD, IdxOK d (idxV m d))

local notation "tblW" => (Memref.whole Cert.Kernel.main_arg2_scv : Memref Cert.Kernel.sig Kind.scVector Space.hbm Cert.Kernel.S1024x128 EltTy.f32)
local notation "idxW" => (Memref.whole Cert.Kernel.main_v3_scv : Memref Cert.Kernel.sig Kind.scVector Space.hbm Cert.Kernel.S8192 EltTy.i32)
local notation "outW" => (Memref.whole Cert.Kernel.main_v4_scv : Memref Cert.Kernel.sig Kind.scVector Space.hbm Cert.Kernel.S8192x128 EltTy.f32)
local notation "sIdx" => (Memref.whole Cert.Kernel.cc0_scratch0 : Memref Cert.Kernel.sig Kind.scVector Space.vmem Cert.Kernel.S256 EltTy.i32)
local notation "sRows" => (Memref.whole Cert.Kernel.cc0_scratch1 : Memref Cert.Kernel.sig Kind.scVector Space.vmem Cert.Kernel.S256x128 EltTy.f32)

/-- The body table's row for a vector subcore: the kernel at the subcore's grid coordinates. -/
theorem defs₀_vector (c : Fin τ.nSC) (s : Fin τ.nSub) :
    defs₀ (F := F) (.scVector c s) 0 ()
      = SparseCore.onTile hcore0 hsub0 (fun c s => cc0__sc_gather (coordsV c s)
          tblW (Memref.isWhole_whole _) idxW (Memref.isWhole_whole _) outW (Memref.isWhole_whole _)
          sIdx (Memref.isWhole_whole _) sRows (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each of the 32 tasks meets its obligation: it is the task proved above, at the subcore's coordinates. -/
theorem tileObl : (K (F := F)).TileObl (D (F := F)) 𝒱 (P m hOK) v₀ 0 := by
  intro d c i O W hO _ _
  simp only [show (P m hOK).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task d (coordsV ⟨_, hc.1⟩ ⟨_, hc.2⟩) _ (idxV m d) (m (tblLoc d)) (m (outLoc d)) O W hO (hOK d)).trans
    (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands split among its 16 tasks — the table's share cut in 16, each block to its task — and the
    results come back the same way. -/
theorem vecSplit : (K (F := F)).VecSplit' (P m hOK) 0 := by
  intro d c
  show iprop(tblCore m d (Fin.cast nCore_zero c) ∗ (bigSep Finset.univ fun i : Fin 16 => idxB m d (Fin.cast nCore_zero c) i)
        ∗ bigSep Finset.univ fun i : Fin 16 => outB d (Fin.cast nCore_zero c) i (m (outLoc d)))
    ⊢ |={Set.univ}=> iprop(
      (bigSep Finset.univ fun i : Fin ((K (F := F)).nSub 0) =>
        iprop(tblTile m d (Fin.cast nCore_zero c) (Fin.cast nSub_zero i) ∗ idxB m d (Fin.cast nCore_zero c) (Fin.cast nSub_zero i)
          ∗ outB d (Fin.cast nCore_zero c) (Fin.cast nSub_zero i) (m (outLoc d))))
      ∗ ((bigSep Finset.univ fun i : Fin ((K (F := F)).nSub 0) =>
          iprop(tblTile m d (Fin.cast nCore_zero c) (Fin.cast nSub_zero i) ∗ idxB m d (Fin.cast nCore_zero c) (Fin.cast nSub_zero i)
            ∗ outDone m hOK d (Fin.cast nCore_zero c) (Fin.cast nSub_zero i)))
          -∗ iprop(tblCore m d (Fin.cast nCore_zero c) ∗ (bigSep Finset.univ fun i : Fin 16 => idxB m d (Fin.cast nCore_zero c) i)
            ∗ bigSep Finset.univ fun i : Fin 16 => outDone m hOK d (Fin.cast nCore_zero c) i)))
  rw [bigSep_tasks (F := F) (fun i => iprop(tblTile m d (Fin.cast nCore_zero c) i ∗ idxB m d (Fin.cast nCore_zero c) i ∗ outB d (Fin.cast nCore_zero c) i (m (outLoc d)))),
    bigSep_tasks (F := F) (fun i => iprop(tblTile m d (Fin.cast nCore_zero c) i ∗ idxB m d (Fin.cast nCore_zero c) i ∗ outDone m hOK d (Fin.cast nCore_zero c) i)),
    bigSep_sep', bigSep_sep', bigSep_sep', bigSep_sep']
  unfold tblCore tblTile qTile
  rw [pointsTo_piecesOf (Finset.univ) (m (tblLoc d)) (by decide : 0 < 16) (qCore (Fin.cast nCore_zero c))]
  iintro H; imodintro
  isplitl [H]; · iexact H
  iintro H; iexact H

end Obl

/-! ## What @main hands the call and takes back: the three arrays whole -/

section Call

variable [FloatOps F]
variable (hOK : ∀ d : Dev nD, IdxOK d (idxV m d))

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- The index list whole is its 32 blocks; -/
theorem idx_blocks (d : Dev nD) (f : Buf (Elt F) (idxLoc d)) :
    (idxLoc d ↦{fullShare} f : sProp 𝕄)
      = bigSep Finset.univ fun c : Fin 2 => bigSep Finset.univ fun i : Fin 16 => idxLoc d ↦[iSet (coordsV c i)]{fullShare} f := by
  rw [← bigSep_univ_prod (fun p : Fin 2 × Fin 16 => (idxLoc d ↦[iSet (coordsV p.1 p.2)]{fullShare} f : sProp 𝕄)),
    ← pointsTo_biUnion Finset.univ (ℓ := idxLoc d) (fun p : Fin 2 × Fin 16 => iSet (coordsV p.1 p.2)) iSet_disjoint, iSet_cover]; try rfl
omit [FloatOps F] in
/-- the gathered array whole its 32 blocks. -/
theorem out_blocks (d : Dev nD) (f : Buf (Elt F) (outLoc d)) :
    (outLoc d ↦{fullShare} f : sProp 𝕄)
      = bigSep Finset.univ fun c : Fin 2 => bigSep Finset.univ fun i : Fin 16 => outLoc d ↦[oSet (coordsV c i)]{fullShare} f := by
  rw [← bigSep_univ_prod (fun p : Fin 2 × Fin 16 => (outLoc d ↦[oSet (coordsV p.1 p.2)]{fullShare} f : sProp 𝕄)),
    ← pointsTo_biUnion Finset.univ (ℓ := outLoc d) (fun p : Fin 2 × Fin 16 => oSet (coordsV p.1 p.2)) oSet_disjoint, oSet_cover]; try rfl

/-- Contents of the gathered array that are right on every task's block. -/
def AllOK (d : Dev nD) (f : Buf (Elt F) (outLoc d)) : Prop :=
  ∀ (c : Fin 2) (i : Fin 16), BlockOK d (coordsV c i) (m (tblLoc d)) (idxV m d) (hOK d) f

/-- What the call takes for the two SparseCores: the table, the index list and the result array, whole. -/
theorem st0_eq (d : Dev nD) :
    (bigSep Finset.univ fun c : Fin ((K (F := F)).nCore 0) => (P m hOK).st 0 d c)
      = iprop((tblLoc d ↦{fullShare} m (tblLoc d)) ∗ (idxLoc d ↦{fullShare} idxV m d) ∗ (outLoc d ↦{fullShare} m (outLoc d))) := by
  show (bigSep Finset.univ fun c : Fin ((K (F := F)).nCore 0) =>
      iprop(tblCore m d (Fin.cast nCore_zero c) ∗ (bigSep Finset.univ fun i : Fin 16 => idxB m d (Fin.cast nCore_zero c) i)
        ∗ bigSep Finset.univ fun i : Fin 16 => outB d (Fin.cast nCore_zero c) i (m (outLoc d)))) = _
  rw [bigSep_cores (F := F) (fun c => iprop(tblCore m d c ∗ (bigSep Finset.univ fun i : Fin 16 => idxB m d c i)
        ∗ bigSep Finset.univ fun i : Fin 16 => outB d c i (m (outLoc d)))),
    bigSep_sep', bigSep_sep', idx_blocks, out_blocks,
    pointsTo_piecesOf (Finset.univ) (m (tblLoc d)) (by decide : 0 < 2) fullShare]

/-- What it hands back: the table and the index list as they were, the result array at contents right on every block. -/
theorem dn0_elim (d : Dev nD) :
    (bigSep Finset.univ fun c : Fin ((K (F := F)).nCore 0) => (P m hOK).dn 0 d c)
      ⊢ iprop((tblLoc d ↦{fullShare} m (tblLoc d)) ∗ (idxLoc d ↦{fullShare} idxV m d)
          ∗ ∃ f, ⌜AllOK m hOK d f⌝ ∗ outLoc d ↦{fullShare} f) := by
  show (bigSep Finset.univ fun c : Fin ((K (F := F)).nCore 0) =>
      iprop(tblCore m d (Fin.cast nCore_zero c) ∗ (bigSep Finset.univ fun i : Fin 16 => idxB m d (Fin.cast nCore_zero c) i)
        ∗ bigSep Finset.univ fun i : Fin 16 => outDone m hOK d (Fin.cast nCore_zero c) i)) ⊢ _
  rw [bigSep_cores (F := F) (fun c => iprop(tblCore m d c ∗ (bigSep Finset.univ fun i : Fin 16 => idxB m d c i)
        ∗ bigSep Finset.univ fun i : Fin 16 => outDone m hOK d c i)),
    bigSep_sep', bigSep_sep', ← idx_blocks, ← pointsTo_piecesOf (Finset.univ) (m (tblLoc d)) (by decide : 0 < 2) fullShare,
    ← bigSep_univ_prod (fun p : Fin 2 × Fin 16 => outDone m hOK d p.1 p.2)]
  iintro ⟨Ht, Hi, Ho⟩
  isplitl [Ht]; · iexact Ht
  isplitl [Hi]; · iexact Hi
  -- the 32 blocks, each at contents of its own, are one array's
  ihave Ho1 := (bigSep_exists_pi Finset.univ (fun (p : Fin 2 × Fin 16) (f : Buf (Elt F) (outLoc d)) =>
      iprop(⌜BlockOK d (coordsV p.1 p.2) (m (tblLoc d)) (idxV m d) (hOK d) f⌝ ∗ outB d p.1 p.2 f))) $$ Ho
  icases Ho1 with ⟨%fs, Ho1⟩
  ihave Ho2 := (bigSep_pure_sep Finset.univ (fun p : Fin 2 × Fin 16 => BlockOK d (coordsV p.1 p.2) (m (tblLoc d)) (idxV m d) (hOK d) (fs p))
      (fun p => outB d p.1 p.2 (fs p))) $$ Ho1
  icases Ho2 with ⟨%hfs, Ho2⟩
  ihave Ho3 := (pointsTo_biUnion_join Finset.univ (fun p : Fin 2 × Fin 16 => oSet (coordsV p.1 p.2)) fs (fs (0, 0)) oSet_disjoint) $$ Ho2
  icases Ho3 with ⟨%g, %hg, Hg⟩
  rw [oSet_cover]
  iexists g; isplitr
  · ipureintro
    intro c i
    have h1 := hfs (c, i) (Finset.mem_univ _)
    unfold BlockOK at h1 ⊢
    rw [← h1]
    exact View.read_congr (fun y hy => hg (c, i) (Finset.mem_univ _) y hy)
  · iexact Hg

end Call

/-! ## The launch element -/

section Elem

/-- The handshakes' rounds: the left component; -/
abbrev EH : Emb UH (MT nD τ sig (HIx 1) (Elt F) ℕ UU ℕ) := embL
/-- the TensorCore pipeline's staging cells' rounds: the left of the right component, the transfers' counters being the
    component beside it. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP embR; infer_instance

/-- The launch element: the handshake cells' rounds, the pipeline's staging cells' rounds, no transfer in flight. -/
def u₀ : UU := (initOf (K (F := F)).hsCells (K (F := F)).hsToks, (initOf (Pipeline.cells cfgs cellOf_inj) (Pipeline.launchToks cfgs cellOf_inj), 1))

/-- What @main's proof starts from on core `d` beyond the launch's own deal: the pipeline's cells' ghost state and its
    duty tokens. -/
abbrev G (d : Dev nD) : sProp 𝕄 := iprop(Pipeline.cellsGhost cfgs (EP (F := F)) 0 d ∗ Pipeline.toksInit cfgs (EP (F := F)) 0 d)

theorem bigSep_emp' {I : Type} (s : Finset I) : (bigSep s fun _ => iprop(emp)) = (iprop(emp) : sProp 𝕄) := bigSep_emp_const s

theorem bigSep_fin1 (Φ : Fin 1 → sProp 𝕄) : bigSep Finset.univ Φ = Φ 0 := by
  rw [show (Finset.univ : Finset (Fin 1)) = {0} by decide, bigSep_singleton]

variable [FloatOps F] (hOK : ∀ d : Dev nD, IdxOK d (idxV m d))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m hOK).x q thr) := by
  unfold u₀
  have hG : (bigSep Finset.univ fun d : Dev nD => G (F := F) d)
      = iprop((bigSep Finset.univ fun c : Dev nD => bigSep Finset.univ fun p => Pipeline.cellsGhost cfgs (EP (F := F)) p c)
          ∗ (bigSep Finset.univ fun c : Dev nD => bigSep Finset.univ fun p => (Pipeline.toksInit cfgs (EP (F := F)) p c : sProp 𝕄))) := by
    rw [bigSep_sep', bigSep_congr fun d _ => bigSep_fin1 (F := F) (fun p => Pipeline.cellsGhost cfgs (EP (F := F)) p d),
      bigSep_congr fun d _ => bigSep_fin1 (F := F) (fun p => Pipeline.toksInit cfgs (EP (F := F)) p d)]
  rw [hG]
  iintro Hu
  ihave H := (ownU_pair _ _) $$ Hu
  icases H with ⟨HH, HR⟩
  ihave HR' := (own_pair_emb (embR (nD := nD) (τ := τ) (sig := sig) (Ix := HIx 1) (Val := Elt F) (Name := ℕ) (A := UH) (B := UP × Counters) (Lvl := ℕ)) _ _) $$ HR
  icases HR' with ⟨HP, -⟩
  ihave HP := (Entails.of_eq (show (BI.own (((Emb.inl : Emb UP (UP × Counters)).trans embR) (initOf (Pipeline.cells cfgs cellOf_inj) (Pipeline.launchToks cfgs cellOf_inj))) : sProp 𝕄)
      = BI.own (EP (F := F) (initOf (Pipeline.cells cfgs cellOf_inj) (Pipeline.launchToks cfgs cellOf_inj))) from rfl)) $$ HP
  imod (Pipeline.fund_ghost (cfgs := cfgs) (ER := EP (F := F)) (hinj := cellOf_inj)) $$ HP with ⟨Hg, Ht⟩
  imodintro
  isplitl [HH]; · iexact HH
  isplitl [Hg Ht]
  · isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Elem

end Cert.Proof.BitsLaunch

end
-- ==== Proof.BitsMain.lean ====
/-
  @main on the TensorCore, and the program's run.
  @main makes the time-major copies of the actions and of the index list (a transpose and a flattening each), starts the
  SparseCore call and waits for it, makes W_hhᵀ and the two biases as 1×512 arrays, and enters the recurrence's kernel
  region. Between two of these steps the TensorCore holds every array of @main whole, at contents named step by step;
  the region's contract is stated once (`RegionSpec`) and used here as a hypothesis.
-/
import proofs.«213871_g15814069584205_fold_wed_c4_299_27_alg».proof.Proof.BitsLaunch
import Idealize.ShloMosaic.Lib.Pipeline.Frame
import Idealize.ShloMosaic.Lib.Pipeline.Regions

noncomputable section

namespace Cert.Proof.BitsMain

open Cert.Kernel Cert.Kernel.Gen Cert.Proof.BitsTile Cert.Proof.BitsLaunch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- Every array of @main: the TensorCore's unscoped buffers. -/
abbrev UC : Finset (DevRef τ sig) := Pipeline.ucRefs τ sig

section Ops
variable [FloatOps F]

/-- W_hh transposed; -/
abbrev opW : HloOp τ sig (Elt F) := StableHlo.unary main_arg4 main_v5 ((transpose S512x512 [1, 0] · transposes_S512x512_S512x512_1_0) : (⟨S512x512, .f32⟩ : BufTy).Contents (Elt F) → (⟨S512x512, .f32⟩ : BufTy).Contents (Elt F))
/-- the two biases as 1×512 arrays. -/
abbrev opB0 : HloOp τ sig (Elt F) := StableHlo.reshape main_arg5 main_v6 rfl shapeCasts_S512_S1x512
abbrev opB1 : HloOp τ sig (Elt F) := StableHlo.reshape main_arg6 main_v7 rfl shapeCasts_S512_S1x512
abbrev opsMid : List (HloOp τ sig (Elt F)) := [opW, opB0, opB1]

theorem hA0 : (opA0 (F := F)).bufs ⊆ UC := Pipeline.sub_ucRefs _ (StableHlo.unary_bufs_sub ..)
theorem hA1 : (opA1 (F := F)).bufs ⊆ UC := Pipeline.sub_ucRefs _ (StableHlo.reshape_bufs_sub ..)
theorem hI0 : (opI0 (F := F)).bufs ⊆ UC := Pipeline.sub_ucRefs _ (StableHlo.unary_bufs_sub ..)
theorem hI1 : (opI1 (F := F)).bufs ⊆ UC := Pipeline.sub_ucRefs _ (StableHlo.reshape_bufs_sub ..)
theorem hW : (opW (F := F)).bufs ⊆ UC := Pipeline.sub_ucRefs _ (StableHlo.unary_bufs_sub ..)
theorem hB0 : (opB0 (F := F)).bufs ⊆ UC := Pipeline.sub_ucRefs _ (StableHlo.reshape_bufs_sub ..)
theorem hB1 : (opB1 (F := F)).bufs ⊆ UC := Pipeline.sub_ucRefs _ (StableHlo.reshape_bufs_sub ..)

/-- The arrays at launch, -/
abbrev V0 (d : Dev nD) : Valuation τ sig (Elt F) := fun b => m (d, b)
/-- after the call, the gathered array at `f`, -/
def Vcall (d : Dev nD) (f : Buf (Elt F) (outLoc d)) : Valuation τ sig (Elt F) := Function.update (Vpre m d) (Proc.devRef .tc main_v4) f
/-- when the kernel region is entered, -/
def Vmid (d : Dev nD) (f : Buf (Elt F) (outLoc d)) : Valuation τ sig (Elt F) := StableHlo.after opsMid (Vcall m d f)
/-- and after it, the result at `o`. -/
def Vend (d : Dev nD) (f : Buf (Elt F) (outLoc d)) (o : Buf (Elt F) ((SparseCore.T d : Thread nD τ).loc main_v8)) : Valuation τ sig (Elt F) :=
  Function.update (Vmid m d f) (Proc.devRef .tc main_v8) o

end Ops

/-! ## The call's three arrays among all of @main's -/

section CallSet
variable [FloatOps F]

abbrev tbl' : DevRef τ sig := Proc.devRef .tc (main_arg2 : Ref sig .tc)
abbrev idx' : DevRef τ sig := Proc.devRef .tc (main_v3 : Ref sig .tc)
abbrev out' : DevRef τ sig := Proc.devRef .tc (main_v4 : Ref sig .tc)
abbrev T3 : Finset (DevRef τ sig) := {tbl', idx', out'}

theorem T3_sub : T3 ⊆ UC := by decide

omit [FloatOps F] in
theorem held_T3 (d : Dev nD) (W : Valuation τ sig (Elt F)) :
    (held (SparseCore.T d) T3 W : sProp 𝕄) = iprop((tblLoc d ↦{fullShare} W tbl') ∗ (idxLoc d ↦{fullShare} W idx') ∗ (outLoc d ↦{fullShare} W out')) := by
  unfold held T3
  rw [SparseCore.bigSep_insert' (by decide), SparseCore.bigSep_insert' (by decide), bigSep_singleton]

theorem Vpre_eq (d : Dev nD) : Vpre m d = (opI1 (F := F)).result ((opI0 (F := F)).result ((opA1 (F := F)).result ((opA0 (F := F)).result (V0 m d)))) := rfl

/-- The operations before the call write neither the table nor the result array. -/
theorem Vpre_keep (d : Dev nD) (r : Ref sig .tc) (h0 : r ≠ main_v0) (h1 : r ≠ main_v1) (h2 : r ≠ main_v2) (h3 : r ≠ main_v3) :
    Vpre m d (Proc.devRef .tc r) = m (d, Proc.devRef .tc r) := by
  have e3 : (Proc.devRef .tc r : DevRef τ sig) ∉ (opI1 (F := F)).writes := by
    rw [StableHlo.reshape_writes, Finset.mem_singleton]; exact StableHlo.devRef_ne_of_ne h3
  have e2 : (Proc.devRef .tc r : DevRef τ sig) ∉ (opI0 (F := F)).writes := by
    rw [StableHlo.unary_writes, Finset.mem_singleton]; exact StableHlo.devRef_ne_of_ne h2
  have e1 : (Proc.devRef .tc r : DevRef τ sig) ∉ (opA1 (F := F)).writes := by
    rw [StableHlo.reshape_writes, Finset.mem_singleton]; exact StableHlo.devRef_ne_of_ne h1
  have e0 : (Proc.devRef .tc r : DevRef τ sig) ∉ (opA0 (F := F)).writes := by
    rw [StableHlo.unary_writes, Finset.mem_singleton]; exact StableHlo.devRef_ne_of_ne h0
  rw [Vpre_eq, HloOp.result_of_not_mem _ _ e3, HloOp.result_of_not_mem _ _ e2, HloOp.result_of_not_mem _ _ e1, HloOp.result_of_not_mem _ _ e0]
theorem Vpre_tbl (d : Dev nD) : Vpre m d tbl' = m (tblLoc d) := Vpre_keep m d main_arg2 (by decide) (by decide) (by decide) (by decide)
theorem Vpre_out (d : Dev nD) : Vpre m d out' = m (outLoc d) := Vpre_keep m d main_v4 (by decide) (by decide) (by decide) (by decide)

/-- Every array whole before the call: the call's three, and the others. -/
theorem call_split (d : Dev nD) :
    (held (SparseCore.T d) UC (Vpre m d) : sProp 𝕄)
      = iprop(((tblLoc d ↦{fullShare} m (tblLoc d)) ∗ (idxLoc d ↦{fullShare} idxV m d) ∗ (outLoc d ↦{fullShare} m (outLoc d)))
          ∗ held (SparseCore.T d) (UC \ T3) (Vpre m d)) := by
  rw [held_sub_split (SparseCore.T d) T3_sub (Vpre m d), held_T3, Vpre_tbl, Vpre_out]; rfl

/-- and after it, the result array at `f`. -/
theorem call_join (d : Dev nD) (f : Buf (Elt F) (outLoc d)) :
    (held (SparseCore.T d) UC (Vcall m d f) : sProp 𝕄)
      = iprop(((tblLoc d ↦{fullShare} m (tblLoc d)) ∗ (idxLoc d ↦{fullShare} idxV m d) ∗ (outLoc d ↦{fullShare} f))
          ∗ held (SparseCore.T d) (UC \ T3) (Vpre m d)) := by
  rw [held_sub_split (SparseCore.T d) T3_sub (Vcall m d f), held_T3,
    held_congr (SparseCore.T d) (V := Vcall m d f) (V' := Vpre m d) (S := UC \ T3) (fun b hb => by
      unfold Vcall
      exact Function.update_of_ne (fun e => (Finset.mem_sdiff.mp hb).2 (by rw [e]; decide)) _ _)]
  unfold Vcall
  rw [Function.update_of_ne (show tbl' ≠ out' by decide), Function.update_of_ne (show idx' ≠ out' by decide), Function.update_self, Vpre_tbl]; rfl

end CallSet

/-! ## The TensorCore's handshake state after the last call -/

section TcSt
variable [FloatOps F]
variable (hOK : ∀ d : Dev nD, IdxOK d (idxV m d))

/-- Everything of the TensorCore's state after call 0 but what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After the one call the TensorCore owes nothing more. -/
theorem tcSt_one (d : Dev nD) :
    ((K (F := F)).tcSt EH d 1 : sProp 𝕄)
      = iprop((∃ W, ⌜(K (F := F)).WBelow (SparseCore.T d) W 8⌝ ∗ owes (SparseCore.T d) 0 W) ∗ tcRest (F := F) d) := by
  unfold SparseCore.Cfg.tcSt tcRest
  rw [(K (F := F)).Otc_end d (Nat.le_refl 1)]

end TcSt

section Main
variable [FloatOps F]
variable (hOK : ∀ d : Dev nD, IdxOK d (idxV m d))

/-- The kernel region's contract: entered with every array whole at `Vmid`, the gathered array right on every block, the
    core owing nothing, it ends with the result array at `OUT` of the gathered array and everything else as it was. -/
def RegionSpec (OUT : (d : Dev nD) → Buf (Elt F) (outLoc d) → Buf (Elt F) ((SparseCore.T d : Thread nD τ).loc main_v8)) : Prop :=
  ∀ (d : Dev nD) (f : Buf (Elt F) (outLoc d)) (_ : AllOK m hOK d f) (W₀ : Waits sig (HIx 1)),
    iprop(boundary (SparseCore.T d) ∗ (held (SparseCore.T d) UC (Vmid m d f) : sProp 𝕄) ∗ owes (SparseCore.T d) 0 W₀ ∗ levAts (K (F := F)).L (K (F := F)).lev ∗ G (F := F) d)
      ⊢ wp frame (wpE (D (F := F)) 𝒱 (SparseCore.T d) none) Set.univ
          (Prog.op (.customCall (Pipeline.entry (0 : Fin 1)) ()) fun _ => .ret PUnit.unit)
          fun _ => iprop(boundary (SparseCore.T d) ∗ (held (SparseCore.T d) UC (Vend m d f (OUT d f)) : sProp 𝕄)
            ∗ ∃ W', ⌜∀ p ∈ W', p ∈ W₀ ∨ p.2 = none⌝ ∗ owes (SparseCore.T d) 0 W')

variable (OUT : (d : Dev nD) → Buf (Elt F) (outLoc d) → Buf (Elt F) ((SparseCore.T d : Thread nD τ).loc main_v8))

/-- What @main leaves the claim: every array whole, the result at `OUT` of a gathered array right on every block. -/
def FIN (d : Dev nD) : sProp 𝕄 := iprop(∃ f, ⌜AllOK m hOK d f⌝ ∗ held (SparseCore.T d) UC (Vend m d f (OUT d f)))

theorem hmain (hR : RegionSpec m hOK OUT) (κ : GSem nD τ sig → ℕ) (d : Dev nD) :
    iprop((K (F := F)).ctx EH (P m hOK) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m hOK OUT d) := by
  unfold SparseCore.Cfg.tcRes
  rw [show (unscopedBufs d (fun b => m ((SparseCore.T d).loc b)) : sProp 𝕄) = held (SparseCore.T d) UC (V0 m d) from
    Pipeline.unscopedBufs_held (Ix := HIx 1) (Name := ℕ) (U := UU) (Lvl := ℕ) d (V0 m d)]
  simp only [main, wp_bind, wp_pure]
  iintro ⟨#Hctx, Hst, ⟨Hb, Hheld, -, -⟩, HG⟩
  iapply (wp_hlo_within 𝒱 (SparseCore.T d) none Set.univ (op := opA0) (S := UC) hA0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opA1) (S := UC) hA1) $$ [Hb Hheld]
  · isplitl [Hb]; · iexact Hb
    iexact Hheld
  iintro ⟨Hb, Hheld⟩
  rw [wp_ret]; imodintro
  iapply (wp_hlo_within 𝒱 (SparseCore.T d) none Set.univ (op := opI0) (S := UC) hI0) $$ [Hb Hheld]
  · isplitl [Hb]; · iexact Hb
    iexact Hheld
  iintro ⟨Hb, Hheld⟩
  rw [wp_ret]; imodintro
  iapply (wp_hlo_within 𝒱 (SparseCore.T d) none Set.univ (op := opI1) (S := UC) hI1) $$ [Hb Hheld]
  · isplitl [Hb]; · iexact Hb
    iexact Hheld
  iintro ⟨Hb, Hheld⟩
  rw [wp_ret]; imodintro
  -- the SparseCore call: the table, the index list and the result array go out whole and come back
  ihave Hheld := (Entails.of_eq (congrArg (fun V => (held (SparseCore.T d) UC V : sProp 𝕄)) (Vpre_eq m d).symm)) $$ Hheld
  ihave Hh := (Entails.of_eq (call_split m d)) $$ Hheld
  icases Hh with ⟨⟨Ht, Hi, Ho⟩, Hrest⟩
  iapply ((K (F := F)).wp_run (D (F := F)) 𝒱 (EH := EH) (P := P m hOK) κ d 0) $$ [Hst Ht Hi Ho Hb Hrest HG]
  isplitr; · iexact Hctx
  isplitl [Hst]; · iexact Hst
  isplitl [Ht Hi Ho]
  · rw [st0_eq]
    isplitl [Ht]; · iexact Ht
    isplitl [Hi]; · iexact Hi
    iexact Ho
  iintro ⟨Hst, Hdn⟩
  ihave Hdn' := (dn0_elim m hOK d) $$ Hdn
  icases Hdn' with ⟨Ht, Hi, %f, %hf, Ho⟩
  ihave Hheld := (Entails.of_eq (call_join m d f).symm) $$ [Ht Hi Ho Hrest]
  · isplitl [Ht Hi Ho]
    · isplitl [Ht]; · iexact Ht
      isplitl [Hi]; · iexact Hi
      iexact Ho
    iexact Hrest
  -- W_hh transposed, the biases reshaped
  iapply (wp_hlo_within 𝒱 (SparseCore.T d) none Set.univ (op := opW) (S := UC) hW (V := Vcall m d f)) $$ [Hb Hheld]
  · isplitl [Hb]; · iexact Hb
    iexact Hheld
  iintro ⟨Hb, Hheld⟩
  rw [wp_ret]; imodintro
  iapply (wp_hlo_within 𝒱 (SparseCore.T d) none Set.univ (op := opB0) (S := UC) hB0) $$ [Hb Hheld]
  · isplitl [Hb]; · iexact Hb
    iexact Hheld
  iintro ⟨Hb, Hheld⟩
  rw [wp_ret]; imodintro
  iapply (wp_hlo_within 𝒱 (SparseCore.T d) none Set.univ (op := opB1) (S := UC) hB1) $$ [Hb Hheld]
  · isplitl [Hb]; · iexact Hb
    iexact Hheld
  iintro ⟨Hb, Hheld⟩
  rw [wp_ret]; imodintro
  -- the kernel region
  ihave Hst := (Entails.of_eq (show ((K (F := F)).tcSt EH d ((0 : Fin 1).val + 1) : sProp 𝕄) = (K (F := F)).tcSt EH d 1 from rfl)) $$ Hst
  ihave Hst := (Entails.of_eq (tcSt_one (F := F) d)) $$ Hst
  icases Hst with ⟨⟨%W₀, %hW₀, HO⟩, Hrest⟩
  ihave Hheld := (Entails.of_eq (show (held (SparseCore.T d) UC ((opB1 (F := F)).result ((opB0 (F := F)).result ((opW (F := F)).result (Vcall m d f)))) : sProp 𝕄)
      = held (SparseCore.T d) UC (Vmid m d f) from rfl)) $$ Hheld
  ihave #Hlev := ((K (F := F)).ctx_levAts κ) $$ Hctx
  iapply ((K (F := F)).wp_liftProg (D (F := F)) 𝒱 (SparseCore.T d) Set.univ none
    (Prog.op (.customCall (Pipeline.entry (0 : Fin 1)) ()) fun _ => .ret PUnit.unit) _)
  iapply (wp_wand_r frame _ _)
  isplitl [Hb Hheld HO HG]
  · iapply (hR d f hf W₀)
    isplitl [Hb]; · iexact Hb
    isplitl [Hheld]; · iexact Hheld
    isplitl [HO]; · iexact HO
    isplitr; · iexact Hlev
    iexact HG
  iintro %_ ⟨Hb, Hheld, %W', %hW', HO⟩
  imodintro
  isplitl [HO Hrest]
  · iapply (Entails.of_eq (tcSt_one (F := F) d).symm)
    isplitl [HO]
    · iexists W'; isplitr
      · ipureintro; intro p hp
        rcases hW' p hp with h | h
        · exact hW₀ p h
        · show (K (F := F)).lev (SparseCore.T d, p.1) p.2 ≤ 8
          rw [h]; exact Nat.zero_le _
      · iexact HO
    · iexact Hrest
  · unfold FIN
    iexists f; isplitr
    · ipureintro; exact hf
    · iexact Hheld

end Main

/-! ## The program's run -/

section Run
variable [FloatOps F]
variable (hOK : ∀ d : Dev nD, IdxOK d (idxV m d))
variable (OUT : (d : Dev nD) → Buf (Elt F) (outLoc d) → Buf (Elt F) ((SparseCore.T d : Thread nD τ).loc main_v8))

/-- No step of @main writes an array other than the nine it makes. -/
theorem Vend_keep (d : Dev nD) (f : Buf (Elt F) (outLoc d)) (o : Buf (Elt F) ((SparseCore.T d : Thread nD τ).loc main_v8)) (r : Ref sig .tc)
    (h0 : r ≠ main_v0) (h1 : r ≠ main_v1) (h2 : r ≠ main_v2) (h3 : r ≠ main_v3) (h4 : r ≠ main_v4) (h5 : r ≠ main_v5) (h6 : r ≠ main_v6)
    (h7 : r ≠ main_v7) (h8 : r ≠ main_v8) : Vend m d f o (Proc.devRef .tc r) = m (d, Proc.devRef .tc r) := by
  have e7 : (Proc.devRef .tc r : DevRef τ sig) ∉ (opB1 (F := F)).writes := by
    rw [StableHlo.reshape_writes, Finset.mem_singleton]; exact StableHlo.devRef_ne_of_ne h7
  have e6 : (Proc.devRef .tc r : DevRef τ sig) ∉ (opB0 (F := F)).writes := by
    rw [StableHlo.reshape_writes, Finset.mem_singleton]; exact StableHlo.devRef_ne_of_ne h6
  have e5 : (Proc.devRef .tc r : DevRef τ sig) ∉ (opW (F := F)).writes := by
    rw [StableHlo.unary_writes, Finset.mem_singleton]; exact StableHlo.devRef_ne_of_ne h5
  unfold Vend
  rw [Function.update_of_ne (StableHlo.devRef_ne_of_ne h8)]
  show (opB1 (F := F)).result ((opB0 (F := F)).result ((opW (F := F)).result (Vcall m d f))) (Proc.devRef .tc r) = _
  rw [HloOp.result_of_not_mem _ _ e7, HloOp.result_of_not_mem _ _ e6, HloOp.result_of_not_mem _ _ e5]
  unfold Vcall
  rw [Function.update_of_ne (StableHlo.devRef_ne_of_ne h4)]
  exact Vpre_keep m d r h0 h1 h2 h3

/-- What the end state says on device `d`: every array of @main at its last named contents, for a gathered array right
    on every block. -/
def fq (d : Dev nD) (s' : Phys nD τ sig (Elt F)) : Prop :=
  ∃ f, AllOK m hOK d f ∧ ∀ b ∈ UC, s'.mem.mem (d, b) = Vend m d f (OUT d f) b

theorem hfin (d : Dev nD) (s' : Phys nD τ sig (Elt F)) : iprop(FIN m hOK OUT d ∗ SI s') ⊢ (⌜fq m hOK OUT d s'⌝ : sProp 𝕄) := by
  unfold FIN StableHlo.held
  iintro ⟨⟨%f, %hf, Hh⟩, HSI⟩
  ihave Hr := (pointsTo_read_all UC (fun b => ((SparseCore.T d : Thread nD τ).1, b)) (Vend m d f (OUT d f)) s') $$ [Hh HSI]
  · isplitl [Hh] <;> iassumption
  icases Hr with ⟨%h, -⟩
  ipureintro; exact ⟨f, hf, h⟩

/-- The run's post: on every device the result array at `OUT` of a gathered array right on every block, and the seven
    arguments as launched. -/
def QC : PUnit × MemSt nD τ sig (Elt F) → Prop := fun r => ∀ c : Dev nD,
  (∃ f, AllOK m hOK c f ∧ r.2.mem ((c.tc : Thread nD τ).loc main_v8) = OUT c f)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)

theorem QC_of_fq (s' : Phys nD τ sig (Elt F)) (h : ∀ d, fq m hOK OUT d s') : QC m hOK OUT (⟨⟩, s'.mem) := by
  intro c
  obtain ⟨f, hf, hb⟩ := h c
  have hm : ∀ r : Ref sig .tc, (Proc.devRef .tc r : DevRef τ sig).isScoped = false → s'.mem.mem (c, Proc.devRef .tc r) = Vend m c f (OUT c f) (Proc.devRef .tc r) :=
    fun r hr => hb _ (Finset.mem_filter.mpr ⟨StableHlo.devRef_mem_tcRefs r, by rw [hr]; exact Bool.false_ne_true⟩)
  refine ⟨⟨f, hf, (hm main_v8 rfl).trans (by unfold Vend; exact Function.update_self _ _ _)⟩, ?_, ?_, ?_, ?_, ?_, ?_, ?_⟩
  · exact (hm main_arg0 rfl).trans (Vend_keep m c f _ main_arg0 (by decide) (by decide) (by decide) (by decide) (by decide) (by decide) (by decide) (by decide) (by decide))
  · exact (hm main_arg1 rfl).trans (Vend_keep m c f _ main_arg1 (by decide) (by decide) (by decide) (by decide) (by decide) (by decide) (by decide) (by decide) (by decide))
  · exact (hm main_arg2 rfl).trans (Vend_keep m c f _ main_arg2 (by decide) (by decide) (by decide) (by decide) (by decide) (by decide) (by decide) (by decide) (by decide))
  · exact (hm main_arg3 rfl).trans (Vend_keep m c f _ main_arg3 (by decide) (by decide) (by decide) (by decide) (by decide) (by decide) (by decide) (by decide) (by decide))
  · exact (hm main_arg4 rfl).trans (Vend_keep m c f _ main_arg4 (by decide) (by decide) (by decide) (by decide) (by decide) (by decide) (by decide) (by decide) (by decide))
  · exact (hm main_arg5 rfl).trans (Vend_keep m c f _ main_arg5 (by decide) (by decide) (by decide) (by decide) (by decide) (by decide) (by decide) (by decide) (by decide))
  · exact (hm main_arg6 rfl).trans (Vend_keep m c f _ main_arg6 (by decide) (by decide) (by decide) (by decide) (by decide) (by decide) (by decide) (by decide) (by decide))

/-- THE RUN: given the region's contract, every weakly fair execution of the program's 35 threads ends, faulting nowhere,
    with the result array at `OUT` of the gathered rows and the arguments unchanged. -/
theorem run_main [∀ e, Nonempty (Elt F e)] (hR : RegionSpec m hOK OUT) :
    θ_run (Cert.Kernel.defs (F := F)) (Cert.Kernel.threads (F := F)) ⟨m, fun _ => 0, ρ⟩ (QC m hOK OUT) :=
  SparseCore.Cfg.θ_run_sc (K := K (F := F)) (D := D (F := F)) (𝒱 := 𝒱) (EH := EH) (P := P m hOK) facts v₀
    (fun q hq => match q with | 0 => nomatch hq)
    (fun q _ => match q with | 0 => tileObl m hOK)
    (fun q _ => match q with | 0 => SparseCore.Cfg.VecSplit.of_plain (vecSplit m hOK))
    m ρ main (fun d => G (F := F) d) (FIN m hOK OUT) (u₀ (F := F)) (sep_elim_left.trans (hu₀ m hOK)) (hmain m ρ hOK OUT hR)
    (fq m hOK OUT) (hfin m hOK OUT) (QC m hOK OUT) (QC_of_fq m hOK OUT)

end Run

/-! ## The precondition's range, at the index list -/

section Range
variable [FloatOps F]

/-- The index list is state_indices transposed and flattened, so each of its entries is an entry of state_indices: if
    those all name table rows, so do the list's. -/
theorem idxOK_of_range (h : ∀ (d : Dev nD) (x : S16x512.Idx), (m ((SparseCore.T d : Thread nD τ).loc main_arg1) x).toNat < 1024) :
    ∀ d : Dev nD, IdxOK d (idxV m d) := by
  intro d L x
  have e : idxV m d = fun i => shapeCast S8192 (transpose S512x16 [1, 0] (m ((SparseCore.T d : Thread nD τ).loc main_arg1)) transposes_S16x512_S512x16_1_0)
      shapeCasts_S512x16_S8192 i := by
    unfold idxV Vpre; after_results; rfl
  show (idxV m d ((idxBlk L).view.emb x)).toNat < 1024
  rw [e]
  exact h d _

end Range

end Cert.Proof.BitsMain

end
-- ==== Proof.BitsRegionOffsets.lean ====
import proofs.«213871_g15814069584205_fold_wed_c4_299_27_alg».proof.Proof.Gen.Kernel.Launch
import proofs.«213871_g15814069584205_fold_wed_c4_299_27_alg».proof.Proof.Gen.Kernel.Skeleton
import proofs.«213871_g15814069584205_fold_wed_c4_299_27_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Proof.BitsRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The row offsets of the recurrence's reads and of the projection's store, in closed form: the slot is the
    parity of the point (store) or of the point before (reads), the row is sixteen times the step. Stated per
    parity, so that every rectangle of a run is a literal one. -/

/-- The first conditional's word: the grid coordinate is zero. -/
abbrev cond1 (i : grid1.Coords) : Prop :=
  (Scalar.cmpi .ne (Scalar.extui (Scalar.cmpi .eq (BitVec.ofNat 32 (i 0).val) 0#32)) 0#32) = 1#1

/-- Either projection slot lies in the two-slot buffer. -/
theorem inb_slot0 : ∀ a, (![0, 0, 0] : Fin 3 → Nat) a + S1x2048x512.size a ≤ S2x2048x512.size a := by decide
theorem inb_slot1 : ∀ a, (![1, 0, 0] : Fin 3 → Nat) a + S1x2048x512.size a ≤ S2x2048x512.size a := by decide

/-- The parity of a grid point: it names the projection slot the point writes; the other one is the slot it reads. -/
class Par (i : grid1.Coords) (p : ℕ) : Prop where
  eq : (i 0).val % 2 = p

theorem k1_off1_even : ∀ i : grid1.Coords, (i 0).val % 2 = 0 → k1_off1 i = ![0, 0, 0] := by decide +kernel
theorem k1_off1_odd : ∀ i : grid1.Coords, (i 0).val % 2 = 1 → k1_off1 i = ![1, 0, 0] := by decide +kernel
instance closedOff_k1_off1_even (i : grid1.Coords) [h : Par i 0] : ClosedOff (k1_off1 i) := ⟨![0, 0, 0], k1_off1_even i h.eq⟩
instance closedOff_k1_off1_odd (i : grid1.Coords) [h : Par i 1] : ClosedOff (k1_off1 i) := ⟨![1, 0, 0], k1_off1_odd i h.eq⟩
theorem k1_off2_even : ∀ i : grid1.Coords, (i 0).val % 2 = 0 → k1_off2 i = ![1, 0, 0] := by decide +kernel
theorem k1_off2_odd : ∀ i : grid1.Coords, (i 0).val % 2 = 1 → k1_off2 i = ![0, 0, 0] := by decide +kernel
instance closedOff_k1_off2_even (i : grid1.Coords) [h : Par i 0] : ClosedOff (k1_off2 i) := ⟨![1, 0, 0], k1_off2_even i h.eq⟩
instance closedOff_k1_off2_odd (i : grid1.Coords) [h : Par i 1] : ClosedOff (k1_off2 i) := ⟨![0, 0, 0], k1_off2_odd i h.eq⟩
theorem k1_off3_even : ∀ i : grid1.Coords, (i 0).val % 2 = 0 → k1_off3 i = ![1, 16, 0] := by decide +kernel
theorem k1_off3_odd : ∀ i : grid1.Coords, (i 0).val % 2 = 1 → k1_off3 i = ![0, 16, 0] := by decide +kernel
instance closedOff_k1_off3_even (i : grid1.Coords) [h : Par i 0] : ClosedOff (k1_off3 i) := ⟨![1, 16, 0], k1_off3_even i h.eq⟩
instance closedOff_k1_off3_odd (i : grid1.Coords) [h : Par i 1] : ClosedOff (k1_off3 i) := ⟨![0, 16, 0], k1_off3_odd i h.eq⟩
theorem k1_off4_even : ∀ i : grid1.Coords, (i 0).val % 2 = 0 → k1_off4 i = ![1, 32, 0] := by decide +kernel
theorem k1_off4_odd : ∀ i : grid1.Coords, (i 0).val % 2 = 1 → k1_off4 i = ![0, 32, 0] := by decide +kernel
instance closedOff_k1_off4_even (i : grid1.Coords) [h : Par i 0] : ClosedOff (k1_off4 i) := ⟨![1, 32, 0], k1_off4_even i h.eq⟩
instance closedOff_k1_off4_odd (i : grid1.Coords) [h : Par i 1] : ClosedOff (k1_off4 i) := ⟨![0, 32, 0], k1_off4_odd i h.eq⟩
theorem k1_off5_even : ∀ i : grid1.Coords, (i 0).val % 2 = 0 → k1_off5 i = ![1, 48, 0] := by decide +kernel
theorem k1_off5_odd : ∀ i : grid1.Coords, (i 0).val % 2 = 1 → k1_off5 i = ![0, 48, 0] := by decide +kernel
instance closedOff_k1_off5_even (i : grid1.Coords) [h : Par i 0] : ClosedOff (k1_off5 i) := ⟨![1, 48, 0], k1_off5_even i h.eq⟩
instance closedOff_k1_off5_odd (i : grid1.Coords) [h : Par i 1] : ClosedOff (k1_off5 i) := ⟨![0, 48, 0], k1_off5_odd i h.eq⟩
theorem k1_off6_even : ∀ i : grid1.Coords, (i 0).val % 2 = 0 → k1_off6 i = ![1, 64, 0] := by decide +kernel
theorem k1_off6_odd : ∀ i : grid1.Coords, (i 0).val % 2 = 1 → k1_off6 i = ![0, 64, 0] := by decide +kernel
instance closedOff_k1_off6_even (i : grid1.Coords) [h : Par i 0] : ClosedOff (k1_off6 i) := ⟨![1, 64, 0], k1_off6_even i h.eq⟩
instance closedOff_k1_off6_odd (i : grid1.Coords) [h : Par i 1] : ClosedOff (k1_off6 i) := ⟨![0, 64, 0], k1_off6_odd i h.eq⟩
theorem k1_off7_even : ∀ i : grid1.Coords, (i 0).val % 2 = 0 → k1_off7 i = ![1, 80, 0] := by decide +kernel
theorem k1_off7_odd : ∀ i : grid1.Coords, (i 0).val % 2 = 1 → k1_off7 i = ![0, 80, 0] := by decide +kernel
instance closedOff_k1_off7_even (i : grid1.Coords) [h : Par i 0] : ClosedOff (k1_off7 i) := ⟨![1, 80, 0], k1_off7_even i h.eq⟩
instance closedOff_k1_off7_odd (i : grid1.Coords) [h : Par i 1] : ClosedOff (k1_off7 i) := ⟨![0, 80, 0], k1_off7_odd i h.eq⟩
theorem k1_off8_even : ∀ i : grid1.Coords, (i 0).val % 2 = 0 → k1_off8 i = ![1, 96, 0] := by decide +kernel
theorem k1_off8_odd : ∀ i : grid1.Coords, (i 0).val % 2 = 1 → k1_off8 i = ![0, 96, 0] := by decide +kernel
instance closedOff_k1_off8_even (i : grid1.Coords) [h : Par i 0] : ClosedOff (k1_off8 i) := ⟨![1, 96, 0], k1_off8_even i h.eq⟩
instance closedOff_k1_off8_odd (i : grid1.Coords) [h : Par i 1] : ClosedOff (k1_off8 i) := ⟨![0, 96, 0], k1_off8_odd i h.eq⟩
theorem k1_off9_even : ∀ i : grid1.Coords, (i 0).val % 2 = 0 → k1_off9 i = ![1, 112, 0] := by decide +kernel
theorem k1_off9_odd : ∀ i : grid1.Coords, (i 0).val % 2 = 1 → k1_off9 i = ![0, 112, 0] := by decide +kernel
instance closedOff_k1_off9_even (i : grid1.Coords) [h : Par i 0] : ClosedOff (k1_off9 i) := ⟨![1, 112, 0], k1_off9_even i h.eq⟩
instance closedOff_k1_off9_odd (i : grid1.Coords) [h : Par i 1] : ClosedOff (k1_off9 i) := ⟨![0, 112, 0], k1_off9_odd i h.eq⟩
theorem k1_off10_even : ∀ i : grid1.Coords, (i 0).val % 2 = 0 → k1_off10 i = ![1, 128, 0] := by decide +kernel
theorem k1_off10_odd : ∀ i : grid1.Coords, (i 0).val % 2 = 1 → k1_off10 i = ![0, 128, 0] := by decide +kernel
instance closedOff_k1_off10_even (i : grid1.Coords) [h : Par i 0] : ClosedOff (k1_off10 i) := ⟨![1, 128, 0], k1_off10_even i h.eq⟩
instance closedOff_k1_off10_odd (i : grid1.Coords) [h : Par i 1] : ClosedOff (k1_off10 i) := ⟨![0, 128, 0], k1_off10_odd i h.eq⟩
theorem k1_off11_even : ∀ i : grid1.Coords, (i 0).val % 2 = 0 → k1_off11 i = ![1, 144, 0] := by decide +kernel
theorem k1_off11_odd : ∀ i : grid1.Coords, (i 0).val % 2 = 1 → k1_off11 i = ![0, 144, 0] := by decide +kernel
instance closedOff_k1_off11_even (i : grid1.Coords) [h : Par i 0] : ClosedOff (k1_off11 i) := ⟨![1, 144, 0], k1_off11_even i h.eq⟩
instance closedOff_k1_off11_odd (i : grid1.Coords) [h : Par i 1] : ClosedOff (k1_off11 i) := ⟨![0, 144, 0], k1_off11_odd i h.eq⟩
theorem k1_off12_even : ∀ i : grid1.Coords, (i 0).val % 2 = 0 → k1_off12 i = ![1, 160, 0] := by decide +kernel
theorem k1_off12_odd : ∀ i : grid1.Coords, (i 0).val % 2 = 1 → k1_off12 i = ![0, 160, 0] := by decide +kernel
instance closedOff_k1_off12_even (i : grid1.Coords) [h : Par i 0] : ClosedOff (k1_off12 i) := ⟨![1, 160, 0], k1_off12_even i h.eq⟩
instance closedOff_k1_off12_odd (i : grid1.Coords) [h : Par i 1] : ClosedOff (k1_off12 i) := ⟨![0, 160, 0], k1_off12_odd i h.eq⟩
theorem k1_off13_even : ∀ i : grid1.Coords, (i 0).val % 2 = 0 → k1_off13 i = ![1, 176, 0] := by decide +kernel
theorem k1_off13_odd : ∀ i : grid1.Coords, (i 0).val % 2 = 1 → k1_off13 i = ![0, 176, 0] := by decide +kernel
instance closedOff_k1_off13_even (i : grid1.Coords) [h : Par i 0] : ClosedOff (k1_off13 i) := ⟨![1, 176, 0], k1_off13_even i h.eq⟩
instance closedOff_k1_off13_odd (i : grid1.Coords) [h : Par i 1] : ClosedOff (k1_off13 i) := ⟨![0, 176, 0], k1_off13_odd i h.eq⟩
theorem k1_off14_even : ∀ i : grid1.Coords, (i 0).val % 2 = 0 → k1_off14 i = ![1, 192, 0] := by decide +kernel
theorem k1_off14_odd : ∀ i : grid1.Coords, (i 0).val % 2 = 1 → k1_off14 i = ![0, 192, 0] := by decide +kernel
instance closedOff_k1_off14_even (i : grid1.Coords) [h : Par i 0] : ClosedOff (k1_off14 i) := ⟨![1, 192, 0], k1_off14_even i h.eq⟩
instance closedOff_k1_off14_odd (i : grid1.Coords) [h : Par i 1] : ClosedOff (k1_off14 i) := ⟨![0, 192, 0], k1_off14_odd i h.eq⟩
theorem k1_off15_even : ∀ i : grid1.Coords, (i 0).val % 2 = 0 → k1_off15 i = ![1, 208, 0] := by decide +kernel
theorem k1_off15_odd : ∀ i : grid1.Coords, (i 0).val % 2 = 1 → k1_off15 i = ![0, 208, 0] := by decide +kernel
instance closedOff_k1_off15_even (i : grid1.Coords) [h : Par i 0] : ClosedOff (k1_off15 i) := ⟨![1, 208, 0], k1_off15_even i h.eq⟩
instance closedOff_k1_off15_odd (i : grid1.Coords) [h : Par i 1] : ClosedOff (k1_off15 i) := ⟨![0, 208, 0], k1_off15_odd i h.eq⟩
theorem k1_off16_even : ∀ i : grid1.Coords, (i 0).val % 2 = 0 → k1_off16 i = ![1, 224, 0] := by decide +kernel
theorem k1_off16_odd : ∀ i : grid1.Coords, (i 0).val % 2 = 1 → k1_off16 i = ![0, 224, 0] := by decide +kernel
instance closedOff_k1_off16_even (i : grid1.Coords) [h : Par i 0] : ClosedOff (k1_off16 i) := ⟨![1, 224, 0], k1_off16_even i h.eq⟩
instance closedOff_k1_off16_odd (i : grid1.Coords) [h : Par i 1] : ClosedOff (k1_off16 i) := ⟨![0, 224, 0], k1_off16_odd i h.eq⟩
theorem k1_off17_even : ∀ i : grid1.Coords, (i 0).val % 2 = 0 → k1_off17 i = ![1, 240, 0] := by decide +kernel
theorem k1_off17_odd : ∀ i : grid1.Coords, (i 0).val % 2 = 1 → k1_off17 i = ![0, 240, 0] := by decide +kernel
instance closedOff_k1_off17_even (i : grid1.Coords) [h : Par i 0] : ClosedOff (k1_off17 i) := ⟨![1, 240, 0], k1_off17_even i h.eq⟩
instance closedOff_k1_off17_odd (i : grid1.Coords) [h : Par i 1] : ClosedOff (k1_off17 i) := ⟨![0, 240, 0], k1_off17_odd i h.eq⟩
theorem k1_off18_even : ∀ i : grid1.Coords, (i 0).val % 2 = 0 → k1_off18 i = ![1, 256, 0] := by decide +kernel
theorem k1_off18_odd : ∀ i : grid1.Coords, (i 0).val % 2 = 1 → k1_off18 i = ![0, 256, 0] := by decide +kernel
instance closedOff_k1_off18_even (i : grid1.Coords) [h : Par i 0] : ClosedOff (k1_off18 i) := ⟨![1, 256, 0], k1_off18_even i h.eq⟩
instance closedOff_k1_off18_odd (i : grid1.Coords) [h : Par i 1] : ClosedOff (k1_off18 i) := ⟨![0, 256, 0], k1_off18_odd i h.eq⟩
theorem k1_off19_even : ∀ i : grid1.Coords, (i 0).val % 2 = 0 → k1_off19 i = ![1, 272, 0] := by decide +kernel
theorem k1_off19_odd : ∀ i : grid1.Coords, (i 0).val % 2 = 1 → k1_off19 i = ![0, 272, 0] := by decide +kernel
instance closedOff_k1_off19_even (i : grid1.Coords) [h : Par i 0] : ClosedOff (k1_off19 i) := ⟨![1, 272, 0], k1_off19_even i h.eq⟩
instance closedOff_k1_off19_odd (i : grid1.Coords) [h : Par i 1] : ClosedOff (k1_off19 i) := ⟨![0, 272, 0], k1_off19_odd i h.eq⟩
theorem k1_off20_even : ∀ i : grid1.Coords, (i 0).val % 2 = 0 → k1_off20 i = ![1, 288, 0] := by decide +kernel
theorem k1_off20_odd : ∀ i : grid1.Coords, (i 0).val % 2 = 1 → k1_off20 i = ![0, 288, 0] := by decide +kernel
instance closedOff_k1_off20_even (i : grid1.Coords) [h : Par i 0] : ClosedOff (k1_off20 i) := ⟨![1, 288, 0], k1_off20_even i h.eq⟩
instance closedOff_k1_off20_odd (i : grid1.Coords) [h : Par i 1] : ClosedOff (k1_off20 i) := ⟨![0, 288, 0], k1_off20_odd i h.eq⟩
theorem k1_off21_even : ∀ i : grid1.Coords, (i 0).val % 2 = 0 → k1_off21 i = ![1, 304, 0] := by decide +kernel
theorem k1_off21_odd : ∀ i : grid1.Coords, (i 0).val % 2 = 1 → k1_off21 i = ![0, 304, 0] := by decide +kernel
instance closedOff_k1_off21_even (i : grid1.Coords) [h : Par i 0] : ClosedOff (k1_off21 i) := ⟨![1, 304, 0], k1_off21_even i h.eq⟩
instance closedOff_k1_off21_odd (i : grid1.Coords) [h : Par i 1] : ClosedOff (k1_off21 i) := ⟨![0, 304, 0], k1_off21_odd i h.eq⟩
theorem k1_off22_even : ∀ i : grid1.Coords, (i 0).val % 2 = 0 → k1_off22 i = ![1, 320, 0] := by decide +kernel
theorem k1_off22_odd : ∀ i : grid1.Coords, (i 0).val % 2 = 1 → k1_off22 i = ![0, 320, 0] := by decide +kernel
instance closedOff_k1_off22_even (i : grid1.Coords) [h : Par i 0] : ClosedOff (k1_off22 i) := ⟨![1, 320, 0], k1_off22_even i h.eq⟩
instance closedOff_k1_off22_odd (i : grid1.Coords) [h : Par i 1] : ClosedOff (k1_off22 i) := ⟨![0, 320, 0], k1_off22_odd i h.eq⟩
theorem k1_off23_even : ∀ i : grid1.Coords, (i 0).val % 2 = 0 → k1_off23 i = ![1, 336, 0] := by decide +kernel
theorem k1_off23_odd : ∀ i : grid1.Coords, (i 0).val % 2 = 1 → k1_off23 i = ![0, 336, 0] := by decide +kernel
instance closedOff_k1_off23_even (i : grid1.Coords) [h : Par i 0] : ClosedOff (k1_off23 i) := ⟨![1, 336, 0], k1_off23_even i h.eq⟩
instance closedOff_k1_off23_odd (i : grid1.Coords) [h : Par i 1] : ClosedOff (k1_off23 i) := ⟨![0, 336, 0], k1_off23_odd i h.eq⟩
theorem k1_off24_even : ∀ i : grid1.Coords, (i 0).val % 2 = 0 → k1_off24 i = ![1, 352, 0] := by decide +kernel
theorem k1_off24_odd : ∀ i : grid1.Coords, (i 0).val % 2 = 1 → k1_off24 i = ![0, 352, 0] := by decide +kernel
instance closedOff_k1_off24_even (i : grid1.Coords) [h : Par i 0] : ClosedOff (k1_off24 i) := ⟨![1, 352, 0], k1_off24_even i h.eq⟩
instance closedOff_k1_off24_odd (i : grid1.Coords) [h : Par i 1] : ClosedOff (k1_off24 i) := ⟨![0, 352, 0], k1_off24_odd i h.eq⟩
theorem k1_off25_even : ∀ i : grid1.Coords, (i 0).val % 2 = 0 → k1_off25 i = ![1, 368, 0] := by decide +kernel
theorem k1_off25_odd : ∀ i : grid1.Coords, (i 0).val % 2 = 1 → k1_off25 i = ![0, 368, 0] := by decide +kernel
instance closedOff_k1_off25_even (i : grid1.Coords) [h : Par i 0] : ClosedOff (k1_off25 i) := ⟨![1, 368, 0], k1_off25_even i h.eq⟩
instance closedOff_k1_off25_odd (i : grid1.Coords) [h : Par i 1] : ClosedOff (k1_off25 i) := ⟨![0, 368, 0], k1_off25_odd i h.eq⟩
theorem k1_off26_even : ∀ i : grid1.Coords, (i 0).val % 2 = 0 → k1_off26 i = ![1, 384, 0] := by decide +kernel
theorem k1_off26_odd : ∀ i : grid1.Coords, (i 0).val % 2 = 1 → k1_off26 i = ![0, 384, 0] := by decide +kernel
instance closedOff_k1_off26_even (i : grid1.Coords) [h : Par i 0] : ClosedOff (k1_off26 i) := ⟨![1, 384, 0], k1_off26_even i h.eq⟩
instance closedOff_k1_off26_odd (i : grid1.Coords) [h : Par i 1] : ClosedOff (k1_off26 i) := ⟨![0, 384, 0], k1_off26_odd i h.eq⟩
theorem k1_off27_even : ∀ i : grid1.Coords, (i 0).val % 2 = 0 → k1_off27 i = ![1, 400, 0] := by decide +kernel
theorem k1_off27_odd : ∀ i : grid1.Coords, (i 0).val % 2 = 1 → k1_off27 i = ![0, 400, 0] := by decide +kernel
instance closedOff_k1_off27_even (i : grid1.Coords) [h : Par i 0] : ClosedOff (k1_off27 i) := ⟨![1, 400, 0], k1_off27_even i h.eq⟩
instance closedOff_k1_off27_odd (i : grid1.Coords) [h : Par i 1] : ClosedOff (k1_off27 i) := ⟨![0, 400, 0], k1_off27_odd i h.eq⟩
theorem k1_off28_even : ∀ i : grid1.Coords, (i 0).val % 2 = 0 → k1_off28 i = ![1, 416, 0] := by decide +kernel
theorem k1_off28_odd : ∀ i : grid1.Coords, (i 0).val % 2 = 1 → k1_off28 i = ![0, 416, 0] := by decide +kernel
instance closedOff_k1_off28_even (i : grid1.Coords) [h : Par i 0] : ClosedOff (k1_off28 i) := ⟨![1, 416, 0], k1_off28_even i h.eq⟩
instance closedOff_k1_off28_odd (i : grid1.Coords) [h : Par i 1] : ClosedOff (k1_off28 i) := ⟨![0, 416, 0], k1_off28_odd i h.eq⟩
theorem k1_off29_even : ∀ i : grid1.Coords, (i 0).val % 2 = 0 → k1_off29 i = ![1, 432, 0] := by decide +kernel
theorem k1_off29_odd : ∀ i : grid1.Coords, (i 0).val % 2 = 1 → k1_off29 i = ![0, 432, 0] := by decide +kernel
instance closedOff_k1_off29_even (i : grid1.Coords) [h : Par i 0] : ClosedOff (k1_off29 i) := ⟨![1, 432, 0], k1_off29_even i h.eq⟩
instance closedOff_k1_off29_odd (i : grid1.Coords) [h : Par i 1] : ClosedOff (k1_off29 i) := ⟨![0, 432, 0], k1_off29_odd i h.eq⟩
theorem k1_off30_even : ∀ i : grid1.Coords, (i 0).val % 2 = 0 → k1_off30 i = ![1, 448, 0] := by decide +kernel
theorem k1_off30_odd : ∀ i : grid1.Coords, (i 0).val % 2 = 1 → k1_off30 i = ![0, 448, 0] := by decide +kernel
instance closedOff_k1_off30_even (i : grid1.Coords) [h : Par i 0] : ClosedOff (k1_off30 i) := ⟨![1, 448, 0], k1_off30_even i h.eq⟩
instance closedOff_k1_off30_odd (i : grid1.Coords) [h : Par i 1] : ClosedOff (k1_off30 i) := ⟨![0, 448, 0], k1_off30_odd i h.eq⟩
theorem k1_off31_even : ∀ i : grid1.Coords, (i 0).val % 2 = 0 → k1_off31 i = ![1, 464, 0] := by decide +kernel
theorem k1_off31_odd : ∀ i : grid1.Coords, (i 0).val % 2 = 1 → k1_off31 i = ![0, 464, 0] := by decide +kernel
instance closedOff_k1_off31_even (i : grid1.Coords) [h : Par i 0] : ClosedOff (k1_off31 i) := ⟨![1, 464, 0], k1_off31_even i h.eq⟩
instance closedOff_k1_off31_odd (i : grid1.Coords) [h : Par i 1] : ClosedOff (k1_off31 i) := ⟨![0, 464, 0], k1_off31_odd i h.eq⟩
theorem k1_off32_even : ∀ i : grid1.Coords, (i 0).val % 2 = 0 → k1_off32 i = ![1, 480, 0] := by decide +kernel
theorem k1_off32_odd : ∀ i : grid1.Coords, (i 0).val % 2 = 1 → k1_off32 i = ![0, 480, 0] := by decide +kernel
instance closedOff_k1_off32_even (i : grid1.Coords) [h : Par i 0] : ClosedOff (k1_off32 i) := ⟨![1, 480, 0], k1_off32_even i h.eq⟩
instance closedOff_k1_off32_odd (i : grid1.Coords) [h : Par i 1] : ClosedOff (k1_off32 i) := ⟨![0, 480, 0], k1_off32_odd i h.eq⟩
theorem k1_off33_even : ∀ i : grid1.Coords, (i 0).val % 2 = 0 → k1_off33 i = ![1, 496, 0] := by decide +kernel
theorem k1_off33_odd : ∀ i : grid1.Coords, (i 0).val % 2 = 1 → k1_off33 i = ![0, 496, 0] := by decide +kernel
instance closedOff_k1_off33_even (i : grid1.Coords) [h : Par i 0] : ClosedOff (k1_off33 i) := ⟨![1, 496, 0], k1_off33_even i h.eq⟩
instance closedOff_k1_off33_odd (i : grid1.Coords) [h : Par i 1] : ClosedOff (k1_off33 i) := ⟨![0, 496, 0], k1_off33_odd i h.eq⟩
theorem k1_off34_even : ∀ i : grid1.Coords, (i 0).val % 2 = 0 → k1_off34 i = ![1, 512, 0] := by decide +kernel
theorem k1_off34_odd : ∀ i : grid1.Coords, (i 0).val % 2 = 1 → k1_off34 i = ![0, 512, 0] := by decide +kernel
instance closedOff_k1_off34_even (i : grid1.Coords) [h : Par i 0] : ClosedOff (k1_off34 i) := ⟨![1, 512, 0], k1_off34_even i h.eq⟩
instance closedOff_k1_off34_odd (i : grid1.Coords) [h : Par i 1] : ClosedOff (k1_off34 i) := ⟨![0, 512, 0], k1_off34_odd i h.eq⟩
theorem k1_off35_even : ∀ i : grid1.Coords, (i 0).val % 2 = 0 → k1_off35 i = ![1, 528, 0] := by decide +kernel
theorem k1_off35_odd : ∀ i : grid1.Coords, (i 0).val % 2 = 1 → k1_off35 i = ![0, 528, 0] := by decide +kernel
instance closedOff_k1_off35_even (i : grid1.Coords) [h : Par i 0] : ClosedOff (k1_off35 i) := ⟨![1, 528, 0], k1_off35_even i h.eq⟩
instance closedOff_k1_off35_odd (i : grid1.Coords) [h : Par i 1] : ClosedOff (k1_off35 i) := ⟨![0, 528, 0], k1_off35_odd i h.eq⟩
theorem k1_off36_even : ∀ i : grid1.Coords, (i 0).val % 2 = 0 → k1_off36 i = ![1, 544, 0] := by decide +kernel
theorem k1_off36_odd : ∀ i : grid1.Coords, (i 0).val % 2 = 1 → k1_off36 i = ![0, 544, 0] := by decide +kernel
instance closedOff_k1_off36_even (i : grid1.Coords) [h : Par i 0] : ClosedOff (k1_off36 i) := ⟨![1, 544, 0], k1_off36_even i h.eq⟩
instance closedOff_k1_off36_odd (i : grid1.Coords) [h : Par i 1] : ClosedOff (k1_off36 i) := ⟨![0, 544, 0], k1_off36_odd i h.eq⟩
theorem k1_off37_even : ∀ i : grid1.Coords, (i 0).val % 2 = 0 → k1_off37 i = ![1, 560, 0] := by decide +kernel
theorem k1_off37_odd : ∀ i : grid1.Coords, (i 0).val % 2 = 1 → k1_off37 i = ![0, 560, 0] := by decide +kernel
instance closedOff_k1_off37_even (i : grid1.Coords) [h : Par i 0] : ClosedOff (k1_off37 i) := ⟨![1, 560, 0], k1_off37_even i h.eq⟩
instance closedOff_k1_off37_odd (i : grid1.Coords) [h : Par i 1] : ClosedOff (k1_off37 i) := ⟨![0, 560, 0], k1_off37_odd i h.eq⟩
theorem k1_off38_even : ∀ i : grid1.Coords, (i 0).val % 2 = 0 → k1_off38 i = ![1, 576, 0] := by decide +kernel
theorem k1_off38_odd : ∀ i : grid1.Coords, (i 0).val % 2 = 1 → k1_off38 i = ![0, 576, 0] := by decide +kernel
instance closedOff_k1_off38_even (i : grid1.Coords) [h : Par i 0] : ClosedOff (k1_off38 i) := ⟨![1, 576, 0], k1_off38_even i h.eq⟩
instance closedOff_k1_off38_odd (i : grid1.Coords) [h : Par i 1] : ClosedOff (k1_off38 i) := ⟨![0, 576, 0], k1_off38_odd i h.eq⟩
theorem k1_off39_even : ∀ i : grid1.Coords, (i 0).val % 2 = 0 → k1_off39 i = ![1, 592, 0] := by decide +kernel
theorem k1_off39_odd : ∀ i : grid1.Coords, (i 0).val % 2 = 1 → k1_off39 i = ![0, 592, 0] := by decide +kernel
instance closedOff_k1_off39_even (i : grid1.Coords) [h : Par i 0] : ClosedOff (k1_off39 i) := ⟨![1, 592, 0], k1_off39_even i h.eq⟩
instance closedOff_k1_off39_odd (i : grid1.Coords) [h : Par i 1] : ClosedOff (k1_off39 i) := ⟨![0, 592, 0], k1_off39_odd i h.eq⟩
theorem k1_off40_even : ∀ i : grid1.Coords, (i 0).val % 2 = 0 → k1_off40 i = ![1, 608, 0] := by decide +kernel
theorem k1_off40_odd : ∀ i : grid1.Coords, (i 0).val % 2 = 1 → k1_off40 i = ![0, 608, 0] := by decide +kernel
instance closedOff_k1_off40_even (i : grid1.Coords) [h : Par i 0] : ClosedOff (k1_off40 i) := ⟨![1, 608, 0], k1_off40_even i h.eq⟩
instance closedOff_k1_off40_odd (i : grid1.Coords) [h : Par i 1] : ClosedOff (k1_off40 i) := ⟨![0, 608, 0], k1_off40_odd i h.eq⟩
theorem k1_off41_even : ∀ i : grid1.Coords, (i 0).val % 2 = 0 → k1_off41 i = ![1, 624, 0] := by decide +kernel
theorem k1_off41_odd : ∀ i : grid1.Coords, (i 0).val % 2 = 1 → k1_off41 i = ![0, 624, 0] := by decide +kernel
instance closedOff_k1_off41_even (i : grid1.Coords) [h : Par i 0] : ClosedOff (k1_off41 i) := ⟨![1, 624, 0], k1_off41_even i h.eq⟩
instance closedOff_k1_off41_odd (i : grid1.Coords) [h : Par i 1] : ClosedOff (k1_off41 i) := ⟨![0, 624, 0], k1_off41_odd i h.eq⟩
theorem k1_off42_even : ∀ i : grid1.Coords, (i 0).val % 2 = 0 → k1_off42 i = ![1, 640, 0] := by decide +kernel
theorem k1_off42_odd : ∀ i : grid1.Coords, (i 0).val % 2 = 1 → k1_off42 i = ![0, 640, 0] := by decide +kernel
instance closedOff_k1_off42_even (i : grid1.Coords) [h : Par i 0] : ClosedOff (k1_off42 i) := ⟨![1, 640, 0], k1_off42_even i h.eq⟩
instance closedOff_k1_off42_odd (i : grid1.Coords) [h : Par i 1] : ClosedOff (k1_off42 i) := ⟨![0, 640, 0], k1_off42_odd i h.eq⟩
theorem k1_off43_even : ∀ i : grid1.Coords, (i 0).val % 2 = 0 → k1_off43 i = ![1, 656, 0] := by decide +kernel
theorem k1_off43_odd : ∀ i : grid1.Coords, (i 0).val % 2 = 1 → k1_off43 i = ![0, 656, 0] := by decide +kernel
instance closedOff_k1_off43_even (i : grid1.Coords) [h : Par i 0] : ClosedOff (k1_off43 i) := ⟨![1, 656, 0], k1_off43_even i h.eq⟩
instance closedOff_k1_off43_odd (i : grid1.Coords) [h : Par i 1] : ClosedOff (k1_off43 i) := ⟨![0, 656, 0], k1_off43_odd i h.eq⟩
theorem k1_off44_even : ∀ i : grid1.Coords, (i 0).val % 2 = 0 → k1_off44 i = ![1, 672, 0] := by decide +kernel
theorem k1_off44_odd : ∀ i : grid1.Coords, (i 0).val % 2 = 1 → k1_off44 i = ![0, 672, 0] := by decide +kernel
instance closedOff_k1_off44_even (i : grid1.Coords) [h : Par i 0] : ClosedOff (k1_off44 i) := ⟨![1, 672, 0], k1_off44_even i h.eq⟩
instance closedOff_k1_off44_odd (i : grid1.Coords) [h : Par i 1] : ClosedOff (k1_off44 i) := ⟨![0, 672, 0], k1_off44_odd i h.eq⟩
theorem k1_off45_even : ∀ i : grid1.Coords, (i 0).val % 2 = 0 → k1_off45 i = ![1, 688, 0] := by decide +kernel
theorem k1_off45_odd : ∀ i : grid1.Coords, (i 0).val % 2 = 1 → k1_off45 i = ![0, 688, 0] := by decide +kernel
instance closedOff_k1_off45_even (i : grid1.Coords) [h : Par i 0] : ClosedOff (k1_off45 i) := ⟨![1, 688, 0], k1_off45_even i h.eq⟩
instance closedOff_k1_off45_odd (i : grid1.Coords) [h : Par i 1] : ClosedOff (k1_off45 i) := ⟨![0, 688, 0], k1_off45_odd i h.eq⟩
theorem k1_off46_even : ∀ i : grid1.Coords, (i 0).val % 2 = 0 → k1_off46 i = ![1, 704, 0] := by decide +kernel
theorem k1_off46_odd : ∀ i : grid1.Coords, (i 0).val % 2 = 1 → k1_off46 i = ![0, 704, 0] := by decide +kernel
instance closedOff_k1_off46_even (i : grid1.Coords) [h : Par i 0] : ClosedOff (k1_off46 i) := ⟨![1, 704, 0], k1_off46_even i h.eq⟩
instance closedOff_k1_off46_odd (i : grid1.Coords) [h : Par i 1] : ClosedOff (k1_off46 i) := ⟨![0, 704, 0], k1_off46_odd i h.eq⟩
theorem k1_off47_even : ∀ i : grid1.Coords, (i 0).val % 2 = 0 → k1_off47 i = ![1, 720, 0] := by decide +kernel
theorem k1_off47_odd : ∀ i : grid1.Coords, (i 0).val % 2 = 1 → k1_off47 i = ![0, 720, 0] := by decide +kernel
instance closedOff_k1_off47_even (i : grid1.Coords) [h : Par i 0] : ClosedOff (k1_off47 i) := ⟨![1, 720, 0], k1_off47_even i h.eq⟩
instance closedOff_k1_off47_odd (i : grid1.Coords) [h : Par i 1] : ClosedOff (k1_off47 i) := ⟨![0, 720, 0], k1_off47_odd i h.eq⟩
theorem k1_off48_even : ∀ i : grid1.Coords, (i 0).val % 2 = 0 → k1_off48 i = ![1, 736, 0] := by decide +kernel
theorem k1_off48_odd : ∀ i : grid1.Coords, (i 0).val % 2 = 1 → k1_off48 i = ![0, 736, 0] := by decide +kernel
instance closedOff_k1_off48_even (i : grid1.Coords) [h : Par i 0] : ClosedOff (k1_off48 i) := ⟨![1, 736, 0], k1_off48_even i h.eq⟩
instance closedOff_k1_off48_odd (i : grid1.Coords) [h : Par i 1] : ClosedOff (k1_off48 i) := ⟨![0, 736, 0], k1_off48_odd i h.eq⟩
theorem k1_off49_even : ∀ i : grid1.Coords, (i 0).val % 2 = 0 → k1_off49 i = ![1, 752, 0] := by decide +kernel
theorem k1_off49_odd : ∀ i : grid1.Coords, (i 0).val % 2 = 1 → k1_off49 i = ![0, 752, 0] := by decide +kernel
instance closedOff_k1_off49_even (i : grid1.Coords) [h : Par i 0] : ClosedOff (k1_off49 i) := ⟨![1, 752, 0], k1_off49_even i h.eq⟩
instance closedOff_k1_off49_odd (i : grid1.Coords) [h : Par i 1] : ClosedOff (k1_off49 i) := ⟨![0, 752, 0], k1_off49_odd i h.eq⟩
theorem k1_off50_even : ∀ i : grid1.Coords, (i 0).val % 2 = 0 → k1_off50 i = ![1, 768, 0] := by decide +kernel
theorem k1_off50_odd : ∀ i : grid1.Coords, (i 0).val % 2 = 1 → k1_off50 i = ![0, 768, 0] := by decide +kernel
instance closedOff_k1_off50_even (i : grid1.Coords) [h : Par i 0] : ClosedOff (k1_off50 i) := ⟨![1, 768, 0], k1_off50_even i h.eq⟩
instance closedOff_k1_off50_odd (i : grid1.Coords) [h : Par i 1] : ClosedOff (k1_off50 i) := ⟨![0, 768, 0], k1_off50_odd i h.eq⟩
theorem k1_off51_even : ∀ i : grid1.Coords, (i 0).val % 2 = 0 → k1_off51 i = ![1, 784, 0] := by decide +kernel
theorem k1_off51_odd : ∀ i : grid1.Coords, (i 0).val % 2 = 1 → k1_off51 i = ![0, 784, 0] := by decide +kernel
instance closedOff_k1_off51_even (i : grid1.Coords) [h : Par i 0] : ClosedOff (k1_off51 i) := ⟨![1, 784, 0], k1_off51_even i h.eq⟩
instance closedOff_k1_off51_odd (i : grid1.Coords) [h : Par i 1] : ClosedOff (k1_off51 i) := ⟨![0, 784, 0], k1_off51_odd i h.eq⟩
theorem k1_off52_even : ∀ i : grid1.Coords, (i 0).val % 2 = 0 → k1_off52 i = ![1, 800, 0] := by decide +kernel
theorem k1_off52_odd : ∀ i : grid1.Coords, (i 0).val % 2 = 1 → k1_off52 i = ![0, 800, 0] := by decide +kernel
instance closedOff_k1_off52_even (i : grid1.Coords) [h : Par i 0] : ClosedOff (k1_off52 i) := ⟨![1, 800, 0], k1_off52_even i h.eq⟩
instance closedOff_k1_off52_odd (i : grid1.Coords) [h : Par i 1] : ClosedOff (k1_off52 i) := ⟨![0, 800, 0], k1_off52_odd i h.eq⟩
theorem k1_off53_even : ∀ i : grid1.Coords, (i 0).val % 2 = 0 → k1_off53 i = ![1, 816, 0] := by decide +kernel
theorem k1_off53_odd : ∀ i : grid1.Coords, (i 0).val % 2 = 1 → k1_off53 i = ![0, 816, 0] := by decide +kernel
instance closedOff_k1_off53_even (i : grid1.Coords) [h : Par i 0] : ClosedOff (k1_off53 i) := ⟨![1, 816, 0], k1_off53_even i h.eq⟩
instance closedOff_k1_off53_odd (i : grid1.Coords) [h : Par i 1] : ClosedOff (k1_off53 i) := ⟨![0, 816, 0], k1_off53_odd i h.eq⟩
theorem k1_off54_even : ∀ i : grid1.Coords, (i 0).val % 2 = 0 → k1_off54 i = ![1, 832, 0] := by decide +kernel
theorem k1_off54_odd : ∀ i : grid1.Coords, (i 0).val % 2 = 1 → k1_off54 i = ![0, 832, 0] := by decide +kernel
instance closedOff_k1_off54_even (i : grid1.Coords) [h : Par i 0] : ClosedOff (k1_off54 i) := ⟨![1, 832, 0], k1_off54_even i h.eq⟩
instance closedOff_k1_off54_odd (i : grid1.Coords) [h : Par i 1] : ClosedOff (k1_off54 i) := ⟨![0, 832, 0], k1_off54_odd i h.eq⟩
theorem k1_off55_even : ∀ i : grid1.Coords, (i 0).val % 2 = 0 → k1_off55 i = ![1, 848, 0] := by decide +kernel
theorem k1_off55_odd : ∀ i : grid1.Coords, (i 0).val % 2 = 1 → k1_off55 i = ![0, 848, 0] := by decide +kernel
instance closedOff_k1_off55_even (i : grid1.Coords) [h : Par i 0] : ClosedOff (k1_off55 i) := ⟨![1, 848, 0], k1_off55_even i h.eq⟩
instance closedOff_k1_off55_odd (i : grid1.Coords) [h : Par i 1] : ClosedOff (k1_off55 i) := ⟨![0, 848, 0], k1_off55_odd i h.eq⟩
theorem k1_off56_even : ∀ i : grid1.Coords, (i 0).val % 2 = 0 → k1_off56 i = ![1, 864, 0] := by decide +kernel
theorem k1_off56_odd : ∀ i : grid1.Coords, (i 0).val % 2 = 1 → k1_off56 i = ![0, 864, 0] := by decide +kernel
instance closedOff_k1_off56_even (i : grid1.Coords) [h : Par i 0] : ClosedOff (k1_off56 i) := ⟨![1, 864, 0], k1_off56_even i h.eq⟩
instance closedOff_k1_off56_odd (i : grid1.Coords) [h : Par i 1] : ClosedOff (k1_off56 i) := ⟨![0, 864, 0], k1_off56_odd i h.eq⟩
theorem k1_off57_even : ∀ i : grid1.Coords, (i 0).val % 2 = 0 → k1_off57 i = ![1, 880, 0] := by decide +kernel
theorem k1_off57_odd : ∀ i : grid1.Coords, (i 0).val % 2 = 1 → k1_off57 i = ![0, 880, 0] := by decide +kernel
instance closedOff_k1_off57_even (i : grid1.Coords) [h : Par i 0] : ClosedOff (k1_off57 i) := ⟨![1, 880, 0], k1_off57_even i h.eq⟩
instance closedOff_k1_off57_odd (i : grid1.Coords) [h : Par i 1] : ClosedOff (k1_off57 i) := ⟨![0, 880, 0], k1_off57_odd i h.eq⟩
theorem k1_off58_even : ∀ i : grid1.Coords, (i 0).val % 2 = 0 → k1_off58 i = ![1, 896, 0] := by decide +kernel
theorem k1_off58_odd : ∀ i : grid1.Coords, (i 0).val % 2 = 1 → k1_off58 i = ![0, 896, 0] := by decide +kernel
instance closedOff_k1_off58_even (i : grid1.Coords) [h : Par i 0] : ClosedOff (k1_off58 i) := ⟨![1, 896, 0], k1_off58_even i h.eq⟩
instance closedOff_k1_off58_odd (i : grid1.Coords) [h : Par i 1] : ClosedOff (k1_off58 i) := ⟨![0, 896, 0], k1_off58_odd i h.eq⟩
theorem k1_off59_even : ∀ i : grid1.Coords, (i 0).val % 2 = 0 → k1_off59 i = ![1, 912, 0] := by decide +kernel
theorem k1_off59_odd : ∀ i : grid1.Coords, (i 0).val % 2 = 1 → k1_off59 i = ![0, 912, 0] := by decide +kernel
instance closedOff_k1_off59_even (i : grid1.Coords) [h : Par i 0] : ClosedOff (k1_off59 i) := ⟨![1, 912, 0], k1_off59_even i h.eq⟩
instance closedOff_k1_off59_odd (i : grid1.Coords) [h : Par i 1] : ClosedOff (k1_off59 i) := ⟨![0, 912, 0], k1_off59_odd i h.eq⟩
theorem k1_off60_even : ∀ i : grid1.Coords, (i 0).val % 2 = 0 → k1_off60 i = ![1, 928, 0] := by decide +kernel
theorem k1_off60_odd : ∀ i : grid1.Coords, (i 0).val % 2 = 1 → k1_off60 i = ![0, 928, 0] := by decide +kernel
instance closedOff_k1_off60_even (i : grid1.Coords) [h : Par i 0] : ClosedOff (k1_off60 i) := ⟨![1, 928, 0], k1_off60_even i h.eq⟩
instance closedOff_k1_off60_odd (i : grid1.Coords) [h : Par i 1] : ClosedOff (k1_off60 i) := ⟨![0, 928, 0], k1_off60_odd i h.eq⟩
theorem k1_off61_even : ∀ i : grid1.Coords, (i 0).val % 2 = 0 → k1_off61 i = ![1, 944, 0] := by decide +kernel
theorem k1_off61_odd : ∀ i : grid1.Coords, (i 0).val % 2 = 1 → k1_off61 i = ![0, 944, 0] := by decide +kernel
instance closedOff_k1_off61_even (i : grid1.Coords) [h : Par i 0] : ClosedOff (k1_off61 i) := ⟨![1, 944, 0], k1_off61_even i h.eq⟩
instance closedOff_k1_off61_odd (i : grid1.Coords) [h : Par i 1] : ClosedOff (k1_off61 i) := ⟨![0, 944, 0], k1_off61_odd i h.eq⟩
theorem k1_off62_even : ∀ i : grid1.Coords, (i 0).val % 2 = 0 → k1_off62 i = ![1, 960, 0] := by decide +kernel
theorem k1_off62_odd : ∀ i : grid1.Coords, (i 0).val % 2 = 1 → k1_off62 i = ![0, 960, 0] := by decide +kernel
instance closedOff_k1_off62_even (i : grid1.Coords) [h : Par i 0] : ClosedOff (k1_off62 i) := ⟨![1, 960, 0], k1_off62_even i h.eq⟩
instance closedOff_k1_off62_odd (i : grid1.Coords) [h : Par i 1] : ClosedOff (k1_off62 i) := ⟨![0, 960, 0], k1_off62_odd i h.eq⟩
theorem k1_off63_even : ∀ i : grid1.Coords, (i 0).val % 2 = 0 → k1_off63 i = ![1, 976, 0] := by decide +kernel
theorem k1_off63_odd : ∀ i : grid1.Coords, (i 0).val % 2 = 1 → k1_off63 i = ![0, 976, 0] := by decide +kernel
instance closedOff_k1_off63_even (i : grid1.Coords) [h : Par i 0] : ClosedOff (k1_off63 i) := ⟨![1, 976, 0], k1_off63_even i h.eq⟩
instance closedOff_k1_off63_odd (i : grid1.Coords) [h : Par i 1] : ClosedOff (k1_off63 i) := ⟨![0, 976, 0], k1_off63_odd i h.eq⟩
theorem k1_off64_even : ∀ i : grid1.Coords, (i 0).val % 2 = 0 → k1_off64 i = ![1, 992, 0] := by decide +kernel
theorem k1_off64_odd : ∀ i : grid1.Coords, (i 0).val % 2 = 1 → k1_off64 i = ![0, 992, 0] := by decide +kernel
instance closedOff_k1_off64_even (i : grid1.Coords) [h : Par i 0] : ClosedOff (k1_off64 i) := ⟨![1, 992, 0], k1_off64_even i h.eq⟩
instance closedOff_k1_off64_odd (i : grid1.Coords) [h : Par i 1] : ClosedOff (k1_off64 i) := ⟨![0, 992, 0], k1_off64_odd i h.eq⟩
theorem k1_off65_even : ∀ i : grid1.Coords, (i 0).val % 2 = 0 → k1_off65 i = ![1, 1008, 0] := by decide +kernel
theorem k1_off65_odd : ∀ i : grid1.Coords, (i 0).val % 2 = 1 → k1_off65 i = ![0, 1008, 0] := by decide +kernel
instance closedOff_k1_off65_even (i : grid1.Coords) [h : Par i 0] : ClosedOff (k1_off65 i) := ⟨![1, 1008, 0], k1_off65_even i h.eq⟩
instance closedOff_k1_off65_odd (i : grid1.Coords) [h : Par i 1] : ClosedOff (k1_off65 i) := ⟨![0, 1008, 0], k1_off65_odd i h.eq⟩
theorem k1_off66_even : ∀ i : grid1.Coords, (i 0).val % 2 = 0 → k1_off66 i = ![1, 1024, 0] := by decide +kernel
theorem k1_off66_odd : ∀ i : grid1.Coords, (i 0).val % 2 = 1 → k1_off66 i = ![0, 1024, 0] := by decide +kernel
instance closedOff_k1_off66_even (i : grid1.Coords) [h : Par i 0] : ClosedOff (k1_off66 i) := ⟨![1, 1024, 0], k1_off66_even i h.eq⟩
instance closedOff_k1_off66_odd (i : grid1.Coords) [h : Par i 1] : ClosedOff (k1_off66 i) := ⟨![0, 1024, 0], k1_off66_odd i h.eq⟩
theorem k1_off67_even : ∀ i : grid1.Coords, (i 0).val % 2 = 0 → k1_off67 i = ![1, 1040, 0] := by decide +kernel
theorem k1_off67_odd : ∀ i : grid1.Coords, (i 0).val % 2 = 1 → k1_off67 i = ![0, 1040, 0] := by decide +kernel
instance closedOff_k1_off67_even (i : grid1.Coords) [h : Par i 0] : ClosedOff (k1_off67 i) := ⟨![1, 1040, 0], k1_off67_even i h.eq⟩
instance closedOff_k1_off67_odd (i : grid1.Coords) [h : Par i 1] : ClosedOff (k1_off67 i) := ⟨![0, 1040, 0], k1_off67_odd i h.eq⟩
theorem k1_off68_even : ∀ i : grid1.Coords, (i 0).val % 2 = 0 → k1_off68 i = ![1, 1056, 0] := by decide +kernel
theorem k1_off68_odd : ∀ i : grid1.Coords, (i 0).val % 2 = 1 → k1_off68 i = ![0, 1056, 0] := by decide +kernel
instance closedOff_k1_off68_even (i : grid1.Coords) [h : Par i 0] : ClosedOff (k1_off68 i) := ⟨![1, 1056, 0], k1_off68_even i h.eq⟩
instance closedOff_k1_off68_odd (i : grid1.Coords) [h : Par i 1] : ClosedOff (k1_off68 i) := ⟨![0, 1056, 0], k1_off68_odd i h.eq⟩
theorem k1_off69_even : ∀ i : grid1.Coords, (i 0).val % 2 = 0 → k1_off69 i = ![1, 1072, 0] := by decide +kernel
theorem k1_off69_odd : ∀ i : grid1.Coords, (i 0).val % 2 = 1 → k1_off69 i = ![0, 1072, 0] := by decide +kernel
instance closedOff_k1_off69_even (i : grid1.Coords) [h : Par i 0] : ClosedOff (k1_off69 i) := ⟨![1, 1072, 0], k1_off69_even i h.eq⟩
instance closedOff_k1_off69_odd (i : grid1.Coords) [h : Par i 1] : ClosedOff (k1_off69 i) := ⟨![0, 1072, 0], k1_off69_odd i h.eq⟩
theorem k1_off70_even : ∀ i : grid1.Coords, (i 0).val % 2 = 0 → k1_off70 i = ![1, 1088, 0] := by decide +kernel
theorem k1_off70_odd : ∀ i : grid1.Coords, (i 0).val % 2 = 1 → k1_off70 i = ![0, 1088, 0] := by decide +kernel
instance closedOff_k1_off70_even (i : grid1.Coords) [h : Par i 0] : ClosedOff (k1_off70 i) := ⟨![1, 1088, 0], k1_off70_even i h.eq⟩
instance closedOff_k1_off70_odd (i : grid1.Coords) [h : Par i 1] : ClosedOff (k1_off70 i) := ⟨![0, 1088, 0], k1_off70_odd i h.eq⟩
theorem k1_off71_even : ∀ i : grid1.Coords, (i 0).val % 2 = 0 → k1_off71 i = ![1, 1104, 0] := by decide +kernel
theorem k1_off71_odd : ∀ i : grid1.Coords, (i 0).val % 2 = 1 → k1_off71 i = ![0, 1104, 0] := by decide +kernel
instance closedOff_k1_off71_even (i : grid1.Coords) [h : Par i 0] : ClosedOff (k1_off71 i) := ⟨![1, 1104, 0], k1_off71_even i h.eq⟩
instance closedOff_k1_off71_odd (i : grid1.Coords) [h : Par i 1] : ClosedOff (k1_off71 i) := ⟨![0, 1104, 0], k1_off71_odd i h.eq⟩
theorem k1_off72_even : ∀ i : grid1.Coords, (i 0).val % 2 = 0 → k1_off72 i = ![1, 1120, 0] := by decide +kernel
theorem k1_off72_odd : ∀ i : grid1.Coords, (i 0).val % 2 = 1 → k1_off72 i = ![0, 1120, 0] := by decide +kernel
instance closedOff_k1_off72_even (i : grid1.Coords) [h : Par i 0] : ClosedOff (k1_off72 i) := ⟨![1, 1120, 0], k1_off72_even i h.eq⟩
instance closedOff_k1_off72_odd (i : grid1.Coords) [h : Par i 1] : ClosedOff (k1_off72 i) := ⟨![0, 1120, 0], k1_off72_odd i h.eq⟩
theorem k1_off73_even : ∀ i : grid1.Coords, (i 0).val % 2 = 0 → k1_off73 i = ![1, 1136, 0] := by decide +kernel
theorem k1_off73_odd : ∀ i : grid1.Coords, (i 0).val % 2 = 1 → k1_off73 i = ![0, 1136, 0] := by decide +kernel
instance closedOff_k1_off73_even (i : grid1.Coords) [h : Par i 0] : ClosedOff (k1_off73 i) := ⟨![1, 1136, 0], k1_off73_even i h.eq⟩
instance closedOff_k1_off73_odd (i : grid1.Coords) [h : Par i 1] : ClosedOff (k1_off73 i) := ⟨![0, 1136, 0], k1_off73_odd i h.eq⟩
theorem k1_off74_even : ∀ i : grid1.Coords, (i 0).val % 2 = 0 → k1_off74 i = ![1, 1152, 0] := by decide +kernel
theorem k1_off74_odd : ∀ i : grid1.Coords, (i 0).val % 2 = 1 → k1_off74 i = ![0, 1152, 0] := by decide +kernel
instance closedOff_k1_off74_even (i : grid1.Coords) [h : Par i 0] : ClosedOff (k1_off74 i) := ⟨![1, 1152, 0], k1_off74_even i h.eq⟩
instance closedOff_k1_off74_odd (i : grid1.Coords) [h : Par i 1] : ClosedOff (k1_off74 i) := ⟨![0, 1152, 0], k1_off74_odd i h.eq⟩
theorem k1_off75_even : ∀ i : grid1.Coords, (i 0).val % 2 = 0 → k1_off75 i = ![1, 1168, 0] := by decide +kernel
theorem k1_off75_odd : ∀ i : grid1.Coords, (i 0).val % 2 = 1 → k1_off75 i = ![0, 1168, 0] := by decide +kernel
instance closedOff_k1_off75_even (i : grid1.Coords) [h : Par i 0] : ClosedOff (k1_off75 i) := ⟨![1, 1168, 0], k1_off75_even i h.eq⟩
instance closedOff_k1_off75_odd (i : grid1.Coords) [h : Par i 1] : ClosedOff (k1_off75 i) := ⟨![0, 1168, 0], k1_off75_odd i h.eq⟩
theorem k1_off76_even : ∀ i : grid1.Coords, (i 0).val % 2 = 0 → k1_off76 i = ![1, 1184, 0] := by decide +kernel
theorem k1_off76_odd : ∀ i : grid1.Coords, (i 0).val % 2 = 1 → k1_off76 i = ![0, 1184, 0] := by decide +kernel
instance closedOff_k1_off76_even (i : grid1.Coords) [h : Par i 0] : ClosedOff (k1_off76 i) := ⟨![1, 1184, 0], k1_off76_even i h.eq⟩
instance closedOff_k1_off76_odd (i : grid1.Coords) [h : Par i 1] : ClosedOff (k1_off76 i) := ⟨![0, 1184, 0], k1_off76_odd i h.eq⟩
theorem k1_off77_even : ∀ i : grid1.Coords, (i 0).val % 2 = 0 → k1_off77 i = ![1, 1200, 0] := by decide +kernel
theorem k1_off77_odd : ∀ i : grid1.Coords, (i 0).val % 2 = 1 → k1_off77 i = ![0, 1200, 0] := by decide +kernel
instance closedOff_k1_off77_even (i : grid1.Coords) [h : Par i 0] : ClosedOff (k1_off77 i) := ⟨![1, 1200, 0], k1_off77_even i h.eq⟩
instance closedOff_k1_off77_odd (i : grid1.Coords) [h : Par i 1] : ClosedOff (k1_off77 i) := ⟨![0, 1200, 0], k1_off77_odd i h.eq⟩
theorem k1_off78_even : ∀ i : grid1.Coords, (i 0).val % 2 = 0 → k1_off78 i = ![1, 1216, 0] := by decide +kernel
theorem k1_off78_odd : ∀ i : grid1.Coords, (i 0).val % 2 = 1 → k1_off78 i = ![0, 1216, 0] := by decide +kernel
instance closedOff_k1_off78_even (i : grid1.Coords) [h : Par i 0] : ClosedOff (k1_off78 i) := ⟨![1, 1216, 0], k1_off78_even i h.eq⟩
instance closedOff_k1_off78_odd (i : grid1.Coords) [h : Par i 1] : ClosedOff (k1_off78 i) := ⟨![0, 1216, 0], k1_off78_odd i h.eq⟩
theorem k1_off79_even : ∀ i : grid1.Coords, (i 0).val % 2 = 0 → k1_off79 i = ![1, 1232, 0] := by decide +kernel
theorem k1_off79_odd : ∀ i : grid1.Coords, (i 0).val % 2 = 1 → k1_off79 i = ![0, 1232, 0] := by decide +kernel
instance closedOff_k1_off79_even (i : grid1.Coords) [h : Par i 0] : ClosedOff (k1_off79 i) := ⟨![1, 1232, 0], k1_off79_even i h.eq⟩
instance closedOff_k1_off79_odd (i : grid1.Coords) [h : Par i 1] : ClosedOff (k1_off79 i) := ⟨![0, 1232, 0], k1_off79_odd i h.eq⟩
theorem k1_off80_even : ∀ i : grid1.Coords, (i 0).val % 2 = 0 → k1_off80 i = ![1, 1248, 0] := by decide +kernel
theorem k1_off80_odd : ∀ i : grid1.Coords, (i 0).val % 2 = 1 → k1_off80 i = ![0, 1248, 0] := by decide +kernel
instance closedOff_k1_off80_even (i : grid1.Coords) [h : Par i 0] : ClosedOff (k1_off80 i) := ⟨![1, 1248, 0], k1_off80_even i h.eq⟩
instance closedOff_k1_off80_odd (i : grid1.Coords) [h : Par i 1] : ClosedOff (k1_off80 i) := ⟨![0, 1248, 0], k1_off80_odd i h.eq⟩
theorem k1_off81_even : ∀ i : grid1.Coords, (i 0).val % 2 = 0 → k1_off81 i = ![1, 1264, 0] := by decide +kernel
theorem k1_off81_odd : ∀ i : grid1.Coords, (i 0).val % 2 = 1 → k1_off81 i = ![0, 1264, 0] := by decide +kernel
instance closedOff_k1_off81_even (i : grid1.Coords) [h : Par i 0] : ClosedOff (k1_off81 i) := ⟨![1, 1264, 0], k1_off81_even i h.eq⟩
instance closedOff_k1_off81_odd (i : grid1.Coords) [h : Par i 1] : ClosedOff (k1_off81 i) := ⟨![0, 1264, 0], k1_off81_odd i h.eq⟩
theorem k1_off82_even : ∀ i : grid1.Coords, (i 0).val % 2 = 0 → k1_off82 i = ![1, 1280, 0] := by decide +kernel
theorem k1_off82_odd : ∀ i : grid1.Coords, (i 0).val % 2 = 1 → k1_off82 i = ![0, 1280, 0] := by decide +kernel
instance closedOff_k1_off82_even (i : grid1.Coords) [h : Par i 0] : ClosedOff (k1_off82 i) := ⟨![1, 1280, 0], k1_off82_even i h.eq⟩
instance closedOff_k1_off82_odd (i : grid1.Coords) [h : Par i 1] : ClosedOff (k1_off82 i) := ⟨![0, 1280, 0], k1_off82_odd i h.eq⟩
theorem k1_off83_even : ∀ i : grid1.Coords, (i 0).val % 2 = 0 → k1_off83 i = ![1, 1296, 0] := by decide +kernel
theorem k1_off83_odd : ∀ i : grid1.Coords, (i 0).val % 2 = 1 → k1_off83 i = ![0, 1296, 0] := by decide +kernel
instance closedOff_k1_off83_even (i : grid1.Coords) [h : Par i 0] : ClosedOff (k1_off83 i) := ⟨![1, 1296, 0], k1_off83_even i h.eq⟩
instance closedOff_k1_off83_odd (i : grid1.Coords) [h : Par i 1] : ClosedOff (k1_off83 i) := ⟨![0, 1296, 0], k1_off83_odd i h.eq⟩
theorem k1_off84_even : ∀ i : grid1.Coords, (i 0).val % 2 = 0 → k1_off84 i = ![1, 1312, 0] := by decide +kernel
theorem k1_off84_odd : ∀ i : grid1.Coords, (i 0).val % 2 = 1 → k1_off84 i = ![0, 1312, 0] := by decide +kernel
instance closedOff_k1_off84_even (i : grid1.Coords) [h : Par i 0] : ClosedOff (k1_off84 i) := ⟨![1, 1312, 0], k1_off84_even i h.eq⟩
instance closedOff_k1_off84_odd (i : grid1.Coords) [h : Par i 1] : ClosedOff (k1_off84 i) := ⟨![0, 1312, 0], k1_off84_odd i h.eq⟩
theorem k1_off85_even : ∀ i : grid1.Coords, (i 0).val % 2 = 0 → k1_off85 i = ![1, 1328, 0] := by decide +kernel
theorem k1_off85_odd : ∀ i : grid1.Coords, (i 0).val % 2 = 1 → k1_off85 i = ![0, 1328, 0] := by decide +kernel
instance closedOff_k1_off85_even (i : grid1.Coords) [h : Par i 0] : ClosedOff (k1_off85 i) := ⟨![1, 1328, 0], k1_off85_even i h.eq⟩
instance closedOff_k1_off85_odd (i : grid1.Coords) [h : Par i 1] : ClosedOff (k1_off85 i) := ⟨![0, 1328, 0], k1_off85_odd i h.eq⟩
theorem k1_off86_even : ∀ i : grid1.Coords, (i 0).val % 2 = 0 → k1_off86 i = ![1, 1344, 0] := by decide +kernel
theorem k1_off86_odd : ∀ i : grid1.Coords, (i 0).val % 2 = 1 → k1_off86 i = ![0, 1344, 0] := by decide +kernel
instance closedOff_k1_off86_even (i : grid1.Coords) [h : Par i 0] : ClosedOff (k1_off86 i) := ⟨![1, 1344, 0], k1_off86_even i h.eq⟩
instance closedOff_k1_off86_odd (i : grid1.Coords) [h : Par i 1] : ClosedOff (k1_off86 i) := ⟨![0, 1344, 0], k1_off86_odd i h.eq⟩
theorem k1_off87_even : ∀ i : grid1.Coords, (i 0).val % 2 = 0 → k1_off87 i = ![1, 1360, 0] := by decide +kernel
theorem k1_off87_odd : ∀ i : grid1.Coords, (i 0).val % 2 = 1 → k1_off87 i = ![0, 1360, 0] := by decide +kernel
instance closedOff_k1_off87_even (i : grid1.Coords) [h : Par i 0] : ClosedOff (k1_off87 i) := ⟨![1, 1360, 0], k1_off87_even i h.eq⟩
instance closedOff_k1_off87_odd (i : grid1.Coords) [h : Par i 1] : ClosedOff (k1_off87 i) := ⟨![0, 1360, 0], k1_off87_odd i h.eq⟩
theorem k1_off88_even : ∀ i : grid1.Coords, (i 0).val % 2 = 0 → k1_off88 i = ![1, 1376, 0] := by decide +kernel
theorem k1_off88_odd : ∀ i : grid1.Coords, (i 0).val % 2 = 1 → k1_off88 i = ![0, 1376, 0] := by decide +kernel
instance closedOff_k1_off88_even (i : grid1.Coords) [h : Par i 0] : ClosedOff (k1_off88 i) := ⟨![1, 1376, 0], k1_off88_even i h.eq⟩
instance closedOff_k1_off88_odd (i : grid1.Coords) [h : Par i 1] : ClosedOff (k1_off88 i) := ⟨![0, 1376, 0], k1_off88_odd i h.eq⟩
theorem k1_off89_even : ∀ i : grid1.Coords, (i 0).val % 2 = 0 → k1_off89 i = ![1, 1392, 0] := by decide +kernel
theorem k1_off89_odd : ∀ i : grid1.Coords, (i 0).val % 2 = 1 → k1_off89 i = ![0, 1392, 0] := by decide +kernel
instance closedOff_k1_off89_even (i : grid1.Coords) [h : Par i 0] : ClosedOff (k1_off89 i) := ⟨![1, 1392, 0], k1_off89_even i h.eq⟩
instance closedOff_k1_off89_odd (i : grid1.Coords) [h : Par i 1] : ClosedOff (k1_off89 i) := ⟨![0, 1392, 0], k1_off89_odd i h.eq⟩
theorem k1_off90_even : ∀ i : grid1.Coords, (i 0).val % 2 = 0 → k1_off90 i = ![1, 1408, 0] := by decide +kernel
theorem k1_off90_odd : ∀ i : grid1.Coords, (i 0).val % 2 = 1 → k1_off90 i = ![0, 1408, 0] := by decide +kernel
instance closedOff_k1_off90_even (i : grid1.Coords) [h : Par i 0] : ClosedOff (k1_off90 i) := ⟨![1, 1408, 0], k1_off90_even i h.eq⟩
instance closedOff_k1_off90_odd (i : grid1.Coords) [h : Par i 1] : ClosedOff (k1_off90 i) := ⟨![0, 1408, 0], k1_off90_odd i h.eq⟩
theorem k1_off91_even : ∀ i : grid1.Coords, (i 0).val % 2 = 0 → k1_off91 i = ![1, 1424, 0] := by decide +kernel
theorem k1_off91_odd : ∀ i : grid1.Coords, (i 0).val % 2 = 1 → k1_off91 i = ![0, 1424, 0] := by decide +kernel
instance closedOff_k1_off91_even (i : grid1.Coords) [h : Par i 0] : ClosedOff (k1_off91 i) := ⟨![1, 1424, 0], k1_off91_even i h.eq⟩
instance closedOff_k1_off91_odd (i : grid1.Coords) [h : Par i 1] : ClosedOff (k1_off91 i) := ⟨![0, 1424, 0], k1_off91_odd i h.eq⟩
theorem k1_off92_even : ∀ i : grid1.Coords, (i 0).val % 2 = 0 → k1_off92 i = ![1, 1440, 0] := by decide +kernel
theorem k1_off92_odd : ∀ i : grid1.Coords, (i 0).val % 2 = 1 → k1_off92 i = ![0, 1440, 0] := by decide +kernel
instance closedOff_k1_off92_even (i : grid1.Coords) [h : Par i 0] : ClosedOff (k1_off92 i) := ⟨![1, 1440, 0], k1_off92_even i h.eq⟩
instance closedOff_k1_off92_odd (i : grid1.Coords) [h : Par i 1] : ClosedOff (k1_off92 i) := ⟨![0, 1440, 0], k1_off92_odd i h.eq⟩
theorem k1_off93_even : ∀ i : grid1.Coords, (i 0).val % 2 = 0 → k1_off93 i = ![1, 1456, 0] := by decide +kernel
theorem k1_off93_odd : ∀ i : grid1.Coords, (i 0).val % 2 = 1 → k1_off93 i = ![0, 1456, 0] := by decide +kernel
instance closedOff_k1_off93_even (i : grid1.Coords) [h : Par i 0] : ClosedOff (k1_off93 i) := ⟨![1, 1456, 0], k1_off93_even i h.eq⟩
instance closedOff_k1_off93_odd (i : grid1.Coords) [h : Par i 1] : ClosedOff (k1_off93 i) := ⟨![0, 1456, 0], k1_off93_odd i h.eq⟩
theorem k1_off94_even : ∀ i : grid1.Coords, (i 0).val % 2 = 0 → k1_off94 i = ![1, 1472, 0] := by decide +kernel
theorem k1_off94_odd : ∀ i : grid1.Coords, (i 0).val % 2 = 1 → k1_off94 i = ![0, 1472, 0] := by decide +kernel
instance closedOff_k1_off94_even (i : grid1.Coords) [h : Par i 0] : ClosedOff (k1_off94 i) := ⟨![1, 1472, 0], k1_off94_even i h.eq⟩
instance closedOff_k1_off94_odd (i : grid1.Coords) [h : Par i 1] : ClosedOff (k1_off94 i) := ⟨![0, 1472, 0], k1_off94_odd i h.eq⟩
theorem k1_off95_even : ∀ i : grid1.Coords, (i 0).val % 2 = 0 → k1_off95 i = ![1, 1488, 0] := by decide +kernel
theorem k1_off95_odd : ∀ i : grid1.Coords, (i 0).val % 2 = 1 → k1_off95 i = ![0, 1488, 0] := by decide +kernel
instance closedOff_k1_off95_even (i : grid1.Coords) [h : Par i 0] : ClosedOff (k1_off95 i) := ⟨![1, 1488, 0], k1_off95_even i h.eq⟩
instance closedOff_k1_off95_odd (i : grid1.Coords) [h : Par i 1] : ClosedOff (k1_off95 i) := ⟨![0, 1488, 0], k1_off95_odd i h.eq⟩
theorem k1_off96_even : ∀ i : grid1.Coords, (i 0).val % 2 = 0 → k1_off96 i = ![1, 1504, 0] := by decide +kernel
theorem k1_off96_odd : ∀ i : grid1.Coords, (i 0).val % 2 = 1 → k1_off96 i = ![0, 1504, 0] := by decide +kernel
instance closedOff_k1_off96_even (i : grid1.Coords) [h : Par i 0] : ClosedOff (k1_off96 i) := ⟨![1, 1504, 0], k1_off96_even i h.eq⟩
instance closedOff_k1_off96_odd (i : grid1.Coords) [h : Par i 1] : ClosedOff (k1_off96 i) := ⟨![0, 1504, 0], k1_off96_odd i h.eq⟩
theorem k1_off97_even : ∀ i : grid1.Coords, (i 0).val % 2 = 0 → k1_off97 i = ![1, 1520, 0] := by decide +kernel
theorem k1_off97_odd : ∀ i : grid1.Coords, (i 0).val % 2 = 1 → k1_off97 i = ![0, 1520, 0] := by decide +kernel
instance closedOff_k1_off97_even (i : grid1.Coords) [h : Par i 0] : ClosedOff (k1_off97 i) := ⟨![1, 1520, 0], k1_off97_even i h.eq⟩
instance closedOff_k1_off97_odd (i : grid1.Coords) [h : Par i 1] : ClosedOff (k1_off97 i) := ⟨![0, 1520, 0], k1_off97_odd i h.eq⟩
theorem k1_off98_even : ∀ i : grid1.Coords, (i 0).val % 2 = 0 → k1_off98 i = ![1, 1536, 0] := by decide +kernel
theorem k1_off98_odd : ∀ i : grid1.Coords, (i 0).val % 2 = 1 → k1_off98 i = ![0, 1536, 0] := by decide +kernel
instance closedOff_k1_off98_even (i : grid1.Coords) [h : Par i 0] : ClosedOff (k1_off98 i) := ⟨![1, 1536, 0], k1_off98_even i h.eq⟩
instance closedOff_k1_off98_odd (i : grid1.Coords) [h : Par i 1] : ClosedOff (k1_off98 i) := ⟨![0, 1536, 0], k1_off98_odd i h.eq⟩
theorem k1_off99_even : ∀ i : grid1.Coords, (i 0).val % 2 = 0 → k1_off99 i = ![1, 1552, 0] := by decide +kernel
theorem k1_off99_odd : ∀ i : grid1.Coords, (i 0).val % 2 = 1 → k1_off99 i = ![0, 1552, 0] := by decide +kernel
instance closedOff_k1_off99_even (i : grid1.Coords) [h : Par i 0] : ClosedOff (k1_off99 i) := ⟨![1, 1552, 0], k1_off99_even i h.eq⟩
instance closedOff_k1_off99_odd (i : grid1.Coords) [h : Par i 1] : ClosedOff (k1_off99 i) := ⟨![0, 1552, 0], k1_off99_odd i h.eq⟩
theorem k1_off100_even : ∀ i : grid1.Coords, (i 0).val % 2 = 0 → k1_off100 i = ![1, 1568, 0] := by decide +kernel
theorem k1_off100_odd : ∀ i : grid1.Coords, (i 0).val % 2 = 1 → k1_off100 i = ![0, 1568, 0] := by decide +kernel
instance closedOff_k1_off100_even (i : grid1.Coords) [h : Par i 0] : ClosedOff (k1_off100 i) := ⟨![1, 1568, 0], k1_off100_even i h.eq⟩
instance closedOff_k1_off100_odd (i : grid1.Coords) [h : Par i 1] : ClosedOff (k1_off100 i) := ⟨![0, 1568, 0], k1_off100_odd i h.eq⟩
theorem k1_off101_even : ∀ i : grid1.Coords, (i 0).val % 2 = 0 → k1_off101 i = ![1, 1584, 0] := by decide +kernel
theorem k1_off101_odd : ∀ i : grid1.Coords, (i 0).val % 2 = 1 → k1_off101 i = ![0, 1584, 0] := by decide +kernel
instance closedOff_k1_off101_even (i : grid1.Coords) [h : Par i 0] : ClosedOff (k1_off101 i) := ⟨![1, 1584, 0], k1_off101_even i h.eq⟩
instance closedOff_k1_off101_odd (i : grid1.Coords) [h : Par i 1] : ClosedOff (k1_off101 i) := ⟨![0, 1584, 0], k1_off101_odd i h.eq⟩
theorem k1_off102_even : ∀ i : grid1.Coords, (i 0).val % 2 = 0 → k1_off102 i = ![1, 1600, 0] := by decide +kernel
theorem k1_off102_odd : ∀ i : grid1.Coords, (i 0).val % 2 = 1 → k1_off102 i = ![0, 1600, 0] := by decide +kernel
instance closedOff_k1_off102_even (i : grid1.Coords) [h : Par i 0] : ClosedOff (k1_off102 i) := ⟨![1, 1600, 0], k1_off102_even i h.eq⟩
instance closedOff_k1_off102_odd (i : grid1.Coords) [h : Par i 1] : ClosedOff (k1_off102 i) := ⟨![0, 1600, 0], k1_off102_odd i h.eq⟩
theorem k1_off103_even : ∀ i : grid1.Coords, (i 0).val % 2 = 0 → k1_off103 i = ![1, 1616, 0] := by decide +kernel
theorem k1_off103_odd : ∀ i : grid1.Coords, (i 0).val % 2 = 1 → k1_off103 i = ![0, 1616, 0] := by decide +kernel
instance closedOff_k1_off103_even (i : grid1.Coords) [h : Par i 0] : ClosedOff (k1_off103 i) := ⟨![1, 1616, 0], k1_off103_even i h.eq⟩
instance closedOff_k1_off103_odd (i : grid1.Coords) [h : Par i 1] : ClosedOff (k1_off103 i) := ⟨![0, 1616, 0], k1_off103_odd i h.eq⟩
theorem k1_off104_even : ∀ i : grid1.Coords, (i 0).val % 2 = 0 → k1_off104 i = ![1, 1632, 0] := by decide +kernel
theorem k1_off104_odd : ∀ i : grid1.Coords, (i 0).val % 2 = 1 → k1_off104 i = ![0, 1632, 0] := by decide +kernel
instance closedOff_k1_off104_even (i : grid1.Coords) [h : Par i 0] : ClosedOff (k1_off104 i) := ⟨![1, 1632, 0], k1_off104_even i h.eq⟩
instance closedOff_k1_off104_odd (i : grid1.Coords) [h : Par i 1] : ClosedOff (k1_off104 i) := ⟨![0, 1632, 0], k1_off104_odd i h.eq⟩
theorem k1_off105_even : ∀ i : grid1.Coords, (i 0).val % 2 = 0 → k1_off105 i = ![1, 1648, 0] := by decide +kernel
theorem k1_off105_odd : ∀ i : grid1.Coords, (i 0).val % 2 = 1 → k1_off105 i = ![0, 1648, 0] := by decide +kernel
instance closedOff_k1_off105_even (i : grid1.Coords) [h : Par i 0] : ClosedOff (k1_off105 i) := ⟨![1, 1648, 0], k1_off105_even i h.eq⟩
instance closedOff_k1_off105_odd (i : grid1.Coords) [h : Par i 1] : ClosedOff (k1_off105 i) := ⟨![0, 1648, 0], k1_off105_odd i h.eq⟩
theorem k1_off106_even : ∀ i : grid1.Coords, (i 0).val % 2 = 0 → k1_off106 i = ![1, 1664, 0] := by decide +kernel
theorem k1_off106_odd : ∀ i : grid1.Coords, (i 0).val % 2 = 1 → k1_off106 i = ![0, 1664, 0] := by decide +kernel
instance closedOff_k1_off106_even (i : grid1.Coords) [h : Par i 0] : ClosedOff (k1_off106 i) := ⟨![1, 1664, 0], k1_off106_even i h.eq⟩
instance closedOff_k1_off106_odd (i : grid1.Coords) [h : Par i 1] : ClosedOff (k1_off106 i) := ⟨![0, 1664, 0], k1_off106_odd i h.eq⟩
theorem k1_off107_even : ∀ i : grid1.Coords, (i 0).val % 2 = 0 → k1_off107 i = ![1, 1680, 0] := by decide +kernel
theorem k1_off107_odd : ∀ i : grid1.Coords, (i 0).val % 2 = 1 → k1_off107 i = ![0, 1680, 0] := by decide +kernel
instance closedOff_k1_off107_even (i : grid1.Coords) [h : Par i 0] : ClosedOff (k1_off107 i) := ⟨![1, 1680, 0], k1_off107_even i h.eq⟩
instance closedOff_k1_off107_odd (i : grid1.Coords) [h : Par i 1] : ClosedOff (k1_off107 i) := ⟨![0, 1680, 0], k1_off107_odd i h.eq⟩
theorem k1_off108_even : ∀ i : grid1.Coords, (i 0).val % 2 = 0 → k1_off108 i = ![1, 1696, 0] := by decide +kernel
theorem k1_off108_odd : ∀ i : grid1.Coords, (i 0).val % 2 = 1 → k1_off108 i = ![0, 1696, 0] := by decide +kernel
instance closedOff_k1_off108_even (i : grid1.Coords) [h : Par i 0] : ClosedOff (k1_off108 i) := ⟨![1, 1696, 0], k1_off108_even i h.eq⟩
instance closedOff_k1_off108_odd (i : grid1.Coords) [h : Par i 1] : ClosedOff (k1_off108 i) := ⟨![0, 1696, 0], k1_off108_odd i h.eq⟩
theorem k1_off109_even : ∀ i : grid1.Coords, (i 0).val % 2 = 0 → k1_off109 i = ![1, 1712, 0] := by decide +kernel
theorem k1_off109_odd : ∀ i : grid1.Coords, (i 0).val % 2 = 1 → k1_off109 i = ![0, 1712, 0] := by decide +kernel
instance closedOff_k1_off109_even (i : grid1.Coords) [h : Par i 0] : ClosedOff (k1_off109 i) := ⟨![1, 1712, 0], k1_off109_even i h.eq⟩
instance closedOff_k1_off109_odd (i : grid1.Coords) [h : Par i 1] : ClosedOff (k1_off109 i) := ⟨![0, 1712, 0], k1_off109_odd i h.eq⟩
theorem k1_off110_even : ∀ i : grid1.Coords, (i 0).val % 2 = 0 → k1_off110 i = ![1, 1728, 0] := by decide +kernel
theorem k1_off110_odd : ∀ i : grid1.Coords, (i 0).val % 2 = 1 → k1_off110 i = ![0, 1728, 0] := by decide +kernel
instance closedOff_k1_off110_even (i : grid1.Coords) [h : Par i 0] : ClosedOff (k1_off110 i) := ⟨![1, 1728, 0], k1_off110_even i h.eq⟩
instance closedOff_k1_off110_odd (i : grid1.Coords) [h : Par i 1] : ClosedOff (k1_off110 i) := ⟨![0, 1728, 0], k1_off110_odd i h.eq⟩
theorem k1_off111_even : ∀ i : grid1.Coords, (i 0).val % 2 = 0 → k1_off111 i = ![1, 1744, 0] := by decide +kernel
theorem k1_off111_odd : ∀ i : grid1.Coords, (i 0).val % 2 = 1 → k1_off111 i = ![0, 1744, 0] := by decide +kernel
instance closedOff_k1_off111_even (i : grid1.Coords) [h : Par i 0] : ClosedOff (k1_off111 i) := ⟨![1, 1744, 0], k1_off111_even i h.eq⟩
instance closedOff_k1_off111_odd (i : grid1.Coords) [h : Par i 1] : ClosedOff (k1_off111 i) := ⟨![0, 1744, 0], k1_off111_odd i h.eq⟩
theorem k1_off112_even : ∀ i : grid1.Coords, (i 0).val % 2 = 0 → k1_off112 i = ![1, 1760, 0] := by decide +kernel
theorem k1_off112_odd : ∀ i : grid1.Coords, (i 0).val % 2 = 1 → k1_off112 i = ![0, 1760, 0] := by decide +kernel
instance closedOff_k1_off112_even (i : grid1.Coords) [h : Par i 0] : ClosedOff (k1_off112 i) := ⟨![1, 1760, 0], k1_off112_even i h.eq⟩
instance closedOff_k1_off112_odd (i : grid1.Coords) [h : Par i 1] : ClosedOff (k1_off112 i) := ⟨![0, 1760, 0], k1_off112_odd i h.eq⟩
theorem k1_off113_even : ∀ i : grid1.Coords, (i 0).val % 2 = 0 → k1_off113 i = ![1, 1776, 0] := by decide +kernel
theorem k1_off113_odd : ∀ i : grid1.Coords, (i 0).val % 2 = 1 → k1_off113 i = ![0, 1776, 0] := by decide +kernel
instance closedOff_k1_off113_even (i : grid1.Coords) [h : Par i 0] : ClosedOff (k1_off113 i) := ⟨![1, 1776, 0], k1_off113_even i h.eq⟩
instance closedOff_k1_off113_odd (i : grid1.Coords) [h : Par i 1] : ClosedOff (k1_off113 i) := ⟨![0, 1776, 0], k1_off113_odd i h.eq⟩
theorem k1_off114_even : ∀ i : grid1.Coords, (i 0).val % 2 = 0 → k1_off114 i = ![1, 1792, 0] := by decide +kernel
theorem k1_off114_odd : ∀ i : grid1.Coords, (i 0).val % 2 = 1 → k1_off114 i = ![0, 1792, 0] := by decide +kernel
instance closedOff_k1_off114_even (i : grid1.Coords) [h : Par i 0] : ClosedOff (k1_off114 i) := ⟨![1, 1792, 0], k1_off114_even i h.eq⟩
instance closedOff_k1_off114_odd (i : grid1.Coords) [h : Par i 1] : ClosedOff (k1_off114 i) := ⟨![0, 1792, 0], k1_off114_odd i h.eq⟩
theorem k1_off115_even : ∀ i : grid1.Coords, (i 0).val % 2 = 0 → k1_off115 i = ![1, 1808, 0] := by decide +kernel
theorem k1_off115_odd : ∀ i : grid1.Coords, (i 0).val % 2 = 1 → k1_off115 i = ![0, 1808, 0] := by decide +kernel
instance closedOff_k1_off115_even (i : grid1.Coords) [h : Par i 0] : ClosedOff (k1_off115 i) := ⟨![1, 1808, 0], k1_off115_even i h.eq⟩
instance closedOff_k1_off115_odd (i : grid1.Coords) [h : Par i 1] : ClosedOff (k1_off115 i) := ⟨![0, 1808, 0], k1_off115_odd i h.eq⟩
theorem k1_off116_even : ∀ i : grid1.Coords, (i 0).val % 2 = 0 → k1_off116 i = ![1, 1824, 0] := by decide +kernel
theorem k1_off116_odd : ∀ i : grid1.Coords, (i 0).val % 2 = 1 → k1_off116 i = ![0, 1824, 0] := by decide +kernel
instance closedOff_k1_off116_even (i : grid1.Coords) [h : Par i 0] : ClosedOff (k1_off116 i) := ⟨![1, 1824, 0], k1_off116_even i h.eq⟩
instance closedOff_k1_off116_odd (i : grid1.Coords) [h : Par i 1] : ClosedOff (k1_off116 i) := ⟨![0, 1824, 0], k1_off116_odd i h.eq⟩
theorem k1_off117_even : ∀ i : grid1.Coords, (i 0).val % 2 = 0 → k1_off117 i = ![1, 1840, 0] := by decide +kernel
theorem k1_off117_odd : ∀ i : grid1.Coords, (i 0).val % 2 = 1 → k1_off117 i = ![0, 1840, 0] := by decide +kernel
instance closedOff_k1_off117_even (i : grid1.Coords) [h : Par i 0] : ClosedOff (k1_off117 i) := ⟨![1, 1840, 0], k1_off117_even i h.eq⟩
instance closedOff_k1_off117_odd (i : grid1.Coords) [h : Par i 1] : ClosedOff (k1_off117 i) := ⟨![0, 1840, 0], k1_off117_odd i h.eq⟩
theorem k1_off118_even : ∀ i : grid1.Coords, (i 0).val % 2 = 0 → k1_off118 i = ![1, 1856, 0] := by decide +kernel
theorem k1_off118_odd : ∀ i : grid1.Coords, (i 0).val % 2 = 1 → k1_off118 i = ![0, 1856, 0] := by decide +kernel
instance closedOff_k1_off118_even (i : grid1.Coords) [h : Par i 0] : ClosedOff (k1_off118 i) := ⟨![1, 1856, 0], k1_off118_even i h.eq⟩
instance closedOff_k1_off118_odd (i : grid1.Coords) [h : Par i 1] : ClosedOff (k1_off118 i) := ⟨![0, 1856, 0], k1_off118_odd i h.eq⟩
theorem k1_off119_even : ∀ i : grid1.Coords, (i 0).val % 2 = 0 → k1_off119 i = ![1, 1872, 0] := by decide +kernel
theorem k1_off119_odd : ∀ i : grid1.Coords, (i 0).val % 2 = 1 → k1_off119 i = ![0, 1872, 0] := by decide +kernel
instance closedOff_k1_off119_even (i : grid1.Coords) [h : Par i 0] : ClosedOff (k1_off119 i) := ⟨![1, 1872, 0], k1_off119_even i h.eq⟩
instance closedOff_k1_off119_odd (i : grid1.Coords) [h : Par i 1] : ClosedOff (k1_off119 i) := ⟨![0, 1872, 0], k1_off119_odd i h.eq⟩
theorem k1_off120_even : ∀ i : grid1.Coords, (i 0).val % 2 = 0 → k1_off120 i = ![1, 1888, 0] := by decide +kernel
theorem k1_off120_odd : ∀ i : grid1.Coords, (i 0).val % 2 = 1 → k1_off120 i = ![0, 1888, 0] := by decide +kernel
instance closedOff_k1_off120_even (i : grid1.Coords) [h : Par i 0] : ClosedOff (k1_off120 i) := ⟨![1, 1888, 0], k1_off120_even i h.eq⟩
instance closedOff_k1_off120_odd (i : grid1.Coords) [h : Par i 1] : ClosedOff (k1_off120 i) := ⟨![0, 1888, 0], k1_off120_odd i h.eq⟩
theorem k1_off121_even : ∀ i : grid1.Coords, (i 0).val % 2 = 0 → k1_off121 i = ![1, 1904, 0] := by decide +kernel
theorem k1_off121_odd : ∀ i : grid1.Coords, (i 0).val % 2 = 1 → k1_off121 i = ![0, 1904, 0] := by decide +kernel
instance closedOff_k1_off121_even (i : grid1.Coords) [h : Par i 0] : ClosedOff (k1_off121 i) := ⟨![1, 1904, 0], k1_off121_even i h.eq⟩
instance closedOff_k1_off121_odd (i : grid1.Coords) [h : Par i 1] : ClosedOff (k1_off121 i) := ⟨![0, 1904, 0], k1_off121_odd i h.eq⟩
theorem k1_off122_even : ∀ i : grid1.Coords, (i 0).val % 2 = 0 → k1_off122 i = ![1, 1920, 0] := by decide +kernel
theorem k1_off122_odd : ∀ i : grid1.Coords, (i 0).val % 2 = 1 → k1_off122 i = ![0, 1920, 0] := by decide +kernel
instance closedOff_k1_off122_even (i : grid1.Coords) [h : Par i 0] : ClosedOff (k1_off122 i) := ⟨![1, 1920, 0], k1_off122_even i h.eq⟩
instance closedOff_k1_off122_odd (i : grid1.Coords) [h : Par i 1] : ClosedOff (k1_off122 i) := ⟨![0, 1920, 0], k1_off122_odd i h.eq⟩
theorem k1_off123_even : ∀ i : grid1.Coords, (i 0).val % 2 = 0 → k1_off123 i = ![1, 1936, 0] := by decide +kernel
theorem k1_off123_odd : ∀ i : grid1.Coords, (i 0).val % 2 = 1 → k1_off123 i = ![0, 1936, 0] := by decide +kernel
instance closedOff_k1_off123_even (i : grid1.Coords) [h : Par i 0] : ClosedOff (k1_off123 i) := ⟨![1, 1936, 0], k1_off123_even i h.eq⟩
instance closedOff_k1_off123_odd (i : grid1.Coords) [h : Par i 1] : ClosedOff (k1_off123 i) := ⟨![0, 1936, 0], k1_off123_odd i h.eq⟩
theorem k1_off124_even : ∀ i : grid1.Coords, (i 0).val % 2 = 0 → k1_off124 i = ![1, 1952, 0] := by decide +kernel
theorem k1_off124_odd : ∀ i : grid1.Coords, (i 0).val % 2 = 1 → k1_off124 i = ![0, 1952, 0] := by decide +kernel
instance closedOff_k1_off124_even (i : grid1.Coords) [h : Par i 0] : ClosedOff (k1_off124 i) := ⟨![1, 1952, 0], k1_off124_even i h.eq⟩
instance closedOff_k1_off124_odd (i : grid1.Coords) [h : Par i 1] : ClosedOff (k1_off124 i) := ⟨![0, 1952, 0], k1_off124_odd i h.eq⟩
theorem k1_off125_even : ∀ i : grid1.Coords, (i 0).val % 2 = 0 → k1_off125 i = ![1, 1968, 0] := by decide +kernel
theorem k1_off125_odd : ∀ i : grid1.Coords, (i 0).val % 2 = 1 → k1_off125 i = ![0, 1968, 0] := by decide +kernel
instance closedOff_k1_off125_even (i : grid1.Coords) [h : Par i 0] : ClosedOff (k1_off125 i) := ⟨![1, 1968, 0], k1_off125_even i h.eq⟩
instance closedOff_k1_off125_odd (i : grid1.Coords) [h : Par i 1] : ClosedOff (k1_off125 i) := ⟨![0, 1968, 0], k1_off125_odd i h.eq⟩
theorem k1_off126_even : ∀ i : grid1.Coords, (i 0).val % 2 = 0 → k1_off126 i = ![1, 1984, 0] := by decide +kernel
theorem k1_off126_odd : ∀ i : grid1.Coords, (i 0).val % 2 = 1 → k1_off126 i = ![0, 1984, 0] := by decide +kernel
instance closedOff_k1_off126_even (i : grid1.Coords) [h : Par i 0] : ClosedOff (k1_off126 i) := ⟨![1, 1984, 0], k1_off126_even i h.eq⟩
instance closedOff_k1_off126_odd (i : grid1.Coords) [h : Par i 1] : ClosedOff (k1_off126 i) := ⟨![0, 1984, 0], k1_off126_odd i h.eq⟩
theorem k1_off127_even : ∀ i : grid1.Coords, (i 0).val % 2 = 0 → k1_off127 i = ![1, 2000, 0] := by decide +kernel
theorem k1_off127_odd : ∀ i : grid1.Coords, (i 0).val % 2 = 1 → k1_off127 i = ![0, 2000, 0] := by decide +kernel
instance closedOff_k1_off127_even (i : grid1.Coords) [h : Par i 0] : ClosedOff (k1_off127 i) := ⟨![1, 2000, 0], k1_off127_even i h.eq⟩
instance closedOff_k1_off127_odd (i : grid1.Coords) [h : Par i 1] : ClosedOff (k1_off127 i) := ⟨![0, 2000, 0], k1_off127_odd i h.eq⟩
theorem k1_off128_even : ∀ i : grid1.Coords, (i 0).val % 2 = 0 → k1_off128 i = ![1, 2016, 0] := by decide +kernel
theorem k1_off128_odd : ∀ i : grid1.Coords, (i 0).val % 2 = 1 → k1_off128 i = ![0, 2016, 0] := by decide +kernel
instance closedOff_k1_off128_even (i : grid1.Coords) [h : Par i 0] : ClosedOff (k1_off128 i) := ⟨![1, 2016, 0], k1_off128_even i h.eq⟩
instance closedOff_k1_off128_odd (i : grid1.Coords) [h : Par i 1] : ClosedOff (k1_off128 i) := ⟨![0, 2016, 0], k1_off128_odd i h.eq⟩
theorem k1_off129_even : ∀ i : grid1.Coords, (i 0).val % 2 = 0 → k1_off129 i = ![1, 2032, 0] := by decide +kernel
theorem k1_off129_odd : ∀ i : grid1.Coords, (i 0).val % 2 = 1 → k1_off129 i = ![0, 2032, 0] := by decide +kernel
instance closedOff_k1_off129_even (i : grid1.Coords) [h : Par i 0] : ClosedOff (k1_off129 i) := ⟨![1, 2032, 0], k1_off129_even i h.eq⟩
instance closedOff_k1_off129_odd (i : grid1.Coords) [h : Par i 1] : ClosedOff (k1_off129 i) := ⟨![0, 2032, 0], k1_off129_odd i h.eq⟩

end Cert.Proof.BitsRegion

end
-- ==== Proof.BitsRegionRunA.lean ====
import proofs.«213871_g15814069584205_fold_wed_c4_299_27_alg».proof.Proof.BitsRegionOffsets
import Idealize.ShloMosaic.Lib.Pipeline.FrameBody
import Idealize.ShloMosaic.Lib.Ring
import Idealize.ShloMosaic.Lib.Tactic

set_option maxRecDepth 16384

noncomputable section

namespace Cert.Proof.BitsRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The body at the first grid point: the hidden state is set to zero and the first chunk's input projection is
    stored in the slot of the point's parity; the recurrence is not run. -/

set_option maxHeartbeats 1000000 in
/-- What the body leaves at an even point where the first two conditionals hold and the third does not: the pieces
    the hidden-state buffer and the projection buffer end with (last first), with the proof that from the six input
    blocks at their contents and the output block and the two carried buffers at anything the body runs to its
    return, the inputs as they were, the output block untouched, the two carried buffers with their pieces written. -/
noncomputable def runA (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole)
    (hc1 : cond1 i) (hc2 : k1_cond2 i = 1#1) (hc3 : ¬ k1_cond3 i = 1#1)
    (x1 : Vec F S2048x64 .f32) (x2 : Vec F S2048x128 .f32) (x3 : Vec F S512x192 .f32) (x4 : Vec F S512x512 .f32)
    (x5 : Vec F S1x512 .f32) (x6 : Vec F S1x512 .f32) :
    { W : List (View.Piece (Elt F) S16x512 .f32) × List (View.Piece (Elt F) S2x2048x512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
                ∗ (∃ d, owns (c : Thread nD τ) arg7 fullShare d)
                ∗ (∃ f, arg8.view.loc (c : Thread nD τ) ↦[arg8.view.set]{fullShare} arg8.view.writes (Elt F) f W.1)
                ∗ (∃ f, arg9.view.loc (c : Thread nD τ) ↦[arg9.view.set]{fullShare} arg9.view.writes (Elt F) f W.2)) -∗ K ⟨⟩))
          ⊢ wp frame (wpE (defs₀ (F := F)) Variants.none c none) E (cc1__rnn_kernel i arg1 harg1 arg2 harg2 arg3 harg3 arg4 harg4 arg5 harg5 arg6 harg6 arg7 harg7 arg8 harg8 arg9 harg9) K } := by
  refine ⟨⟨?_, ?_⟩, fun E K => ?run⟩
  case run =>
    simp only [cc1__rnn_kernel_eq_skeleton]; unfold cc1__rnn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexists f7; isplitr; · ipureintro; rfl
      iexact H7
    isplitl [H8]; · iexists _; iexact H8
    iexists _; iexact H9

end Cert.Proof.BitsRegion

end
-- ==== Proof.BitsRegionRunC.lean ====
import proofs.«213871_g15814069584205_fold_wed_c4_299_27_alg».proof.Proof.BitsRegionRunA
import Idealize.ShloMosaic.Lib.Pipeline.FrameBody
import Idealize.ShloMosaic.Lib.Ring
import Idealize.ShloMosaic.Lib.Tactic

set_option maxRecDepth 16384

noncomputable section

namespace Cert.Proof.BitsRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The body at the last grid point (an even one): nothing is projected; the recurrence runs its 128 steps on the
    projection the point before left in slot 1 and on the hidden state, writes the output block and the new hidden state. -/

set_option maxHeartbeats 4000000 in
noncomputable def runC (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole)
    (hc1 : ¬ cond1 i) (hc2 : ¬ k1_cond2 i = 1#1) (hc3 : k1_cond3 i = 1#1)
    (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) :
    { W : List (View.Piece (Elt F) S16x128x512 .f32) × List (View.Piece (Elt F) S16x512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare x8
            ∗ (∃ f, arg9.view.loc (c : Thread nD τ) ↦[arg9.view.set]{fullShare} arg9.view.writes (Elt F) f [⟨Rect.unit ![1, 0, 0] S1x2048x512.size inb_slot1, P⟩])
            ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f W.1)
                ∗ (∃ f, arg8.view.loc (c : Thread nD τ) ↦[arg8.view.set]{fullShare} arg8.view.writes (Elt F) f W.2)
                ∗ (∃ f, arg9.view.loc (c : Thread nD τ) ↦[arg9.view.set]{fullShare} arg9.view.writes (Elt F) f [⟨Rect.unit ![1, 0, 0] S1x2048x512.size inb_slot1, P⟩])) -∗ K ⟨⟩))
          ⊢ wp frame (wpE (defs₀ (F := F)) Variants.none c none) E (cc1__rnn_kernel i arg1 harg1 arg2 harg2 arg3 harg3 arg4 harg4 arg5 harg5 arg6 harg6 arg7 harg7 arg8 harg8 arg9 harg9) K } := by
  refine ⟨⟨?_, ?_⟩, fun E K => ?run⟩
  case run =>
    simp only [cc1__rnn_kernel_eq_skeleton]; unfold cc1__rnn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg8.eq_unread hf8
    sl_exec_parts (disch := first | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.Proof.BitsRegion

end
-- ==== Proof.BitsRegionRunBo.lean ====
import proofs.«213871_g15814069584205_fold_wed_c4_299_27_alg».proof.Proof.BitsRegionRunC
import Idealize.ShloMosaic.Lib.Pipeline.FrameBody
import Idealize.ShloMosaic.Lib.Ring
import Idealize.ShloMosaic.Lib.Tactic

set_option maxRecDepth 16384

noncomputable section

namespace Cert.Proof.BitsRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The body at an odd inner grid point: the point's chunk is projected into slot 1, then the recurrence runs its
    128 steps on the projection the point before left in slot 0 and on the hidden state. -/

set_option maxHeartbeats 4000000 in
noncomputable def runBo (c : Dev nD) (i : grid1.Coords) [Par i 1] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole)
    (hc1 : ¬ cond1 i) (hc2 : k1_cond2 i = 1#1) (hc3 : k1_cond3 i = 1#1)
    (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) :
    { W : List (View.Piece (Elt F) S16x128x512 .f32) × List (View.Piece (Elt F) S16x512 .f32) × List (View.Piece (Elt F) S2x2048x512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare x8
            ∗ (∃ f, arg9.view.loc (c : Thread nD τ) ↦[arg9.view.set]{fullShare} arg9.view.writes (Elt F) f [⟨Rect.unit ![0, 0, 0] S1x2048x512.size inb_slot0, P⟩])
            ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f W.1)
                ∗ (∃ f, arg8.view.loc (c : Thread nD τ) ↦[arg8.view.set]{fullShare} arg8.view.writes (Elt F) f W.2.1)
                ∗ (∃ f, arg9.view.loc (c : Thread nD τ) ↦[arg9.view.set]{fullShare} arg9.view.writes (Elt F) f W.2.2)) -∗ K ⟨⟩))
          ⊢ wp frame (wpE (defs₀ (F := F)) Variants.none c none) E (cc1__rnn_kernel i arg1 harg1 arg2 harg2 arg3 harg3 arg4 harg4 arg5 harg5 arg6 harg6 arg7 harg7 arg8 harg8 arg9 harg9) K } := by
  refine ⟨⟨?_, ?_, ?_⟩, fun E K => ?run⟩
  case run =>
    simp only [cc1__rnn_kernel_eq_skeleton]; unfold cc1__rnn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg8.eq_unread hf8
    sl_exec_parts (disch := first | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.Proof.BitsRegion

end
-- ==== Proof.BitsRegionRunBe.lean ====
import proofs.«213871_g15814069584205_fold_wed_c4_299_27_alg».proof.Proof.BitsRegionRunBo
import Idealize.ShloMosaic.Lib.Pipeline.FrameBody
import Idealize.ShloMosaic.Lib.Ring
import Idealize.ShloMosaic.Lib.Tactic

set_option maxRecDepth 16384

noncomputable section

namespace Cert.Proof.BitsRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The body at an even inner grid point: the point's chunk is projected into slot 0, then the recurrence runs its
    128 steps on the projection the point before left in slot 1 and on the hidden state. -/

set_option maxHeartbeats 4000000 in
noncomputable def runBe (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole)
    (hc1 : ¬ cond1 i) (hc2 : k1_cond2 i = 1#1) (hc3 : k1_cond3 i = 1#1)
    (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) :
    { W : List (View.Piece (Elt F) S16x128x512 .f32) × List (View.Piece (Elt F) S16x512 .f32) × List (View.Piece (Elt F) S2x2048x512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare x8
            ∗ (∃ f, arg9.view.loc (c : Thread nD τ) ↦[arg9.view.set]{fullShare} arg9.view.writes (Elt F) f [⟨Rect.unit ![1, 0, 0] S1x2048x512.size inb_slot1, P⟩])
            ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f W.1)
                ∗ (∃ f, arg8.view.loc (c : Thread nD τ) ↦[arg8.view.set]{fullShare} arg8.view.writes (Elt F) f W.2.1)
                ∗ (∃ f, arg9.view.loc (c : Thread nD τ) ↦[arg9.view.set]{fullShare} arg9.view.writes (Elt F) f W.2.2)) -∗ K ⟨⟩))
          ⊢ wp frame (wpE (defs₀ (F := F)) Variants.none c none) E (cc1__rnn_kernel i arg1 harg1 arg2 harg2 arg3 harg3 arg4 harg4 arg5 harg5 arg6 harg6 arg7 harg7 arg8 harg8 arg9 harg9) K } := by
  refine ⟨⟨?_, ?_, ?_⟩, fun E K => ?run⟩
  case run =>
    simp only [cc1__rnn_kernel_eq_skeleton]; unfold cc1__rnn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg8.eq_unread hf8
    sl_exec_parts (disch := first | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.Proof.BitsRegion

end
-- ==== Proof.BitsRegionDat.lean ====
import proofs.«213871_g15814069584205_fold_wed_c4_299_27_alg».proof.Proof.BitsRegionRunBe
import Idealize.ShloMosaic.Lib.Pipeline.FrameBody
import Idealize.ShloMosaic.Lib.Ring
import Idealize.ShloMosaic.Lib.Tactic

set_option maxRecDepth 16384

noncomputable section

namespace Cert.Proof.BitsRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The proof data of the recurrent kernel's pipeline: what each grid point leaves, as VALUES carried from point to
    point — the projection of the chunk fetched at a point, the hidden state after it, the output block it writes —,
    each the pieces the body's stores leave at that point, read back; and the pipeline's data over them. -/

variable (A : (c : Dev nD) → (w : Fin cfg1.W) → Buf (Elt F) ((cfg1.win w).arr.view.loc (c.tc : Thread nD τ)))

/-! ## The conditions and the parity over the grid -/

/-- The first conditional holds at the first point only, -/
theorem hcond1 : ∀ t : Fin cfg1.N, cond1 (grid1.coords t) ↔ t.val = 0 :=
  (by decide +kernel : ∀ t : Fin grid1.N, cond1 (grid1.coords t) ↔ t.val = 0)
/-- the second at every point but the last, -/
theorem hcond2 : ∀ t : Fin cfg1.N, k1_cond2 (grid1.coords t) = 1#1 ↔ t.val < 4 :=
  (by decide +kernel : ∀ t : Fin grid1.N, k1_cond2 (grid1.coords t) = 1#1 ↔ t.val < 4)
/-- the third at every point but the first. -/
theorem hcond3 : ∀ t : Fin cfg1.N, k1_cond3 (grid1.coords t) = 1#1 ↔ 0 < t.val :=
  (by decide +kernel : ∀ t : Fin grid1.N, k1_cond3 (grid1.coords t) = 1#1 ↔ 0 < t.val)
/-- The grid coordinate is the point's number. -/
theorem hpar : ∀ t : Fin cfg1.N, ((grid1.coords t) 0).val % 2 = t.val % 2 :=
  (by decide +kernel : ∀ t : Fin grid1.N, ((grid1.coords t) 0).val % 2 = t.val % 2)

/-! ## The memrefs the body is called with at a point -/

abbrev ms0 (t : Fin cfg1.N) : Memref sig .tc .vmem S2048x64 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x192 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x512 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x512 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x512 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S16x128x512 .f32 := win1_6.stage (cfg1.slots t 6)
abbrev hs6 (t : Fin cfg1.N) : (ms6 t).IsWhole := hstage1_6 ((cfg1.slots t 6).cast nbuf1_6)
/-- The hidden state's buffer and the two-slot projection buffer, whole. -/
abbrev mh : Memref sig .tc .vmem S16x512 .f32 := Memref.whole cc1_scratch0
abbrev hmh : (mh).IsWhole := Memref.isWhole_whole _
abbrev mz : Memref sig .tc .vmem S2x2048x512 .f32 := Memref.whole cc1_scratch1
abbrev hmz : (mz).IsWhole := Memref.isWhole_whole _

/-! ## The windows' blocks -/

/-- Window `w`'s block at point `t`, read off its array at entry. -/
def iblk (c : Dev nD) (w : Fin cfg1.W) (t : Fin cfg1.N) : ((cfg1.win w).xblock (cfg1.grid.coords t)).Idx → Elt F (cfg1.win w).elt :=
  ((cfg1.win w).blk t).view.read (Elt F) (A c w)

/-! ## The values carried from point to point -/

/-- The projection of one chunk: the two input blocks against the two column ranges of the input weights, plus the
    two biases — the payload of the projection's store, over what the body loads. -/
def zOf (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole)
    (arg5 : Memref sig .tc .vmem S1x512 .f32) (harg5 : arg5.IsWhole) (arg6 : Memref sig .tc .vmem S1x512 .f32) (harg6 : arg6.IsWhole)
    (x1 : Vec F S2048x64 .f32) (x2 : Vec F S2048x128 .f32) (x3 : Vec F S512x192 .f32) (x5 : Vec F S1x512 .f32) (x6 : Vec F S1x512 .f32) :
    Vec F S1x2048x512 .f32 :=
  k1_pay2
    (View.readAt (Elt F) arg1.view (Rect.unit (s := S2048x64) ![0, 0] S2048x64.size inb_S2048x64_S2048x64_0_0).toLoadRect (harg1.unread x1))
    (View.readAt (Elt F) arg3.view (Rect.unit (s := S512x192) ![0, 0] S512x64.size inb_S512x192_S512x64_0_0).toLoadRect (harg3.unread x3))
    (View.readAt (Elt F) arg2.view (Rect.unit (s := S2048x128) ![0, 0] S2048x128.size inb_S2048x128_S2048x128_0_0).toLoadRect (harg2.unread x2))
    (View.readAt (Elt F) arg3.view (Rect.unit (s := S512x192) ![0, 64] S512x128.size inb_S512x192_S512x128_0_64).toLoadRect (harg3.unread x3))
    (View.readAt (Elt F) arg5.view (Rect.unit (s := S1x512) ![0, 0] S1x512.size inb_S1x512_S1x512_0_0).toLoadRect (harg5.unread x5))
    (View.readAt (Elt F) arg6.view (Rect.unit (s := S1x512) ![0, 0] S1x512.size inb_S1x512_S1x512_0_0).toLoadRect (harg6.unread x6))

/-- The projection of the chunk fetched at point `t` (points 0 to 3 project; the last point's is never stored). -/
def Zat (c : Dev nD) (t : Fin cfg1.N) : Vec F S1x2048x512 .f32 :=
  zOf (ms0 t) (hs0 t) (ms1 t) (hs1 t) (ms2 t) (hs2 t) (ms4 t) (hs4 t) (ms5 t) (hs5 t)
    (iblk A c 0 t) (iblk A c 1 t) (iblk A c 2 t) (iblk A c 4 t) (iblk A c 5 t)

section
variable (Ix U Lvl)

/-- The pieces the first point leaves in the hidden state's buffer. -/
def WA (c : Dev nD) (h0 : 0 < cfg1.N) : List (View.Piece (Elt F) S16x512 .f32) :=
  (@runA F _ Ix _ U _ Lvl _ c (grid1.coords ⟨0, h0⟩) ⟨(hpar ⟨0, h0⟩).trans (Nat.zero_mod 2)⟩ (ms0 ⟨0, h0⟩) (hs0 ⟨0, h0⟩) (ms1 ⟨0, h0⟩) (hs1 ⟨0, h0⟩) (ms2 ⟨0, h0⟩) (hs2 ⟨0, h0⟩) (ms3 ⟨0, h0⟩) (hs3 ⟨0, h0⟩) (ms4 ⟨0, h0⟩) (hs4 ⟨0, h0⟩) (ms5 ⟨0, h0⟩) (hs5 ⟨0, h0⟩) (ms6 ⟨0, h0⟩) (hs6 ⟨0, h0⟩) mh hmh mz hmz
    ((hcond1 ⟨0, h0⟩).mpr rfl) ((hcond2 ⟨0, h0⟩).mpr (Nat.zero_lt_succ 3)) (fun h => absurd ((hcond3 ⟨0, h0⟩).mp h) (Nat.lt_irrefl 0))
    (iblk A c 0 ⟨0, h0⟩) (iblk A c 1 ⟨0, h0⟩) (iblk A c 2 ⟨0, h0⟩) (iblk A c 3 ⟨0, h0⟩) (iblk A c 4 ⟨0, h0⟩) (iblk A c 5 ⟨0, h0⟩)).1.1

/-- The pieces the recurrence at point `n + 1` leaves in the output block and in the hidden state's buffer, from the
    hidden state `x8` and the projection `P` the point before left: the last point's case (nothing projected), an
    odd inner point's (it reads slot 0), an even inner point's (it reads slot 1). -/
def W3 (c : Dev nD) (n : ℕ) (hn : n + 1 < cfg1.N) (x8 : Vec F S16x512 .f32) (P : Vec F S1x2048x512 .f32) :
    List (View.Piece (Elt F) S16x128x512 .f32) × List (View.Piece (Elt F) S16x512 .f32) :=
  if h4 : n + 1 = 4 then
    (@runC F _ Ix _ U _ Lvl _ c (grid1.coords ⟨n + 1, hn⟩) ⟨(hpar ⟨n + 1, hn⟩).trans (by show (n + 1) % 2 = 0; omega)⟩ (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) mh hmh mz hmz
      (fun h => absurd ((hcond1 ⟨n + 1, hn⟩).mp h) (Nat.succ_ne_zero n))
      (fun h => absurd ((hcond2 ⟨n + 1, hn⟩).mp h) (by show ¬ n + 1 < 4; omega))
      ((hcond3 ⟨n + 1, hn⟩).mpr (Nat.succ_pos n))
      (iblk A c 0 ⟨n + 1, hn⟩) (iblk A c 1 ⟨n + 1, hn⟩) (iblk A c 2 ⟨n + 1, hn⟩) (iblk A c 3 ⟨n + 1, hn⟩) (iblk A c 4 ⟨n + 1, hn⟩) (iblk A c 5 ⟨n + 1, hn⟩) x8 P).1
  else if ho : (n + 1) % 2 = 1 then
    let r := (@runBo F _ Ix _ U _ Lvl _ c (grid1.coords ⟨n + 1, hn⟩) ⟨(hpar ⟨n + 1, hn⟩).trans ho⟩ (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) mh hmh mz hmz
      (fun h => absurd ((hcond1 ⟨n + 1, hn⟩).mp h) (Nat.succ_ne_zero n))
      ((hcond2 ⟨n + 1, hn⟩).mpr (by show n + 1 < 4; have := lt_of_lt_of_eq hn N_1; omega))
      ((hcond3 ⟨n + 1, hn⟩).mpr (Nat.succ_pos n))
      (iblk A c 0 ⟨n + 1, hn⟩) (iblk A c 1 ⟨n + 1, hn⟩) (iblk A c 2 ⟨n + 1, hn⟩) (iblk A c 3 ⟨n + 1, hn⟩) (iblk A c 4 ⟨n + 1, hn⟩) (iblk A c 5 ⟨n + 1, hn⟩) x8 P).1
    (r.1, r.2.1)
  else
    let r := (@runBe F _ Ix _ U _ Lvl _ c (grid1.coords ⟨n + 1, hn⟩) ⟨(hpar ⟨n + 1, hn⟩).trans (by show (n + 1) % 2 = 0; omega)⟩ (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) mh hmh mz hmz
      (fun h => absurd ((hcond1 ⟨n + 1, hn⟩).mp h) (Nat.succ_ne_zero n))
      ((hcond2 ⟨n + 1, hn⟩).mpr (by show n + 1 < 4; have := lt_of_lt_of_eq hn N_1; omega))
      ((hcond3 ⟨n + 1, hn⟩).mpr (Nat.succ_pos n))
      (iblk A c 0 ⟨n + 1, hn⟩) (iblk A c 1 ⟨n + 1, hn⟩) (iblk A c 2 ⟨n + 1, hn⟩) (iblk A c 3 ⟨n + 1, hn⟩) (iblk A c 4 ⟨n + 1, hn⟩) (iblk A c 5 ⟨n + 1, hn⟩) x8 P).1
    (r.1, r.2.1)

/-- The hidden state after the body at point `n`: zero after the first point, then what the recurrence's last step
    stores — its pieces read back. -/
def Hat (c : Dev nD) : (n : ℕ) → n < cfg1.N → Vec F S16x512 .f32
  | 0, hn => mh.view.read (Elt F) (mh.view.writes (Elt F) mh.view.junk (WA Ix U Lvl A c hn))
  | n + 1, hn => mh.view.read (Elt F) (mh.view.writes (Elt F) mh.view.junk
      (W3 Ix U Lvl A c n hn (Hat c n (Nat.lt_of_succ_lt hn)) (Zat A c ⟨n, Nat.lt_of_succ_lt hn⟩)).2)

/-- The output block the body at point `n` leaves: from the second point on the 128 steps' states, the recurrence's
    256 pieces read back; the first point stores none (the window is idle there: anything). -/
def Oat (c : Dev nD) : (n : ℕ) → n < cfg1.N → Vec F S16x128x512 .f32
  | 0, hn => (ms6 ⟨0, hn⟩).view.read (Elt F) (ms6 ⟨0, hn⟩).view.junk
  | n + 1, hn => (ms6 ⟨n + 1, hn⟩).view.read (Elt F) ((ms6 ⟨n + 1, hn⟩).view.writes (Elt F) (ms6 ⟨n + 1, hn⟩).view.junk
      (W3 Ix U Lvl A c n hn (Hat Ix U Lvl A c n (Nat.lt_of_succ_lt hn)) (Zat A c ⟨n, Nat.lt_of_succ_lt hn⟩)).1)

end

/-! ## The pipeline's proof data -/

section
variable (Ix U Lvl)

/-- The invariant between points, by the number of points done: before the first point the two carried buffers hold
    anything; after point `k` the hidden state's buffer holds `Hat k` and the projection buffer holds, in the slot of
    `k`'s parity, the projection of the chunk fetched at `k` (whatever the other slot holds) — after the last point,
    which projects nothing, still the fourth chunk's. -/
def ΦN (c : Dev nD) : ℕ → sProp 𝕄
  | 0 => iprop((∃ d, owns (c : Thread nD τ) mh fullShare d) ∗ (∃ d, owns (c : Thread nD τ) mz fullShare d))
  | 1 => iprop(owns (c : Thread nD τ) mh fullShare (Hat Ix U Lvl A c 0 t1_0.isLt)
      ∗ (∃ f, mz.view.loc (c : Thread nD τ) ↦[mz.view.set]{fullShare} mz.view.writes (Elt F) f [⟨Rect.unit ![0, 0, 0] S1x2048x512.size inb_slot0, Zat A c t1_0⟩]))
  | 2 => iprop(owns (c : Thread nD τ) mh fullShare (Hat Ix U Lvl A c 1 t1_1.isLt)
      ∗ (∃ f, mz.view.loc (c : Thread nD τ) ↦[mz.view.set]{fullShare} mz.view.writes (Elt F) f [⟨Rect.unit ![1, 0, 0] S1x2048x512.size inb_slot1, Zat A c t1_1⟩]))
  | 3 => iprop(owns (c : Thread nD τ) mh fullShare (Hat Ix U Lvl A c 2 t1_2.isLt)
      ∗ (∃ f, mz.view.loc (c : Thread nD τ) ↦[mz.view.set]{fullShare} mz.view.writes (Elt F) f [⟨Rect.unit ![0, 0, 0] S1x2048x512.size inb_slot0, Zat A c t1_2⟩]))
  | 4 => iprop(owns (c : Thread nD τ) mh fullShare (Hat Ix U Lvl A c 3 t1_3.isLt)
      ∗ (∃ f, mz.view.loc (c : Thread nD τ) ↦[mz.view.set]{fullShare} mz.view.writes (Elt F) f [⟨Rect.unit ![1, 0, 0] S1x2048x512.size inb_slot1, Zat A c t1_3⟩]))
  | _ + 5 => iprop(owns (c : Thread nD τ) mh fullShare (Hat Ix U Lvl A c 4 t1_4.isLt)
      ∗ (∃ f, mz.view.loc (c : Thread nD τ) ↦[mz.view.set]{fullShare} mz.view.writes (Elt F) f [⟨Rect.unit ![1, 0, 0] S1x2048x512.size inb_slot1, Zat A c t1_3⟩]))

end

/-- The proof data of the one pipeline on core `c`: the arrays as the region finds them (`A`); after the body at
    point `t` each input's buffer at its block and the output's at `Oat t`; the invariant `ΦN`; nothing owed; the
    recorded waits within `B0` throughout (the body waits for nothing); the shares `q`. -/
def dats (q : Fin cfg1.W → PosShare TreeShare) (B0 : Set (SemLoc sig × Ix)) (p : Fin 1) (c : Dev nD) :
    Dat τ (Elt F) Ix ℕ U Lvl (cfgs p) c where
  A w := A c w
  after w t := match w with
    | ⟨0, _⟩ => iblk A c 0 t
    | ⟨1, _⟩ => iblk A c 1 t
    | ⟨2, _⟩ => iblk A c 2 t
    | ⟨3, _⟩ => iblk A c 3 t
    | ⟨4, _⟩ => iblk A c 4 t
    | ⟨5, _⟩ => iblk A c 5 t
    | ⟨6, _⟩ => Oat Ix U Lvl A c t.val t.isLt
  Φ t := ΦN Ix U Lvl A c t.val
  q := q
  owed _ := 0
  recorded _ := B0

variable (q : Fin cfg1.W → PosShare TreeShare) (B0 : Set (SemLoc sig × Ix))

theorem A_eq (c : Dev nD) (w : Fin cfg1.W) : (dats (U := U) (Lvl := Lvl) A q B0 0 c).A w = A c w := by dsimp only [dats]

/-- What the body leaves, window by window. -/
theorem after1_0 (c : Dev nD) (t : Fin cfg1.N) : (dats (U := U) (Lvl := Lvl) A q B0 0 c).after 0 t = iblk A c 0 t := by dsimp only [dats]
theorem after1_1 (c : Dev nD) (t : Fin cfg1.N) : (dats (U := U) (Lvl := Lvl) A q B0 0 c).after 1 t = iblk A c 1 t := by dsimp only [dats]
theorem after1_2 (c : Dev nD) (t : Fin cfg1.N) : (dats (U := U) (Lvl := Lvl) A q B0 0 c).after 2 t = iblk A c 2 t := by dsimp only [dats]
theorem after1_3 (c : Dev nD) (t : Fin cfg1.N) : (dats (U := U) (Lvl := Lvl) A q B0 0 c).after 3 t = iblk A c 3 t := by dsimp only [dats]
theorem after1_4 (c : Dev nD) (t : Fin cfg1.N) : (dats (U := U) (Lvl := Lvl) A q B0 0 c).after 4 t = iblk A c 4 t := by dsimp only [dats]
theorem after1_5 (c : Dev nD) (t : Fin cfg1.N) : (dats (U := U) (Lvl := Lvl) A q B0 0 c).after 5 t = iblk A c 5 t := by dsimp only [dats]
theorem after1_6 (c : Dev nD) (t : Fin cfg1.N) : (dats (U := U) (Lvl := Lvl) A q B0 0 c).after 6 t = Oat Ix U Lvl A c t.val t.isLt := by dsimp only [dats]

/-- The invariant, by the number of points done. -/
theorem Φ_eq (c : Dev nD) (t : Fin (cfg1.N + 1)) : (dats (U := U) (Lvl := Lvl) A q B0 0 c).Φ t = ΦN Ix U Lvl A c t.val := by dsimp only [dats]

/-- Each input's current staging buffer holds its block at every point, fetched there or not: the body leaves the
    block in place, the window is never idle and its blocks tile the array. -/
theorem before1_0 (c : Dev nD) (t : Fin cfg1.N) (d) : (dats (U := U) (Lvl := Lvl) A q B0 0 c).before 0 t d = iblk A c 0 t :=
  ((dats (U := U) (Lvl := Lvl) A q B0 0 c).before_in_eq_fetched 0 rfl (fun _ => rfl) (fun _ _ _ => rfl)
      (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats (U := U) (Lvl := Lvl) A q B0 0 c).before 1 t d = iblk A c 1 t :=
  ((dats (U := U) (Lvl := Lvl) A q B0 0 c).before_in_eq_fetched 1 rfl (fun _ => rfl) (fun _ _ _ => rfl)
      (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dats (U := U) (Lvl := Lvl) A q B0 0 c).before 2 t d = iblk A c 2 t :=
  ((dats (U := U) (Lvl := Lvl) A q B0 0 c).before_in_eq_fetched 2 rfl (fun _ => rfl) (fun _ _ _ => rfl)
      (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dats (U := U) (Lvl := Lvl) A q B0 0 c).before 3 t d = iblk A c 3 t :=
  ((dats (U := U) (Lvl := Lvl) A q B0 0 c).before_in_eq_fetched 3 rfl (fun _ => rfl) (fun _ _ _ => rfl)
      (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (dats (U := U) (Lvl := Lvl) A q B0 0 c).before 4 t d = iblk A c 4 t :=
  ((dats (U := U) (Lvl := Lvl) A q B0 0 c).before_in_eq_fetched 4 rfl (fun _ => rfl) (fun _ _ _ => rfl)
      (fun t => by rw [after1_4]; unfold Dat.blockOf iblk; rw [A_eq]; try rfl) t d).trans
    (by unfold Dat.fetched Dat.blockOf iblk; rw [A_eq]; try rfl)
theorem before1_5 (c : Dev nD) (t : Fin cfg1.N) (d) : (dats (U := U) (Lvl := Lvl) A q B0 0 c).before 5 t d = iblk A c 5 t :=
  ((dats (U := U) (Lvl := Lvl) A q B0 0 c).before_in_eq_fetched 5 rfl (fun _ => rfl) (fun _ _ _ => rfl)
      (fun t => by rw [after1_5]; unfold Dat.blockOf iblk; rw [A_eq]; try rfl) t d).trans
    (by unfold Dat.fetched Dat.blockOf iblk; rw [A_eq]; try rfl)

end Cert.Proof.BitsRegion

end
-- ==== Proof.BitsRegionSeg.lean ====
/-
  The recurrence's kernel region, as the launch theorem's @main meets it.
  The region is entered with every array of @main whole. Seven of them are the pipeline's windows' arrays (the time-major
  actions, the gathered embeddings, W_ih, W_hhᵀ, the two biases as 1×512 rows, and the result); the others bypass it. The
  two buffers the kernel carries from grid point to grid point (the hidden state, the two slots of projected inputs) are
  the core's scoped buffers no window stages: they enter the pipeline's invariant at any contents and leave it the same
  way. The core owes nothing throughout, and the waits recorded are those the core came with and the pipeline's own, at the
  index that sits below everything. At the exit the result array holds what the proof data says the four write-backs leave.
-/
import proofs.«213871_g15814069584205_fold_wed_c4_299_27_alg».proof.Proof.BitsMain
import proofs.«213871_g15814069584205_fold_wed_c4_299_27_alg».proof.Proof.BitsRegionDat
import Idealize.ShloMosaic.Lib.Pipeline.Regions

noncomputable section

namespace Cert.Proof.BitsRegionSeg

open Cert.Kernel Cert.Kernel.Gen Cert.Proof.BitsTile Cert.Proof.BitsLaunch Cert.Proof.BitsMain

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat RegionSeg)

variable {F : FTy → Type} [FloatOps F]

local notation "𝕄" => MT nD τ sig (HIx 1) (Elt F) ℕ UU ℕ

variable (m : (ℓ : Loc nD τ sig) → Buf (Elt F) ℓ)

/-- The pipeline has no prefetched table. -/
abbrev adm : (p : Fin 1) → (pcfgs (F := F) p).Adm := fun p => (cfgs p).toPCfg_adm

/-- A buffer held whole through its whole view is the buffer held. -/
theorem pts_whole (c : Thread nD τ) (b : Ref sig c.2.kind) (q : PosShare TreeShare) (g : Buf (Elt F) (c.loc b)) :
    ((Memref.whole b).view.loc c ↦[(Memref.whole b).view.set]{q} g : sProp 𝕄) = (c.loc b ↦{q} g) := by
  simp only [Memref.view_whole, View.set_whole]

/-- There is one device. -/
theorem dev_eq (c d : Dev nD) : c = d := Subsingleton.elim c d

section Rec

variable (d : Dev nD) (f : Buf (Elt F) (outLoc d)) (W₀ : Waits sig (HIx 1))

/-- The gathered array, on the one core. -/
def fAt (c : Dev nD) : Buf (Elt F) (outLoc c) := (dev_eq d c) ▸ f

/-- Every array of @main as the region finds it on core `c`. -/
abbrev Vw (c : Dev nD) : (b : Ref sig .tc) → Buf (Elt F) ((c.tc : Thread nD τ).loc b) :=
  fun b => Vmid m c (fAt d f c) (Proc.devRef .tc b)

/-- The windows' arrays among them. -/
abbrev Aw (c : Dev nD) (w : Fin cfg1.W) : Buf (Elt F) ((cfg1.win w).arr.view.loc (c.tc : Thread nD τ)) :=
  Vw m d f c (Pipeline.arrRef spec1 w)

/-- The waits the core may have recorded: those it came with, and any at the lowest index. -/
abbrev B0 : Set (SemLoc sig × HIx 1) := {p | p ∈ W₀ ∨ p.2 = none}

/-- The pipeline's proof data over these arrays. -/
abbrev pd : (p : Fin 1) → (c : Dev nD) → Dat τ (Elt F) (HIx 1) ℕ UU ℕ (cfgs p) c :=
  Cert.Proof.BitsRegion.dats (Ix := HIx 1) (U := UU) (Lvl := ℕ) (Aw m d f) (fun _ => fullShare) (B0 W₀)

/-- What the region leaves in the result array. -/
def OUTc (c : Dev nD) : Buf (Elt F) ((cfg1.win 6).arr.view.loc (c.tc : Thread nD τ)) := (pd m d f W₀ 0 c).arrAt 6 cfg1.N

/-- The arrays after the region, every one: the windows' at the proof data's final contents, the others as they were. -/
abbrev Ve (c : Dev nD) : (b : Ref sig .tc) → Buf (Elt F) ((c.tc : Thread nD τ).loc b) :=
  fun b => Vend m c (fAt d f c) (OUTc m d f W₀ c) (Proc.devRef .tc b)

/-- An input window's array leaves the region as it entered; the result's is `OUTc`. -/
theorem arrAt_end (c : Dev nD) (w : Fin cfg1.W) : (pd m d f W₀ 0 c).arrAt w cfg1.N = Ve m d f W₀ c (Pipeline.arrRef spec1 w) := by
  have hne : ∀ r : Ref sig .tc, r ≠ main_v8 → Ve m d f W₀ c r = Vw m d f c r := fun r hr => by
    show Vend m c (fAt d f c) _ (Proc.devRef .tc r) = _
    unfold Vend; exact Function.update_of_ne (StableHlo.devRef_ne_of_ne hr) _ _
  match w with
  | ⟨0, _⟩ => exact ((pd m d f W₀ 0 c).arrAt_in 0 rfl _).trans (hne main_v1 (by decide)).symm
  | ⟨1, _⟩ => exact ((pd m d f W₀ 0 c).arrAt_in 1 rfl _).trans (hne main_v4 (by decide)).symm
  | ⟨2, _⟩ => exact ((pd m d f W₀ 0 c).arrAt_in 2 rfl _).trans (hne main_arg3 (by decide)).symm
  | ⟨3, _⟩ => exact ((pd m d f W₀ 0 c).arrAt_in 3 rfl _).trans (hne main_v5 (by decide)).symm
  | ⟨4, _⟩ => exact ((pd m d f W₀ 0 c).arrAt_in 4 rfl _).trans (hne main_v6 (by decide)).symm
  | ⟨5, _⟩ => exact ((pd m d f W₀ 0 c).arrAt_in 5 rfl _).trans (hne main_v7 (by decide)).symm
  | ⟨6, _⟩ =>
    show OUTc m d f W₀ c = Vend m c (fAt d f c) (OUTc m d f W₀ c) (Proc.devRef .tc main_v8)
    unfold Vend; rw [Function.update_self]

/-- The arrays that bypass the region are none of them the result array. -/
theorem rest_end (c : Dev nD) :
    (Pipeline.unscopedRest (Ix := HIx 1) (Name := ℕ) (U := UU) (Lvl := ℕ) spec1 c (Vw m d f c) : sProp 𝕄)
      = Pipeline.unscopedRest spec1 c (Ve m d f W₀ c) := by
  unfold Pipeline.unscopedRest
  refine bigSep_congr fun b hb => ?_
  have hb8 : b ≠ main_v8 := fun e => (Finset.mem_sdiff.mp hb).2 (Finset.mem_image.mpr ⟨6, Finset.mem_univ _, e.symm ▸ rfl⟩)
  have : Ve m d f W₀ c b = Vw m d f c b := by
    show Vend m c (fAt d f c) _ (Proc.devRef .tc b) = _
    unfold Vend; exact Function.update_of_ne (StableHlo.devRef_ne_of_ne hb8) _ _
  rw [this]

set_option maxHeartbeats 2000000 in
/-- Every array held after the region. -/
theorem exit_held (c : Dev nD) :
    iprop(((pd m d f W₀ 0 c).arrays fun w => (pd m d f W₀ 0 c).arrAt w cfg1.N) ∗ Pipeline.unscopedRest spec1 c (Vw m d f c))
      ⊢ (held (c.tc : Thread nD τ) UC (Vend m c (fAt d f c) (OUTc m d f W₀ c)) : sProp 𝕄) := by
  have e1 := Pipeline.unscopedBufs_held (Ix := HIx 1) (Name := ℕ) (U := UU) (Lvl := ℕ) c (Vend m c (fAt d f c) (OUTc m d f W₀ c))
  have e2 := Pipeline.unscopedBufs_split (Ix := HIx 1) (Name := ℕ) (U := UU) (Lvl := ℕ) (Pipeline.pin (pcfgs (F := F)) adm) 0
    launch1.win.arr_unscoped launch1.win.arr_inj c (Ve m d f W₀ c)
  have e3 := Pipeline.arrays_eq (Pipeline.pin (pcfgs (F := F)) adm) (pd m d f W₀) 0 c launch1.arr_whole ((pd m d f W₀ 0 c).share_full fun _ => rfl)
    (fun w => (pd m d f W₀ 0 c).arrAt w cfg1.N)
  rw [← e1, e2, e3, rest_end m d f W₀ c]
  exact sep_mono (Entails.of_eq (bigSep_congr fun w _ => by rw [arrAt_end m d f W₀ c w])) .rfl

variable (hbody : ∀ c : Dev nD, Pipeline.BodyObligationLoose (pd m d f W₀ 0 c) (defs₀ (F := F)) Variants.none (none : HIx 1) Set.univ)

/-- THE REGION: the seven windows' arrays into the pipeline, the other arrays bypassing, the two carried buffers into its
    invariant, the core owing nothing. -/
def reg : Pipeline.RegionSeg (pcfgs (F := F)) adm (pd m d f W₀) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := hbody c
  hwaits c := by
    exact BI.Entails.trans (fun _ _ => trivial) (Pipeline.cellsWaits_of_owed_zero (Pipeline.pin (pcfgs (F := F)) adm) (pd m d f W₀) (none : HIx 1) 0 c (fun _ => rfl))
  pre c := iprop((held (c.tc : Thread nD τ) UC (fun b => Vmid m c (fAt d f c) b) : sProp 𝕄) ∗ owes (c.tc : Thread nD τ) 0 W₀)
  post c := iprop((held (c.tc : Thread nD τ) UC (Vend m c (fAt d f c) (OUTc m d f W₀ c)) : sProp 𝕄)
    ∗ ∃ W', ⌜∀ p ∈ W', p ∈ W₀ ∨ p.2 = none⌝ ∗ owes (c.tc : Thread nD τ) 0 W')
  X _ := iprop(emp)
  Y _ := iprop(emp)
  Z c := Pipeline.unscopedRest (Ix := HIx 1) (Name := ℕ) (U := UU) (Lvl := ℕ) spec1 c (Vw m d f c)
  hentry c := by
    rw [Pipeline.ownSems0_none]
    have hsplit := Pipeline.arrays_of_unscopedBufs (pcfgs (F := F)) adm (pd m d f W₀) launch1.win launch1.arr_whole c
      ((pd m d f W₀ 0 c).share_full fun _ => rfl) (Vw m d f c) fun _ => rfl
    iintro ⟨⟨Hh, HO⟩, -, -⟩
    ihave Hub := (Entails.of_eq (Pipeline.unscopedBufs_held (Ix := HIx 1) (Name := ℕ) (U := UU) (Lvl := ℕ) c (fun b => Vmid m c (fAt d f c) b)).symm) $$ Hh
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W₀; isplitr; · ipureintro; exact fun p hp => Or.inl (Or.inl hp)
      iexact HO
    isplitr; · iempintro
    iexact Hr
  hin c := by
    rw [Cert.Proof.BitsRegion.Φ_eq, scopedRest1_eq]
    show _ ⊢ Cert.Proof.BitsRegion.ΦN (HIx 1) UU ℕ (Aw m d f) c 0
    unfold Cert.Proof.BitsRegion.ΦN
    iintro ⟨-, -, ⟨%a, Ha⟩, ⟨%b, Hb⟩⟩
    isplitl [Ha]
    · iexists a; iapply (Entails.of_eq (owns_whole (c.tc : Thread nD τ) cc1_scratch0 fullShare a).symm); iexact Ha
    · iexists b; iapply (Entails.of_eq (owns_whole (c.tc : Thread nD τ) cc1_scratch1 fullShare b).symm); iexact Hb
  hout c := by
    rw [Cert.Proof.BitsRegion.Φ_eq, Pipeline.ownSems0_none, scopedRest1_eq]
    show Cert.Proof.BitsRegion.ΦN (HIx 1) UU ℕ (Aw m d f) c 5 ⊢ _
    unfold Cert.Proof.BitsRegion.ΦN
    iintro ⟨Hh, ⟨%g, Hz⟩⟩
    isplitr; · iempintro
    isplitr; · iempintro
    isplitl [Hh]
    · iexists _; iapply (Entails.of_eq (owns_whole (c.tc : Thread nD τ) cc1_scratch0 fullShare _)); iexact Hh
    · iexists _; iapply (Entails.of_eq (pts_whole (c.tc : Thread nD τ) cc1_scratch1 fullShare _)); iexact Hz
  hexit c := by
    iintro ⟨Ha, HO, -, Hr⟩
    imodintro
    isplitl [Ha Hr]
    · iapply (exit_held m d f W₀ c)
      isplitl [Ha]; · iexact Ha
      iexact Hr
    unfold Pipeline.Dat.owesAt Pipeline.owesWithin
    icases HO with ⟨%W, %hW, HO⟩
    iexists W; isplitr
    · ipureintro; intro p hp
      rcases hW (Finset.mem_coe.mpr hp) with h | ⟨w, s, h⟩
      · exact h
      · exact Or.inr (h ▸ rfl)
    iexact HO

/-- At the device the gathered array was given on, it is that array. -/
theorem fAt_self : fAt d f d = f := rfl

/-- What the region leaves does not depend on the bound on the recorded waits. -/
theorem OUTc_indep (c : Dev nD) : OUTc m d f W₀ c = OUTc m d f ∅ c := rfl

theorem reg_pre_self :
    (reg m d f W₀ hbody).pre d = iprop((held (SparseCore.T d) UC (Vmid m d f) : sProp 𝕄) ∗ owes (SparseCore.T d) 0 W₀) := rfl

theorem reg_post_self :
    (reg m d f W₀ hbody).post d = iprop((held (SparseCore.T d) UC (Vend m d f (OUTc m d f ∅ d)) : sProp 𝕄)
      ∗ ∃ W', ⌜∀ p ∈ W', p ∈ W₀ ∨ p.2 = none⌝ ∗ owes (SparseCore.T d) 0 W') := rfl

end Rec

/-! ## The contract -/

section Spec

variable (hOK : ∀ d : Dev nD, IdxOK d (idxV m d))

/-- What the region leaves in the result array, of the gathered array it found. -/
def OUT (d : Dev nD) (f : Buf (Elt F) (outLoc d)) : Buf (Elt F) ((SparseCore.T d : Thread nD τ).loc main_v8) := OUTc m d f ∅ d

/-- THE REGION'S CONTRACT: entered as @main reaches it, the kernel region runs to its end and leaves every array as it
    was but the result, which it leaves at `OUT`. -/
theorem regionSpec [∀ e, Nonempty (Elt F e)]
    (hbody : ∀ (d : Dev nD) (f : Buf (Elt F) (outLoc d)) (W₀ : Waits sig (HIx 1)) (c : Dev nD),
      Pipeline.BodyObligationLoose (pd m d f W₀ 0 c) (defs₀ (F := F)) Variants.none (none : HIx 1) Set.univ) :
    RegionSpec m hOK (OUT m) := by
  intro d f _ W₀
  iintro ⟨Hb, Hheld, HO, #Hlev, ⟨Hg, Ht⟩⟩
  iapply (Pipeline.RegionSeg.wp (pcfgs (F := F)) adm (pd m d f W₀) (none : HIx 1) cellOf_inj (EP (F := F)) defs₀ 𝒱₀
    (K (F := F)).L (K (F := F)).lev (reg m d f W₀ (hbody d f W₀)) d none (fun u hu => by cases hu) (fun _ => .ret PUnit.unit) _)
  isplitr
  · iintro ⟨Hb, Hpost⟩
    rw [wp_ret]; imodintro
    isplitl [Hb]; · iexact Hb
    iapply (Entails.of_eq (reg_post_self m d f W₀ (hbody d f W₀)))
    iexact Hpost
  isplitl [Hb]; · iexact Hb
  isplitl [Hheld HO]
  · iapply (Entails.of_eq (reg_pre_self m d f W₀ (hbody d f W₀)).symm)
    isplitl [Hheld]; · iexact Hheld
    iexact HO
  isplitr; · iexact Hlev
  isplitl [Hg]; · iexact Hg
  iexact Ht

end Spec

end Cert.Proof.BitsRegionSeg

end
-- ==== Proof.BitsRegionBody.lean ====
import proofs.«213871_g15814069584205_fold_wed_c4_299_27_alg».proof.Proof.BitsRegionDat
import Idealize.ShloMosaic.Lib.Pipeline.FrameBody
import Idealize.ShloMosaic.Lib.Ring
import Idealize.ShloMosaic.Lib.Tactic

set_option maxRecDepth 16384

noncomputable section

namespace Cert.Proof.BitsRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! The body obligation of the recurrent kernel's pipeline: at each of the five grid points the body, run from the
    invariant and the windows' current buffers, leaves the next invariant and the buffers at what the proof data says. -/

variable (A : (c : Dev nD) → (w : Fin cfg1.W) → Buf (Elt F) ((cfg1.win w).arr.view.loc (c.tc : Thread nD τ)))
variable (q : Fin cfg1.W → PosShare TreeShare) (B0 : Set (SemLoc sig × Ix))

/-! ## What the body's stores leave: covers, and the projection buffer's pieces -/

section
variable (Ix U Lvl)

/-- The first point's one store of the hidden state covers its buffer. -/
theorem coverA_h (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : cond1 i) (hc2 : k1_cond2 i = 1#1) (hc3 : ¬ k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (y : S16x512.Idx) :
    ∃ pc ∈ (runA (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6).1.1, y ∈ pc.1.set :=
  View.cover_of_tiledL (runA (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6).1.1 S16x512.size (by sl_kernel_rfl) y

/-- The recurrence's 256 half-row stores tile the output block; its two half stores tile the hidden state. -/
theorem coverC_o (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : ¬ k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) (y : S16x128x512.Idx) :
    ∃ pc ∈ (runC (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.1, y ∈ pc.1.set :=
  View.cover_of_tiledL (runC (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.1 S16x1x256.size (by sl_kernel_rfl) y
theorem coverC_h (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : ¬ k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) (y : S16x512.Idx) :
    ∃ pc ∈ (runC (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2, y ∈ pc.1.set :=
  View.cover_of_tiledL (runC (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2 S16x256.size (by sl_kernel_rfl) y
theorem coverBo_o (c : Dev nD) (i : grid1.Coords) [Par i 1] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) (y : S16x128x512.Idx) :
    ∃ pc ∈ (runBo (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.1, y ∈ pc.1.set :=
  View.cover_of_tiledL (runBo (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.1 S16x1x256.size (by sl_kernel_rfl) y
theorem coverBo_h (c : Dev nD) (i : grid1.Coords) [Par i 1] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) (y : S16x512.Idx) :
    ∃ pc ∈ (runBo (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.1, y ∈ pc.1.set :=
  View.cover_of_tiledL (runBo (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.1 S16x256.size (by sl_kernel_rfl) y
theorem coverBe_o (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) (y : S16x128x512.Idx) :
    ∃ pc ∈ (runBe (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.1, y ∈ pc.1.set :=
  View.cover_of_tiledL (runBe (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.1 S16x1x256.size (by sl_kernel_rfl) y
theorem coverBe_h (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) (y : S16x512.Idx) :
    ∃ pc ∈ (runBe (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.1, y ∈ pc.1.set :=
  View.cover_of_tiledL (runBe (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.1 S16x256.size (by sl_kernel_rfl) y

/-- The projection buffer's pieces after the first point: the point's projection, at the store's rectangle; -/
theorem runA_z (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : cond1 i) (hc2 : k1_cond2 i = 1#1) (hc3 : ¬ k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) :
    (runA (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6).1.2 = [⟨Rect.unit (s := S2x2048x512) (k1_off1 i) S1x2048x512.size (k1_off1_inb i hc2), (zOf arg1 harg1 arg2 harg2 arg3 harg3 arg5 harg5 arg6 harg6 x1 x2 x3 x5 x6)⟩] := rfl
/-- after an inner point: the point's projection on top of the one it read. -/
theorem runBo_z (c : Dev nD) (i : grid1.Coords) [Par i 1] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) :
    (runBo (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.2 = [⟨Rect.unit (s := S2x2048x512) (k1_off1 i) S1x2048x512.size (k1_off1_inb i hc2), (zOf arg1 harg1 arg2 harg2 arg3 harg3 arg5 harg5 arg6 harg6 x1 x2 x3 x5 x6)⟩,
      ⟨Rect.unit (s := S2x2048x512) ![0, 0, 0] S1x2048x512.size inb_slot0, P⟩] := rfl
theorem runBe_z (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) :
    (runBe (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.2 = [⟨Rect.unit (s := S2x2048x512) (k1_off1 i) S1x2048x512.size (k1_off1_inb i hc2), (zOf arg1 harg1 arg2 harg2 arg3 harg3 arg5 harg5 arg6 harg6 x1 x2 x3 x5 x6)⟩,
      ⟨Rect.unit (s := S2x2048x512) ![1, 0, 0] S1x2048x512.size inb_slot1, P⟩] := rfl

end

/-! ## The body in each control case, as a triple over values: what the covered buffers read back, the projection buffer at literal slots -/

section
variable (Ix U Lvl)

theorem specA (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : cond1 i) (hc2 : k1_cond2 i = 1#1) (hc3 : ¬ k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (E : Set ℕ) (K : PUnit → sProp 𝕄) :
    iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d)
            ∗ owns (c : Thread nD τ) arg8 fullShare (arg8.view.read (Elt F) (arg8.view.writes (Elt F) arg8.view.junk (runA (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6).1.1))
            ∗ (∃ f, arg9.view.loc (c : Thread nD τ) ↦[arg9.view.set]{fullShare} arg9.view.writes (Elt F) f [⟨Rect.unit (s := S2x2048x512) ![0, 0, 0] S1x2048x512.size inb_slot0, (zOf arg1 harg1 arg2 harg2 arg3 harg3 arg5 harg5 arg6 harg6 x1 x2 x3 x5 x6)⟩])) -∗ K ⟨⟩))
      ⊢ wp frame (wpE (defs₀ (F := F)) Variants.none c none) E (cc1__rnn_kernel i arg1 harg1 arg2 harg2 arg3 harg3 arg4 harg4 arg5 harg5 arg6 harg6 arg7 harg7 arg8 harg8 arg9 harg9) K := by
  have h2 := (runA (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6).2 E K
  have hz : (runA (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6).1.2 = [⟨Rect.unit (s := S2x2048x512) ![0, 0, 0] S1x2048x512.size inb_slot0, (zOf arg1 harg1 arg2 harg2 arg3 harg3 arg5 harg5 arg6 harg6 x1 x2 x3 x5 x6)⟩] :=
    (runA_z Ix U Lvl c i arg1 harg1 arg2 harg2 arg3 harg3 arg4 harg4 arg5 harg5 arg6 harg6 arg7 harg7 arg8 harg8 arg9 harg9 hc1 hc2 hc3 x1 x2 x3 x4 x5 x6).trans (View.Piece.cons_unit_congr (k1_off1_even i (Par.eq (i := i) (p := 0))) _ _ _)
  rw [hz] at h2
  iintro ⟨H1, H2, H3, H4, H5, H6, H7, H8, H9, Hk⟩
  iapply h2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, ⟨%f8, H8⟩, H9⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverA_h Ix U Lvl c i arg1 harg1 arg2 harg2 arg3 harg3 arg4 harg4 arg5 harg5 arg6 harg6 arg7 harg7 arg8 harg8 arg9 harg9 hc1 hc2 hc3 x1 x2 x3 x4 x5 x6)
  iexact H9

theorem specC (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : ¬ k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) (E : Set ℕ) (K : PUnit → sProp 𝕄) :
    iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
        ∗ (∃ d, owns (c : Thread nD τ) arg7 fullShare d) ∗ owns (c : Thread nD τ) arg8 fullShare x8
        ∗ (∃ f, arg9.view.loc (c : Thread nD τ) ↦[arg9.view.set]{fullShare} arg9.view.writes (Elt F) f [⟨Rect.unit (s := S2x2048x512) ![1, 0, 0] S1x2048x512.size inb_slot1, P⟩])
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (arg7.view.read (Elt F) (arg7.view.writes (Elt F) arg7.view.junk (runC (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.1))
            ∗ owns (c : Thread nD τ) arg8 fullShare (arg8.view.read (Elt F) (arg8.view.writes (Elt F) arg8.view.junk (runC (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2))
            ∗ (∃ f, arg9.view.loc (c : Thread nD τ) ↦[arg9.view.set]{fullShare} arg9.view.writes (Elt F) f [⟨Rect.unit (s := S2x2048x512) ![1, 0, 0] S1x2048x512.size inb_slot1, P⟩])) -∗ K ⟨⟩))
      ⊢ wp frame (wpE (defs₀ (F := F)) Variants.none c none) E (cc1__rnn_kernel i arg1 harg1 arg2 harg2 arg3 harg3 arg4 harg4 arg5 harg5 arg6 harg6 arg7 harg7 arg8 harg8 arg9 harg9) K := by
  have h2 := (runC (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).2 E K
  iintro ⟨H1, H2, H3, H4, H5, H6, H7, H8, H9, Hk⟩
  iapply h2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, ⟨%f7, H7⟩, ⟨%f8, H8⟩, H9⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverC_o Ix U Lvl c i arg1 harg1 arg2 harg2 arg3 harg3 arg4 harg4 arg5 harg5 arg6 harg6 arg7 harg7 arg8 harg8 arg9 harg9 hc1 hc2 hc3 x1 x2 x3 x4 x5 x6 x8 P)
  isplitl [H8]
  · unfold owns; iexists _; isplitr
    swap; · iexact H8
    ipureintro; exact View.read_writes_of_cover _ _ _ _ _ (coverC_h Ix U Lvl c i arg1 harg1 arg2 harg2 arg3 harg3 arg4 harg4 arg5 harg5 arg6 harg6 arg7 harg7 arg8 harg8 arg9 harg9 hc1 hc2 hc3 x1 x2 x3 x4 x5 x6 x8 P)
  iexact H9

theorem specBo (c : Dev nD) (i : grid1.Coords) [Par i 1] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) (E : Set ℕ) (K : PUnit → sProp 𝕄) :
    iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
        ∗ (∃ d, owns (c : Thread nD τ) arg7 fullShare d) ∗ owns (c : Thread nD τ) arg8 fullShare x8
        ∗ (∃ f, arg9.view.loc (c : Thread nD τ) ↦[arg9.view.set]{fullShare} arg9.view.writes (Elt F) f [⟨Rect.unit (s := S2x2048x512) ![0, 0, 0] S1x2048x512.size inb_slot0, P⟩])
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (arg7.view.read (Elt F) (arg7.view.writes (Elt F) arg7.view.junk (runBo (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.1))
            ∗ owns (c : Thread nD τ) arg8 fullShare (arg8.view.read (Elt F) (arg8.view.writes (Elt F) arg8.view.junk (runBo (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.1))
            ∗ (∃ f, arg9.view.loc (c : Thread nD τ) ↦[arg9.view.set]{fullShare} arg9.view.writes (Elt F) f [⟨Rect.unit (s := S2x2048x512) ![1, 0, 0] S1x2048x512.size inb_slot1, (zOf arg1 harg1 arg2 harg2 arg3 harg3 arg5 harg5 arg6 harg6 x1 x2 x3 x5 x6)⟩])) -∗ K ⟨⟩))
      ⊢ wp frame (wpE (defs₀ (F := F)) Variants.none c none) E (cc1__rnn_kernel i arg1 harg1 arg2 harg2 arg3 harg3 arg4 harg4 arg5 harg5 arg6 harg6 arg7 harg7 arg8 harg8 arg9 harg9) K := by
  have h2 := (runBo (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).2 E K
  have hz : (runBo (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.2 = [⟨Rect.unit (s := S2x2048x512) ![1, 0, 0] S1x2048x512.size inb_slot1, (zOf arg1 harg1 arg2 harg2 arg3 harg3 arg5 harg5 arg6 harg6 x1 x2 x3 x5 x6)⟩, ⟨Rect.unit (s := S2x2048x512) ![0, 0, 0] S1x2048x512.size inb_slot0, P⟩] :=
    (runBo_z Ix U Lvl c i arg1 harg1 arg2 harg2 arg3 harg3 arg4 harg4 arg5 harg5 arg6 harg6 arg7 harg7 arg8 harg8 arg9 harg9 hc1 hc2 hc3 x1 x2 x3 x4 x5 x6 x8 P).trans (View.Piece.cons_unit_congr (k1_off1_odd i (Par.eq (i := i) (p := 1))) _ _ _)
  rw [hz] at h2
  iintro ⟨H1, H2, H3, H4, H5, H6, H7, H8, H9, Hk⟩
  iapply h2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, ⟨%f7, H7⟩, ⟨%f8, H8⟩, ⟨%f9, H9⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverBo_o Ix U Lvl c i arg1 harg1 arg2 harg2 arg3 harg3 arg4 harg4 arg5 harg5 arg6 harg6 arg7 harg7 arg8 harg8 arg9 harg9 hc1 hc2 hc3 x1 x2 x3 x4 x5 x6 x8 P)
  isplitl [H8]
  · unfold owns; iexists _; isplitr
    swap; · iexact H8
    ipureintro; exact View.read_writes_of_cover _ _ _ _ _ (coverBo_h Ix U Lvl c i arg1 harg1 arg2 harg2 arg3 harg3 arg4 harg4 arg5 harg5 arg6 harg6 arg7 harg7 arg8 harg8 arg9 harg9 hc1 hc2 hc3 x1 x2 x3 x4 x5 x6 x8 P)
  iexists (arg9.view.writes (Elt F) f9 [⟨Rect.unit (s := S2x2048x512) ![0, 0, 0] S1x2048x512.size inb_slot0, P⟩])
  simp only [View.writes_cons, View.writes_nil]
  iexact H9

theorem specBe (c : Dev nD) (i : grid1.Coords) [Par i 0] (arg1 : Memref sig .tc .vmem S2048x64 .f32) (harg1 : arg1.IsWhole) (arg2 : Memref sig .tc .vmem S2048x128 .f32) (harg2 : arg2.IsWhole)
    (arg3 : Memref sig .tc .vmem S512x192 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S16x128x512 .f32) (harg7 : arg7.IsWhole) (arg8 : Memref sig .tc .vmem S16x512 .f32) (harg8 : arg8.IsWhole)
    (arg9 : Memref sig .tc .vmem S2x2048x512 .f32) (harg9 : arg9.IsWhole) (hc1 : ¬ cond1 i) (hc2 : k1_cond2 i = 1#1) (hc3 : k1_cond3 i = 1#1) (x1 : Vec F S2048x64 .f32) (x2 : Vec F S2048x128 .f32) (x3 : Vec F S512x192 .f32) (x4 : Vec F S512x512 .f32)
    (x5 : Vec F S1x512 .f32) (x6 : Vec F S1x512 .f32) (x8 : Vec F S16x512 .f32) (P : Vec F S1x2048x512 .f32) (E : Set ℕ) (K : PUnit → sProp 𝕄) :
    iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
        ∗ (∃ d, owns (c : Thread nD τ) arg7 fullShare d) ∗ owns (c : Thread nD τ) arg8 fullShare x8
        ∗ (∃ f, arg9.view.loc (c : Thread nD τ) ↦[arg9.view.set]{fullShare} arg9.view.writes (Elt F) f [⟨Rect.unit (s := S2x2048x512) ![1, 0, 0] S1x2048x512.size inb_slot1, P⟩])
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (arg7.view.read (Elt F) (arg7.view.writes (Elt F) arg7.view.junk (runBe (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.1))
            ∗ owns (c : Thread nD τ) arg8 fullShare (arg8.view.read (Elt F) (arg8.view.writes (Elt F) arg8.view.junk (runBe (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.1))
            ∗ (∃ f, arg9.view.loc (c : Thread nD τ) ↦[arg9.view.set]{fullShare} arg9.view.writes (Elt F) f [⟨Rect.unit (s := S2x2048x512) ![0, 0, 0] S1x2048x512.size inb_slot0, (zOf arg1 harg1 arg2 harg2 arg3 harg3 arg5 harg5 arg6 harg6 x1 x2 x3 x5 x6)⟩])) -∗ K ⟨⟩))
      ⊢ wp frame (wpE (defs₀ (F := F)) Variants.none c none) E (cc1__rnn_kernel i arg1 harg1 arg2 harg2 arg3 harg3 arg4 harg4 arg5 harg5 arg6 harg6 arg7 harg7 arg8 harg8 arg9 harg9) K := by
  have h2 := (runBe (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).2 E K
  have hz : (runBe (Ix := Ix) (U := U) (Lvl := Lvl) c i arg1 harg1 arg2 harg2 arg3 harg3 arg4 harg4 arg5 harg5 arg6 harg6 arg7 harg7 arg8 harg8 arg9 harg9 hc1 hc2 hc3 x1 x2 x3 x4 x5 x6 x8 P).1.2.2 = [⟨Rect.unit (s := S2x2048x512) ![0, 0, 0] S1x2048x512.size inb_slot0, (zOf arg1 harg1 arg2 harg2 arg3 harg3 arg5 harg5 arg6 harg6 x1 x2 x3 x5 x6)⟩, ⟨Rect.unit (s := S2x2048x512) ![1, 0, 0] S1x2048x512.size inb_slot1, P⟩] :=
    (runBe_z Ix U Lvl c i arg1 harg1 arg2 harg2 arg3 harg3 arg4 harg4 arg5 harg5 arg6 harg6 arg7 harg7 arg8 harg8 arg9 harg9 hc1 hc2 hc3 x1 x2 x3 x4 x5 x6 x8 P).trans (View.Piece.cons_unit_congr (k1_off1_even i (Par.eq (i := i) (p := 0))) _ _ _)
  rw [hz] at h2
  iintro ⟨H1, H2, H3, H4, H5, H6, H7, H8, H9, Hk⟩
  iapply h2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, ⟨%f7, H7⟩, ⟨%f8, H8⟩, ⟨%f9, H9⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverBe_o Ix U Lvl c i arg1 harg1 arg2 harg2 arg3 harg3 arg4 harg4 arg5 harg5 arg6 harg6 arg7 harg7 arg8 harg8 arg9 harg9 hc1 hc2 hc3 x1 x2 x3 x4 x5 x6 x8 P)
  isplitl [H8]
  · unfold owns; iexists _; isplitr
    swap; · iexact H8
    ipureintro; exact View.read_writes_of_cover _ _ _ _ _ (coverBe_h Ix U Lvl c i arg1 harg1 arg2 harg2 arg3 harg3 arg4 harg4 arg5 harg5 arg6 harg6 arg7 harg7 arg8 harg8 arg9 harg9 hc1 hc2 hc3 x1 x2 x3 x4 x5 x6 x8 P)
  iexists (arg9.view.writes (Elt F) f9 [⟨Rect.unit (s := S2x2048x512) ![1, 0, 0] S1x2048x512.size inb_slot1, P⟩])
  simp only [View.writes_cons, View.writes_nil]
  iexact H9

end

/-! ## The carried values at each point, as the pieces the body leaves there -/

section
variable (Ix U Lvl)
theorem Hat_0 (c : Dev nD) : Hat Ix U Lvl A c 0 t1_0.isLt = mh.view.read (Elt F) (mh.view.writes (Elt F) mh.view.junk (@runA F _ Ix _ U _ Lvl _ c (grid1.coords t1_0) ⟨(hpar t1_0).trans (by decide)⟩ (ms0 t1_0) (hs0 t1_0) (ms1 t1_0) (hs1 t1_0) (ms2 t1_0) (hs2 t1_0) (ms3 t1_0) (hs3 t1_0) (ms4 t1_0) (hs4 t1_0) (ms5 t1_0) (hs5 t1_0) (ms6 t1_0) (hs6 t1_0) mh hmh mz hmz ((hcond1 t1_0).mpr (by decide)) ((hcond2 t1_0).mpr (by decide)) (fun h => absurd ((hcond3 t1_0).mp h) (by decide)) (iblk A c 0 t1_0) (iblk A c 1 t1_0) (iblk A c 2 t1_0) (iblk A c 3 t1_0) (iblk A c 4 t1_0) (iblk A c 5 t1_0)).1.1) := rfl
theorem Hat_1 (c : Dev nD) : Hat Ix U Lvl A c 1 t1_1.isLt = mh.view.read (Elt F) (mh.view.writes (Elt F) mh.view.junk (@runBo F _ Ix _ U _ Lvl _ c (grid1.coords t1_1) ⟨(hpar t1_1).trans (by decide)⟩ (ms0 t1_1) (hs0 t1_1) (ms1 t1_1) (hs1 t1_1) (ms2 t1_1) (hs2 t1_1) (ms3 t1_1) (hs3 t1_1) (ms4 t1_1) (hs4 t1_1) (ms5 t1_1) (hs5 t1_1) (ms6 t1_1) (hs6 t1_1) mh hmh mz hmz (fun h => absurd ((hcond1 t1_1).mp h) (by decide)) ((hcond2 t1_1).mpr (by decide)) ((hcond3 t1_1).mpr (by decide)) (iblk A c 0 t1_1) (iblk A c 1 t1_1) (iblk A c 2 t1_1) (iblk A c 3 t1_1) (iblk A c 4 t1_1) (iblk A c 5 t1_1) (Hat Ix U Lvl A c 0 t1_0.isLt) (Zat A c t1_0)).1.2.1) := rfl
theorem Hat_2 (c : Dev nD) : Hat Ix U Lvl A c 2 t1_2.isLt = mh.view.read (Elt F) (mh.view.writes (Elt F) mh.view.junk (@runBe F _ Ix _ U _ Lvl _ c (grid1.coords t1_2) ⟨(hpar t1_2).trans (by decide)⟩ (ms0 t1_2) (hs0 t1_2) (ms1 t1_2) (hs1 t1_2) (ms2 t1_2) (hs2 t1_2) (ms3 t1_2) (hs3 t1_2) (ms4 t1_2) (hs4 t1_2) (ms5 t1_2) (hs5 t1_2) (ms6 t1_2) (hs6 t1_2) mh hmh mz hmz (fun h => absurd ((hcond1 t1_2).mp h) (by decide)) ((hcond2 t1_2).mpr (by decide)) ((hcond3 t1_2).mpr (by decide)) (iblk A c 0 t1_2) (iblk A c 1 t1_2) (iblk A c 2 t1_2) (iblk A c 3 t1_2) (iblk A c 4 t1_2) (iblk A c 5 t1_2) (Hat Ix U Lvl A c 1 t1_1.isLt) (Zat A c t1_1)).1.2.1) := rfl
theorem Hat_3 (c : Dev nD) : Hat Ix U Lvl A c 3 t1_3.isLt = mh.view.read (Elt F) (mh.view.writes (Elt F) mh.view.junk (@runBo F _ Ix _ U _ Lvl _ c (grid1.coords t1_3) ⟨(hpar t1_3).trans (by decide)⟩ (ms0 t1_3) (hs0 t1_3) (ms1 t1_3) (hs1 t1_3) (ms2 t1_3) (hs2 t1_3) (ms3 t1_3) (hs3 t1_3) (ms4 t1_3) (hs4 t1_3) (ms5 t1_3) (hs5 t1_3) (ms6 t1_3) (hs6 t1_3) mh hmh mz hmz (fun h => absurd ((hcond1 t1_3).mp h) (by decide)) ((hcond2 t1_3).mpr (by decide)) ((hcond3 t1_3).mpr (by decide)) (iblk A c 0 t1_3) (iblk A c 1 t1_3) (iblk A c 2 t1_3) (iblk A c 3 t1_3) (iblk A c 4 t1_3) (iblk A c 5 t1_3) (Hat Ix U Lvl A c 2 t1_2.isLt) (Zat A c t1_2)).1.2.1) := rfl
theorem Hat_4 (c : Dev nD) : Hat Ix U Lvl A c 4 t1_4.isLt = mh.view.read (Elt F) (mh.view.writes (Elt F) mh.view.junk (@runC F _ Ix _ U _ Lvl _ c (grid1.coords t1_4) ⟨(hpar t1_4).trans (by decide)⟩ (ms0 t1_4) (hs0 t1_4) (ms1 t1_4) (hs1 t1_4) (ms2 t1_4) (hs2 t1_4) (ms3 t1_4) (hs3 t1_4) (ms4 t1_4) (hs4 t1_4) (ms5 t1_4) (hs5 t1_4) (ms6 t1_4) (hs6 t1_4) mh hmh mz hmz (fun h => absurd ((hcond1 t1_4).mp h) (by decide)) (fun h => absurd ((hcond2 t1_4).mp h) (by decide)) ((hcond3 t1_4).mpr (by decide)) (iblk A c 0 t1_4) (iblk A c 1 t1_4) (iblk A c 2 t1_4) (iblk A c 3 t1_4) (iblk A c 4 t1_4) (iblk A c 5 t1_4) (Hat Ix U Lvl A c 3 t1_3.isLt) (Zat A c t1_3)).1.2) := rfl
theorem Oat_1 (c : Dev nD) : Oat Ix U Lvl A c t1_1.val t1_1.isLt = (ms6 t1_1).view.read (Elt F) ((ms6 t1_1).view.writes (Elt F) (ms6 t1_1).view.junk (@runBo F _ Ix _ U _ Lvl _ c (grid1.coords t1_1) ⟨(hpar t1_1).trans (by decide)⟩ (ms0 t1_1) (hs0 t1_1) (ms1 t1_1) (hs1 t1_1) (ms2 t1_1) (hs2 t1_1) (ms3 t1_1) (hs3 t1_1) (ms4 t1_1) (hs4 t1_1) (ms5 t1_1) (hs5 t1_1) (ms6 t1_1) (hs6 t1_1) mh hmh mz hmz (fun h => absurd ((hcond1 t1_1).mp h) (by decide)) ((hcond2 t1_1).mpr (by decide)) ((hcond3 t1_1).mpr (by decide)) (iblk A c 0 t1_1) (iblk A c 1 t1_1) (iblk A c 2 t1_1) (iblk A c 3 t1_1) (iblk A c 4 t1_1) (iblk A c 5 t1_1) (Hat Ix U Lvl A c 0 t1_0.isLt) (Zat A c t1_0)).1.1) := rfl
theorem Oat_2 (c : Dev nD) : Oat Ix U Lvl A c t1_2.val t1_2.isLt = (ms6 t1_2).view.read (Elt F) ((ms6 t1_2).view.writes (Elt F) (ms6 t1_2).view.junk (@runBe F _ Ix _ U _ Lvl _ c (grid1.coords t1_2) ⟨(hpar t1_2).trans (by decide)⟩ (ms0 t1_2) (hs0 t1_2) (ms1 t1_2) (hs1 t1_2) (ms2 t1_2) (hs2 t1_2) (ms3 t1_2) (hs3 t1_2) (ms4 t1_2) (hs4 t1_2) (ms5 t1_2) (hs5 t1_2) (ms6 t1_2) (hs6 t1_2) mh hmh mz hmz (fun h => absurd ((hcond1 t1_2).mp h) (by decide)) ((hcond2 t1_2).mpr (by decide)) ((hcond3 t1_2).mpr (by decide)) (iblk A c 0 t1_2) (iblk A c 1 t1_2) (iblk A c 2 t1_2) (iblk A c 3 t1_2) (iblk A c 4 t1_2) (iblk A c 5 t1_2) (Hat Ix U Lvl A c 1 t1_1.isLt) (Zat A c t1_1)).1.1) := rfl
theorem Oat_3 (c : Dev nD) : Oat Ix U Lvl A c t1_3.val t1_3.isLt = (ms6 t1_3).view.read (Elt F) ((ms6 t1_3).view.writes (Elt F) (ms6 t1_3).view.junk (@runBo F _ Ix _ U _ Lvl _ c (grid1.coords t1_3) ⟨(hpar t1_3).trans (by decide)⟩ (ms0 t1_3) (hs0 t1_3) (ms1 t1_3) (hs1 t1_3) (ms2 t1_3) (hs2 t1_3) (ms3 t1_3) (hs3 t1_3) (ms4 t1_3) (hs4 t1_3) (ms5 t1_3) (hs5 t1_3) (ms6 t1_3) (hs6 t1_3) mh hmh mz hmz (fun h => absurd ((hcond1 t1_3).mp h) (by decide)) ((hcond2 t1_3).mpr (by decide)) ((hcond3 t1_3).mpr (by decide)) (iblk A c 0 t1_3) (iblk A c 1 t1_3) (iblk A c 2 t1_3) (iblk A c 3 t1_3) (iblk A c 4 t1_3) (iblk A c 5 t1_3) (Hat Ix U Lvl A c 2 t1_2.isLt) (Zat A c t1_2)).1.1) := rfl
theorem Oat_4 (c : Dev nD) : Oat Ix U Lvl A c t1_4.val t1_4.isLt = (ms6 t1_4).view.read (Elt F) ((ms6 t1_4).view.writes (Elt F) (ms6 t1_4).view.junk (@runC F _ Ix _ U _ Lvl _ c (grid1.coords t1_4) ⟨(hpar t1_4).trans (by decide)⟩ (ms0 t1_4) (hs0 t1_4) (ms1 t1_4) (hs1 t1_4) (ms2 t1_4) (hs2 t1_4) (ms3 t1_4) (hs3 t1_4) (ms4 t1_4) (hs4 t1_4) (ms5 t1_4) (hs5 t1_4) (ms6 t1_4) (hs6 t1_4) mh hmh mz hmz (fun h => absurd ((hcond1 t1_4).mp h) (by decide)) (fun h => absurd ((hcond2 t1_4).mp h) (by decide)) ((hcond3 t1_4).mpr (by decide)) (iblk A c 0 t1_4) (iblk A c 1 t1_4) (iblk A c 2 t1_4) (iblk A c 3 t1_4) (iblk A c 4 t1_4) (iblk A c 5 t1_4) (Hat Ix U Lvl A c 3 t1_3.isLt) (Zat A c t1_3)).1.1) := rfl

end

/-! ## The body obligation -/

/-- At the first point the output window's buffer, fetched by nothing, holds what it held. -/
theorem before1_6_first (c : Dev nD) (d) : (dats (U := U) (Lvl := Lvl) A q B0 0 c).before 6 t1_0 d = d := by
  unfold Dat.before
  rw [if_neg (by rw [show ((cfgs 0).win 6).fetch t1_0 = false from by decide +kernel]; exact Bool.false_ne_true), if_pos (show (t1_0 : Fin grid1.N).val = 0 from rfl)]

set_option maxHeartbeats 1600000 in
/-- The body at every point: the inputs' current buffers hold their blocks; the point's control case is known (the
    first point, an odd or even inner point, the last point) and that case's triple applies, the carried buffers at what
    the invariant says; what the body leaves is the next invariant — the new hidden state read back from its covering
    pieces, the point's projection on top of the one just read — and the output block's covering pieces read back;
    the core owes nothing throughout. -/
theorem body_obligation (c : Dev nD) (ι : Ix) :
    Pipeline.BodyObligationLoose (dats (U := U) (Lvl := Lvl) A q B0 0 c) (defs₀ (F := F)) Variants.none ι Set.univ := fun t => by
  rw [bigSep_W1, bigSep_W1]
  rcases fin_N1 t with rfl | rfl | rfl | rfl | rfl
  · simp only [before1_0, before1_1, before1_2, before1_3, before1_4, before1_5, after1_0, after1_1, after1_2, after1_3, after1_4, after1_5, after1_6, Φ_eq, show idle1 6 (grid1.coords t1_0) = true from by decide +kernel, show (win1 6).flush t1_0 = false from by decide +kernel]
    rw [show ((t1_0 : Fin cfg1.N).castSucc).val = 0 from rfl, show ((t1_0 : Fin cfg1.N).succ).val = 1 from rfl,
      show (dats (U := U) (Lvl := Lvl) A q B0 0 c).owesAt ι (t1_0 : Fin cfg1.N).succ = (dats (U := U) (Lvl := Lvl) A q B0 0 c).owesAt ι (t1_0 : Fin cfg1.N).castSucc from rfl]
    simp only [ΦN, before1_6_first]
    rw [Hat_0]
    iintro ⟨⟨⟨%dh, Hh⟩, ⟨%dz, Hz⟩⟩, Ho, ⟨%d0, H0⟩, ⟨%d1, H1⟩, ⟨%d2, H2⟩, ⟨%d3, H3⟩, ⟨%d4, H4⟩, ⟨%d5, H5⟩, ⟨%d6, H6⟩⟩
    iapply (@specA F _ Ix _ U _ Lvl _ c (grid1.coords t1_0) ⟨(hpar t1_0).trans (by decide)⟩ (ms0 t1_0) (hs0 t1_0) (ms1 t1_0) (hs1 t1_0) (ms2 t1_0) (hs2 t1_0) (ms3 t1_0) (hs3 t1_0) (ms4 t1_0) (hs4 t1_0) (ms5 t1_0) (hs5 t1_0) (ms6 t1_0) (hs6 t1_0) mh hmh mz hmz ((hcond1 t1_0).mpr (by decide)) ((hcond2 t1_0).mpr (by decide)) (fun h => absurd ((hcond3 t1_0).mp h) (by decide)) (iblk A c 0 t1_0) (iblk A c 1 t1_0) (iblk A c 2 t1_0) (iblk A c 3 t1_0) (iblk A c 4 t1_0) (iblk A c 5 t1_0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Hh]; · iexists _; iexact Hh
    isplitl [Hz]; · iexists _; iexact Hz
    iintro ⟨H0, H1, H2, H3, H4, H5, H6, H8, H9⟩
    isplitl [H8 H9]
    · isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before1_0, before1_1, before1_2, before1_3, before1_4, before1_5, after1_0, after1_1, after1_2, after1_3, after1_4, after1_5, after1_6, Φ_eq, show idle1 6 (grid1.coords t1_1) = false from by decide +kernel]
    rw [show ((t1_1 : Fin cfg1.N).castSucc).val = 1 from rfl, show ((t1_1 : Fin cfg1.N).succ).val = 2 from rfl,
      show (dats (U := U) (Lvl := Lvl) A q B0 0 c).owesAt ι (t1_1 : Fin cfg1.N).succ = (dats (U := U) (Lvl := Lvl) A q B0 0 c).owesAt ι (t1_1 : Fin cfg1.N).castSucc from rfl]
    simp only [ΦN]
    rw [Hat_1, Oat_1]
    iintro ⟨⟨Hh, Hz⟩, Ho, ⟨%d0, H0⟩, ⟨%d1, H1⟩, ⟨%d2, H2⟩, ⟨%d3, H3⟩, ⟨%d4, H4⟩, ⟨%d5, H5⟩, ⟨%d6, H6⟩⟩
    iapply (@specBo F _ Ix _ U _ Lvl _ c (grid1.coords t1_1) ⟨(hpar t1_1).trans (by decide)⟩ (ms0 t1_1) (hs0 t1_1) (ms1 t1_1) (hs1 t1_1) (ms2 t1_1) (hs2 t1_1) (ms3 t1_1) (hs3 t1_1) (ms4 t1_1) (hs4 t1_1) (ms5 t1_1) (hs5 t1_1) (ms6 t1_1) (hs6 t1_1) mh hmh mz hmz (fun h => absurd ((hcond1 t1_1).mp h) (by decide)) ((hcond2 t1_1).mpr (by decide)) ((hcond3 t1_1).mpr (by decide)) (iblk A c 0 t1_1) (iblk A c 1 t1_1) (iblk A c 2 t1_1) (iblk A c 3 t1_1) (iblk A c 4 t1_1) (iblk A c 5 t1_1) (Hat Ix U Lvl A c 0 t1_0.isLt) (Zat A c t1_0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Hh]; · iexact Hh
    isplitl [Hz]; · iexact Hz
    iintro ⟨H0, H1, H2, H3, H4, H5, H7, H8, H9⟩
    isplitl [H8 H9]
    · isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H7
  · simp only [before1_0, before1_1, before1_2, before1_3, before1_4, before1_5, after1_0, after1_1, after1_2, after1_3, after1_4, after1_5, after1_6, Φ_eq, show idle1 6 (grid1.coords t1_2) = false from by decide +kernel]
    rw [show ((t1_2 : Fin cfg1.N).castSucc).val = 2 from rfl, show ((t1_2 : Fin cfg1.N).succ).val = 3 from rfl,
      show (dats (U := U) (Lvl := Lvl) A q B0 0 c).owesAt ι (t1_2 : Fin cfg1.N).succ = (dats (U := U) (Lvl := Lvl) A q B0 0 c).owesAt ι (t1_2 : Fin cfg1.N).castSucc from rfl]
    simp only [ΦN]
    rw [Hat_2, Oat_2]
    iintro ⟨⟨Hh, Hz⟩, Ho, ⟨%d0, H0⟩, ⟨%d1, H1⟩, ⟨%d2, H2⟩, ⟨%d3, H3⟩, ⟨%d4, H4⟩, ⟨%d5, H5⟩, ⟨%d6, H6⟩⟩
    iapply (@specBe F _ Ix _ U _ Lvl _ c (grid1.coords t1_2) ⟨(hpar t1_2).trans (by decide)⟩ (ms0 t1_2) (hs0 t1_2) (ms1 t1_2) (hs1 t1_2) (ms2 t1_2) (hs2 t1_2) (ms3 t1_2) (hs3 t1_2) (ms4 t1_2) (hs4 t1_2) (ms5 t1_2) (hs5 t1_2) (ms6 t1_2) (hs6 t1_2) mh hmh mz hmz (fun h => absurd ((hcond1 t1_2).mp h) (by decide)) ((hcond2 t1_2).mpr (by decide)) ((hcond3 t1_2).mpr (by decide)) (iblk A c 0 t1_2) (iblk A c 1 t1_2) (iblk A c 2 t1_2) (iblk A c 3 t1_2) (iblk A c 4 t1_2) (iblk A c 5 t1_2) (Hat Ix U Lvl A c 1 t1_1.isLt) (Zat A c t1_1) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Hh]; · iexact Hh
    isplitl [Hz]; · iexact Hz
    iintro ⟨H0, H1, H2, H3, H4, H5, H7, H8, H9⟩
    isplitl [H8 H9]
    · isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H7
  · simp only [before1_0, before1_1, before1_2, before1_3, before1_4, before1_5, after1_0, after1_1, after1_2, after1_3, after1_4, after1_5, after1_6, Φ_eq, show idle1 6 (grid1.coords t1_3) = false from by decide +kernel]
    rw [show ((t1_3 : Fin cfg1.N).castSucc).val = 3 from rfl, show ((t1_3 : Fin cfg1.N).succ).val = 4 from rfl,
      show (dats (U := U) (Lvl := Lvl) A q B0 0 c).owesAt ι (t1_3 : Fin cfg1.N).succ = (dats (U := U) (Lvl := Lvl) A q B0 0 c).owesAt ι (t1_3 : Fin cfg1.N).castSucc from rfl]
    simp only [ΦN]
    rw [Hat_3, Oat_3]
    iintro ⟨⟨Hh, Hz⟩, Ho, ⟨%d0, H0⟩, ⟨%d1, H1⟩, ⟨%d2, H2⟩, ⟨%d3, H3⟩, ⟨%d4, H4⟩, ⟨%d5, H5⟩, ⟨%d6, H6⟩⟩
    iapply (@specBo F _ Ix _ U _ Lvl _ c (grid1.coords t1_3) ⟨(hpar t1_3).trans (by decide)⟩ (ms0 t1_3) (hs0 t1_3) (ms1 t1_3) (hs1 t1_3) (ms2 t1_3) (hs2 t1_3) (ms3 t1_3) (hs3 t1_3) (ms4 t1_3) (hs4 t1_3) (ms5 t1_3) (hs5 t1_3) (ms6 t1_3) (hs6 t1_3) mh hmh mz hmz (fun h => absurd ((hcond1 t1_3).mp h) (by decide)) ((hcond2 t1_3).mpr (by decide)) ((hcond3 t1_3).mpr (by decide)) (iblk A c 0 t1_3) (iblk A c 1 t1_3) (iblk A c 2 t1_3) (iblk A c 3 t1_3) (iblk A c 4 t1_3) (iblk A c 5 t1_3) (Hat Ix U Lvl A c 2 t1_2.isLt) (Zat A c t1_2) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Hh]; · iexact Hh
    isplitl [Hz]; · iexact Hz
    iintro ⟨H0, H1, H2, H3, H4, H5, H7, H8, H9⟩
    isplitl [H8 H9]
    · isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H7
  · simp only [before1_0, before1_1, before1_2, before1_3, before1_4, before1_5, after1_0, after1_1, after1_2, after1_3, after1_4, after1_5, after1_6, Φ_eq, show idle1 6 (grid1.coords t1_4) = false from by decide +kernel]
    rw [show ((t1_4 : Fin cfg1.N).castSucc).val = 4 from rfl, show ((t1_4 : Fin cfg1.N).succ).val = 5 from rfl,
      show (dats (U := U) (Lvl := Lvl) A q B0 0 c).owesAt ι (t1_4 : Fin cfg1.N).succ = (dats (U := U) (Lvl := Lvl) A q B0 0 c).owesAt ι (t1_4 : Fin cfg1.N).castSucc from rfl]
    simp only [ΦN]
    rw [Hat_4, Oat_4]
    iintro ⟨⟨Hh, Hz⟩, Ho, ⟨%d0, H0⟩, ⟨%d1, H1⟩, ⟨%d2, H2⟩, ⟨%d3, H3⟩, ⟨%d4, H4⟩, ⟨%d5, H5⟩, ⟨%d6, H6⟩⟩
    iapply (@specC F _ Ix _ U _ Lvl _ c (grid1.coords t1_4) ⟨(hpar t1_4).trans (by decide)⟩ (ms0 t1_4) (hs0 t1_4) (ms1 t1_4) (hs1 t1_4) (ms2 t1_4) (hs2 t1_4) (ms3 t1_4) (hs3 t1_4) (ms4 t1_4) (hs4 t1_4) (ms5 t1_4) (hs5 t1_4) (ms6 t1_4) (hs6 t1_4) mh hmh mz hmz (fun h => absurd ((hcond1 t1_4).mp h) (by decide)) (fun h => absurd ((hcond2 t1_4).mp h) (by decide)) ((hcond3 t1_4).mpr (by decide)) (iblk A c 0 t1_4) (iblk A c 1 t1_4) (iblk A c 2 t1_4) (iblk A c 3 t1_4) (iblk A c 4 t1_4) (iblk A c 5 t1_4) (Hat Ix U Lvl A c 3 t1_3.isLt) (Zat A c t1_3) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Hh]; · iexact Hh
    isplitl [Hz]; · iexact Hz
    iintro ⟨H0, H1, H2, H3, H4, H5, H7, H8, H9⟩
    isplitl [H8 H9]
    · isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H7

end Cert.Proof.BitsRegion

end
-- ==== Proof.BitsClaims.lean ====
/-
  The printed kernel's run and frame (read at any float instance; used at the word-level one).
  Under the precondition every entry of state_indices names a row of the table, so the SparseCore call's gathers are all
  in range; the kernel region's body meets its obligation at every grid point; so the program's 35 threads run to the end
  from any memory satisfying the precondition, the arguments unchanged and the result array at what the region leaves.
-/
import proofs.«213871_g15814069584205_fold_wed_c4_299_27_alg».proof.Defs
import proofs.«213871_g15814069584205_fold_wed_c4_299_27_alg».proof.Proof.PreIdx
import proofs.«213871_g15814069584205_fold_wed_c4_299_27_alg».proof.Proof.BitsRegionSeg
import proofs.«213871_g15814069584205_fold_wed_c4_299_27_alg».proof.Proof.BitsRegionBody
import proofs.«213871_g15814069584205_fold_wed_c4_299_27_alg».proof.Proof.Gen.Pre_input_domain

noncomputable section

namespace Cert.Proof.BitsClaims

open Cert.Kernel Cert.Kernel.Gen Cert.Proof.BitsTile Cert.Proof.BitsLaunch Cert.Proof.BitsMain Cert.Proof.BitsRegionSeg

open Idealize.ShloMosaic Idealize.ShloMosaic.TcCoe
open Idealize.ShloMosaic.SparseCore.Cfg (HIx)
open Idealize.SL Idealize.SL.RA Idealize.SL.BI Idealize.SL.Sem

variable {F : FTy → Type} [FloatOps F] [∀ e, Nonempty (Elt F e)]
variable (m : (ℓ : Loc nD τ sig) → Buf (Elt F) ℓ) (ρ : Dev nD → PrngReg)

/-- The precondition holds of the argument arrays on every device. -/
def Pre : Prop := ∀ c : Dev nD,
  Cert.Pre_input_domain.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    = (fun _ => 1#1)

/-- Under it every entry of state_indices names a row of the table. -/
theorem range (hpre : Pre m) : ∀ (d : Dev nD) (x : S16x512.Idx), (m ((SparseCore.T d : Thread nD τ).loc main_arg1) x).toNat < 1024 :=
  fun d x => Cert.Proof.PreIdx.idx_lt_of_pre _ _ _ _ _ _ _ (hpre d) x

/-- The kernel region's body meets its obligation at every grid point, whatever arrays the region finds. -/
theorem hbody (d : Dev nD) (f : Buf (Elt F) (outLoc d)) (W₀ : Waits sig (HIx 1)) (c : Dev nD) :
    Pipeline.BodyObligationLoose (pd m d f W₀ 0 c) (defs₀ (F := F)) Variants.none (none : HIx 1) Set.univ :=
  Cert.Proof.BitsRegion.body_obligation (Aw m d f) (fun _ => fullShare) (B0 W₀) c none

/-- THE RUN of the program from a memory satisfying the precondition. -/
theorem run (hpre : Pre m) :
    θ_run (Cert.Kernel.defs (F := F)) (Cert.Kernel.threads (F := F)) ⟨m, fun _ => 0, ρ⟩ (QC m (idxOK_of_range m (range m hpre)) (OUT m)) :=
  run_main m ρ (idxOK_of_range m (range m hpre)) (OUT m) (regionSpec m (idxOK_of_range m (range m hpre)) (hbody m))

end Cert.Proof.BitsClaims

end
-- ==== Proof.lean ====
/-
  A single-layer tanh recurrence over embedded states and actions, kernel against reference.
  With x_t[b] the 192 numbers actions[b, t, ·] followed by emb[state_indices[b, t], ·], both programs compute
      h₀ = 0,   h_{t+1}[b, ·] = tanh(x_t[b]·W_ihᵀ + b_ih + b_hh + h_t[b]·W_hhᵀ),   out[b, t, ·] = h_{t+1}[b, ·]
  for 512 time steps, batch 16, hidden width 512. The reference is a host program: a lookup, a concatenation and a counted
  loop of 512 trips. The kernel looks the embedding rows up on the SparseCores (32 tasks, each gathering 256 rows of the
  time-major list by one indexed copy), then runs the recurrence on the TensorCore as a pipeline of five grid points over
  time chunks of 128 steps: a point projects its chunk's inputs (the 192-long sum as its 64 action columns and its 128
  embedding columns, the two biases added) into one of two slots, and runs the 128 steps of the chunk before, each step
  the 512-long sum over the hidden state as its two halves of 256. Over the extended reals the two programs differ only by
  how these sums are grouped, and addition there is commutative and associative; no product is moved across a sum, so
  finiteness of the inputs is never used. The precondition's range 0 ≤ state_indices ≤ 1023 is what lets every gather run
  (the table has 1024 rows) and makes the reference's range test true.
  Both sides are proved equal to one specification (Spec.lean); the frames are the runs with the values dropped; the ideal
  pass rewrote nothing, so there is nothing to preserve.
-/
import proofs.«213871_g15814069584205_fold_wed_c4_299_27_alg».proof.Defs
import proofs.«213871_g15814069584205_fold_wed_c4_299_27_alg».proof.Proof.Gen.Kernel
import proofs.«213871_g15814069584205_fold_wed_c4_299_27_alg».proof.Proof.Gen.KernelIdeal
import proofs.«213871_g15814069584205_fold_wed_c4_299_27_alg».proof.Proof.Gen.ReferenceIdeal
import proofs.«213871_g15814069584205_fold_wed_c4_299_27_alg».proof.Proof.Gen.Pre_input_domain
import proofs.«213871_g15814069584205_fold_wed_c4_299_27_alg».proof.Proof.Ref
import proofs.«213871_g15814069584205_fold_wed_c4_299_27_alg».proof.Proof.RefValue
import proofs.«213871_g15814069584205_fold_wed_c4_299_27_alg».proof.Proof.IdealClaims
import proofs.«213871_g15814069584205_fold_wed_c4_299_27_alg».proof.Proof.IdealValue
import proofs.«213871_g15814069584205_fold_wed_c4_299_27_alg».proof.Proof.IdealValueEntry
import proofs.«213871_g15814069584205_fold_wed_c4_299_27_alg».proof.Proof.BitsClaims
import Idealize.ShloMosaic.Adequacy
import Idealize.ShloMosaic.Init

noncomputable section

namespace Cert.Proof

open Idealize.ShloMosaic Idealize.ShloMosaic.TcCoe Idealize.SL.Sem

/-- The kernel as printed runs to the end from any memory satisfying the precondition, its arguments unchanged. -/
theorem frame_k : Cert.frame_Kernel := fun m ρ hpre =>
  (θ_run Cert.Kernel.defs _ _).mono (fun _ h c => (h c).2) (Cert.Proof.BitsClaims.run (F := Bits) m ρ hpre)

/-- So does its reading over the extended reals. -/
theorem frame_ki : Cert.frame_KernelIdeal := fun m ρ hpre =>
  (θ_run Cert.KernelIdeal.defs _ _).mono (fun _ h c => (h c).2) (Cert.Proof.IdealClaims.run (F := Ideal) m ρ hpre)

/-- From memories that agree on the arguments both programs end with the specification's result. -/
theorem algebraic : Cert.algebraic_KernelIdeal_ReferenceIdeal := by
  intro m ρ m' ρ' hpre hagree
  have hr := Cert.Proof.IdealClaims.range m hpre
  refine ⟨fun c => Cert.Proof.IdealFinal.G m c, ?_, ?_⟩
  · refine (θ_run Cert.KernelIdeal.defs _ _).mono (fun r h c => ?_) (Cert.Proof.IdealClaims.run (F := Ideal) m ρ hpre)
    obtain ⟨⟨f, hf, hv⟩, hargs⟩ := h c
    exact ⟨hv.trans (Cert.Proof.IdealFinal.out_eq_spec m c f
      (Cert.Proof.IdealValue.Oat_eq (Idealize.ShloMosaic.SparseCore.Cfg.HIx 1) Cert.Proof.IdealTile.UU ℕ (Cert.Proof.IdealRegionSeg.Aw m c f) c (Cert.Proof.IdealFinal.argsK m c)
        (fun n _ s hs h' b j => Cert.Proof.IdealValue.Z_fact m hr c f hf n (by omega) s hs b j)
        (fun t k j => Cert.Proof.IdealValue.W_fact m c f t k j)
        (fun b j => Cert.Proof.IdealValue.H0_fact m c f b j))), hargs⟩
  · refine (θ_run Cert.ReferenceIdeal.defs _ _).mono (fun _ h c => ⟨(h c).1.trans ?_, (h c).2⟩) (Cert.ReferenceIdeal.Value.run (F := Ideal) m' ρ')
    have hidx : ∀ x, (m' ((c.tc : Thread Cert.ReferenceIdeal.nD Cert.ReferenceIdeal.τ).loc Cert.ReferenceIdeal.main_arg1) x).toNat < 1024 := by
      intro x; rw [(hagree c).2.1]; exact hr c x
    rw [Cert.Proof.RefValue.ref_eq_spec m' c hidx]
    have e : Cert.Proof.RefValue.argsR m' c = Cert.Proof.IdealFinal.argsK m c := by
      unfold Cert.Proof.RefValue.argsR Cert.Proof.IdealFinal.argsK
      rw [(hagree c).1, (hagree c).2.1, (hagree c).2.2.1, (hagree c).2.2.2.1, (hagree c).2.2.2.2.1, (hagree c).2.2.2.2.2.1, (hagree c).2.2.2.2.2.2]
    rw [e]; rfl

theorem claim : Cert.Claim := ⟨Cert.Kernel.Gen.facts, Cert.KernelIdeal.Gen.facts, Cert.ReferenceIdeal.Gen.facts, Cert.Pre_input_domain.Gen.facts,
  frame_k, frame_ki, Cert.Proof.Ref.frame_ri, Cert.Proof.Ref.preserves, algebraic⟩

end Cert.Proof

end
